-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v77)) (v3 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_v78) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x3x28x28 : Shape := ⟨4, ![48, 3, 28, 28]⟩
abbrev S128x128 : Shape := ⟨2, ![128, 128]⟩
abbrev S128 : Shape := ⟨1, ![128]⟩
abbrev S1600x128 : Shape := ⟨2, ![1600, 128]⟩
abbrev S6272x4096 : Shape := ⟨2, ![6272, 4096]⟩
abbrev S1x4096 : Shape := ⟨2, ![1, 4096]⟩
abbrev S4096x512 : Shape := ⟨2, ![4096, 512]⟩
abbrev S2x1x512 : Shape := ⟨3, ![2, 1, 512]⟩
abbrev S1024x128 : Shape := ⟨2, ![1024, 128]⟩
abbrev S2x1x128 : Shape := ⟨3, ![2, 1, 128]⟩
abbrev S_ : Shape := ⟨0, ![]⟩

class Facts : Prop where
  bcast_S_S48x3x28x28 : S_.BroadcastsInDim S48x3x28x28 (![] : Fin 0 → Fin S48x3x28x28.rank)
  reducesTo_S48x3x28x28_S_d0_1_2_3 : S48x3x28x28.ReducesTo [0, 1, 2, 3] S_
  h_S_ : 0 < S_.numel
  bitsLt_bf16_f32 : FTy.bits .bf16 < FTy.bits .f32
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600x128 : S_.BroadcastsInDim S1600x128 (![] : Fin 0 → Fin S1600x128.rank)
  reducesTo_S1600x128_S_d0_1 : S1600x128.ReducesTo [0, 1] S_
  bcast_S_S6272x4096 : S_.BroadcastsInDim S6272x4096 (![] : Fin 0 → Fin S6272x4096.rank)
  reducesTo_S6272x4096_S_d0_1 : S6272x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S2x1x512 : S_.BroadcastsInDim S2x1x512 (![] : Fin 0 → Fin S2x1x512.rank)
  reducesTo_S2x1x512_S_d0_1_2 : S2x1x512.ReducesTo [0, 1, 2] S_
  bcast_S_S1024x128 : S_.BroadcastsInDim S1024x128 (![] : Fin 0 → Fin S1024x128.rank)
  reducesTo_S1024x128_S_d0_1 : S1024x128.ReducesTo [0, 1] S_
  bcast_S_S2x1x128 : S_.BroadcastsInDim S2x1x128 (![] : Fin 0 → Fin S2x1x128.rank)
  reducesTo_S2x1x128_S_d0_1_2 : S2x1x128.ReducesTo [0, 1, 2] S_

variable [Facts]

def fn_part5 {F : FTy → Type} [FloatOps F] (main_arg17 : FVec F S2x1x128 .f32) (main_v83 : IVec S_ 1) (main_v85 : FVec F S1024x128 .f32) (main_v86 : FVec F S1024x128 .f32) : IVec S_ 1 :=
  let main_v87 : IVec S1024x128 1 := cmpf .olt main_v85 main_v86
  let main_c_31 : IVec S_ 1 := constantI S_ 1 1#1
  let main_v88 : IVec S_ 1 := (fun x v => Host.reduce IntOp.andi x v reducesTo_S1024x128_S_d0_1 h_S_) main_v87 main_c_31
  let main_v89 : IVec S_ 1 := andi main_v83 main_v88
  let main_v90 : FVec F S2x1x128 .f32 := Host.absf main_arg17
  let main_cst_32 : FVec F S_ .f32 := constant S_ .f32 0x7F800000#32
  let main_v91 : FVec F S2x1x128 .f32 := broadcastInDim S2x1x128 ![] bcast_S_S2x1x128 main_cst_32
  let main_v92 : IVec S2x1x128 1 := cmpf .olt main_v90 main_v91
  let main_c_33 : IVec S_ 1 := constantI S_ 1 1#1
  let main_v93 : IVec S_ 1 := (fun x v => Host.reduce IntOp.andi x v reducesTo_S2x1x128_S_d0_1_2 h_S_) main_v92 main_c_33
  let main_v94 : IVec S_ 1 := andi main_v89 main_v93
  main_v94

def fn_part4 {F : FTy → Type} [FloatOps F] (main_arg14 : FVec F S2x1x512 .f32) (main_arg15 : FVec F S2x1x512 .f32) (main_arg16 : FVec F S1024x128 .bf16) (main_arg17 : FVec F S2x1x128 .f32) (main_v67 : IVec S_ 1) (main_v69 : FVec F S4096x512 .f32) : IVec S_ 1 :=
  let main_cst_24 : FVec F S_ .f32 := constant S_ .f32 0x7F800000#32
  let main_v70 : FVec F S4096x512 .f32 := broadcastInDim S4096x512 ![] bcast_S_S4096x512 main_cst_24
  let main_v71 : IVec S4096x512 1 := cmpf .olt main_v69 main_v70
  let main_c_25 : IVec S_ 1 := constantI S_ 1 1#1
  let main_v72 : IVec S_ 1 := (fun x v => Host.reduce IntOp.andi x v reducesTo_S4096x512_S_d0_1 h_S_) main_v71 main_c_25
  let main_v73 : IVec S_ 1 := andi main_v67 main_v72
  let main_v74 : FVec F S2x1x512 .f32 := Host.absf main_arg14
  let main_cst_26 : FVec F S_ .f32 := constant S_ .f32 0x7F800000#32
  let main_v75 : FVec F S2x1x512 .f32 := broadcastInDim S2x1x512 ![] bcast_S_S2x1x512 main_cst_26
  let main_v76 : IVec S2x1x512 1 := cmpf .olt main_v74 main_v75
  let main_c_27 : IVec S_ 1 := constantI S_ 1 1#1
  let main_v77 : IVec S_ 1 := (fun x v => Host.reduce IntOp.andi x v reducesTo_S2x1x512_S_d0_1_2 h_S_) main_v76 main_c_27
  let main_v78 : IVec S_ 1 := andi main_v73 main_v77
  let main_v79 : FVec F S2x1x512 .f32 := Host.absf main_arg15
  let main_cst_28 : FVec F S_ .f32 := constant S_ .f32 0x7F800000#32
  let main_v80 : FVec F S2x1x512 .f32 := broadcastInDim S2x1x512 ![] bcast_S_S2x1x512 main_cst_28
  let main_v81 : IVec S2x1x512 1 := cmpf .olt main_v79 main_v80
  let main_c_29 : IVec S_ 1 := constantI S_ 1 1#1
  let main_v82 : IVec S_ 1 := (fun x v => Host.reduce IntOp.andi x v reducesTo_S2x1x512_S_d0_1_2 h_S_) main_v81 main_c_29
  let main_v83 : IVec S_ 1 := andi main_v78 main_v82
  let main_v84 : FVec F S1024x128 .f32 := (extf .f32 · bitsLt_bf16_f32) main_arg16
  let main_v85 : FVec F S1024x128 .f32 := Host.absf main_v84
  let main_cst_30 : FVec F S_ .f32 := constant S_ .f32 0x7F800000#32
  let main_v86 : FVec F S1024x128 .f32 := broadcastInDim S1024x128 ![] bcast_S_S1024x128 main_cst_30
  fn_part5 (F := F) main_arg17 main_v83 main_v85 main_v86

def fn_part3 {F : FTy → Type} [FloatOps F] (main_arg10 : FVec F S6272x4096 .bf16) (main_arg11 : FVec F S1x4096 .f32) (main_arg12 : FVec F S1x4096 .f32) (main_arg13 : FVec F S4096x512 .bf16) (main_arg14 : FVec F S2x1x512 .f32) (main_arg15 : FVec F S2x1x512 .f32) (main_arg16 : FVec F S1024x128 .bf16) (main_arg17 : FVec F S2x1x128 .f32) (main_v51 : IVec S_ 1) : IVec S_ 1 :=
  let main_v52 : FVec F S6272x4096 .f32 := (extf .f32 · bitsLt_bf16_f32) main_arg10
  let main_v53 : FVec F S6272x4096 .f32 := Host.absf main_v52
  let main_cst_18 : FVec F S_ .f32 := constant S_ .f32 0x7F800000#32
  let main_v54 : FVec F S6272x4096 .f32 := broadcastInDim S6272x4096 ![] bcast_S_S6272x4096 main_cst_18
  let main_v55 : IVec S6272x4096 1 := cmpf .olt main_v53 main_v54
  let main_c_19 : IVec S_ 1 := constantI S_ 1 1#1
  let main_v56 : IVec S_ 1 := (fun x v => Host.reduce IntOp.andi x v reducesTo_S6272x4096_S_d0_1 h_S_) main_v55 main_c_19
  let main_v57 : IVec S_ 1 := andi main_v51 main_v56
  let main_v58 : FVec F S1x4096 .f32 := Host.absf main_arg11
  let main_cst_20 : FVec F S_ .f32 := constant S_ .f32 0x7F800000#32
  let main_v59 : FVec F S1x4096 .f32 := broadcastInDim S1x4096 ![] bcast_S_S1x4096 main_cst_20
  let main_v60 : IVec S1x4096 1 := cmpf .olt main_v58 main_v59
  let main_c_21 : IVec S_ 1 := constantI S_ 1 1#1
  let main_v61 : IVec S_ 1 := (fun x v => Host.reduce IntOp.andi x v reducesTo_S1x4096_S_d0_1 h_S_) main_v60 main_c_21
  let main_v62 : IVec S_ 1 := andi main_v57 main_v61
  let main_v63 : FVec F S1x4096 .f32 := Host.absf main_arg12
  let main_cst_22 : FVec F S_ .f32 := constant S_ .f32 0x7F800000#32
  let main_v64 : FVec F S1x4096 .f32 := broadcastInDim S1x4096 ![] bcast_S_S1x4096 main_cst_22
  let main_v65 : IVec S1x4096 1 := cmpf .olt main_v63 main_v64
  let main_c_23 : IVec S_ 1 := constantI S_ 1 1#1
  let main_v66 : IVec S_ 1 := (fun x v => Host.reduce IntOp.andi x v reducesTo_S1x4096_S_d0_1 h_S_) main_v65 main_c_23
  let main_v67 : IVec S_ 1 := andi main_v62 main_v66
  let main_v68 : FVec F S4096x512 .f32 := (extf .f32 · bitsLt_bf16_f32) main_arg13
  let main_v69 : FVec F S4096x512 .f32 := Host.absf main_v68
  fn_part4 (F := F) main_arg14 main_arg15 main_arg16 main_arg17 main_v67 main_v69

def fn_part2 {F : FTy → Type} [FloatOps F] (main_arg7 : FVec F S1600x128 .bf16) (main_arg8 : FVec F S128 .f32) (main_arg9 : FVec F S128 .f32) (main_arg10 : FVec F S6272x4096 .bf16) (main_arg11 : FVec F S1x4096 .f32) (main_arg12 : FVec F S1x4096 .f32) (main_arg13 : FVec F S4096x512 .bf16) (main_arg14 : FVec F S2x1x512 .f32) (main_arg15 : FVec F S2x1x512 .f32) (main_arg16 : FVec F S1024x128 .bf16) (main_arg17 : FVec F S2x1x128 .f32) (main_v30 : IVec S_ 1) (main_v33 : IVec S128 1) (main_c_11 : IVec S_ 1) : IVec S_ 1 :=
  let main_v34 : IVec S_ 1 := (fun x v => Host.reduce IntOp.andi x v reducesTo_S128_S_d0 h_S_) main_v33 main_c_11
  let main_v35 : IVec S_ 1 := andi main_v30 main_v34
  let main_v36 : FVec F S1600x128 .f32 := (extf .f32 · bitsLt_bf16_f32) main_arg7
  let main_v37 : FVec F S1600x128 .f32 := Host.absf main_v36
  let main_cst_12 : FVec F S_ .f32 := constant S_ .f32 0x7F800000#32
  let main_v38 : FVec F S1600x128 .f32 := broadcastInDim S1600x128 ![] bcast_S_S1600x128 main_cst_12
  let main_v39 : IVec S1600x128 1 := cmpf .olt main_v37 main_v38
  let main_c_13 : IVec S_ 1 := constantI S_ 1 1#1
  let main_v40 : IVec S_ 1 := (fun x v => Host.reduce IntOp.andi x v reducesTo_S1600x128_S_d0_1 h_S_) main_v39 main_c_13
  let main_v41 : IVec S_ 1 := andi main_v35 main_v40
  let main_v42 : FVec F S128 .f32 := Host.absf main_arg8
  let main_cst_14 : FVec F S_ .f32 := constant S_ .f32 0x7F800000#32
  let main_v43 : FVec F S128 .f32 := broadcastInDim S128 ![] bcast_S_S128 main_cst_14
  let main_v44 : IVec S128 1 := cmpf .olt main_v42 main_v43
  let main_c_15 : IVec S_ 1 := constantI S_ 1 1#1
  let main_v45 : IVec S_ 1 := (fun x v => Host.reduce IntOp.andi x v reducesTo_S128_S_d0 h_S_) main_v44 main_c_15
  let main_v46 : IVec S_ 1 := andi main_v41 main_v45
  let main_v47 : FVec F S128 .f32 := Host.absf main_arg9
  let main_cst_16 : FVec F S_ .f32 := constant S_ .f32 0x7F800000#32
  let main_v48 : FVec F S128 .f32 := broadcastInDim S128 ![] bcast_S_S128 main_cst_16
  let main_v49 : IVec S128 1 := cmpf .olt main_v47 main_v48
  let main_c_17 : IVec S_ 1 := constantI S_ 1 1#1
  let main_v50 : IVec S_ 1 := (fun x v => Host.reduce IntOp.andi x v reducesTo_S128_S_d0 h_S_) main_v49 main_c_17
  let main_v51 : IVec S_ 1 := andi main_v46 main_v50
  fn_part3 (F := F) main_arg10 main_arg11 main_arg12 main_arg13 main_arg14 main_arg15 main_arg16 main_arg17 main_v51

def fn_part1 {F : FTy → Type} [FloatOps F] (main_arg4 : FVec F S1600x128 .bf16) (main_arg5 : FVec F S128 .f32) (main_arg6 : FVec F S128 .f32) (main_arg7 : FVec F S1600x128 .bf16) (main_arg8 : FVec F S128 .f32) (main_arg9 : FVec F S128 .f32) (main_arg10 : FVec F S6272x4096 .bf16) (main_arg11 : FVec F S1x4096 .f32) (main_arg12 : FVec F S1x4096 .f32) (main_arg13 : FVec F S4096x512 .bf16) (main_arg14 : FVec F S2x1x512 .f32) (main_arg15 : FVec F S2x1x512 .f32) (main_arg16 : FVec F S1024x128 .bf16) (main_arg17 : FVec F S2x1x128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S1600x128 .f32 := (extf .f32 · bitsLt_bf16_f32) main_arg4
  let main_v21 : FVec F S1600x128 .f32 := Host.absf main_v20
  let main_cst_6 : FVec F S_ .f32 := constant S_ .f32 0x7F800000#32
  let main_v22 : FVec F S1600x128 .f32 := broadcastInDim S1600x128 ![] bcast_S_S1600x128 main_cst_6
  let main_v23 : IVec S1600x128 1 := cmpf .olt main_v21 main_v22
  let main_c_7 : IVec S_ 1 := constantI S_ 1 1#1
  let main_v24 : IVec S_ 1 := (fun x v => Host.reduce IntOp.andi x v reducesTo_S1600x128_S_d0_1 h_S_) main_v23 main_c_7
  let main_v25 : IVec S_ 1 := andi main_v19 main_v24
  let main_v26 : FVec F S128 .f32 := Host.absf main_arg5
  let main_cst_8 : FVec F S_ .f32 := constant S_ .f32 0x7F800000#32
  let main_v27 : FVec F S128 .f32 := broadcastInDim S128 ![] bcast_S_S128 main_cst_8
  let main_v28 : IVec S128 1 := cmpf .olt main_v26 main_v27
  let main_c_9 : IVec S_ 1 := constantI S_ 1 1#1
  let main_v29 : IVec S_ 1 := (fun x v => Host.reduce IntOp.andi x v reducesTo_S128_S_d0 h_S_) main_v28 main_c_9
  let main_v30 : IVec S_ 1 := andi main_v25 main_v29
  let main_v31 : FVec F S128 .f32 := Host.absf main_arg6
  let main_cst_10 : FVec F S_ .f32 := constant S_ .f32 0x7F800000#32
  let main_v32 : FVec F S128 .f32 := broadcastInDim S128 ![] bcast_S_S128 main_cst_10
  let main_v33 : IVec S128 1 := cmpf .olt main_v31 main_v32
  let main_c_11 : IVec S_ 1 := constantI S_ 1 1#1
  fn_part2 (F := F) main_arg7 main_arg8 main_arg9 main_arg10 main_arg11 main_arg12 main_arg13 main_arg14 main_arg15 main_arg16 main_arg17 main_v30 main_v33 main_c_11

def fn {F : FTy → Type} [FloatOps F] (main_arg0 : FVec F S48x3x28x28 .f32) (main_arg1 : FVec F S128x128 .bf16) (main_arg2 : FVec F S128 .f32) (main_arg3 : FVec F S128 .f32) (main_arg4 : FVec F S1600x128 .bf16) (main_arg5 : FVec F S128 .f32) (main_arg6 : FVec F S128 .f32) (main_arg7 : FVec F S1600x128 .bf16) (main_arg8 : FVec F S128 .f32) (main_arg9 : FVec F S128 .f32) (main_arg10 : FVec F S6272x4096 .bf16) (main_arg11 : FVec F S1x4096 .f32) (main_arg12 : FVec F S1x4096 .f32) (main_arg13 : FVec F S4096x512 .bf16) (main_arg14 : FVec F S2x1x512 .f32) (main_arg15 : FVec F S2x1x512 .f32) (main_arg16 : FVec F S1024x128 .bf16) (main_arg17 : FVec F S2x1x128 .f32) : IVec S_ 1 :=
  let main_v0 : FVec F S48x3x28x28 .f32 := Host.absf main_arg0
  let main_cst : FVec F S_ .f32 := constant S_ .f32 0x7F800000#32
  let main_v1 : FVec F S48x3x28x28 .f32 := broadcastInDim S48x3x28x28 ![] bcast_S_S48x3x28x28 main_cst
  let main_v2 : IVec S48x3x28x28 1 := cmpf .olt main_v0 main_v1
  let main_c : IVec S_ 1 := constantI S_ 1 1#1
  let main_v3 : IVec S_ 1 := (fun x v => Host.reduce IntOp.andi x v reducesTo_S48x3x28x28_S_d0_1_2_3 h_S_) main_v2 main_c
  let main_v4 : FVec F S128x128 .f32 := (extf .f32 · bitsLt_bf16_f32) main_arg1
  let main_v5 : FVec F S128x128 .f32 := Host.absf main_v4
  let main_cst_0 : FVec F S_ .f32 := constant S_ .f32 0x7F800000#32
  let main_v6 : FVec F S128x128 .f32 := broadcastInDim S128x128 ![] bcast_S_S128x128 main_cst_0
  let main_v7 : IVec S128x128 1 := cmpf .olt main_v5 main_v6
  let main_c_1 : IVec S_ 1 := constantI S_ 1 1#1
  let main_v8 : IVec S_ 1 := (fun x v => Host.reduce IntOp.andi x v reducesTo_S128x128_S_d0_1 h_S_) main_v7 main_c_1
  let main_v9 : IVec S_ 1 := andi main_v3 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_arg5 main_arg6 main_arg7 main_arg8 main_arg9 main_arg10 main_arg11 main_arg12 main_arg13 main_arg14 main_arg15 main_arg16 main_arg17 main_v14 main_v15 main_v16
-- ==== Kernel.lean ====
abbrev S48x3x28x28 : Shape := ⟨4, ![48, 3, 28, 28]⟩
abbrev S128x128 : Shape := ⟨2, ![128, 128]⟩
abbrev S128 : Shape := ⟨1, ![128]⟩
abbrev S1600x128 : Shape := ⟨2, ![1600, 128]⟩
abbrev S6272x4096 : Shape := ⟨2, ![6272, 4096]⟩
abbrev S1x4096 : Shape := ⟨2, ![1, 4096]⟩
abbrev S4096x512 : Shape := ⟨2, ![4096, 512]⟩
abbrev S2x1x512 : Shape := ⟨3, ![2, 1, 512]⟩
abbrev S1024x128 : Shape := ⟨2, ![1024, 128]⟩
abbrev S2x1x128 : Shape := ⟨3, ![2, 1, 128]⟩
abbrev S48x28x28x3 : Shape := ⟨4, ![48, 28, 28, 3]⟩
abbrev S_ : Shape := ⟨0, ![]⟩
abbrev S48x32x32x3 : Shape := ⟨4, ![48, 32, 32, 3]⟩
abbrev S48x28x28x48 : Shape := ⟨4, ![48, 28, 28, 48]⟩
abbrev S48x28x28x27 : Shape := ⟨4, ![48, 28, 28, 27]⟩
abbrev S48x28x28x75 : Shape := ⟨4, ![48, 28, 28, 75]⟩
abbrev S48x28x28x128 : Shape := ⟨4, ![48, 28, 28, 128]⟩
abbrev S37632x128 : Shape := ⟨2, ![37632, 128]⟩
abbrev S128x64 : Shape := ⟨2, ![128, 64]⟩
abbrev S64 : Shape := ⟨1, ![64]⟩
abbrev S1x64 : Shape := ⟨2, ![1, 64]⟩
abbrev S9408x64 : Shape := ⟨2, ![9408, 64]⟩
abbrev S6272x128 : Shape := ⟨2, ![6272, 128]⟩
abbrev S1568x64 : Shape := ⟨2, ![1568, 64]⟩
abbrev S6272x64 : Shape := ⟨2, ![6272, 64]⟩
abbrev S3136x2x64 : Shape := ⟨3, ![3136, 2, 64]⟩
abbrev S3136x64 : Shape := ⟨2, ![3136, 64]⟩
abbrev S8x14x2x14x64 : Shape := ⟨5, ![8, 14, 2, 14, 64]⟩
abbrev S8x14x14x64 : Shape := ⟨4, ![8, 14, 14, 64]⟩
abbrev S48x14x14x64 : Shape := ⟨4, ![48, 14, 14, 64]⟩
abbrev S48x18x18x64 : Shape := ⟨4, ![48, 18, 18, 64]⟩
abbrev S48x14x18x64 : Shape := ⟨4, ![48, 14, 18, 64]⟩
abbrev S48x14x18x320 : Shape := ⟨4, ![48, 14, 18, 320]⟩
abbrev S6x2016x320 : Shape := ⟨3, ![6, 2016, 320]⟩
abbrev S6x2020x320 : Shape := ⟨3, ![6, 2020, 320]⟩
abbrev S1600x64 : Shape := ⟨2, ![1600, 64]⟩
abbrev S5x5x64x64 : Shape := ⟨4, ![5, 5, 64, 64]⟩
abbrev S2352x64 : Shape := ⟨2, ![2352, 64]⟩
abbrev S1x2020x320 : Shape := ⟨3, ![1, 2020, 320]⟩
abbrev S392x64 : Shape := ⟨2, ![392, 64]⟩
abbrev S2020x320 : Shape := ⟨2, ![2020, 320]⟩
abbrev S2016x320 : Shape := ⟨2, ![2016, 320]⟩
abbrev S320x64 : Shape := ⟨2, ![320, 64]⟩
abbrev S2016x64 : Shape := ⟨2, ![2016, 64]⟩
abbrev S8x14x18x64 : Shape := ⟨4, ![8, 14, 18, 64]⟩
abbrev S8x14x7x2x64 : Shape := ⟨5, ![8, 14, 7, 2, 64]⟩
abbrev S8x14x7x64 : Shape := ⟨4, ![8, 14, 7, 64]⟩
abbrev S8x7x2x7x64 : Shape := ⟨5, ![8, 7, 2, 7, 64]⟩
abbrev S8x7x7x64 : Shape := ⟨4, ![8, 7, 7, 64]⟩
abbrev S48x7x7x64 : Shape := ⟨4, ![48, 7, 7, 64]⟩
abbrev S48x11x11x64 : Shape := ⟨4, ![48, 11, 11, 64]⟩
abbrev S48x7x11x64 : Shape := ⟨4, ![48, 7, 11, 64]⟩
abbrev S48x7x11x320 : Shape := ⟨4, ![48, 7, 11, 320]⟩
abbrev S6x616x320 : Shape := ⟨3, ![6, 616, 320]⟩
abbrev S6x620x320 : Shape := ⟨3, ![6, 620, 320]⟩
abbrev S5x5x64x128 : Shape := ⟨4, ![5, 5, 64, 128]⟩
abbrev S1x128 : Shape := ⟨2, ![1, 128]⟩
abbrev S2352x128 : Shape := ⟨2, ![2352, 128]⟩
abbrev S1x620x320 : Shape := ⟨3, ![1, 620, 320]⟩
abbrev S392x128 : Shape := ⟨2, ![392, 128]⟩
abbrev S620x320 : Shape := ⟨2, ![620, 320]⟩
abbrev S616x320 : Shape := ⟨2, ![616, 320]⟩
abbrev S320x128 : Shape := ⟨2, ![320, 128]⟩
abbrev S616x128 : Shape := ⟨2, ![616, 128]⟩
abbrev S8x7x11x128 : Shape := ⟨4, ![8, 7, 11, 128]⟩
abbrev S8x7x7x128 : Shape := ⟨4, ![8, 7, 7, 128]⟩
abbrev S96x2048 : Shape := ⟨2, ![96, 2048]⟩
abbrev S96x128 : Shape := ⟨2, ![96, 128]⟩
abbrev S6272x256 : Shape := ⟨2, ![6272, 256]⟩
abbrev S1x256 : Shape := ⟨2, ![1, 256]⟩
abbrev S256x512 : Shape := ⟨2, ![256, 512]⟩
abbrev S1x1x512 : Shape := ⟨3, ![1, 1, 512]⟩
abbrev S512x128 : Shape := ⟨2, ![512, 128]⟩
abbrev S1x1x128 : Shape := ⟨3, ![1, 1, 128]⟩
abbrev S48x256 : Shape := ⟨2, ![48, 256]⟩
abbrev S48x128 : Shape := ⟨2, ![48, 128]⟩
abbrev S48x6272 : Shape := ⟨2, ![48, 6272]⟩
abbrev S48x512 : Shape := ⟨2, ![48, 512]⟩
abbrev S48x49x128 : Shape := ⟨3, ![48, 49, 128]⟩
abbrev S48x128x49 : Shape := ⟨3, ![48, 128, 49]⟩
abbrev S1x512 : Shape := ⟨2, ![1, 512]⟩
abbrev S48x10 : Shape := ⟨2, ![48, 10]⟩
abbrev S48x2048 : Shape := ⟨2, ![48, 2048]⟩

abbrev nBuf : Space → Nat
  | .hbm => 110
  | .vmem => 44
  | .smem => 0
  | _ => 0

abbrev bufTy : (tb : Table) → Fin (tcTables nBuf tb) → BufTy
  | .hbm, ⟨0, _⟩ => ⟨S48x3x28x28, .f32⟩
  | .hbm, ⟨1, _⟩ => ⟨S128x128, .bf16⟩
  | .hbm, ⟨2, _⟩ => ⟨S128, .f32⟩
  | .hbm, ⟨3, _⟩ => ⟨S128, .f32⟩
  | .hbm, ⟨4, _⟩ => ⟨S1600x128, .bf16⟩
  | .hbm, ⟨5, _⟩ => ⟨S128, .f32⟩
  | .hbm, ⟨6, _⟩ => ⟨S128, .f32⟩
  | .hbm, ⟨7, _⟩ => ⟨S1600x128, .bf16⟩
  | .hbm, ⟨8, _⟩ => ⟨S128, .f32⟩
  | .hbm, ⟨9, _⟩ => ⟨S128, .f32⟩
  | .hbm, ⟨10, _⟩ => ⟨S6272x4096, .bf16⟩
  | .hbm, ⟨11, _⟩ => ⟨S1x4096, .f32⟩
  | .hbm, ⟨12, _⟩ => ⟨S1x4096, .f32⟩
  | .hbm, ⟨13, _⟩ => ⟨S4096x512, .bf16⟩
  | .hbm, ⟨14, _⟩ => ⟨S2x1x512, .f32⟩
  | .hbm, ⟨15, _⟩ => ⟨S2x1x512, .f32⟩
  | .hbm, ⟨16, _⟩ => ⟨S1024x128, .bf16⟩
  | .hbm, ⟨17, _⟩ => ⟨S2x1x128, .f32⟩
  | .hbm, ⟨18, _⟩ => ⟨S48x28x28x3, .f32⟩
  | .hbm, ⟨19, _⟩ => ⟨S48x28x28x3, .bf16⟩
  | .hbm, ⟨20, _⟩ => ⟨S_, .i32⟩
  | .hbm, ⟨21, _⟩ => ⟨S_, .bf16⟩
  | .hbm, ⟨22, _⟩ => ⟨S48x32x32x3, .bf16⟩
  | .hbm, ⟨23, _⟩ => ⟨S48x28x28x3, .bf16⟩
  | .hbm, ⟨24, _⟩ => ⟨S48x28x28x3, .bf16⟩
  | .hbm, ⟨25, _⟩ => ⟨S48x28x28x3, .bf16⟩
  | .hbm, ⟨26, _⟩ => ⟨S48x28x28x3, .bf16⟩
  | .hbm, ⟨27, _⟩ => ⟨S48x28x28x3, .bf16⟩
  | .hbm, ⟨28, _⟩ => ⟨S48x28x28x3, .bf16⟩
  | .hbm, ⟨29, _⟩ => ⟨S48x28x28x3, .bf16⟩
  | .hbm, ⟨30, _⟩ => ⟨S48x28x28x3, .bf16⟩
  | .hbm, ⟨31, _⟩ => ⟨S48x28x28x3, .bf16⟩
  | .hbm, ⟨32, _⟩ => ⟨S48x28x28x3, .bf16⟩
  | .hbm, ⟨33, _⟩ => ⟨S48x28x28x3, .bf16⟩
  | .hbm, ⟨34, _⟩ => ⟨S48x28x28x3, .bf16⟩
  | .hbm, ⟨35, _⟩ => ⟨S48x28x28x3, .bf16⟩
  | .hbm, ⟨36, _⟩ => ⟨S48x28x28x3, .bf16⟩
  | .hbm, ⟨37, _⟩ => ⟨S48x28x28x3, .bf16⟩
  | .hbm, ⟨38, _⟩ => ⟨S48x28x28x3, .bf16⟩
  | .hbm, ⟨39, _⟩ => ⟨S48x28x28x3, .bf16⟩
  | .hbm, ⟨40, _⟩ => ⟨S48x28x28x3, .bf16⟩
  | .hbm, ⟨41, _⟩ => ⟨S48x28x28x3, .bf16⟩
  | .hbm, ⟨42, _⟩ => ⟨S48x28x28x3, .bf16⟩
  | .hbm, ⟨43, _⟩ => ⟨S48x28x28x3, .bf16⟩
  | .hbm, ⟨44, _⟩ => ⟨S48x28x28x3, .bf16⟩
  | .hbm, ⟨45, _⟩ => ⟨S48x28x28x3, .bf16⟩
  | .hbm, ⟨46, _⟩ => ⟨S48x28x28x3, .bf16⟩
  | .hbm, ⟨47, _⟩ => ⟨S48x28x28x3, .bf16⟩
  | .hbm, ⟨48, _⟩ => ⟨S48x28x28x48, .bf16⟩
  | .hbm, ⟨49, _⟩ => ⟨S48x28x28x27, .bf16⟩
  | .hbm, ⟨50, _⟩ => ⟨S48x28x28x75, .bf16⟩
  | .hbm, ⟨51, _⟩ => ⟨S_, .i32⟩
  | .hbm, ⟨52, _⟩ => ⟨S_, .bf16⟩
  | .hbm, ⟨53, _⟩ => ⟨S48x28x28x128, .bf16⟩
  | .hbm, ⟨54, _⟩ => ⟨S37632x128, .bf16⟩
  | .hbm, ⟨55, _⟩ => ⟨S128x64, .bf16⟩
  | .hbm, ⟨56, _⟩ => ⟨S64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S9408x64, .bf16⟩
  | .hbm, ⟨61, _⟩ => ⟨S48x14x14x64, .bf16⟩
  | .hbm, ⟨62, _⟩ => ⟨S_, .i32⟩
  | .hbm, ⟨63, _⟩ => ⟨S_, .bf16⟩
  | .hbm, ⟨64, _⟩ => ⟨S48x18x18x64, .bf16⟩
  | .hbm, ⟨65, _⟩ => ⟨S48x14x18x64, .bf16⟩
  | .hbm, ⟨66, _⟩ => ⟨S48x14x18x64, .bf16⟩
  | .hbm, ⟨67, _⟩ => ⟨S48x14x18x64, .bf16⟩
  | .hbm, ⟨68, _⟩ => ⟨S48x14x18x64, .bf16⟩
  | .hbm, ⟨69, _⟩ => ⟨S48x14x18x64, .bf16⟩
  | .hbm, ⟨70, _⟩ => ⟨S48x14x18x320, .bf16⟩
  | .hbm, ⟨71, _⟩ => ⟨S6x2016x320, .bf16⟩
  | .hbm, ⟨72, _⟩ => ⟨S_, .i32⟩
  | .hbm, ⟨73, _⟩ => ⟨S_, .bf16⟩
  | .hbm, ⟨74, _⟩ => ⟨S6x2020x320, .bf16⟩
  | .hbm, ⟨75, _⟩ => ⟨S1600x64, .bf16⟩
  | .hbm, ⟨76, _⟩ => ⟨S5x5x64x64, .bf16⟩
  | .hbm, ⟨77, _⟩ => ⟨S5x5x64x64, .bf16⟩
  | .hbm, ⟨78, _⟩ => ⟨S1600x64, .bf16⟩
  | .hbm, ⟨79, _⟩ => ⟨S64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S2352x64, .bf16⟩
  | .hbm, ⟨84, _⟩ => ⟨S48x7x7x64, .bf16⟩
  | .hbm, ⟨85, _⟩ => ⟨S_, .i32⟩
  | .hbm, ⟨86, _⟩ => ⟨S_, .bf16⟩
  | .hbm, ⟨87, _⟩ => ⟨S48x11x11x64, .bf16⟩
  | .hbm, ⟨88, _⟩ => ⟨S48x7x11x64, .bf16⟩
  | .hbm, ⟨89, _⟩ => ⟨S48x7x11x64, .bf16⟩
  | .hbm, ⟨90, _⟩ => ⟨S48x7x11x64, .bf16⟩
  | .hbm, ⟨91, _⟩ => ⟨S48x7x11x64, .bf16⟩
  | .hbm, ⟨92, _⟩ => ⟨S48x7x11x64, .bf16⟩
  | .hbm, ⟨93, _⟩ => ⟨S48x7x11x320, .bf16⟩
  | .hbm, ⟨94, _⟩ => ⟨S6x616x320, .bf16⟩
  | .hbm, ⟨95, _⟩ => ⟨S_, .i32⟩
  | .hbm, ⟨96, _⟩ => ⟨S_, .bf16⟩
  | .hbm, ⟨97, _⟩ => ⟨S6x620x320, .bf16⟩
  | .hbm, ⟨98, _⟩ => ⟨S5x5x64x128, .bf16⟩
  | .hbm, ⟨99, _⟩ => ⟨S5x5x64x128, .bf16⟩
  | .hbm, ⟨100, _⟩ => ⟨S1600x128, .bf16⟩
  | .hbm, ⟨101, _⟩ => ⟨S1x128, .f32⟩
  | .hbm, ⟨102, _⟩ => ⟨S1x128, .f32⟩
  | .hbm, ⟨103, _⟩ => ⟨S2352x128, .f32⟩
  | .hbm, ⟨104, _⟩ => ⟨S96x2048, .f32⟩
  | .hbm, ⟨105, _⟩ => ⟨S96x128, .f32⟩
  | .hbm, ⟨106, _⟩ => ⟨S48x10, .f32⟩
  | .hbm, ⟨107, _⟩ => ⟨S48x10, .f32⟩
  | .hbm, ⟨108, _⟩ => ⟨S48x2048, .f32⟩
  | .hbm, ⟨109, _⟩ => ⟨S48x2048, .f32⟩
  | .local _ .vmem, ⟨0, _⟩ => ⟨S6272x128, .bf16⟩
  | .local _ .vmem, ⟨1, _⟩ => ⟨S6272x128, .bf16⟩
  | .local _ .vmem, ⟨2, _⟩ => ⟨S128x64, .bf16⟩
  | .local _ .vmem, ⟨3, _⟩ => ⟨S1x64, .f32⟩
  | .local _ .vmem, ⟨4, _⟩ => ⟨S1x64, .f32⟩
  | .local _ .vmem, ⟨5, _⟩ => ⟨S1568x64, .bf16⟩
  | .local _ .vmem, ⟨6, _⟩ => ⟨S1568x64, .bf16⟩
  | .local _ .vmem, ⟨7, _⟩ => ⟨S1x2020x320, .bf16⟩
  | .local _ .vmem, ⟨8, _⟩ => ⟨S1x2020x320, .bf16⟩
  | .local _ .vmem, ⟨9, _⟩ => ⟨S1600x64, .bf16⟩
  | .local _ .vmem, ⟨10, _⟩ => ⟨S1x64, .f32⟩
  | .local _ .vmem, ⟨11, _⟩ => ⟨S1x64, .f32⟩
  | .local _ .vmem, ⟨12, _⟩ => ⟨S392x64, .bf16⟩
  | .local _ .vmem, ⟨13, _⟩ => ⟨S392x64, .bf16⟩
  | .local _ .vmem, ⟨14, _⟩ => ⟨S1x620x320, .bf16⟩
  | .local _ .vmem, ⟨15, _⟩ => ⟨S1x620x320, .bf16⟩
  | .local _ .vmem, ⟨16, _⟩ => ⟨S1600x128, .bf16⟩
  | .local _ .vmem, ⟨17, _⟩ => ⟨S1x128, .f32⟩
  | .local _ .vmem, ⟨18, _⟩ => ⟨S1x128, .f32⟩
  | .local _ .vmem, ⟨19, _⟩ => ⟨S392x128, .f32⟩
  | .local _ .vmem, ⟨20, _⟩ => ⟨S392x128, .f32⟩
  | .local _ .vmem, ⟨21, _⟩ => ⟨S2352x128, .f32⟩
  | .local _ .vmem, ⟨22, _⟩ => ⟨S6272x256, .bf16⟩
  | .local _ .vmem, ⟨23, _⟩ => ⟨S6272x256, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x512, .bf16⟩
  | .local _ .vmem, ⟨29, _⟩ => ⟨S256x512, .bf16⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x1x512, .f32⟩
  | .local _ .vmem, ⟨34, _⟩ => ⟨S512x128, .bf16⟩
  | .local _ .vmem, ⟨35, _⟩ => ⟨S512x128, .bf16⟩
  | .local _ .vmem, ⟨36, _⟩ => ⟨S1x1x128, .f32⟩
  | .local _ .vmem, ⟨37, _⟩ => ⟨S1x1x128, .f32⟩
  | .local _ .vmem, ⟨38, _⟩ => ⟨S48x256, .f32⟩
  | .local _ .vmem, ⟨39, _⟩ => ⟨S48x256, .f32⟩
  | .local _ .vmem, ⟨40, _⟩ => ⟨S48x128, .f32⟩
  | .local _ .vmem, ⟨41, _⟩ => ⟨S48x128, .f32⟩
  | .local _ .vmem, ⟨42, _⟩ => ⟨S48x6272, .bf16⟩
  | .local _ .vmem, ⟨43, _⟩ => ⟨S48x512, .f32⟩
  | _, _ => ⟨S48x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_0 : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_1 : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_2 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_3 : Ref sig .tc := ⟨.hbm, 85, rfl⟩
abbrev main_call4_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_4 : Ref sig .tc := ⟨.hbm, 95, rfl⟩
abbrev main_call5_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74_0 : Ref sig .tc := ⟨.hbm, 104, rfl⟩
abbrev main_v74_1 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc3_stg8_0 : Ref sig .tc := ⟨.vmem, 36, rfl⟩
abbrev cc3_stg8_1 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg10_1 : Ref sig .tc := ⟨.vmem, 41, rfl⟩
abbrev cc3_scratch0 : Ref sig .tc := ⟨.vmem, 42, rfl⟩
abbrev cc3_scratch1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc3_sem8_0 : DmaSem sig := 36
abbrev cc3_sem8_1 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1568x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x2020x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1600x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S392x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![6], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x620x320 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1600x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S392x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 8], ![false, false]⟩

def k3_cond4 (i : grid3.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_18 : BitVec 32 := 0#32
  let v26 : BitVec 1 := Scalar.cmpi .ne v25 c0_i32_18
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc3_transform_3 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc3_transform_4 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S2352x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S6272x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S256x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S512x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S48x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S48x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

class Facts₀ : Prop where
  transposes_S48x3x28x28_S48x28x28x3_0_2_3_1 : S48x3x28x28.Transposes [0, 2, 3, 1] S48x28x28x3
  bitsLt_bf16_f32 : FTy.bits .bf16 < FTy.bits .f32
  pads_S48x28x28x3_S48x32x32x3_000_220_220_000 : S48x28x28x3.Pads (![0, 2, 2, 0] : Fin 4 → Nat) ![0, 2, 2, 0] ![0, 0, 0, 0] S48x32x32x3
  h_S_ : 0 < S_.numel
  slices_S48x32x32x3_S48x28x28x3_0_0_0_0 : S48x32x32x3.Slices ![0, 0, 0, 0] S48x28x28x3
  slices_S48x32x32x3_S48x28x28x3_0_0_1_0 : S48x32x32x3.Slices ![0, 0, 1, 0] S48x28x28x3
  slices_S48x32x32x3_S48x28x28x3_0_0_2_0 : S48x32x32x3.Slices ![0, 0, 2, 0] S48x28x28x3
  slices_S48x32x32x3_S48x28x28x3_0_0_3_0 : S48x32x32x3.Slices ![0, 0, 3, 0] S48x28x28x3
  slices_S48x32x32x3_S48x28x28x3_0_0_4_0 : S48x32x32x3.Slices ![0, 0, 4, 0] S48x28x28x3
  slices_S48x32x32x3_S48x28x28x3_0_1_0_0 : S48x32x32x3.Slices ![0, 1, 0, 0] S48x28x28x3
  slices_S48x32x32x3_S48x28x28x3_0_1_1_0 : S48x32x32x3.Slices ![0, 1, 1, 0] S48x28x28x3
  slices_S48x32x32x3_S48x28x28x3_0_1_2_0 : S48x32x32x3.Slices ![0, 1, 2, 0] S48x28x28x3
  slices_S48x32x32x3_S48x28x28x3_0_1_3_0 : S48x32x32x3.Slices ![0, 1, 3, 0] S48x28x28x3
  slices_S48x32x32x3_S48x28x28x3_0_1_4_0 : S48x32x32x3.Slices ![0, 1, 4, 0] S48x28x28x3
  slices_S48x32x32x3_S48x28x28x3_0_2_0_0 : S48x32x32x3.Slices ![0, 2, 0, 0] S48x28x28x3
  slices_S48x32x32x3_S48x28x28x3_0_2_1_0 : S48x32x32x3.Slices ![0, 2, 1, 0] S48x28x28x3
  slices_S48x32x32x3_S48x28x28x3_0_2_2_0 : S48x32x32x3.Slices ![0, 2, 2, 0] S48x28x28x3
  slices_S48x32x32x3_S48x28x28x3_0_2_3_0 : S48x32x32x3.Slices ![0, 2, 3, 0] S48x28x28x3
  slices_S48x32x32x3_S48x28x28x3_0_2_4_0 : S48x32x32x3.Slices ![0, 2, 4, 0] S48x28x28x3
  slices_S48x32x32x3_S48x28x28x3_0_3_0_0 : S48x32x32x3.Slices ![0, 3, 0, 0] S48x28x28x3
  slices_S48x32x32x3_S48x28x28x3_0_3_1_0 : S48x32x32x3.Slices ![0, 3, 1, 0] S48x28x28x3
  slices_S48x32x32x3_S48x28x28x3_0_3_2_0 : S48x32x32x3.Slices ![0, 3, 2, 0] S48x28x28x3
  slices_S48x32x32x3_S48x28x28x3_0_3_3_0 : S48x32x32x3.Slices ![0, 3, 3, 0] S48x28x28x3
  slices_S48x32x32x3_S48x28x28x3_0_3_4_0 : S48x32x32x3.Slices ![0, 3, 4, 0] S48x28x28x3
  slices_S48x32x32x3_S48x28x28x3_0_4_0_0 : S48x32x32x3.Slices ![0, 4, 0, 0] S48x28x28x3
  slices_S48x32x32x3_S48x28x28x3_0_4_1_0 : S48x32x32x3.Slices ![0, 4, 1, 0] S48x28x28x3
  slices_S48x32x32x3_S48x28x28x3_0_4_2_0 : S48x32x32x3.Slices ![0, 4, 2, 0] S48x28x28x3
  slices_S48x32x32x3_S48x28x28x3_0_4_3_0 : S48x32x32x3.Slices ![0, 4, 3, 0] S48x28x28x3
  slices_S48x32x32x3_S48x28x28x3_0_4_4_0 : S48x32x32x3.Slices ![0, 4, 4, 0] S48x28x28x3
  concatenates_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x48_d3 : Shape.Concatenates [S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3] S48x28x28x48 3
  concatenates_S48x28x28x3_S48x28x28x3_S48x28x28x3_S48x28x28x3_S48x28x28x3_S48x28x28x3_S48x28x28x3_S48x28x28x3_S48x28x28x3_S48x28x28x27_d3 : Shape.Concatenates [S48x28x28x3, S48x28x28x3, S48x28x28x3, S48x28x28x3, S48x28x28x3, S48x28x28x3, S48x28x28x3, S48x28x28x3, S48x28x28x3] S48x28x28x27 3
  concatenates_S48x28x28x48_S48x28x28x27_S48x28x28x75_d3 : Shape.Concatenates [S48x28x28x48, S48x28x28x27] S48x28x28x75 3
  pads_S48x28x28x75_S48x28x28x128_000_000_000_0530 : S48x28x28x75.Pads (![0, 0, 0, 0] : Fin 4 → Nat) ![0, 0, 0, 53] ![0, 0, 0, 0] S48x28x28x128
  shapeCasts_S48x28x28x128_S37632x128 : S48x28x28x128.ShapeCasts S37632x128
  slices_S128x128_S128x64_0_0 : S128x128.Slices ![0, 0] S128x64
  slices_S128_S64_0 : S128.Slices ![0] S64
  shapeCasts_S64_S1x64 : S64.ShapeCasts S1x64
  inb_S6272x128_S6272x128_0_0 : ∀ a, (![0, 0] : Fin 2 → Nat) a + S6272x128.size a ≤ S6272x128.size a
  h_S6272x128 : 0 < S6272x128.numel
  shapeCasts_S6272x128_S6272x128 : S6272x128.ShapeCasts S6272x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6272x64 : S1x64.Broadcasts S6272x64
  shapeCasts_S6272x64_S3136x2x64 : S6272x64.ShapeCasts S3136x2x64
  reduces_S3136x2x64_S3136x64 : S3136x2x64.Reduces [1] S3136x64
  shapeCasts_S3136x64_S8x14x2x14x64 : S3136x64.ShapeCasts S8x14x2x14x64
  reduces_S8x14x2x14x64_S8x14x14x64 : S8x14x2x14x64.Reduces [2] S8x14x14x64
  shapeCasts_S8x14x14x64_S1568x64 : S8x14x14x64.ShapeCasts S1568x64
  inb_S1568x64_S1568x64_0_0 : ∀ a, (![0, 0] : Fin 2 → Nat) a + S1568x64.size a ≤ S1568x64.size a
  h_S1568x64 : 0 < S1568x64.numel
  packedbf16_S1568x64_S1568x64_0_0 : (Rect.unit (s := S1568x64) ![0, 0] S1568x64.size inb_S1568x64_S1568x64_0_0).PackedRows (EltTy.packing .bf16)
  shapeCasts_S9408x64_S48x14x14x64 : S9408x64.ShapeCasts S48x14x14x64
  pads_S48x14x14x64_S48x18x18x64_000_220_220_000 : S48x14x14x64.Pads (![0, 2, 2, 0] : Fin 4 → Nat) ![0, 2, 2, 0] ![0, 0, 0, 0] S48x18x18x64
  slices_S48x18x18x64_S48x14x18x64_0_0_0_0 : S48x18x18x64.Slices ![0, 0, 0, 0] S48x14x18x64
  slices_S48x18x18x64_S48x14x18x64_0_1_0_0 : S48x18x18x64.Slices ![0, 1, 0, 0] S48x14x18x64
  slices_S48x18x18x64_S48x14x18x64_0_2_0_0 : S48x18x18x64.Slices ![0, 2, 0, 0] S48x14x18x64
  slices_S48x18x18x64_S48x14x18x64_0_3_0_0 : S48x18x18x64.Slices ![0, 3, 0, 0] S48x14x18x64
  slices_S48x18x18x64_S48x14x18x64_0_4_0_0 : S48x18x18x64.Slices ![0, 4, 0, 0] S48x14x18x64
  concatenates_S48x14x18x64_S48x14x18x64_S48x14x18x64_S48x14x18x64_S48x14x18x64_S48x14x18x320_d3 : Shape.Concatenates [S48x14x18x64, S48x14x18x64, S48x14x18x64, S48x14x18x64, S48x14x18x64] S48x14x18x320 3
  shapeCasts_S48x14x18x320_S6x2016x320 : S48x14x18x320.ShapeCasts S6x2016x320
  pads_S6x2016x320_S6x2020x320_000_220_000 : S6x2016x320.Pads (![0, 2, 0] : Fin 3 → Nat) ![0, 2, 0] ![0, 0, 0] S6x2020x320
  slices_S1600x128_S1600x64_0_0 : S1600x128.Slices ![0, 0] S1600x64
  shapeCasts_S1600x64_S5x5x64x64 : S1600x64.ShapeCasts S5x5x64x64
  transposes_S5x5x64x64_S5x5x64x64_1_0_2_3 : S5x5x64x64.Transposes [1, 0, 2, 3] S5x5x64x64
  shapeCasts_S5x5x64x64_S1600x64 : S5x5x64x64.ShapeCasts S1600x64
  inb_S1x2020x320_S1x2020x320_0_0_0 : ∀ a, (![0, 0, 0] : Fin 3 → Nat) a + S1x2020x320.size a ≤ S1x2020x320.size a
  h_S1x2020x320 : 0 < S1x2020x320.numel
  shapeCasts_S1x2020x320_S2020x320 : S1x2020x320.ShapeCasts S2020x320
  slices_S2020x320_o0_0_S2016x320 : S2020x320.Slices ![0, 0] S2016x320
  inb_S1600x64_S320x64_0_0 : ∀ a, (![0, 0] : Fin 2 → Nat) a + S320x64.size a ≤ S1600x64.size a
  h_S320x64 : 0 < S320x64.numel
  shapeCasts_S320x64_S320x64 : S320x64.ShapeCasts S320x64
  slices_S2020x320_o1_0_S2016x320 : S2020x320.Slices ![1, 0] S2016x320
  inb_S1600x64_S320x64_320_0 : ∀ a, (![320, 0] : Fin 2 → Nat) a + S320x64.size a ≤ S1600x64.size a
  slices_S2020x320_o2_0_S2016x320 : S2020x320.Slices ![2, 0] S2016x320
  inb_S1600x64_S320x64_640_0 : ∀ a, (![640, 0] : Fin 2 → Nat) a + S320x64.size a ≤ S1600x64.size a
  slices_S2020x320_o3_0_S2016x320 : S2020x320.Slices ![3, 0] S2016x320
  inb_S1600x64_S320x64_960_0 : ∀ a, (![960, 0] : Fin 2 → Nat) a + S320x64.size a ≤ S1600x64.size a
  slices_S2020x320_o4_0_S2016x320 : S2020x320.Slices ![4, 0] S2016x320
  inb_S1600x64_S320x64_1280_0 : ∀ a, (![1280, 0] : Fin 2 → Nat) a + S320x64.size a ≤ S1600x64.size a
  broadcasts_S1x64_S2016x64 : S1x64.Broadcasts S2016x64
  shapeCasts_S2016x64_S8x14x18x64 : S2016x64.ShapeCasts S8x14x18x64
  slices_S8x14x18x64_o0_0_2_0_S8x14x14x64 : S8x14x18x64.Slices ![0, 0, 2, 0] S8x14x14x64
  shapeCasts_S8x14x14x64_S8x14x7x2x64 : S8x14x14x64.ShapeCasts S8x14x7x2x64
  reduces_S8x14x7x2x64_S8x14x7x64 : S8x14x7x2x64.Reduces [3] S8x14x7x64
  shapeCasts_S8x14x7x64_S8x7x2x7x64 : S8x14x7x64.ShapeCasts S8x7x2x7x64
  reduces_S8x7x2x7x64_S8x7x7x64 : S8x7x2x7x64.Reduces [2] S8x7x7x64
  shapeCasts_S8x7x7x64_S392x64 : S8x7x7x64.ShapeCasts S392x64
  inb_S392x64_S392x64_0_0 : ∀ a, (![0, 0] : Fin 2 → Nat) a + S392x64.size a ≤ S392x64.size a
  h_S392x64 : 0 < S392x64.numel
  packedbf16_S392x64_S392x64_0_0 : (Rect.unit (s := S392x64) ![0, 0] S392x64.size inb_S392x64_S392x64_0_0).PackedRows (EltTy.packing .bf16)
  shapeCasts_S2352x64_S48x7x7x64 : S2352x64.ShapeCasts S48x7x7x64
  pads_S48x7x7x64_S48x11x11x64_000_220_220_000 : S48x7x7x64.Pads (![0, 2, 2, 0] : Fin 4 → Nat) ![0, 2, 2, 0] ![0, 0, 0, 0] S48x11x11x64
  slices_S48x11x11x64_S48x7x11x64_0_0_0_0 : S48x11x11x64.Slices ![0, 0, 0, 0] S48x7x11x64
  slices_S48x11x11x64_S48x7x11x64_0_1_0_0 : S48x11x11x64.Slices ![0, 1, 0, 0] S48x7x11x64
  slices_S48x11x11x64_S48x7x11x64_0_2_0_0 : S48x11x11x64.Slices ![0, 2, 0, 0] S48x7x11x64
  slices_S48x11x11x64_S48x7x11x64_0_3_0_0 : S48x11x11x64.Slices ![0, 3, 0, 0] S48x7x11x64
  slices_S48x11x11x64_S48x7x11x64_0_4_0_0 : S48x11x11x64.Slices ![0, 4, 0, 0] S48x7x11x64
  concatenates_S48x7x11x64_S48x7x11x64_S48x7x11x64_S48x7x11x64_S48x7x11x64_S48x7x11x320_d3 : Shape.Concatenates [S48x7x11x64, S48x7x11x64, S48x7x11x64, S48x7x11x64, S48x7x11x64] S48x7x11x320 3
  shapeCasts_S48x7x11x320_S6x616x320 : S48x7x11x320.ShapeCasts S6x616x320
  pads_S6x616x320_S6x620x320_000_220_000 : S6x616x320.Pads (![0, 2, 0] : Fin 3 → Nat) ![0, 2, 0] ![0, 0, 0] S6x620x320
  shapeCasts_S1600x128_S5x5x64x128 : S1600x128.ShapeCasts S5x5x64x128
  transposes_S5x5x64x128_S5x5x64x128_1_0_2_3 : S5x5x64x128.Transposes [1, 0, 2, 3] S5x5x64x128
  shapeCasts_S5x5x64x128_S1600x128 : S5x5x64x128.ShapeCasts S1600x128
  shapeCasts_S128_S1x128 : S128.ShapeCasts S1x128
  inb_S1x620x320_S1x620x320_0_0_0 : ∀ a, (![0, 0, 0] : Fin 3 → Nat) a + S1x620x320.size a ≤ S1x620x320.size a
  h_S1x620x320 : 0 < S1x620x320.numel
  shapeCasts_S1x620x320_S620x320 : S1x620x320.ShapeCasts S620x320
  slices_S620x320_o0_0_S616x320 : S620x320.Slices ![0, 0] S616x320
  inb_S1600x128_S320x128_0_0 : ∀ a, (![0, 0] : Fin 2 → Nat) a + S320x128.size a ≤ S1600x128.size a
  h_S320x128 : 0 < S320x128.numel
  shapeCasts_S320x128_S320x128 : S320x128.ShapeCasts S320x128
  slices_S620x320_o1_0_S616x320 : S620x320.Slices ![1, 0] S616x320
  inb_S1600x128_S320x128_320_0 : ∀ a, (![320, 0] : Fin 2 → Nat) a + S320x128.size a ≤ S1600x128.size a
  slices_S620x320_o2_0_S616x320 : S620x320.Slices ![2, 0] S616x320
  inb_S1600x128_S320x128_640_0 : ∀ a, (![640, 0] : Fin 2 → Nat) a + S320x128.size a ≤ S1600x128.size a
  slices_S620x320_o3_0_S616x320 : S620x320.Slices ![3, 0] S616x320
  inb_S1600x128_S320x128_960_0 : ∀ a, (![960, 0] : Fin 2 → Nat) a + S320x128.size a ≤ S1600x128.size a
  slices_S620x320_o4_0_S616x320 : S620x320.Slices ![4, 0] S616x320
  inb_S1600x128_S320x128_1280_0 : ∀ a, (![1280, 0] : Fin 2 → Nat) a + S320x128.size a ≤ S1600x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S616x128 : S1x128.Broadcasts S616x128
  shapeCasts_S616x128_S8x7x11x128 : S616x128.ShapeCasts S8x7x11x128
  slices_S8x7x11x128_o0_0_2_0_S8x7x7x128 : S8x7x11x128.Slices ![0, 0, 2, 0] S8x7x7x128
  shapeCasts_S8x7x7x128_S392x128 : S8x7x7x128.ShapeCasts S392x128
  inb_S392x128_S392x128_0_0 : ∀ a, (![0, 0] : Fin 2 → Nat) a + S392x128.size a ≤ S392x128.size a
  h_S392x128 : 0 < S392x128.numel
  inb_S2352x128_S2352x128_0_0 : ∀ a, (![0, 0] : Fin 2 → Nat) a + S2352x128.size a ≤ S2352x128.size a
  h_S2352x128 : 0 < S2352x128.numel
  shapeCasts_S2352x128_S2352x128 : S2352x128.ShapeCasts S2352x128
  shapeCasts_S2352x128_S48x49x128 : S2352x128.ShapeCasts S48x49x128
  transposes_S48x49x128_p0_2_1_S48x128x49 : S48x49x128.Transposes [0, 2, 1] S48x128x49
  shapeCasts_S48x128x49_S48x6272 : S48x128x49.ShapeCasts S48x6272
  inb_S48x6272_S48x6272_0_0 : ∀ a, (![0, 0] : Fin 2 → Nat) a + S48x6272.size a ≤ S48x6272.size a
  h_S48x6272 : 0 < S48x6272.numel
  shapeCasts_S48x6272_S48x6272 : S48x6272.ShapeCasts S48x6272
  packedbf16_S48x6272_S48x6272_0_0 : (Rect.unit (s := S48x6272) ![0, 0] S48x6272.size inb_S48x6272_S48x6272_0_0).PackedRows (EltTy.packing .bf16)
  inb_S6272x256_S6272x256_0_0 : ∀ a, (![0, 0] : Fin 2 → Nat) a + S6272x256.size a ≤ S6272x256.size a
  h_S6272x256 : 0 < S6272x256.numel
  inb_S1x256_S1x256_0_0 : ∀ a, (![0, 0] : Fin 2 → Nat) a + S1x256.size a ≤ S1x256.size a
  h_S1x256 : 0 < S1x256.numel
  broadcasts_S1x256_S48x256 : S1x256.Broadcasts S48x256
  inb_S48x256_S48x256_0_0 : ∀ a, (![0, 0] : Fin 2 → Nat) a + S48x256.size a ≤ S48x256.size a
  h_S48x256 : 0 < S48x256.numel
  inb_S256x512_S256x512_0_0 : ∀ a, (![0, 0] : Fin 2 → Nat) a + S256x512.size a ≤ S256x512.size a
  h_S256x512 : 0 < S256x512.numel
  inb_S48x512_S48x512_0_0 : ∀ a, (![0, 0] : Fin 2 → Nat) a + S48x512.size a ≤ S48x512.size a
  h_S48x512 : 0 < S48x512.numel
  shapeCasts_S48x512_S48x512 : S48x512.ShapeCasts S48x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S48x512 : S1x512.Broadcasts S48x512
  inb_S512x128_S512x128_0_0 : ∀ a, (![0, 0] : Fin 2 → Nat) a + S512x128.size a ≤ S512x128.size a
  h_S512x128 : 0 < S512x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S48x128 : S1x128.Broadcasts S48x128
  inb_S48x128_S48x128_0_0 : ∀ a, (![0, 0] : Fin 2 → Nat) a + S48x128.size a ≤ S48x128.size a
  h_S48x128 : 0 < S48x128.numel
  slices_S96x128_S48x10_0_0 : S96x128.Slices ![0, 0] S48x10
  slices_S96x128_S48x10_48_0 : S96x128.Slices ![48, 0] S48x10
  slices_S96x2048_S48x2048_0_0 : S96x2048.Slices ![0, 0] S48x2048
  slices_S96x2048_S48x2048_48_0 : S96x2048.Slices ![48, 0] S48x2048
  dot_S6272x128_S128x64_S6272x64_1_0_0_1_n_n_wf : DotDims.WF S6272x128 S128x64 S6272x64 [1] [0] [0] [1] [] []
  dot_S2016x320_S320x64_S2016x64_1_0_0_1_n_n_wf : DotDims.WF S2016x320 S320x64 S2016x64 [1] [0] [0] [1] [] []
  dot_S616x320_S320x128_S616x128_1_0_0_1_n_n_wf : DotDims.WF S616x320 S320x128 S616x128 [1] [0] [0] [1] [] []
  dot_S48x6272_S6272x256_S48x256_1_0_0_1_n_n_wf : DotDims.WF S48x6272 S6272x256 S48x256 [1] [0] [0] [1] [] []
  dot_S48x256_S256x512_S48x512_1_0_0_1_n_n_wf : DotDims.WF S48x256 S256x512 S48x512 [1] [0] [0] [1] [] []
  dot_S48x512_S512x128_S48x128_1_0_0_1_n_n_wf : DotDims.WF S48x512 S512x128 S48x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x128.size a ≤ S37632x128.size a
  hwx0_0 : ∀ i : grid0.Coords, EltTy.bits .bf16 = 32 ∨ (Rect.block (s := S37632x128) S6272x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1568x64.size a ≤ S9408x64.size a
  hwx0_4 : ∀ i : grid0.Coords, EltTy.bits .bf16 = 32 ∨ (Rect.block (s := S9408x64) S1568x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2020x320.size a ≤ S6x2020x320.size a
  hwx1_0 : ∀ i : grid1.Coords, EltTy.bits .bf16 = 32 ∨ (Rect.block (s := S6x2020x320) S1x2020x320.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1600x64.size a ≤ S1600x64.size a
  hwx1_1 : ∀ i : grid1.Coords, EltTy.bits .bf16 = 32 ∨ (Rect.block (s := S1600x64) S1600x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S392x64.size a ≤ S2352x64.size a
  hwx1_4 : ∀ i : grid1.Coords, EltTy.bits .bf16 = 32 ∨ (Rect.block (s := S2352x64) S392x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x620x320.size a ≤ S6x620x320.size a
  hwx2_0 : ∀ i : grid2.Coords, EltTy.bits .bf16 = 32 ∨ (Rect.block (s := S6x620x320) S1x620x320.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1600x128.size a ≤ S1600x128.size a
  hwx2_1 : ∀ i : grid2.Coords, EltTy.bits .bf16 = 32 ∨ (Rect.block (s := S1600x128) S1600x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S392x128.size a ≤ S2352x128.size a
  hwx2_4 : ∀ i : grid2.Coords, EltTy.bits .f32 = 32 ∨ (Rect.block (s := S2352x128) S392x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2352x128.size a ≤ S2352x128.size a
  hwx3_0 : ∀ i : grid3.Coords, EltTy.bits .f32 = 32 ∨ (Rect.block (s := S2352x128) S2352x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6272x256.size a ≤ S6272x4096.size a
  hwx3_1 : ∀ i : grid3.Coords, EltTy.bits .bf16 = 32 ∨ (Rect.block (s := S6272x4096) S6272x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x4096.size a
  hwx3_2 : ∀ i : grid3.Coords, EltTy.bits .f32 = 32 ∨ (Rect.block (s := S1x4096) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x4096.size a
  hwx3_3 : ∀ i : grid3.Coords, EltTy.bits .f32 = 32 ∨ (Rect.block (s := S1x4096) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x512.size a ≤ S4096x512.size a
  hwx3_4 : ∀ i : grid3.Coords, EltTy.bits .bf16 = 32 ∨ (Rect.block (s := S4096x512) S256x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x512.size a ≤ S2x1x512.size a
  hwx3_5 : ∀ i : grid3.Coords, EltTy.bits .f32 = 32 ∨ (Rect.block (s := S2x1x512) S1x1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x512.size a ≤ S2x1x512.size a
  hwx3_6 : ∀ i : grid3.Coords, EltTy.bits .f32 = 32 ∨ (Rect.block (s := S2x1x512) S1x1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S1024x128.size a
  hwx3_7 : ∀ i : grid3.Coords, EltTy.bits .bf16 = 32 ∨ (Rect.block (s := S1024x128) S512x128.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x128.size a ≤ S2x1x128.size a
  hwx3_8 : ∀ i : grid3.Coords, EltTy.bits .f32 = 32 ∨ (Rect.block (s := S2x1x128) S1x1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S48x256.size a ≤ S96x2048.size a
  hwx3_9 : ∀ i : grid3.Coords, EltTy.bits .f32 = 32 ∨ (Rect.block (s := S96x2048) S48x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S48x128.size a ≤ S96x128.size a
  hwx3_10 : ∀ i : grid3.Coords, EltTy.bits .f32 = 32 ∨ (Rect.block (s := S96x128) S48x128.size (cc3_transform_10 i) (hinb3_10 i)).WholeWords (EltTy.packing .f32)

variable [Facts₀]

def dot_S6272x128_S128x64_S6272x64_1_0_0_1_n_n : DotDims S6272x128 S128x64 S6272x64 where
  lhsContracting := [1]
  rhsContracting := [0]
  lhsNonContracting := [0]
  rhsNonContracting := [1]
  lhsBatch := []
  rhsBatch := []
  wf := dot_S6272x128_S128x64_S6272x64_1_0_0_1_n_n_wf
def dot_S2016x320_S320x64_S2016x64_1_0_0_1_n_n : DotDims S2016x320 S320x64 S2016x64 where
  lhsContracting := [1]
  rhsContracting := [0]
  lhsNonContracting := [0]
  rhsNonContracting := [1]
  lhsBatch := []
  rhsBatch := []
  wf := dot_S2016x320_S320x64_S2016x64_1_0_0_1_n_n_wf
def dot_S616x320_S320x128_S616x128_1_0_0_1_n_n : DotDims S616x320 S320x128 S616x128 where
  lhsContracting := [1]
  rhsContracting := [0]
  lhsNonContracting := [0]
  rhsNonContracting := [1]
  lhsBatch := []
  rhsBatch := []
  wf := dot_S616x320_S320x128_S616x128_1_0_0_1_n_n_wf
def dot_S48x6272_S6272x256_S48x256_1_0_0_1_n_n : DotDims S48x6272 S6272x256 S48x256 where
  lhsContracting := [1]
  rhsContracting := [0]
  lhsNonContracting := [0]
  rhsNonContracting := [1]
  lhsBatch := []
  rhsBatch := []
  wf := dot_S48x6272_S6272x256_S48x256_1_0_0_1_n_n_wf
def dot_S48x256_S256x512_S48x512_1_0_0_1_n_n : DotDims S48x256 S256x512 S48x512 where
  lhsContracting := [1]
  rhsContracting := [0]
  lhsNonContracting := [0]
  rhsNonContracting := [1]
  lhsBatch := []
  rhsBatch := []
  wf := dot_S48x256_S256x512_S48x512_1_0_0_1_n_n_wf
def dot_S48x512_S512x128_S48x128_1_0_0_1_n_n : DotDims S48x512 S512x128 S48x128 where
  lhsContracting := [1]
  rhsContracting := [0]
  lhsNonContracting := [0]
  rhsNonContracting := [1]
  lhsBatch := []
  rhsBatch := []
  wf := dot_S48x512_S512x128_S48x128_1_0_0_1_n_n_wf

abbrev win0_0 : Pipeline.Window sig grid0 :=
  Pipeline.Window.ofSpec (Memref.whole main_v32) S6272x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1568x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S1x2020x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1600x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S392x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S1x620x320.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1600x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S392x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v73) S2352x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S6272x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S256x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S1x1x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S1x1x512.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S512x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S1x1x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v74_0) S48x256.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v74_1) S48x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond4 i == 1#1) | ⟨_ + 11, h⟩ => absurd h (Nat.not_lt.2 (Nat.le_add_left _ _))

class Facts : Prop extends Facts₀ where

variable [Facts]
-- ==== ReferenceIdeal.lean ====
abbrev S48x3x28x28 : Shape := ⟨4, ![48, 3, 28, 28]⟩
abbrev S128x128 : Shape := ⟨2, ![128, 128]⟩
abbrev S128 : Shape := ⟨1, ![128]⟩
abbrev S1600x128 : Shape := ⟨2, ![1600, 128]⟩
abbrev S6272x4096 : Shape := ⟨2, ![6272, 4096]⟩
abbrev S1x4096 : Shape := ⟨2, ![1, 4096]⟩
abbrev S4096x512 : Shape := ⟨2, ![4096, 512]⟩
abbrev S2x1x512 : Shape := ⟨3, ![2, 1, 512]⟩
abbrev S1024x128 : Shape := ⟨2, ![1024, 128]⟩
abbrev S2x1x128 : Shape := ⟨3, ![2, 1, 128]⟩
abbrev S48x28x28x3 : Shape := ⟨4, ![48, 28, 28, 3]⟩
abbrev S_ : Shape := ⟨0, ![]⟩
abbrev S48x32x32x3 : Shape := ⟨4, ![48, 32, 32, 3]⟩
abbrev S48x28x28x48 : Shape := ⟨4, ![48, 28, 28, 48]⟩
abbrev S48x28x28x27 : Shape := ⟨4, ![48, 28, 28, 27]⟩
abbrev S48x28x28x75 : Shape := ⟨4, ![48, 28, 28, 75]⟩
abbrev S37632x75 : Shape := ⟨2, ![37632, 75]⟩
abbrev S37632x128 : Shape := ⟨2, ![37632, 128]⟩
abbrev S1x128 : Shape := ⟨2, ![1, 128]⟩
abbrev S18816x128 : Shape := ⟨2, ![18816, 128]⟩
abbrev S48x28x28x128 : Shape := ⟨4, ![48, 28, 28, 128]⟩
abbrev S48x28x28x64 : Shape := ⟨4, ![48, 28, 28, 64]⟩
abbrev S48x14x2x14x2x64 : Shape := ⟨6, ![48, 14, 2, 14, 2, 64]⟩
abbrev S48x14x14x64 : Shape := ⟨4, ![48, 14, 14, 64]⟩
abbrev S48x18x18x64 : Shape := ⟨4, ![48, 18, 18, 64]⟩
abbrev S48x14x14x1024 : Shape := ⟨4, ![48, 14, 14, 1024]⟩
abbrev S48x14x14x576 : Shape := ⟨4, ![48, 14, 14, 576]⟩
abbrev S48x14x14x1600 : Shape := ⟨4, ![48, 14, 14, 1600]⟩
abbrev S9408x1600 : Shape := ⟨2, ![9408, 1600]⟩
abbrev S9408x128 : Shape := ⟨2, ![9408, 128]⟩
abbrev S4704x1600 : Shape := ⟨2, ![4704, 1600]⟩
abbrev S4704x128 : Shape := ⟨2, ![4704, 128]⟩
abbrev S48x14x14x128 : Shape := ⟨4, ![48, 14, 14, 128]⟩
abbrev S48x7x2x7x2x64 : Shape := ⟨6, ![48, 7, 2, 7, 2, 64]⟩
abbrev S48x7x7x64 : Shape := ⟨4, ![48, 7, 7, 64]⟩
abbrev S48x11x11x64 : Shape := ⟨4, ![48, 11, 11, 64]⟩
abbrev S48x7x7x1024 : Shape := ⟨4, ![48, 7, 7, 1024]⟩
abbrev S48x7x7x576 : Shape := ⟨4, ![48, 7, 7, 576]⟩
abbrev S48x7x7x1600 : Shape := ⟨4, ![48, 7, 7, 1600]⟩
abbrev S2352x1600 : Shape := ⟨2, ![2352, 1600]⟩
abbrev S2368x1600 : Shape := ⟨2, ![2368, 1600]⟩
abbrev S2368x128 : Shape := ⟨2, ![2368, 128]⟩
abbrev S1184x1600 : Shape := ⟨2, ![1184, 1600]⟩
abbrev S1184x128 : Shape := ⟨2, ![1184, 128]⟩
abbrev S2352x128 : Shape := ⟨2, ![2352, 128]⟩
abbrev S48x7x7x128 : Shape := ⟨4, ![48, 7, 7, 128]⟩
abbrev S48x128x7x7 : Shape := ⟨4, ![48, 128, 7, 7]⟩
abbrev S48x6272 : Shape := ⟨2, ![48, 6272]⟩
abbrev S48x4096 : Shape := ⟨2, ![48, 4096]⟩
abbrev S96x128 : Shape := ⟨2, ![96, 128]⟩
abbrev S6272x512 : Shape := ⟨2, ![6272, 512]⟩
abbrev S1x512 : Shape := ⟨2, ![1, 512]⟩
abbrev S512x512 : Shape := ⟨2, ![512, 512]⟩
abbrev S1x1x512 : Shape := ⟨3, ![1, 1, 512]⟩
abbrev S512x128 : Shape := ⟨2, ![512, 128]⟩
abbrev S1x1x128 : Shape := ⟨3, ![1, 1, 128]⟩
abbrev S48x512 : Shape := ⟨2, ![48, 512]⟩
abbrev S48x128 : Shape := ⟨2, ![48, 128]⟩
abbrev S48x2048 : Shape := ⟨2, ![48, 2048]⟩
abbrev S48x10 : Shape := ⟨2, ![48, 10]⟩

abbrev nBuf : Space → Nat
  | .hbm => 157
  | .vmem => 43
  | .smem => 0
  | _ => 0

abbrev hbmTy0_0 (i : Nat) : BufTy := match i % 128 with
  | 0 => ⟨S48x3x28x28, .f32⟩
  | 1 => ⟨S128x128, .bf16⟩
  | 2 => ⟨S128, .f32⟩
  | 3 => ⟨S128, .f32⟩
  | 4 => ⟨S1600x128, .bf16⟩
  | 5 => ⟨S128, .f32⟩
  | 6 => ⟨S128, .f32⟩
  | 7 => ⟨S1600x128, .bf16⟩
  | 8 => ⟨S128, .f32⟩
  | 9 => ⟨S128, .f32⟩
  | 10 => ⟨S6272x4096, .bf16⟩
  | 11 => ⟨S1x4096, .f32⟩
  | 12 => ⟨S1x4096, .f32⟩
  | 13 => ⟨S4096x512, .bf16⟩
  | 14 => ⟨S2x1x512, .f32⟩
  | 15 => ⟨S2x1x512, .f32⟩
  | 16 => ⟨S1024x128, .bf16⟩
  | 17 => ⟨S2x1x128, .f32⟩
  | 18 => ⟨S48x28x28x3, .f32⟩
  | 19 => ⟨S48x28x28x3, .bf16⟩
  | 20 => ⟨S_, .i32⟩
  | 21 => ⟨S_, .bf16⟩
  | 22 => ⟨S48x32x32x3, .bf16⟩
  | 23 => ⟨S48x28x28x3, .bf16⟩
  | 24 => ⟨S48x28x28x3, .bf16⟩
  | 25 => ⟨S48x28x28x3, .bf16⟩
  | 26 => ⟨S48x28x28x3, .bf16⟩
  | 27 => ⟨S48x28x28x3, .bf16⟩
  | 28 => ⟨S48x28x28x3, .bf16⟩
  | 29 => ⟨S48x28x28x3, .bf16⟩
  | 30 => ⟨S48x28x28x3, .bf16⟩
  | 31 => ⟨S48x28x28x3, .bf16⟩
  | 32 => ⟨S48x28x28x3, .bf16⟩
  | 33 => ⟨S48x28x28x3, .bf16⟩
  | 34 => ⟨S48x28x28x3, .bf16⟩
  | 35 => ⟨S48x28x28x3, .bf16⟩
  | 36 => ⟨S48x28x28x3, .bf16⟩
  | 37 => ⟨S48x28x28x3, .bf16⟩
  | 38 => ⟨S48x28x28x3, .bf16⟩
  | 39 => ⟨S48x28x28x3, .bf16⟩
  | 40 => ⟨S48x28x28x3, .bf16⟩
  | 41 => ⟨S48x28x28x3, .bf16⟩
  | 42 => ⟨S48x28x28x3, .bf16⟩
  | 43 => ⟨S48x28x28x3, .bf16⟩
  | 44 => ⟨S48x28x28x3, .bf16⟩
  | 45 => ⟨S48x28x28x3, .bf16⟩
  | 46 => ⟨S48x28x28x3, .bf16⟩
  | 47 => ⟨S48x28x28x3, .bf16⟩
  | 48 => ⟨S48x28x28x48, .bf16⟩
  | 49 => ⟨S48x28x28x27, .bf16⟩
  | 50 => ⟨S48x28x28x75, .bf16⟩
  | 51 => ⟨S37632x75, .bf16⟩
  | 52 => ⟨S_, .i32⟩
  | 53 => ⟨S_, .bf16⟩
  | 54 => ⟨S37632x128, .bf16⟩
  | 55 => ⟨S1x128, .f32⟩
  | 56 => ⟨S1x128, .f32⟩
  | 57 => ⟨S37632x128, .f32⟩
  | 58 => ⟨S48x28x28x128, .f32⟩
  | 59 => ⟨S48x28x28x64, .f32⟩
  | 60 => ⟨S48x14x2x14x2x64, .f32⟩
  | 61 => ⟨S_, .f32⟩
  | 62 => ⟨S48x14x14x64, .f32⟩
  | 63 => ⟨S48x14x14x64, .bf16⟩
  | 64 => ⟨S_, .i32⟩
  | 65 => ⟨S_, .bf16⟩
  | 66 => ⟨S48x18x18x64, .bf16⟩
  | 67 => ⟨S48x14x14x64, .bf16⟩
  | 68 => ⟨S48x14x14x64, .bf16⟩
  | 69 => ⟨S48x14x14x64, .bf16⟩
  | 70 => ⟨S48x14x14x64, .bf16⟩
  | 71 => ⟨S48x14x14x64, .bf16⟩
  | 72 => ⟨S48x14x14x64, .bf16⟩
  | 73 => ⟨S48x14x14x64, .bf16⟩
  | 74 => ⟨S48x14x14x64, .bf16⟩
  | 75 => ⟨S48x14x14x64, .bf16⟩
  | 76 => ⟨S48x14x14x64, .bf16⟩
  | 77 => ⟨S48x14x14x64, .bf16⟩
  | 78 => ⟨S48x14x14x64, .bf16⟩
  | 79 => ⟨S48x14x14x64, .bf16⟩
  | 80 => ⟨S48x14x14x64, .bf16⟩
  | 81 => ⟨S48x14x14x64, .bf16⟩
  | 82 => ⟨S48x14x14x64, .bf16⟩
  | 83 => ⟨S48x14x14x64, .bf16⟩
  | 84 => ⟨S48x14x14x64, .bf16⟩
  | 85 => ⟨S48x14x14x64, .bf16⟩
  | 86 => ⟨S48x14x14x64, .bf16⟩
  | 87 => ⟨S48x14x14x64, .bf16⟩
  | 88 => ⟨S48x14x14x64, .bf16⟩
  | 89 => ⟨S48x14x14x64, .bf16⟩
  | 90 => ⟨S48x14x14x64, .bf16⟩
  | 91 => ⟨S48x14x14x64, .bf16⟩
  | 92 => ⟨S48x14x14x1024, .bf16⟩
  | 93 => ⟨S48x14x14x576, .bf16⟩
  | 94 => ⟨S48x14x14x1600, .bf16⟩
  | 95 => ⟨S9408x1600, .bf16⟩
  | 96 => ⟨S1x128, .f32⟩
  | 97 => ⟨S1x128, .f32⟩
  | 98 => ⟨S9408x128, .f32⟩
  | 99 => ⟨S48x14x14x128, .f32⟩
  | 100 => ⟨S48x14x14x64, .f32⟩
  | 101 => ⟨S48x7x2x7x2x64, .f32⟩
  | 102 => ⟨S_, .f32⟩
  | 103 => ⟨S48x7x7x64, .f32⟩
  | 104 => ⟨S48x7x7x64, .bf16⟩
  | 105 => ⟨S_, .i32⟩
  | 106 => ⟨S_, .bf16⟩
  | 107 => ⟨S48x11x11x64, .bf16⟩
  | 108 => ⟨S48x7x7x64, .bf16⟩
  | 109 => ⟨S48x7x7x64, .bf16⟩
  | 110 => ⟨S48x7x7x64, .bf16⟩
  | 111 => ⟨S48x7x7x64, .bf16⟩
  | 112 => ⟨S48x7x7x64, .bf16⟩
  | 113 => ⟨S48x7x7x64, .bf16⟩
  | 114 => ⟨S48x7x7x64, .bf16⟩
  | 115 => ⟨S48x7x7x64, .bf16⟩
  | 116 => ⟨S48x7x7x64, .bf16⟩
  | 117 => ⟨S48x7x7x64, .bf16⟩
  | 118 => ⟨S48x7x7x64, .bf16⟩
  | 119 => ⟨S48x7x7x64, .bf16⟩
  | 120 => ⟨S48x7x7x64, .bf16⟩
  | 121 => ⟨S48x7x7x64, .bf16⟩
  | 122 => ⟨S48x7x7x64, .bf16⟩
  | 123 => ⟨S48x7x7x64, .bf16⟩
  | 124 => ⟨S48x7x7x64, .bf16⟩
  | 125 => ⟨S48x7x7x64, .bf16⟩
  | 126 => ⟨S48x7x7x64, .bf16⟩
  | 127 => ⟨S48x7x7x64, .bf16⟩
  | _ => ⟨S48x3x28x28, .f32⟩

abbrev hbmTy0_1 (i : Nat) : BufTy := match i % 128 with
  | 0 => ⟨S48x7x7x64, .bf16⟩
  | 1 => ⟨S48x7x7x64, .bf16⟩
  | 2 => ⟨S48x7x7x64, .bf16⟩
  | 3 => ⟨S48x7x7x64, .bf16⟩
  | 4 => ⟨S48x7x7x64, .bf16⟩
  | 5 => ⟨S48x7x7x1024, .bf16⟩
  | 6 => ⟨S48x7x7x576, .bf16⟩
  | 7 => ⟨S48x7x7x1600, .bf16⟩
  | 8 => ⟨S2352x1600, .bf16⟩
  | 9 => ⟨S_, .i32⟩
  | 10 => ⟨S_, .bf16⟩
  | 11 => ⟨S2368x1600, .bf16⟩
  | 12 => ⟨S1x128, .f32⟩
  | 13 => ⟨S1x128, .f32⟩
  | 14 => ⟨S2368x128, .f32⟩
  | 15 => ⟨S2352x128, .f32⟩
  | 16 => ⟨S48x7x7x128, .f32⟩
  | 17 => ⟨S48x128x7x7, .f32⟩
  | 18 => ⟨S48x6272, .f32⟩
  | 19 => ⟨S_, .i32⟩
  | 20 => ⟨S_, .f32⟩
  | 21 => ⟨S48x6272, .f32⟩
  | 22 => ⟨S48x6272, .bf16⟩
  | 23 => ⟨S48x4096, .f32⟩
  | 24 => ⟨S96x128, .f32⟩
  | 25 => ⟨S48x2048, .f32⟩
  | 26 => ⟨S48x2048, .f32⟩
  | 27 => ⟨S48x10, .f32⟩
  | 28 => ⟨S48x10, .f32⟩
  | _ => ⟨S48x3x28x28, .f32⟩

abbrev hbmTy (i : Nat) : BufTy := match i / 128 with
  | 0 => hbmTy0_0 i
  | 1 => hbmTy0_1 i
  | _ => ⟨S48x3x28x28, .f32⟩

abbrev bufTy : (tb : Table) → Fin (tcTables nBuf tb) → BufTy
  | .hbm, ⟨i, _⟩ => hbmTy i
  | .local _ .vmem, ⟨0, _⟩ => ⟨S18816x128, .bf16⟩
  | .local _ .vmem, ⟨1, _⟩ => ⟨S18816x128, .bf16⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S18816x128, .f32⟩
  | .local _ .vmem, ⟨6, _⟩ => ⟨S18816x128, .f32⟩
  | .local _ .vmem, ⟨7, _⟩ => ⟨S4704x1600, .bf16⟩
  | .local _ .vmem, ⟨8, _⟩ => ⟨S4704x1600, .bf16⟩
  | .local _ .vmem, ⟨9, _⟩ => ⟨S1600x128, .bf16⟩
  | .local _ .vmem, ⟨10, _⟩ => ⟨S1x128, .f32⟩
  | .local _ .vmem, ⟨11, _⟩ => ⟨S1x128, .f32⟩
  | .local _ .vmem, ⟨12, _⟩ => ⟨S4704x128, .f32⟩
  | .local _ .vmem, ⟨13, _⟩ => ⟨S4704x128, .f32⟩
  | .local _ .vmem, ⟨14, _⟩ => ⟨S1184x1600, .bf16⟩
  | .local _ .vmem, ⟨15, _⟩ => ⟨S1184x1600, .bf16⟩
  | .local _ .vmem, ⟨16, _⟩ => ⟨S1600x128, .bf16⟩
  | .local _ .vmem, ⟨17, _⟩ => ⟨S1x128, .f32⟩
  | .local _ .vmem, ⟨18, _⟩ => ⟨S1x128, .f32⟩
  | .local _ .vmem, ⟨19, _⟩ => ⟨S1184x128, .f32⟩
  | .local _ .vmem, ⟨20, _⟩ => ⟨S1184x128, .f32⟩
  | .local _ .vmem, ⟨21, _⟩ => ⟨S48x6272, .bf16⟩
  | .local _ .vmem, ⟨22, _⟩ => ⟨S6272x512, .bf16⟩
  | .local _ .vmem, ⟨23, _⟩ => ⟨S6272x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x512, .bf16⟩
  | .local _ .vmem, ⟨29, _⟩ => ⟨S512x512, .bf16⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x1x512, .f32⟩
  | .local _ .vmem, ⟨34, _⟩ => ⟨S512x128, .bf16⟩
  | .local _ .vmem, ⟨35, _⟩ => ⟨S512x128, .bf16⟩
  | .local _ .vmem, ⟨36, _⟩ => ⟨S1x1x128, .f32⟩
  | .local _ .vmem, ⟨37, _⟩ => ⟨S1x1x128, .f32⟩
  | .local _ .vmem, ⟨38, _⟩ => ⟨S48x512, .f32⟩
  | .local _ .vmem, ⟨39, _⟩ => ⟨S48x512, .f32⟩
  | .local _ .vmem, ⟨40, _⟩ => ⟨S48x128, .f32⟩
  | .local _ .vmem, ⟨41, _⟩ => ⟨S48x128, .f32⟩
  | .local _ .vmem, ⟨42, _⟩ => ⟨S48x512, .f32⟩
  | _, _ => ⟨S48x3x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_0 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_v39 : Ref sig .tc := ⟨.hbm, 62, rfl⟩
abbrev main_v40 : Ref sig .tc := ⟨.hbm, 63, rfl⟩
abbrev main_c_1 : Ref sig .tc := ⟨.hbm, 64, rfl⟩
abbrev main_call2_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_2 : Ref sig .tc := ⟨.hbm, 102, rfl⟩
abbrev main_v77 : Ref sig .tc := ⟨.hbm, 103, rfl⟩
abbrev main_v78 : Ref sig .tc := ⟨.hbm, 104, rfl⟩
abbrev main_c_3 : Ref sig .tc := ⟨.hbm, 105, rfl⟩
abbrev main_call3_v0 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_4 : Ref sig .tc := ⟨.hbm, 137, rfl⟩
abbrev main_call4_v0 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_5 : Ref sig .tc := ⟨.hbm, 147, rfl⟩
abbrev main_call5_v0 : Ref sig .tc := ⟨.hbm, 148, rfl⟩
abbrev main_v117 : Ref sig .tc := ⟨.hbm, 149, rfl⟩
abbrev main_v118 : Ref sig .tc := ⟨.hbm, 150, rfl⟩
abbrev main_v119_0 : Ref sig .tc := ⟨.hbm, 151, rfl⟩
abbrev main_v119_1 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc3_stg8_0 : Ref sig .tc := ⟨.vmem, 36, rfl⟩
abbrev cc3_stg8_1 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg10_1 : Ref sig .tc := ⟨.vmem, 41, rfl⟩
abbrev cc3_scratch0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc3_sem8_0 : DmaSem sig := 36
abbrev cc3_sem8_1 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S18816x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S18816x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4704x1600 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1600x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true]

abbrev stage1_4 : Fin 2 → Memref sig .tc .vmem S4704x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1184x1600 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1600x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 2 → Memref sig .tc .vmem S1184x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 4], ![false, false]⟩

def k3_cond2 (i : grid3.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_18 : BitVec 32 := 0#32
  let v26 : BitVec 1 := Scalar.cmpi .ne v25 c0_i32_18
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 1 → Memref sig .tc .vmem S48x6272 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S6272x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S512x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x1x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S48x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S48x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

class Facts₀ : Prop where
  transposes_S48x3x28x28_S48x28x28x3_0_2_3_1 : S48x3x28x28.Transposes [0, 2, 3, 1] S48x28x28x3
  bitsLt_bf16_f32 : FTy.bits .bf16 < FTy.bits .f32
  pads_S48x28x28x3_S48x32x32x3_000_220_220_000 : S48x28x28x3.Pads (![0, 2, 2, 0] : Fin 4 → Nat) ![0, 2, 2, 0] ![0, 0, 0, 0] S48x32x32x3
  h_S_ : 0 < S_.numel
  slices_S48x32x32x3_S48x28x28x3_0_0_0_0 : S48x32x32x3.Slices ![0, 0, 0, 0] S48x28x28x3
  slices_S48x32x32x3_S48x28x28x3_0_0_1_0 : S48x32x32x3.Slices ![0, 0, 1, 0] S48x28x28x3
  slices_S48x32x32x3_S48x28x28x3_0_0_2_0 : S48x32x32x3.Slices ![0, 0, 2, 0] S48x28x28x3
  slices_S48x32x32x3_S48x28x28x3_0_0_3_0 : S48x32x32x3.Slices ![0, 0, 3, 0] S48x28x28x3
  slices_S48x32x32x3_S48x28x28x3_0_0_4_0 : S48x32x32x3.Slices ![0, 0, 4, 0] S48x28x28x3
  slices_S48x32x32x3_S48x28x28x3_0_1_0_0 : S48x32x32x3.Slices ![0, 1, 0, 0] S48x28x28x3
  slices_S48x32x32x3_S48x28x28x3_0_1_1_0 : S48x32x32x3.Slices ![0, 1, 1, 0] S48x28x28x3
  slices_S48x32x32x3_S48x28x28x3_0_1_2_0 : S48x32x32x3.Slices ![0, 1, 2, 0] S48x28x28x3
  slices_S48x32x32x3_S48x28x28x3_0_1_3_0 : S48x32x32x3.Slices ![0, 1, 3, 0] S48x28x28x3
  slices_S48x32x32x3_S48x28x28x3_0_1_4_0 : S48x32x32x3.Slices ![0, 1, 4, 0] S48x28x28x3
  slices_S48x32x32x3_S48x28x28x3_0_2_0_0 : S48x32x32x3.Slices ![0, 2, 0, 0] S48x28x28x3
  slices_S48x32x32x3_S48x28x28x3_0_2_1_0 : S48x32x32x3.Slices ![0, 2, 1, 0] S48x28x28x3
  slices_S48x32x32x3_S48x28x28x3_0_2_2_0 : S48x32x32x3.Slices ![0, 2, 2, 0] S48x28x28x3
  slices_S48x32x32x3_S48x28x28x3_0_2_3_0 : S48x32x32x3.Slices ![0, 2, 3, 0] S48x28x28x3
  slices_S48x32x32x3_S48x28x28x3_0_2_4_0 : S48x32x32x3.Slices ![0, 2, 4, 0] S48x28x28x3
  slices_S48x32x32x3_S48x28x28x3_0_3_0_0 : S48x32x32x3.Slices ![0, 3, 0, 0] S48x28x28x3
  slices_S48x32x32x3_S48x28x28x3_0_3_1_0 : S48x32x32x3.Slices ![0, 3, 1, 0] S48x28x28x3
  slices_S48x32x32x3_S48x28x28x3_0_3_2_0 : S48x32x32x3.Slices ![0, 3, 2, 0] S48x28x28x3
  slices_S48x32x32x3_S48x28x28x3_0_3_3_0 : S48x32x32x3.Slices ![0, 3, 3, 0] S48x28x28x3
  slices_S48x32x32x3_S48x28x28x3_0_3_4_0 : S48x32x32x3.Slices ![0, 3, 4, 0] S48x28x28x3
  slices_S48x32x32x3_S48x28x28x3_0_4_0_0 : S48x32x32x3.Slices ![0, 4, 0, 0] S48x28x28x3
  slices_S48x32x32x3_S48x28x28x3_0_4_1_0 : S48x32x32x3.Slices ![0, 4, 1, 0] S48x28x28x3
  slices_S48x32x32x3_S48x28x28x3_0_4_2_0 : S48x32x32x3.Slices ![0, 4, 2, 0] S48x28x28x3
  slices_S48x32x32x3_S48x28x28x3_0_4_3_0 : S48x32x32x3.Slices ![0, 4, 3, 0] S48x28x28x3
  slices_S48x32x32x3_S48x28x28x3_0_4_4_0 : S48x32x32x3.Slices ![0, 4, 4, 0] S48x28x28x3
  concatenates_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x3_S48x28x28x48_d3 : Shape.Concatenates [S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3, S48x28x28x3] S48x28x28x48 3
  concatenates_S48x28x28x3_S48x28x28x3_S48x28x28x3_S48x28x28x3_S48x28x28x3_S48x28x28x3_S48x28x28x3_S48x28x28x3_S48x28x28x3_S48x28x28x27_d3 : Shape.Concatenates [S48x28x28x3, S48x28x28x3, S48x28x28x3, S48x28x28x3, S48x28x28x3, S48x28x28x3, S48x28x28x3, S48x28x28x3, S48x28x28x3] S48x28x28x27 3
  concatenates_S48x28x28x48_S48x28x28x27_S48x28x28x75_d3 : Shape.Concatenates [S48x28x28x48, S48x28x28x27] S48x28x28x75 3
  shapeCasts_S48x28x28x75_S37632x75 : S48x28x28x75.ShapeCasts S37632x75
  pads_S37632x75_S37632x128_000_0530 : S37632x75.Pads (![0, 0] : Fin 2 → Nat) ![0, 53] ![0, 0] S37632x128
  shapeCasts_S128_S1x128 : S128.ShapeCasts S1x128
  inb_S18816x128_S18816x128_0_0 : ∀ a, (![0, 0] : Fin 2 → Nat) a + S18816x128.size a ≤ S18816x128.size a
  h_S18816x128 : 0 < S18816x128.numel
  shapeCasts_S18816x128_S18816x128 : S18816x128.ShapeCasts S18816x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S18816x128 : S1x128.Broadcasts S18816x128
  shapeCasts_S37632x128_S48x28x28x128 : S37632x128.ShapeCasts S48x28x28x128
  slices_S48x28x28x128_S48x28x28x64_0_0_0_0 : S48x28x28x128.Slices ![0, 0, 0, 0] S48x28x28x64
  shapeCasts_S48x28x28x64_S48x14x2x14x2x64 : S48x28x28x64.ShapeCasts S48x14x2x14x2x64
  reducesTo_S48x14x2x14x2x64_S48x14x14x64_d2_4 : S48x14x2x14x2x64.ReducesTo [2, 4] S48x14x14x64
  pads_S48x14x14x64_S48x18x18x64_000_220_220_000 : S48x14x14x64.Pads (![0, 2, 2, 0] : Fin 4 → Nat) ![0, 2, 2, 0] ![0, 0, 0, 0] S48x18x18x64
  slices_S48x18x18x64_S48x14x14x64_0_0_0_0 : S48x18x18x64.Slices ![0, 0, 0, 0] S48x14x14x64
  slices_S48x18x18x64_S48x14x14x64_0_0_1_0 : S48x18x18x64.Slices ![0, 0, 1, 0] S48x14x14x64
  slices_S48x18x18x64_S48x14x14x64_0_0_2_0 : S48x18x18x64.Slices ![0, 0, 2, 0] S48x14x14x64
  slices_S48x18x18x64_S48x14x14x64_0_0_3_0 : S48x18x18x64.Slices ![0, 0, 3, 0] S48x14x14x64
  slices_S48x18x18x64_S48x14x14x64_0_0_4_0 : S48x18x18x64.Slices ![0, 0, 4, 0] S48x14x14x64
  slices_S48x18x18x64_S48x14x14x64_0_1_0_0 : S48x18x18x64.Slices ![0, 1, 0, 0] S48x14x14x64
  slices_S48x18x18x64_S48x14x14x64_0_1_1_0 : S48x18x18x64.Slices ![0, 1, 1, 0] S48x14x14x64
  slices_S48x18x18x64_S48x14x14x64_0_1_2_0 : S48x18x18x64.Slices ![0, 1, 2, 0] S48x14x14x64
  slices_S48x18x18x64_S48x14x14x64_0_1_3_0 : S48x18x18x64.Slices ![0, 1, 3, 0] S48x14x14x64
  slices_S48x18x18x64_S48x14x14x64_0_1_4_0 : S48x18x18x64.Slices ![0, 1, 4, 0] S48x14x14x64
  slices_S48x18x18x64_S48x14x14x64_0_2_0_0 : S48x18x18x64.Slices ![0, 2, 0, 0] S48x14x14x64
  slices_S48x18x18x64_S48x14x14x64_0_2_1_0 : S48x18x18x64.Slices ![0, 2, 1, 0] S48x14x14x64
  slices_S48x18x18x64_S48x14x14x64_0_2_2_0 : S48x18x18x64.Slices ![0, 2, 2, 0] S48x14x14x64
  slices_S48x18x18x64_S48x14x14x64_0_2_3_0 : S48x18x18x64.Slices ![0, 2, 3, 0] S48x14x14x64
  slices_S48x18x18x64_S48x14x14x64_0_2_4_0 : S48x18x18x64.Slices ![0, 2, 4, 0] S48x14x14x64
  slices_S48x18x18x64_S48x14x14x64_0_3_0_0 : S48x18x18x64.Slices ![0, 3, 0, 0] S48x14x14x64
  slices_S48x18x18x64_S48x14x14x64_0_3_1_0 : S48x18x18x64.Slices ![0, 3, 1, 0] S48x14x14x64
  slices_S48x18x18x64_S48x14x14x64_0_3_2_0 : S48x18x18x64.Slices ![0, 3, 2, 0] S48x14x14x64
  slices_S48x18x18x64_S48x14x14x64_0_3_3_0 : S48x18x18x64.Slices ![0, 3, 3, 0] S48x14x14x64
  slices_S48x18x18x64_S48x14x14x64_0_3_4_0 : S48x18x18x64.Slices ![0, 3, 4, 0] S48x14x14x64
  slices_S48x18x18x64_S48x14x14x64_0_4_0_0 : S48x18x18x64.Slices ![0, 4, 0, 0] S48x14x14x64
  slices_S48x18x18x64_S48x14x14x64_0_4_1_0 : S48x18x18x64.Slices ![0, 4, 1, 0] S48x14x14x64
  slices_S48x18x18x64_S48x14x14x64_0_4_2_0 : S48x18x18x64.Slices ![0, 4, 2, 0] S48x14x14x64
  slices_S48x18x18x64_S48x14x14x64_0_4_3_0 : S48x18x18x64.Slices ![0, 4, 3, 0] S48x14x14x64
  slices_S48x18x18x64_S48x14x14x64_0_4_4_0 : S48x18x18x64.Slices ![0, 4, 4, 0] S48x14x14x64
  concatenates_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x1024_d3 : Shape.Concatenates [S48x14x14x64, S48x14x14x64, S48x14x14x64, S48x14x14x64, S48x14x14x64, S48x14x14x64, S48x14x14x64, S48x14x14x64, S48x14x14x64, S48x14x14x64, S48x14x14x64, S48x14x14x64, S48x14x14x64, S48x14x14x64, S48x14x14x64, S48x14x14x64] S48x14x14x1024 3
  concatenates_S48x14x14x64_S48x14x14x64_S48x14x14x64_S48x14x14x64_S48x14x14x64_S48x14x14x64_S48x14x14x64_S48x14x14x64_S48x14x14x64_S48x14x14x576_d3 : Shape.Concatenates [S48x14x14x64, S48x14x14x64, S48x14x14x64, S48x14x14x64, S48x14x14x64, S48x14x14x64, S48x14x14x64, S48x14x14x64, S48x14x14x64] S48x14x14x576 3
  concatenates_S48x14x14x1024_S48x14x14x576_S48x14x14x1600_d3 : Shape.Concatenates [S48x14x14x1024, S48x14x14x576] S48x14x14x1600 3
  shapeCasts_S48x14x14x1600_S9408x1600 : S48x14x14x1600.ShapeCasts S9408x1600
  inb_S4704x1600_S4704x1600_0_0 : ∀ a, (![0, 0] : Fin 2 → Nat) a + S4704x1600.size a ≤ S4704x1600.size a
  h_S4704x1600 : 0 < S4704x1600.numel
  shapeCasts_S4704x1600_S4704x1600 : S4704x1600.ShapeCasts S4704x1600
  inb_S1600x128_S1600x128_0_0 : ∀ a, (![0, 0] : Fin 2 → Nat) a + S1600x128.size a ≤ S1600x128.size a
  h_S1600x128 : 0 < S1600x128.numel
  broadcasts_S1x128_S4704x128 : S1x128.Broadcasts S4704x128
  inb_S4704x128_S4704x128_0_0 : ∀ a, (![0, 0] : Fin 2 → Nat) a + S4704x128.size a ≤ S4704x128.size a
  h_S4704x128 : 0 < S4704x128.numel
  shapeCasts_S9408x128_S48x14x14x128 : S9408x128.ShapeCasts S48x14x14x128
  slices_S48x14x14x128_S48x14x14x64_0_0_0_0 : S48x14x14x128.Slices ![0, 0, 0, 0] S48x14x14x64
  shapeCasts_S48x14x14x64_S48x7x2x7x2x64 : S48x14x14x64.ShapeCasts S48x7x2x7x2x64
  reducesTo_S48x7x2x7x2x64_S48x7x7x64_d2_4 : S48x7x2x7x2x64.ReducesTo [2, 4] S48x7x7x64
  pads_S48x7x7x64_S48x11x11x64_000_220_220_000 : S48x7x7x64.Pads (![0, 2, 2, 0] : Fin 4 → Nat) ![0, 2, 2, 0] ![0, 0, 0, 0] S48x11x11x64
  slices_S48x11x11x64_S48x7x7x64_0_0_0_0 : S48x11x11x64.Slices ![0, 0, 0, 0] S48x7x7x64
  slices_S48x11x11x64_S48x7x7x64_0_0_1_0 : S48x11x11x64.Slices ![0, 0, 1, 0] S48x7x7x64
  slices_S48x11x11x64_S48x7x7x64_0_0_2_0 : S48x11x11x64.Slices ![0, 0, 2, 0] S48x7x7x64
  slices_S48x11x11x64_S48x7x7x64_0_0_3_0 : S48x11x11x64.Slices ![0, 0, 3, 0] S48x7x7x64
  slices_S48x11x11x64_S48x7x7x64_0_0_4_0 : S48x11x11x64.Slices ![0, 0, 4, 0] S48x7x7x64
  slices_S48x11x11x64_S48x7x7x64_0_1_0_0 : S48x11x11x64.Slices ![0, 1, 0, 0] S48x7x7x64
  slices_S48x11x11x64_S48x7x7x64_0_1_1_0 : S48x11x11x64.Slices ![0, 1, 1, 0] S48x7x7x64
  slices_S48x11x11x64_S48x7x7x64_0_1_2_0 : S48x11x11x64.Slices ![0, 1, 2, 0] S48x7x7x64
  slices_S48x11x11x64_S48x7x7x64_0_1_3_0 : S48x11x11x64.Slices ![0, 1, 3, 0] S48x7x7x64
  slices_S48x11x11x64_S48x7x7x64_0_1_4_0 : S48x11x11x64.Slices ![0, 1, 4, 0] S48x7x7x64
  slices_S48x11x11x64_S48x7x7x64_0_2_0_0 : S48x11x11x64.Slices ![0, 2, 0, 0] S48x7x7x64
  slices_S48x11x11x64_S48x7x7x64_0_2_1_0 : S48x11x11x64.Slices ![0, 2, 1, 0] S48x7x7x64
  slices_S48x11x11x64_S48x7x7x64_0_2_2_0 : S48x11x11x64.Slices ![0, 2, 2, 0] S48x7x7x64
  slices_S48x11x11x64_S48x7x7x64_0_2_3_0 : S48x11x11x64.Slices ![0, 2, 3, 0] S48x7x7x64
  slices_S48x11x11x64_S48x7x7x64_0_2_4_0 : S48x11x11x64.Slices ![0, 2, 4, 0] S48x7x7x64
  slices_S48x11x11x64_S48x7x7x64_0_3_0_0 : S48x11x11x64.Slices ![0, 3, 0, 0] S48x7x7x64
  slices_S48x11x11x64_S48x7x7x64_0_3_1_0 : S48x11x11x64.Slices ![0, 3, 1, 0] S48x7x7x64
  slices_S48x11x11x64_S48x7x7x64_0_3_2_0 : S48x11x11x64.Slices ![0, 3, 2, 0] S48x7x7x64
  slices_S48x11x11x64_S48x7x7x64_0_3_3_0 : S48x11x11x64.Slices ![0, 3, 3, 0] S48x7x7x64
  slices_S48x11x11x64_S48x7x7x64_0_3_4_0 : S48x11x11x64.Slices ![0, 3, 4, 0] S48x7x7x64
  slices_S48x11x11x64_S48x7x7x64_0_4_0_0 : S48x11x11x64.Slices ![0, 4, 0, 0] S48x7x7x64
  slices_S48x11x11x64_S48x7x7x64_0_4_1_0 : S48x11x11x64.Slices ![0, 4, 1, 0] S48x7x7x64
  slices_S48x11x11x64_S48x7x7x64_0_4_2_0 : S48x11x11x64.Slices ![0, 4, 2, 0] S48x7x7x64
  slices_S48x11x11x64_S48x7x7x64_0_4_3_0 : S48x11x11x64.Slices ![0, 4, 3, 0] S48x7x7x64
  slices_S48x11x11x64_S48x7x7x64_0_4_4_0 : S48x11x11x64.Slices ![0, 4, 4, 0] S48x7x7x64
  concatenates_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x1024_d3 : Shape.Concatenates [S48x7x7x64, S48x7x7x64, S48x7x7x64, S48x7x7x64, S48x7x7x64, S48x7x7x64, S48x7x7x64, S48x7x7x64, S48x7x7x64, S48x7x7x64, S48x7x7x64, S48x7x7x64, S48x7x7x64, S48x7x7x64, S48x7x7x64, S48x7x7x64] S48x7x7x1024 3
  concatenates_S48x7x7x64_S48x7x7x64_S48x7x7x64_S48x7x7x64_S48x7x7x64_S48x7x7x64_S48x7x7x64_S48x7x7x64_S48x7x7x64_S48x7x7x576_d3 : Shape.Concatenates [S48x7x7x64, S48x7x7x64, S48x7x7x64, S48x7x7x64, S48x7x7x64, S48x7x7x64, S48x7x7x64, S48x7x7x64, S48x7x7x64] S48x7x7x576 3
  concatenates_S48x7x7x1024_S48x7x7x576_S48x7x7x1600_d3 : Shape.Concatenates [S48x7x7x1024, S48x7x7x576] S48x7x7x1600 3
  shapeCasts_S48x7x7x1600_S2352x1600 : S48x7x7x1600.ShapeCasts S2352x1600
  pads_S2352x1600_S2368x1600_0160_000 : S2352x1600.Pads (![0, 0] : Fin 2 → Nat) ![16, 0] ![0, 0] S2368x1600
  inb_S1184x1600_S1184x1600_0_0 : ∀ a, (![0, 0] : Fin 2 → Nat) a + S1184x1600.size a ≤ S1184x1600.size a
  h_S1184x1600 : 0 < S1184x1600.numel
  shapeCasts_S1184x1600_S1184x1600 : S1184x1600.ShapeCasts S1184x1600
  broadcasts_S1x128_S1184x128 : S1x128.Broadcasts S1184x128
  inb_S1184x128_S1184x128_0_0 : ∀ a, (![0, 0] : Fin 2 → Nat) a + S1184x128.size a ≤ S1184x128.size a
  h_S1184x128 : 0 < S1184x128.numel
  slices_S2368x128_S2352x128_0_0 : S2368x128.Slices ![0, 0] S2352x128
  shapeCasts_S2352x128_S48x7x7x128 : S2352x128.ShapeCasts S48x7x7x128
  transposes_S48x7x7x128_S48x128x7x7_0_3_1_2 : S48x7x7x128.Transposes [0, 3, 1, 2] S48x128x7x7
  shapeCasts_S48x128x7x7_S48x6272 : S48x128x7x7.ShapeCasts S48x6272
  pads_S48x6272_S48x6272_000_000 : S48x6272.Pads (![0, 0] : Fin 2 → Nat) ![0, 0] ![0, 0] S48x6272
  inb_S48x512_S48x512_0_0 : ∀ a, (![0, 0] : Fin 2 → Nat) a + S48x512.size a ≤ S48x512.size a
  h_S48x512 : 0 < S48x512.numel
  shapeCasts_S48x512_S48x512 : S48x512.ShapeCasts S48x512
  inb_S48x6272_S48x6272_0_0 : ∀ a, (![0, 0] : Fin 2 → Nat) a + S48x6272.size a ≤ S48x6272.size a
  h_S48x6272 : 0 < S48x6272.numel
  shapeCasts_S48x6272_S48x6272 : S48x6272.ShapeCasts S48x6272
  inb_S6272x512_S6272x512_0_0 : ∀ a, (![0, 0] : Fin 2 → Nat) a + S6272x512.size a ≤ S6272x512.size a
  h_S6272x512 : 0 < S6272x512.numel
  inb_S1x512_S1x512_0_0 : ∀ a, (![0, 0] : Fin 2 → Nat) a + S1x512.size a ≤ S1x512.size a
  h_S1x512 : 0 < S1x512.numel
  broadcasts_S1x512_S48x512 : S1x512.Broadcasts S48x512
  inb_S512x512_S512x512_0_0 : ∀ a, (![0, 0] : Fin 2 → Nat) a + S512x512.size a ≤ S512x512.size a
  h_S512x512 : 0 < S512x512.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x128_S512x128_0_0 : ∀ a, (![0, 0] : Fin 2 → Nat) a + S512x128.size a ≤ S512x128.size a
  h_S512x128 : 0 < S512x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S48x128 : S1x128.Broadcasts S48x128
  inb_S48x128_S48x128_0_0 : ∀ a, (![0, 0] : Fin 2 → Nat) a + S48x128.size a ≤ S48x128.size a
  h_S48x128 : 0 < S48x128.numel
  slices_S48x4096_S48x2048_0_0 : S48x4096.Slices ![0, 0] S48x2048
  slices_S48x4096_S48x2048_0_2048 : S48x4096.Slices ![0, 2048] S48x2048
  slices_S96x128_S48x10_0_0 : S96x128.Slices ![0, 0] S48x10
  slices_S96x128_S48x10_48_0 : S96x128.Slices ![48, 0] S48x10
  dot_S18816x128_S128x128_S18816x128_1_0_0_1_n_n_wf : DotDims.WF S18816x128 S128x128 S18816x128 [1] [0] [0] [1] [] []
  dot_S4704x1600_S1600x128_S4704x128_1_0_0_1_n_n_wf : DotDims.WF S4704x1600 S1600x128 S4704x128 [1] [0] [0] [1] [] []
  dot_S1184x1600_S1600x128_S1184x128_1_0_0_1_n_n_wf : DotDims.WF S1184x1600 S1600x128 S1184x128 [1] [0] [0] [1] [] []
  dot_S48x6272_S6272x512_S48x512_1_0_0_1_n_n_wf : DotDims.WF S48x6272 S6272x512 S48x512 [1] [0] [0] [1] [] []
  dot_S48x512_S512x512_S48x512_1_0_0_1_n_n_wf : DotDims.WF S48x512 S512x512 S48x512 [1] [0] [0] [1] [] []
  dot_S48x512_S512x128_S48x128_1_0_0_1_n_n_wf : DotDims.WF S48x512 S512x128 S48x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S18816x128.size a ≤ S37632x128.size a
  hwx0_0 : ∀ i : grid0.Coords, EltTy.bits .bf16 = 32 ∨ (Rect.block (s := S37632x128) S18816x128.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S18816x128.size a ≤ S37632x128.size a
  hwx0_4 : ∀ i : grid0.Coords, EltTy.bits .f32 = 32 ∨ (Rect.block (s := S37632x128) S18816x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4704x1600.size a ≤ S9408x1600.size a
  hwx1_0 : ∀ i : grid1.Coords, EltTy.bits .bf16 = 32 ∨ (Rect.block (s := S9408x1600) S4704x1600.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1600x128.size a ≤ S1600x128.size a
  hwx1_1 : ∀ i : grid1.Coords, EltTy.bits .bf16 = 32 ∨ (Rect.block (s := S1600x128) S1600x128.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4704x128.size a ≤ S9408x128.size a
  hwx1_4 : ∀ i : grid1.Coords, EltTy.bits .f32 = 32 ∨ (Rect.block (s := S9408x128) S4704x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1184x1600.size a ≤ S2368x1600.size a
  hwx2_0 : ∀ i : grid2.Coords, EltTy.bits .bf16 = 32 ∨ (Rect.block (s := S2368x1600) S1184x1600.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1600x128.size a ≤ S1600x128.size a
  hwx2_1 : ∀ i : grid2.Coords, EltTy.bits .bf16 = 32 ∨ (Rect.block (s := S1600x128) S1600x128.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1184x128.size a ≤ S2368x128.size a
  hwx2_4 : ∀ i : grid2.Coords, EltTy.bits .f32 = 32 ∨ (Rect.block (s := S2368x128) S1184x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S48x6272.size a ≤ S48x6272.size a
  hwx3_0 : ∀ i : grid3.Coords, EltTy.bits .bf16 = 32 ∨ (Rect.block (s := S48x6272) S48x6272.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6272x512.size a ≤ S6272x4096.size a
  hwx3_1 : ∀ i : grid3.Coords, EltTy.bits .bf16 = 32 ∨ (Rect.block (s := S6272x4096) S6272x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x4096.size a
  hwx3_2 : ∀ i : grid3.Coords, EltTy.bits .f32 = 32 ∨ (Rect.block (s := S1x4096) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x4096.size a
  hwx3_3 : ∀ i : grid3.Coords, EltTy.bits .f32 = 32 ∨ (Rect.block (s := S1x4096) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S4096x512.size a
  hwx3_4 : ∀ i : grid3.Coords, EltTy.bits .bf16 = 32 ∨ (Rect.block (s := S4096x512) S512x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x512.size a ≤ S2x1x512.size a
  hwx3_5 : ∀ i : grid3.Coords, EltTy.bits .f32 = 32 ∨ (Rect.block (s := S2x1x512) S1x1x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x512.size a ≤ S2x1x512.size a
  hwx3_6 : ∀ i : grid3.Coords, EltTy.bits .f32 = 32 ∨ (Rect.block (s := S2x1x512) S1x1x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S1024x128.size a
  hwx3_7 : ∀ i : grid3.Coords, EltTy.bits .bf16 = 32 ∨ (Rect.block (s := S1024x128) S512x128.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x128.size a ≤ S2x1x128.size a
  hwx3_8 : ∀ i : grid3.Coords, EltTy.bits .f32 = 32 ∨ (Rect.block (s := S2x1x128) S1x1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S48x512.size a ≤ S48x4096.size a
  hwx3_9 : ∀ i : grid3.Coords, EltTy.bits .f32 = 32 ∨ (Rect.block (s := S48x4096) S48x512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S48x128.size a ≤ S96x128.size a
  hwx3_10 : ∀ i : grid3.Coords, EltTy.bits .f32 = 32 ∨ (Rect.block (s := S96x128) S48x128.size (cc3_transform_10 i) (hinb3_10 i)).WholeWords (EltTy.packing .f32)

variable [Facts₀]

def dot_S18816x128_S128x128_S18816x128_1_0_0_1_n_n : DotDims S18816x128 S128x128 S18816x128 where
  lhsContracting := [1]
  rhsContracting := [0]
  lhsNonContracting := [0]
  rhsNonContracting := [1]
  lhsBatch := []
  rhsBatch := []
  wf := dot_S18816x128_S128x128_S18816x128_1_0_0_1_n_n_wf
def dot_S4704x1600_S1600x128_S4704x128_1_0_0_1_n_n : DotDims S4704x1600 S1600x128 S4704x128 where
  lhsContracting := [1]
  rhsContracting := [0]
  lhsNonContracting := [0]
  rhsNonContracting := [1]
  lhsBatch := []
  rhsBatch := []
  wf := dot_S4704x1600_S1600x128_S4704x128_1_0_0_1_n_n_wf
def dot_S1184x1600_S1600x128_S1184x128_1_0_0_1_n_n : DotDims S1184x1600 S1600x128 S1184x128 where
  lhsContracting := [1]
  rhsContracting := [0]
  lhsNonContracting := [0]
  rhsNonContracting := [1]
  lhsBatch := []
  rhsBatch := []
  wf := dot_S1184x1600_S1600x128_S1184x128_1_0_0_1_n_n_wf
def dot_S48x6272_S6272x512_S48x512_1_0_0_1_n_n : DotDims S48x6272 S6272x512 S48x512 where
  lhsContracting := [1]
  rhsContracting := [0]
  lhsNonContracting := [0]
  rhsNonContracting := [1]
  lhsBatch := []
  rhsBatch := []
  wf := dot_S48x6272_S6272x512_S48x512_1_0_0_1_n_n_wf
def dot_S48x512_S512x512_S48x512_1_0_0_1_n_n : DotDims S48x512 S512x512 S48x512 where
  lhsContracting := [1]
  rhsContracting := [0]
  lhsNonContracting := [0]
  rhsNonContracting := [1]
  lhsBatch := []
  rhsBatch := []
  wf := dot_S48x512_S512x512_S48x512_1_0_0_1_n_n_wf
def dot_S48x512_S512x128_S48x128_1_0_0_1_n_n : DotDims S48x512 S512x128 S48x128 where
  lhsContracting := [1]
  rhsContracting := [0]
  lhsNonContracting := [0]
  rhsNonContracting := [1]
  lhsBatch := []
  rhsBatch := []
  wf := dot_S48x512_S512x128_S48x128_1_0_0_1_n_n_wf

abbrev win0_0 : Pipeline.Window sig grid0 :=
  Pipeline.Window.ofSpec (Memref.whole main_v32) S18816x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S18816x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v70) S4704x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1600x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x128.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S4704x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v109) S1184x1600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1600x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v110) S1x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v111) S1x128.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v112) S1184x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v118) S48x6272.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S6272x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S512x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S1x1x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S1x1x512.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg16) S512x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S1x1x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v119_0) S48x512.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v119_1) S48x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

class Facts : Prop extends Facts₀ where

variable [Facts]
-- ==== Proof.KFirstConv.lean ====
import proofs.«146356_g2000405529851509_pallasbulk_1335_10_alg».proof.Proof.Gen.Kernel.Launch
import proofs.«146356_g2000405529851509_pallasbulk_1335_10_alg».proof.Proof.Gen.Kernel.Skeleton
import proofs.«146356_g2000405529851509_pallasbulk_1335_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first convolution with its pooling, as one kernel region of the kernel as printed

Each grid point takes the patch rows of eight images (6272 rows of 128 taps), multiplies them by the 128 × 64 filter
matrix, scales and shifts each channel, clamps below at zero, takes the maximum over each 2 × 2 window of positions, and
stores the 1568 × 64 pooled block. This file states what the body leaves in the output window's buffer as a function of
the four input blocks, runs the body once on arbitrary whole buffers, and packages the region's proof data and its body
obligation at an arbitrary entry state of the buffers.
-/

set_option maxRecDepth 16384

noncomputable section

namespace Cert.Kernel.FirstConv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S6272x128 := Rect.unit (s := S6272x128) ![0, 0] S6272x128.size inb_S6272x128_S6272x128_0_0
abbrev rIn1 : Rect S128x64 := Rect.unit (s := S128x64) ![0, 0] S128x64.size inb_S128x64_S128x64_0_0
abbrev rIn2 : Rect S1x64 := Rect.unit (s := S1x64) ![0, 0] S1x64.size inb_S1x64_S1x64_0_0
abbrev rIn3 : Rect S1x64 := Rect.unit (s := S1x64) ![0, 0] S1x64.size inb_S1x64_S1x64_0_0
abbrev rOut : Rect S1568x64 := Rect.unit (s := S1568x64) ![0, 0] S1568x64.size inb_S1568x64_S1568x64_0_0

/-- What the body leaves in the output window's buffer, from the input blocks: its one store, of the whole block. -/
def outBlock (x0 : Vec F S6272x128 .bf16) (x1 : Vec F S128x64 .bf16) (x2 : Vec F S1x64 .f32) (x3 : Vec F S1x64 .f32) : Vec F S1568x64 .bf16 :=
  View.canon [⟨rOut, k0_pay1 (View.ld x0 rIn0) (View.ld x1 rIn1) (View.ld x2 rIn2) (View.ld x3 rIn3)⟩]

/-- The one store covers the block. -/
theorem cover_out (p0 : Vec F S1568x64 .bf16) (y : S1568x64.Idx) :
    ∃ pc ∈ ([⟨rOut, p0⟩] : List (View.Piece (Elt F) S1568x64 .bf16)), y ∈ pc.1.set :=
  View.cover_of_tiled [⟨rOut, p0⟩] S1568x64.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid0.Coords) (arg1 : Memref sig .tc .vmem S6272x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1568x64 .bf16) (harg5 : arg5.IsWhole)
    (x0 : Vec F S6272x128 .bf16) (x1 : Vec F S128x64 .bf16) (x2 : Vec F S1x64 .f32) (x3 : Vec F S1x64 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc0__c1_body i arg1 harg1 arg2 harg2 arg3 harg3 arg4 harg4 arg5 harg5) Kont := by
  simp only [cc0__c1_body_eq_skeleton]; unfold cc0__c1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outBlock (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so `sound_kernel` applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.FirstConv

end
-- ==== Proof.KSecondConv.lean ====
import proofs.«146356_g2000405529851509_pallasbulk_1335_10_alg».proof.Proof.Gen.Kernel.Launch
import proofs.«146356_g2000405529851509_pallasbulk_1335_10_alg».proof.Proof.Gen.Kernel.Skeleton
import proofs.«146356_g2000405529851509_pallasbulk_1335_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second convolution with its pooling, as one kernel region of the kernel as printed

Each grid point takes, for eight images, the rows of the padded 14 × 18 map whose 320 lanes hold the five vertical
taps of 64 channels, with two rows of zeros before and after (2020 rows). The five horizontal taps are five products of
2016 consecutive rows, starting at rows 0 to 4, with the five 320 × 64 slices of the filter matrix; their sum is scaled
and shifted per channel and clamped below at zero; the two padding columns on either side are dropped and the maximum
over each 2 × 2 window of positions is stored as a 392 × 64 block. This file states what the body leaves in the output
window's buffer as a function of the four input blocks, runs the body once on arbitrary whole buffers, and packages the
region's proof data and its body obligation at an arbitrary entry state of the buffers.
-/

set_option maxRecDepth 16384

noncomputable section

namespace Cert.Kernel.SecondConv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S1x2020x320 := Rect.unit (s := S1x2020x320) ![0, 0, 0] S1x2020x320.size inb_S1x2020x320_S1x2020x320_0_0_0
abbrev rIn1 : Rect S1600x64 := Rect.unit (s := S1600x64) ![0, 0] S320x64.size inb_S1600x64_S320x64_0_0
abbrev rTap1 : Rect S1600x64 := Rect.unit (s := S1600x64) ![320, 0] S320x64.size inb_S1600x64_S320x64_320_0
abbrev rTap2 : Rect S1600x64 := Rect.unit (s := S1600x64) ![640, 0] S320x64.size inb_S1600x64_S320x64_640_0
abbrev rTap3 : Rect S1600x64 := Rect.unit (s := S1600x64) ![960, 0] S320x64.size inb_S1600x64_S320x64_960_0
abbrev rTap4 : Rect S1600x64 := Rect.unit (s := S1600x64) ![1280, 0] S320x64.size inb_S1600x64_S320x64_1280_0
abbrev rIn2 : Rect S1x64 := Rect.unit (s := S1x64) ![0, 0] S1x64.size inb_S1x64_S1x64_0_0
abbrev rIn3 : Rect S1x64 := Rect.unit (s := S1x64) ![0, 0] S1x64.size inb_S1x64_S1x64_0_0
abbrev rOut : Rect S392x64 := Rect.unit (s := S392x64) ![0, 0] S392x64.size inb_S392x64_S392x64_0_0

/-- What the body leaves in the output window's buffer, from the input blocks: its one store, of the whole block. -/
def outBlock (x0 : Vec F S1x2020x320 .bf16) (x1 : Vec F S1600x64 .bf16) (x2 : Vec F S1x64 .f32) (x3 : Vec F S1x64 .f32) : Vec F S392x64 .bf16 :=
  View.canon [⟨rOut, k1_pay1 (k1_pay2 (View.ld x0 rIn0) (View.ld x1 rIn1) (View.ld x1 rTap1) (View.ld x1 rTap2) (View.ld x1 rTap3) (View.ld x1 rTap4) (View.ld x2 rIn2) (View.ld x3 rIn3))⟩]

/-- The one store covers the block. -/
theorem cover_out (p0 : Vec F S392x64 .bf16) (y : S392x64.Idx) :
    ∃ pc ∈ ([⟨rOut, p0⟩] : List (View.Piece (Elt F) S392x64 .bf16)), y ∈ pc.1.set :=
  View.cover_of_tiled [⟨rOut, p0⟩] S392x64.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid1.Coords) (arg1 : Memref sig .tc .vmem S1x2020x320 .bf16) (harg1 : arg1.IsWhole) (arg2 : Memref sig .tc .vmem S1600x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S392x64 .bf16) (harg5 : arg5.IsWhole)
    (x0 : Vec F S1x2020x320 .bf16) (x1 : Vec F S1600x64 .bf16) (x2 : Vec F S1x64 .f32) (x3 : Vec F S1x64 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc1__c2_body i arg1 harg1 arg2 harg2 arg3 harg3 arg4 harg4 arg5 harg5) Kont := by
  simp only [cc1__c2_body_eq_skeleton]; unfold cc1__c2_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outBlock (iblk V c 0 t) (iblk V c 1 t) (iblk V c 2 t) (iblk V c 3 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so `sound_kernel` applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.SecondConv

end
-- ==== Proof.KThirdConv.lean ====
import proofs.«146356_g2000405529851509_pallasbulk_1335_10_alg».proof.Proof.Gen.Kernel.Launch
import proofs.«146356_g2000405529851509_pallasbulk_1335_10_alg».proof.Proof.Gen.Kernel.Skeleton
import proofs.«146356_g2000405529851509_pallasbulk_1335_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third convolution, as one kernel region of the kernel as printed

Each grid point takes, for eight images, the rows of the padded 7 × 11 map whose 320 lanes hold the five vertical taps
of 64 channels, with two rows of zeros before and after (620 rows). The five horizontal taps are five products of 616
consecutive rows, starting at rows 0 to 4, with the five 320 × 128 slices of the filter matrix; their sum is scaled and
shifted per channel and clamped below at zero; the two padding columns on either side are dropped and the 392 × 128
block is stored. This file states what the body leaves in the output window's buffer as a function of the four input
blocks, runs the body once on arbitrary whole buffers, and packages the region's proof data and its body obligation at
an arbitrary entry state of the buffers.
-/

set_option maxRecDepth 16384

noncomputable section

namespace Cert.Kernel.ThirdConv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S1x620x320 := Rect.unit (s := S1x620x320) ![0, 0, 0] S1x620x320.size inb_S1x620x320_S1x620x320_0_0_0
abbrev rIn1 : Rect S1600x128 := Rect.unit (s := S1600x128) ![0, 0] S320x128.size inb_S1600x128_S320x128_0_0
abbrev rTap1 : Rect S1600x128 := Rect.unit (s := S1600x128) ![320, 0] S320x128.size inb_S1600x128_S320x128_320_0
abbrev rTap2 : Rect S1600x128 := Rect.unit (s := S1600x128) ![640, 0] S320x128.size inb_S1600x128_S320x128_640_0
abbrev rTap3 : Rect S1600x128 := Rect.unit (s := S1600x128) ![960, 0] S320x128.size inb_S1600x128_S320x128_960_0
abbrev rTap4 : Rect S1600x128 := Rect.unit (s := S1600x128) ![1280, 0] S320x128.size inb_S1600x128_S320x128_1280_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rOut : Rect S392x128 := Rect.unit (s := S392x128) ![0, 0] S392x128.size inb_S392x128_S392x128_0_0

/-- What the body leaves in the output window's buffer, from the input blocks: its one store, of the whole block. -/
def outBlock (x0 : Vec F S1x620x320 .bf16) (x1 : Vec F S1600x128 .bf16) (x2 : Vec F S1x128 .f32) (x3 : Vec F S1x128 .f32) : Vec F S392x128 .f32 :=
  View.canon [⟨rOut, k2_pay1 (k2_pay2 (View.ld x0 rIn0) (View.ld x1 rIn1) (View.ld x1 rTap1) (View.ld x1 rTap2) (View.ld x1 rTap3) (View.ld x1 rTap4) (View.ld x2 rIn2) (View.ld x3 rIn3))⟩]

/-- The one store covers the block. -/
theorem cover_out (p0 : Vec F S392x128 .f32) (y : S392x128.Idx) :
    ∃ pc ∈ ([⟨rOut, p0⟩] : List (View.Piece (Elt F) S392x128 .f32)), y ∈ pc.1.set :=
  View.cover_of_tiled [⟨rOut, p0⟩] S392x128.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid2.Coords) (arg1 : Memref sig .tc .vmem S1x620x320 .bf16) (harg1 : arg1.IsWhole) (arg2 : Memref sig .tc .vmem S1600x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S392x128 .f32) (harg5 : arg5.IsWhole)
    (x0 : Vec F S1x620x320 .bf16) (x1 : Vec F S1600x128 .bf16) (x2 : Vec F S1x128 .f32) (x3 : Vec F S1x128 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc2__c3_body i arg1 harg1 arg2 harg2 arg3 harg3 arg4 harg4 arg5 harg5) Kont := by
  simp only [cc2__c3_body_eq_skeleton]; unfold cc2__c3_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = outBlock (iblk V c 0 t) (iblk V c 1 t) (iblk V c 2 t) (iblk V c 3 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point: the inputs' buffers hold their blocks, so `sound_kernel` applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.ThirdConv

end
-- ==== Proof.KClassifierShared.lean ====
import proofs.«146356_g2000405529851509_pallasbulk_1335_10_alg».proof.Proof.Gen.Kernel.Launch
import proofs.«146356_g2000405529851509_pallasbulk_1335_10_alg».proof.Proof.Gen.Kernel.Skeleton
import proofs.«146356_g2000405529851509_pallasbulk_1335_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two-head classifier as one kernel region: what its runs share

The grid is head × column block, sixteen points, the column block the fast coordinate (point t is head t / 8, block
t % 8). The body branches on the block number alone: at block 0 it lays the features out (transposing each image's
49 × 128 map) into a scratch buffer and starts the second layer's accumulator; at every later block it adds to the
accumulator; at block 7 it also finishes the head (scale, shift, clamp, third layer) into the logits window. The
hidden-layer window is stored at every point; the logits window only at block 7 and is otherwise left alone. This file
fixes the three conditions in closed form over the grid, where each window is live and where the logits are written
back, the names of the buffers a run is stated over, and the region's invariant before the first point with the two
scratch buffers split off.
-/

set_option maxRecDepth 16384

noncomputable section

namespace Cert.Kernel.Classifier

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The three conditions, over the grid -/

/-- "This is the head's first column block." -/
abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 8 = 0 :=
  (by decide +kernel : ∀ t : Fin grid3.N, condFirst (grid3.coords t) ↔ t.val % 8 = 0)

/-- "This is a later column block of the head." -/
abbrev condLater (i : grid3.Coords) : Prop := (Scalar.cmpi .ne (Scalar.extui (Scalar.cmpi .sgt (BitVec.ofNat 32 (i 1).val) 0#32)) 0#32) = 1#1
theorem hcondLater : ∀ t : Fin cfg3.N, condLater (grid3.coords t) ↔ ¬ t.val % 8 = 0 :=
  (by decide +kernel : ∀ t : Fin grid3.N, condLater (grid3.coords t) ↔ ¬ t.val % 8 = 0)

/-- "This is the head's last column block." -/
abbrev condLast (i : grid3.Coords) : Prop := k3_cond4 i = 1#1
theorem hcondLast : ∀ t : Fin cfg3.N, condLast (grid3.coords t) ↔ t.val % 8 = 7 :=
  (by decide +kernel : ∀ t : Fin grid3.N, condLast (grid3.coords t) ↔ t.val % 8 = 7)

/-! ## Where the windows are live, and where the logits are written back -/

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem live3 : ∀ t : Fin cfg3.N, cfg3.idle 3 (grid3.coords t) = false := by decide +kernel
theorem live4 : ∀ t : Fin cfg3.N, cfg3.idle 4 (grid3.coords t) = false := by decide +kernel
theorem live5 : ∀ t : Fin cfg3.N, cfg3.idle 5 (grid3.coords t) = false := by decide +kernel
theorem live6 : ∀ t : Fin cfg3.N, cfg3.idle 6 (grid3.coords t) = false := by decide +kernel
theorem live7 : ∀ t : Fin cfg3.N, cfg3.idle 7 (grid3.coords t) = false := by decide +kernel
theorem live8 : ∀ t : Fin cfg3.N, cfg3.idle 8 (grid3.coords t) = false := by decide +kernel
theorem live9 : ∀ t : Fin cfg3.N, cfg3.idle 9 (grid3.coords t) = false := by decide +kernel
/-- Away from a head's last block the logits window is idle and is not written back. -/
theorem idle10 : ∀ t : Fin cfg3.N, ¬condLast (grid3.coords t) → cfg3.idle 10 (grid3.coords t) = true := by decide +kernel
theorem noFlush10 : ∀ t : Fin cfg3.N, ¬condLast (grid3.coords t) → (cfg3.win 10).flush t = false := by decide +kernel
theorem live10 : ∀ t : Fin cfg3.N, condLast (grid3.coords t) → cfg3.idle 10 (grid3.coords t) = false := by decide +kernel

/-! ## The buffers a run is stated over -/

abbrev ms0 (t : Fin cfg3.N) : Memref sig .tc .vmem S2352x128 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S6272x256 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x256 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S256x512 .bf16 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x1x512 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1x512 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S512x128 .bf16 := win3_7.stage (cfg3.slots t 7)
abbrev hs7 (t : Fin cfg3.N) : (ms7 t).IsWhole := hstage3_7 ((cfg3.slots t 7).cast nbuf3_7)
abbrev ms8 (t : Fin cfg3.N) : Memref sig .tc .vmem S1x1x128 .f32 := win3_8.stage (cfg3.slots t 8)
abbrev hs8 (t : Fin cfg3.N) : (ms8 t).IsWhole := hstage3_8 ((cfg3.slots t 8).cast nbuf3_8)
abbrev ms9 (t : Fin cfg3.N) : Memref sig .tc .vmem S48x256 .f32 := win3_9.stage (cfg3.slots t 9)
abbrev hs9 (t : Fin cfg3.N) : (ms9 t).IsWhole := hstage3_9 ((cfg3.slots t 9).cast nbuf3_9)
abbrev ms10 (t : Fin cfg3.N) : Memref sig .tc .vmem S48x128 .f32 := win3_10.stage (cfg3.slots t 10)
abbrev hs10 (t : Fin cfg3.N) : (ms10 t).IsWhole := hstage3_10 ((cfg3.slots t 10).cast nbuf3_10)
/-- The feature scratch (48 × 6272) and the accumulator scratch (48 × 512): whole buffers of the kernel's own. -/
abbrev scFeat : Memref sig .tc .vmem S48x6272 .bf16 := Memref.whole cc3_scratch0
abbrev scAcc : Memref sig .tc .vmem S48x512 .f32 := Memref.whole cc3_scratch1
abbrev VFeat : View sig .tc .vmem S48x6272 .bf16 := scFeat.view
abbrev VAcc : View sig .tc .vmem S48x512 .f32 := scAcc.view
/-- One staging buffer of each output window, through which its contents are stated (the choice does not matter). -/
abbrev VHid : View sig .tc .vmem S48x256 .f32 := (Memref.whole cc3_stg9_0 : Memref sig .tc .vmem S48x256 .f32).view
abbrev VLogit : View sig .tc .vmem S48x128 .f32 := (Memref.whole cc3_stg10_0 : Memref sig .tc .vmem S48x128 .f32).view

/-- The core's scoped buffers other than this region's staging buffers and its two scratches (the other three regions'
    staging buffers), each whole at some contents. -/
def others (c : Dev nD) : sProp 𝕄 :=
  BI.bigSepL [cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1]
    fun b => iprop(∃ f : Buf (Elt F) ((c : Thread nD τ).loc b), ((c : Thread nD τ).loc b) ↦{fullShare} f)

/-- The region's invariant before the first point: the two scratches at anything, the other scoped buffers, and the
    generator register at some state. -/
theorem PhiA_eq (c : Dev nD) :
    (Pipeline.ΦA spec3 c : sProp 𝕄)
      = iprop(iprop((∃ d, owns (c : Thread nD τ) scFeat fullShare d) ∗ (∃ d, owns (c : Thread nD τ) scAcc fullShare d) ∗ others c) ∗ (∃ r, prngReg c r)) := by
  unfold Pipeline.ΦA
  rw [Pipeline.scopedRest_eq_of_list spec3 c [cc3_scratch0, cc3_scratch1, cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1] (by decide) (by decide),
    BI.bigSepL_cons, BI.bigSepL_cons]
  unfold others
  simp only [scFeat, scAcc, owns_whole]; try rfl

end Cert.Kernel.Classifier

end
-- ==== Proof.KClassifierFirst.lean ====
import proofs.«146356_g2000405529851509_pallasbulk_1335_10_alg».proof.Proof.KClassifierShared

/-!
# The classifier body at a head's first column block

At block 0 the body transposes the 2352 × 128 feature rows into the 48 × 6272 feature scratch, computes this block's
256 hidden columns (product with the first layer's block, scale, shift, clamp) into the hidden window, and starts the
accumulator scratch at this block's contribution to the second layer. It stores nothing into the logits window. The
stores each buffer ends with are found by running the body; the logits window's buffer is handed back as it was.
-/

set_option maxRecDepth 16384

noncomputable section

namespace Cert.Kernel.Classifier

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer, the feature scratch and the accumulator scratch at a
    head's first block, with the proof that on whole buffers — the nine inputs' at given contents, the logits window's at
    contents handed back untouched, the other three at anything — the body runs to its return with the inputs' as they
    were and those three with their pieces written. -/
noncomputable def runFirst (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : condFirst i) (hc3 : ¬condLater i) (hc4 : ¬condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) :
    Σ' (L9 : List (View.Piece (Elt F) S48x256 .f32)) (LF : List (View.Piece (Elt F) S48x6272 .bf16)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ (∃ d, owns (c : Thread nD τ) aF fullShare d) ∗ (∃ d, owns (c : Thread nD τ) aA fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ (∃ f, aF.view.loc (c : Thread nD τ) ↦[aF.view.set]{fullShare} aF.view.writes (Elt F) f LF) ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, ?_, fun xi10 E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%dF, %fF, -, HF⟩, ⟨%dA, %fA, -, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    isplitl [HF]; · iexists _; iexact HF
    iexists _; iexact HA

end Cert.Kernel.Classifier

end
-- ==== Proof.KClassifierLater.lean ====
import proofs.«146356_g2000405529851509_pallasbulk_1335_10_alg».proof.Proof.KClassifierShared

/-!
# The classifier body at a later column block that is not the head's last

At blocks 1 to 6 the body reads the feature scratch as block 0 left it, computes this block's 256 hidden columns into
the hidden window, and adds this block's contribution to the accumulator scratch. It stores nothing into the feature
scratch or the logits window: both are handed back as they were.
-/

set_option maxRecDepth 16384

noncomputable section

namespace Cert.Kernel.Classifier

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer and the accumulator scratch at such a block, with the
    proof that on whole buffers — the nine inputs', the feature scratch's and the accumulator's at given contents, the
    logits window's at contents handed back untouched, the hidden window's at anything — the body runs to its return with
    the inputs', the logits window's and the feature scratch's as they were and the other two with their pieces written. -/
noncomputable def runLater (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : ¬condFirst i) (hc3 : condLater i) (hc4 : ¬condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) (xsF : Vec F S48x6272 .bf16) (xsA : Vec F S48x512 .f32) :
    Σ' (L9 : List (View.Piece (Elt F) S48x256 .f32)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ owns (c : Thread nD τ) aF fullShare xsF ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ owns (c : Thread nD τ) aF fullShare xsF ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, fun xi10 E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fF, %hfF, HF⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := hF.eq_unread hfF; obtain rfl := hA.eq_unread hfA
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    isplitl [HF]
    · iexists _; isplitr; · ipureintro; exact hF.read_unread _
      iexact HF
    iexists _; iexact HA

end Cert.Kernel.Classifier

end
-- ==== Proof.KClassifierLast.lean ====
import proofs.«146356_g2000405529851509_pallasbulk_1335_10_alg».proof.Proof.KClassifierShared

/-!
# The classifier body at a head's last column block

At block 7 the body reads the feature scratch, computes this block's 256 hidden columns into the hidden window, adds
this block's contribution to the accumulator scratch, and then finishes the head: the accumulated second layer is
scaled, shifted and clamped, multiplied by the head's third-layer matrix, the bias added, and the 48 × 128 result stored
into the logits window. The feature scratch is handed back as it was.
-/

set_option maxRecDepth 16384

noncomputable section

namespace Cert.Kernel.Classifier

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows' buffers and the accumulator scratch at a head's last
    block, with the proof that on whole buffers — the nine inputs', the feature scratch's and the accumulator's at given
    contents, the two output windows' at anything — the body runs to its return with the inputs' and the feature scratch's
    as they were and the other three with their pieces written. -/
noncomputable def runLast (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : ¬condFirst i) (hc3 : condLater i) (hc4 : condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) (xsF : Vec F S48x6272 .bf16) (xsA : Vec F S48x512 .f32) :
    Σ' (L9 : List (View.Piece (Elt F) S48x256 .f32)) (L10 : List (View.Piece (Elt F) S48x128 .f32)), { LA : List (View.Piece (Elt F) S48x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
            ∗ owns (c : Thread nD τ) aF fullShare xsF ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a10.view.loc (c : Thread nD τ) ↦[a10.view.set]{fullShare} a10.view.writes (Elt F) f L10)
                ∗ owns (c : Thread nD τ) aF fullShare xsF ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, ?_, fun E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fF, %hfF, HF⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := hF.eq_unread hfF; obtain rfl := hA.eq_unread hfA
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [HF]
    · iexists _; isplitr; · ipureintro; exact hF.read_unread _
      iexact HF
    iexists _; iexact HA

end Cert.Kernel.Classifier

end
-- ==== Proof.KClassifier.lean ====
import proofs.«146356_g2000405529851509_pallasbulk_1335_10_alg».proof.Proof.KClassifierFirst
import proofs.«146356_g2000405529851509_pallasbulk_1335_10_alg».proof.Proof.KClassifierLater
import proofs.«146356_g2000405529851509_pallasbulk_1335_10_alg».proof.Proof.KClassifierLast

/-!
# The two-head classifier as one kernel region: its proof data and body obligation

What the two output windows' buffers and the two scratch buffers hold after each of the sixteen grid points, by
recursion on the point: a head's first block starts afresh from the point's input blocks; every later block reads the
feature scratch and the accumulator as the point before left them, keeps the former and replaces the latter; the logits
window's buffer holds the head's result after its last block and is nobody's business elsewhere. The invariant between
points holds the two scratches at those contents; the body obligation is the case split on the block number, each case
its run.
-/

set_option maxRecDepth 16384

noncomputable section

namespace Cert.Kernel.Classifier

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point, on the buffers the pipeline passes there -/

abbrev firstAt (c : Dev nD) (t : Fin cfg3.N) (h0 : t.val % 8 = 0) :=
  runFirst (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    ((hcondFirst t).mpr h0) (fun hl => (hcondLater t).mp hl h0) (fun hl => by have h := (hcondLast t).mp hl; omega)
    (iblk V c 0 t) (iblk V c 1 t) (iblk V c 2 t) (iblk V c 3 t) (iblk V c 4 t) (iblk V c 5 t) (iblk V c 6 t) (iblk V c 7 t) (iblk V c 8 t)

abbrev laterAt (c : Dev nD) (t : Fin cfg3.N) (h0 : ¬ t.val % 8 = 0) (h7 : ¬ t.val % 8 = 7) (xsF : Vec F S48x6272 .bf16) (xsA : Vec F S48x512 .f32) :=
  runLater (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    (fun hf => h0 ((hcondFirst t).mp hf)) ((hcondLater t).mpr h0) (fun hl => h7 ((hcondLast t).mp hl))
    (iblk V c 0 t) (iblk V c 1 t) (iblk V c 2 t) (iblk V c 3 t) (iblk V c 4 t) (iblk V c 5 t) (iblk V c 6 t) (iblk V c 7 t) (iblk V c 8 t) xsF xsA

abbrev lastAt (c : Dev nD) (t : Fin cfg3.N) (h7 : t.val % 8 = 7) (xsF : Vec F S48x6272 .bf16) (xsA : Vec F S48x512 .f32) :=
  runLast (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    (fun hf => by have h := (hcondFirst t).mp hf; omega) ((hcondLater t).mpr (by omega)) ((hcondLast t).mpr h7)
    (iblk V c 0 t) (iblk V c 1 t) (iblk V c 2 t) (iblk V c 3 t) (iblk V c 4 t) (iblk V c 5 t) (iblk V c 6 t) (iblk V c 7 t) (iblk V c 8 t) xsF xsA

/-! ## Pieces read back as contents -/

def rdHid (L : List (View.Piece (Elt F) S48x256 .f32)) : Vec F S48x256 .f32 := VHid.read (Elt F) (VHid.writes (Elt F) VHid.junk L)
def rdLogit (L : List (View.Piece (Elt F) S48x128 .f32)) : Vec F S48x128 .f32 := VLogit.read (Elt F) (VLogit.writes (Elt F) VLogit.junk L)
def rdFeat (L : List (View.Piece (Elt F) S48x6272 .bf16)) : Vec F S48x6272 .bf16 := VFeat.read (Elt F) (VFeat.writes (Elt F) VFeat.junk L)
def rdAcc (L : List (View.Piece (Elt F) S48x512 .f32)) : Vec F S48x512 .f32 := VAcc.read (Elt F) (VAcc.writes (Elt F) VAcc.junk L)

/-! ## Each run's pieces cover the buffer they are written into -/

theorem coverHidFirst (c : Dev nD) (t : Fin cfg3.N) (h0 : t.val % 8 = 0) (y : S48x256.Idx) :
    ∃ pc ∈ (firstAt V c t h0).1, y ∈ pc.1.set := View.cover_of_tiledL (firstAt V c t h0).1 S48x256.size (by sl_kernel_rfl) y
theorem coverFeatFirst (c : Dev nD) (t : Fin cfg3.N) (h0 : t.val % 8 = 0) (y : S48x6272.Idx) :
    ∃ pc ∈ (firstAt V c t h0).2.1, y ∈ pc.1.set := View.cover_of_tiledL (firstAt V c t h0).2.1 S48x6272.size (by sl_kernel_rfl) y
theorem coverAccFirst (c : Dev nD) (t : Fin cfg3.N) (h0 : t.val % 8 = 0) (y : S48x512.Idx) :
    ∃ pc ∈ (firstAt V c t h0).2.2.1, y ∈ pc.1.set := View.cover_of_tiledL (firstAt V c t h0).2.2.1 S48x512.size (by sl_kernel_rfl) y
theorem coverHidLater (c : Dev nD) (t : Fin cfg3.N) (h0 : ¬ t.val % 8 = 0) (h7 : ¬ t.val % 8 = 7) (xsF : Vec F S48x6272 .bf16) (xsA : Vec F S48x512 .f32) (y : S48x256.Idx) :
    ∃ pc ∈ (laterAt V c t h0 h7 xsF xsA).1, y ∈ pc.1.set := View.cover_of_tiledL (laterAt V c t h0 h7 xsF xsA).1 S48x256.size (by sl_kernel_rfl) y
theorem coverAccLater (c : Dev nD) (t : Fin cfg3.N) (h0 : ¬ t.val % 8 = 0) (h7 : ¬ t.val % 8 = 7) (xsF : Vec F S48x6272 .bf16) (xsA : Vec F S48x512 .f32) (y : S48x512.Idx) :
    ∃ pc ∈ (laterAt V c t h0 h7 xsF xsA).2.1, y ∈ pc.1.set := View.cover_of_tiledL (laterAt V c t h0 h7 xsF xsA).2.1 S48x512.size (by sl_kernel_rfl) y
theorem coverHidLast (c : Dev nD) (t : Fin cfg3.N) (h7 : t.val % 8 = 7) (xsF : Vec F S48x6272 .bf16) (xsA : Vec F S48x512 .f32) (y : S48x256.Idx) :
    ∃ pc ∈ (lastAt V c t h7 xsF xsA).1, y ∈ pc.1.set := View.cover_of_tiledL (lastAt V c t h7 xsF xsA).1 S48x256.size (by sl_kernel_rfl) y
theorem coverLogitLast (c : Dev nD) (t : Fin cfg3.N) (h7 : t.val % 8 = 7) (xsF : Vec F S48x6272 .bf16) (xsA : Vec F S48x512 .f32) (y : S48x128.Idx) :
    ∃ pc ∈ (lastAt V c t h7 xsF xsA).2.1, y ∈ pc.1.set := View.cover_of_tiledL (lastAt V c t h7 xsF xsA).2.1 S48x128.size (by sl_kernel_rfl) y
theorem coverAccLast (c : Dev nD) (t : Fin cfg3.N) (h7 : t.val % 8 = 7) (xsF : Vec F S48x6272 .bf16) (xsA : Vec F S48x512 .f32) (y : S48x512.Idx) :
    ∃ pc ∈ (lastAt V c t h7 xsF xsA).2.2.1, y ∈ pc.1.set := View.cover_of_tiledL (lastAt V c t h7 xsF xsA).2.2.1 S48x512.size (by sl_kernel_rfl) y

/-! ## What the four buffers hold after each point -/

/-- After a head's first block: hidden window, logits window (nothing stored: a placeholder nobody reads), feature
    scratch, accumulator scratch. -/
def firstVals (c : Dev nD) (t : Fin cfg3.N) (h0 : t.val % 8 = 0) : Vec F S48x256 .f32 × Vec F S48x128 .f32 × Vec F S48x6272 .bf16 × Vec F S48x512 .f32 :=
  (rdHid (firstAt V c t h0).1, rdLogit [], rdFeat (firstAt V c t h0).2.1, rdAcc (firstAt V c t h0).2.2.1)
/-- After a later block that is not the last, from what the point before left in the two scratches. -/
def laterVals (c : Dev nD) (t : Fin cfg3.N) (h0 : ¬ t.val % 8 = 0) (h7 : ¬ t.val % 8 = 7) (xsF : Vec F S48x6272 .bf16) (xsA : Vec F S48x512 .f32) : Vec F S48x256 .f32 × Vec F S48x128 .f32 × Vec F S48x6272 .bf16 × Vec F S48x512 .f32 :=
  (rdHid (laterAt V c t h0 h7 xsF xsA).1, rdLogit [], xsF, rdAcc (laterAt V c t h0 h7 xsF xsA).2.1)
/-- After a head's last block. -/
def lastVals (c : Dev nD) (t : Fin cfg3.N) (h7 : t.val % 8 = 7) (xsF : Vec F S48x6272 .bf16) (xsA : Vec F S48x512 .f32) : Vec F S48x256 .f32 × Vec F S48x128 .f32 × Vec F S48x6272 .bf16 × Vec F S48x512 .f32 :=
  (rdHid (lastAt V c t h7 xsF xsA).1, rdLogit (lastAt V c t h7 xsF xsA).2.1, xsF, rdAcc (lastAt V c t h7 xsF xsA).2.2.1)

/-- The recursion over the points. -/
def outsAt (c : Dev nD) : (n : ℕ) → n < cfg3.N → Vec F S48x256 .f32 × Vec F S48x128 .f32 × Vec F S48x6272 .bf16 × Vec F S48x512 .f32
  | 0, hn => firstVals V c ⟨0, hn⟩ (Nat.zero_mod _)
  | n + 1, hn =>
    if h0 : (n + 1) % 8 = 0 then firstVals V c ⟨n + 1, hn⟩ h0
    else if h7 : (n + 1) % 8 = 7 then
      lastVals V c ⟨n + 1, hn⟩ h7 (outsAt c n (Nat.lt_of_succ_lt hn)).2.2.1 (outsAt c n (Nat.lt_of_succ_lt hn)).2.2.2
    else
      laterVals V c ⟨n + 1, hn⟩ h0 h7 (outsAt c n (Nat.lt_of_succ_lt hn)).2.2.1 (outsAt c n (Nat.lt_of_succ_lt hn)).2.2.2

theorem outsAt_first (c : Dev nD) (t : Fin cfg3.N) (h0 : t.val % 8 = 0) : outsAt V c t.val t.isLt = firstVals V c t h0 := by
  obtain ⟨n, hn⟩ := t
  cases n with
  | zero => exact rfl
  | succ n => exact (dif_pos h0).trans rfl

theorem outsAt_last (c : Dev nD) (t : Fin cfg3.N) (h0 : ¬ t.val % 8 = 0) (h7 : t.val % 8 = 7) :
    outsAt V c t.val t.isLt = lastVals V c t h7 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h7).trans rfl)

theorem outsAt_later (c : Dev nD) (t : Fin cfg3.N) (h0 : ¬ t.val % 8 = 0) (h7 : ¬ t.val % 8 = 7) :
    outsAt V c t.val t.isLt = laterVals V c t h0 h7 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h7).trans rfl)

/-! ## The invariant between points -/

/-- Before the first point the class's invariant (both scratches at anything); before point n + 1 the two scratches at
    what point n left, the other regions' staging buffers and the generator register as they come. -/
def PhiS (c : Dev nD) : (n : ℕ) → n ≤ cfg3.N → sProp 𝕄
  | 0, _ => Pipeline.ΦA spec3 c
  | n + 1, hn => iprop(iprop(owns (c : Thread nD τ) scFeat fullShare (outsAt V c n hn).2.2.1 ∗ owns (c : Thread nD τ) scAcc fullShare (outsAt V c n hn).2.2.2 ∗ others c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scFeat fullShare (outsAt V c n hn).2.2.1 ∗ owns (c : Thread nD τ) scAcc fullShare (outsAt V c n hn).2.2.2 ∗ others c) ∗ (∃ r, prngReg c r)) := rfl

theorem PhiS_pos (c : Dev nD) (n : ℕ) (h : n ≤ cfg3.N) (hz : n ≠ 0) :
    PhiS V c n h = iprop(iprop(owns (c : Thread nD τ) scFeat fullShare (outsAt V c (n - 1) (by omega)).2.2.1 ∗ owns (c : Thread nD τ) scAcc fullShare (outsAt V c (n - 1) (by omega)).2.2.2 ∗ others c) ∗ (∃ r, prngReg c r)) := by
  cases n with
  | zero => exact absurd rfl hz
  | succ n => rfl

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
    | ⟨10, _⟩ => (outsAt V c t.val t.isLt).2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = iblk V c 6 t := by dsimp only [dat]
theorem after7 (c : Dev nD) (t : Fin cfg3.N) : (dat V c).after 7 t = iblk V c 7 t := by dsimp only [dat]
theorem after8 (c : Dev nD) (t : Fin cfg3.N) : (dat V c).after 8 t = iblk V c 8 t := by dsimp only [dat]
theorem after9 (c : Dev nD) (t : Fin cfg3.N) : (dat V c).after 9 t = (outsAt V c t.val t.isLt).1 := by dsimp only [dat]
theorem after10 (c : Dev nD) (t : Fin cfg3.N) : (dat V c).after 10 t = (outsAt V c t.val t.isLt).2.1 := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d
theorem before5 (c : Dev nD) (t : Fin cfg3.N) (d) : (dat V c).before 5 t d = iblk V c 5 t :=
  before5_of V (dat V c) (A_eq V c 5) (after5 V c) t d
theorem before6 (c : Dev nD) (t : Fin cfg3.N) (d) : (dat V c).before 6 t d = iblk V c 6 t :=
  before6_of V (dat V c) (A_eq V c 6) (after6 V c) t d
theorem before7 (c : Dev nD) (t : Fin cfg3.N) (d) : (dat V c).before 7 t d = iblk V c 7 t :=
  before7_of V (dat V c) (A_eq V c 7) (after7 V c) t d
theorem before8 (c : Dev nD) (t : Fin cfg3.N) (d) : (dat V c).before 8 t d = iblk V c 8 t :=
  before8_of V (dat V c) (A_eq V c 8) (after8 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 8000000 in
/-- The body at any point: the inputs' buffers hold their blocks; the block number says which run applies; the invariant
    hands the run the two scratches (at anything before the very first point, at what the point before left afterwards)
    and takes them back at this point's contents. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6, before7, before8]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg3.N = 16 from N_3)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  rw [show (dat V c).leavesExact 6 t = owns (c : Thread nD τ) (ms6 t) fullShare ((dat V c).after 6 t) from by
    unfold Dat.leavesExact; rw [live6 t], after6]
  rw [show (dat V c).leavesExact 7 t = owns (c : Thread nD τ) (ms7 t) fullShare ((dat V c).after 7 t) from by
    unfold Dat.leavesExact; rw [live7 t], after7]
  rw [show (dat V c).leavesExact 8 t = owns (c : Thread nD τ) (ms8 t) fullShare ((dat V c).after 8 t) from by
    unfold Dat.leavesExact; rw [live8 t], after8]
  rw [show (dat V c).leavesExact 9 t = owns (c : Thread nD τ) (ms9 t) fullShare ((dat V c).after 9 t) from by
    unfold Dat.leavesExact; rw [live9 t], after9]
  by_cases h0 : t.val % 8 = 0
  · have hnl : ¬ condLast (grid3.coords t) := fun hl => by have h := (hcondLast t).mp hl; omega
    rw [Dat.leavesExact_idle (dat V c) 10 t (idle10 t hnl) (noFlush10 t hnl)]
    rw [outsAt_first V c t h0]
    unfold firstVals rdHid rdFeat rdAcc; (try dsimp only)
    by_cases hz : t.val = 0
    · rw [PhiS_castSucc V c t, PhiS_zero V c _ _ hz, PhiA_eq]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexact HF
      isplitl [HA]; · iexact HA
      iintro ⟨H0, H1, H2, H3, H4, H5, H6, H7, H8, ⟨%e9, H9⟩, H10, ⟨%eF, HF⟩, ⟨%eA, HA⟩⟩
      isplitl [HF HA HO Hg]
      · isplitl [HF HA HO]
        · isplitl [HF]
          · unfold owns; iexists _; isplitr
            swap; · iexact HF
            ipureintro; exact View.read_writes_of_cover _ _ _ _ _ (coverFeatFirst V c t h0)
          isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
    · rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexists _; iexact HF
      isplitl [HA]; · iexists _; iexact HA
      iintro ⟨H0, H1, H2, H3, H4, H5, H6, H7, H8, ⟨%e9, H9⟩, H10, ⟨%eF, HF⟩, ⟨%eA, HA⟩⟩
      isplitl [HF HA HO Hg]
      · isplitl [HF HA HO]
        · isplitl [HF]
          · unfold owns; iexists _; isplitr
            swap; · iexact HF
            ipureintro; exact View.read_writes_of_cover _ _ _ _ _ (coverFeatFirst V c t h0)
          isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
  · have hz : t.val ≠ 0 := fun h => h0 (by rw [h])
    by_cases h7 : t.val % 8 = 7
    · rw [show (dat V c).leavesExact 10 t = owns (c : Thread nD τ) (ms10 t) fullShare ((dat V c).after 10 t) from by
        unfold Dat.leavesExact; rw [live10 t ((hcondLast t).mpr h7)], after10]
      rw [outsAt_last V c t h0 h7]
      unfold lastVals rdHid rdLogit rdAcc; (try dsimp only)
      rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t h7 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HF]; · iexact HF
      isplitl [HA]; · iexact HA
      iintro ⟨H0, H1, H2, H3, H4, H5, H6, H7, H8, ⟨%e9, H9⟩, ⟨%e10, H10⟩, HF, ⟨%eA, HA⟩⟩
      isplitl [HF HA HO Hg]
      · isplitl [HF HA HO]
        · isplitl [HF]
          · iexact HF
          isplitl [HA]
          · unfold owns; iexists _; isplitr
            swap; · iexact HA
            ipureintro; exact View.read_writes_of_cover _ _ _ _ _ (coverAccLast V c t h7 _ _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidLast V c t h7 _ _)
      unfold owns; iexists _; isplitr
      swap; · iexact H10
      ipureintro; exact View.read_writes_of_cover _ _ _ _ _ (coverLogitLast V c t h7 _ _)
    · have hnl : ¬ condLast (grid3.coords t) := fun hl => h7 ((hcondLast t).mp hl)
      rw [Dat.leavesExact_idle (dat V c) 10 t (idle10 t hnl) (noFlush10 t hnl)]
      rw [outsAt_later V c t h0 h7]
      unfold laterVals rdHid rdAcc; (try dsimp only)
      rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((laterAt V c t h0 h7 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexact HF
      isplitl [HA]; · iexact HA
      iintro ⟨H0, H1, H2, H3, H4, H5, H6, H7, H8, ⟨%e9, H9⟩, H10, HF, ⟨%eA, HA⟩⟩
      isplitl [HF HA HO Hg]
      · isplitl [HF HA HO]
        · isplitl [HF]
          · iexact HF
          isplitl [HA]
          · unfold owns; iexists _; isplitr
            swap; · iexact HA
            ipureintro; exact View.read_writes_of_cover _ _ _ _ _ (coverAccLater V c t h0 h7 _ _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidLater V c t h0 h7 _ _)
      iexists _; iexact H10

theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratches' named contents are forgotten. -/
theorem hout (c : Dev nD) : (dat V c).Φ (Fin.last cfg3.N) ⊢ Pipeline.ΦA spec3 c := by
  have ht : (Fin.last cfg3.N).val ≠ 0 := by rw [Fin.val_last]; have : cfg3.N = 16 := N_3; omega
  rw [show (dat V c).Φ (Fin.last cfg3.N) = PhiS V c (Fin.last cfg3.N).val (Nat.le_of_lt_succ (Fin.last cfg3.N).isLt) from rfl, PhiS_pos V c _ _ ht, PhiA_eq]
  iintro ⟨⟨HF, HA, HO⟩, Hg⟩
  isplitl [HF HA HO]
  · isplitl [HF]; · iexists _; iexact HF
    isplitl [HA]; · iexists _; iexact HA
    iexact HO
  iexact Hg

end Cert.Kernel.Classifier

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.KWhole.lean ====
import proofs.«146356_g2000405529851509_pallasbulk_1335_10_alg».proof.Proof.KFirstConv
import proofs.«146356_g2000405529851509_pallasbulk_1335_10_alg».proof.Proof.KSecondConv
import proofs.«146356_g2000405529851509_pallasbulk_1335_10_alg».proof.Proof.KThirdConv
import proofs.«146356_g2000405529851509_pallasbulk_1335_10_alg».proof.Proof.KClassifier
import proofs.«146356_g2000405529851509_pallasbulk_1335_10_alg».proof.Proof.LibRegionRecord
import proofs.«146356_g2000405529851509_pallasbulk_1335_10_alg».proof.Proof.Gen.Kernel.Regions

/-!
# The kernel as printed runs to its end and leaves its arguments as they were

The program is five stretches of host operations, the first convolution's region, five more stretches, the second
convolution's region, five more, the third convolution's region, the classifier's region, and a last stretch that
slices the four results out. Between two items every unscoped buffer of a core is held whole at a valuation: the launch
contents, then each host stretch applied, then, at a region's result, what that region's write-backs leave. Each region
is entered at the valuation before it and left at the one after it; no item writes an argument.
-/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c (Proc.devRef .tc b)

/-! ## What each region leaves, one after the other -/

/-- After the first convolution: its arrays at what its write-backs leave, every other buffer as entered. -/
def X0 (c : Dev nD) : Valuation τ sig (Elt F) :=
  Pipeline.withArrays spec0 c (V5 m c) fun w => (FirstConv.dat (atTc (V5 m)) c).arrAt w cfg0.N
/-- The regions' results so far: the first convolution's. -/
def O1 : Outs (F := F) := fun _ r c => X0 m c (Proc.devRef .tc r)

def X1 (c : Dev nD) : Valuation τ sig (Elt F) :=
  Pipeline.withArrays spec1 c (V11 m (O1 m) c) fun w => (SecondConv.dat (atTc (V11 m (O1 m))) c).arrAt w cfg1.N
def O2 : Outs (F := F) := fun J r c => match J with
  | 6 => X0 m c (Proc.devRef .tc r)
  | _ => X1 m c (Proc.devRef .tc r)

def X2 (c : Dev nD) : Valuation τ sig (Elt F) :=
  Pipeline.withArrays spec2 c (V17 m (O2 m) c) fun w => (ThirdConv.dat (atTc (V17 m (O2 m))) c).arrAt w cfg2.N
def O3 : Outs (F := F) := fun J r c => match J with
  | 6 => X0 m c (Proc.devRef .tc r)
  | 12 => X1 m c (Proc.devRef .tc r)
  | _ => X2 m c (Proc.devRef .tc r)

def X3 (c : Dev nD) : Valuation τ sig (Elt F) :=
  Pipeline.withArrays spec3 c (V18 m (O3 m) c) fun w => (Classifier.dat (atTc (V18 m (O3 m))) c).arrAt w cfg3.N
/-- What all four regions leave. -/
def outs : Outs (F := F) := fun J r c => match J with
  | 6 => X0 m c (Proc.devRef .tc r)
  | 12 => X1 m c (Proc.devRef .tc r)
  | 18 => X2 m c (Proc.devRef .tc r)
  | _ => X3 m c (Proc.devRef .tc r)

/-- The valuations before the later regions read only the earlier regions' results. -/
theorem V11_outs (c : Dev nD) : V11 m (outs m) c = V11 m (O1 m) c := rfl
theorem V17_outs (c : Dev nD) : V17 m (outs m) c = V17 m (O2 m) c := rfl
theorem V18_outs (c : Dev nD) : V18 m (outs m) c = V18 m (O3 m) c := rfl

/-! ## The proof data family -/

def pdats : (p : Fin 4) → (c : Dev nD) → Dat τ (Elt F) Unit ℕ (UR sig nD τ) ℕ (cfgs p) c
  | ⟨0, _⟩ => fun c => FirstConv.dat (atTc (V5 m)) c
  | ⟨1, _⟩ => fun c => SecondConv.dat (atTc (V11 m (O1 m))) c
  | ⟨2, _⟩ => fun c => ThirdConv.dat (atTc (V17 m (O2 m))) c
  | ⟨3, _⟩ => fun c => Classifier.dat (atTc (V18 m (O3 m))) c

/-! ## What rides beside the buffers, and the facts every record shares -/

/-- No region of this program reads a prefetched table. -/
theorem noTables (p : Fin 4) (c : Dev nD) :
    (Pipeline.prefHeld (Ix := Unit) (Name := ℕ) (U := UR sig nD τ) (Lvl := ℕ) (pcfgs (F := F) p).pre c (fun _ => fullShare) (adm (F := F) p).1 : sProp 𝕄) = BI.emp := by
  fin_cases p <;> (unfold Pipeline.prefHeld; rw [show (Finset.univ : Finset (Fin 0)) = ∅ from rfl, BI.bigSep_empty])

/-! ## The first convolution's region -/

/-- An input window's array is left as it was entered. -/
theorem hF0_in (c : Dev nD) (w : Fin cfg0.W) (hin : (cfg0.win w).isOut = false) (hne : Pipeline.arrRef spec0 w ∉ ([main_v38] : List (Ref sig .tc))) :
    (pdats m 0 c).arrAt w cfg0.N = V6 m (outs m) c (Proc.devRef .tc (Pipeline.arrRef spec0 w)) :=
  ((pdats m 0 c).arrAt_in w hin _).trans ((FirstConv.A_eq (atTc (V5 m)) c w).trans (V6_of m (outs m) c (Pipeline.arrRef spec0 w) hne).symm)

theorem hF0 (c : Dev nD) : ∀ w : Fin cfg0.W,
    (pdats m 0 c).arrAt w cfg0.N = V6 m (outs m) c (Proc.devRef .tc (Pipeline.arrRef spec0 w))
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => by
    have h1 := Pipeline.withArrays_arr spec0 launch0.win.arr_inj c (V5 m c) (fun w => (FirstConv.dat (atTc (V5 m)) c).arrAt w cfg0.N) 4
    show _ = V6 m (outs m) c (Proc.devRef .tc main_v38)
    simp only [V6, Function.update_self]
    exact h1.symm

theorem hrest0 (c : Dev nD) (b : Ref sig .tc) (hb : b ∉ Finset.univ.image (Pipeline.arrRef spec0)) :
    V6 m (outs m) c (Proc.devRef .tc b) = V5 m c (Proc.devRef .tc b) :=
  V6_of m (outs m) c b (fun h => hb (by
    rw [List.mem_singleton] at h; subst h
    exact Finset.mem_image.mpr ⟨4, Finset.mem_univ _, rfl⟩))

theorem hin0 (c : Dev nD) : iprop(Pipeline.ΦA (U := UR sig nD τ) spec0 c ∗ (BI.emp : sProp 𝕄)) ⊢ (pdats m 0 c).Φ 0 := by
  rw [show (pdats m 0 c).Φ 0 = Pipeline.ΦA spec0 c from rfl]
  iintro ⟨H, -⟩; iexact H

theorem hout0 (c : Dev nD) : (pdats m 0 c).Φ (Fin.last _) ⊢ iprop(Pipeline.ΦA (U := UR sig nD τ) spec0 c ∗ (BI.emp : sProp 𝕄)) := by
  rw [show (pdats m 0 c).Φ (Fin.last _) = Pipeline.ΦA spec0 c from rfl]
  iintro H; isplitl [H]; · iexact H
  iempintro

set_option backward.isDefEq.respectTransparency.types false in
def R0 : RegionSeg (pcfgs (F := F)) adm (pdats m) () defs₀ Variants.none (fun _ => ∅) (fun _ _ => 0) 0 :=
  RegionRecord.regionSeg (pcfgs (F := F)) adm (pdats m) 0 launch0.toP defs₀ Variants.none
    (fun c => V5 m c) (fun c => V6 m (outs m) c)
    (fun c => (FirstConv.body_obligation (atTc (V5 m)) c).loose)
    (fun c => (pdats m 0 c).share_full fun _ => rfl) (fun _ _ => rfl) (fun _ => rfl)
    (fun _ _ => rfl) (fun _ k => k.elim0) (hF0 m) (hrest0 m)
    (fun c => by rw [noTables]; exact hin0 m c)
    (fun c => by rw [noTables]; exact hout0 m c)

/-! ## The second convolution's region -/

/-- An input window's array is left as it was entered. -/
theorem hF1_in (c : Dev nD) (w : Fin cfg1.W) (hin : (cfg1.win w).isOut = false) (hne : Pipeline.arrRef spec1 w ∉ ([main_v57] : List (Ref sig .tc))) :
    (pdats m 1 c).arrAt w cfg1.N = V12 m (outs m) c (Proc.devRef .tc (Pipeline.arrRef spec1 w)) :=
  ((pdats m 1 c).arrAt_in w hin _).trans ((SecondConv.A_eq (atTc (V11 m (O1 m))) c w).trans (V12_of m (outs m) c (Pipeline.arrRef spec1 w) hne).symm)

theorem hF1 (c : Dev nD) : ∀ w : Fin cfg1.W,
    (pdats m 1 c).arrAt w cfg1.N = V12 m (outs m) c (Proc.devRef .tc (Pipeline.arrRef spec1 w))
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => by
    have h1 := Pipeline.withArrays_arr spec1 launch1.win.arr_inj c (V11 m (O1 m) c) (fun w => (SecondConv.dat (atTc (V11 m (O1 m))) c).arrAt w cfg1.N) 4
    show _ = V12 m (outs m) c (Proc.devRef .tc main_v57)
    simp only [V12, Function.update_self]
    exact h1.symm

theorem hrest1 (c : Dev nD) (b : Ref sig .tc) (hb : b ∉ Finset.univ.image (Pipeline.arrRef spec1)) :
    V12 m (outs m) c (Proc.devRef .tc b) = V11 m (outs m) c (Proc.devRef .tc b) :=
  V12_of m (outs m) c b (fun h => hb (by
    rw [List.mem_singleton] at h; subst h
    exact Finset.mem_image.mpr ⟨4, Finset.mem_univ _, rfl⟩))

theorem hin1 (c : Dev nD) : iprop(Pipeline.ΦA (U := UR sig nD τ) spec1 c ∗ (BI.emp : sProp 𝕄)) ⊢ (pdats m 1 c).Φ 0 := by
  rw [show (pdats m 1 c).Φ 0 = Pipeline.ΦA spec1 c from rfl]
  iintro ⟨H, -⟩; iexact H

theorem hout1 (c : Dev nD) : (pdats m 1 c).Φ (Fin.last _) ⊢ iprop(Pipeline.ΦA (U := UR sig nD τ) spec1 c ∗ (BI.emp : sProp 𝕄)) := by
  rw [show (pdats m 1 c).Φ (Fin.last _) = Pipeline.ΦA spec1 c from rfl]
  iintro H; isplitl [H]; · iexact H
  iempintro

set_option backward.isDefEq.respectTransparency.types false in
def R1 : RegionSeg (pcfgs (F := F)) adm (pdats m) () defs₀ Variants.none (fun _ => ∅) (fun _ _ => 0) 1 :=
  RegionRecord.regionSeg (pcfgs (F := F)) adm (pdats m) 1 launch1.toP defs₀ Variants.none
    (fun c => V11 m (outs m) c) (fun c => V12 m (outs m) c)
    (fun c => (SecondConv.body_obligation (atTc (V11 m (O1 m))) c).loose)
    (fun c => (pdats m 1 c).share_full fun _ => rfl) (fun _ _ => rfl) (fun _ => rfl)
    (fun _ _ => rfl) (fun _ k => k.elim0) (hF1 m) (hrest1 m)
    (fun c => by rw [noTables]; exact hin1 m c)
    (fun c => by rw [noTables]; exact hout1 m c)

/-! ## The third convolution's region -/

/-- An input window's array is left as it was entered. -/
theorem hF2_in (c : Dev nD) (w : Fin cfg2.W) (hin : (cfg2.win w).isOut = false) (hne : Pipeline.arrRef spec2 w ∉ ([main_v73] : List (Ref sig .tc))) :
    (pdats m 2 c).arrAt w cfg2.N = V18 m (outs m) c (Proc.devRef .tc (Pipeline.arrRef spec2 w)) :=
  ((pdats m 2 c).arrAt_in w hin _).trans ((ThirdConv.A_eq (atTc (V17 m (O2 m))) c w).trans (V18_of m (outs m) c (Pipeline.arrRef spec2 w) hne).symm)

theorem hF2 (c : Dev nD) : ∀ w : Fin cfg2.W,
    (pdats m 2 c).arrAt w cfg2.N = V18 m (outs m) c (Proc.devRef .tc (Pipeline.arrRef spec2 w))
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => by
    have h1 := Pipeline.withArrays_arr spec2 launch2.win.arr_inj c (V17 m (O2 m) c) (fun w => (ThirdConv.dat (atTc (V17 m (O2 m))) c).arrAt w cfg2.N) 4
    show _ = V18 m (outs m) c (Proc.devRef .tc main_v73)
    simp only [V18, Function.update_self]
    exact h1.symm

theorem hrest2 (c : Dev nD) (b : Ref sig .tc) (hb : b ∉ Finset.univ.image (Pipeline.arrRef spec2)) :
    V18 m (outs m) c (Proc.devRef .tc b) = V17 m (outs m) c (Proc.devRef .tc b) :=
  V18_of m (outs m) c b (fun h => hb (by
    rw [List.mem_singleton] at h; subst h
    exact Finset.mem_image.mpr ⟨4, Finset.mem_univ _, rfl⟩))

theorem hin2 (c : Dev nD) : iprop(Pipeline.ΦA (U := UR sig nD τ) spec2 c ∗ (BI.emp : sProp 𝕄)) ⊢ (pdats m 2 c).Φ 0 := by
  rw [show (pdats m 2 c).Φ 0 = Pipeline.ΦA spec2 c from rfl]
  iintro ⟨H, -⟩; iexact H

theorem hout2 (c : Dev nD) : (pdats m 2 c).Φ (Fin.last _) ⊢ iprop(Pipeline.ΦA (U := UR sig nD τ) spec2 c ∗ (BI.emp : sProp 𝕄)) := by
  rw [show (pdats m 2 c).Φ (Fin.last _) = Pipeline.ΦA spec2 c from rfl]
  iintro H; isplitl [H]; · iexact H
  iempintro

set_option backward.isDefEq.respectTransparency.types false in
def R2 : RegionSeg (pcfgs (F := F)) adm (pdats m) () defs₀ Variants.none (fun _ => ∅) (fun _ _ => 0) 2 :=
  RegionRecord.regionSeg (pcfgs (F := F)) adm (pdats m) 2 launch2.toP defs₀ Variants.none
    (fun c => V17 m (outs m) c) (fun c => V18 m (outs m) c)
    (fun c => (ThirdConv.body_obligation (atTc (V17 m (O2 m))) c).loose)
    (fun c => (pdats m 2 c).share_full fun _ => rfl) (fun _ _ => rfl) (fun _ => rfl)
    (fun _ _ => rfl) (fun _ k => k.elim0) (hF2 m) (hrest2 m)
    (fun c => by rw [noTables]; exact hin2 m c)
    (fun c => by rw [noTables]; exact hout2 m c)

/-! ## The classifier's region -/

theorem hF3_in (c : Dev nD) (w : Fin cfg3.W) (hin : (cfg3.win w).isOut = false) (hne : Pipeline.arrRef spec3 w ∉ ([main_v74_0, main_v74_1] : List (Ref sig .tc))) :
    (pdats m 3 c).arrAt w cfg3.N = V19 m (outs m) c (Proc.devRef .tc (Pipeline.arrRef spec3 w)) :=
  ((pdats m 3 c).arrAt_in w hin _).trans ((Classifier.A_eq (atTc (V18 m (O3 m))) c w).trans (V19_of m (outs m) c (Pipeline.arrRef spec3 w) hne).symm)

set_option maxHeartbeats 2000000 in
theorem hF3 (c : Dev nD) : ∀ w : Fin cfg3.W,
    (pdats m 3 c).arrAt w cfg3.N = V19 m (outs m) c (Proc.devRef .tc (Pipeline.arrRef spec3 w))
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => hF3_in m c 5 rfl (by decide)
  | ⟨6, _⟩ => hF3_in m c 6 rfl (by decide)
  | ⟨7, _⟩ => hF3_in m c 7 rfl (by decide)
  | ⟨8, _⟩ => hF3_in m c 8 rfl (by decide)
  | ⟨9, _⟩ => by
    have h1 := Pipeline.withArrays_arr spec3 launch3.win.arr_inj c (V18 m (O3 m) c) (fun w => (Classifier.dat (atTc (V18 m (O3 m))) c).arrAt w cfg3.N) 9
    show _ = V19 m (outs m) c (Proc.devRef .tc main_v74_0)
    simp only [V19, Function.update_of_ne (StableHlo.devRef_ne_of_ne (by decide) : (Proc.devRef .tc main_v74_0 : DevRef τ sig) ≠ Proc.devRef .tc main_v74_1), Function.update_self]
    exact h1.symm
  | ⟨10, _⟩ => by
    have h1 := Pipeline.withArrays_arr spec3 launch3.win.arr_inj c (V18 m (O3 m) c) (fun w => (Classifier.dat (atTc (V18 m (O3 m))) c).arrAt w cfg3.N) 10
    show _ = V19 m (outs m) c (Proc.devRef .tc main_v74_1)
    simp only [V19, Function.update_self]
    exact h1.symm

theorem hrest3 (c : Dev nD) (b : Ref sig .tc) (hb : b ∉ Finset.univ.image (Pipeline.arrRef spec3)) :
    V19 m (outs m) c (Proc.devRef .tc b) = V18 m (outs m) c (Proc.devRef .tc b) :=
  V19_of m (outs m) c b (fun h => hb (by
    rcases List.mem_cons.mp h with h | h
    · subst h; exact Finset.mem_image.mpr ⟨9, Finset.mem_univ _, rfl⟩
    · rw [List.mem_singleton] at h; subst h; exact Finset.mem_image.mpr ⟨10, Finset.mem_univ _, rfl⟩))

theorem hin3 (c : Dev nD) : iprop(Pipeline.ΦA (U := UR sig nD τ) spec3 c ∗ (BI.emp : sProp 𝕄)) ⊢ (pdats m 3 c).Φ 0 := by
  rw [show (pdats m 3 c).Φ 0 = (Classifier.dat (atTc (V18 m (O3 m))) c).Φ 0 from rfl]
  iintro ⟨H, -⟩
  iapply (Classifier.hin (atTc (V18 m (O3 m))) c)
  iexact H

theorem hout3 (c : Dev nD) : (pdats m 3 c).Φ (Fin.last _) ⊢ iprop(Pipeline.ΦA (U := UR sig nD τ) spec3 c ∗ (BI.emp : sProp 𝕄)) := by
  rw [show (pdats m 3 c).Φ (Fin.last _) = (Classifier.dat (atTc (V18 m (O3 m))) c).Φ (Fin.last cfg3.N) from rfl]
  iintro H; isplitl [H]
  · iapply (Classifier.hout (atTc (V18 m (O3 m))) c); iexact H
  iempintro

set_option backward.isDefEq.respectTransparency.types false in
def R3 : RegionSeg (pcfgs (F := F)) adm (pdats m) () defs₀ Variants.none (fun _ => ∅) (fun _ _ => 0) 3 :=
  RegionRecord.regionSeg (pcfgs (F := F)) adm (pdats m) 3 launch3.toP defs₀ Variants.none
    (fun c => V18 m (outs m) c) (fun c => V19 m (outs m) c)
    (fun c => (Classifier.body_obligation (atTc (V18 m (O3 m))) c).loose)
    (fun c => (pdats m 3 c).share_full fun _ => rfl) (fun _ _ => rfl) (fun _ => rfl)
    (fun _ _ => rfl) (fun _ k => k.elim0) (hF3 m) (hrest3 m)
    (fun c => by rw [noTables]; exact hin3 m c)
    (fun c => by rw [noTables]; exact hout3 m c)

/-! ## The whole run -/

/-- What rides beside the buffers on core c at every boundary: the generator register at some state, nothing owed. -/
abbrev beside (c : Dev nD) : sProp 𝕄 := RegionRecord.rider (U := UR sig nD τ) (Val := Elt F) c

/-- At the launch a core holds its generator register and owes nothing: what rides beside the buffers. -/
theorem launchBeside (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c) : sProp 𝕄) ⊢ beside c := by
  iintro ⟨-, HO, -, Hp, -⟩
  isplitl [Hp]; · iexists _; iexact Hp
  iexists ∅; iexact HO

set_option backward.isDefEq.respectTransparency.types false in
/-- Every weakly fair execution of the program from memory m with zero counters terminates, nothing faulting, and every
    final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (F := F) m emb₁ () Variants.none (fun _ => ∅) (fun _ _ => 0) (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => beside c)
    (by
      have hmono : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) : sProp 𝕄)
          ⊢ bigSep Finset.univ (fun c : Dev nD => (beside c : sProp 𝕄)) := bigSep_mono fun c _ => launchBeside ρ c
      iintro ⟨H, -⟩
      imodintro
      iapply hmono
      iexact H)
    (fun c => by iintro ⟨-, H⟩; iexact H)
    (R0 m) (fun c => .rfl) (fun c => .rfl)
    (R1 m) (fun c => .rfl) (fun c => .rfl)
    (R2 m) (fun c => .rfl) (fun c => .rfl)
    (R3 m) (fun c => .rfl) (fun c => .rfl)

end Cert.Kernel.Whole

end
-- ==== Proof.KIFirstConv.lean ====
import proofs.«146356_g2000405529851509_pallasbulk_1335_10_alg».proof.Proof.Gen.KernelIdeal.Launch
import proofs.«146356_g2000405529851509_pallasbulk_1335_10_alg».proof.Proof.Gen.KernelIdeal.Skeleton
import proofs.«146356_g2000405529851509_pallasbulk_1335_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first convolution with its pooling, as one kernel region of the idealized kernel

Each grid point takes the patch rows of eight images (6272 rows of 128 taps), multiplies them by the 128 × 64 filter
matrix, scales and shifts each channel, clamps below at zero, takes the maximum over each 2 × 2 window of positions, and
stores the 1568 × 64 pooled block. This file states what the body leaves in the output window's buffer as a function of
the four input blocks, runs the body once on arbitrary whole buffers, and packages the region's proof data and its body
obligation at an arbitrary entry state of the buffers.
-/

set_option maxRecDepth 16384

noncomputable section

namespace Cert.KernelIdeal.FirstConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S6272x128 := Rect.unit (s := S6272x128) ![0, 0] S6272x128.size inb_S6272x128_S6272x128_0_0
abbrev rIn1 : Rect S128x64 := Rect.unit (s := S128x64) ![0, 0] S128x64.size inb_S128x64_S128x64_0_0
abbrev rIn2 : Rect S1x64 := Rect.unit (s := S1x64) ![0, 0] S1x64.size inb_S1x64_S1x64_0_0
abbrev rIn3 : Rect S1x64 := Rect.unit (s := S1x64) ![0, 0] S1x64.size inb_S1x64_S1x64_0_0
abbrev rOut : Rect S1568x64 := Rect.unit (s := S1568x64) ![0, 0] S1568x64.size inb_S1568x64_S1568x64_0_0

/-- What the body leaves in the output window's buffer, from the input blocks: its one store, of the whole block. -/
def outBlock (x0 : Vec F S6272x128 .bf16) (x1 : Vec F S128x64 .bf16) (x2 : Vec F S1x64 .f32) (x3 : Vec F S1x64 .f32) : Vec F S1568x64 .bf16 :=
  View.canon [⟨rOut, k0_pay1 (View.ld x0 rIn0) (View.ld x1 rIn1) (View.ld x2 rIn2) (View.ld x3 rIn3)⟩]

/-- The one store covers the block. -/
theorem cover_out (p0 : Vec F S1568x64 .bf16) (y : S1568x64.Idx) :
    ∃ pc ∈ ([⟨rOut, p0⟩] : List (View.Piece (Elt F) S1568x64 .bf16)), y ∈ pc.1.set :=
  View.cover_of_tiled [⟨rOut, p0⟩] S1568x64.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid0.Coords) (arg1 : Memref sig .tc .vmem S6272x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S1568x64 .bf16) (harg5 : arg5.IsWhole)
    (x0 : Vec F S6272x128 .bf16) (x1 : Vec F S128x64 .bf16) (x2 : Vec F S1x64 .f32) (x3 : Vec F S1x64 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc0__c1_body i arg1 harg1 arg2 harg2 arg3 harg3 arg4 harg4 arg5 harg5) Kont := by
  simp only [cc0__c1_body_eq_skeleton]; unfold cc0__c1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outBlock (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so `sound_kernel` applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.FirstConv

end
-- ==== Proof.KISecondConv.lean ====
import proofs.«146356_g2000405529851509_pallasbulk_1335_10_alg».proof.Proof.Gen.KernelIdeal.Launch
import proofs.«146356_g2000405529851509_pallasbulk_1335_10_alg».proof.Proof.Gen.KernelIdeal.Skeleton
import proofs.«146356_g2000405529851509_pallasbulk_1335_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second convolution with its pooling, as one kernel region of the idealized kernel

Each grid point takes, for eight images, the rows of the padded 14 × 18 map whose 320 lanes hold the five vertical
taps of 64 channels, with two rows of zeros before and after (2020 rows). The five horizontal taps are five products of
2016 consecutive rows, starting at rows 0 to 4, with the five 320 × 64 slices of the filter matrix; their sum is scaled
and shifted per channel and clamped below at zero; the two padding columns on either side are dropped and the maximum
over each 2 × 2 window of positions is stored as a 392 × 64 block. This file states what the body leaves in the output
window's buffer as a function of the four input blocks, runs the body once on arbitrary whole buffers, and packages the
region's proof data and its body obligation at an arbitrary entry state of the buffers.
-/

set_option maxRecDepth 16384

noncomputable section

namespace Cert.KernelIdeal.SecondConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S1x2020x320 := Rect.unit (s := S1x2020x320) ![0, 0, 0] S1x2020x320.size inb_S1x2020x320_S1x2020x320_0_0_0
abbrev rIn1 : Rect S1600x64 := Rect.unit (s := S1600x64) ![0, 0] S320x64.size inb_S1600x64_S320x64_0_0
abbrev rTap1 : Rect S1600x64 := Rect.unit (s := S1600x64) ![320, 0] S320x64.size inb_S1600x64_S320x64_320_0
abbrev rTap2 : Rect S1600x64 := Rect.unit (s := S1600x64) ![640, 0] S320x64.size inb_S1600x64_S320x64_640_0
abbrev rTap3 : Rect S1600x64 := Rect.unit (s := S1600x64) ![960, 0] S320x64.size inb_S1600x64_S320x64_960_0
abbrev rTap4 : Rect S1600x64 := Rect.unit (s := S1600x64) ![1280, 0] S320x64.size inb_S1600x64_S320x64_1280_0
abbrev rIn2 : Rect S1x64 := Rect.unit (s := S1x64) ![0, 0] S1x64.size inb_S1x64_S1x64_0_0
abbrev rIn3 : Rect S1x64 := Rect.unit (s := S1x64) ![0, 0] S1x64.size inb_S1x64_S1x64_0_0
abbrev rOut : Rect S392x64 := Rect.unit (s := S392x64) ![0, 0] S392x64.size inb_S392x64_S392x64_0_0

/-- What the body leaves in the output window's buffer, from the input blocks: its one store, of the whole block. -/
def outBlock (x0 : Vec F S1x2020x320 .bf16) (x1 : Vec F S1600x64 .bf16) (x2 : Vec F S1x64 .f32) (x3 : Vec F S1x64 .f32) : Vec F S392x64 .bf16 :=
  View.canon [⟨rOut, k1_pay1 (k1_pay2 (View.ld x0 rIn0) (View.ld x1 rIn1) (View.ld x1 rTap1) (View.ld x1 rTap2) (View.ld x1 rTap3) (View.ld x1 rTap4) (View.ld x2 rIn2) (View.ld x3 rIn3))⟩]

/-- The one store covers the block. -/
theorem cover_out (p0 : Vec F S392x64 .bf16) (y : S392x64.Idx) :
    ∃ pc ∈ ([⟨rOut, p0⟩] : List (View.Piece (Elt F) S392x64 .bf16)), y ∈ pc.1.set :=
  View.cover_of_tiled [⟨rOut, p0⟩] S392x64.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid1.Coords) (arg1 : Memref sig .tc .vmem S1x2020x320 .bf16) (harg1 : arg1.IsWhole) (arg2 : Memref sig .tc .vmem S1600x64 .bf16) (harg2 : arg2.IsWhole) (arg3 : Memref sig .tc .vmem S1x64 .f32) (harg3 : arg3.IsWhole) (arg4 : Memref sig .tc .vmem S1x64 .f32) (harg4 : arg4.IsWhole) (arg5 : Memref sig .tc .vmem S392x64 .bf16) (harg5 : arg5.IsWhole)
    (x0 : Vec F S1x2020x320 .bf16) (x1 : Vec F S1600x64 .bf16) (x2 : Vec F S1x64 .f32) (x3 : Vec F S1x64 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc1__c2_body i arg1 harg1 arg2 harg2 arg3 harg3 arg4 harg4 arg5 harg5) Kont := by
  simp only [cc1__c2_body_eq_skeleton]; unfold cc1__c2_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outBlock (iblk V c 0 t) (iblk V c 1 t) (iblk V c 2 t) (iblk V c 3 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so `sound_kernel` applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.SecondConv

end
-- ==== Proof.KIThirdConv.lean ====
import proofs.«146356_g2000405529851509_pallasbulk_1335_10_alg».proof.Proof.Gen.KernelIdeal.Launch
import proofs.«146356_g2000405529851509_pallasbulk_1335_10_alg».proof.Proof.Gen.KernelIdeal.Skeleton
import proofs.«146356_g2000405529851509_pallasbulk_1335_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third convolution, as one kernel region of the idealized kernel

Each grid point takes, for eight images, the rows of the padded 7 × 11 map whose 320 lanes hold the five vertical taps
of 64 channels, with two rows of zeros before and after (620 rows). The five horizontal taps are five products of 616
consecutive rows, starting at rows 0 to 4, with the five 320 × 128 slices of the filter matrix; their sum is scaled and
shifted per channel and clamped below at zero; the two padding columns on either side are dropped and the 392 × 128
block is stored. This file states what the body leaves in the output window's buffer as a function of the four input
blocks, runs the body once on arbitrary whole buffers, and packages the region's proof data and its body obligation at
an arbitrary entry state of the buffers.
-/

set_option maxRecDepth 16384

noncomputable section

namespace Cert.KernelIdeal.ThirdConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S1x620x320 := Rect.unit (s := S1x620x320) ![0, 0, 0] S1x620x320.size inb_S1x620x320_S1x620x320_0_0_0
abbrev rIn1 : Rect S1600x128 := Rect.unit (s := S1600x128) ![0, 0] S320x128.size inb_S1600x128_S320x128_0_0
abbrev rTap1 : Rect S1600x128 := Rect.unit (s := S1600x128) ![320, 0] S320x128.size inb_S1600x128_S320x128_320_0
abbrev rTap2 : Rect S1600x128 := Rect.unit (s := S1600x128) ![640, 0] S320x128.size inb_S1600x128_S320x128_640_0
abbrev rTap3 : Rect S1600x128 := Rect.unit (s := S1600x128) ![960, 0] S320x128.size inb_S1600x128_S320x128_960_0
abbrev rTap4 : Rect S1600x128 := Rect.unit (s := S1600x128) ![1280, 0] S320x128.size inb_S1600x128_S320x128_1280_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rOut : Rect S392x128 := Rect.unit (s := S392x128) ![0, 0] S392x128.size inb_S392x128_S392x128_0_0

/-- What the body leaves in the output window's buffer, from the input blocks: its one store, of the whole block. -/
def outBlock (x0 : Vec F S1x620x320 .bf16) (x1 : Vec F S1600x128 .bf16) (x2 : Vec F S1x128 .f32) (x3 : Vec F S1x128 .f32) : Vec F S392x128 .f32 :=
  View.canon [⟨rOut, k2_pay1 (k2_pay2 (View.ld x0 rIn0) (View.ld x1 rIn1) (View.ld x1 rTap1) (View.ld x1 rTap2) (View.ld x1 rTap3) (View.ld x1 rTap4) (View.ld x2 rIn2) (View.ld x3 rIn3))⟩]

/-- The one store covers the block. -/
theorem cover_out (p0 : Vec F S392x128 .f32) (y : S392x128.Idx) :
    ∃ pc ∈ ([⟨rOut, p0⟩] : List (View.Piece (Elt F) S392x128 .f32)), y ∈ pc.1.set :=
  View.cover_of_tiled [⟨rOut, p0⟩] S392x128.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid2.Coords) (arg1 : Memref sig .tc .vmem S1x620x320 .bf16) (harg1 : arg1.IsWhole) (arg2 : Memref sig .tc .vmem S1600x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S392x128 .f32) (harg5 : arg5.IsWhole)
    (x0 : Vec F S1x620x320 .bf16) (x1 : Vec F S1600x128 .bf16) (x2 : Vec F S1x128 .f32) (x3 : Vec F S1x128 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc2__c3_body i arg1 harg1 arg2 harg2 arg3 harg3 arg4 harg4 arg5 harg5) Kont := by
  simp only [cc2__c3_body_eq_skeleton]; unfold cc2__c3_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = outBlock (iblk V c 0 t) (iblk V c 1 t) (iblk V c 2 t) (iblk V c 3 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point: the inputs' buffers hold their blocks, so `sound_kernel` applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.ThirdConv

end
-- ==== Proof.KIClassifierShared.lean ====
import proofs.«146356_g2000405529851509_pallasbulk_1335_10_alg».proof.Proof.Gen.KernelIdeal.Launch
import proofs.«146356_g2000405529851509_pallasbulk_1335_10_alg».proof.Proof.Gen.KernelIdeal.Skeleton
import proofs.«146356_g2000405529851509_pallasbulk_1335_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two-head classifier as one kernel region: what its runs share

The grid is head × column block, sixteen points, the column block the fast coordinate (point t is head t / 8, block
t % 8). The body branches on the block number alone: at block 0 it lays the features out (transposing each image's
49 × 128 map) into a scratch buffer and starts the second layer's accumulator; at every later block it adds to the
accumulator; at block 7 it also finishes the head (scale, shift, clamp, third layer) into the logits window. The
hidden-layer window is stored at every point; the logits window only at block 7 and is otherwise left alone. This file
fixes the three conditions in closed form over the grid, where each window is live and where the logits are written
back, the names of the buffers a run is stated over, and the region's invariant before the first point with the two
scratch buffers split off.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The three conditions, over the grid -/

/-- "This is the head's first column block." -/
abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 8 = 0 :=
  (by decide +kernel : ∀ t : Fin grid3.N, condFirst (grid3.coords t) ↔ t.val % 8 = 0)

/-- "This is a later column block of the head." -/
abbrev condLater (i : grid3.Coords) : Prop := (Scalar.cmpi .ne (Scalar.extui (Scalar.cmpi .sgt (BitVec.ofNat 32 (i 1).val) 0#32)) 0#32) = 1#1
theorem hcondLater : ∀ t : Fin cfg3.N, condLater (grid3.coords t) ↔ ¬ t.val % 8 = 0 :=
  (by decide +kernel : ∀ t : Fin grid3.N, condLater (grid3.coords t) ↔ ¬ t.val % 8 = 0)

/-- "This is the head's last column block." -/
abbrev condLast (i : grid3.Coords) : Prop := k3_cond4 i = 1#1
theorem hcondLast : ∀ t : Fin cfg3.N, condLast (grid3.coords t) ↔ t.val % 8 = 7 :=
  (by decide +kernel : ∀ t : Fin grid3.N, condLast (grid3.coords t) ↔ t.val % 8 = 7)

/-! ## Where the windows are live, and where the logits are written back -/

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem live3 : ∀ t : Fin cfg3.N, cfg3.idle 3 (grid3.coords t) = false := by decide +kernel
theorem live4 : ∀ t : Fin cfg3.N, cfg3.idle 4 (grid3.coords t) = false := by decide +kernel
theorem live5 : ∀ t : Fin cfg3.N, cfg3.idle 5 (grid3.coords t) = false := by decide +kernel
theorem live6 : ∀ t : Fin cfg3.N, cfg3.idle 6 (grid3.coords t) = false := by decide +kernel
theorem live7 : ∀ t : Fin cfg3.N, cfg3.idle 7 (grid3.coords t) = false := by decide +kernel
theorem live8 : ∀ t : Fin cfg3.N, cfg3.idle 8 (grid3.coords t) = false := by decide +kernel
theorem live9 : ∀ t : Fin cfg3.N, cfg3.idle 9 (grid3.coords t) = false := by decide +kernel
/-- Away from a head's last block the logits window is idle and is not written back. -/
theorem idle10 : ∀ t : Fin cfg3.N, ¬condLast (grid3.coords t) → cfg3.idle 10 (grid3.coords t) = true := by decide +kernel
theorem noFlush10 : ∀ t : Fin cfg3.N, ¬condLast (grid3.coords t) → (cfg3.win 10).flush t = false := by decide +kernel
theorem live10 : ∀ t : Fin cfg3.N, condLast (grid3.coords t) → cfg3.idle 10 (grid3.coords t) = false := by decide +kernel

/-! ## The buffers a run is stated over -/

abbrev ms0 (t : Fin cfg3.N) : Memref sig .tc .vmem S2352x128 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S6272x256 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x256 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S256x512 .bf16 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x1x512 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1x512 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S512x128 .bf16 := win3_7.stage (cfg3.slots t 7)
abbrev hs7 (t : Fin cfg3.N) : (ms7 t).IsWhole := hstage3_7 ((cfg3.slots t 7).cast nbuf3_7)
abbrev ms8 (t : Fin cfg3.N) : Memref sig .tc .vmem S1x1x128 .f32 := win3_8.stage (cfg3.slots t 8)
abbrev hs8 (t : Fin cfg3.N) : (ms8 t).IsWhole := hstage3_8 ((cfg3.slots t 8).cast nbuf3_8)
abbrev ms9 (t : Fin cfg3.N) : Memref sig .tc .vmem S48x256 .f32 := win3_9.stage (cfg3.slots t 9)
abbrev hs9 (t : Fin cfg3.N) : (ms9 t).IsWhole := hstage3_9 ((cfg3.slots t 9).cast nbuf3_9)
abbrev ms10 (t : Fin cfg3.N) : Memref sig .tc .vmem S48x128 .f32 := win3_10.stage (cfg3.slots t 10)
abbrev hs10 (t : Fin cfg3.N) : (ms10 t).IsWhole := hstage3_10 ((cfg3.slots t 10).cast nbuf3_10)
/-- The feature scratch (48 × 6272) and the accumulator scratch (48 × 512): whole buffers of the kernel's own. -/
abbrev scFeat : Memref sig .tc .vmem S48x6272 .bf16 := Memref.whole cc3_scratch0
abbrev scAcc : Memref sig .tc .vmem S48x512 .f32 := Memref.whole cc3_scratch1
abbrev VFeat : View sig .tc .vmem S48x6272 .bf16 := scFeat.view
abbrev VAcc : View sig .tc .vmem S48x512 .f32 := scAcc.view
/-- One staging buffer of each output window, through which its contents are stated (the choice does not matter). -/
abbrev VHid : View sig .tc .vmem S48x256 .f32 := (Memref.whole cc3_stg9_0 : Memref sig .tc .vmem S48x256 .f32).view
abbrev VLogit : View sig .tc .vmem S48x128 .f32 := (Memref.whole cc3_stg10_0 : Memref sig .tc .vmem S48x128 .f32).view

/-- The core's scoped buffers other than this region's staging buffers and its two scratches (the other three regions'
    staging buffers), each whole at some contents. -/
def others (c : Dev nD) : sProp 𝕄 :=
  BI.bigSepL [cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1]
    fun b => iprop(∃ f : Buf (Elt F) ((c : Thread nD τ).loc b), ((c : Thread nD τ).loc b) ↦{fullShare} f)

/-- The region's invariant before the first point: the two scratches at anything, the other scoped buffers, and the
    generator register at some state. -/
theorem PhiA_eq (c : Dev nD) :
    (Pipeline.ΦA spec3 c : sProp 𝕄)
      = iprop(iprop((∃ d, owns (c : Thread nD τ) scFeat fullShare d) ∗ (∃ d, owns (c : Thread nD τ) scAcc fullShare d) ∗ others c) ∗ (∃ r, prngReg c r)) := by
  unfold Pipeline.ΦA
  rw [Pipeline.scopedRest_eq_of_list spec3 c [cc3_scratch0, cc3_scratch1, cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1] (by decide) (by decide),
    BI.bigSepL_cons, BI.bigSepL_cons]
  unfold others
  simp only [scFeat, scAcc, owns_whole]; try rfl

end Cert.KernelIdeal.Classifier

end
-- ==== Proof.KIClassifierFirst.lean ====
import proofs.«146356_g2000405529851509_pallasbulk_1335_10_alg».proof.Proof.KIClassifierShared

/-!
# The classifier body at a head's first column block

At block 0 the body transposes the 2352 × 128 feature rows into the 48 × 6272 feature scratch, computes this block's
256 hidden columns (product with the first layer's block, scale, shift, clamp) into the hidden window, and starts the
accumulator scratch at this block's contribution to the second layer. It stores nothing into the logits window. The
stores each buffer ends with are found by running the body; the logits window's buffer is handed back as it was.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer, the feature scratch and the accumulator scratch at a
    head's first block, with the proof that on whole buffers — the nine inputs' at given contents, the logits window's at
    contents handed back untouched, the other three at anything — the body runs to its return with the inputs' as they
    were and those three with their pieces written. -/
noncomputable def runFirst (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : condFirst i) (hc3 : ¬condLater i) (hc4 : ¬condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) :
    Σ' (L9 : List (View.Piece (Elt F) S48x256 .f32)) (LF : List (View.Piece (Elt F) S48x6272 .bf16)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ (∃ d, owns (c : Thread nD τ) aF fullShare d) ∗ (∃ d, owns (c : Thread nD τ) aA fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ (∃ f, aF.view.loc (c : Thread nD τ) ↦[aF.view.set]{fullShare} aF.view.writes (Elt F) f LF) ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, ?_, fun xi10 E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%dF, %fF, -, HF⟩, ⟨%dA, %fA, -, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    isplitl [HF]; · iexists _; iexact HF
    iexists _; iexact HA

end Cert.KernelIdeal.Classifier

end
-- ==== Proof.KIClassifierLater.lean ====
import proofs.«146356_g2000405529851509_pallasbulk_1335_10_alg».proof.Proof.KIClassifierShared

/-!
# The classifier body at a later column block that is not the head's last

At blocks 1 to 6 the body reads the feature scratch as block 0 left it, computes this block's 256 hidden columns into
the hidden window, and adds this block's contribution to the accumulator scratch. It stores nothing into the feature
scratch or the logits window: both are handed back as they were.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer and the accumulator scratch at such a block, with the
    proof that on whole buffers — the nine inputs', the feature scratch's and the accumulator's at given contents, the
    logits window's at contents handed back untouched, the hidden window's at anything — the body runs to its return with
    the inputs', the logits window's and the feature scratch's as they were and the other two with their pieces written. -/
noncomputable def runLater (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : ¬condFirst i) (hc3 : condLater i) (hc4 : ¬condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) (xsF : Vec F S48x6272 .bf16) (xsA : Vec F S48x512 .f32) :
    Σ' (L9 : List (View.Piece (Elt F) S48x256 .f32)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ owns (c : Thread nD τ) aF fullShare xsF ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ owns (c : Thread nD τ) aF fullShare xsF ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, fun xi10 E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fF, %hfF, HF⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := hF.eq_unread hfF; obtain rfl := hA.eq_unread hfA
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    isplitl [HF]
    · iexists _; isplitr; · ipureintro; exact hF.read_unread _
      iexact HF
    iexists _; iexact HA

end Cert.KernelIdeal.Classifier

end
-- ==== Proof.KIClassifierLast.lean ====
import proofs.«146356_g2000405529851509_pallasbulk_1335_10_alg».proof.Proof.KIClassifierShared

/-!
# The classifier body at a head's last column block

At block 7 the body reads the feature scratch, computes this block's 256 hidden columns into the hidden window, adds
this block's contribution to the accumulator scratch, and then finishes the head: the accumulated second layer is
scaled, shifted and clamped, multiplied by the head's third-layer matrix, the bias added, and the 48 × 128 result stored
into the logits window. The feature scratch is handed back as it was.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows' buffers and the accumulator scratch at a head's last
    block, with the proof that on whole buffers — the nine inputs', the feature scratch's and the accumulator's at given
    contents, the two output windows' at anything — the body runs to its return with the inputs' and the feature scratch's
    as they were and the other three with their pieces written. -/
noncomputable def runLast (c : Dev nD) (i : grid3.Coords) (a0 : Memref sig .tc .vmem S2352x128 .f32) (h0 : a0.IsWhole) (a1 : Memref sig .tc .vmem S6272x256 .bf16) (h1 : a1.IsWhole) (a2 : Memref sig .tc .vmem S1x256 .f32) (h2 : a2.IsWhole) (a3 : Memref sig .tc .vmem S1x256 .f32) (h3 : a3.IsWhole) (a4 : Memref sig .tc .vmem S256x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x256 .f32) (h9 : a9.IsWhole) (a10 : Memref sig .tc .vmem S48x128 .f32) (h10 : a10.IsWhole) (aF : Memref sig .tc .vmem S48x6272 .bf16) (hF : aF.IsWhole) (aA : Memref sig .tc .vmem S48x512 .f32) (hA : aA.IsWhole)
    (hc1 : ¬condFirst i) (hc3 : condLater i) (hc4 : condLast i)
    (x0 : Vec F S2352x128 .f32) (x1 : Vec F S6272x256 .bf16) (x2 : Vec F S1x256 .f32) (x3 : Vec F S1x256 .f32) (x4 : Vec F S256x512 .bf16) (x5 : Vec F S1x1x512 .f32) (x6 : Vec F S1x1x512 .f32) (x7 : Vec F S512x128 .bf16) (x8 : Vec F S1x1x128 .f32) (xsF : Vec F S48x6272 .bf16) (xsA : Vec F S48x512 .f32) :
    Σ' (L9 : List (View.Piece (Elt F) S48x256 .f32)) (L10 : List (View.Piece (Elt F) S48x128 .f32)), { LA : List (View.Piece (Elt F) S48x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
            ∗ owns (c : Thread nD τ) aF fullShare xsF ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a10.view.loc (c : Thread nD τ) ↦[a10.view.set]{fullShare} a10.view.writes (Elt F) f L10)
                ∗ owns (c : Thread nD τ) aF fullShare xsF ∗ (∃ f, aA.view.loc (c : Thread nD τ) ↦[aA.view.set]{fullShare} aA.view.writes (Elt F) f LA)) -∗ K ⟨⟩))
          ⊢ wp frame (wpE (defs₀ (F := F)) Variants.none c none) E (cc3__cls_body i a0 h0 a1 h1 a2 h2 a3 h3 a4 h4 a5 h5 a6 h6 a7 h7 a8 h8 a9 h9 a10 h10 aF hF aA hA) K } := by
  refine ⟨?_, ?_, ?_, fun E K => ?run⟩
  case run =>
    simp only [cc3__cls_body_eq_skeleton]; unfold cc3__cls_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fF, %hfF, HF⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := hF.eq_unread hfF; obtain rfl := hA.eq_unread hfA
    sl_exec (disch := first | exact hc1 | exact hc3 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [HF]
    · iexists _; isplitr; · ipureintro; exact hF.read_unread _
      iexact HF
    iexists _; iexact HA

end Cert.KernelIdeal.Classifier

end
-- ==== Proof.KIClassifier.lean ====
import proofs.«146356_g2000405529851509_pallasbulk_1335_10_alg».proof.Proof.KIClassifierFirst
import proofs.«146356_g2000405529851509_pallasbulk_1335_10_alg».proof.Proof.KIClassifierLater
import proofs.«146356_g2000405529851509_pallasbulk_1335_10_alg».proof.Proof.KIClassifierLast

/-!
# The two-head classifier as one kernel region: its proof data and body obligation

What the two output windows' buffers and the two scratch buffers hold after each of the sixteen grid points, by
recursion on the point: a head's first block starts afresh from the point's input blocks; every later block reads the
feature scratch and the accumulator as the point before left them, keeps the former and replaces the latter; the logits
window's buffer holds the head's result after its last block and is nobody's business elsewhere. The invariant between
points holds the two scratches at those contents; the body obligation is the case split on the block number, each case
its run.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point, on the buffers the pipeline passes there -/

abbrev firstAt (c : Dev nD) (t : Fin cfg3.N) (h0 : t.val % 8 = 0) :=
  runFirst (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    ((hcondFirst t).mpr h0) (fun hl => (hcondLater t).mp hl h0) (fun hl => by have h := (hcondLast t).mp hl; omega)
    (iblk V c 0 t) (iblk V c 1 t) (iblk V c 2 t) (iblk V c 3 t) (iblk V c 4 t) (iblk V c 5 t) (iblk V c 6 t) (iblk V c 7 t) (iblk V c 8 t)

abbrev laterAt (c : Dev nD) (t : Fin cfg3.N) (h0 : ¬ t.val % 8 = 0) (h7 : ¬ t.val % 8 = 7) (xsF : Vec F S48x6272 .bf16) (xsA : Vec F S48x512 .f32) :=
  runLater (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    (fun hf => h0 ((hcondFirst t).mp hf)) ((hcondLater t).mpr h0) (fun hl => h7 ((hcondLast t).mp hl))
    (iblk V c 0 t) (iblk V c 1 t) (iblk V c 2 t) (iblk V c 3 t) (iblk V c 4 t) (iblk V c 5 t) (iblk V c 6 t) (iblk V c 7 t) (iblk V c 8 t) xsF xsA

abbrev lastAt (c : Dev nD) (t : Fin cfg3.N) (h7 : t.val % 8 = 7) (xsF : Vec F S48x6272 .bf16) (xsA : Vec F S48x512 .f32) :=
  runLast (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scFeat (Memref.isWhole_whole _) scAcc (Memref.isWhole_whole _)
    (fun hf => by have h := (hcondFirst t).mp hf; omega) ((hcondLater t).mpr (by omega)) ((hcondLast t).mpr h7)
    (iblk V c 0 t) (iblk V c 1 t) (iblk V c 2 t) (iblk V c 3 t) (iblk V c 4 t) (iblk V c 5 t) (iblk V c 6 t) (iblk V c 7 t) (iblk V c 8 t) xsF xsA

/-! ## Pieces read back as contents -/

def rdHid (L : List (View.Piece (Elt F) S48x256 .f32)) : Vec F S48x256 .f32 := VHid.read (Elt F) (VHid.writes (Elt F) VHid.junk L)
def rdLogit (L : List (View.Piece (Elt F) S48x128 .f32)) : Vec F S48x128 .f32 := VLogit.read (Elt F) (VLogit.writes (Elt F) VLogit.junk L)
def rdFeat (L : List (View.Piece (Elt F) S48x6272 .bf16)) : Vec F S48x6272 .bf16 := VFeat.read (Elt F) (VFeat.writes (Elt F) VFeat.junk L)
def rdAcc (L : List (View.Piece (Elt F) S48x512 .f32)) : Vec F S48x512 .f32 := VAcc.read (Elt F) (VAcc.writes (Elt F) VAcc.junk L)

/-! ## Each run's pieces cover the buffer they are written into -/

theorem coverHidFirst (c : Dev nD) (t : Fin cfg3.N) (h0 : t.val % 8 = 0) (y : S48x256.Idx) :
    ∃ pc ∈ (firstAt V c t h0).1, y ∈ pc.1.set := View.cover_of_tiledL (firstAt V c t h0).1 S48x256.size (by sl_kernel_rfl) y
theorem coverFeatFirst (c : Dev nD) (t : Fin cfg3.N) (h0 : t.val % 8 = 0) (y : S48x6272.Idx) :
    ∃ pc ∈ (firstAt V c t h0).2.1, y ∈ pc.1.set := View.cover_of_tiledL (firstAt V c t h0).2.1 S48x6272.size (by sl_kernel_rfl) y
theorem coverAccFirst (c : Dev nD) (t : Fin cfg3.N) (h0 : t.val % 8 = 0) (y : S48x512.Idx) :
    ∃ pc ∈ (firstAt V c t h0).2.2.1, y ∈ pc.1.set := View.cover_of_tiledL (firstAt V c t h0).2.2.1 S48x512.size (by sl_kernel_rfl) y
theorem coverHidLater (c : Dev nD) (t : Fin cfg3.N) (h0 : ¬ t.val % 8 = 0) (h7 : ¬ t.val % 8 = 7) (xsF : Vec F S48x6272 .bf16) (xsA : Vec F S48x512 .f32) (y : S48x256.Idx) :
    ∃ pc ∈ (laterAt V c t h0 h7 xsF xsA).1, y ∈ pc.1.set := View.cover_of_tiledL (laterAt V c t h0 h7 xsF xsA).1 S48x256.size (by sl_kernel_rfl) y
theorem coverAccLater (c : Dev nD) (t : Fin cfg3.N) (h0 : ¬ t.val % 8 = 0) (h7 : ¬ t.val % 8 = 7) (xsF : Vec F S48x6272 .bf16) (xsA : Vec F S48x512 .f32) (y : S48x512.Idx) :
    ∃ pc ∈ (laterAt V c t h0 h7 xsF xsA).2.1, y ∈ pc.1.set := View.cover_of_tiledL (laterAt V c t h0 h7 xsF xsA).2.1 S48x512.size (by sl_kernel_rfl) y
theorem coverHidLast (c : Dev nD) (t : Fin cfg3.N) (h7 : t.val % 8 = 7) (xsF : Vec F S48x6272 .bf16) (xsA : Vec F S48x512 .f32) (y : S48x256.Idx) :
    ∃ pc ∈ (lastAt V c t h7 xsF xsA).1, y ∈ pc.1.set := View.cover_of_tiledL (lastAt V c t h7 xsF xsA).1 S48x256.size (by sl_kernel_rfl) y
theorem coverLogitLast (c : Dev nD) (t : Fin cfg3.N) (h7 : t.val % 8 = 7) (xsF : Vec F S48x6272 .bf16) (xsA : Vec F S48x512 .f32) (y : S48x128.Idx) :
    ∃ pc ∈ (lastAt V c t h7 xsF xsA).2.1, y ∈ pc.1.set := View.cover_of_tiledL (lastAt V c t h7 xsF xsA).2.1 S48x128.size (by sl_kernel_rfl) y
theorem coverAccLast (c : Dev nD) (t : Fin cfg3.N) (h7 : t.val % 8 = 7) (xsF : Vec F S48x6272 .bf16) (xsA : Vec F S48x512 .f32) (y : S48x512.Idx) :
    ∃ pc ∈ (lastAt V c t h7 xsF xsA).2.2.1, y ∈ pc.1.set := View.cover_of_tiledL (lastAt V c t h7 xsF xsA).2.2.1 S48x512.size (by sl_kernel_rfl) y

/-! ## What the four buffers hold after each point -/

/-- After a head's first block: hidden window, logits window (nothing stored: a placeholder nobody reads), feature
    scratch, accumulator scratch. -/
def firstVals (c : Dev nD) (t : Fin cfg3.N) (h0 : t.val % 8 = 0) : Vec F S48x256 .f32 × Vec F S48x128 .f32 × Vec F S48x6272 .bf16 × Vec F S48x512 .f32 :=
  (rdHid (firstAt V c t h0).1, rdLogit [], rdFeat (firstAt V c t h0).2.1, rdAcc (firstAt V c t h0).2.2.1)
/-- After a later block that is not the last, from what the point before left in the two scratches. -/
def laterVals (c : Dev nD) (t : Fin cfg3.N) (h0 : ¬ t.val % 8 = 0) (h7 : ¬ t.val % 8 = 7) (xsF : Vec F S48x6272 .bf16) (xsA : Vec F S48x512 .f32) : Vec F S48x256 .f32 × Vec F S48x128 .f32 × Vec F S48x6272 .bf16 × Vec F S48x512 .f32 :=
  (rdHid (laterAt V c t h0 h7 xsF xsA).1, rdLogit [], xsF, rdAcc (laterAt V c t h0 h7 xsF xsA).2.1)
/-- After a head's last block. -/
def lastVals (c : Dev nD) (t : Fin cfg3.N) (h7 : t.val % 8 = 7) (xsF : Vec F S48x6272 .bf16) (xsA : Vec F S48x512 .f32) : Vec F S48x256 .f32 × Vec F S48x128 .f32 × Vec F S48x6272 .bf16 × Vec F S48x512 .f32 :=
  (rdHid (lastAt V c t h7 xsF xsA).1, rdLogit (lastAt V c t h7 xsF xsA).2.1, xsF, rdAcc (lastAt V c t h7 xsF xsA).2.2.1)

/-- The recursion over the points. -/
def outsAt (c : Dev nD) : (n : ℕ) → n < cfg3.N → Vec F S48x256 .f32 × Vec F S48x128 .f32 × Vec F S48x6272 .bf16 × Vec F S48x512 .f32
  | 0, hn => firstVals V c ⟨0, hn⟩ (Nat.zero_mod _)
  | n + 1, hn =>
    if h0 : (n + 1) % 8 = 0 then firstVals V c ⟨n + 1, hn⟩ h0
    else if h7 : (n + 1) % 8 = 7 then
      lastVals V c ⟨n + 1, hn⟩ h7 (outsAt c n (Nat.lt_of_succ_lt hn)).2.2.1 (outsAt c n (Nat.lt_of_succ_lt hn)).2.2.2
    else
      laterVals V c ⟨n + 1, hn⟩ h0 h7 (outsAt c n (Nat.lt_of_succ_lt hn)).2.2.1 (outsAt c n (Nat.lt_of_succ_lt hn)).2.2.2

theorem outsAt_first (c : Dev nD) (t : Fin cfg3.N) (h0 : t.val % 8 = 0) : outsAt V c t.val t.isLt = firstVals V c t h0 := by
  obtain ⟨n, hn⟩ := t
  cases n with
  | zero => exact rfl
  | succ n => exact (dif_pos h0).trans rfl

theorem outsAt_last (c : Dev nD) (t : Fin cfg3.N) (h0 : ¬ t.val % 8 = 0) (h7 : t.val % 8 = 7) :
    outsAt V c t.val t.isLt = lastVals V c t h7 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h7).trans rfl)

theorem outsAt_later (c : Dev nD) (t : Fin cfg3.N) (h0 : ¬ t.val % 8 = 0) (h7 : ¬ t.val % 8 = 7) :
    outsAt V c t.val t.isLt = laterVals V c t h0 h7 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h7).trans rfl)

/-! ## The invariant between points -/

/-- Before the first point the class's invariant (both scratches at anything); before point n + 1 the two scratches at
    what point n left, the other regions' staging buffers and the generator register as they come. -/
def PhiS (c : Dev nD) : (n : ℕ) → n ≤ cfg3.N → sProp 𝕄
  | 0, _ => Pipeline.ΦA spec3 c
  | n + 1, hn => iprop(iprop(owns (c : Thread nD τ) scFeat fullShare (outsAt V c n hn).2.2.1 ∗ owns (c : Thread nD τ) scAcc fullShare (outsAt V c n hn).2.2.2 ∗ others c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scFeat fullShare (outsAt V c n hn).2.2.1 ∗ owns (c : Thread nD τ) scAcc fullShare (outsAt V c n hn).2.2.2 ∗ others c) ∗ (∃ r, prngReg c r)) := rfl

theorem PhiS_pos (c : Dev nD) (n : ℕ) (h : n ≤ cfg3.N) (hz : n ≠ 0) :
    PhiS V c n h = iprop(iprop(owns (c : Thread nD τ) scFeat fullShare (outsAt V c (n - 1) (by omega)).2.2.1 ∗ owns (c : Thread nD τ) scAcc fullShare (outsAt V c (n - 1) (by omega)).2.2.2 ∗ others c) ∗ (∃ r, prngReg c r)) := by
  cases n with
  | zero => exact absurd rfl hz
  | succ n => rfl

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
    | ⟨10, _⟩ => (outsAt V c t.val t.isLt).2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = iblk V c 6 t := by dsimp only [dat]
theorem after7 (c : Dev nD) (t : Fin cfg3.N) : (dat V c).after 7 t = iblk V c 7 t := by dsimp only [dat]
theorem after8 (c : Dev nD) (t : Fin cfg3.N) : (dat V c).after 8 t = iblk V c 8 t := by dsimp only [dat]
theorem after9 (c : Dev nD) (t : Fin cfg3.N) : (dat V c).after 9 t = (outsAt V c t.val t.isLt).1 := by dsimp only [dat]
theorem after10 (c : Dev nD) (t : Fin cfg3.N) : (dat V c).after 10 t = (outsAt V c t.val t.isLt).2.1 := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d
theorem before5 (c : Dev nD) (t : Fin cfg3.N) (d) : (dat V c).before 5 t d = iblk V c 5 t :=
  before5_of V (dat V c) (A_eq V c 5) (after5 V c) t d
theorem before6 (c : Dev nD) (t : Fin cfg3.N) (d) : (dat V c).before 6 t d = iblk V c 6 t :=
  before6_of V (dat V c) (A_eq V c 6) (after6 V c) t d
theorem before7 (c : Dev nD) (t : Fin cfg3.N) (d) : (dat V c).before 7 t d = iblk V c 7 t :=
  before7_of V (dat V c) (A_eq V c 7) (after7 V c) t d
theorem before8 (c : Dev nD) (t : Fin cfg3.N) (d) : (dat V c).before 8 t d = iblk V c 8 t :=
  before8_of V (dat V c) (A_eq V c 8) (after8 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 8000000 in
/-- The body at any point: the inputs' buffers hold their blocks; the block number says which run applies; the invariant
    hands the run the two scratches (at anything before the very first point, at what the point before left afterwards)
    and takes them back at this point's contents. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6, before7, before8]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg3.N = 16 from N_3)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  rw [show (dat V c).leavesExact 6 t = owns (c : Thread nD τ) (ms6 t) fullShare ((dat V c).after 6 t) from by
    unfold Dat.leavesExact; rw [live6 t], after6]
  rw [show (dat V c).leavesExact 7 t = owns (c : Thread nD τ) (ms7 t) fullShare ((dat V c).after 7 t) from by
    unfold Dat.leavesExact; rw [live7 t], after7]
  rw [show (dat V c).leavesExact 8 t = owns (c : Thread nD τ) (ms8 t) fullShare ((dat V c).after 8 t) from by
    unfold Dat.leavesExact; rw [live8 t], after8]
  rw [show (dat V c).leavesExact 9 t = owns (c : Thread nD τ) (ms9 t) fullShare ((dat V c).after 9 t) from by
    unfold Dat.leavesExact; rw [live9 t], after9]
  by_cases h0 : t.val % 8 = 0
  · have hnl : ¬ condLast (grid3.coords t) := fun hl => by have h := (hcondLast t).mp hl; omega
    rw [Dat.leavesExact_idle (dat V c) 10 t (idle10 t hnl) (noFlush10 t hnl)]
    rw [outsAt_first V c t h0]
    unfold firstVals rdHid rdFeat rdAcc; (try dsimp only)
    by_cases hz : t.val = 0
    · rw [PhiS_castSucc V c t, PhiS_zero V c _ _ hz, PhiA_eq]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexact HF
      isplitl [HA]; · iexact HA
      iintro ⟨H0, H1, H2, H3, H4, H5, H6, H7, H8, ⟨%e9, H9⟩, H10, ⟨%eF, HF⟩, ⟨%eA, HA⟩⟩
      isplitl [HF HA HO Hg]
      · isplitl [HF HA HO]
        · isplitl [HF]
          · unfold owns; iexists _; isplitr
            swap; · iexact HF
            ipureintro; exact View.read_writes_of_cover _ _ _ _ _ (coverFeatFirst V c t h0)
          isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
    · rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexists _; iexact HF
      isplitl [HA]; · iexists _; iexact HA
      iintro ⟨H0, H1, H2, H3, H4, H5, H6, H7, H8, ⟨%e9, H9⟩, H10, ⟨%eF, HF⟩, ⟨%eA, HA⟩⟩
      isplitl [HF HA HO Hg]
      · isplitl [HF HA HO]
        · isplitl [HF]
          · unfold owns; iexists _; isplitr
            swap; · iexact HF
            ipureintro; exact View.read_writes_of_cover _ _ _ _ _ (coverFeatFirst V c t h0)
          isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
  · have hz : t.val ≠ 0 := fun h => h0 (by rw [h])
    by_cases h7 : t.val % 8 = 7
    · rw [show (dat V c).leavesExact 10 t = owns (c : Thread nD τ) (ms10 t) fullShare ((dat V c).after 10 t) from by
        unfold Dat.leavesExact; rw [live10 t ((hcondLast t).mpr h7)], after10]
      rw [outsAt_last V c t h0 h7]
      unfold lastVals rdHid rdLogit rdAcc; (try dsimp only)
      rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t h7 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HF]; · iexact HF
      isplitl [HA]; · iexact HA
      iintro ⟨H0, H1, H2, H3, H4, H5, H6, H7, H8, ⟨%e9, H9⟩, ⟨%e10, H10⟩, HF, ⟨%eA, HA⟩⟩
      isplitl [HF HA HO Hg]
      · isplitl [HF HA HO]
        · isplitl [HF]
          · iexact HF
          isplitl [HA]
          · unfold owns; iexists _; isplitr
            swap; · iexact HA
            ipureintro; exact View.read_writes_of_cover _ _ _ _ _ (coverAccLast V c t h7 _ _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidLast V c t h7 _ _)
      unfold owns; iexists _; isplitr
      swap; · iexact H10
      ipureintro; exact View.read_writes_of_cover _ _ _ _ _ (coverLogitLast V c t h7 _ _)
    · have hnl : ¬ condLast (grid3.coords t) := fun hl => h7 ((hcondLast t).mp hl)
      rw [Dat.leavesExact_idle (dat V c) 10 t (idle10 t hnl) (noFlush10 t hnl)]
      rw [outsAt_later V c t h0 h7]
      unfold laterVals rdHid rdAcc; (try dsimp only)
      rw [PhiS_castSucc V c t, PhiS_pos V c _ _ hz]
      iintro ⟨⟨⟨HF, HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((laterAt V c t h0 h7 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HF]; · iexact HF
      isplitl [HA]; · iexact HA
      iintro ⟨H0, H1, H2, H3, H4, H5, H6, H7, H8, ⟨%e9, H9⟩, H10, HF, ⟨%eA, HA⟩⟩
      isplitl [HF HA HO Hg]
      · isplitl [HF HA HO]
        · isplitl [HF]
          · iexact HF
          isplitl [HA]
          · unfold owns; iexists _; isplitr
            swap; · iexact HA
            ipureintro; exact View.read_writes_of_cover _ _ _ _ _ (coverAccLater V c t h0 h7 _ _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidLater V c t h0 h7 _ _)
      iexists _; iexact H10

theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratches' named contents are forgotten. -/
theorem hout (c : Dev nD) : (dat V c).Φ (Fin.last cfg3.N) ⊢ Pipeline.ΦA spec3 c := by
  have ht : (Fin.last cfg3.N).val ≠ 0 := by rw [Fin.val_last]; have : cfg3.N = 16 := N_3; omega
  rw [show (dat V c).Φ (Fin.last cfg3.N) = PhiS V c (Fin.last cfg3.N).val (Nat.le_of_lt_succ (Fin.last cfg3.N).isLt) from rfl, PhiS_pos V c _ _ ht, PhiA_eq]
  iintro ⟨⟨HF, HA, HO⟩, Hg⟩
  isplitl [HF HA HO]
  · isplitl [HF]; · iexists _; iexact HF
    isplitl [HA]; · iexists _; iexact HA
    iexact HO
  iexact Hg

end Cert.KernelIdeal.Classifier

end
-- ==== Proof.KIWhole.lean ====
import proofs.«146356_g2000405529851509_pallasbulk_1335_10_alg».proof.Proof.KIFirstConv
import proofs.«146356_g2000405529851509_pallasbulk_1335_10_alg».proof.Proof.KISecondConv
import proofs.«146356_g2000405529851509_pallasbulk_1335_10_alg».proof.Proof.KIThirdConv
import proofs.«146356_g2000405529851509_pallasbulk_1335_10_alg».proof.Proof.KIClassifier
import proofs.«146356_g2000405529851509_pallasbulk_1335_10_alg».proof.Proof.LibRegionRecord
import proofs.«146356_g2000405529851509_pallasbulk_1335_10_alg».proof.Proof.Gen.KernelIdeal.Regions

/-!
# The idealized kernel runs to its end and leaves its arguments as they were

The program is five stretches of host operations, the first convolution's region, five more stretches, the second
convolution's region, five more, the third convolution's region, the classifier's region, and a last stretch that
slices the four results out. Between two items every unscoped buffer of a core is held whole at a valuation: the launch
contents, then each host stretch applied, then, at a region's result, what that region's write-backs leave. Each region
is entered at the valuation before it and left at the one after it; no item writes an argument.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c (Proc.devRef .tc b)

/-! ## What each region leaves, one after the other -/

/-- After the first convolution: its arrays at what its write-backs leave, every other buffer as entered. -/
def X0 (c : Dev nD) : Valuation τ sig (Elt F) :=
  Pipeline.withArrays spec0 c (V5 m c) fun w => (FirstConv.dat (atTc (V5 m)) c).arrAt w cfg0.N
/-- The regions' results so far: the first convolution's. -/
def O1 : Outs (F := F) := fun _ r c => X0 m c (Proc.devRef .tc r)

def X1 (c : Dev nD) : Valuation τ sig (Elt F) :=
  Pipeline.withArrays spec1 c (V11 m (O1 m) c) fun w => (SecondConv.dat (atTc (V11 m (O1 m))) c).arrAt w cfg1.N
def O2 : Outs (F := F) := fun J r c => match J with
  | 6 => X0 m c (Proc.devRef .tc r)
  | _ => X1 m c (Proc.devRef .tc r)

def X2 (c : Dev nD) : Valuation τ sig (Elt F) :=
  Pipeline.withArrays spec2 c (V17 m (O2 m) c) fun w => (ThirdConv.dat (atTc (V17 m (O2 m))) c).arrAt w cfg2.N
def O3 : Outs (F := F) := fun J r c => match J with
  | 6 => X0 m c (Proc.devRef .tc r)
  | 12 => X1 m c (Proc.devRef .tc r)
  | _ => X2 m c (Proc.devRef .tc r)

def X3 (c : Dev nD) : Valuation τ sig (Elt F) :=
  Pipeline.withArrays spec3 c (V18 m (O3 m) c) fun w => (Classifier.dat (atTc (V18 m (O3 m))) c).arrAt w cfg3.N
/-- What all four regions leave. -/
def outs : Outs (F := F) := fun J r c => match J with
  | 6 => X0 m c (Proc.devRef .tc r)
  | 12 => X1 m c (Proc.devRef .tc r)
  | 18 => X2 m c (Proc.devRef .tc r)
  | _ => X3 m c (Proc.devRef .tc r)

/-- The valuations before the later regions read only the earlier regions' results. -/
theorem V11_outs (c : Dev nD) : V11 m (outs m) c = V11 m (O1 m) c := rfl
theorem V17_outs (c : Dev nD) : V17 m (outs m) c = V17 m (O2 m) c := rfl
theorem V18_outs (c : Dev nD) : V18 m (outs m) c = V18 m (O3 m) c := rfl

/-! ## The proof data family -/

def pdats : (p : Fin 4) → (c : Dev nD) → Dat τ (Elt F) Unit ℕ (UR sig nD τ) ℕ (cfgs p) c
  | ⟨0, _⟩ => fun c => FirstConv.dat (atTc (V5 m)) c
  | ⟨1, _⟩ => fun c => SecondConv.dat (atTc (V11 m (O1 m))) c
  | ⟨2, _⟩ => fun c => ThirdConv.dat (atTc (V17 m (O2 m))) c
  | ⟨3, _⟩ => fun c => Classifier.dat (atTc (V18 m (O3 m))) c

/-! ## What rides beside the buffers, and the facts every record shares -/

/-- No region of this program reads a prefetched table. -/
theorem noTables (p : Fin 4) (c : Dev nD) :
    (Pipeline.prefHeld (Ix := Unit) (Name := ℕ) (U := UR sig nD τ) (Lvl := ℕ) (pcfgs (F := F) p).pre c (fun _ => fullShare) (adm (F := F) p).1 : sProp 𝕄) = BI.emp := by
  fin_cases p <;> (unfold Pipeline.prefHeld; rw [show (Finset.univ : Finset (Fin 0)) = ∅ from rfl, BI.bigSep_empty])

/-! ## The first convolution's region -/

/-- An input window's array is left as it was entered. -/
theorem hF0_in (c : Dev nD) (w : Fin cfg0.W) (hin : (cfg0.win w).isOut = false) (hne : Pipeline.arrRef spec0 w ∉ ([main_v38] : List (Ref sig .tc))) :
    (pdats m 0 c).arrAt w cfg0.N = V6 m (outs m) c (Proc.devRef .tc (Pipeline.arrRef spec0 w)) :=
  ((pdats m 0 c).arrAt_in w hin _).trans ((FirstConv.A_eq (atTc (V5 m)) c w).trans (V6_of m (outs m) c (Pipeline.arrRef spec0 w) hne).symm)

theorem hF0 (c : Dev nD) : ∀ w : Fin cfg0.W,
    (pdats m 0 c).arrAt w cfg0.N = V6 m (outs m) c (Proc.devRef .tc (Pipeline.arrRef spec0 w))
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => by
    have h1 := Pipeline.withArrays_arr spec0 launch0.win.arr_inj c (V5 m c) (fun w => (FirstConv.dat (atTc (V5 m)) c).arrAt w cfg0.N) 4
    show _ = V6 m (outs m) c (Proc.devRef .tc main_v38)
    simp only [V6, Function.update_self]
    exact h1.symm

theorem hrest0 (c : Dev nD) (b : Ref sig .tc) (hb : b ∉ Finset.univ.image (Pipeline.arrRef spec0)) :
    V6 m (outs m) c (Proc.devRef .tc b) = V5 m c (Proc.devRef .tc b) :=
  V6_of m (outs m) c b (fun h => hb (by
    rw [List.mem_singleton] at h; subst h
    exact Finset.mem_image.mpr ⟨4, Finset.mem_univ _, rfl⟩))

theorem hin0 (c : Dev nD) : iprop(Pipeline.ΦA (U := UR sig nD τ) spec0 c ∗ (BI.emp : sProp 𝕄)) ⊢ (pdats m 0 c).Φ 0 := by
  rw [show (pdats m 0 c).Φ 0 = Pipeline.ΦA spec0 c from rfl]
  iintro ⟨H, -⟩; iexact H

theorem hout0 (c : Dev nD) : (pdats m 0 c).Φ (Fin.last _) ⊢ iprop(Pipeline.ΦA (U := UR sig nD τ) spec0 c ∗ (BI.emp : sProp 𝕄)) := by
  rw [show (pdats m 0 c).Φ (Fin.last _) = Pipeline.ΦA spec0 c from rfl]
  iintro H; isplitl [H]; · iexact H
  iempintro

set_option backward.isDefEq.respectTransparency.types false in
def R0 : RegionSeg (pcfgs (F := F)) adm (pdats m) () defs₀ Variants.none (fun _ => ∅) (fun _ _ => 0) 0 :=
  RegionRecord.regionSeg (pcfgs (F := F)) adm (pdats m) 0 launch0.toP defs₀ Variants.none
    (fun c => V5 m c) (fun c => V6 m (outs m) c)
    (fun c => (FirstConv.body_obligation (atTc (V5 m)) c).loose)
    (fun c => (pdats m 0 c).share_full fun _ => rfl) (fun _ _ => rfl) (fun _ => rfl)
    (fun _ _ => rfl) (fun _ k => k.elim0) (hF0 m) (hrest0 m)
    (fun c => by rw [noTables]; exact hin0 m c)
    (fun c => by rw [noTables]; exact hout0 m c)

/-! ## The second convolution's region -/

/-- An input window's array is left as it was entered. -/
theorem hF1_in (c : Dev nD) (w : Fin cfg1.W) (hin : (cfg1.win w).isOut = false) (hne : Pipeline.arrRef spec1 w ∉ ([main_v57] : List (Ref sig .tc))) :
    (pdats m 1 c).arrAt w cfg1.N = V12 m (outs m) c (Proc.devRef .tc (Pipeline.arrRef spec1 w)) :=
  ((pdats m 1 c).arrAt_in w hin _).trans ((SecondConv.A_eq (atTc (V11 m (O1 m))) c w).trans (V12_of m (outs m) c (Pipeline.arrRef spec1 w) hne).symm)

theorem hF1 (c : Dev nD) : ∀ w : Fin cfg1.W,
    (pdats m 1 c).arrAt w cfg1.N = V12 m (outs m) c (Proc.devRef .tc (Pipeline.arrRef spec1 w))
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => by
    have h1 := Pipeline.withArrays_arr spec1 launch1.win.arr_inj c (V11 m (O1 m) c) (fun w => (SecondConv.dat (atTc (V11 m (O1 m))) c).arrAt w cfg1.N) 4
    show _ = V12 m (outs m) c (Proc.devRef .tc main_v57)
    simp only [V12, Function.update_self]
    exact h1.symm

theorem hrest1 (c : Dev nD) (b : Ref sig .tc) (hb : b ∉ Finset.univ.image (Pipeline.arrRef spec1)) :
    V12 m (outs m) c (Proc.devRef .tc b) = V11 m (outs m) c (Proc.devRef .tc b) :=
  V12_of m (outs m) c b (fun h => hb (by
    rw [List.mem_singleton] at h; subst h
    exact Finset.mem_image.mpr ⟨4, Finset.mem_univ _, rfl⟩))

theorem hin1 (c : Dev nD) : iprop(Pipeline.ΦA (U := UR sig nD τ) spec1 c ∗ (BI.emp : sProp 𝕄)) ⊢ (pdats m 1 c).Φ 0 := by
  rw [show (pdats m 1 c).Φ 0 = Pipeline.ΦA spec1 c from rfl]
  iintro ⟨H, -⟩; iexact H

theorem hout1 (c : Dev nD) : (pdats m 1 c).Φ (Fin.last _) ⊢ iprop(Pipeline.ΦA (U := UR sig nD τ) spec1 c ∗ (BI.emp : sProp 𝕄)) := by
  rw [show (pdats m 1 c).Φ (Fin.last _) = Pipeline.ΦA spec1 c from rfl]
  iintro H; isplitl [H]; · iexact H
  iempintro

set_option backward.isDefEq.respectTransparency.types false in
def R1 : RegionSeg (pcfgs (F := F)) adm (pdats m) () defs₀ Variants.none (fun _ => ∅) (fun _ _ => 0) 1 :=
  RegionRecord.regionSeg (pcfgs (F := F)) adm (pdats m) 1 launch1.toP defs₀ Variants.none
    (fun c => V11 m (outs m) c) (fun c => V12 m (outs m) c)
    (fun c => (SecondConv.body_obligation (atTc (V11 m (O1 m))) c).loose)
    (fun c => (pdats m 1 c).share_full fun _ => rfl) (fun _ _ => rfl) (fun _ => rfl)
    (fun _ _ => rfl) (fun _ k => k.elim0) (hF1 m) (hrest1 m)
    (fun c => by rw [noTables]; exact hin1 m c)
    (fun c => by rw [noTables]; exact hout1 m c)

/-! ## The third convolution's region -/

/-- An input window's array is left as it was entered. -/
theorem hF2_in (c : Dev nD) (w : Fin cfg2.W) (hin : (cfg2.win w).isOut = false) (hne : Pipeline.arrRef spec2 w ∉ ([main_v73] : List (Ref sig .tc))) :
    (pdats m 2 c).arrAt w cfg2.N = V18 m (outs m) c (Proc.devRef .tc (Pipeline.arrRef spec2 w)) :=
  ((pdats m 2 c).arrAt_in w hin _).trans ((ThirdConv.A_eq (atTc (V17 m (O2 m))) c w).trans (V18_of m (outs m) c (Pipeline.arrRef spec2 w) hne).symm)

theorem hF2 (c : Dev nD) : ∀ w : Fin cfg2.W,
    (pdats m 2 c).arrAt w cfg2.N = V18 m (outs m) c (Proc.devRef .tc (Pipeline.arrRef spec2 w))
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => by
    have h1 := Pipeline.withArrays_arr spec2 launch2.win.arr_inj c (V17 m (O2 m) c) (fun w => (ThirdConv.dat (atTc (V17 m (O2 m))) c).arrAt w cfg2.N) 4
    show _ = V18 m (outs m) c (Proc.devRef .tc main_v73)
    simp only [V18, Function.update_self]
    exact h1.symm

theorem hrest2 (c : Dev nD) (b : Ref sig .tc) (hb : b ∉ Finset.univ.image (Pipeline.arrRef spec2)) :
    V18 m (outs m) c (Proc.devRef .tc b) = V17 m (outs m) c (Proc.devRef .tc b) :=
  V18_of m (outs m) c b (fun h => hb (by
    rw [List.mem_singleton] at h; subst h
    exact Finset.mem_image.mpr ⟨4, Finset.mem_univ _, rfl⟩))

theorem hin2 (c : Dev nD) : iprop(Pipeline.ΦA (U := UR sig nD τ) spec2 c ∗ (BI.emp : sProp 𝕄)) ⊢ (pdats m 2 c).Φ 0 := by
  rw [show (pdats m 2 c).Φ 0 = Pipeline.ΦA spec2 c from rfl]
  iintro ⟨H, -⟩; iexact H

theorem hout2 (c : Dev nD) : (pdats m 2 c).Φ (Fin.last _) ⊢ iprop(Pipeline.ΦA (U := UR sig nD τ) spec2 c ∗ (BI.emp : sProp 𝕄)) := by
  rw [show (pdats m 2 c).Φ (Fin.last _) = Pipeline.ΦA spec2 c from rfl]
  iintro H; isplitl [H]; · iexact H
  iempintro

set_option backward.isDefEq.respectTransparency.types false in
def R2 : RegionSeg (pcfgs (F := F)) adm (pdats m) () defs₀ Variants.none (fun _ => ∅) (fun _ _ => 0) 2 :=
  RegionRecord.regionSeg (pcfgs (F := F)) adm (pdats m) 2 launch2.toP defs₀ Variants.none
    (fun c => V17 m (outs m) c) (fun c => V18 m (outs m) c)
    (fun c => (ThirdConv.body_obligation (atTc (V17 m (O2 m))) c).loose)
    (fun c => (pdats m 2 c).share_full fun _ => rfl) (fun _ _ => rfl) (fun _ => rfl)
    (fun _ _ => rfl) (fun _ k => k.elim0) (hF2 m) (hrest2 m)
    (fun c => by rw [noTables]; exact hin2 m c)
    (fun c => by rw [noTables]; exact hout2 m c)

/-! ## The classifier's region -/

theorem hF3_in (c : Dev nD) (w : Fin cfg3.W) (hin : (cfg3.win w).isOut = false) (hne : Pipeline.arrRef spec3 w ∉ ([main_v74_0, main_v74_1] : List (Ref sig .tc))) :
    (pdats m 3 c).arrAt w cfg3.N = V19 m (outs m) c (Proc.devRef .tc (Pipeline.arrRef spec3 w)) :=
  ((pdats m 3 c).arrAt_in w hin _).trans ((Classifier.A_eq (atTc (V18 m (O3 m))) c w).trans (V19_of m (outs m) c (Pipeline.arrRef spec3 w) hne).symm)

set_option maxHeartbeats 2000000 in
theorem hF3 (c : Dev nD) : ∀ w : Fin cfg3.W,
    (pdats m 3 c).arrAt w cfg3.N = V19 m (outs m) c (Proc.devRef .tc (Pipeline.arrRef spec3 w))
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => hF3_in m c 5 rfl (by decide)
  | ⟨6, _⟩ => hF3_in m c 6 rfl (by decide)
  | ⟨7, _⟩ => hF3_in m c 7 rfl (by decide)
  | ⟨8, _⟩ => hF3_in m c 8 rfl (by decide)
  | ⟨9, _⟩ => by
    have h1 := Pipeline.withArrays_arr spec3 launch3.win.arr_inj c (V18 m (O3 m) c) (fun w => (Classifier.dat (atTc (V18 m (O3 m))) c).arrAt w cfg3.N) 9
    show _ = V19 m (outs m) c (Proc.devRef .tc main_v74_0)
    simp only [V19, Function.update_of_ne (StableHlo.devRef_ne_of_ne (by decide) : (Proc.devRef .tc main_v74_0 : DevRef τ sig) ≠ Proc.devRef .tc main_v74_1), Function.update_self]
    exact h1.symm
  | ⟨10, _⟩ => by
    have h1 := Pipeline.withArrays_arr spec3 launch3.win.arr_inj c (V18 m (O3 m) c) (fun w => (Classifier.dat (atTc (V18 m (O3 m))) c).arrAt w cfg3.N) 10
    show _ = V19 m (outs m) c (Proc.devRef .tc main_v74_1)
    simp only [V19, Function.update_self]
    exact h1.symm

theorem hrest3 (c : Dev nD) (b : Ref sig .tc) (hb : b ∉ Finset.univ.image (Pipeline.arrRef spec3)) :
    V19 m (outs m) c (Proc.devRef .tc b) = V18 m (outs m) c (Proc.devRef .tc b) :=
  V19_of m (outs m) c b (fun h => hb (by
    rcases List.mem_cons.mp h with h | h
    · subst h; exact Finset.mem_image.mpr ⟨9, Finset.mem_univ _, rfl⟩
    · rw [List.mem_singleton] at h; subst h; exact Finset.mem_image.mpr ⟨10, Finset.mem_univ _, rfl⟩))

theorem hin3 (c : Dev nD) : iprop(Pipeline.ΦA (U := UR sig nD τ) spec3 c ∗ (BI.emp : sProp 𝕄)) ⊢ (pdats m 3 c).Φ 0 := by
  rw [show (pdats m 3 c).Φ 0 = (Classifier.dat (atTc (V18 m (O3 m))) c).Φ 0 from rfl]
  iintro ⟨H, -⟩
  iapply (Classifier.hin (atTc (V18 m (O3 m))) c)
  iexact H

theorem hout3 (c : Dev nD) : (pdats m 3 c).Φ (Fin.last _) ⊢ iprop(Pipeline.ΦA (U := UR sig nD τ) spec3 c ∗ (BI.emp : sProp 𝕄)) := by
  rw [show (pdats m 3 c).Φ (Fin.last _) = (Classifier.dat (atTc (V18 m (O3 m))) c).Φ (Fin.last cfg3.N) from rfl]
  iintro H; isplitl [H]
  · iapply (Classifier.hout (atTc (V18 m (O3 m))) c); iexact H
  iempintro

set_option backward.isDefEq.respectTransparency.types false in
def R3 : RegionSeg (pcfgs (F := F)) adm (pdats m) () defs₀ Variants.none (fun _ => ∅) (fun _ _ => 0) 3 :=
  RegionRecord.regionSeg (pcfgs (F := F)) adm (pdats m) 3 launch3.toP defs₀ Variants.none
    (fun c => V18 m (outs m) c) (fun c => V19 m (outs m) c)
    (fun c => (Classifier.body_obligation (atTc (V18 m (O3 m))) c).loose)
    (fun c => (pdats m 3 c).share_full fun _ => rfl) (fun _ _ => rfl) (fun _ => rfl)
    (fun _ _ => rfl) (fun _ k => k.elim0) (hF3 m) (hrest3 m)
    (fun c => by rw [noTables]; exact hin3 m c)
    (fun c => by rw [noTables]; exact hout3 m c)

/-! ## The whole run -/

/-- What rides beside the buffers on core c at every boundary: the generator register at some state, nothing owed. -/
abbrev beside (c : Dev nD) : sProp 𝕄 := RegionRecord.rider (U := UR sig nD τ) (Val := Elt F) c

/-- At the launch a core holds its generator register and owes nothing: what rides beside the buffers. -/
theorem launchBeside (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c) : sProp 𝕄) ⊢ beside c := by
  iintro ⟨-, HO, -, Hp, -⟩
  isplitl [Hp]; · iexists _; iexact Hp
  iexists ∅; iexact HO

set_option backward.isDefEq.respectTransparency.types false in
/-- Every weakly fair execution of the program from memory m with zero counters terminates, nothing faulting, and every
    final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (F := F) m emb₁ () Variants.none (fun _ => ∅) (fun _ _ => 0) (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => beside c)
    (by
      have hmono : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) : sProp 𝕄)
          ⊢ bigSep Finset.univ (fun c : Dev nD => (beside c : sProp 𝕄)) := bigSep_mono fun c _ => launchBeside ρ c
      iintro ⟨H, -⟩
      imodintro
      iapply hmono
      iexact H)
    (fun c => by iintro ⟨-, H⟩; iexact H)
    (R0 m) (fun c => .rfl) (fun c => .rfl)
    (R1 m) (fun c => .rfl) (fun c => .rfl)
    (R2 m) (fun c => .rfl) (fun c => .rfl)
    (R3 m) (fun c => .rfl) (fun c => .rfl)

end Cert.KernelIdeal.Whole

end
-- ==== Proof.RIFirstMatmul.lean ====
import proofs.«146356_g2000405529851509_pallasbulk_1335_10_alg».proof.Proof.Gen.ReferenceIdeal.Launch
import proofs.«146356_g2000405529851509_pallasbulk_1335_10_alg».proof.Proof.Gen.ReferenceIdeal.Skeleton
import proofs.«146356_g2000405529851509_pallasbulk_1335_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference's first convolution as a matrix product, one kernel region

Each of the two grid points takes half of the patch rows (18816 rows of 128 taps), multiplies them by the whole
128 × 128 filter matrix, scales and shifts each channel and clamps below at zero, and stores the 18816 × 128 block.
This file states what the body leaves in the output window's buffer as a function of the four input blocks, runs the
body once on arbitrary whole buffers, and packages the region's proof data and its body obligation at an arbitrary
entry state of the buffers.
-/

set_option maxRecDepth 16384

noncomputable section

namespace Cert.ReferenceIdeal.FirstMatmul

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S18816x128 := Rect.unit (s := S18816x128) ![0, 0] S18816x128.size inb_S18816x128_S18816x128_0_0
abbrev rIn1 : Rect S128x128 := Rect.unit (s := S128x128) ![0, 0] S128x128.size inb_S128x128_S128x128_0_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rOut : Rect S18816x128 := Rect.unit (s := S18816x128) ![0, 0] S18816x128.size inb_S18816x128_S18816x128_0_0

/-- What the body leaves in the output window's buffer, from the input blocks: its one store, of the whole block. -/
def outBlock (x0 : Vec F S18816x128 .bf16) (x1 : Vec F S128x128 .bf16) (x2 : Vec F S1x128 .f32) (x3 : Vec F S1x128 .f32) : Vec F S18816x128 .f32 :=
  View.canon [⟨rOut, k0_pay1 (View.ld x0 rIn0) (View.ld x1 rIn1) (View.ld x2 rIn2) (View.ld x3 rIn3)⟩]

/-- The one store covers the block. -/
theorem cover_out (p0 : Vec F S18816x128 .f32) (y : S18816x128.Idx) :
    ∃ pc ∈ ([⟨rOut, p0⟩] : List (View.Piece (Elt F) S18816x128 .f32)), y ∈ pc.1.set :=
  View.cover_of_tiled [⟨rOut, p0⟩] S18816x128.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid0.Coords) (arg1 : Memref sig .tc .vmem S18816x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S18816x128 .f32) (harg5 : arg5.IsWhole)
    (x0 : Vec F S18816x128 .bf16) (x1 : Vec F S128x128 .bf16) (x2 : Vec F S1x128 .f32) (x3 : Vec F S1x128 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc0__fused_matmul_kernel i arg1 harg1 arg2 harg2 arg3 harg3 arg4 harg4 arg5 harg5) Kont := by
  simp only [cc0__fused_matmul_kernel_eq_skeleton]; unfold cc0__fused_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outBlock (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so `sound_kernel` applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.ReferenceIdeal.FirstMatmul

end
-- ==== Proof.RISecondMatmul.lean ====
import proofs.«146356_g2000405529851509_pallasbulk_1335_10_alg».proof.Proof.Gen.ReferenceIdeal.Launch
import proofs.«146356_g2000405529851509_pallasbulk_1335_10_alg».proof.Proof.Gen.ReferenceIdeal.Skeleton
import proofs.«146356_g2000405529851509_pallasbulk_1335_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference's second convolution as a matrix product, one kernel region

Each of the two grid points takes half of the patch rows (4704 rows of 1600 taps), multiplies them by the whole
1600 × 128 filter matrix, scales and shifts each channel and clamps below at zero, and stores the 4704 × 128 block.
This file states what the body leaves in the output window's buffer as a function of the four input blocks, runs the
body once on arbitrary whole buffers, and packages the region's proof data and its body obligation at an arbitrary
entry state of the buffers.
-/

set_option maxRecDepth 16384

noncomputable section

namespace Cert.ReferenceIdeal.SecondMatmul

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S4704x1600 := Rect.unit (s := S4704x1600) ![0, 0] S4704x1600.size inb_S4704x1600_S4704x1600_0_0
abbrev rIn1 : Rect S1600x128 := Rect.unit (s := S1600x128) ![0, 0] S1600x128.size inb_S1600x128_S1600x128_0_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rOut : Rect S4704x128 := Rect.unit (s := S4704x128) ![0, 0] S4704x128.size inb_S4704x128_S4704x128_0_0

/-- What the body leaves in the output window's buffer, from the input blocks: its one store, of the whole block. -/
def outBlock (x0 : Vec F S4704x1600 .bf16) (x1 : Vec F S1600x128 .bf16) (x2 : Vec F S1x128 .f32) (x3 : Vec F S1x128 .f32) : Vec F S4704x128 .f32 :=
  View.canon [⟨rOut, k1_pay1 (View.ld x0 rIn0) (View.ld x1 rIn1) (View.ld x2 rIn2) (View.ld x3 rIn3)⟩]

/-- The one store covers the block. -/
theorem cover_out (p0 : Vec F S4704x128 .f32) (y : S4704x128.Idx) :
    ∃ pc ∈ ([⟨rOut, p0⟩] : List (View.Piece (Elt F) S4704x128 .f32)), y ∈ pc.1.set :=
  View.cover_of_tiled [⟨rOut, p0⟩] S4704x128.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid1.Coords) (arg1 : Memref sig .tc .vmem S4704x1600 .bf16) (harg1 : arg1.IsWhole) (arg2 : Memref sig .tc .vmem S1600x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S4704x128 .f32) (harg5 : arg5.IsWhole)
    (x0 : Vec F S4704x1600 .bf16) (x1 : Vec F S1600x128 .bf16) (x2 : Vec F S1x128 .f32) (x3 : Vec F S1x128 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc1__fused_matmul_kernel i arg1 harg1 arg2 harg2 arg3 harg3 arg4 harg4 arg5 harg5) Kont := by
  simp only [cc1__fused_matmul_kernel_eq_skeleton]; unfold cc1__fused_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = outBlock (iblk V c 0 t) (iblk V c 1 t) (iblk V c 2 t) (iblk V c 3 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so `sound_kernel` applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.ReferenceIdeal.SecondMatmul

end
-- ==== Proof.RIThirdMatmul.lean ====
import proofs.«146356_g2000405529851509_pallasbulk_1335_10_alg».proof.Proof.Gen.ReferenceIdeal.Launch
import proofs.«146356_g2000405529851509_pallasbulk_1335_10_alg».proof.Proof.Gen.ReferenceIdeal.Skeleton
import proofs.«146356_g2000405529851509_pallasbulk_1335_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference's third convolution as a matrix product, one kernel region

Each of the two grid points takes half of the patch rows (1184 rows of 1600 taps), multiplies them by the whole
1600 × 128 filter matrix, scales and shifts each channel and clamps below at zero, and stores the 1184 × 128 block (the whole array's last sixteen rows are zero rows the host appends so that the row count, 2368, is a multiple of 32).
This file states what the body leaves in the output window's buffer as a function of the four input blocks, runs the
body once on arbitrary whole buffers, and packages the region's proof data and its body obligation at an arbitrary
entry state of the buffers.
-/

set_option maxRecDepth 16384

noncomputable section

namespace Cert.ReferenceIdeal.ThirdMatmul

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S1184x1600 := Rect.unit (s := S1184x1600) ![0, 0] S1184x1600.size inb_S1184x1600_S1184x1600_0_0
abbrev rIn1 : Rect S1600x128 := Rect.unit (s := S1600x128) ![0, 0] S1600x128.size inb_S1600x128_S1600x128_0_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rOut : Rect S1184x128 := Rect.unit (s := S1184x128) ![0, 0] S1184x128.size inb_S1184x128_S1184x128_0_0

/-- What the body leaves in the output window's buffer, from the input blocks: its one store, of the whole block. -/
def outBlock (x0 : Vec F S1184x1600 .bf16) (x1 : Vec F S1600x128 .bf16) (x2 : Vec F S1x128 .f32) (x3 : Vec F S1x128 .f32) : Vec F S1184x128 .f32 :=
  View.canon [⟨rOut, k2_pay1 (View.ld x0 rIn0) (View.ld x1 rIn1) (View.ld x2 rIn2) (View.ld x3 rIn3)⟩]

/-- The one store covers the block. -/
theorem cover_out (p0 : Vec F S1184x128 .f32) (y : S1184x128.Idx) :
    ∃ pc ∈ ([⟨rOut, p0⟩] : List (View.Piece (Elt F) S1184x128 .f32)), y ∈ pc.1.set :=
  View.cover_of_tiled [⟨rOut, p0⟩] S1184x128.size (by rfl) y

set_option maxHeartbeats 1000000 in
/-- The body on whole staging buffers, the inputs' at given contents and the output's at anything, runs to its return
    with the inputs' as they were and the output's at `outBlock` of the inputs'. -/
theorem sound_kernel (c : Dev nD) (E : Set ℕ) (i : grid2.Coords) (arg1 : Memref sig .tc .vmem S1184x1600 .bf16) (harg1 : arg1.IsWhole) (arg2 : Memref sig .tc .vmem S1600x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1184x128 .f32) (harg5 : arg5.IsWhole)
    (x0 : Vec F S1184x1600 .bf16) (x1 : Vec F S1600x128 .bf16) (x2 : Vec F S1x128 .f32) (x3 : Vec F S1x128 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 x1 x2 x3)) -∗ Kont ⟨⟩))
      ⊢ wp frame (wpE (defs₀ (F := F)) Variants.none c none) E (cc2__fused_matmul_kernel i arg1 harg1 arg2 harg2 arg3 harg3 arg4 harg4 arg5 harg5) Kont := by
  simp only [cc2__fused_matmul_kernel_eq_skeleton]; unfold cc2__fused_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-- The region's proof data on core c: the arrays as the region finds them; after the body at point t each input's
    buffer at its block and the output's at `outBlock` of the input blocks; the invariant the scoped rest and the
    generator register, untouched; nothing owed; whole shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = outBlock (iblk V c 0 t) (iblk V c 1 t) (iblk V c 2 t) (iblk V c 3 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point: the inputs' buffers hold their blocks, so `sound_kernel` applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W2, bigSep_W2]
  exact sound_body V c t

end Cert.ReferenceIdeal.ThirdMatmul

end
-- ==== Proof.RIClassifierShared.lean ====
import proofs.«146356_g2000405529851509_pallasbulk_1335_10_alg».proof.Proof.Gen.ReferenceIdeal.Launch
import proofs.«146356_g2000405529851509_pallasbulk_1335_10_alg».proof.Proof.Gen.ReferenceIdeal.Skeleton
import proofs.«146356_g2000405529851509_pallasbulk_1335_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference's two-head classifier as one kernel region: what its runs share

The grid is head × column block, eight points, the column block the fast coordinate (point t is head t / 4, block
t % 4). The body branches on the block number alone: at block 0 it first clears the second layer's accumulator; at
every block it computes 512 hidden columns into the hidden window and adds their contribution to the accumulator; at
block 3 it also finishes the head (scale, shift, clamp, third layer) into the logits window. The hidden-layer window is
stored at every point; the logits window only at block 3 and is otherwise left alone. This file fixes the two
conditions in closed form over the grid, where each window is live and where the logits are written back, the names of
the buffers a run is stated over, and the region's invariant before the first point with the scratch buffer split off.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at grid point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The two conditions, over the grid -/

/-- "This is the head's first column block." -/
abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 4 = 0 :=
  (by decide +kernel : ∀ t : Fin grid3.N, condFirst (grid3.coords t) ↔ t.val % 4 = 0)

/-- "This is the head's last column block." -/
abbrev condLast (i : grid3.Coords) : Prop := k3_cond2 i = 1#1
theorem hcondLast : ∀ t : Fin cfg3.N, condLast (grid3.coords t) ↔ t.val % 4 = 3 :=
  (by decide +kernel : ∀ t : Fin grid3.N, condLast (grid3.coords t) ↔ t.val % 4 = 3)

/-! ## Where the windows are live, and where the logits are written back -/

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem live3 : ∀ t : Fin cfg3.N, cfg3.idle 3 (grid3.coords t) = false := by decide +kernel
theorem live4 : ∀ t : Fin cfg3.N, cfg3.idle 4 (grid3.coords t) = false := by decide +kernel
theorem live5 : ∀ t : Fin cfg3.N, cfg3.idle 5 (grid3.coords t) = false := by decide +kernel
theorem live6 : ∀ t : Fin cfg3.N, cfg3.idle 6 (grid3.coords t) = false := by decide +kernel
theorem live7 : ∀ t : Fin cfg3.N, cfg3.idle 7 (grid3.coords t) = false := by decide +kernel
theorem live8 : ∀ t : Fin cfg3.N, cfg3.idle 8 (grid3.coords t) = false := by decide +kernel
theorem live9 : ∀ t : Fin cfg3.N, cfg3.idle 9 (grid3.coords t) = false := by decide +kernel
/-- Away from a head's last block the logits window is idle and is not written back. -/
theorem idle10 : ∀ t : Fin cfg3.N, ¬condLast (grid3.coords t) → cfg3.idle 10 (grid3.coords t) = true := by decide +kernel
theorem noFlush10 : ∀ t : Fin cfg3.N, ¬condLast (grid3.coords t) → (cfg3.win 10).flush t = false := by decide +kernel
theorem live10 : ∀ t : Fin cfg3.N, condLast (grid3.coords t) → cfg3.idle 10 (grid3.coords t) = false := by decide +kernel

/-! ## The buffers a run is stated over -/

abbrev ms0 (t : Fin cfg3.N) : Memref sig .tc .vmem S48x6272 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S6272x512 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x512 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x512 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S512x512 .bf16 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x1x512 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1x512 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S512x128 .bf16 := win3_7.stage (cfg3.slots t 7)
abbrev hs7 (t : Fin cfg3.N) : (ms7 t).IsWhole := hstage3_7 ((cfg3.slots t 7).cast nbuf3_7)
abbrev ms8 (t : Fin cfg3.N) : Memref sig .tc .vmem S1x1x128 .f32 := win3_8.stage (cfg3.slots t 8)
abbrev hs8 (t : Fin cfg3.N) : (ms8 t).IsWhole := hstage3_8 ((cfg3.slots t 8).cast nbuf3_8)
abbrev ms9 (t : Fin cfg3.N) : Memref sig .tc .vmem S48x512 .f32 := win3_9.stage (cfg3.slots t 9)
abbrev hs9 (t : Fin cfg3.N) : (ms9 t).IsWhole := hstage3_9 ((cfg3.slots t 9).cast nbuf3_9)
abbrev ms10 (t : Fin cfg3.N) : Memref sig .tc .vmem S48x128 .f32 := win3_10.stage (cfg3.slots t 10)
abbrev hs10 (t : Fin cfg3.N) : (ms10 t).IsWhole := hstage3_10 ((cfg3.slots t 10).cast nbuf3_10)
/-- The accumulator scratch (48 × 512): a whole buffer of the kernel's own. -/
abbrev scAcc : Memref sig .tc .vmem S48x512 .f32 := Memref.whole cc3_scratch0
abbrev VAcc : View sig .tc .vmem S48x512 .f32 := scAcc.view
/-- One staging buffer of each output window, through which its contents are stated (the choice does not matter). -/
abbrev VHid : View sig .tc .vmem S48x512 .f32 := (Memref.whole cc3_stg9_0 : Memref sig .tc .vmem S48x512 .f32).view
abbrev VLogit : View sig .tc .vmem S48x128 .f32 := (Memref.whole cc3_stg10_0 : Memref sig .tc .vmem S48x128 .f32).view

/-- The core's scoped buffers other than this region's staging buffers and its scratch (the other three regions'
    staging buffers), each whole at some contents. -/
def others (c : Dev nD) : sProp 𝕄 :=
  BI.bigSepL [cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1]
    fun b => iprop(∃ f : Buf (Elt F) ((c : Thread nD τ).loc b), ((c : Thread nD τ).loc b) ↦{fullShare} f)

/-- The region's invariant before the first point: the scratch at anything, the other scoped buffers, and the
    generator register at some state. -/
theorem PhiA_eq (c : Dev nD) :
    (Pipeline.ΦA spec3 c : sProp 𝕄)
      = iprop(iprop((∃ d, owns (c : Thread nD τ) scAcc fullShare d) ∗ others c) ∗ (∃ r, prngReg c r)) := by
  unfold Pipeline.ΦA
  rw [Pipeline.scopedRest_eq_of_list spec3 c [cc3_scratch0, cc0_stg0_0, cc0_stg0_1, cc0_stg1_0, cc0_stg2_0, cc0_stg3_0, cc0_stg4_0, cc0_stg4_1, cc1_stg0_0, cc1_stg0_1, cc1_stg1_0, cc1_stg2_0, cc1_stg3_0, cc1_stg4_0, cc1_stg4_1, cc2_stg0_0, cc2_stg0_1, cc2_stg1_0, cc2_stg2_0, cc2_stg3_0, cc2_stg4_0, cc2_stg4_1] (by decide) (by decide),
    BI.bigSepL_cons]
  unfold others
  simp only [scAcc, owns_whole]; try rfl

end Cert.ReferenceIdeal.Classifier

end
-- ==== Proof.RIClassifierFirst.lean ====
import proofs.«146356_g2000405529851509_pallasbulk_1335_10_alg».proof.Proof.RIClassifierShared

/-!
# The reference's classifier body at a head's first column block

At block 0 the body clears the accumulator scratch, computes this block's 512 hidden columns (product of the features
with the first layer's block, scale, shift, clamp) into the hidden window, and adds this block's contribution to the
second layer to the cleared accumulator. It stores nothing into the logits window. The stores each buffer ends with are
found by running the body; the logits window's buffer is handed back as it was.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer and the accumulator scratch at a head's first block,
    with the proof that on whole buffers — the nine inputs' at given contents, the logits window's at contents handed back
    untouched, the other two at anything — the body runs to its return with the inputs' as they were and those two with
    their pieces written. -/
noncomputable def runFirst (c : Dev nD) (i : grid3.Coords) (a0 : Memref sig .tc .vmem S48x6272 .bf16) (h0 : a0.IsWhole) (a1 : Memref sig .tc .vmem S6272x512 .bf16) (h1 : a1.IsWhole) (a2 : Memref sig .tc .vmem S1x512 .f32) (h2 : a2.IsWhole) (a3 : Memref sig .tc .vmem S1x512 .f32) (h3 : a3.IsWhole) (a4 : Memref sig .tc .vmem S512x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x512 .f32) (h9 : a9.IsWhole) (a10 : Memref sig .tc .vmem S48x128 .f32) (h10 : a10.IsWhole) (aA : Memref sig .tc .vmem S48x512 .f32) (hA : aA.IsWhole)
    (hc1 : condFirst i) (hc4 : ¬condLast i)
    (x0 : Vec F S48x6272 .bf16) (x1 : Vec F S6272x512 .bf16) (x2 : Vec F S1x512 .f32) (x3 : Vec F S1x512 .f32) (x4 : Vec F S512x512 .bf16) (x5 : Vec F S1x1x512 .f32) (x6 : Vec F S1x1x512 .f32) (x7 : Vec F S512x128 .bf16) (x8 : Vec F S1x1x128 .f32) :
    Σ' (L9 : List (View.Piece (Elt F) S48x512 .f32)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ (∃ d, owns (c : Thread nD τ) aA fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ (∃ f, aA.view.loc (c : Thread nD τ) ↦[aA.view.set]{fullShare} aA.view.writes (Elt F) f LA)) -∗ K ⟨⟩))
          ⊢ wp frame (wpE (defs₀ (F := F)) Variants.none c none) E (cc3__classifier_kernel i a0 h0 a1 h1 a2 h2 a3 h3 a4 h4 a5 h5 a6 h6 a7 h7 a8 h8 a9 h9 a10 h10 aA hA) K } := by
  refine ⟨?_, ?_, fun xi10 E K => ?run⟩
  case run =>
    simp only [cc3__classifier_kernel_eq_skeleton]; unfold cc3__classifier_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%dA, %fA, -, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10
    sl_exec (disch := first | exact hc1 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    iexists _; iexact HA

end Cert.ReferenceIdeal.Classifier

end
-- ==== Proof.RIClassifierMiddle.lean ====
import proofs.«146356_g2000405529851509_pallasbulk_1335_10_alg».proof.Proof.RIClassifierShared

/-!
# The reference's classifier body at a column block that is neither the head's first nor its last

At blocks 1 and 2 the body computes this block's 512 hidden columns into the hidden window and adds this block's
contribution to the accumulator scratch as the point before left it. It stores nothing into the logits window, which
is handed back as it was.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the hidden window's buffer and the accumulator scratch at such a block, with the
    proof that on whole buffers — the nine inputs' and the accumulator's at given contents, the logits window's at
    contents handed back untouched, the hidden window's at anything — the body runs to its return with the inputs' and the
    logits window's as they were and the other two with their pieces written. -/
noncomputable def runMiddle (c : Dev nD) (i : grid3.Coords) (a0 : Memref sig .tc .vmem S48x6272 .bf16) (h0 : a0.IsWhole) (a1 : Memref sig .tc .vmem S6272x512 .bf16) (h1 : a1.IsWhole) (a2 : Memref sig .tc .vmem S1x512 .f32) (h2 : a2.IsWhole) (a3 : Memref sig .tc .vmem S1x512 .f32) (h3 : a3.IsWhole) (a4 : Memref sig .tc .vmem S512x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x512 .f32) (h9 : a9.IsWhole) (a10 : Memref sig .tc .vmem S48x128 .f32) (h10 : a10.IsWhole) (aA : Memref sig .tc .vmem S48x512 .f32) (hA : aA.IsWhole)
    (hc1 : ¬condFirst i) (hc4 : ¬condLast i)
    (x0 : Vec F S48x6272 .bf16) (x1 : Vec F S6272x512 .bf16) (x2 : Vec F S1x512 .f32) (x3 : Vec F S1x512 .f32) (x4 : Vec F S512x512 .bf16) (x5 : Vec F S1x1x512 .f32) (x6 : Vec F S1x1x512 .f32) (x7 : Vec F S512x128 .bf16) (x8 : Vec F S1x1x128 .f32) (xsA : Vec F S48x512 .f32) :
    Σ' (L9 : List (View.Piece (Elt F) S48x512 .f32)), { LA : List (View.Piece (Elt F) S48x512 .f32) //
      ∀ (xi10 : Vec F S48x128 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare xi10
            ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ owns (c : Thread nD τ) a10 fullShare xi10
                ∗ (∃ f, aA.view.loc (c : Thread nD τ) ↦[aA.view.set]{fullShare} aA.view.writes (Elt F) f LA)) -∗ K ⟨⟩))
          ⊢ wp frame (wpE (defs₀ (F := F)) Variants.none c none) E (cc3__classifier_kernel i a0 h0 a1 h1 a2 h2 a3 h3 a4 h4 a5 h5 a6 h6 a7 h7 a8 h8 a9 h9 a10 h10 aA hA) K } := by
  refine ⟨?_, ?_, fun xi10 E K => ?run⟩
  case run =>
    simp only [cc3__classifier_kernel_eq_skeleton]; unfold cc3__classifier_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h10.eq_unread hf10; obtain rfl := hA.eq_unread hfA
    sl_exec (disch := first | exact hc1 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]
    · iexists _; isplitr; · ipureintro; exact h10.read_unread _
      iexact H10
    iexists _; iexact HA

end Cert.ReferenceIdeal.Classifier

end
-- ==== Proof.RIClassifierLast.lean ====
import proofs.«146356_g2000405529851509_pallasbulk_1335_10_alg».proof.Proof.RIClassifierShared

/-!
# The reference's classifier body at a head's last column block

At block 3 the body computes this block's 512 hidden columns into the hidden window, adds this block's contribution to
the accumulator scratch, and then finishes the head: the accumulated second layer is scaled, shifted and clamped,
multiplied by the head's third-layer matrix, the bias added, and the 48 × 128 result stored into the logits window.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows' buffers and the accumulator scratch at a head's last
    block, with the proof that on whole buffers — the nine inputs' and the accumulator's at given contents, the two output
    windows' at anything — the body runs to its return with the inputs' as they were and the other three with their pieces
    written. -/
noncomputable def runLast (c : Dev nD) (i : grid3.Coords) (a0 : Memref sig .tc .vmem S48x6272 .bf16) (h0 : a0.IsWhole) (a1 : Memref sig .tc .vmem S6272x512 .bf16) (h1 : a1.IsWhole) (a2 : Memref sig .tc .vmem S1x512 .f32) (h2 : a2.IsWhole) (a3 : Memref sig .tc .vmem S1x512 .f32) (h3 : a3.IsWhole) (a4 : Memref sig .tc .vmem S512x512 .bf16) (h4 : a4.IsWhole) (a5 : Memref sig .tc .vmem S1x1x512 .f32) (h5 : a5.IsWhole) (a6 : Memref sig .tc .vmem S1x1x512 .f32) (h6 : a6.IsWhole) (a7 : Memref sig .tc .vmem S512x128 .bf16) (h7 : a7.IsWhole) (a8 : Memref sig .tc .vmem S1x1x128 .f32) (h8 : a8.IsWhole) (a9 : Memref sig .tc .vmem S48x512 .f32) (h9 : a9.IsWhole) (a10 : Memref sig .tc .vmem S48x128 .f32) (h10 : a10.IsWhole) (aA : Memref sig .tc .vmem S48x512 .f32) (hA : aA.IsWhole)
    (hc1 : ¬condFirst i) (hc4 : condLast i)
    (x0 : Vec F S48x6272 .bf16) (x1 : Vec F S6272x512 .bf16) (x2 : Vec F S1x512 .f32) (x3 : Vec F S1x512 .f32) (x4 : Vec F S512x512 .bf16) (x5 : Vec F S1x1x512 .f32) (x6 : Vec F S1x1x512 .f32) (x7 : Vec F S512x128 .bf16) (x8 : Vec F S1x1x128 .f32) (xsA : Vec F S48x512 .f32) :
    Σ' (L9 : List (View.Piece (Elt F) S48x512 .f32)) (L10 : List (View.Piece (Elt F) S48x128 .f32)), { LA : List (View.Piece (Elt F) S48x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
            ∗ owns (c : Thread nD τ) aA fullShare xsA
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L9) ∗ (∃ f, a10.view.loc (c : Thread nD τ) ↦[a10.view.set]{fullShare} a10.view.writes (Elt F) f L10)
                ∗ (∃ f, aA.view.loc (c : Thread nD τ) ↦[aA.view.set]{fullShare} aA.view.writes (Elt F) f LA)) -∗ K ⟨⟩))
          ⊢ wp frame (wpE (defs₀ (F := F)) Variants.none c none) E (cc3__classifier_kernel i a0 h0 a1 h1 a2 h2 a3 h3 a4 h4 a5 h5 a6 h6 a7 h7 a8 h8 a9 h9 a10 h10 aA hA) K } := by
  refine ⟨?_, ?_, ?_, fun E K => ?run⟩
  case run =>
    simp only [cc3__classifier_kernel_eq_skeleton]; unfold cc3__classifier_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fA, %hfA, HA⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := hA.eq_unread hfA
    sl_exec (disch := first | exact hc1 | exact hc4)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    iexists _; iexact HA

end Cert.ReferenceIdeal.Classifier

end
-- ==== Proof.RIClassifier.lean ====
import proofs.«146356_g2000405529851509_pallasbulk_1335_10_alg».proof.Proof.RIClassifierFirst
import proofs.«146356_g2000405529851509_pallasbulk_1335_10_alg».proof.Proof.RIClassifierMiddle
import proofs.«146356_g2000405529851509_pallasbulk_1335_10_alg».proof.Proof.RIClassifierLast

/-!
# The reference's two-head classifier as one kernel region: its proof data and body obligation

What the two output windows' buffers and the accumulator scratch hold after each of the eight grid points, by recursion
on the point: a head's first block starts afresh from the point's input blocks; every later block reads the accumulator
as the point before left it and replaces it; the logits window's buffer holds the head's result after its last block
and is nobody's business elsewhere. The invariant between points holds the scratch at those contents; the body
obligation is the case split on the block number, each case its run.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point, on the buffers the pipeline passes there -/

abbrev firstAt (c : Dev nD) (t : Fin cfg3.N) (h0 : t.val % 4 = 0) :=
  runFirst (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _)
    ((hcondFirst t).mpr h0) (fun hl => by have h := (hcondLast t).mp hl; omega)
    (iblk V c 0 t) (iblk V c 1 t) (iblk V c 2 t) (iblk V c 3 t) (iblk V c 4 t) (iblk V c 5 t) (iblk V c 6 t) (iblk V c 7 t) (iblk V c 8 t)

abbrev middleAt (c : Dev nD) (t : Fin cfg3.N) (h0 : ¬ t.val % 4 = 0) (h3 : ¬ t.val % 4 = 3) (xsA : Vec F S48x512 .f32) :=
  runMiddle (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _)
    (fun hf => h0 ((hcondFirst t).mp hf)) (fun hl => h3 ((hcondLast t).mp hl))
    (iblk V c 0 t) (iblk V c 1 t) (iblk V c 2 t) (iblk V c 3 t) (iblk V c 4 t) (iblk V c 5 t) (iblk V c 6 t) (iblk V c 7 t) (iblk V c 8 t) xsA

abbrev lastAt (c : Dev nD) (t : Fin cfg3.N) (h3 : t.val % 4 = 3) (xsA : Vec F S48x512 .f32) :=
  runLast (F := F) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scAcc (Memref.isWhole_whole _)
    (fun hf => by have h := (hcondFirst t).mp hf; omega) ((hcondLast t).mpr h3)
    (iblk V c 0 t) (iblk V c 1 t) (iblk V c 2 t) (iblk V c 3 t) (iblk V c 4 t) (iblk V c 5 t) (iblk V c 6 t) (iblk V c 7 t) (iblk V c 8 t) xsA

/-! ## Pieces read back as contents -/

def rdHid (L : List (View.Piece (Elt F) S48x512 .f32)) : Vec F S48x512 .f32 := VHid.read (Elt F) (VHid.writes (Elt F) VHid.junk L)
def rdLogit (L : List (View.Piece (Elt F) S48x128 .f32)) : Vec F S48x128 .f32 := VLogit.read (Elt F) (VLogit.writes (Elt F) VLogit.junk L)
def rdAcc (L : List (View.Piece (Elt F) S48x512 .f32)) : Vec F S48x512 .f32 := VAcc.read (Elt F) (VAcc.writes (Elt F) VAcc.junk L)

/-! ## Each run's pieces cover the buffer they are written into -/

theorem coverHidFirst (c : Dev nD) (t : Fin cfg3.N) (h0 : t.val % 4 = 0) (y : S48x512.Idx) :
    ∃ pc ∈ (firstAt V c t h0).1, y ∈ pc.1.set := View.cover_of_tiledL (firstAt V c t h0).1 S48x512.size (by sl_kernel_rfl) y
theorem coverAccFirst (c : Dev nD) (t : Fin cfg3.N) (h0 : t.val % 4 = 0) (y : S48x512.Idx) :
    ∃ pc ∈ (firstAt V c t h0).2.1, y ∈ pc.1.set := View.cover_of_tiledL (firstAt V c t h0).2.1 S48x512.size (by sl_kernel_rfl) y
theorem coverHidMiddle (c : Dev nD) (t : Fin cfg3.N) (h0 : ¬ t.val % 4 = 0) (h3 : ¬ t.val % 4 = 3) (xsA : Vec F S48x512 .f32) (y : S48x512.Idx) :
    ∃ pc ∈ (middleAt V c t h0 h3 xsA).1, y ∈ pc.1.set := View.cover_of_tiledL (middleAt V c t h0 h3 xsA).1 S48x512.size (by sl_kernel_rfl) y
theorem coverAccMiddle (c : Dev nD) (t : Fin cfg3.N) (h0 : ¬ t.val % 4 = 0) (h3 : ¬ t.val % 4 = 3) (xsA : Vec F S48x512 .f32) (y : S48x512.Idx) :
    ∃ pc ∈ (middleAt V c t h0 h3 xsA).2.1, y ∈ pc.1.set := View.cover_of_tiledL (middleAt V c t h0 h3 xsA).2.1 S48x512.size (by sl_kernel_rfl) y
theorem coverHidLast (c : Dev nD) (t : Fin cfg3.N) (h3 : t.val % 4 = 3) (xsA : Vec F S48x512 .f32) (y : S48x512.Idx) :
    ∃ pc ∈ (lastAt V c t h3 xsA).1, y ∈ pc.1.set := View.cover_of_tiledL (lastAt V c t h3 xsA).1 S48x512.size (by sl_kernel_rfl) y
theorem coverLogitLast (c : Dev nD) (t : Fin cfg3.N) (h3 : t.val % 4 = 3) (xsA : Vec F S48x512 .f32) (y : S48x128.Idx) :
    ∃ pc ∈ (lastAt V c t h3 xsA).2.1, y ∈ pc.1.set := View.cover_of_tiledL (lastAt V c t h3 xsA).2.1 S48x128.size (by sl_kernel_rfl) y
theorem coverAccLast (c : Dev nD) (t : Fin cfg3.N) (h3 : t.val % 4 = 3) (xsA : Vec F S48x512 .f32) (y : S48x512.Idx) :
    ∃ pc ∈ (lastAt V c t h3 xsA).2.2.1, y ∈ pc.1.set := View.cover_of_tiledL (lastAt V c t h3 xsA).2.2.1 S48x512.size (by sl_kernel_rfl) y

/-! ## What the three buffers hold after each point -/

/-- After a head's first block: hidden window, logits window (nothing stored: a placeholder nobody reads), accumulator. -/
def firstVals (c : Dev nD) (t : Fin cfg3.N) (h0 : t.val % 4 = 0) : Vec F S48x512 .f32 × Vec F S48x128 .f32 × Vec F S48x512 .f32 :=
  (rdHid (firstAt V c t h0).1, rdLogit [], rdAcc (firstAt V c t h0).2.1)
/-- After a block that is neither first nor last, from what the point before left in the accumulator. -/
def middleVals (c : Dev nD) (t : Fin cfg3.N) (h0 : ¬ t.val % 4 = 0) (h3 : ¬ t.val % 4 = 3) (xsA : Vec F S48x512 .f32) : Vec F S48x512 .f32 × Vec F S48x128 .f32 × Vec F S48x512 .f32 :=
  (rdHid (middleAt V c t h0 h3 xsA).1, rdLogit [], rdAcc (middleAt V c t h0 h3 xsA).2.1)
/-- After a head's last block. -/
def lastVals (c : Dev nD) (t : Fin cfg3.N) (h3 : t.val % 4 = 3) (xsA : Vec F S48x512 .f32) : Vec F S48x512 .f32 × Vec F S48x128 .f32 × Vec F S48x512 .f32 :=
  (rdHid (lastAt V c t h3 xsA).1, rdLogit (lastAt V c t h3 xsA).2.1, rdAcc (lastAt V c t h3 xsA).2.2.1)

/-- The recursion over the points. -/
def outsAt (c : Dev nD) : (n : ℕ) → n < cfg3.N → Vec F S48x512 .f32 × Vec F S48x128 .f32 × Vec F S48x512 .f32
  | 0, hn => firstVals V c ⟨0, hn⟩ (Nat.zero_mod _)
  | n + 1, hn =>
    if h0 : (n + 1) % 4 = 0 then firstVals V c ⟨n + 1, hn⟩ h0
    else if h3 : (n + 1) % 4 = 3 then
      lastVals V c ⟨n + 1, hn⟩ h3 (outsAt c n (Nat.lt_of_succ_lt hn)).2.2
    else
      middleVals V c ⟨n + 1, hn⟩ h0 h3 (outsAt c n (Nat.lt_of_succ_lt hn)).2.2

theorem outsAt_first (c : Dev nD) (t : Fin cfg3.N) (h0 : t.val % 4 = 0) : outsAt V c t.val t.isLt = firstVals V c t h0 := by
  obtain ⟨n, hn⟩ := t
  cases n with
  | zero => exact rfl
  | succ n => exact (dif_pos h0).trans rfl

theorem outsAt_last (c : Dev nD) (t : Fin cfg3.N) (h0 : ¬ t.val % 4 = 0) (h3 : t.val % 4 = 3) :
    outsAt V c t.val t.isLt = lastVals V c t h3 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h3).trans rfl)

theorem outsAt_middle (c : Dev nD) (t : Fin cfg3.N) (h0 : ¬ t.val % 4 = 0) (h3 : ¬ t.val % 4 = 3) :
    outsAt V c t.val t.isLt = middleVals V c t h0 h3 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h3).trans rfl)

/-! ## The invariant between points -/

/-- Before the first point the class's invariant (the scratch at anything); before point n + 1 the scratch at what point n
    left, the other regions' staging buffers and the generator register as they come. -/
def PhiS (c : Dev nD) : (n : ℕ) → n ≤ cfg3.N → sProp 𝕄
  | 0, _ => Pipeline.ΦA spec3 c
  | n + 1, hn => iprop(iprop(owns (c : Thread nD τ) scAcc fullShare (outsAt V c n hn).2.2 ∗ others c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scAcc fullShare (outsAt V c n hn).2.2 ∗ others c) ∗ (∃ r, prngReg c r)) := rfl

theorem PhiS_pos (c : Dev nD) (n : ℕ) (h : n ≤ cfg3.N) (hz : n ≠ 0) :
    PhiS V c n h = iprop(iprop(owns (c : Thread nD τ) scAcc fullShare (outsAt V c (n - 1) (by omega)).2.2 ∗ others c) ∗ (∃ r, prngReg c r)) := by
  cases n with
  | zero => exact absurd rfl hz
  | succ n => rfl

/-! ## The proof data -/

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
    | ⟨10, _⟩ => (outsAt V c t.val t.isLt).2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = iblk V c 6 t := by dsimp only [dat]
theorem after7 (c : Dev nD) (t : Fin cfg3.N) : (dat V c).after 7 t = iblk V c 7 t := by dsimp only [dat]
theorem after8 (c : Dev nD) (t : Fin cfg3.N) : (dat V c).after 8 t = iblk V c 8 t := by dsimp only [dat]
theorem after9 (c : Dev nD) (t : Fin cfg3.N) : (dat V c).after 9 t = (outsAt V c t.val t.isLt).1 := by dsimp only [dat]
theorem after10 (c : Dev nD) (t : Fin cfg3.N) : (dat V c).after 10 t = (outsAt V c t.val t.isLt).2.1 := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d
theorem before5 (c : Dev nD) (t : Fin cfg3.N) (d) : (dat V c).before 5 t d = iblk V c 5 t :=
  before5_of V (dat V c) (A_eq V c 5) (after5 V c) t d
theorem before6 (c : Dev nD) (t : Fin cfg3.N) (d) : (dat V c).before 6 t d = iblk V c 6 t :=
  before6_of V (dat V c) (A_eq V c 6) (after6 V c) t d
theorem before7 (c : Dev nD) (t : Fin cfg3.N) (d) : (dat V c).before 7 t d = iblk V c 7 t :=
  before7_of V (dat V c) (A_eq V c 7) (after7 V c) t d
theorem before8 (c : Dev nD) (t : Fin cfg3.N) (d) : (dat V c).before 8 t d = iblk V c 8 t :=
  before8_of V (dat V c) (A_eq V c 8) (after8 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 8000000 in
/-- The body at any point: the inputs' buffers hold their blocks; the block number says which run applies; the invariant
    hands the run the scratch (at anything before the very first point, at what the point before left afterwards) and
    takes it back at this point's contents. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5, before6, before7, before8]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg3.N = 8 from N_3)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  rw [show (dat V c).leavesExact 6 t = owns (c : Thread nD τ) (ms6 t) fullShare ((dat V c).after 6 t) from by
    unfold Dat.leavesExact; rw [live6 t], after6]
  rw [show (dat V c).leavesExact 7 t = owns (c : Thread nD τ) (ms7 t) fullShare ((dat V c).after 7 t) from by
    unfold Dat.leavesExact; rw [live7 t], after7]
  rw [show (dat V c).leavesExact 8 t = owns (c : Thread nD τ) (ms8 t) fullShare ((dat V c).after 8 t) from by
    unfold Dat.leavesExact; rw [live8 t], after8]
  rw [show (dat V c).leavesExact 9 t = owns (c : Thread nD τ) (ms9 t) fullShare ((dat V c).after 9 t) from by
    unfold Dat.leavesExact; rw [live9 t], after9]
  by_cases h0 : t.val % 4 = 0
  · have hnl : ¬ condLast (grid3.coords t) := fun hl => by have h := (hcondLast t).mp hl; omega
    rw [Dat.leavesExact_idle (dat V c) 10 t (idle10 t hnl) (noFlush10 t hnl)]
    rw [outsAt_first V c t h0]
    unfold firstVals rdHid rdAcc; (try dsimp only)
    by_cases hz : t.val = 0
    · -- the very first point: the scratch comes at anything
      rw [PhiS_castSucc V c t, PhiS_zero V c _ _ hz, PhiA_eq]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HA]; · iexact HA
      iintro ⟨H0, H1, H2, H3, H4, H5, H6, H7, H8, ⟨%e9, H9⟩, H10, ⟨%eA, HA⟩⟩
      isplitl [HA HO Hg]
      · isplitl [HA HO]
        · isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
    · -- the second head's first point: the scratch comes at what the first head left, which this run does not read
      rw [PhiS_castSucc V c t, PhiS_pos V c _ _ hz]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((firstAt V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HA]; · iexists _; iexact HA
      iintro ⟨H0, H1, H2, H3, H4, H5, H6, H7, H8, ⟨%e9, H9⟩, H10, ⟨%eA, HA⟩⟩
      isplitl [HA HO Hg]
      · isplitl [HA HO]
        · isplitl [HA]
          · unfold owns; iexists _; isplitr
            swap; · iexact HA
            ipureintro; exact View.read_writes_of_cover _ _ _ _ _ (coverAccFirst V c t h0)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidFirst V c t h0)
      iexists _; iexact H10
  · have hz : t.val ≠ 0 := fun h => h0 (by rw [h])
    by_cases h3 : t.val % 4 = 3
    · -- a head's last block: both output windows are stored
      rw [show (dat V c).leavesExact 10 t = owns (c : Thread nD τ) (ms10 t) fullShare ((dat V c).after 10 t) from by
        unfold Dat.leavesExact; rw [live10 t ((hcondLast t).mpr h3)], after10]
      rw [outsAt_last V c t h0 h3]
      unfold lastVals rdHid rdLogit rdAcc; (try dsimp only)
      rw [PhiS_castSucc V c t, PhiS_pos V c _ _ hz]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t h3 _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HA]; · iexact HA
      iintro ⟨H0, H1, H2, H3, H4, H5, H6, H7, H8, ⟨%e9, H9⟩, ⟨%e10, H10⟩, ⟨%eA, HA⟩⟩
      isplitl [HA HO Hg]
      · isplitl [HA HO]
        · isplitl [HA]
          · unfold owns; iexists _; isplitr
            swap; · iexact HA
            ipureintro; exact View.read_writes_of_cover _ _ _ _ _ (coverAccLast V c t h3 _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidLast V c t h3 _)
      unfold owns; iexists _; isplitr
      swap; · iexact H10
      ipureintro; exact View.read_writes_of_cover _ _ _ _ _ (coverLogitLast V c t h3 _)
    · -- a middle block: the logits window is left alone
      have hnl : ¬ condLast (grid3.coords t) := fun hl => h3 ((hcondLast t).mp hl)
      rw [Dat.leavesExact_idle (dat V c) 10 t (idle10 t hnl) (noFlush10 t hnl)]
      rw [outsAt_middle V c t h0 h3]
      unfold middleVals rdHid rdAcc; (try dsimp only)
      rw [PhiS_castSucc V c t, PhiS_pos V c _ _ hz]
      iintro ⟨⟨⟨HA, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((middleAt V c t h0 h3 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [HA]; · iexact HA
      iintro ⟨H0, H1, H2, H3, H4, H5, H6, H7, H8, ⟨%e9, H9⟩, H10, ⟨%eA, HA⟩⟩
      isplitl [HA HO Hg]
      · isplitl [HA HO]
        · isplitl [HA]
          · unfold owns; iexists _; isplitr
            swap; · iexact HA
            ipureintro; exact View.read_writes_of_cover _ _ _ _ _ (coverAccMiddle V c t h0 h3 _)
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverHidMiddle V c t h0 h3 _)
      iexists _; iexact H10

theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg3.N) ⊢ Pipeline.ΦA spec3 c := by
  have ht : (Fin.last cfg3.N).val ≠ 0 := by rw [Fin.val_last]; have : cfg3.N = 8 := N_3; omega
  rw [show (dat V c).Φ (Fin.last cfg3.N) = PhiS V c (Fin.last cfg3.N).val (Nat.le_of_lt_succ (Fin.last cfg3.N).isLt) from rfl, PhiS_pos V c _ _ ht, PhiA_eq]
  iintro ⟨⟨HA, HO⟩, Hg⟩
  isplitl [HA HO]
  · isplitl [HA]; · iexists _; iexact HA
    iexact HO
  iexact Hg

end Cert.ReferenceIdeal.Classifier

end
-- ==== Proof.RIWhole.lean ====
import proofs.«146356_g2000405529851509_pallasbulk_1335_10_alg».proof.Proof.RIFirstMatmul
import proofs.«146356_g2000405529851509_pallasbulk_1335_10_alg».proof.Proof.RISecondMatmul
import proofs.«146356_g2000405529851509_pallasbulk_1335_10_alg».proof.Proof.RIThirdMatmul
import proofs.«146356_g2000405529851509_pallasbulk_1335_10_alg».proof.Proof.RIClassifier
import proofs.«146356_g2000405529851509_pallasbulk_1335_10_alg».proof.Proof.LibRegionRecord
import proofs.«146356_g2000405529851509_pallasbulk_1335_10_alg».proof.Proof.Gen.ReferenceIdeal.Regions

/-!
# The idealized reference runs to its end and leaves its arguments as they were

The program is five stretches of host operations, the first convolution's matrix-product region, three more stretches,
the second convolution's region, five more, the third convolution's region, three more, the classifier's region, and a
last stretch that slices the four results out. Between two items every unscoped buffer of a core is held whole at a
valuation: the launch contents, then each host stretch applied, then, at a region's result, what that region's
write-backs leave. Each region is entered at the valuation before it and left at the one after it; no item writes an
argument.
-/

set_option maxRecDepth 16384

noncomputable section

namespace Cert.ReferenceIdeal.Whole

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c (Proc.devRef .tc b)

/-! ## What each region leaves, one after the other -/

/-- After the first convolution's product: its arrays at what its write-backs leave, every other buffer as entered. -/
def X0 (c : Dev nD) : Valuation τ sig (Elt F) :=
  Pipeline.withArrays spec0 c (V5 m c) fun w => (FirstMatmul.dat (atTc (V5 m)) c).arrAt w cfg0.N
/-- The regions' results so far: the first convolution's. -/
def O1 : Outs (F := F) := fun _ r c => X0 m c (Proc.devRef .tc r)

def X1 (c : Dev nD) : Valuation τ sig (Elt F) :=
  Pipeline.withArrays spec1 c (V9 m (O1 m) c) fun w => (SecondMatmul.dat (atTc (V9 m (O1 m))) c).arrAt w cfg1.N
def O2 : Outs (F := F) := fun J r c => match J with
  | 6 => X0 m c (Proc.devRef .tc r)
  | _ => X1 m c (Proc.devRef .tc r)

def X2 (c : Dev nD) : Valuation τ sig (Elt F) :=
  Pipeline.withArrays spec2 c (V15 m (O2 m) c) fun w => (ThirdMatmul.dat (atTc (V15 m (O2 m))) c).arrAt w cfg2.N
def O3 : Outs (F := F) := fun J r c => match J with
  | 6 => X0 m c (Proc.devRef .tc r)
  | 10 => X1 m c (Proc.devRef .tc r)
  | _ => X2 m c (Proc.devRef .tc r)

def X3 (c : Dev nD) : Valuation τ sig (Elt F) :=
  Pipeline.withArrays spec3 c (V19 m (O3 m) c) fun w => (Classifier.dat (atTc (V19 m (O3 m))) c).arrAt w cfg3.N
/-- What all four regions leave. -/
def outs : Outs (F := F) := fun J r c => match J with
  | 6 => X0 m c (Proc.devRef .tc r)
  | 10 => X1 m c (Proc.devRef .tc r)
  | 16 => X2 m c (Proc.devRef .tc r)
  | _ => X3 m c (Proc.devRef .tc r)

/-- The valuations before the later regions read only the earlier regions' results. -/
theorem V9_outs (c : Dev nD) : V9 m (outs m) c = V9 m (O1 m) c := rfl
theorem V15_outs (c : Dev nD) : V15 m (outs m) c = V15 m (O2 m) c := rfl
theorem V19_outs (c : Dev nD) : V19 m (outs m) c = V19 m (O3 m) c := rfl

/-! ## The proof data family -/

def pdats : (p : Fin 4) → (c : Dev nD) → Dat τ (Elt F) Unit ℕ (UR sig nD τ) ℕ (cfgs p) c
  | ⟨0, _⟩ => fun c => FirstMatmul.dat (atTc (V5 m)) c
  | ⟨1, _⟩ => fun c => SecondMatmul.dat (atTc (V9 m (O1 m))) c
  | ⟨2, _⟩ => fun c => ThirdMatmul.dat (atTc (V15 m (O2 m))) c
  | ⟨3, _⟩ => fun c => Classifier.dat (atTc (V19 m (O3 m))) c

/-! ## What rides beside the buffers, and the facts every record shares -/

/-- No region of this program reads a prefetched table. -/
theorem noTables (p : Fin 4) (c : Dev nD) :
    (Pipeline.prefHeld (Ix := Unit) (Name := ℕ) (U := UR sig nD τ) (Lvl := ℕ) (pcfgs (F := F) p).pre c (fun _ => fullShare) (adm (F := F) p).1 : sProp 𝕄) = BI.emp := by
  fin_cases p <;> (unfold Pipeline.prefHeld; rw [show (Finset.univ : Finset (Fin 0)) = ∅ from rfl, BI.bigSep_empty])

/-! ## The first convolution's region -/

/-- An input window's array is left as it was entered. -/
theorem hF0_in (c : Dev nD) (w : Fin cfg0.W) (hin : (cfg0.win w).isOut = false) (hne : Pipeline.arrRef spec0 w ∉ ([main_v35] : List (Ref sig .tc))) :
    (pdats m 0 c).arrAt w cfg0.N = V6 m (outs m) c (Proc.devRef .tc (Pipeline.arrRef spec0 w)) :=
  ((pdats m 0 c).arrAt_in w hin _).trans ((FirstMatmul.A_eq (atTc (V5 m)) c w).trans (V6_of m (outs m) c (Pipeline.arrRef spec0 w) hne).symm)

theorem hF0 (c : Dev nD) : ∀ w : Fin cfg0.W,
    (pdats m 0 c).arrAt w cfg0.N = V6 m (outs m) c (Proc.devRef .tc (Pipeline.arrRef spec0 w))
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => by
    have h1 := Pipeline.withArrays_arr spec0 launch0.win.arr_inj c (V5 m c) (fun w => (FirstMatmul.dat (atTc (V5 m)) c).arrAt w cfg0.N) 4
    show _ = V6 m (outs m) c (Proc.devRef .tc main_v35)
    simp only [V6, Function.update_self]
    exact h1.symm

theorem hrest0 (c : Dev nD) (b : Ref sig .tc) (hb : b ∉ Finset.univ.image (Pipeline.arrRef spec0)) :
    V6 m (outs m) c (Proc.devRef .tc b) = V5 m c (Proc.devRef .tc b) :=
  V6_of m (outs m) c b (fun h => hb (by
    rw [List.mem_singleton] at h; subst h
    exact Finset.mem_image.mpr ⟨4, Finset.mem_univ _, rfl⟩))

theorem hin0 (c : Dev nD) : iprop(Pipeline.ΦA (U := UR sig nD τ) spec0 c ∗ (BI.emp : sProp 𝕄)) ⊢ (pdats m 0 c).Φ 0 := by
  rw [show (pdats m 0 c).Φ 0 = Pipeline.ΦA spec0 c from rfl]
  iintro ⟨H, -⟩; iexact H

theorem hout0 (c : Dev nD) : (pdats m 0 c).Φ (Fin.last _) ⊢ iprop(Pipeline.ΦA (U := UR sig nD τ) spec0 c ∗ (BI.emp : sProp 𝕄)) := by
  rw [show (pdats m 0 c).Φ (Fin.last _) = Pipeline.ΦA spec0 c from rfl]
  iintro H; isplitl [H]; · iexact H
  iempintro

set_option backward.isDefEq.respectTransparency.types false in
def R0 : RegionSeg (pcfgs (F := F)) adm (pdats m) () defs₀ Variants.none (fun _ => ∅) (fun _ _ => 0) 0 :=
  RegionRecord.regionSeg (pcfgs (F := F)) adm (pdats m) 0 launch0.toP defs₀ Variants.none
    (fun c => V5 m c) (fun c => V6 m (outs m) c)
    (fun c => (FirstMatmul.body_obligation (atTc (V5 m)) c).loose)
    (fun c => (pdats m 0 c).share_full fun _ => rfl) (fun _ _ => rfl) (fun _ => rfl)
    (fun _ _ => rfl) (fun _ k => k.elim0) (hF0 m) (hrest0 m)
    (fun c => by rw [noTables]; exact hin0 m c)
    (fun c => by rw [noTables]; exact hout0 m c)

/-! ## The second convolution's region -/

/-- An input window's array is left as it was entered. -/
theorem hF1_in (c : Dev nD) (w : Fin cfg1.W) (hin : (cfg1.win w).isOut = false) (hne : Pipeline.arrRef spec1 w ∉ ([main_v73] : List (Ref sig .tc))) :
    (pdats m 1 c).arrAt w cfg1.N = V10 m (outs m) c (Proc.devRef .tc (Pipeline.arrRef spec1 w)) :=
  ((pdats m 1 c).arrAt_in w hin _).trans ((SecondMatmul.A_eq (atTc (V9 m (O1 m))) c w).trans (V10_of m (outs m) c (Pipeline.arrRef spec1 w) hne).symm)

theorem hF1 (c : Dev nD) : ∀ w : Fin cfg1.W,
    (pdats m 1 c).arrAt w cfg1.N = V10 m (outs m) c (Proc.devRef .tc (Pipeline.arrRef spec1 w))
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => by
    have h1 := Pipeline.withArrays_arr spec1 launch1.win.arr_inj c (V9 m (O1 m) c) (fun w => (SecondMatmul.dat (atTc (V9 m (O1 m))) c).arrAt w cfg1.N) 4
    show _ = V10 m (outs m) c (Proc.devRef .tc main_v73)
    simp only [V10, Function.update_self]
    exact h1.symm

theorem hrest1 (c : Dev nD) (b : Ref sig .tc) (hb : b ∉ Finset.univ.image (Pipeline.arrRef spec1)) :
    V10 m (outs m) c (Proc.devRef .tc b) = V9 m (outs m) c (Proc.devRef .tc b) :=
  V10_of m (outs m) c b (fun h => hb (by
    rw [List.mem_singleton] at h; subst h
    exact Finset.mem_image.mpr ⟨4, Finset.mem_univ _, rfl⟩))

theorem hin1 (c : Dev nD) : iprop(Pipeline.ΦA (U := UR sig nD τ) spec1 c ∗ (BI.emp : sProp 𝕄)) ⊢ (pdats m 1 c).Φ 0 := by
  rw [show (pdats m 1 c).Φ 0 = Pipeline.ΦA spec1 c from rfl]
  iintro ⟨H, -⟩; iexact H

theorem hout1 (c : Dev nD) : (pdats m 1 c).Φ (Fin.last _) ⊢ iprop(Pipeline.ΦA (U := UR sig nD τ) spec1 c ∗ (BI.emp : sProp 𝕄)) := by
  rw [show (pdats m 1 c).Φ (Fin.last _) = Pipeline.ΦA spec1 c from rfl]
  iintro H; isplitl [H]; · iexact H
  iempintro

set_option backward.isDefEq.respectTransparency.types false in
def R1 : RegionSeg (pcfgs (F := F)) adm (pdats m) () defs₀ Variants.none (fun _ => ∅) (fun _ _ => 0) 1 :=
  RegionRecord.regionSeg (pcfgs (F := F)) adm (pdats m) 1 launch1.toP defs₀ Variants.none
    (fun c => V9 m (outs m) c) (fun c => V10 m (outs m) c)
    (fun c => (SecondMatmul.body_obligation (atTc (V9 m (O1 m))) c).loose)
    (fun c => (pdats m 1 c).share_full fun _ => rfl) (fun _ _ => rfl) (fun _ => rfl)
    (fun _ _ => rfl) (fun _ k => k.elim0) (hF1 m) (hrest1 m)
    (fun c => by rw [noTables]; exact hin1 m c)
    (fun c => by rw [noTables]; exact hout1 m c)

/-! ## The third convolution's region -/

/-- An input window's array is left as it was entered. -/
theorem hF2_in (c : Dev nD) (w : Fin cfg2.W) (hin : (cfg2.win w).isOut = false) (hne : Pipeline.arrRef spec2 w ∉ ([main_v112] : List (Ref sig .tc))) :
    (pdats m 2 c).arrAt w cfg2.N = V16 m (outs m) c (Proc.devRef .tc (Pipeline.arrRef spec2 w)) :=
  ((pdats m 2 c).arrAt_in w hin _).trans ((ThirdMatmul.A_eq (atTc (V15 m (O2 m))) c w).trans (V16_of m (outs m) c (Pipeline.arrRef spec2 w) hne).symm)

theorem hF2 (c : Dev nD) : ∀ w : Fin cfg2.W,
    (pdats m 2 c).arrAt w cfg2.N = V16 m (outs m) c (Proc.devRef .tc (Pipeline.arrRef spec2 w))
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => by
    have h1 := Pipeline.withArrays_arr spec2 launch2.win.arr_inj c (V15 m (O2 m) c) (fun w => (ThirdMatmul.dat (atTc (V15 m (O2 m))) c).arrAt w cfg2.N) 4
    show _ = V16 m (outs m) c (Proc.devRef .tc main_v112)
    simp only [V16, Function.update_self]
    exact h1.symm

theorem hrest2 (c : Dev nD) (b : Ref sig .tc) (hb : b ∉ Finset.univ.image (Pipeline.arrRef spec2)) :
    V16 m (outs m) c (Proc.devRef .tc b) = V15 m (outs m) c (Proc.devRef .tc b) :=
  V16_of m (outs m) c b (fun h => hb (by
    rw [List.mem_singleton] at h; subst h
    exact Finset.mem_image.mpr ⟨4, Finset.mem_univ _, rfl⟩))

theorem hin2 (c : Dev nD) : iprop(Pipeline.ΦA (U := UR sig nD τ) spec2 c ∗ (BI.emp : sProp 𝕄)) ⊢ (pdats m 2 c).Φ 0 := by
  rw [show (pdats m 2 c).Φ 0 = Pipeline.ΦA spec2 c from rfl]
  iintro ⟨H, -⟩; iexact H

theorem hout2 (c : Dev nD) : (pdats m 2 c).Φ (Fin.last _) ⊢ iprop(Pipeline.ΦA (U := UR sig nD τ) spec2 c ∗ (BI.emp : sProp 𝕄)) := by
  rw [show (pdats m 2 c).Φ (Fin.last _) = Pipeline.ΦA spec2 c from rfl]
  iintro H; isplitl [H]; · iexact H
  iempintro

set_option backward.isDefEq.respectTransparency.types false in
def R2 : RegionSeg (pcfgs (F := F)) adm (pdats m) () defs₀ Variants.none (fun _ => ∅) (fun _ _ => 0) 2 :=
  RegionRecord.regionSeg (pcfgs (F := F)) adm (pdats m) 2 launch2.toP defs₀ Variants.none
    (fun c => V15 m (outs m) c) (fun c => V16 m (outs m) c)
    (fun c => (ThirdMatmul.body_obligation (atTc (V15 m (O2 m))) c).loose)
    (fun c => (pdats m 2 c).share_full fun _ => rfl) (fun _ _ => rfl) (fun _ => rfl)
    (fun _ _ => rfl) (fun _ k => k.elim0) (hF2 m) (hrest2 m)
    (fun c => by rw [noTables]; exact hin2 m c)
    (fun c => by rw [noTables]; exact hout2 m c)

/-! ## The classifier's region -/

theorem hF3_in (c : Dev nD) (w : Fin cfg3.W) (hin : (cfg3.win w).isOut = false) (hne : Pipeline.arrRef spec3 w ∉ ([main_v119_0, main_v119_1] : List (Ref sig .tc))) :
    (pdats m 3 c).arrAt w cfg3.N = V20 m (outs m) c (Proc.devRef .tc (Pipeline.arrRef spec3 w)) :=
  ((pdats m 3 c).arrAt_in w hin _).trans ((Classifier.A_eq (atTc (V19 m (O3 m))) c w).trans (V20_of m (outs m) c (Pipeline.arrRef spec3 w) hne).symm)

set_option maxHeartbeats 2000000 in
theorem hF3 (c : Dev nD) : ∀ w : Fin cfg3.W,
    (pdats m 3 c).arrAt w cfg3.N = V20 m (outs m) c (Proc.devRef .tc (Pipeline.arrRef spec3 w))
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => hF3_in m c 5 rfl (by decide)
  | ⟨6, _⟩ => hF3_in m c 6 rfl (by decide)
  | ⟨7, _⟩ => hF3_in m c 7 rfl (by decide)
  | ⟨8, _⟩ => hF3_in m c 8 rfl (by decide)
  | ⟨9, _⟩ => by
    have h1 := Pipeline.withArrays_arr spec3 launch3.win.arr_inj c (V19 m (O3 m) c) (fun w => (Classifier.dat (atTc (V19 m (O3 m))) c).arrAt w cfg3.N) 9
    show _ = V20 m (outs m) c (Proc.devRef .tc main_v119_0)
    simp only [V20, Function.update_of_ne (StableHlo.devRef_ne_of_ne (by decide) : (Proc.devRef .tc main_v119_0 : DevRef τ sig) ≠ Proc.devRef .tc main_v119_1), Function.update_self]
    exact h1.symm
  | ⟨10, _⟩ => by
    have h1 := Pipeline.withArrays_arr spec3 launch3.win.arr_inj c (V19 m (O3 m) c) (fun w => (Classifier.dat (atTc (V19 m (O3 m))) c).arrAt w cfg3.N) 10
    show _ = V20 m (outs m) c (Proc.devRef .tc main_v119_1)
    simp only [V20, Function.update_self]
    exact h1.symm

theorem hrest3 (c : Dev nD) (b : Ref sig .tc) (hb : b ∉ Finset.univ.image (Pipeline.arrRef spec3)) :
    V20 m (outs m) c (Proc.devRef .tc b) = V19 m (outs m) c (Proc.devRef .tc b) :=
  V20_of m (outs m) c b (fun h => hb (by
    rcases List.mem_cons.mp h with h | h
    · subst h; exact Finset.mem_image.mpr ⟨9, Finset.mem_univ _, rfl⟩
    · rw [List.mem_singleton] at h; subst h; exact Finset.mem_image.mpr ⟨10, Finset.mem_univ _, rfl⟩))

theorem hin3 (c : Dev nD) : iprop(Pipeline.ΦA (U := UR sig nD τ) spec3 c ∗ (BI.emp : sProp 𝕄)) ⊢ (pdats m 3 c).Φ 0 := by
  rw [show (pdats m 3 c).Φ 0 = (Classifier.dat (atTc (V19 m (O3 m))) c).Φ 0 from rfl]
  iintro ⟨H, -⟩
  iapply (Classifier.hin (atTc (V19 m (O3 m))) c)
  iexact H

theorem hout3 (c : Dev nD) : (pdats m 3 c).Φ (Fin.last _) ⊢ iprop(Pipeline.ΦA (U := UR sig nD τ) spec3 c ∗ (BI.emp : sProp 𝕄)) := by
  rw [show (pdats m 3 c).Φ (Fin.last _) = (Classifier.dat (atTc (V19 m (O3 m))) c).Φ (Fin.last cfg3.N) from rfl]
  iintro H; isplitl [H]
  · iapply (Classifier.hout (atTc (V19 m (O3 m))) c); iexact H
  iempintro

set_option backward.isDefEq.respectTransparency.types false in
def R3 : RegionSeg (pcfgs (F := F)) adm (pdats m) () defs₀ Variants.none (fun _ => ∅) (fun _ _ => 0) 3 :=
  RegionRecord.regionSeg (pcfgs (F := F)) adm (pdats m) 3 launch3.toP defs₀ Variants.none
    (fun c => V19 m (outs m) c) (fun c => V20 m (outs m) c)
    (fun c => (Classifier.body_obligation (atTc (V19 m (O3 m))) c).loose)
    (fun c => (pdats m 3 c).share_full fun _ => rfl) (fun _ _ => rfl) (fun _ => rfl)
    (fun _ _ => rfl) (fun _ k => k.elim0) (hF3 m) (hrest3 m)
    (fun c => by rw [noTables]; exact hin3 m c)
    (fun c => by rw [noTables]; exact hout3 m c)

/-! ## The whole run -/

/-- What rides beside the buffers on core c at every boundary: the generator register at some state, nothing owed. -/
abbrev beside (c : Dev nD) : sProp 𝕄 := RegionRecord.rider (U := UR sig nD τ) (Val := Elt F) c

/-- At the launch a core holds its generator register and owes nothing: what rides beside the buffers. -/
theorem launchBeside (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c) : sProp 𝕄) ⊢ beside c := by
  iintro ⟨-, HO, -, Hp, -⟩
  isplitl [Hp]; · iexists _; iexact Hp
  iexists ∅; iexact HO

set_option backward.isDefEq.respectTransparency.types false in
/-- Every weakly fair execution of the program from memory m with zero counters terminates, nothing faulting, and every
    final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (F := F) m emb₁ () Variants.none (fun _ => ∅) (fun _ _ => 0) (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => beside c)
    (by
      have hmono : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) : sProp 𝕄)
          ⊢ bigSep Finset.univ (fun c : Dev nD => (beside c : sProp 𝕄)) := bigSep_mono fun c _ => launchBeside ρ c
      iintro ⟨H, -⟩
      imodintro
      iapply hmono
      iexact H)
    (fun c => by iintro ⟨-, H⟩; iexact H)
    (R0 m) (fun c => .rfl) (fun c => .rfl)
    (R1 m) (fun c => .rfl) (fun c => .rfl)
    (R2 m) (fun c => .rfl) (fun c => .rfl)
    (R3 m) (fun c => .rfl) (fun c => .rfl)

end Cert.ReferenceIdeal.Whole

end
-- ==== Proof.KIRun.lean ====
import proofs.«146356_g2000405529851509_pallasbulk_1335_10_alg».proof.Proof.KIWhole

/-!
# The idealized kernel ends with every unscoped buffer at the last valuation

The same run as the frame's, read more finely at the end: every weakly fair execution terminates, and in every final
memory each unscoped buffer of a core holds what the last valuation gives it — the launch contents pushed through every
host stretch, with each region's result at what its write-backs leave. The arguments and the four results are read off
this.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The program's items as segments, with this certificate's records and what rides beside the buffers. -/
abbrev theSegs (c : Dev nD) : List (Seg (pcfgs (F := F)) adm (pdats m) () defs₀ Variants.none (fun _ => ∅) (fun _ _ => 0)) :=
  segs m (outs m) Variants.none (fun _ => ∅) (fun _ _ => 0) (fun _ c => beside c) () (pdats m) (R0 m) (R1 m) (R2 m) (R3 m) c

set_option maxHeartbeats 2000000 in
set_option backward.isDefEq.respectTransparency.types false in
theorem run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V20 m (outs m) c b) :=
  Pipeline.θ_run_regions_kit_dev (pcfgs (F := F)) adm (pdats m) () cellOf_inj emb₁ defs₀ Variants.none (fun _ => ∅) (fun _ _ => 0) m ρ main
    (theSegs m)
    (fun c Q => by
      rewrite [main_chain c, Seg.run_eq_chain,
        show (theSegs m c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          Prog.lift (.customCall (Pipeline.entry 3) ()),
          StableHlo.seq hostOps4 ] from rfl]
      exact .rfl)
    (fun c => by simp only [theSegs, segs, Seg.pipes_host, Seg.pipes_region, Seg.pipes_nil]; decide)
    0 (fun _ _ => rfl) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V20 m (outs m) c b)
    (hfin := fun c s' => by
      iintro ⟨Hh, HSI⟩
      unfold StableHlo.held
      imodintro
      iapply (pointsTo_read_all (Pipeline.ucRefs τ sig) (fun b => (((c : Thread nD τ)).1, b)) (V20 m (outs m) c) s')
      isplitl [Hh] <;> iassumption)
    (hQ := fun s h c => h c)

end Cert.KernelIdeal.Whole

end
-- ==== Proof.RIRun.lean ====
import proofs.«146356_g2000405529851509_pallasbulk_1335_10_alg».proof.Proof.RIWhole

/-!
# The idealized reference ends with every unscoped buffer at the last valuation

The same run as the frame's, read more finely at the end: every weakly fair execution terminates, and in every final
memory each unscoped buffer of a core holds what the last valuation gives it — the launch contents pushed through every
host stretch, with each region's result at what its write-backs leave. The arguments and the four results are read off
this.
-/

set_option maxRecDepth 16384

noncomputable section

namespace Cert.ReferenceIdeal.Whole

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The program's items as segments, with this certificate's records and what rides beside the buffers. -/
abbrev theSegs (c : Dev nD) : List (Seg (pcfgs (F := F)) adm (pdats m) () defs₀ Variants.none (fun _ => ∅) (fun _ _ => 0)) :=
  segs m (outs m) Variants.none (fun _ => ∅) (fun _ _ => 0) (fun _ c => beside c) () (pdats m) (R0 m) (R1 m) (R2 m) (R3 m) c

set_option maxHeartbeats 2000000 in
set_option backward.isDefEq.respectTransparency.types false in
theorem run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = V21 m (outs m) c b) :=
  Pipeline.θ_run_regions_kit_dev (pcfgs (F := F)) adm (pdats m) () cellOf_inj emb₁ defs₀ Variants.none (fun _ => ∅) (fun _ _ => 0) m ρ main
    (theSegs m)
    (fun c Q => by
      rewrite [main_chain c, Seg.run_eq_chain,
        show (theSegs m c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          Prog.lift (.customCall (Pipeline.entry 3) ()),
          StableHlo.seq hostOps4 ] from rfl]
      exact .rfl)
    (fun c => by simp only [theSegs, segs, Seg.pipes_host, Seg.pipes_region, Seg.pipes_nil]; decide)
    0 (fun _ _ => rfl) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (outs m) c b)
    (hfin := fun c s' => by
      iintro ⟨Hh, HSI⟩
      unfold StableHlo.held
      imodintro
      iapply (pointsTo_read_all (Pipeline.ucRefs τ sig) (fun b => (((c : Thread nD τ)).1, b)) (V21 m (outs m) c) s')
      isplitl [Hh] <;> iassumption)
    (hQ := fun s h c => h c)

end Cert.ReferenceIdeal.Whole

end
-- ==== Proof.Bridge.lean ====
import proofs.«146356_g2000405529851509_pallasbulk_1335_10_alg».proof.Proof.KIWhole
import proofs.«146356_g2000405529851509_pallasbulk_1335_10_alg».proof.Proof.RIWhole
import Idealize.ShloMosaic.Lib.ValueIdx

/-!
# The two idealized programs side by side: the arrays at the stage boundaries, and how they correspond

Both programs compute the same network in four stages. After each stage the reference holds an array indexed by image,
position and channel, the kernel the same numbers in its own row layout. This file names those arrays, read off the
last valuation of each program's unscoped buffers, and states the four correspondences and the equality of the four
results; each stage's proof takes the previous correspondence as its hypothesis.
-/

noncomputable section

namespace Cert.Bridge

open Idealize.ShloMosaic Idealize.ShloMosaic.ValueIdx Idealize.SL.Sem

/-- The memories of the two programs at the ideal instance. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The last valuation of a core's unscoped buffers in each program. -/
abbrev VK (m : KMem) (c : Dev Cert.KernelIdeal.nD) : Valuation Cert.KernelIdeal.τ Cert.KernelIdeal.sig (Elt Ideal) :=
  Cert.KernelIdeal.Gen.V20 m (Cert.KernelIdeal.Whole.outs m) c
abbrev VR (m' : RMem) (c : Dev Cert.ReferenceIdeal.nD) : Valuation Cert.ReferenceIdeal.τ Cert.ReferenceIdeal.sig (Elt Ideal) :=
  Cert.ReferenceIdeal.Gen.V21 m' (Cert.ReferenceIdeal.Whole.outs m') c

/-- The two memories agree on the eighteen arguments (the hypothesis of the claim, per core). -/
def Agree (m : KMem) (m' : RMem) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable (m : KMem) (m' : RMem) (c : Dev Cert.KernelIdeal.nD)

/-! ## The arrays at the stage boundaries -/

/-- Kernel: the pooled first convolution, rows (image, y, x) of 14 × 14, 64 channels. -/
def kP1 : Cert.KernelIdeal.S9408x64.Idx → EReal := VK m c (Proc.devRef .tc Cert.KernelIdeal.main_v38)
/-- Kernel: the pooled second convolution, rows (image, y, x) of 7 × 7, 64 channels. -/
def kP2 : Cert.KernelIdeal.S2352x64.Idx → EReal := VK m c (Proc.devRef .tc Cert.KernelIdeal.main_v57)
/-- Kernel: the third convolution, rows (image, y, x) of 7 × 7, 128 channels. -/
def kY3 : Cert.KernelIdeal.S2352x128.Idx → EReal := VK m c (Proc.devRef .tc Cert.KernelIdeal.main_v73)
/-- Kernel: the hidden layer, rows (head, image), 2048 columns; and the padded logits, rows (head, image), 128 lanes. -/
def kH : Cert.KernelIdeal.S96x2048.Idx → EReal := VK m c (Proc.devRef .tc Cert.KernelIdeal.main_v74_0)
def kLog : Cert.KernelIdeal.S96x128.Idx → EReal := VK m c (Proc.devRef .tc Cert.KernelIdeal.main_v74_1)

/-- Reference: the pooled first convolution (image, y, x, channel). -/
def rP1 : Cert.ReferenceIdeal.S48x14x14x64.Idx → EReal := VR m' c (Proc.devRef .tc Cert.ReferenceIdeal.main_v40)
/-- Reference: the pooled second convolution (image, y, x, channel). -/
def rP2 : Cert.ReferenceIdeal.S48x7x7x64.Idx → EReal := VR m' c (Proc.devRef .tc Cert.ReferenceIdeal.main_v78)
/-- Reference: the flattened features, column channel · 49 + y · 7 + x. -/
def rFeat : Cert.ReferenceIdeal.S48x6272.Idx → EReal := VR m' c (Proc.devRef .tc Cert.ReferenceIdeal.main_v118)
/-- Reference: the hidden layer, rows image, columns (head, 2048); and the padded logits, rows (head, image). -/
def rH : Cert.ReferenceIdeal.S48x4096.Idx → EReal := VR m' c (Proc.devRef .tc Cert.ReferenceIdeal.main_v119_0)
def rLog : Cert.ReferenceIdeal.S96x128.Idx → EReal := VR m' c (Proc.devRef .tc Cert.ReferenceIdeal.main_v119_1)

/-! ## The correspondences -/

def Rel1 : Prop := ∀ (n : Fin 48) (py px : Fin 14) (ch : Fin 64),
  rP1 m' c (ix4 n py px ch) = kP1 m c (ix2 (⟨n.val * 196 + py.val * 14 + px.val, by omega⟩ : Fin 9408) ch)

def Rel2 : Prop := ∀ (n : Fin 48) (py px : Fin 7) (ch : Fin 64),
  rP2 m' c (ix4 n py px ch) = kP2 m c (ix2 (⟨n.val * 49 + py.val * 7 + px.val, by omega⟩ : Fin 2352) ch)

def Rel3 : Prop := ∀ (n : Fin 48) (ch : Fin 128) (y x : Fin 7),
  rFeat m' c (ix2 n (⟨ch.val * 49 + y.val * 7 + x.val, by omega⟩ : Fin 6272)) = kY3 m c (ix2 (⟨n.val * 49 + y.val * 7 + x.val, by omega⟩ : Fin 2352) ch)

def Rel4 : Prop :=
  (∀ (hh : Fin 2) (n : Fin 48) (col : Fin 2048),
    rH m' c (ix2 n (⟨hh.val * 2048 + col.val, by omega⟩ : Fin 4096)) = kH m c (ix2 (⟨hh.val * 48 + n.val, by omega⟩ : Fin 96) col))
  ∧ (∀ (r : Fin 96) (l : Fin 128), rLog m' c (ix2 r l) = kLog m c (ix2 r l))

end Cert.Bridge

end
-- ==== Proof.Algebraic.lean ====
import proofs.«146356_g2000405529851509_pallasbulk_1335_10_alg».proof.Defs
import proofs.«146356_g2000405529851509_pallasbulk_1335_10_alg».proof.Proof.Gen.Pre_finite_inputs
import proofs.«146356_g2000405529851509_pallasbulk_1335_10_alg».proof.Proof.KIRun
import proofs.«146356_g2000405529851509_pallasbulk_1335_10_alg».proof.Proof.RIRun
import proofs.«146356_g2000405529851509_pallasbulk_1335_10_alg».proof.Proof.Bridge

/-!
# The two idealized programs end with equal results, given the four stages

Each program's run leaves every unscoped buffer at its last valuation; the results are four of those buffers and the
arguments eighteen more. So the claim follows once the four results are equal at the last valuations, which the stage
correspondences give in turn.
-/

set_option maxRecDepth 16384

noncomputable section

namespace Cert.Bridge

open Idealize.ShloMosaic Idealize.ShloMosaic.ValueIdx Idealize.SL.Sem

/-- The four results agree at the last valuations. -/
def ResultsAgree (m : KMem) (m' : RMem) (c : Dev Cert.KernelIdeal.nD) : Prop :=
  VR m' c (Proc.devRef .tc Cert.ReferenceIdeal.main_v122) = VK m c (Proc.devRef .tc Cert.KernelIdeal.main_v75)
  ∧ VR m' c (Proc.devRef .tc Cert.ReferenceIdeal.main_v123) = VK m c (Proc.devRef .tc Cert.KernelIdeal.main_v76)
  ∧ VR m' c (Proc.devRef .tc Cert.ReferenceIdeal.main_v120) = VK m c (Proc.devRef .tc Cert.KernelIdeal.main_v77)
  ∧ VR m' c (Proc.devRef .tc Cert.ReferenceIdeal.main_v121) = VK m c (Proc.devRef .tc Cert.KernelIdeal.main_v78)

set_option maxHeartbeats 2000000 in
theorem algebraic_of_results
    (hres : ∀ (m : KMem) (m' : RMem), Agree m m' → ∀ c, ResultsAgree m m' c) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  have hR := hres m m' hagree
  refine ⟨fun c => VK m c (Proc.devRef .tc Cert.KernelIdeal.main_v75), fun c => VK m c (Proc.devRef .tc Cert.KernelIdeal.main_v76),
    fun c => VK m c (Proc.devRef .tc Cert.KernelIdeal.main_v77), fun c => VK m c (Proc.devRef .tc Cert.KernelIdeal.main_v78), ?_, ?_⟩
  · refine (θ_run (Cert.KernelIdeal.defs (F := Ideal)) _ _).mono (fun r hk c => ?_) (Cert.KernelIdeal.Whole.run (F := Ideal) m ρ)
    exact ⟨hk c (Proc.devRef .tc Cert.KernelIdeal.main_v75) (Finset.mem_filter.mpr ⟨StableHlo.devRef_mem_tcRefs Cert.KernelIdeal.main_v75, by decide⟩), hk c (Proc.devRef .tc Cert.KernelIdeal.main_v76) (Finset.mem_filter.mpr ⟨StableHlo.devRef_mem_tcRefs Cert.KernelIdeal.main_v76, by decide⟩), hk c (Proc.devRef .tc Cert.KernelIdeal.main_v77) (Finset.mem_filter.mpr ⟨StableHlo.devRef_mem_tcRefs Cert.KernelIdeal.main_v77, by decide⟩), hk c (Proc.devRef .tc Cert.KernelIdeal.main_v78) (Finset.mem_filter.mpr ⟨StableHlo.devRef_mem_tcRefs Cert.KernelIdeal.main_v78, by decide⟩),
      (hk c _ (Finset.mem_filter.mpr ⟨StableHlo.devRef_mem_tcRefs Cert.KernelIdeal.main_arg0, by decide⟩)).trans (Cert.KernelIdeal.Gen.V20_main_arg0 m (Cert.KernelIdeal.Whole.outs m) c),
      (hk c _ (Finset.mem_filter.mpr ⟨StableHlo.devRef_mem_tcRefs Cert.KernelIdeal.main_arg1, by decide⟩)).trans (Cert.KernelIdeal.Gen.V20_main_arg1 m (Cert.KernelIdeal.Whole.outs m) c),
      (hk c _ (Finset.mem_filter.mpr ⟨StableHlo.devRef_mem_tcRefs Cert.KernelIdeal.main_arg2, by decide⟩)).trans (Cert.KernelIdeal.Gen.V20_main_arg2 m (Cert.KernelIdeal.Whole.outs m) c),
      (hk c _ (Finset.mem_filter.mpr ⟨StableHlo.devRef_mem_tcRefs Cert.KernelIdeal.main_arg3, by decide⟩)).trans (Cert.KernelIdeal.Gen.V20_main_arg3 m (Cert.KernelIdeal.Whole.outs m) c),
      (hk c _ (Finset.mem_filter.mpr ⟨StableHlo.devRef_mem_tcRefs Cert.KernelIdeal.main_arg4, by decide⟩)).trans (Cert.KernelIdeal.Gen.V20_main_arg4 m (Cert.KernelIdeal.Whole.outs m) c),
      (hk c _ (Finset.mem_filter.mpr ⟨StableHlo.devRef_mem_tcRefs Cert.KernelIdeal.main_arg5, by decide⟩)).trans (Cert.KernelIdeal.Gen.V20_main_arg5 m (Cert.KernelIdeal.Whole.outs m) c),
      (hk c _ (Finset.mem_filter.mpr ⟨StableHlo.devRef_mem_tcRefs Cert.KernelIdeal.main_arg6, by decide⟩)).trans (Cert.KernelIdeal.Gen.V20_main_arg6 m (Cert.KernelIdeal.Whole.outs m) c),
      (hk c _ (Finset.mem_filter.mpr ⟨StableHlo.devRef_mem_tcRefs Cert.KernelIdeal.main_arg7, by decide⟩)).trans (Cert.KernelIdeal.Gen.V20_main_arg7 m (Cert.KernelIdeal.Whole.outs m) c),
      (hk c _ (Finset.mem_filter.mpr ⟨StableHlo.devRef_mem_tcRefs Cert.KernelIdeal.main_arg8, by decide⟩)).trans (Cert.KernelIdeal.Gen.V20_main_arg8 m (Cert.KernelIdeal.Whole.outs m) c),
      (hk c _ (Finset.mem_filter.mpr ⟨StableHlo.devRef_mem_tcRefs Cert.KernelIdeal.main_arg9, by decide⟩)).trans (Cert.KernelIdeal.Gen.V20_main_arg9 m (Cert.KernelIdeal.Whole.outs m) c),
      (hk c _ (Finset.mem_filter.mpr ⟨StableHlo.devRef_mem_tcRefs Cert.KernelIdeal.main_arg10, by decide⟩)).trans (Cert.KernelIdeal.Gen.V20_main_arg10 m (Cert.KernelIdeal.Whole.outs m) c),
      (hk c _ (Finset.mem_filter.mpr ⟨StableHlo.devRef_mem_tcRefs Cert.KernelIdeal.main_arg11, by decide⟩)).trans (Cert.KernelIdeal.Gen.V20_main_arg11 m (Cert.KernelIdeal.Whole.outs m) c),
      (hk c _ (Finset.mem_filter.mpr ⟨StableHlo.devRef_mem_tcRefs Cert.KernelIdeal.main_arg12, by decide⟩)).trans (Cert.KernelIdeal.Gen.V20_main_arg12 m (Cert.KernelIdeal.Whole.outs m) c),
      (hk c _ (Finset.mem_filter.mpr ⟨StableHlo.devRef_mem_tcRefs Cert.KernelIdeal.main_arg13, by decide⟩)).trans (Cert.KernelIdeal.Gen.V20_main_arg13 m (Cert.KernelIdeal.Whole.outs m) c),
      (hk c _ (Finset.mem_filter.mpr ⟨StableHlo.devRef_mem_tcRefs Cert.KernelIdeal.main_arg14, by decide⟩)).trans (Cert.KernelIdeal.Gen.V20_main_arg14 m (Cert.KernelIdeal.Whole.outs m) c),
      (hk c _ (Finset.mem_filter.mpr ⟨StableHlo.devRef_mem_tcRefs Cert.KernelIdeal.main_arg15, by decide⟩)).trans (Cert.KernelIdeal.Gen.V20_main_arg15 m (Cert.KernelIdeal.Whole.outs m) c),
      (hk c _ (Finset.mem_filter.mpr ⟨StableHlo.devRef_mem_tcRefs Cert.KernelIdeal.main_arg16, by decide⟩)).trans (Cert.KernelIdeal.Gen.V20_main_arg16 m (Cert.KernelIdeal.Whole.outs m) c),
      (hk c _ (Finset.mem_filter.mpr ⟨StableHlo.devRef_mem_tcRefs Cert.KernelIdeal.main_arg17, by decide⟩)).trans (Cert.KernelIdeal.Gen.V20_main_arg17 m (Cert.KernelIdeal.Whole.outs m) c)⟩
  · refine (θ_run (Cert.ReferenceIdeal.defs (F := Ideal)) _ _).mono (fun r hr c => ?_) (Cert.ReferenceIdeal.Whole.run (F := Ideal) m' ρ')
    exact ⟨(hr c (Proc.devRef .tc Cert.ReferenceIdeal.main_v122) (Finset.mem_filter.mpr ⟨StableHlo.devRef_mem_tcRefs Cert.ReferenceIdeal.main_v122, by decide⟩)).trans (hR c).1, (hr c (Proc.devRef .tc Cert.ReferenceIdeal.main_v123) (Finset.mem_filter.mpr ⟨StableHlo.devRef_mem_tcRefs Cert.ReferenceIdeal.main_v123, by decide⟩)).trans (hR c).2.1,
      (hr c (Proc.devRef .tc Cert.ReferenceIdeal.main_v120) (Finset.mem_filter.mpr ⟨StableHlo.devRef_mem_tcRefs Cert.ReferenceIdeal.main_v120, by decide⟩)).trans (hR c).2.2.1, (hr c (Proc.devRef .tc Cert.ReferenceIdeal.main_v121) (Finset.mem_filter.mpr ⟨StableHlo.devRef_mem_tcRefs Cert.ReferenceIdeal.main_v121, by decide⟩)).trans (hR c).2.2.2,
      (hr c _ (Finset.mem_filter.mpr ⟨StableHlo.devRef_mem_tcRefs Cert.ReferenceIdeal.main_arg0, by decide⟩)).trans (Cert.ReferenceIdeal.Gen.V21_main_arg0 m' (Cert.ReferenceIdeal.Whole.outs m') c),
      (hr c _ (Finset.mem_filter.mpr ⟨StableHlo.devRef_mem_tcRefs Cert.ReferenceIdeal.main_arg1, by decide⟩)).trans (Cert.ReferenceIdeal.Gen.V21_main_arg1 m' (Cert.ReferenceIdeal.Whole.outs m') c),
      (hr c _ (Finset.mem_filter.mpr ⟨StableHlo.devRef_mem_tcRefs Cert.ReferenceIdeal.main_arg2, by decide⟩)).trans (Cert.ReferenceIdeal.Gen.V21_main_arg2 m' (Cert.ReferenceIdeal.Whole.outs m') c),
      (hr c _ (Finset.mem_filter.mpr ⟨StableHlo.devRef_mem_tcRefs Cert.ReferenceIdeal.main_arg3, by decide⟩)).trans (Cert.ReferenceIdeal.Gen.V21_main_arg3 m' (Cert.ReferenceIdeal.Whole.outs m') c),
      (hr c _ (Finset.mem_filter.mpr ⟨StableHlo.devRef_mem_tcRefs Cert.ReferenceIdeal.main_arg4, by decide⟩)).trans (Cert.ReferenceIdeal.Gen.V21_main_arg4 m' (Cert.ReferenceIdeal.Whole.outs m') c),
      (hr c _ (Finset.mem_filter.mpr ⟨StableHlo.devRef_mem_tcRefs Cert.ReferenceIdeal.main_arg5, by decide⟩)).trans (Cert.ReferenceIdeal.Gen.V21_main_arg5 m' (Cert.ReferenceIdeal.Whole.outs m') c),
      (hr c _ (Finset.mem_filter.mpr ⟨StableHlo.devRef_mem_tcRefs Cert.ReferenceIdeal.main_arg6, by decide⟩)).trans (Cert.ReferenceIdeal.Gen.V21_main_arg6 m' (Cert.ReferenceIdeal.Whole.outs m') c),
      (hr c _ (Finset.mem_filter.mpr ⟨StableHlo.devRef_mem_tcRefs Cert.ReferenceIdeal.main_arg7, by decide⟩)).trans (Cert.ReferenceIdeal.Gen.V21_main_arg7 m' (Cert.ReferenceIdeal.Whole.outs m') c),
      (hr c _ (Finset.mem_filter.mpr ⟨StableHlo.devRef_mem_tcRefs Cert.ReferenceIdeal.main_arg8, by decide⟩)).trans (Cert.ReferenceIdeal.Gen.V21_main_arg8 m' (Cert.ReferenceIdeal.Whole.outs m') c),
      (hr c _ (Finset.mem_filter.mpr ⟨StableHlo.devRef_mem_tcRefs Cert.ReferenceIdeal.main_arg9, by decide⟩)).trans (Cert.ReferenceIdeal.Gen.V21_main_arg9 m' (Cert.ReferenceIdeal.Whole.outs m') c),
      (hr c _ (Finset.mem_filter.mpr ⟨StableHlo.devRef_mem_tcRefs Cert.ReferenceIdeal.main_arg10, by decide⟩)).trans (Cert.ReferenceIdeal.Gen.V21_main_arg10 m' (Cert.ReferenceIdeal.Whole.outs m') c),
      (hr c _ (Finset.mem_filter.mpr ⟨StableHlo.devRef_mem_tcRefs Cert.ReferenceIdeal.main_arg11, by decide⟩)).trans (Cert.ReferenceIdeal.Gen.V21_main_arg11 m' (Cert.ReferenceIdeal.Whole.outs m') c),
      (hr c _ (Finset.mem_filter.mpr ⟨StableHlo.devRef_mem_tcRefs Cert.ReferenceIdeal.main_arg12, by decide⟩)).trans (Cert.ReferenceIdeal.Gen.V21_main_arg12 m' (Cert.ReferenceIdeal.Whole.outs m') c),
      (hr c _ (Finset.mem_filter.mpr ⟨StableHlo.devRef_mem_tcRefs Cert.ReferenceIdeal.main_arg13, by decide⟩)).trans (Cert.ReferenceIdeal.Gen.V21_main_arg13 m' (Cert.ReferenceIdeal.Whole.outs m') c),
      (hr c _ (Finset.mem_filter.mpr ⟨StableHlo.devRef_mem_tcRefs Cert.ReferenceIdeal.main_arg14, by decide⟩)).trans (Cert.ReferenceIdeal.Gen.V21_main_arg14 m' (Cert.ReferenceIdeal.Whole.outs m') c),
      (hr c _ (Finset.mem_filter.mpr ⟨StableHlo.devRef_mem_tcRefs Cert.ReferenceIdeal.main_arg15, by decide⟩)).trans (Cert.ReferenceIdeal.Gen.V21_main_arg15 m' (Cert.ReferenceIdeal.Whole.outs m') c),
      (hr c _ (Finset.mem_filter.mpr ⟨StableHlo.devRef_mem_tcRefs Cert.ReferenceIdeal.main_arg16, by decide⟩)).trans (Cert.ReferenceIdeal.Gen.V21_main_arg16 m' (Cert.ReferenceIdeal.Whole.outs m') c),
      (hr c _ (Finset.mem_filter.mpr ⟨StableHlo.devRef_mem_tcRefs Cert.ReferenceIdeal.main_arg17, by decide⟩)).trans (Cert.ReferenceIdeal.Gen.V21_main_arg17 m' (Cert.ReferenceIdeal.Whole.outs m') c)⟩

end Cert.Bridge

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.StageASpec.lean ====
/-
  The first convolution with its pooling, index by index: the numbers both programs compute.

  A patch row r = (image n, position y, x) of 128 taps is multiplied into each channel's filter column, scaled and
  shifted per channel and clamped below at zero (the activation); the pooled value at (n, py, px) is the maximum of
  the activation over the 2 × 2 window of positions (2 py + a, 2 px + b), taken first over b and then over a, each
  time from the word of minus infinity.
-/
import Idealize.ShloMosaic.PureOps.Ideal.Laws
import Idealize.ShloMosaic.Lib.ValueIdx

noncomputable section

namespace Cert.StageA

open Idealize.ShloMosaic Idealize.ShloMosaic.ValueIdx
open scoped BigOperators

/-- The activation at patch row `r` and channel `ch`: the row's product with the channel's filter column, times the
    channel's scale, plus its shift, clamped below at the zero word. -/
def act (cols : (⟨2, ![37632, 128]⟩ : Shape).Idx → EReal) (w : (⟨2, ![128, 128]⟩ : Shape).Idx → EReal)
    (s t : (⟨1, ![128]⟩ : Shape).Idx → EReal) (r : Fin 37632) (ch : Fin 128) : EReal :=
  max ((∑ k : Fin 128, cols (ix2 r k) * w (ix2 k ch)) * s (ix1 ch) + t (ix1 ch)) (Ideal.ofBits .f32 0x00000000#32)

/-- The patch row of image `n` at position (2 py + a, 2 px + b). -/
abbrev winRow (n : Fin 48) (py px : Fin 14) (a b : Fin 2) : Fin 37632 :=
  ⟨n.val * 784 + (2 * py.val + a.val) * 28 + (2 * px.val + b.val), by omega⟩

/-- A channel below 64 among the 128. -/
abbrev ch128 (ch : Fin 64) : Fin 128 := ⟨ch.val, by omega⟩

/-- The pooled value: the maximum over the window, over b inside and a outside, each from the word of minus infinity. -/
def pooled (A : Fin 37632 → Fin 128 → EReal) (n : Fin 48) (py px : Fin 14) (ch : Fin 64) : EReal :=
  (Finset.univ : Finset (Fin 2)).fold max (Ideal.ofBits .f32 0xFF800000#32) fun a =>
    (Finset.univ : Finset (Fin 2)).fold max (Ideal.ofBits .f32 0xFF800000#32) fun b =>
      A (winRow n py px a b) (ch128 ch)

end Cert.StageA

end
-- ==== Proof.StageAKPay.lean ====
/-
  The first convolution's kernel body at an index of its pooled block.

  The body's stored value is a chain of whole-block operations: the product of the patch rows with the filter matrix
  into a zero accumulator, the per-channel scale and shift, the clamp at zero, and two maxima over adjacent pairs — of
  positions along a row, then of rows. Read at the pooled row rho = (image i, py, px) of the block and channel ch it is
  the maximum, over the 2 × 2 window, of the activation at the patch row (i, 2 py + a, 2 px + b).
-/
import proofs.«146356_g2000405529851509_pallasbulk_1335_10_alg».proof.Proof.Gen.KernelIdeal.Skeleton
import proofs.«146356_g2000405529851509_pallasbulk_1335_10_alg».proof.Proof.LibPlainDot
import proofs.«146356_g2000405529851509_pallasbulk_1335_10_alg».proof.Proof.StageASpec
import Idealize.ShloMosaic.Lib.Pipeline.Value

set_option maxRecDepth 16384

noncomputable section

namespace Cert.StageA.KPay

open Cert.KernelIdeal Cert.KernelIdeal.Gen
open Idealize.ShloMosaic Idealize.ShloMosaic.ValueIdx
open scoped BigOperators

/-- The word of minus infinity and the zero word, as extended reals (never evaluated). -/
abbrev ninf : EReal := Ideal.ofBits .f32 0xFF800000#32
abbrev zero32 : EReal := Ideal.ofBits .f32 0x00000000#32

/-- The activation block: product, scale, shift, clamp. -/
def actBlk (v0 : Vec Ideal S6272x128 .bf16) (v2 : Vec Ideal S128x64 .bf16) (v5 v9 : Vec Ideal S1x64 .f32) :
    FVec Ideal S6272x64 .f32 :=
  maximumf
    (addf
      (mulf
        (matmul (F := Ideal) (φ₁ := .bf16) (φ₂ := .bf16) dot_S6272x128_S128x64_S6272x64_1_0_0_1_n_n none
          (shapeCast S6272x128 v0 shapeCasts_S6272x128_S6272x128 : FVec Ideal S6272x128 .bf16)
          (shapeCast S128x64 v2 shapeCasts_S128x64_S128x64 : FVec Ideal S128x64 .bf16) (constant S6272x64 .f32 0x00000000#32))
        (broadcastTo S6272x64 (shapeCast S1x64 v5 shapeCasts_S1x64_S1x64 : FVec Ideal S1x64 .f32) broadcasts_S1x64_S6272x64 : FVec Ideal S6272x64 .f32))
      (broadcastTo S6272x64 (shapeCast S1x64 v9 shapeCasts_S1x64_S1x64 : FVec Ideal S1x64 .f32) broadcasts_S1x64_S6272x64 : FVec Ideal S6272x64 .f32))
    (broadcast S6272x64 (Scalar.ofBits (F := Ideal) .f32 0x00000000#32) : FVec Ideal S6272x64 .f32)

/-- The maximum over adjacent pairs of rows (positions 2 px, 2 px + 1 of one image row). -/
def poolX (src : FVec Ideal S6272x64 .f32) : FVec Ideal S3136x64 .f32 :=
  multiReduction (F := Ideal) (φ := .f32) .maximumf [1] S3136x64 (shapeCast S3136x2x64 src shapeCasts_S6272x64_S3136x2x64 : FVec Ideal S3136x2x64 .f32) 0xFF800000#32
    reduces_S3136x2x64_S3136x64 (.inl rfl) rfl

/-- The maximum over the two image rows 2 py, 2 py + 1, laid out again as rows of the pooled block. -/
def poolY (src : FVec Ideal S3136x64 .f32) : FVec Ideal S1568x64 .f32 :=
  shapeCast S1568x64
    (multiReduction (F := Ideal) (φ := .f32) .maximumf [2] S8x14x14x64 (shapeCast S8x14x2x14x64 src shapeCasts_S3136x64_S8x14x2x14x64 : FVec Ideal S8x14x2x14x64 .f32) 0xFF800000#32
      reduces_S8x14x2x14x64_S8x14x14x64 (.inl rfl) rfl : FVec Ideal S8x14x14x64 .f32)
    shapeCasts_S8x14x14x64_S1568x64

/-- The body's stored value is that composition. -/
theorem pay_eq (v0 : Vec Ideal S6272x128 .bf16) (v2 : Vec Ideal S128x64 .bf16) (v5 v9 : Vec Ideal S1x64 .f32) :
    k0_pay1 v0 v2 v5 v9 = truncf .bf16 (poolY (poolX (actBlk v0 v2 v5 v9))) bitsLt_bf16_f32 := rfl

/-- The activation at row `r` of a block of patch rows and channel `ch` of the 64. -/
def actK (v0 : Vec Ideal S6272x128 .bf16) (v2 : Vec Ideal S128x64 .bf16) (v5 v9 : Vec Ideal S1x64 .f32)
    (r : Fin 6272) (ch : Fin 64) : EReal :=
  max ((∑ k : Fin 128, v0 (ix2 r k) * v2 (ix2 k ch)) * v5 (ix2 (0 : Fin 1) ch) + v9 (ix2 (0 : Fin 1) ch)) zero32

theorem act_apply (v0 : Vec Ideal S6272x128 .bf16) (v2 : Vec Ideal S128x64 .bf16) (v5 v9 : Vec Ideal S1x64 .f32)
    (r : Fin 6272) (ch : Fin 64) : actBlk v0 v2 v5 v9 (ix2 r ch) = actK v0 v2 v5 v9 r ch := by
  unfold actBlk actK
  rw [maximumf_apply, addf_apply, mulf_apply, broadcast_apply]
  rw [shapeCast_self v0, shapeCast_self v2, shapeCast_self v5, shapeCast_self v9]
  rw [broadcastTo_apply v5 broadcasts_S1x64_S6272x64 (ix2 r ch) (ix2 (0 : Fin 1) ch)
      (fun a => by match a with | ⟨0, _⟩ => rfl | ⟨1, _⟩ => rfl),
    broadcastTo_apply v9 broadcasts_S1x64_S6272x64 (ix2 r ch) (ix2 (0 : Fin 1) ch)
      (fun a => by match a with | ⟨0, _⟩ => rfl | ⟨1, _⟩ => rfl)]
  simp only [matmul]
  rw [Cert.Lib.PlainDot.matmul_zero_apply dot_S6272x128_S128x64_S6272x64_1_0_0_1_n_n rfl none v0 v2 (ix2 r ch)]
  unfold Cert.Lib.PlainDot.mm
  have el : ∀ k : Fin 128, Cert.Lib.PlainDot.rowIdx (K := 128) (ix2 r ch) k = ix2 r k := fun k =>
    funext fun a => by match a with | ⟨0, _⟩ => rfl | ⟨1, _⟩ => rfl
  have er : ∀ k : Fin 128, Cert.Lib.PlainDot.colIdx (K := 128) (ix2 r ch) k = ix2 k ch := fun k =>
    funext fun a => by match a with | ⟨0, _⟩ => rfl | ⟨1, _⟩ => rfl
  simp only [el, er]
  rfl

theorem liftX (q : Fin 3136) (ch : Fin 64) (b : Fin 2) :
    reduces_S3136x2x64_S3136x64.lift (ix2 q ch) b = ix3 q b ch := by
  funext a; apply Fin.ext
  match a with
  | ⟨0, _⟩ => rfl
  | ⟨1, _⟩ => rfl
  | ⟨2, _⟩ => rfl

theorem poolX_apply (src : FVec Ideal S6272x64 .f32) (q : Fin 3136) (ch : Fin 64) :
    poolX src (ix2 q ch) = (Finset.univ : Finset (Fin 2)).fold max ninf
      (fun b => src (ix2 (⟨2 * q.val + b.val, by omega⟩ : Fin 6272) ch)) := by
  unfold poolX
  refine (Ideal.multiReduction_maximumf_single (shapeCast S3136x2x64 src shapeCasts_S6272x64_S3136x2x64) 0xFF800000#32
    reduces_S3136x2x64_S3136x64 (.inl rfl) rfl (ix2 q ch)).trans ?_
  show (Finset.univ : Finset (Fin 2)).fold max ninf
      (fun b : Fin 2 => shapeCast S3136x2x64 src shapeCasts_S6272x64_S3136x2x64
        (reduces_S3136x2x64_S3136x64.lift (ix2 q ch) b)) = _
  refine congrArg (fun f => (Finset.univ : Finset (Fin 2)).fold max ninf f) (funext fun b => ?_)
  rw [liftX]
  refine shapeCast_apply src _ (ix3 q b ch) (ix2 (⟨2 * q.val + b.val, by omega⟩ : Fin 6272) ch) ?_
  rw [Shape.rowMajor_val_two, Shape.rowMajor_val_three]
  show (2 * q.val + b.val) * 64 + ch.val = (q.val * 2 + b.val) * 64 + ch.val
  omega

theorem liftY (i : Fin 8) (py px : Fin 14) (ch : Fin 64) (a : Fin 2) :
    reduces_S8x14x2x14x64_S8x14x14x64.lift (ix4 i py px ch) a = ix5 i py a px ch := by
  funext c; apply Fin.ext
  match c with
  | ⟨0, _⟩ => rfl
  | ⟨1, _⟩ => rfl
  | ⟨2, _⟩ => rfl
  | ⟨3, _⟩ => rfl
  | ⟨4, _⟩ => rfl

theorem poolY_apply (src : FVec Ideal S3136x64 .f32) (ρ : Fin 1568) (ch : Fin 64) :
    poolY src (ix2 ρ ch) = (Finset.univ : Finset (Fin 2)).fold max ninf
      (fun a => src (ix2 (⟨ρ.val / 196 * 392 + ρ.val / 14 % 14 * 28 + a.val * 14 + ρ.val % 14, by omega⟩ : Fin 3136) ch)) := by
  unfold poolY
  refine (shapeCast_apply _ shapeCasts_S8x14x14x64_S1568x64 (ix2 ρ ch)
    (ix4 (⟨ρ.val / 196, by omega⟩ : Fin 8) (⟨ρ.val / 14 % 14, by omega⟩ : Fin 14) (⟨ρ.val % 14, by omega⟩ : Fin 14) ch) ?_).trans ?_
  · rw [Shape.rowMajor_val_four, Shape.rowMajor_val_two]
    show ((ρ.val / 196 * 14 + ρ.val / 14 % 14) * 14 + ρ.val % 14) * 64 + ch.val = ρ.val * 64 + ch.val
    omega
  refine (Ideal.multiReduction_maximumf_single (shapeCast S8x14x2x14x64 src shapeCasts_S3136x64_S8x14x2x14x64) 0xFF800000#32
    reduces_S8x14x2x14x64_S8x14x14x64 (.inl rfl) rfl _).trans ?_
  show (Finset.univ : Finset (Fin 2)).fold max ninf
      (fun a : Fin 2 => shapeCast S8x14x2x14x64 src shapeCasts_S3136x64_S8x14x2x14x64
        (reduces_S8x14x2x14x64_S8x14x14x64.lift
          (ix4 (⟨ρ.val / 196, by omega⟩ : Fin 8) (⟨ρ.val / 14 % 14, by omega⟩ : Fin 14) (⟨ρ.val % 14, by omega⟩ : Fin 14) ch) a)) = _
  refine congrArg (fun f => (Finset.univ : Finset (Fin 2)).fold max ninf f) (funext fun a => ?_)
  rw [liftY]
  refine shapeCast_apply src _ _ (ix2 (⟨ρ.val / 196 * 392 + ρ.val / 14 % 14 * 28 + a.val * 14 + ρ.val % 14, by omega⟩ : Fin 3136) ch) ?_
  rw [Shape.rowMajor_val_two, Shape.rowMajor_val_five]
  show (ρ.val / 196 * 392 + ρ.val / 14 % 14 * 28 + a.val * 14 + ρ.val % 14) * 64 + ch.val
    = ((((ρ.val / 196) * 14 + ρ.val / 14 % 14) * 2 + a.val) * 14 + ρ.val % 14) * 64 + ch.val
  omega

/-- The patch row, inside a block of eight images, of pooled row `ρ` at window offsets (a, b). -/
abbrev blkRow (ρ : Fin 1568) (a b : Fin 2) : Fin 6272 :=
  ⟨ρ.val / 196 * 784 + (2 * (ρ.val / 14 % 14) + a.val) * 28 + (2 * (ρ.val % 14) + b.val), by omega⟩

/-- THE BODY'S VALUE at pooled row `ρ` and channel `ch`: the maximum of the activation over the window. -/
theorem pay_apply (v0 : Vec Ideal S6272x128 .bf16) (v2 : Vec Ideal S128x64 .bf16) (v5 v9 : Vec Ideal S1x64 .f32)
    (ρ : Fin 1568) (ch : Fin 64) :
    k0_pay1 v0 v2 v5 v9 (ix2 ρ ch) = (Finset.univ : Finset (Fin 2)).fold max ninf fun a =>
      (Finset.univ : Finset (Fin 2)).fold max ninf fun b => actK v0 v2 v5 v9 (blkRow ρ a b) ch := by
  refine (congrFun (pay_eq v0 v2 v5 v9) (ix2 ρ ch)).trans ?_
  rw [truncf_apply, poolY_apply]
  refine congrArg (fun f => (Finset.univ : Finset (Fin 2)).fold max ninf f) (funext fun a => ?_)
  rw [poolX_apply]
  refine congrArg (fun f => (Finset.univ : Finset (Fin 2)).fold max ninf f) (funext fun b => ?_)
  rw [act_apply]
  refine congrArg (fun r => actK v0 v2 v5 v9 r ch) (Fin.ext ?_)
  show 2 * (ρ.val / 196 * 392 + ρ.val / 14 % 14 * 28 + a.val * 14 + ρ.val % 14) + b.val
    = ρ.val / 196 * 784 + (2 * (ρ.val / 14 % 14) + a.val) * 28 + (2 * (ρ.val % 14) + b.val)
  omega

end Cert.StageA.KPay

end
-- ==== Proof.StageAKArray.lean ====
/-
  The first convolution's region: from the pooled blocks to the pooled array.

  Grid point t stores the pooled rows 1568 t … 1568 t + 1567 (eight images) computed from the patch rows
  6272 t … 6272 t + 6271 and the whole filter, scale and shift arrays. Every stored block is therefore a block of ONE
  function of the arrays the region finds: at pooled row R = (image n, py, px) and channel ch, the maximum over the
  2 × 2 window of the activation at patch row (n, 2 py + a, 2 px + b). The six blocks tile the array.
-/
import proofs.«146356_g2000405529851509_pallasbulk_1335_10_alg».proof.Proof.KIFirstConv
import proofs.«146356_g2000405529851509_pallasbulk_1335_10_alg».proof.Proof.StageAKPay
import Idealize.ShloMosaic.Lib.Pipeline.Value

set_option maxRecDepth 16384

noncomputable section

namespace Cert.StageA.KArray

open Cert.KernelIdeal Cert.KernelIdeal.Gen
open Idealize.ShloMosaic Idealize.ShloMosaic.TcCoe Idealize.ShloMosaic.ValueIdx Idealize.SL.Sem
open Idealize.ShloMosaic.Pipeline (Dat)
open Cert.StageA.KPay
open scoped BigOperators

-- the buffers' contents when the region is entered
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The activation at patch row `r` and channel `ch`, from the whole arrays. -/
def actW (cols : S37632x128.Idx → EReal) (w : S128x64.Idx → EReal) (s t : S1x64.Idx → EReal)
    (r : Fin 37632) (ch : Fin 64) : EReal :=
  max ((∑ k : Fin 128, cols (ix2 r k) * w (ix2 k ch)) * s (ix2 (0 : Fin 1) ch) + t (ix2 (0 : Fin 1) ch)) zero32

/-- The patch row of pooled row `R` at window offsets (a, b). -/
abbrev arrRow (R : Fin 9408) (a b : Fin 2) : Fin 37632 :=
  ⟨R.val / 196 * 784 + (2 * (R.val / 14 % 14) + a.val) * 28 + (2 * (R.val % 14) + b.val), by omega⟩

/-- The pooled value at pooled row `R` and channel `ch`. -/
def Gv (cols : S37632x128.Idx → EReal) (w : S128x64.Idx → EReal) (s t : S1x64.Idx → EReal) (R : Fin 9408) (ch : Fin 64) : EReal :=
  (Finset.univ : Finset (Fin 2)).fold max ninf fun a =>
    (Finset.univ : Finset (Fin 2)).fold max ninf fun b => actW cols w s t (arrRow R a b) ch

/-- The pooled array as one function of the arrays the region reads. -/
def G (cols : S37632x128.Idx → EReal) (w : S128x64.Idx → EReal) (s t : S1x64.Idx → EReal) : S9408x64.Idx → EReal :=
  fun j => Gv cols w s t (j 0) (j 1)

/-- The printed index maps, decided over the grid. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 5 ∧ win0_4.index t (1 : Fin 2) = 0 :=
  (by decide +kernel : ∀ t : Fin grid0.N, _)

/-- Every block of pooled rows is some point's. -/
theorem idx_onto : ∀ q : Fin 6, ∃ t : Fin cfg0.N, win0_4.index t (0 : Fin 2) = q.val :=
  (by decide +kernel : ∀ q : Fin 6, ∃ t : Fin grid0.N, win0_4.index t (0 : Fin 2) = q.val)

/-- The patch rows' block at point t, read where it sits in the array. -/
theorem blk_cols (t : Fin cfg0.N) (lr : Fin 6272) (k : Fin 128) (q : Nat)
    (h0 : win0_0.index t (0 : Fin 2) = q) (h1 : win0_0.index t (1 : Fin 2) = 0) (hq : q ≤ 5) :
    FirstConv.iblk V c 0 t (ix2 lr k) = V c main_v32 (ix2 (⟨q * 6272 + lr.val, by omega⟩ : Fin 37632) k) := by
  show V c main_v32 (((cfg0.win 0).blk t).view.emb (ix2 lr k)) = _
  refine congrArg (V c main_v32) (funext fun a => Fin.ext ?_)
  match a with
  | ⟨0, _⟩ => show win0_0.index t (0 : Fin 2) * 6272 + 1 * lr.val = q * 6272 + lr.val; omega
  | ⟨1, _⟩ => show win0_0.index t (1 : Fin 2) * 128 + 1 * k.val = k.val; omega

/-- The filter block is the whole filter array. -/
theorem blk_w (t : Fin cfg0.N) (k : Fin 128) (ch : Fin 64)
    (h0 : win0_1.index t (0 : Fin 2) = 0) (h1 : win0_1.index t (1 : Fin 2) = 0) :
    FirstConv.iblk V c 1 t (ix2 k ch) = V c main_v33 (ix2 k ch) := by
  show V c main_v33 (((cfg0.win 1).blk t).view.emb (ix2 k ch)) = _
  refine congrArg (V c main_v33) (funext fun a => Fin.ext ?_)
  match a with
  | ⟨0, _⟩ => show win0_1.index t (0 : Fin 2) * 128 + 1 * k.val = k.val; omega
  | ⟨1, _⟩ => show win0_1.index t (1 : Fin 2) * 64 + 1 * ch.val = ch.val; omega

/-- The scale block is the whole scale array. -/
theorem blk_s (t : Fin cfg0.N) (z : Fin 1) (ch : Fin 64)
    (h0 : win0_2.index t (0 : Fin 2) = 0) (h1 : win0_2.index t (1 : Fin 2) = 0) :
    FirstConv.iblk V c 2 t (ix2 z ch) = V c main_v35 (ix2 z ch) := by
  show V c main_v35 (((cfg0.win 2).blk t).view.emb (ix2 z ch)) = _
  refine congrArg (V c main_v35) (funext fun a => Fin.ext ?_)
  match a with
  | ⟨0, _⟩ => show win0_2.index t (0 : Fin 2) * 1 + 1 * z.val = z.val; omega
  | ⟨1, _⟩ => show win0_2.index t (1 : Fin 2) * 64 + 1 * ch.val = ch.val; omega

/-- The shift block is the whole shift array. -/
theorem blk_t (t : Fin cfg0.N) (z : Fin 1) (ch : Fin 64)
    (h0 : win0_3.index t (0 : Fin 2) = 0) (h1 : win0_3.index t (1 : Fin 2) = 0) :
    FirstConv.iblk V c 3 t (ix2 z ch) = V c main_v37 (ix2 z ch) := by
  show V c main_v37 (((cfg0.win 3).blk t).view.emb (ix2 z ch)) = _
  refine congrArg (V c main_v37) (funext fun a => Fin.ext ?_)
  match a with
  | ⟨0, _⟩ => show win0_3.index t (0 : Fin 2) * 1 + 1 * z.val = z.val; omega
  | ⟨1, _⟩ => show win0_3.index t (1 : Fin 2) * 64 + 1 * ch.val = ch.val; omega

/-- WHAT POINT t WRITES BACK is block t of `G` of the arrays as the region finds them. -/
theorem flushed_eq (t : Fin cfg0.N) :
    (FirstConv.dat V c).flushed 4 t
      = ((cfg0.win 4).blk t).view.read (Elt Ideal) (G (V c main_v32) (V c main_v33) (V c main_v35) (V c main_v37)) := by
  show (cfg0.win 4).cut (grid0.coords t) ((FirstConv.dat V c).after 4 t) = _
  rw [FirstConv.after4]
  unfold FirstConv.outBlock
  rw [View.canon_unit_zero hz]
  simp only [View.ld_unit_zero (S := S6272x128) hz, View.ld_unit_zero (S := S128x64) hz, View.ld_unit_zero (S := S1x64) hz]
  obtain ⟨e00, e01, e10, e11, e20, e21, e30, e31, e4b, e41⟩ := idx_facts t
  funext y
  obtain ⟨ρ, ch, rfl⟩ : ∃ (ρ : Fin 1568) (ch : Fin 64), y = ix2 ρ ch := ⟨y 0, y 1, eq_ix2 y⟩
  have hemb : ((cfg0.win 4).blk t).view.emb (ix2 ρ ch)
      = ix2 (⟨win0_4.index t (0 : Fin 2) * 1568 + ρ.val, by omega⟩ : Fin 9408) ch :=
    funext fun a => Fin.ext (by
      match a with
      | ⟨0, _⟩ => show win0_4.index t (0 : Fin 2) * 1568 + 1 * ρ.val = win0_4.index t (0 : Fin 2) * 1568 + ρ.val; omega
      | ⟨1, _⟩ => show win0_4.index t (1 : Fin 2) * 64 + 1 * ch.val = ch.val; omega)
  show k0_pay1 (FirstConv.iblk V c 0 t) (FirstConv.iblk V c 1 t) (FirstConv.iblk V c 2 t) (FirstConv.iblk V c 3 t) (ix2 ρ ch)
    = G (V c main_v32) (V c main_v33) (V c main_v35) (V c main_v37) (((cfg0.win 4).blk t).view.emb (ix2 ρ ch))
  rw [hemb]
  refine (pay_apply (FirstConv.iblk V c 0 t) (FirstConv.iblk V c 1 t) (FirstConv.iblk V c 2 t) (FirstConv.iblk V c 3 t) ρ ch).trans ?_
  show _ = Gv (V c main_v32) (V c main_v33) (V c main_v35) (V c main_v37)
    (⟨win0_4.index t (0 : Fin 2) * 1568 + ρ.val, by omega⟩ : Fin 9408) ch
  unfold Gv
  refine congrArg (fun f => (Finset.univ : Finset (Fin 2)).fold max ninf f) (funext fun a => ?_)
  refine congrArg (fun f => (Finset.univ : Finset (Fin 2)).fold max ninf f) (funext fun b => ?_)
  unfold actK actW
  have hc : ∀ k : Fin 128, FirstConv.iblk V c 0 t (ix2 (blkRow ρ a b) k)
      = V c main_v32 (ix2 (arrRow (⟨win0_4.index t (0 : Fin 2) * 1568 + ρ.val, by omega⟩ : Fin 9408) a b) k) := fun k =>
    (blk_cols V c t (blkRow ρ a b) k (win0_4.index t (0 : Fin 2)) e00 e01 e4b).trans
      (congrArg (fun r => V c main_v32 (ix2 r k)) (Fin.ext (by
        show win0_4.index t (0 : Fin 2) * 6272 + (ρ.val / 196 * 784 + (2 * (ρ.val / 14 % 14) + a.val) * 28 + (2 * (ρ.val % 14) + b.val))
          = (win0_4.index t (0 : Fin 2) * 1568 + ρ.val) / 196 * 784
            + (2 * ((win0_4.index t (0 : Fin 2) * 1568 + ρ.val) / 14 % 14) + a.val) * 28
            + (2 * ((win0_4.index t (0 : Fin 2) * 1568 + ρ.val) % 14) + b.val)
        have hρ : ρ.val < 1568 := ρ.isLt
        omega)))
  have hw : ∀ k : Fin 128, FirstConv.iblk V c 1 t (ix2 k ch) = V c main_v33 (ix2 k ch) := fun k => blk_w V c t k ch e10 e11
  rw [Finset.sum_congr rfl (fun k _ => by rw [hc k, hw k]), blk_s V c t 0 ch e20 e21, blk_t V c t 0 ch e30 e31]

/-- An index of the array is in point t's block iff each coordinate is in the block's range on its axis. -/
theorem mem_blk (t : Fin cfg0.N) (i : S9408x64.Idx) :
    i ∈ ((cfg0.win 4).blk t).view.set ↔ ∀ a : Fin 2, win0_4.index t a * S1568x64.size a ≤ (i a).val
      ∧ (i a).val < win0_4.index t a * S1568x64.size a + S1568x64.size a := by
  show i ∈ ((View.whole main_v38).slice (win0_4.rect t)).set ↔ _
  rw [View.set_slice_whole, Rect.mem_set_unit]
  exact Iff.rfl

/-- The six blocks tile the pooled array. -/
theorem cover (i : S9408x64.Idx) :
    ∃ t : Fin cfg0.N, (cfg0.win 4).flush t = true ∧ i ∈ ((cfg0.win 4).blk t).view.set := by
  have hi0 : (i 0).val < 9408 := (i 0).isLt
  have hi1 : (i 1).val < 64 := (i 1).isLt
  obtain ⟨t, ht⟩ := idx_onto ⟨(i 0).val / 1568, by omega⟩
  obtain ⟨-, -, -, -, -, -, -, -, -, e41⟩ := idx_facts t
  have hq : win0_4.index t (0 : Fin 2) = (i 0).val / 1568 := ht
  refine ⟨t, flush0_4 t, ?_⟩
  rw [mem_blk]
  intro a
  match a with
  | ⟨0, _⟩ =>
    show win0_4.index t (0 : Fin 2) * 1568 ≤ (i 0).val ∧ (i 0).val < win0_4.index t (0 : Fin 2) * 1568 + 1568
    omega
  | ⟨1, _⟩ =>
    show win0_4.index t (1 : Fin 2) * 64 ≤ (i 1).val ∧ (i 1).val < win0_4.index t (1 : Fin 2) * 64 + 64
    omega

/-- THE POOLED ARRAY after the region: `G` of the arrays the region finds. -/
theorem final : (FirstConv.dat V c).arrAt 4 cfg0.N = G (V c main_v32) (V c main_v33) (V c main_v35) (V c main_v37) :=
  (FirstConv.dat V c).arrAt_eq_of_cover 4 _ (fun t _ => flushed_eq V c t) (cover)

end Cert.StageA.KArray

end
-- ==== Proof.StageAKSide.lean ====
/-
  The idealized kernel's pooled first convolution, from its arguments.

  The last valuation's pooled array is the first region's result array (no later item writes it), which is the one
  function of the arrays the region finds; the filter, scale and shift arrays the region finds are the first 64
  channels of the arguments.
-/
import proofs.«146356_g2000405529851509_pallasbulk_1335_10_alg».proof.Proof.Bridge
import proofs.«146356_g2000405529851509_pallasbulk_1335_10_alg».proof.Proof.StageAKArray
import proofs.«146356_g2000405529851509_pallasbulk_1335_10_alg».proof.Proof.StageASpec
import Idealize.ShloMosaic.Lib.StableHlo.Run

set_option maxRecDepth 16384

noncomputable section

namespace Cert.StageA.KSide

open Cert.KernelIdeal Cert.KernelIdeal.Gen
open Idealize.ShloMosaic Idealize.ShloMosaic.TcCoe Idealize.ShloMosaic.StableHlo Idealize.ShloMosaic.ValueIdx Idealize.SL.Sem

variable (m : Cert.Bridge.KMem) (c : Dev nD)

/-- The pooled array at the end is what the first region leaves: the one function of the arrays it finds. -/
theorem kP1_eq :
    Cert.Bridge.kP1 m c
      = Cert.StageA.KArray.G (Gen.V5 m c (Proc.devRef .tc main_v32)) (Gen.V5 m c (Proc.devRef .tc main_v33))
          (Gen.V5 m c (Proc.devRef .tc main_v35)) (Gen.V5 m c (Proc.devRef .tc main_v37)) := by
  unfold Cert.Bridge.kP1
  show Gen.V20 m (Whole.outs m) c (Proc.devRef .tc main_v38) = _
  refine (Gen.V20_of m (Whole.outs m) c main_v38 (by decide)).trans ?_
  refine (Gen.V19_of m (Whole.outs m) c main_v38 (by decide)).trans ?_
  refine (Gen.V18_of m (Whole.outs m) c main_v38 (by decide)).trans ?_
  refine (Gen.V17_of m (Whole.outs m) c main_v38 (by decide)).trans ?_
  refine (Gen.V16_of m (Whole.outs m) c main_v38 (by decide)).trans ?_
  refine (Gen.V15_of m (Whole.outs m) c main_v38 (by decide)).trans ?_
  refine (Gen.V14_of m (Whole.outs m) c main_v38 (by decide)).trans ?_
  refine (Gen.V13_of m (Whole.outs m) c main_v38 (by decide)).trans ?_
  refine (Gen.V12_of m (Whole.outs m) c main_v38 (by decide)).trans ?_
  refine (Gen.V11_of m (Whole.outs m) c main_v38 (by decide)).trans ?_
  refine (Gen.V10_of m (Whole.outs m) c main_v38 (by decide)).trans ?_
  refine (Gen.V9_of m (Whole.outs m) c main_v38 (by decide)).trans ?_
  refine (Gen.V8_of m (Whole.outs m) c main_v38 (by decide)).trans ?_
  refine (Gen.V7_of m (Whole.outs m) c main_v38 (by decide)).trans ?_
  refine (Whole.hF0 m c 4).symm.trans ?_
  exact Cert.StageA.KArray.final (Whole.atTc (Gen.V5 m)) c

/-- No host stretch before the region writes an argument. -/
theorem arg1_eq : Gen.V4 m c (Proc.devRef .tc main_arg1) = m ((c.tc : Thread nD τ).loc main_arg1) :=
  (Gen.V4_of m c main_arg1 (by decide)).trans ((Gen.V3_of m c main_arg1 (by decide)).trans
    ((Gen.V2_of m c main_arg1 (by decide)).trans (Gen.V1_of m c main_arg1 (by decide))))
theorem arg2_eq : Gen.V4 m c (Proc.devRef .tc main_arg2) = m ((c.tc : Thread nD τ).loc main_arg2) :=
  (Gen.V4_of m c main_arg2 (by decide)).trans ((Gen.V3_of m c main_arg2 (by decide)).trans
    ((Gen.V2_of m c main_arg2 (by decide)).trans (Gen.V1_of m c main_arg2 (by decide))))
theorem arg3_eq : Gen.V4 m c (Proc.devRef .tc main_arg3) = m ((c.tc : Thread nD τ).loc main_arg3) :=
  (Gen.V4_of m c main_arg3 (by decide)).trans ((Gen.V3_of m c main_arg3 (by decide)).trans
    ((Gen.V2_of m c main_arg3 (by decide)).trans (Gen.V1_of m c main_arg3 (by decide))))

/-- The filter matrix the region finds: the first 64 columns of the argument. -/
theorem w_apply (k : Fin 128) (ch : Fin 64) :
    (Gen.V5 m c (Proc.devRef .tc main_v33) : S128x64.Idx → EReal) (ix2 k ch)
      = (m ((c.tc : Thread nD τ).loc main_arg1) : S128x128.Idx → EReal) (ix2 k (Cert.StageA.ch128 ch)) := by
  have e : (Gen.V5 m c (Proc.devRef .tc main_v33) : S128x64.Idx → EReal)
      = extractStridedSlice S128x64 ![0, 0] (Gen.V4 m c (Proc.devRef .tc main_arg1) : FVec Ideal S128x128 .bf16)
          slices_S128x128_S128x64_0_0 := by
    dsimp only [Gen.V5, Gen.hostOps0_4]
    generalize Gen.V4 m c = W
    after_results
    all_goals rfl
  rw [e, arg1_eq]
  refine extractStridedSlice_apply _ _ _ (ix2 k ch) (ix2 k (Cert.StageA.ch128 ch)) (fun a => ?_)
  match a with
  | ⟨0, _⟩ => show k.val = 0 + k.val; omega
  | ⟨1, _⟩ => show ch.val = 0 + ch.val; omega

/-- The scale row the region finds: the first 64 entries of the argument. -/
theorem s_apply (ch : Fin 64) :
    (Gen.V5 m c (Proc.devRef .tc main_v35) : S1x64.Idx → EReal) (ix2 (0 : Fin 1) ch)
      = (m ((c.tc : Thread nD τ).loc main_arg2) : S128.Idx → EReal) (ix1 (Cert.StageA.ch128 ch)) := by
  have e : (Gen.V5 m c (Proc.devRef .tc main_v35) : S1x64.Idx → EReal)
      = shapeCast S1x64 (extractStridedSlice S64 ![0] (Gen.V4 m c (Proc.devRef .tc main_arg2) : FVec Ideal S128 .f32)
          slices_S128_S64_0 : FVec Ideal S64 .f32) shapeCasts_S64_S1x64 := by
    dsimp only [Gen.V5, Gen.hostOps0_4]
    generalize Gen.V4 m c = W
    after_results
    all_goals rfl
  rw [e, arg2_eq]
  refine (shapeCast_apply _ shapeCasts_S64_S1x64 (ix2 (0 : Fin 1) ch) (ix1 ch) ?_).trans ?_
  · rw [Shape.rowMajor_val_one, Shape.rowMajor_val_two]
    show ch.val = 0 * 64 + ch.val
    omega
  refine extractStridedSlice_apply _ _ _ (ix1 ch) (ix1 (Cert.StageA.ch128 ch)) (fun a => ?_)
  match a with
  | ⟨0, _⟩ => show ch.val = 0 + ch.val; omega

/-- The shift row the region finds: the first 64 entries of the argument. -/
theorem t_apply (ch : Fin 64) :
    (Gen.V5 m c (Proc.devRef .tc main_v37) : S1x64.Idx → EReal) (ix2 (0 : Fin 1) ch)
      = (m ((c.tc : Thread nD τ).loc main_arg3) : S128.Idx → EReal) (ix1 (Cert.StageA.ch128 ch)) := by
  have e : (Gen.V5 m c (Proc.devRef .tc main_v37) : S1x64.Idx → EReal)
      = shapeCast S1x64 (extractStridedSlice S64 ![0] (Gen.V4 m c (Proc.devRef .tc main_arg3) : FVec Ideal S128 .f32)
          slices_S128_S64_0 : FVec Ideal S64 .f32) shapeCasts_S64_S1x64 := by
    dsimp only [Gen.V5, Gen.hostOps0_4]
    generalize Gen.V4 m c = W
    after_results
    all_goals rfl
  rw [e, arg3_eq]
  refine (shapeCast_apply _ shapeCasts_S64_S1x64 (ix2 (0 : Fin 1) ch) (ix1 ch) ?_).trans ?_
  · rw [Shape.rowMajor_val_one, Shape.rowMajor_val_two]
    show ch.val = 0 * 64 + ch.val
    omega
  refine extractStridedSlice_apply _ _ _ (ix1 ch) (ix1 (Cert.StageA.ch128 ch)) (fun a => ?_)
  match a with
  | ⟨0, _⟩ => show ch.val = 0 + ch.val; omega

end Cert.StageA.KSide

end
-- ==== Proof.StageAPatchSpec.lean ====
/-
  The patch tensor of the first convolution as one function of the input images.

  The images (image, colour, y, x) are moved to (image, y, x, colour), converted, and padded by two positions on each
  side of both spatial axes; the 25 taps of the 5 × 5 window are the 28 × 28 slices of the padded images at offsets
  (dy, dx), and the patch tensor lists the taps' three colours along its last axis, sixteen taps, then nine.
-/
import Idealize.ShloMosaic.PureOps.Ideal.Laws

noncomputable section

namespace Cert.StageA

open Idealize.ShloMosaic

abbrev SX : Shape := ⟨4, ![48, 3, 28, 28]⟩
abbrev SI : Shape := ⟨4, ![48, 28, 28, 3]⟩
abbrev SP : Shape := ⟨4, ![48, 32, 32, 3]⟩
abbrev S48 : Shape := ⟨4, ![48, 28, 28, 48]⟩
abbrev S27 : Shape := ⟨4, ![48, 28, 28, 27]⟩
abbrev S75 : Shape := ⟨4, ![48, 28, 28, 75]⟩
abbrev S0 : Shape := ⟨0, ![]⟩

theorem cat16 : Shape.Concatenates [SI, SI, SI, SI, SI, SI, SI, SI, SI, SI, SI, SI, SI, SI, SI, SI] S48 3 := by decide
theorem cat9 : Shape.Concatenates [SI, SI, SI, SI, SI, SI, SI, SI, SI] S27 3 := by decide
theorem cat2 : Shape.Concatenates [S48, S27] S75 3 := by decide

/-- The padding value: the integer zero converted. -/
def padValue : FVec Ideal S0 .bf16 := sitofp (F := Ideal) .bf16 (constantI S0 32 0#32)

/-- The images with the colour axis last, converted and padded by two positions around both spatial axes. -/
def padded (x : FVec Ideal SX .f32) : FVec Ideal SP .bf16 :=
  pad SP ![0, 2, 2, 0] ![0, 2, 2, 0] ![0, 0, 0, 0]
    (truncf .bf16 (transpose SI [0, 2, 3, 1] x : FVec Ideal SI .f32) : FVec Ideal SI .bf16) padValue

/-- The tap at window offset (dy, dx): a 28 × 28 slice of the padded images. -/
def tap (dy dx : Nat) (p : FVec Ideal SP .bf16) (h : SP.Slices ![0, dy, dx, 0] SI) : FVec Ideal SI .bf16 :=
  extractStridedSlice SI ![0, dy, dx, 0] p h

/-- The 75 lanes of every position: the 25 taps' colours, in the order the taps are listed. -/
def patches (p : FVec Ideal SP .bf16) : FVec Ideal S75 .bf16 :=
  concatenate S75 3
    [⟨S48, concatenate S48 3
      [⟨SI, tap 0 0 p (by decide)⟩, ⟨SI, tap 0 1 p (by decide)⟩, ⟨SI, tap 0 2 p (by decide)⟩, ⟨SI, tap 0 3 p (by decide)⟩,
       ⟨SI, tap 0 4 p (by decide)⟩, ⟨SI, tap 1 0 p (by decide)⟩, ⟨SI, tap 1 1 p (by decide)⟩, ⟨SI, tap 1 2 p (by decide)⟩,
       ⟨SI, tap 1 3 p (by decide)⟩, ⟨SI, tap 1 4 p (by decide)⟩, ⟨SI, tap 2 0 p (by decide)⟩, ⟨SI, tap 2 1 p (by decide)⟩,
       ⟨SI, tap 2 2 p (by decide)⟩, ⟨SI, tap 2 3 p (by decide)⟩, ⟨SI, tap 2 4 p (by decide)⟩, ⟨SI, tap 3 0 p (by decide)⟩]
      cat16⟩,
     ⟨S27, concatenate S27 3
      [⟨SI, tap 3 1 p (by decide)⟩, ⟨SI, tap 3 2 p (by decide)⟩, ⟨SI, tap 3 3 p (by decide)⟩, ⟨SI, tap 3 4 p (by decide)⟩,
       ⟨SI, tap 4 0 p (by decide)⟩, ⟨SI, tap 4 1 p (by decide)⟩, ⟨SI, tap 4 2 p (by decide)⟩, ⟨SI, tap 4 3 p (by decide)⟩,
       ⟨SI, tap 4 4 p (by decide)⟩]
      cat9⟩]
    cat2

end Cert.StageA

end
-- ==== Proof.StageAKPatch.lean ====
/-
  The idealized kernel's patch matrix, from the input images.

  The first stretches of host operations build the padded images, the 25 taps and the 75-lane patch tensor; the lanes are then padded to 128 and the positions flattened to rows.
-/
import proofs.«146356_g2000405529851509_pallasbulk_1335_10_alg».proof.Proof.Gen.KernelIdeal.Regions
import proofs.«146356_g2000405529851509_pallasbulk_1335_10_alg».proof.Proof.StageAPatchSpec
import Idealize.ShloMosaic.Lib.StableHlo.Run

set_option maxRecDepth 16384

noncomputable section

namespace Cert.StageA.KPatch

open Cert.KernelIdeal Cert.KernelIdeal.Gen
open Idealize.ShloMosaic Idealize.ShloMosaic.StableHlo Idealize.SL.Sem

variable (m : (ℓ : Loc nD τ sig) → Buf (Elt Ideal) ℓ) (c : Dev nD)

/-- The padded images, after the first two stretches of host operations. -/
theorem padded_eq :
    (Gen.V2 m c (Proc.devRef .tc main_v2) : S48x32x32x3.Idx → EReal)
      = Cert.StageA.padded (m ((c.tc : Thread nD τ).loc main_arg0)) := by
  dsimp only [Gen.V2, Gen.V1, Gen.V0, Gen.hostOps0, Gen.hostOps0_1]
  after_results
  rfl

/-- The patch tensor, after the third stretch: the 25 taps of the padded images, listed along the last axis. -/
theorem patches_eq :
    (Gen.V3 m c (Proc.devRef .tc main_v30) : S48x28x28x75.Idx → EReal)
      = Cert.StageA.patches (Gen.V2 m c (Proc.devRef .tc main_v2)) := by
  dsimp only [Gen.V3, Gen.hostOps0_2]
  generalize Gen.V2 m c = W
  after_results
  rfl

/-- The patch tensor as the one function of the input images. -/
theorem tensor_eq :
    (Gen.V3 m c (Proc.devRef .tc main_v30) : S48x28x28x75.Idx → EReal)
      = Cert.StageA.patches (Cert.StageA.padded (m ((c.tc : Thread nD τ).loc main_arg0))) :=
  (patches_eq m c).trans (congrArg Cert.StageA.patches (padded_eq m c))

/-- The integer zero the lane padding converts. -/
theorem zero_eq : (Gen.V3 m c (Proc.devRef .tc main_c_0) : S_.Idx → BitVec 32) = constantI S_ 32 0#32 := by
  dsimp only [Gen.V3, Gen.hostOps0_2]
  generalize Gen.V2 m c = W
  after_results
  all_goals rfl

/-- The patch matrix the region finds: the patch tensor with its lanes padded to 128, its positions flattened to rows. -/
theorem cols_eq :
    (Gen.V5 m c (Proc.devRef .tc main_v32) : S37632x128.Idx → EReal)
      = shapeCast S37632x128
          (pad S48x28x28x128 ![0, 0, 0, 0] ![0, 0, 0, 53] ![0, 0, 0, 0]
            (Gen.V3 m c (Proc.devRef .tc main_v30) : FVec Ideal S48x28x28x75 .bf16)
            (sitofp (F := Ideal) .bf16 (Gen.V3 m c (Proc.devRef .tc main_c_0) : IVec S_ 32) : FVec Ideal S_ .bf16)
            pads_S48x28x28x75_S48x28x28x128_000_000_000_0530 h_S_ : FVec Ideal S48x28x28x128 .bf16)
          shapeCasts_S48x28x28x128_S37632x128 := by
  dsimp only [Gen.V5, Gen.V4, Gen.hostOps0_4, Gen.hostOps0_3]
  generalize Gen.V3 m c = W
  after_results
  rfl

end Cert.StageA.KPatch

end
-- ==== Proof.StageARPatch.lean ====
/-
  The idealized reference's patch matrix, from the input images.

  The first stretches of host operations build the padded images, the 25 taps and the 75-lane patch tensor; the positions are then flattened to rows and the lanes padded to 128.
-/
import proofs.«146356_g2000405529851509_pallasbulk_1335_10_alg».proof.Proof.Gen.ReferenceIdeal.Regions
import proofs.«146356_g2000405529851509_pallasbulk_1335_10_alg».proof.Proof.StageAPatchSpec
import Idealize.ShloMosaic.Lib.StableHlo.Run

set_option maxRecDepth 16384

noncomputable section

namespace Cert.StageA.RPatch

open Cert.ReferenceIdeal Cert.ReferenceIdeal.Gen
open Idealize.ShloMosaic Idealize.ShloMosaic.StableHlo Idealize.SL.Sem

variable (m : (ℓ : Loc nD τ sig) → Buf (Elt Ideal) ℓ) (c : Dev nD)

/-- The padded images, after the first two stretches of host operations. -/
theorem padded_eq :
    (Gen.V2 m c (Proc.devRef .tc main_v2) : S48x32x32x3.Idx → EReal)
      = Cert.StageA.padded (m ((c.tc : Thread nD τ).loc main_arg0)) := by
  dsimp only [Gen.V2, Gen.V1, Gen.V0, Gen.hostOps0, Gen.hostOps0_1]
  after_results
  rfl

/-- The patch tensor, after the third stretch: the 25 taps of the padded images, listed along the last axis. -/
theorem patches_eq :
    (Gen.V3 m c (Proc.devRef .tc main_v30) : S48x28x28x75.Idx → EReal)
      = Cert.StageA.patches (Gen.V2 m c (Proc.devRef .tc main_v2)) := by
  dsimp only [Gen.V3, Gen.hostOps0_2]
  generalize Gen.V2 m c = W
  after_results
  rfl

/-- The patch tensor as the one function of the input images. -/
theorem tensor_eq :
    (Gen.V3 m c (Proc.devRef .tc main_v30) : S48x28x28x75.Idx → EReal)
      = Cert.StageA.patches (Cert.StageA.padded (m ((c.tc : Thread nD τ).loc main_arg0))) :=
  (patches_eq m c).trans (congrArg Cert.StageA.patches (padded_eq m c))

/-- The integer zero the lane padding converts. -/
theorem zero_eq : (Gen.V3 m c (Proc.devRef .tc main_c_0) : S_.Idx → BitVec 32) = constantI S_ 32 0#32 := by
  dsimp only [Gen.V3, Gen.hostOps0_2]
  generalize Gen.V2 m c = W
  after_results
  all_goals rfl

/-- The flattened patch tensor, written in the same stretch as the tensor. -/
theorem flat_eq :
    (Gen.V3 m c (Proc.devRef .tc main_v31) : S37632x75.Idx → EReal)
      = shapeCast S37632x75 (Gen.V3 m c (Proc.devRef .tc main_v30) : FVec Ideal S48x28x28x75 .bf16)
          shapeCasts_S48x28x28x75_S37632x75 := by
  dsimp only [Gen.V3, Gen.hostOps0_2]
  generalize Gen.V2 m c = W
  after_results
  rfl

/-- The patch matrix the region finds: the patch tensor with its positions flattened to rows, its lanes padded to 128. -/
theorem cols_eq :
    (Gen.V5 m c (Proc.devRef .tc main_v32) : S37632x128.Idx → EReal)
      = pad S37632x128 ![0, 0] ![0, 53] ![0, 0]
          (Gen.V3 m c (Proc.devRef .tc main_v31) : FVec Ideal S37632x75 .bf16)
          (sitofp (F := Ideal) .bf16 (Gen.V3 m c (Proc.devRef .tc main_c_0) : IVec S_ 32) : FVec Ideal S_ .bf16)
          pads_S37632x75_S37632x128_000_0530 h_S_ := by
  dsimp only [Gen.V5, Gen.V4, Gen.hostOps0_4, Gen.hostOps0_3]
  generalize Gen.V3 m c = W
  after_results
  rfl

end Cert.StageA.RPatch

end
-- ==== Proof.StageAPatchLaw.lean ====
/-
  Padding the lanes and flattening the positions commute.

  A tensor of 75 lanes over the positions (image, y, x), padded to 128 lanes and then laid out as one row per position,
  is the same matrix as the tensor laid out as rows of 75 lanes and then padded to 128: at row r = (n, y, x) and lane
  k both read the tensor at (n, y, x, k) when k < 75 and the padding value otherwise.
-/
import Idealize.ShloMosaic.Lib.KernelVsHost
import Idealize.ShloMosaic.Lib.Pipeline.Value
import Idealize.ShloMosaic.Lib.ValueIdx

noncomputable section

namespace Cert.StageA

open Idealize.ShloMosaic Idealize.ShloMosaic.ValueIdx

abbrev T128 : Shape := ⟨4, ![48, 28, 28, 128]⟩
abbrev T75 : Shape := ⟨4, ![48, 28, 28, 75]⟩
abbrev M128 : Shape := ⟨2, ![37632, 128]⟩
abbrev M75 : Shape := ⟨2, ![37632, 75]⟩
abbrev Z0 : Shape := ⟨0, ![]⟩

/-- The image, the row and the column of the position a patch row stands for. -/
abbrev posN (r : Fin 37632) : Fin 48 := ⟨r.val / 784, by omega⟩
abbrev posY (r : Fin 37632) : Fin 28 := ⟨r.val / 28 % 28, by omega⟩
abbrev posX (r : Fin 37632) : Fin 28 := ⟨r.val % 28, by omega⟩

theorem pad_flatten {α : Type} (P : T75.Idx → α) (v : Z0.Idx → α)
    (hp4 : T75.Pads (![0, 0, 0, 0] : Fin 4 → Nat) ![0, 0, 0, 53] ![0, 0, 0, 0] T128) (hc4 : T128.ShapeCasts M128)
    (hc2 : T75.ShapeCasts M75) (hp2 : M75.Pads (![0, 0] : Fin 2 → Nat) ![0, 53] ![0, 0] M128) (hu : 0 < Z0.numel)
    (r : Fin 37632) (k : Fin 128) :
    shapeCast M128 (pad T128 ![0, 0, 0, 0] ![0, 0, 0, 53] ![0, 0, 0, 0] P v hp4 hu) hc4 (ix2 r k)
      = pad M128 ![0, 0] ![0, 53] ![0, 0] (shapeCast M75 P hc2) v hp2 hu (ix2 r k) := by
  have hr : r.val < 37632 := r.isLt
  refine (shapeCast_apply _ hc4 (ix2 r k) (ix4 (posN r) (posY r) (posX r) k) ?_).trans ?_
  · rw [Shape.rowMajor_val_four, Shape.rowMajor_val_two]
    show ((r.val / 784 * 28 + r.val / 28 % 28) * 28 + r.val % 28) * 128 + k.val = r.val * 128 + k.val
    omega
  by_cases hk : k.val < 75
  · refine (pad_apply_of_inside _ _ _ P v hp4 hu (ix4 (posN r) (posY r) (posX r) k)
      (ix4 (posN r) (posY r) (posX r) (⟨k.val, hk⟩ : Fin 75)) (fun a => ?_)).trans ?_
    · match a with
      | ⟨0, _⟩ => show r.val / 784 = 0 + r.val / 784 * (0 + 1); omega
      | ⟨1, _⟩ => show r.val / 28 % 28 = 0 + r.val / 28 % 28 * (0 + 1); omega
      | ⟨2, _⟩ => show r.val % 28 = 0 + r.val % 28 * (0 + 1); omega
      | ⟨3, _⟩ => show k.val = 0 + k.val * (0 + 1); omega
    refine Eq.symm ((pad_apply_of_inside _ _ _ (shapeCast M75 P hc2) v hp2 hu (ix2 r k)
      (ix2 r (⟨k.val, hk⟩ : Fin 75)) (fun a => ?_)).trans ?_)
    · match a with
      | ⟨0, _⟩ => show r.val = 0 + r.val * (0 + 1); omega
      | ⟨1, _⟩ => show k.val = 0 + k.val * (0 + 1); omega
    refine shapeCast_apply P hc2 (ix2 r (⟨k.val, hk⟩ : Fin 75)) (ix4 (posN r) (posY r) (posX r) (⟨k.val, hk⟩ : Fin 75)) ?_
    rw [Shape.rowMajor_val_four, Shape.rowMajor_val_two]
    show ((r.val / 784 * 28 + r.val / 28 % 28) * 28 + r.val % 28) * 75 + k.val = r.val * 75 + k.val
    omega
  · refine (pad_apply_of_not_inside _ _ _ P v hp4 hu (ix4 (posN r) (posY r) (posX r) k) (3 : Fin 4) (fun h => ?_)).trans ?_
    · have h3 : (k.val - 0) / (0 + 1) < 75 := h.2.2
      omega
    refine Eq.symm (pad_apply_of_not_inside _ _ _ (shapeCast M75 P hc2) v hp2 hu (ix2 r k) (1 : Fin 2) (fun h => ?_))
    have h1 : (k.val - 0) / (0 + 1) < 75 := h.2.2
    omega

end Cert.StageA

end
-- ==== Proof.StageACols.lean ====
/-
  The two programs' patch matrices agree entrywise.

  Both programs build the same 75-lane patch tensor from the same images; the kernel pads the lanes and then flattens
  the positions, the reference flattens and then pads.
-/
import proofs.«146356_g2000405529851509_pallasbulk_1335_10_alg».proof.Proof.Bridge
import proofs.«146356_g2000405529851509_pallasbulk_1335_10_alg».proof.Proof.StageAKPatch
import proofs.«146356_g2000405529851509_pallasbulk_1335_10_alg».proof.Proof.StageARPatch
import proofs.«146356_g2000405529851509_pallasbulk_1335_10_alg».proof.Proof.StageAPatchLaw

set_option maxRecDepth 16384

noncomputable section

namespace Cert.StageA

open Idealize.ShloMosaic Idealize.ShloMosaic.ValueIdx Idealize.SL.Sem
open Cert.Bridge

theorem cols_agree (m : KMem) (m' : RMem) (hag : Agree m m') (c : Dev Cert.KernelIdeal.nD) (r : Fin 37632) (k : Fin 128) :
    (Cert.KernelIdeal.Gen.V5 m c (Proc.devRef .tc Cert.KernelIdeal.main_v32) : Cert.KernelIdeal.S37632x128.Idx → EReal) (ix2 r k)
      = (Cert.ReferenceIdeal.Gen.V5 m' c (Proc.devRef .tc Cert.ReferenceIdeal.main_v32) : Cert.ReferenceIdeal.S37632x128.Idx → EReal) (ix2 r k) := by
  rw [KPatch.cols_eq, RPatch.cols_eq, RPatch.flat_eq, KPatch.zero_eq, RPatch.zero_eq, KPatch.tensor_eq, RPatch.tensor_eq,
    (hag c).1]
  exact pad_flatten _ _ _ _ _ _ _ r k

end Cert.StageA

end
-- ==== Proof.StageETail.lean ====
import proofs.«146356_g2000405529851509_pallasbulk_1335_10_alg».proof.Proof.Gen.ReferenceIdeal
import proofs.«146356_g2000405529851509_pallasbulk_1335_10_alg».proof.Proof.StageASpec
import Idealize.ShloMosaic.Lib.Pipeline.Value
import Idealize.ShloMosaic.Lib.ValueIdx
import Idealize.ShloMosaic.Lib.ValueIdxRank6
import Idealize.ShloMosaic.PureOps.Ideal.Laws
import Idealize.ShloMosaic.PureOps.Reduce

/-!
# The reference's pooling after its first matrix product, read at an index

The 37632 × 128 result is viewed as images of 28 × 28 positions, its first 64 channels are kept, each image is cut
into 14 × 14 windows of 2 × 2 positions, and the maximum over each window is taken from minus infinity. At
(image n, window py, px, channel ch) that is the maximum, over a and b in {0, 1}, of the result at patch row
n · 784 + (2 py + a) · 28 + (2 px + b) and channel ch.
-/

set_option maxRecDepth 16384

noncomputable section

namespace Cert.StageE.Tail

open Cert.ReferenceIdeal
open Idealize.ShloMosaic Idealize.ShloMosaic.ValueIdx Cert.StageA

/-- Position 2 p + a of a 28-long axis. -/
abbrev pos (p : Fin 14) (a : Fin 2) : Fin 28 := ⟨2 * p.val + a.val, by omega⟩

/-- The rows viewed as (image, y, x). -/
theorem rows_apply (x : S37632x128.Idx → EReal) (h1 : S37632x128.ShapeCasts S48x28x28x128)
    (n : Fin 48) (y xx : Fin 28) (c : Fin 128) :
    shapeCast S48x28x28x128 x h1 (ix4 n y xx c)
      = x (ix2 (⟨n.val * 784 + y.val * 28 + xx.val, by omega⟩ : Fin 37632) c) :=
  shapeCast_apply x h1 _ _ (by
    rw [Shape.rowMajor_val_two, Shape.rowMajor_val_four]
    show (n.val * 784 + y.val * 28 + xx.val) * 128 + c.val = ((n.val * 28 + y.val) * 28 + xx.val) * 128 + c.val
    omega)

/-- The first 64 channels. -/
theorem slice_apply (x : S48x28x28x128.Idx → EReal) (h2 : S48x28x28x128.Slices ![0, 0, 0, 0] S48x28x28x64)
    (n : Fin 48) (y xx : Fin 28) (ch : Fin 64) :
    extractStridedSlice S48x28x28x64 ![0, 0, 0, 0] x h2 (ix4 n y xx ch) = x (ix4 n y xx (ch128 ch)) :=
  extractStridedSlice_apply _ x h2 _ _ (fun a => match a with
    | ⟨0, _⟩ => (Nat.zero_add _).symm
    | ⟨1, _⟩ => (Nat.zero_add _).symm
    | ⟨2, _⟩ => (Nat.zero_add _).symm
    | ⟨3, _⟩ => (Nat.zero_add _).symm)

/-- Each 28-long axis cut into 14 pairs. -/
theorem split_apply (x : S48x28x28x64.Idx → EReal) (h3 : S48x28x28x64.ShapeCasts S48x14x2x14x2x64)
    (n : Fin 48) (py px : Fin 14) (a b : Fin 2) (ch : Fin 64) :
    shapeCast S48x14x2x14x2x64 x h3 (ix6 n py a px b ch) = x (ix4 n (pos py a) (pos px b) ch) :=
  shapeCast_apply x h3 _ _ (by
    rw [Shape.rowMajor_val_four, Shape.rowMajor_val_six]
    show ((n.val * 28 + (2 * py.val + a.val)) * 28 + (2 * px.val + b.val)) * 64 + ch.val
      = ((((n.val * 14 + py.val) * 2 + a.val) * 14 + px.val) * 2 + b.val) * 64 + ch.val
    omega)

/-- The three layout steps together: the window entry (a, b) of window (n, py, px), channel ch. -/
theorem window_apply (x : S37632x128.Idx → EReal) (h1 : S37632x128.ShapeCasts S48x28x28x128)
    (h2 : S48x28x28x128.Slices ![0, 0, 0, 0] S48x28x28x64) (h3 : S48x28x28x64.ShapeCasts S48x14x2x14x2x64)
    (n : Fin 48) (py px : Fin 14) (a b : Fin 2) (ch : Fin 64) :
    shapeCast S48x14x2x14x2x64 (extractStridedSlice S48x28x28x64 ![0, 0, 0, 0] (shapeCast S48x28x28x128 x h1) h2) h3
        (ix6 n py a px b ch)
      = x (ix2 (winRow n py px a b) (ch128 ch)) := by
  rw [split_apply, slice_apply, rows_apply]

/-- The maximum over the two window axes from minus infinity, as the two nested maxima. -/
theorem reduce_apply (v : S48x14x2x14x2x64.Idx → EReal) (hred : S48x14x2x14x2x64.ReducesTo [2, 4] S48x14x14x64)
    (hu : 0 < S_.numel) (n : Fin 48) (py px : Fin 14) (ch : Fin 64) :
    Host.reduce (FloatOps.maximumf (F := Ideal) (φ := .f32)) v (constant (F := Ideal) S_ .f32 0xFF800000#32) hred hu
        (ix4 n py px ch)
      = (Finset.univ : Finset (Fin 2)).fold max (Ideal.ofBits .f32 0xFF800000#32) fun a =>
          (Finset.univ : Finset (Fin 2)).fold max (Ideal.ofBits .f32 0xFF800000#32) fun b => v (ix6 n py a px b ch) := by
  refine (Host.reduce_eq_fold _ v _ hred hu _).trans ?_
  show (Finset.univ.filter fun i => hred.drop i = ix4 n py px ch).fold max (Ideal.ofBits .f32 0xFF800000#32) v = _
  refine eq_of_forall_ge_iff fun c => ?_
  simp only [Finset.fold_max_le, Finset.mem_filter, Finset.mem_univ, true_and, forall_true_left]
  constructor
  · rintro ⟨h0, h⟩
    refine ⟨h0, fun a => ⟨h0, fun b => h _ ?_⟩⟩
    funext d
    apply Fin.ext
    match d with
    | ⟨0, _⟩ => exact hred.drop_apply_val_of_eq _ 0 0
    | ⟨1, _⟩ => exact hred.drop_apply_val_of_eq _ 1 1
    | ⟨2, _⟩ => exact hred.drop_apply_val_of_eq _ 2 3
    | ⟨3, _⟩ => exact hred.drop_apply_val_of_eq _ 3 5
  · rintro ⟨h0, h⟩
    refine ⟨h0, fun i hi => ?_⟩
    have e0 : (i 0).val = n.val := (hred.drop_apply_val_of_eq i 0 0).symm.trans (congrArg (fun j : S48x14x14x64.Idx => (j 0).val) hi)
    have e1 : (i 1).val = py.val := (hred.drop_apply_val_of_eq i 1 1).symm.trans (congrArg (fun j : S48x14x14x64.Idx => (j 1).val) hi)
    have e3 : (i 3).val = px.val := (hred.drop_apply_val_of_eq i 2 3).symm.trans (congrArg (fun j : S48x14x14x64.Idx => (j 2).val) hi)
    have e5 : (i 5).val = ch.val := (hred.drop_apply_val_of_eq i 3 5).symm.trans (congrArg (fun j : S48x14x14x64.Idx => (j 3).val) hi)
    have ei : i = ix6 n py (i 2) px (i 4) ch := by
      funext d
      match d with
      | ⟨0, _⟩ => exact Fin.ext e0
      | ⟨1, _⟩ => exact Fin.ext e1
      | ⟨2, _⟩ => rfl
      | ⟨3, _⟩ => exact Fin.ext e3
      | ⟨4, _⟩ => rfl
      | ⟨5, _⟩ => exact Fin.ext e5
    rw [ei]
    exact (h (i 2)).2 (i 4)

/-- The pooled value at (n, py, px, ch) from the 37632 × 128 result. -/
theorem tail_apply (x : S37632x128.Idx → EReal) (h1 : S37632x128.ShapeCasts S48x28x28x128)
    (h2 : S48x28x28x128.Slices ![0, 0, 0, 0] S48x28x28x64) (h3 : S48x28x28x64.ShapeCasts S48x14x2x14x2x64)
    (hred : S48x14x2x14x2x64.ReducesTo [2, 4] S48x14x14x64) (hu : 0 < S_.numel) (hb : FTy.bits .bf16 < FTy.bits .f32)
    (n : Fin 48) (py px : Fin 14) (ch : Fin 64) :
    (truncf .bf16 (Host.reduce (FloatOps.maximumf (F := Ideal) (φ := .f32))
        (shapeCast S48x14x2x14x2x64 (extractStridedSlice S48x28x28x64 ![0, 0, 0, 0] (shapeCast S48x28x28x128 x h1) h2) h3)
        (constant (F := Ideal) S_ .f32 0xFF800000#32) hred hu) hb : FVec Ideal S48x14x14x64 .bf16) (ix4 n py px ch)
      = pooled (fun r c => x (ix2 r c)) n py px ch := by
  rw [truncf_apply, reduce_apply]
  unfold pooled
  simp only [window_apply]

end Cert.StageE.Tail

end
-- ==== Proof.StageEChain.lean ====
import proofs.«146356_g2000405529851509_pallasbulk_1335_10_alg».proof.Proof.Bridge
import proofs.«146356_g2000405529851509_pallasbulk_1335_10_alg».proof.Proof.StageASpec
import proofs.«146356_g2000405529851509_pallasbulk_1335_10_alg».proof.Proof.StageETail
import Idealize.ShloMosaic.Lib.StableHlo.Run
import Idealize.ShloMosaic.Lib.Pipeline.Value

/-!
# The reference's pooled array from the first product's result array

After the first product's region the reference views its result as images, keeps the first 64 channels, cuts each
image into windows of 2 × 2 positions and takes each window's maximum; no later item of the program writes the pooled
array. So the pooled array at the end of the program is the pooling of the product's result array as the region left it.
-/

set_option maxRecDepth 16384

noncomputable section

namespace Cert.StageE.Chain

open Cert.ReferenceIdeal Cert.ReferenceIdeal.Gen Cert.Bridge Cert.StageA
open Idealize.ShloMosaic Idealize.ShloMosaic.ValueIdx Idealize.SL.Sem Idealize.ShloMosaic.TcCoe

/-- The seven host operations after the first product's region, applied to any contents of the buffers: the pooled
    array is the pooling of the product's result array. -/
theorem tail_of (F : Valuation τ sig (Elt Ideal)) (n : Fin 48) (py px : Fin 14) (ch : Fin 64) :
    (StableHlo.after (hostOps1 (F := Ideal)) F main_v40 : S48x14x14x64.Idx → EReal) (ix4 n py px ch)
      = pooled (fun r k => (F main_v35 : S37632x128.Idx → EReal) (ix2 r k)) n py px ch := by
  dsimp only [hostOps1]
  after_results
  exact Cert.StageE.Tail.tail_apply _ _ _ _ _ _ _ n py px ch

variable (m' : RMem) (c : Dev Cert.ReferenceIdeal.nD)

/-- No item after those seven operations writes the pooled array. -/
theorem kept : V21 m' (Whole.outs m') c main_v40 = V7 m' (Whole.outs m') c main_v40 :=
  (V21_of m' (Whole.outs m') c main_v40 (by decide)).trans <| (V20_of m' (Whole.outs m') c main_v40 (by decide)).trans <|
  (V19_of m' (Whole.outs m') c main_v40 (by decide)).trans <| (V18_of m' (Whole.outs m') c main_v40 (by decide)).trans <|
  (V17_of m' (Whole.outs m') c main_v40 (by decide)).trans <| (V16_of m' (Whole.outs m') c main_v40 (by decide)).trans <|
  (V15_of m' (Whole.outs m') c main_v40 (by decide)).trans <| (V14_of m' (Whole.outs m') c main_v40 (by decide)).trans <|
  (V13_of m' (Whole.outs m') c main_v40 (by decide)).trans <| (V12_of m' (Whole.outs m') c main_v40 (by decide)).trans <|
  (V11_of m' (Whole.outs m') c main_v40 (by decide)).trans <| (V10_of m' (Whole.outs m') c main_v40 (by decide)).trans <|
  (V9_of m' (Whole.outs m') c main_v40 (by decide)).trans <| (V8_of m' (Whole.outs m') c main_v40 (by decide))

/-- The pooled array at the last valuation is the pooling of the first product's result array as the region left it. -/
theorem pooled_of_last (n : Fin 48) (py px : Fin 14) (ch : Fin 64) :
    (V21 m' (Whole.outs m') c (Proc.devRef .tc main_v40) : S48x14x14x64.Idx → EReal) (ix4 n py px ch)
      = pooled (fun r k => (V6 m' (Whole.outs m') c (Proc.devRef .tc main_v35) : S37632x128.Idx → EReal) (ix2 r k))
          n py px ch := by
  rw [kept m' c]
  unfold V7
  exact tail_of (V6 m' (Whole.outs m') c) n py px ch

/-- The reference's pooled array is the pooled buffer at the reference's last valuation, -/
theorem pooled_def : rP1 m' c = VR m' c (Proc.devRef .tc main_v40) := rfl

/-- which is the twenty-first valuation of the chain. -/
theorem last_def : VR m' c = V21 m' (Whole.outs m') c := rfl

theorem pooled_last : rP1 m' c = V21 m' (Whole.outs m') c (Proc.devRef .tc main_v40) :=
  (pooled_def m' c).trans (congrFun (last_def m' c) (Proc.devRef .tc main_v40))

/-- The pooled array is the pooling of the first product's result array as the chain of valuations holds it. -/
theorem pooled_tail (n : Fin 48) (py px : Fin 14) (ch : Fin 64) :
    rP1 m' c (ix4 n py px ch)
      = pooled (fun r k => (V6 m' (Whole.outs m') c (Proc.devRef .tc main_v35) : S37632x128.Idx → EReal) (ix2 r k))
          n py px ch :=
  (congrFun (pooled_last m' c) (ix4 n py px ch)).trans (pooled_of_last m' c n py px ch)

end Cert.StageE.Chain

end
-- ==== Proof.StageEPay.lean ====
import proofs.«146356_g2000405529851509_pallasbulk_1335_10_alg».proof.Proof.Gen.ReferenceIdeal.Skeleton
import proofs.«146356_g2000405529851509_pallasbulk_1335_10_alg».proof.Proof.LibPlainDot
import proofs.«146356_g2000405529851509_pallasbulk_1335_10_alg».proof.Proof.StageASpec
import Idealize.ShloMosaic.Lib.Pipeline.Value
import Idealize.ShloMosaic.Lib.ValueLayout
import Idealize.ShloMosaic.Lib.ValueIdx

/-!
# The reference's first matrix product, read at an index

At the ideal values the fused product's result at row r of a block of 18816 patch rows and channel ch is the sum over
the 128 taps of the patch row times the filter column, scaled, shifted and clamped below at the zero word.
-/

set_option maxRecDepth 16384

noncomputable section

namespace Cert.StageE.Pay

open Cert.ReferenceIdeal Cert.ReferenceIdeal.Gen
open Idealize.ShloMosaic Idealize.ShloMosaic.ValueIdx Cert.Lib.PlainDot
open scoped BigOperators

/-- A row vector broadcast down the rows reads its lane. -/
theorem bcast_apply (v : S1x128.Idx → EReal) (h2 : S1x128.Broadcasts S18816x128)
    (r : Fin 18816) (ch : Fin 128) :
    broadcastTo S18816x128 v h2 (ix2 r ch) = v (ix2 (0 : Fin 1) ch) := broadcastTo_apply _ _ _ (ix2 (0 : Fin 1) ch)
    (fun a => match a with
      | ⟨0, _⟩ => rfl
      | ⟨1, _⟩ => rfl)

/-- The product into the zero accumulator, at an index. -/
theorem mm_at (x : FVec Ideal S18816x128 .bf16) (w : FVec Ideal S128x128 .bf16) (j : S18816x128.Idx) :
    matmul dot_S18816x128_S128x128_S18816x128_1_0_0_1_n_n none x w (constant S18816x128 .f32 0x00000000#32) j = mm x w j :=
  matmul_zero_apply dot_S18816x128_S128x128_S18816x128_1_0_0_1_n_n rfl none x w j

/-- The product at (r, ch) as the sum over the taps. -/
theorem mm_ix (x : S18816x128.Idx → EReal) (w : S128x128.Idx → EReal) (r : Fin 18816) (ch : Fin 128) :
    mm x w (ix2 r ch) = ∑ k : Fin 128, x (ix2 r k) * w (ix2 k ch) := by
  unfold mm
  refine Finset.sum_congr rfl fun k _ => ?_
  have e1 : rowIdx (K := 128) (ix2 r ch) k = ix2 r k := funext fun a => match a with
    | ⟨0, _⟩ => rfl
    | ⟨1, _⟩ => rfl
  have e2 : colIdx (R := 18816) (ix2 r ch) k = ix2 k ch := funext fun a => match a with
    | ⟨0, _⟩ => rfl
    | ⟨1, _⟩ => rfl
  rw [e1, e2]

/-- Row r, channel ch of a block's result. -/
theorem pay_apply (v0 : Vec Ideal S18816x128 .bf16) (v2 : Vec Ideal S128x128 .bf16)
    (v4 v8 : Vec Ideal S1x128 .f32) (r : Fin 18816) (ch : Fin 128) :
    k0_pay1 v0 v2 v4 v8 (ix2 r ch)
      = max ((∑ k : Fin 128, v0 (ix2 r k) * v2 (ix2 k ch)) * v4 (ix2 (0 : Fin 1) ch) + v8 (ix2 (0 : Fin 1) ch))
          (Ideal.ofBits .f32 0x00000000#32) := by
  unfold k0_pay1
  simp only [maximumf_apply, addf_apply, mulf_apply, broadcast_apply]
  simp only [mm_at]
  simp only [shapeCast_self, bcast_apply, mm_ix]
  rfl

end Cert.StageE.Pay

end
-- ==== Proof.StageERegion.lean ====
import proofs.«146356_g2000405529851509_pallasbulk_1335_10_alg».proof.Proof.RIFirstMatmul
import proofs.«146356_g2000405529851509_pallasbulk_1335_10_alg».proof.Proof.StageEPay
import Idealize.ShloMosaic.Lib.Pipeline.Value

/-!
# The reference's first matrix product: the result array, index by index

The region's two grid points each write back one block of 18816 patch rows, all 128 channels. Row r of the result
array is row r mod 18816 of the block of point r / 18816, and that row of the block is computed from the same row of
the point's block of the patch matrix, the whole filter matrix and the two rows of per-channel scale and shift.
-/

set_option maxRecDepth 16384

noncomputable section

namespace Cert.StageE.Region

open Cert.ReferenceIdeal Cert.ReferenceIdeal.Gen Cert.ReferenceIdeal.FirstMatmul
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The activation at patch row r and channel ch, the scale and shift given as one-row matrices. -/
def actRow (cols : S37632x128.Idx → EReal) (w : S128x128.Idx → EReal) (s t : S1x128.Idx → EReal)
    (r : Fin 37632) (ch : Fin 128) : EReal :=
  max ((∑ k : Fin 128, cols (ix2 r k) * w (ix2 k ch)) * s (ix2 (0 : Fin 1) ch) + t (ix2 (0 : Fin 1) ch))
    (Ideal.ofBits .f32 0x00000000#32)

/-- The whole array the blocks are blocks of. -/
def G (c : Dev nD) : S37632x128.Idx → EReal := fun i =>
  actRow (V c main_v32) (V c main_arg1) (V c main_v33) (V c main_v34) ⟨(i 0).val, (i 0).isLt⟩ ⟨(i 1).val, (i 1).isLt⟩

theorem lt2 (t : Fin cfg0.N) : t.val < 2 := lt_of_lt_of_eq t.isLt N_0

/-- The array at an index with given coordinates. -/
theorem G_apply (c : Dev nD) (i : S37632x128.Idx) (r : Fin 37632) (ch : Fin 128) (hr : (i 0).val = r.val)
    (hc : (i 1).val = ch.val) :
    G V c i = actRow (V c main_v32) (V c main_arg1) (V c main_v33) (V c main_v34) r ch := by
  unfold G
  have e0 : (⟨(i 0).val, (i 0).isLt⟩ : Fin 37632) = r := Fin.ext hr
  have e1 : (⟨(i 1).val, (i 1).isLt⟩ : Fin 128) = ch := Fin.ext hc
  rw [e0, e1]

/-- The patch block of point t is rows 18816 t … of the patch matrix. -/
theorem iblk0_apply (c : Dev nD) (t : Fin cfg0.N) (r : Fin 18816) (k : Fin 128) :
    (iblk V c 0 t : Vec Ideal S18816x128 .bf16) (ix2 r k)
      = (V c main_v32 : S37632x128.Idx → EReal) (ix2 (⟨t.val * 18816 + r.val, by have := lt2 t; omega⟩ : Fin 37632) k) := by
  obtain ⟨-, -, e0, e1, -⟩ := idx_facts t
  unfold iblk
  rw [View.read_apply]
  show V c main_v32 _ = V c main_v32 _
  congr 1
  funext a
  apply Fin.ext
  match a with
  | ⟨0, _⟩ => show win0_0.index t (0 : Fin 2) * 18816 + 1 * r.val = t.val * 18816 + r.val; omega
  | ⟨1, _⟩ => show win0_0.index t (1 : Fin 2) * 128 + 1 * k.val = k.val; omega

/-- The filter block of every point is the whole filter matrix. -/
theorem iblk1_apply (c : Dev nD) (t : Fin cfg0.N) (k ch : Fin 128) :
    (iblk V c 1 t : Vec Ideal S128x128 .bf16) (ix2 k ch) = (V c main_arg1 : S128x128.Idx → EReal) (ix2 k ch) := by
  obtain ⟨-, -, -, -, e0, e1, -⟩ := idx_facts t
  unfold iblk
  rw [View.read_apply]
  show V c main_arg1 _ = V c main_arg1 _
  congr 1
  funext a
  apply Fin.ext
  match a with
  | ⟨0, _⟩ => show win0_1.index t (0 : Fin 2) * 128 + 1 * k.val = k.val; omega
  | ⟨1, _⟩ => show win0_1.index t (1 : Fin 2) * 128 + 1 * ch.val = ch.val; omega

/-- The scale block of every point is the whole row. -/
theorem iblk2_apply (c : Dev nD) (t : Fin cfg0.N) (ch : Fin 128) :
    (iblk V c 2 t : Vec Ideal S1x128 .f32) (ix2 (0 : Fin 1) ch) = (V c main_v33 : S1x128.Idx → EReal) (ix2 (0 : Fin 1) ch) := by
  obtain ⟨-, -, -, -, -, -, e0, e1, -⟩ := idx_facts t
  unfold iblk
  rw [View.read_apply]
  show V c main_v33 _ = V c main_v33 _
  congr 1
  funext a
  apply Fin.ext
  match a with
  | ⟨0, _⟩ => show win0_2.index t (0 : Fin 2) * 1 + 1 * 0 = 0; omega
  | ⟨1, _⟩ => show win0_2.index t (1 : Fin 2) * 128 + 1 * ch.val = ch.val; omega

/-- The shift block of every point is the whole row. -/
theorem iblk3_apply (c : Dev nD) (t : Fin cfg0.N) (ch : Fin 128) :
    (iblk V c 3 t : Vec Ideal S1x128 .f32) (ix2 (0 : Fin 1) ch) = (V c main_v34 : S1x128.Idx → EReal) (ix2 (0 : Fin 1) ch) := by
  obtain ⟨-, -, -, -, -, -, -, -, e0, e1⟩ := idx_facts t
  unfold iblk
  rw [View.read_apply]
  show V c main_v34 _ = V c main_v34 _
  congr 1
  funext a
  apply Fin.ext
  match a with
  | ⟨0, _⟩ => show win0_3.index t (0 : Fin 2) * 1 + 1 * 0 = 0; omega
  | ⟨1, _⟩ => show win0_3.index t (1 : Fin 2) * 128 + 1 * ch.val = ch.val; omega

/-- What point t leaves at row r, channel ch of its block. -/
theorem block_apply (c : Dev nD) (t : Fin cfg0.N) (r : Fin 18816) (ch : Fin 128) :
    outBlock (F := Ideal) (iblk V c 0 t) (iblk V c 1 t) (iblk V c 2 t) (iblk V c 3 t) (ix2 r ch)
      = actRow (V c main_v32) (V c main_arg1) (V c main_v33) (V c main_v34)
          (⟨t.val * 18816 + r.val, by have := lt2 t; omega⟩ : Fin 37632) ch := by
  unfold outBlock
  rw [View.canon_unit_zero hz2]
  simp only [View.ld_unit_zero (S := S18816x128) hz2, View.ld_unit_zero (S := S128x128) hz2, View.ld_unit_zero (S := S1x128) hz2]
  refine (Cert.StageE.Pay.pay_apply _ _ _ _ r ch).trans ?_
  unfold actRow
  rw [iblk2_apply, iblk3_apply]
  simp only [iblk0_apply, iblk1_apply]

theorem flushed_eq (c : Dev nD) (t : Fin cfg0.N) :
    (dat (F := Ideal) V c).flushed 4 t = ((cfg0.win 4).blk t).view.read (Elt Ideal) (G V c) := by
  show (cfg0.win 4).cut (grid0.coords t) ((dat (F := Ideal) V c).after 4 t) = _
  rw [after4]
  obtain ⟨e0, e1, -⟩ := idx_facts t
  funext j
  obtain ⟨r, ch, rfl⟩ : ∃ (r : Fin 18816) (ch : Fin 128), j = ix2 r ch := ⟨j 0, j 1, eq_ix2 j⟩
  show outBlock (F := Ideal) (iblk V c 0 t) (iblk V c 1 t) (iblk V c 2 t) (iblk V c 3 t) (ix2 r ch)
    = G V c (((cfg0.win 4).blk t).view.emb (ix2 r ch))
  rw [block_apply]
  exact (G_apply V c _ _ ch
    (by show win0_4.index t (0 : Fin 2) * 18816 + 1 * r.val = t.val * 18816 + r.val; omega)
    (by show win0_4.index t (1 : Fin 2) * 128 + 1 * ch.val = ch.val; omega)).symm

theorem mem_blk (t : Fin cfg0.N) (i : S37632x128.Idx) :
    i ∈ ((cfg0.win 4).blk t).view.set ↔ ∀ a : Fin 2, win0_4.index t a * S18816x128.size a ≤ (i a).val ∧ (i a).val < win0_4.index t a * S18816x128.size a + S18816x128.size a := by
  show i ∈ ((View.whole main_v35).slice (win0_4.rect t)).set ↔ _
  rw [View.set_slice_whole, Rect.mem_set_unit]
  exact Iff.rfl

/-- The point whose block holds row r of the array. -/
def tOf (i : S37632x128.Idx) : Fin cfg0.N := ⟨(i 0).val / 18816, by rw [show cfg0.N = grid0.N from rfl, N_0]; have : (i 0).val < 37632 := (i 0).isLt; omega⟩

/-- The array after the region. -/
theorem arr_eq (c : Dev nD) : (dat (F := Ideal) V c).arrAt 4 cfg0.N = G V c :=
  (dat (F := Ideal) V c).arrAt_eq_of_cover 4 (G V c) (fun t _ => flushed_eq V c t) fun i => by
    have hi0 : (i 0).val < 37632 := (i 0).isLt
    have hi1 : (i 1).val < 128 := (i 1).isLt
    obtain ⟨e0, e1, -⟩ := idx_facts (tOf i)
    refine ⟨tOf i, flush0_4 _, ?_⟩
    rw [mem_blk]
    intro a
    match a with
    | ⟨0, _⟩ => show win0_4.index (tOf i) (0 : Fin 2) * 18816 ≤ (i 0).val ∧ (i 0).val < win0_4.index (tOf i) (0 : Fin 2) * 18816 + 18816; rw [e0]; show (i 0).val / 18816 * 18816 ≤ (i 0).val ∧ (i 0).val < (i 0).val / 18816 * 18816 + 18816; omega
    | ⟨1, _⟩ => show win0_4.index (tOf i) (1 : Fin 2) * 128 ≤ (i 1).val ∧ (i 1).val < win0_4.index (tOf i) (1 : Fin 2) * 128 + 128; omega

/-- The array after the region at row r, channel ch. -/
theorem arr_apply (c : Dev nD) (r : Fin 37632) (ch : Fin 128) :
    (dat (F := Ideal) V c).arrAt 4 cfg0.N (ix2 r ch)
      = actRow (V c main_v32) (V c main_arg1) (V c main_v33) (V c main_v34) r ch := by
  rw [arr_eq]; exact G_apply V c _ r ch rfl rfl

end Cert.StageE.Region

end
-- ==== Proof.StageERef.lean ====
import proofs.«146356_g2000405529851509_pallasbulk_1335_10_alg».proof.Proof.Bridge
import proofs.«146356_g2000405529851509_pallasbulk_1335_10_alg».proof.Proof.StageASpec
import proofs.«146356_g2000405529851509_pallasbulk_1335_10_alg».proof.Proof.StageEChain
import proofs.«146356_g2000405529851509_pallasbulk_1335_10_alg».proof.Proof.StageERegion
import Idealize.ShloMosaic.Lib.StableHlo.Run
import Idealize.ShloMosaic.Lib.Pipeline.Value
import Idealize.ShloMosaic.Lib.ValueLayout

/-!
# The reference's pooled first convolution, index by index

The reference's pooled array at (image n, window py, px, channel ch) is the maximum over the window's four positions
of the activation of the patch matrix, as the first product's region finds it, with the filter matrix and the
per-channel scale and shift arguments.
-/

set_option maxRecDepth 16384

noncomputable section

namespace Cert.StageA

open Cert.ReferenceIdeal Cert.ReferenceIdeal.Gen Cert.Bridge
open Idealize.ShloMosaic Idealize.ShloMosaic.ValueIdx Idealize.SL.Sem Idealize.ShloMosaic.TcCoe

variable (m' : RMem) (c : Dev Cert.ReferenceIdeal.nD)

/-- The first product's result array is the activation, row by row and channel by channel. -/
theorem product_array (r : Fin 37632) (k : Fin 128) :
    (V6 m' (Whole.outs m') c (Proc.devRef .tc main_v35) : S37632x128.Idx → EReal) (ix2 r k)
      = Cert.StageE.Region.actRow (V5 m' c (Proc.devRef .tc main_v32)) (V5 m' c (Proc.devRef .tc main_arg1))
          (V5 m' c (Proc.devRef .tc main_v33)) (V5 m' c (Proc.devRef .tc main_v34)) r k := by
  have h := Whole.hF0 (F := Ideal) m' c 4
  have e : (V6 m' (Whole.outs m') c (Proc.devRef .tc main_v35) : S37632x128.Idx → EReal)
      = (FirstMatmul.dat (F := Ideal) (Whole.atTc (V5 m')) c).arrAt 4 cfg0.N := h.symm
  rw [e]
  exact Cert.StageE.Region.arr_apply (Whole.atTc (V5 m')) c r k

/-- The filter matrix as the region finds it is the argument. -/
theorem filter_arg : (V5 m' c (Proc.devRef .tc main_arg1) : S128x128.Idx → EReal)
    = m' ((c.tc : Thread Cert.ReferenceIdeal.nD Cert.ReferenceIdeal.τ).loc main_arg1) :=
  (V5_of m' c main_arg1 (by decide)).trans <| (V4_of m' c main_arg1 (by decide)).trans <|
    (V3_of m' c main_arg1 (by decide)).trans <| (V2_of m' c main_arg1 (by decide)).trans <|
    (V1_of m' c main_arg1 (by decide)).trans rfl

/-- The scale row as the region finds it is the scale argument. -/
theorem scale_row (k : Fin 128) :
    (V5 m' c (Proc.devRef .tc main_v33) : S1x128.Idx → EReal) (ix2 (0 : Fin 1) k)
      = (m' ((c.tc : Thread Cert.ReferenceIdeal.nD Cert.ReferenceIdeal.τ).loc main_arg2) : S128.Idx → EReal) (ix1 k) := by
  have e : (V5 m' c main_v33 : S1x128.Idx → EReal)
      = shapeCast S1x128 (V4 m' c main_arg2 : S128.Idx → EReal) shapeCasts_S128_S1x128 := by
    dsimp only [V5, hostOps0_4]; after_results; rfl
  have a : (V4 m' c main_arg2 : S128.Idx → EReal) = m' ((c.tc : Thread Cert.ReferenceIdeal.nD Cert.ReferenceIdeal.τ).loc main_arg2) :=
    (V4_of m' c main_arg2 (by decide)).trans <| (V3_of m' c main_arg2 (by decide)).trans <|
      (V2_of m' c main_arg2 (by decide)).trans <| (V1_of m' c main_arg2 (by decide)).trans rfl
  show (V5 m' c main_v33 : S1x128.Idx → EReal) _ = _
  rw [e, shapeCast_a_1a_apply, a]

/-- The shift row as the region finds it is the shift argument. -/
theorem shift_row (k : Fin 128) :
    (V5 m' c (Proc.devRef .tc main_v34) : S1x128.Idx → EReal) (ix2 (0 : Fin 1) k)
      = (m' ((c.tc : Thread Cert.ReferenceIdeal.nD Cert.ReferenceIdeal.τ).loc main_arg3) : S128.Idx → EReal) (ix1 k) := by
  have e : (V5 m' c main_v34 : S1x128.Idx → EReal)
      = shapeCast S1x128 (V4 m' c main_arg3 : S128.Idx → EReal) shapeCasts_S128_S1x128 := by
    dsimp only [V5, hostOps0_4]; after_results; rfl
  have a : (V4 m' c main_arg3 : S128.Idx → EReal) = m' ((c.tc : Thread Cert.ReferenceIdeal.nD Cert.ReferenceIdeal.τ).loc main_arg3) :=
    (V4_of m' c main_arg3 (by decide)).trans <| (V3_of m' c main_arg3 (by decide)).trans <|
      (V2_of m' c main_arg3 (by decide)).trans <| (V1_of m' c main_arg3 (by decide)).trans rfl
  show (V5 m' c main_v34 : S1x128.Idx → EReal) _ = _
  rw [e, shapeCast_a_1a_apply, a]

/-- The reference's pooled first convolution at (n, py, px, ch). -/
theorem refSide (m' : Cert.Bridge.RMem) (c : Dev Cert.ReferenceIdeal.nD) (n : Fin 48) (py px : Fin 14) (ch : Fin 64) :
    Cert.Bridge.rP1 m' c (ix4 n py px ch) = Cert.StageA.pooled (Cert.StageA.act (Cert.ReferenceIdeal.Gen.V5 m' c (Proc.devRef .tc Cert.ReferenceIdeal.main_v32)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) n py px ch := by
  rw [Cert.StageE.Chain.pooled_tail]
  refine congrArg (fun A => pooled A n py px ch) (funext fun r => funext fun k => ?_)
  rw [product_array]
  unfold Cert.StageE.Region.actRow act
  rw [scale_row, shift_row, filter_arg]

end Cert.StageA

end
-- ==== Proof.StageAFinal.lean ====
/-
  The first correspondence: after the first convolution and its pooling the two programs hold the same numbers.

  The reference's pooled value at (image n, py, px, channel ch) and the kernel's at row n · 196 + py · 14 + px and
  channel ch are both the maximum, over the same 2 × 2 window of positions and in the same order, of the same
  activation: the patch matrices agree entrywise, the kernel's filter, scale and shift are the first 64 channels of
  the arguments the reference uses whole, and the arguments agree.
-/
import proofs.«146356_g2000405529851509_pallasbulk_1335_10_alg».proof.Proof.Bridge
import proofs.«146356_g2000405529851509_pallasbulk_1335_10_alg».proof.Proof.StageAKSide
import proofs.«146356_g2000405529851509_pallasbulk_1335_10_alg».proof.Proof.StageACols
import proofs.«146356_g2000405529851509_pallasbulk_1335_10_alg».proof.Proof.StageERef

set_option maxRecDepth 16384

noncomputable section

namespace Cert.Bridge

open Idealize.ShloMosaic Idealize.ShloMosaic.ValueIdx Idealize.SL.Sem
open scoped BigOperators

theorem stage1 (m : KMem) (m' : RMem) (hag : Agree m m') (c : Dev Cert.KernelIdeal.nD) : Rel1 m m' c := by
  intro n py px ch
  rw [Cert.StageA.refSide m' c n py px ch, Cert.StageA.KSide.kP1_eq m c]
  show Cert.StageA.pooled _ n py px ch
    = Cert.StageA.KArray.Gv _ _ _ _ (⟨n.val * 196 + py.val * 14 + px.val, by omega⟩ : Fin 9408) ch
  unfold Cert.StageA.pooled Cert.StageA.KArray.Gv
  refine congrArg (fun f => (Finset.univ : Finset (Fin 2)).fold max (Ideal.ofBits .f32 0xFF800000#32) f) (funext fun a => ?_)
  refine congrArg (fun f => (Finset.univ : Finset (Fin 2)).fold max (Ideal.ofBits .f32 0xFF800000#32) f) (funext fun b => ?_)
  have hrow : Cert.StageA.KArray.arrRow (⟨n.val * 196 + py.val * 14 + px.val, by omega⟩ : Fin 9408) a b
      = Cert.StageA.winRow n py px a b :=
    Fin.ext (by
      show (n.val * 196 + py.val * 14 + px.val) / 196 * 784
          + (2 * ((n.val * 196 + py.val * 14 + px.val) / 14 % 14) + a.val) * 28
          + (2 * ((n.val * 196 + py.val * 14 + px.val) % 14) + b.val)
        = n.val * 784 + (2 * py.val + a.val) * 28 + (2 * px.val + b.val)
      have hn := n.isLt
      have hpy := py.isLt
      have hpx := px.isLt
      omega)
  rw [hrow]
  unfold Cert.StageA.act Cert.StageA.KArray.actW
  simp only [Cert.StageA.cols_agree m m' hag c, Cert.StageA.KSide.w_apply m c, Cert.StageA.KSide.s_apply m c,
    Cert.StageA.KSide.t_apply m c, (hag c).2.1, (hag c).2.2.1, (hag c).2.2.2.1]
  all_goals rfl

end Cert.Bridge

end
-- ==== Proof.StageBPay.lean ====
import proofs.«146356_g2000405529851509_pallasbulk_1335_10_alg».proof.Proof.Gen.KernelIdeal.Skeleton
import proofs.«146356_g2000405529851509_pallasbulk_1335_10_alg».proof.Proof.LibPlainDot
import Idealize.ShloMosaic.Lib.ValueIdx
import Idealize.ShloMosaic.Lib.Pipeline.Value

/-!
# The second convolution's arithmetic, read at one row and channel

Row r of the 2016 computed rows of a block is the sum, over the five horizontal taps, of the products of row r + tap
of the block's 2020 input rows (320 lanes) with that tap's 320 × 64 slice of the filter matrix; the sum is scaled,
shifted and clamped below at zero.
-/

set_option maxRecDepth 16384

noncomputable section

namespace Cert.StageB

open Cert.KernelIdeal Cert.KernelIdeal.Gen
open Idealize.ShloMosaic Idealize.ShloMosaic.ValueIdx Cert.Lib.PlainDot

/-- One horizontal tap: the product of the rows shifted by `dx` with a 320 × 64 filter slice, at (r, ch). -/
theorem tap_apply (dx : Nat) (hdx : dx ≤ 4) (v1 : FVec Ideal S2020x320 .bf16) (w : FVec Ideal S320x64 .bf16)
    (hs : S2020x320.Slices ![dx, 0] S2016x320) (r : Fin 2016) (ch : Fin 64) :
    matmul dot_S2016x320_S320x64_S2016x64_1_0_0_1_n_n none (extractStridedSlice S2016x320 ![dx, 0] v1 hs)
        (shapeCast S320x64 w shapeCasts_S320x64_S320x64) (constant S2016x64 .f32 0x00000000#32) (ix2 r ch)
      = ∑ k : Fin 320, v1 (ix2 (⟨r.val + dx, by omega⟩ : Fin 2020) k) * w (ix2 k ch) := by
  rw [shapeCast_self]
  refine (matmul_zero_apply _ rfl none _ _ _).trans ?_
  unfold mm
  refine Finset.sum_congr rfl fun k _ => ?_
  have e1 : extractStridedSlice S2016x320 ![dx, 0] v1 hs (rowIdx (ix2 r ch) k) = v1 (ix2 (⟨r.val + dx, by omega⟩ : Fin 2020) k) := by
    refine extractStridedSlice_apply _ _ _ _ _ (fun a => ?_)
    match a with
    | ⟨0, _⟩ => show r.val + dx = dx + r.val; omega
    | ⟨1, _⟩ => show k.val = 0 + k.val; omega
  have e2 : colIdx (ix2 r ch) k = ix2 k ch := funext fun a => match a with | ⟨0, _⟩ => rfl | ⟨1, _⟩ => rfl
  rw [e1, e2]

/-- One horizontal tap's sum at row r and channel ch: row r + dx of the block's rows against a 320 × 64 filter slice. -/
def tapSum (x0 : S1x2020x320.Idx → EReal) (w : S320x64.Idx → EReal) (r : Fin 2016) (dx : Nat) (hdx : dx ≤ 4) (ch : Fin 64) : EReal :=
  ∑ k : Fin 320, x0 (ix3 (0 : Fin 1) (⟨r.val + dx, by omega⟩ : Fin 2020) k) * w (ix2 k ch)

/-- The block's one unit axis dropped: row a, lane k of the 2020 × 320 rows. -/
theorem rows_apply (x0 : FVec Ideal S1x2020x320 .bf16) (a : Fin 2020) (k : Fin 320) :
    shapeCast S2020x320 x0 shapeCasts_S1x2020x320_S2020x320 (ix2 a k) = x0 (ix3 (0 : Fin 1) a k) :=
  shapeCast_apply _ _ _ _ (by
    rw [Shape.rowMajor_val_three, Shape.rowMajor_val_two]
    show ((0 : Nat) * 2020 + a.val) * 320 + k.val = a.val * 320 + k.val
    omega)

/-- A one-row array broadcast down 2016 rows, at (r, ch). -/
theorem rowBroadcast_apply (s : FVec Ideal S1x64 .f32) (r : Fin 2016) (ch : Fin 64) :
    broadcastTo S2016x64 (shapeCast S1x64 s shapeCasts_S1x64_S1x64) broadcasts_S1x64_S2016x64 (ix2 r ch) = s (ix2 (0 : Fin 1) ch) := by
  rw [shapeCast_self]
  refine broadcastTo_apply _ _ _ _ (fun a => ?_)
  match a with
  | ⟨0, _⟩ => rfl
  | ⟨1, _⟩ => rfl

/-- The arithmetic of one block at row r and channel ch: the five taps' products summed, scaled, shifted, clamped. -/
theorem pay2_apply (x0 : FVec Ideal S1x2020x320 .bf16) (w0 w1 w2 w3 w4 : FVec Ideal S320x64 .bf16) (s t : FVec Ideal S1x64 .f32)
    (r : Fin 2016) (ch : Fin 64) :
    (k1_pay2 (F := Ideal) x0 w0 w1 w2 w3 w4 s t (ix2 r ch) : EReal)
      = max ((tapSum x0 w0 r 0 (by omega) ch + tapSum x0 w1 r 1 (by omega) ch + tapSum x0 w2 r 2 (by omega) ch
            + tapSum x0 w3 r 3 (by omega) ch + tapSum x0 w4 r 4 (by omega) ch)
          * (s (ix2 (0 : Fin 1) ch) : EReal) + (t (ix2 (0 : Fin 1) ch) : EReal)) 0 := by
  unfold k1_pay2 tapSum
  simp only [maximumf_apply, addf_apply, mulf_apply, broadcast_apply]
  rw [tap_apply 0 (by omega), tap_apply 1 (by omega), tap_apply 2 (by omega), tap_apply 3 (by omega), tap_apply 4 (by omega)]
  rw [rowBroadcast_apply, rowBroadcast_apply]
  simp only [rows_apply]
  rw [show (Scalar.ofBits .f32 0x00000000#32 : Ideal .f32) = 0 from Ideal.ofBits_zero_f32]

end Cert.StageB

end
-- ==== Proof.StageBSpec.lean ====
import Idealize.ShloMosaic.Lib.ValueIdx

/-!
# The second convolution with its pooling, as a function of the padded map, the filter matrix, the scale and the shift

The padded map has 48 images of 18 × 18 positions and 64 channels; the filter matrix has a row for each (vertical tap,
horizontal tap, input channel), in that order, and 128 columns of which the first 64 are used. The activation at image
n, position (y, x) of 14 × 14 and channel ch is the sum over the 1600 rows j of the padded map at (n, y + vertical tap,
x + horizontal tap, input channel) times the filter entry (j, ch), scaled, shifted, and clamped below at zero. The pooled
value is the maximum over a 2 × 2 window of positions.
-/

noncomputable section

namespace Cert.StageB

open Idealize.ShloMosaic Idealize.ShloMosaic.ValueIdx

/-- The activation before pooling. -/
def act (xp : (⟨4, ![48, 18, 18, 64]⟩ : Shape).Idx → EReal) (w : (⟨2, ![1600, 128]⟩ : Shape).Idx → EReal)
    (s t : (⟨1, ![128]⟩ : Shape).Idx → EReal) (n : Fin 48) (y x : Fin 14) (ch : Fin 64) : EReal :=
  max ((∑ j : Fin 1600,
        xp (ix4 n (⟨y.val + j.val / 320, by omega⟩ : Fin 18) (⟨x.val + j.val / 64 % 5, by omega⟩ : Fin 18) (⟨j.val % 64, by omega⟩ : Fin 64))
          * w (ix2 j (⟨ch.val, by omega⟩ : Fin 128)))
      * s (ix1 (⟨ch.val, by omega⟩ : Fin 128)) + t (ix1 (⟨ch.val, by omega⟩ : Fin 128))) 0

/-- The maximum over a 2 × 2 window; the first coordinate is the vertical one. -/
def pool4 (a : Fin 2 → Fin 2 → EReal) : EReal := max (max (a 0 0) (a 0 1)) (max (a 1 0) (a 1 1))

/-- The pooled activation at image n, position (py, px) of 7 × 7 and channel ch. -/
def pooled (xp : (⟨4, ![48, 18, 18, 64]⟩ : Shape).Idx → EReal) (w : (⟨2, ![1600, 128]⟩ : Shape).Idx → EReal)
    (s t : (⟨1, ![128]⟩ : Shape).Idx → EReal) (n : Fin 48) (py px : Fin 7) (ch : Fin 64) : EReal :=
  pool4 fun a b => act xp w s t n (⟨2 * py.val + a.val, by omega⟩ : Fin 14) (⟨2 * px.val + b.val, by omega⟩ : Fin 14) ch

/-- The maximum from the least element over two positions is the maximum of the two. -/
theorem fold_max_fin2 (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

end Cert.StageB

end
-- ==== Proof.StageBPool.lean ====
import proofs.«146356_g2000405529851509_pallasbulk_1335_10_alg».proof.Proof.Gen.KernelIdeal.Skeleton
import proofs.«146356_g2000405529851509_pallasbulk_1335_10_alg».proof.Proof.StageBSpec
import Idealize.ShloMosaic.PureOps.Ideal.Laws
import Idealize.ShloMosaic.Lib.ValueIdx
import Idealize.ShloMosaic.Lib.Pipeline.Value

/-!
# The pooling of one block, read at one pooled position and channel

The 2016 computed rows of a block are eight images of 14 × 18 positions; columns 2 to 15 are kept, and the stored row
(image, py, px) is the maximum over the 2 × 2 window of positions (2 py + a, 2 px + b) of the kept map.
-/

set_option maxRecDepth 16384

noncomputable section

namespace Cert.StageB

open Cert.KernelIdeal Cert.KernelIdeal.Gen
open Idealize.ShloMosaic Idealize.ShloMosaic.ValueIdx

/-- The word the maximum starts from is the least extended real. -/
theorem negInf : (FloatOps.ofBits .f32 0xFF800000#32 : Ideal .f32) = ⊥ := by
  simp [FloatOps.ofBits, Ideal.ofBits, Ideal.ieee]

/-- The maximum over the vertical pair. -/
theorem maxY_apply (v40 : FVec Ideal S8x7x2x7x64 .f32) (nn : Fin 8) (py px : Fin 7) (ch : Fin 64) :
    multiReduction .maximumf [2] S8x7x7x64 v40 0xFF800000#32 reduces_S8x7x2x7x64_S8x7x7x64 (.inl rfl) rfl (ix4 nn py px ch)
      = max (v40 (ix5 nn py (0 : Fin 2) px ch)) (v40 (ix5 nn py (1 : Fin 2) px ch)) := by
  refine (Ideal.multiReduction_maximumf_single v40 _ _ _ _ _).trans ?_
  rw [negInf]
  refine (fold_max_fin2 _).trans ?_
  have e0 : reduces_S8x7x2x7x64_S8x7x7x64.lift (ix4 nn py px ch) (0 : Fin 2) = ix5 nn py (0 : Fin 2) px ch :=
    funext fun a => Fin.ext (by match a with | ⟨0, _⟩ => rfl | ⟨1, _⟩ => rfl | ⟨2, _⟩ => rfl | ⟨3, _⟩ => rfl | ⟨4, _⟩ => rfl)
  have e1 : reduces_S8x7x2x7x64_S8x7x7x64.lift (ix4 nn py px ch) (1 : Fin 2) = ix5 nn py (1 : Fin 2) px ch :=
    funext fun a => Fin.ext (by match a with | ⟨0, _⟩ => rfl | ⟨1, _⟩ => rfl | ⟨2, _⟩ => rfl | ⟨3, _⟩ => rfl | ⟨4, _⟩ => rfl)
  show max (v40 (reduces_S8x7x2x7x64_S8x7x7x64.lift (ix4 nn py px ch) (0 : Fin 2))) (v40 (reduces_S8x7x2x7x64_S8x7x7x64.lift (ix4 nn py px ch) (1 : Fin 2))) = _
  rw [e0, e1]

/-- The maximum over the horizontal pair. -/
theorem maxX_apply (v38 : FVec Ideal S8x14x7x2x64 .f32) (nn : Fin 8) (Y : Fin 14) (px : Fin 7) (ch : Fin 64) :
    multiReduction .maximumf [3] S8x14x7x64 v38 0xFF800000#32 reduces_S8x14x7x2x64_S8x14x7x64 (.inl rfl) rfl (ix4 nn Y px ch)
      = max (v38 (ix5 nn Y px (0 : Fin 2) ch)) (v38 (ix5 nn Y px (1 : Fin 2) ch)) := by
  refine (Ideal.multiReduction_maximumf_single v38 _ _ _ _ _).trans ?_
  rw [negInf]
  refine (fold_max_fin2 _).trans ?_
  have e0 : reduces_S8x14x7x2x64_S8x14x7x64.lift (ix4 nn Y px ch) (0 : Fin 2) = ix5 nn Y px (0 : Fin 2) ch :=
    funext fun a => Fin.ext (by match a with | ⟨0, _⟩ => rfl | ⟨1, _⟩ => rfl | ⟨2, _⟩ => rfl | ⟨3, _⟩ => rfl | ⟨4, _⟩ => rfl)
  have e1 : reduces_S8x14x7x2x64_S8x14x7x64.lift (ix4 nn Y px ch) (1 : Fin 2) = ix5 nn Y px (1 : Fin 2) ch :=
    funext fun a => Fin.ext (by match a with | ⟨0, _⟩ => rfl | ⟨1, _⟩ => rfl | ⟨2, _⟩ => rfl | ⟨3, _⟩ => rfl | ⟨4, _⟩ => rfl)
  show max (v38 (reduces_S8x14x7x2x64_S8x14x7x64.lift (ix4 nn Y px ch) (0 : Fin 2))) (v38 (reduces_S8x14x7x2x64_S8x14x7x64.lift (ix4 nn Y px ch) (1 : Fin 2))) = _
  rw [e0, e1]

/-- One position of the kept map, in the computed rows: image nn, row Y, kept column 2 px + b is computed row
    nn · 252 + Y · 18 + (2 px + b + 2). -/
theorem cell_apply (v35 : FVec Ideal S2016x64 .f32) (nn : Fin 8) (Y : Fin 14) (px : Fin 7) (b : Fin 2) (ch : Fin 64) :
    shapeCast S8x14x7x2x64 (extractStridedSlice S8x14x14x64 ![0, 0, 2, 0] (shapeCast S8x14x18x64 v35 shapeCasts_S2016x64_S8x14x18x64)
        slices_S8x14x18x64_o0_0_2_0_S8x14x14x64) shapeCasts_S8x14x14x64_S8x14x7x2x64 (ix5 nn Y px b ch)
      = v35 (ix2 (⟨nn.val * 252 + Y.val * 18 + (2 * px.val + b.val + 2), by omega⟩ : Fin 2016) ch) := by
  refine (shapeCast_apply _ _ _ (ix4 nn Y (⟨2 * px.val + b.val, by omega⟩ : Fin 14) ch) (by
    rw [Shape.rowMajor_val_four, Shape.rowMajor_val_five]
    show ((nn.val * 14 + Y.val) * 14 + (2 * px.val + b.val)) * 64 + ch.val = (((nn.val * 14 + Y.val) * 7 + px.val) * 2 + b.val) * 64 + ch.val
    omega)).trans ?_
  refine (extractStridedSlice_apply _ _ _ _ (ix4 nn Y (⟨2 * px.val + b.val + 2, by omega⟩ : Fin 18) ch) (fun a => ?_)).trans ?_
  · match a with
    | ⟨0, _⟩ => show nn.val = 0 + nn.val; omega
    | ⟨1, _⟩ => show Y.val = 0 + Y.val; omega
    | ⟨2, _⟩ => show 2 * px.val + b.val + 2 = 2 + (2 * px.val + b.val); omega
    | ⟨3, _⟩ => show ch.val = 0 + ch.val; omega
  · exact shapeCast_apply _ _ _ _ (by
      rw [Shape.rowMajor_val_two, Shape.rowMajor_val_four]
      show (nn.val * 252 + Y.val * 18 + (2 * px.val + b.val + 2)) * 64 + ch.val = ((nn.val * 14 + Y.val) * 18 + (2 * px.val + b.val + 2)) * 64 + ch.val
      omega)

/-- The vertical pair regrouped: entry (py, a) of the 7 × 2 split is row 2 py + a. -/
theorem splitY_apply (v39 : FVec Ideal S8x14x7x64 .f32) (nn : Fin 8) (py : Fin 7) (a : Fin 2) (px : Fin 7) (ch : Fin 64) :
    shapeCast S8x7x2x7x64 v39 shapeCasts_S8x14x7x64_S8x7x2x7x64 (ix5 nn py a px ch)
      = v39 (ix4 nn (⟨2 * py.val + a.val, by omega⟩ : Fin 14) px ch) :=
  shapeCast_apply _ _ _ _ (by
    rw [Shape.rowMajor_val_four, Shape.rowMajor_val_five]
    show ((nn.val * 14 + (2 * py.val + a.val)) * 7 + px.val) * 64 + ch.val = (((nn.val * 7 + py.val) * 2 + a.val) * 7 + px.val) * 64 + ch.val
    omega)

/-- The stored block at row (nn, py, px) and channel ch: the maximum over the 2 × 2 window of the computed rows. -/
theorem pay1_apply (v35 : FVec Ideal S2016x64 .f32) (nn : Fin 8) (py px : Fin 7) (ch : Fin 64) :
    (k1_pay1 (F := Ideal) v35 (ix2 (⟨nn.val * 49 + py.val * 7 + px.val, by omega⟩ : Fin 392) ch) : EReal)
      = pool4 fun a b => v35 (ix2 (⟨nn.val * 252 + (2 * py.val + a.val) * 18 + (2 * px.val + b.val + 2), by omega⟩ : Fin 2016) ch) := by
  unfold k1_pay1 pool4
  dsimp only
  rw [truncf_apply]
  refine (shapeCast_apply _ _ _ (ix4 nn py px ch) (by
    rw [Shape.rowMajor_val_four, Shape.rowMajor_val_two]
    show ((nn.val * 7 + py.val) * 7 + px.val) * 64 + ch.val = (nn.val * 49 + py.val * 7 + px.val) * 64 + ch.val
    omega)).trans ?_
  refine (maxY_apply _ nn py px ch).trans ?_
  rw [splitY_apply, splitY_apply, maxX_apply, maxX_apply, cell_apply, cell_apply, cell_apply, cell_apply]

end Cert.StageB

end
-- ==== Proof.StageBArr.lean ====
import proofs.«146356_g2000405529851509_pallasbulk_1335_10_alg».proof.Proof.KISecondConv
import proofs.«146356_g2000405529851509_pallasbulk_1335_10_alg».proof.Proof.StageBPay
import proofs.«146356_g2000405529851509_pallasbulk_1335_10_alg».proof.Proof.StageBPool
import Idealize.ShloMosaic.Lib.Pipeline.Value

/-!
# The second convolution's result array, from its six blocks

Each of the six grid points writes back rows 392 t to 392 t + 391 of the result; what it writes is a function of rows
of the input arrays, so the result array after the region is one function of the four input arrays.
-/

set_option maxRecDepth 16384

noncomputable section

namespace Cert.StageB

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The filter slice of horizontal tap dx: rows dx · 320 to dx · 320 + 319 of the 1600 × 64 filter matrix. -/
def tapW (x1 : S1600x64.Idx → EReal) (dx : Nat) (hdx : dx ≤ 4) : S320x64.Idx → EReal :=
  fun i => x1 (ix2 (⟨dx * 320 + (i 0).val, by have := idx2_lt0 i; omega⟩ : Fin 1600) (⟨(i 1).val, idx2_lt1 i⟩ : Fin 64))

/-- What one block stores at row (nn, py, px) and channel ch, from the block's inputs. -/
def blockOut (x0 : S1x2020x320.Idx → EReal) (x1 : S1600x64.Idx → EReal) (x2 x3 : S1x64.Idx → EReal)
    (nn : Fin 8) (py px : Fin 7) (ch : Fin 64) : EReal :=
  pool4 fun a b =>
    max ((tapSum x0 (tapW x1 0 (by omega)) (⟨nn.val * 252 + (2 * py.val + a.val) * 18 + (2 * px.val + b.val + 2), by omega⟩ : Fin 2016) 0 (by omega) ch
          + tapSum x0 (tapW x1 1 (by omega)) (⟨nn.val * 252 + (2 * py.val + a.val) * 18 + (2 * px.val + b.val + 2), by omega⟩ : Fin 2016) 1 (by omega) ch
          + tapSum x0 (tapW x1 2 (by omega)) (⟨nn.val * 252 + (2 * py.val + a.val) * 18 + (2 * px.val + b.val + 2), by omega⟩ : Fin 2016) 2 (by omega) ch
          + tapSum x0 (tapW x1 3 (by omega)) (⟨nn.val * 252 + (2 * py.val + a.val) * 18 + (2 * px.val + b.val + 2), by omega⟩ : Fin 2016) 3 (by omega) ch
          + tapSum x0 (tapW x1 4 (by omega)) (⟨nn.val * 252 + (2 * py.val + a.val) * 18 + (2 * px.val + b.val + 2), by omega⟩ : Fin 2016) 4 (by omega) ch)
        * x2 (ix2 (0 : Fin 1) ch) + x3 (ix2 (0 : Fin 1) ch)) 0

theorem tap0_eq (x1 : Vec Ideal S1600x64 .bf16) : (View.ld x1 SecondConv.rIn1 : Vec Ideal S320x64 .bf16) = (tapW x1 0 (by omega) : S320x64.Idx → EReal) := by
  funext i
  show x1 (SecondConv.rIn1.emb i) = _
  unfold tapW
  refine congrArg x1 (funext fun a => Fin.ext ?_)
  match a with
  | ⟨0, _⟩ => rw [Rect.emb_apply]; show 0 + 1 * (i 0).val = 0 * 320 + (i 0).val; omega
  | ⟨1, _⟩ => rw [Rect.emb_apply]; show 0 + 1 * (i 1).val = (i 1).val; omega
theorem tap1_eq (x1 : Vec Ideal S1600x64 .bf16) : (View.ld x1 SecondConv.rTap1 : Vec Ideal S320x64 .bf16) = (tapW x1 1 (by omega) : S320x64.Idx → EReal) := by
  funext i
  show x1 (SecondConv.rTap1.emb i) = _
  unfold tapW
  refine congrArg x1 (funext fun a => Fin.ext ?_)
  match a with
  | ⟨0, _⟩ => rw [Rect.emb_apply]; show 320 + 1 * (i 0).val = 1 * 320 + (i 0).val; omega
  | ⟨1, _⟩ => rw [Rect.emb_apply]; show 0 + 1 * (i 1).val = (i 1).val; omega
theorem tap2_eq (x1 : Vec Ideal S1600x64 .bf16) : (View.ld x1 SecondConv.rTap2 : Vec Ideal S320x64 .bf16) = (tapW x1 2 (by omega) : S320x64.Idx → EReal) := by
  funext i
  show x1 (SecondConv.rTap2.emb i) = _
  unfold tapW
  refine congrArg x1 (funext fun a => Fin.ext ?_)
  match a with
  | ⟨0, _⟩ => rw [Rect.emb_apply]; show 640 + 1 * (i 0).val = 2 * 320 + (i 0).val; omega
  | ⟨1, _⟩ => rw [Rect.emb_apply]; show 0 + 1 * (i 1).val = (i 1).val; omega
theorem tap3_eq (x1 : Vec Ideal S1600x64 .bf16) : (View.ld x1 SecondConv.rTap3 : Vec Ideal S320x64 .bf16) = (tapW x1 3 (by omega) : S320x64.Idx → EReal) := by
  funext i
  show x1 (SecondConv.rTap3.emb i) = _
  unfold tapW
  refine congrArg x1 (funext fun a => Fin.ext ?_)
  match a with
  | ⟨0, _⟩ => rw [Rect.emb_apply]; show 960 + 1 * (i 0).val = 3 * 320 + (i 0).val; omega
  | ⟨1, _⟩ => rw [Rect.emb_apply]; show 0 + 1 * (i 1).val = (i 1).val; omega
theorem tap4_eq (x1 : Vec Ideal S1600x64 .bf16) : (View.ld x1 SecondConv.rTap4 : Vec Ideal S320x64 .bf16) = (tapW x1 4 (by omega) : S320x64.Idx → EReal) := by
  funext i
  show x1 (SecondConv.rTap4.emb i) = _
  unfold tapW
  refine congrArg x1 (funext fun a => Fin.ext ?_)
  match a with
  | ⟨0, _⟩ => rw [Rect.emb_apply]; show 1280 + 1 * (i 0).val = 4 * 320 + (i 0).val; omega
  | ⟨1, _⟩ => rw [Rect.emb_apply]; show 0 + 1 * (i 1).val = (i 1).val; omega

/-- The body's stored block, read at row (nn, py, px) and channel ch. -/
theorem outBlock_apply (x0 : Vec Ideal S1x2020x320 .bf16) (x1 : Vec Ideal S1600x64 .bf16) (x2 x3 : Vec Ideal S1x64 .f32)
    (nn : Fin 8) (py px : Fin 7) (ch : Fin 64) :
    (SecondConv.outBlock (F := Ideal) x0 x1 x2 x3 (ix2 (⟨nn.val * 49 + py.val * 7 + px.val, by omega⟩ : Fin 392) ch) : EReal)
      = blockOut x0 x1 x2 x3 nn py px ch := by
  unfold SecondConv.outBlock
  rw [View.canon_unit_zero hz2, pay1_apply]
  unfold blockOut
  simp only [pay2_apply, View.ld_unit_zero (S := S1x2020x320) hz3, View.ld_unit_zero (S := S1x64) hz2,
    tap0_eq, tap1_eq, tap2_eq, tap3_eq, tap4_eq]

/-! ## From the blocks to the array -/

variable (V : (c : Dev nD) → (b : Ref sig .tc) → Buf (Elt Ideal) ((c : Thread nD τ).loc b))

/-- Group t of the first input (eight images' rows), as a block. -/
def xGroup (A48 : S6x2020x320.Idx → EReal) (t : Nat) (ht : t < 6) : S1x2020x320.Idx → EReal :=
  fun j => A48 (ix3 (⟨t, ht⟩ : Fin 6) (⟨(j 1).val, (j 1).isLt⟩ : Fin 2020) (⟨(j 2).val, (j 2).isLt⟩ : Fin 320))

/-- The result array as one function of the four input arrays: row R is row R mod 392 of block R / 392. -/
def kArr (A48 : S6x2020x320.Idx → EReal) (A52 : S1600x64.Idx → EReal) (A54 A56 : S1x64.Idx → EReal) : S2352x64.Idx → EReal :=
  fun i => blockOut (xGroup A48 ((i 0).val / 392) (by have := idx2_lt0 i; omega)) A52 A54 A56
    (⟨(i 0).val % 392 / 49, by omega⟩ : Fin 8) (⟨(i 0).val % 49 / 7, by omega⟩ : Fin 7) (⟨(i 0).val % 7, by omega⟩ : Fin 7)
    (⟨(i 1).val, idx2_lt1 i⟩ : Fin 64)

theorem blockOut_congr (A48 : S6x2020x320.Idx → EReal) (A52 : S1600x64.Idx → EReal) (A54 A56 : S1x64.Idx → EReal)
    (t t' : Nat) (ht : t < 6) (ht' : t' < 6) (nn nn' : Fin 8) (py py' px px' : Fin 7) (ch ch' : Fin 64)
    (h1 : t = t') (h2 : nn = nn') (h3 : py = py') (h4 : px = px') (h5 : ch = ch') :
    blockOut (xGroup A48 t ht) A52 A54 A56 nn py px ch = blockOut (xGroup A48 t' ht') A52 A54 A56 nn' py' px' ch' := by
  subst h1 h2 h3 h4 h5; rfl

/-- The printed index maps, decided over the grid: the first input and the result move one block per point along
    their first axis; the other three inputs are whole arrays. -/
theorem idx_facts : ∀ t : Fin cfg1.N, win1_0.index t (0 : Fin 3) = t.val ∧ win1_0.index t (1 : Fin 3) = 0
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tval_lt (t : Fin cfg1.N) : t.val < 6 := lt_of_lt_of_eq t.isLt (show cfg1.N = 6 from N_1)

theorem iblk0_eq (c : Dev nD) (t : Fin cfg1.N) :
    (SecondConv.iblk V c 0 t : S1x2020x320.Idx → EReal) = xGroup (V c main_v48) t.val (tval_lt t) := by
  obtain ⟨e0, e1, e2, -⟩ := idx_facts t
  funext j
  unfold SecondConv.iblk xGroup
  rw [View.read_apply]
  show V c main_v48 (((cfg1.win 0).blk t).view.emb j) = V c main_v48 _
  refine congrArg (V c main_v48) (funext fun a => Fin.ext ?_)
  match a with
  | ⟨0, _⟩ => show win1_0.index t (0 : Fin 3) * 1 + 1 * (j 0).val = t.val; have hj : (j 0).val < 1 := (j 0).isLt; omega
  | ⟨1, _⟩ => show win1_0.index t (1 : Fin 3) * 2020 + 1 * (j 1).val = (j 1).val; omega
  | ⟨2, _⟩ => show win1_0.index t (2 : Fin 3) * 320 + 1 * (j 2).val = (j 2).val; omega

theorem iblk1_eq (c : Dev nD) (t : Fin cfg1.N) : (SecondConv.iblk V c 1 t : S1600x64.Idx → EReal) = V c main_v52 := by
  obtain ⟨-, -, -, e0, e1, -⟩ := idx_facts t
  funext j
  unfold SecondConv.iblk
  rw [View.read_apply]
  show V c main_v52 (((cfg1.win 1).blk t).view.emb j) = V c main_v52 j
  refine congrArg (V c main_v52) (funext fun a => Fin.ext ?_)
  match a with
  | ⟨0, _⟩ => show win1_1.index t (0 : Fin 2) * 1600 + 1 * (j 0).val = (j 0).val; omega
  | ⟨1, _⟩ => show win1_1.index t (1 : Fin 2) * 64 + 1 * (j 1).val = (j 1).val; omega

theorem iblk2_eq (c : Dev nD) (t : Fin cfg1.N) : (SecondConv.iblk V c 2 t : S1x64.Idx → EReal) = V c main_v54 := by
  obtain ⟨-, -, -, -, -, e0, e1, -⟩ := idx_facts t
  funext j
  unfold SecondConv.iblk
  rw [View.read_apply]
  show V c main_v54 (((cfg1.win 2).blk t).view.emb j) = V c main_v54 j
  refine congrArg (V c main_v54) (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega

theorem iblk3_eq (c : Dev nD) (t : Fin cfg1.N) : (SecondConv.iblk V c 3 t : S1x64.Idx → EReal) = V c main_v56 := by
  obtain ⟨-, -, -, -, -, -, -, e0, e1, -⟩ := idx_facts t
  funext j
  unfold SecondConv.iblk
  rw [View.read_apply]
  show V c main_v56 (((cfg1.win 3).blk t).view.emb j) = V c main_v56 j
  refine congrArg (V c main_v56) (funext fun a => Fin.ext ?_)
  match a with
  | ⟨0, _⟩ => show win1_3.index t (0 : Fin 2) * 1 + 1 * (j 0).val = (j 0).val; omega
  | ⟨1, _⟩ => show win1_3.index t (1 : Fin 2) * 64 + 1 * (j 1).val = (j 1).val; omega

/-- What point t writes back is block t of `kArr` of the input arrays as the region finds them. -/
theorem flushed_eq (c : Dev nD) (t : Fin cfg1.N) :
    (SecondConv.dat V c).flushed 4 t
      = ((cfg1.win 4).blk t).view.read (Elt Ideal) (kArr (V c main_v48) (V c main_v52) (V c main_v54) (V c main_v56)) := by
  show (cfg1.win 4).cut (grid1.coords t) ((SecondConv.dat V c).after 4 t) = _
  rw [SecondConv.after4]
  obtain ⟨-, -, -, -, -, -, -, -, -, e0, e1⟩ := idx_facts t
  funext j
  rw [View.read_apply]
  have hj0 : (j 0).val < 392 := (j 0).isLt
  have hj1 : (j 1).val < 64 := (j 1).isLt
  have ht : t.val < 6 := tval_lt t
  have ej : j = ix2 (⟨((j 0).val / 49) * 49 + ((j 0).val % 49 / 7) * 7 + (j 0).val % 7, by omega⟩ : Fin 392) (⟨(j 1).val, hj1⟩ : Fin 64) :=
    funext fun a => match a with
      | ⟨0, _⟩ => Fin.ext (by show (j 0).val = ((j 0).val / 49) * 49 + ((j 0).val % 49 / 7) * 7 + (j 0).val % 7; omega)
      | ⟨1, _⟩ => rfl
  have hL := outBlock_apply (SecondConv.iblk V c 0 t) (SecondConv.iblk V c 1 t) (SecondConv.iblk V c 2 t) (SecondConv.iblk V c 3 t)
    (⟨(j 0).val / 49, by omega⟩ : Fin 8) (⟨(j 0).val % 49 / 7, by omega⟩ : Fin 7) (⟨(j 0).val % 7, by omega⟩ : Fin 7) (⟨(j 1).val, hj1⟩ : Fin 64)
  have E0 : ((((cfg1.win 4).blk t).view.emb j) 0).val = t.val * 392 + (j 0).val := by
    show win1_4.index t (0 : Fin 2) * 392 + 1 * (j 0).val = _; rw [e0]; omega
  have E1 : ((((cfg1.win 4).blk t).view.emb j) 1).val = (j 1).val := by
    show win1_4.index t (1 : Fin 2) * 64 + 1 * (j 1).val = _; rw [e1]; omega
  show (SecondConv.outBlock (F := Ideal) (SecondConv.iblk V c 0 t) (SecondConv.iblk V c 1 t) (SecondConv.iblk V c 2 t) (SecondConv.iblk V c 3 t) j : EReal) = _
  refine (congrArg (SecondConv.outBlock (F := Ideal) (SecondConv.iblk V c 0 t) (SecondConv.iblk V c 1 t) (SecondConv.iblk V c 2 t) (SecondConv.iblk V c 3 t)) ej).trans (hL.trans ?_)
  rw [iblk0_eq, iblk1_eq, iblk2_eq, iblk3_eq]
  unfold kArr
  exact blockOut_congr _ _ _ _ _ _ _ _ _ _ _ _ _ _ _ _ (by rw [E0]; omega) (Fin.ext (by show (j 0).val / 49 = _ % 392 / 49; rw [E0]; omega))
    (Fin.ext (by show (j 0).val % 49 / 7 = _ % 49 / 7; rw [E0]; omega)) (Fin.ext (by show (j 0).val % 7 = _ % 7; rw [E0]; omega))
    (Fin.ext (by show (j 1).val = _; rw [E1]))

/-- An index of the result array is in point t's block iff each coordinate is in the block's range on its axis. -/
theorem mem_blk (t : Fin cfg1.N) (i : S2352x64.Idx) :
    i ∈ ((cfg1.win 4).blk t).view.set ↔ ∀ a : Fin 2, win1_4.index t a * S392x64.size a ≤ (i a).val ∧ (i a).val < win1_4.index t a * S392x64.size a + S392x64.size a := by
  show i ∈ ((View.whole main_v57).slice (win1_4.rect t)).set ↔ _
  rw [View.set_slice_whole, Rect.mem_set_unit]
  exact Iff.rfl

/-- Every row of the result is in the block of the point its number over 392 names. -/
theorem cover (i : S2352x64.Idx) : ∃ t : Fin cfg1.N, (cfg1.win 4).flush t = true ∧ i ∈ ((cfg1.win 4).blk t).view.set := by
  have hi0 := idx2_lt0 i
  have hi1 := idx2_lt1 i
  refine ⟨⟨(i 0).val / 392, by show (i 0).val / 392 < grid1.N; rw [N_1]; omega⟩, flush1_4 _, ?_⟩
  obtain ⟨-, -, -, -, -, -, -, -, -, e0, e1⟩ := idx_facts ⟨(i 0).val / 392, by show (i 0).val / 392 < grid1.N; rw [N_1]; omega⟩
  rw [mem_blk]
  intro a
  match a with
  | ⟨0, _⟩ =>
    show win1_4.index ⟨(i 0).val / 392, _⟩ (0 : Fin 2) * 392 ≤ (i 0).val ∧ (i 0).val < win1_4.index ⟨(i 0).val / 392, _⟩ (0 : Fin 2) * 392 + 392
    rw [e0]; show (i 0).val / 392 * 392 ≤ (i 0).val ∧ (i 0).val < (i 0).val / 392 * 392 + 392; omega
  | ⟨1, _⟩ =>
    show win1_4.index ⟨(i 0).val / 392, _⟩ (1 : Fin 2) * 64 ≤ (i 1).val ∧ (i 1).val < win1_4.index ⟨(i 0).val / 392, _⟩ (1 : Fin 2) * 64 + 64
    rw [e1]; omega

/-- The result array after the region. -/
theorem arr_final (c : Dev nD) :
    (SecondConv.dat V c).arrAt 4 cfg1.N = kArr (V c main_v48) (V c main_v52) (V c main_v54) (V c main_v56) :=
  (SecondConv.dat V c).arrAt_eq_of_cover 4 _ (fun t _ => flushed_eq V c t) cover

/-- The result array at row (n, py, px): block n / 8, row (n mod 8, py, px) of the block. -/
theorem kArr_apply (A48 : S6x2020x320.Idx → EReal) (A52 : S1600x64.Idx → EReal) (A54 A56 : S1x64.Idx → EReal)
    (n : Fin 48) (py px : Fin 7) (ch : Fin 64) :
    kArr A48 A52 A54 A56 (ix2 (⟨n.val * 49 + py.val * 7 + px.val, by omega⟩ : Fin 2352) ch)
      = blockOut (xGroup A48 (n.val / 8) (by omega)) A52 A54 A56 (⟨n.val % 8, by omega⟩ : Fin 8) py px ch := by
  unfold kArr
  exact blockOut_congr _ _ _ _ _ _ _ _ _ _ _ _ _ _ _ _
    (by show (n.val * 49 + py.val * 7 + px.val) / 392 = n.val / 8; omega)
    (Fin.ext (by show (n.val * 49 + py.val * 7 + px.val) % 392 / 49 = n.val % 8; omega))
    (Fin.ext (by show (n.val * 49 + py.val * 7 + px.val) % 49 / 7 = py.val; omega))
    (Fin.ext (by show (n.val * 49 + py.val * 7 + px.val) % 7 = px.val; omega))
    (Fin.ext rfl)

end Cert.StageB

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.StageBLaw.lean ====
import proofs.«146356_g2000405529851509_pallasbulk_1335_10_alg».proof.Proof.LibBlockSum
import Mathlib.Algebra.BigOperators.Fin

/-!
# Regrouping the 1600 products of a 5 × 5 convolution over 64 input channels

One side sums the products in the order (vertical tap, horizontal tap, channel) as one sum over 1600 positions; the
other adds, over the five horizontal taps, a sum over 320 positions in the order (vertical tap, channel). Both are the
sum over all triples: only commutativity and associativity of addition are used, so nothing needs to be finite.
-/

namespace Cert.StageB

open Finset Cert.Lib.BlockSum

variable {M : Type*} [AddCommMonoid M]

theorem sum_fin1600 (g : Nat → M) : ∑ j : Fin 1600, g j.val = ∑ a : Fin 5, ∑ b : Fin 320, g (a.val * 320 + b.val) :=
  sum_blocks 5 320 (fun j => g j.val)

theorem sum_fin320 (g : Nat → M) : ∑ k : Fin 320, g k.val = ∑ a : Fin 5, ∑ b : Fin 64, g (a.val * 64 + b.val) :=
  sum_blocks 5 64 (fun j => g j.val)

theorem sum_fin5 (S : Nat → M) : ∑ d : Fin 5, S d.val = S 0 + S 1 + S 2 + S 3 + S 4 := by
  rw [Fin.sum_univ_five]; rfl

/-- The sum over 1600 positions in the order (vertical, horizontal, channel) is the sum over all triples. -/
theorem sum_vhc (F : Nat → Nat → Nat → M) :
    ∑ j : Fin 1600, F (j.val / 320) (j.val / 64 % 5) (j.val % 64)
      = ∑ dy : Fin 5, ∑ dx : Fin 5, ∑ cin : Fin 64, F dy.val dx.val cin.val := by
  rw [sum_fin1600 (fun j => F (j / 320) (j / 64 % 5) (j % 64))]
  refine Finset.sum_congr rfl fun a _ => ?_
  rw [sum_fin320 (fun b => F ((a.val * 320 + b) / 320) ((a.val * 320 + b) / 64 % 5) ((a.val * 320 + b) % 64))]
  refine Finset.sum_congr rfl fun dx _ => Finset.sum_congr rfl fun cin _ => ?_
  have ha := a.isLt; have hdx := dx.isLt; have hc := cin.isLt
  have e1 : (a.val * 320 + (dx.val * 64 + cin.val)) / 320 = a.val := by omega
  have e2 : (a.val * 320 + (dx.val * 64 + cin.val)) / 64 % 5 = dx.val := by omega
  have e3 : (a.val * 320 + (dx.val * 64 + cin.val)) % 64 = cin.val := by omega
  show F ((a.val * 320 + (dx.val * 64 + cin.val)) / 320) ((a.val * 320 + (dx.val * 64 + cin.val)) / 64 % 5) ((a.val * 320 + (dx.val * 64 + cin.val)) % 64) = _
  rw [e1, e2, e3]

/-- One horizontal tap's sum over 320 positions in the order (vertical, channel). -/
theorem sum_vc (F : Nat → Nat → Nat → M) (dx : Nat) :
    ∑ k : Fin 320, F (k.val / 64) dx (k.val % 64) = ∑ dy : Fin 5, ∑ cin : Fin 64, F dy.val dx cin.val := by
  rw [sum_fin320 (fun k => F (k / 64) dx (k % 64))]
  refine Finset.sum_congr rfl fun dy _ => Finset.sum_congr rfl fun cin _ => ?_
  have hdy := dy.isLt; have hc := cin.isLt
  have e1 : (dy.val * 64 + cin.val) / 64 = dy.val := by omega
  have e3 : (dy.val * 64 + cin.val) % 64 = cin.val := by omega
  show F ((dy.val * 64 + cin.val) / 64) dx ((dy.val * 64 + cin.val) % 64) = _
  rw [e1, e3]

/-- The two groupings of the 1600 products agree. -/
theorem taps_regroup (F : Nat → Nat → Nat → M) :
    (∑ k : Fin 320, F (k.val / 64) 0 (k.val % 64)) + (∑ k : Fin 320, F (k.val / 64) 1 (k.val % 64))
        + (∑ k : Fin 320, F (k.val / 64) 2 (k.val % 64)) + (∑ k : Fin 320, F (k.val / 64) 3 (k.val % 64))
        + (∑ k : Fin 320, F (k.val / 64) 4 (k.val % 64))
      = ∑ j : Fin 1600, F (j.val / 320) (j.val / 64 % 5) (j.val % 64) := by
  rw [sum_vhc, sum_vc, sum_vc, sum_vc, sum_vc, sum_vc]
  rw [← sum_fin5 (fun dx => ∑ dy : Fin 5, ∑ cin : Fin 64, F dy.val dx cin.val)]
  rw [Finset.sum_comm]

end Cert.StageB
-- ==== Proof.StageBAlg.lean ====
import proofs.«146356_g2000405529851509_pallasbulk_1335_10_alg».proof.Proof.StageBArr
import proofs.«146356_g2000405529851509_pallasbulk_1335_10_alg».proof.Proof.StageBLaw
import proofs.«146356_g2000405529851509_pallasbulk_1335_10_alg».proof.Proof.StageBSpec

/-!
# The block formula is the convolution

Given how the region's four input arrays read in terms of the padded map, the filter matrix, the scale and the shift,
the block formula at image n and pooled position (py, px) is the pooled activation: the five horizontal taps' sums over
(vertical tap, channel) are the 1600 products regrouped.
-/

set_option maxRecDepth 16384

noncomputable section

namespace Cert.StageB

open Cert.KernelIdeal
open Idealize.ShloMosaic Idealize.ShloMosaic.ValueIdx

variable (A48 : S6x2020x320.Idx → EReal) (A52 : S1600x64.Idx → EReal) (A54 A56 : S1x64.Idx → EReal)
variable (xp : (⟨4, ![48, 18, 18, 64]⟩ : Shape).Idx → EReal) (w : (⟨2, ![1600, 128]⟩ : Shape).Idx → EReal)
variable (s t : (⟨1, ![128]⟩ : Shape).Idx → EReal)

/-- One product of the convolution at image n, position (Y, x), channel ch: vertical tap dy, horizontal tap dx, input
    channel cin (zero outside the taps' ranges, which no sum below leaves). -/
def prodAt (n : Fin 48) (Y x : Fin 14) (ch : Fin 64) (dy dx cin : Nat) : EReal :=
  if h : dy < 5 ∧ dx < 5 ∧ cin < 64 then
    xp (ix4 n (⟨Y.val + dy, by omega⟩ : Fin 18) (⟨x.val + dx, by omega⟩ : Fin 18) (⟨cin, h.2.2⟩ : Fin 64))
      * w (ix2 (⟨(dy * 5 + dx) * 64 + cin, by omega⟩ : Fin 1600) (⟨ch.val, by omega⟩ : Fin 128))
  else 0

/-- How the first input and the exchanged filter matrix read. -/
def ReadsX : Prop := ∀ (tt : Fin 6) (nn : Fin 8) (Y : Fin 14) (X : Fin 18) (k : Fin 320),
  A48 (ix3 tt (⟨nn.val * 252 + Y.val * 18 + X.val + 2, by omega⟩ : Fin 2020) k)
    = xp (ix4 (⟨tt.val * 8 + nn.val, by omega⟩ : Fin 48) (⟨Y.val + k.val / 64, by omega⟩ : Fin 18) X (⟨k.val % 64, by omega⟩ : Fin 64))
def ReadsW : Prop := ∀ (dx : Fin 5) (k : Fin 320) (ch : Fin 64),
  A52 (ix2 (⟨dx.val * 320 + k.val, by omega⟩ : Fin 1600) ch)
    = w (ix2 (⟨(k.val / 64 * 5 + dx.val) * 64 + k.val % 64, by omega⟩ : Fin 1600) (⟨ch.val, by omega⟩ : Fin 128))

/-- One horizontal tap's sum, in terms of the products. -/
theorem tap_eq (hx : ReadsX A48 xp) (hw : ReadsW A52 w) (n : Fin 48) (Y x : Fin 14) (ch : Fin 64) (dx : Nat) (hdx : dx ≤ 4) :
    tapSum (xGroup A48 (n.val / 8) (by omega)) (tapW A52 dx hdx)
        (⟨n.val % 8 * 252 + Y.val * 18 + (x.val + 2), by omega⟩ : Fin 2016) dx hdx ch
      = ∑ k : Fin 320, prodAt xp w n Y x ch (k.val / 64) dx (k.val % 64) := by
  unfold tapSum
  refine Finset.sum_congr rfl fun k _ => ?_
  have e1 : xGroup A48 (n.val / 8) (by omega) (ix3 (0 : Fin 1) (⟨n.val % 8 * 252 + Y.val * 18 + (x.val + 2) + dx, by omega⟩ : Fin 2020) k)
      = xp (ix4 n (⟨Y.val + k.val / 64, by omega⟩ : Fin 18) (⟨x.val + dx, by omega⟩ : Fin 18) (⟨k.val % 64, by omega⟩ : Fin 64)) := by
    have h := hx (⟨n.val / 8, by omega⟩ : Fin 6) (⟨n.val % 8, by omega⟩ : Fin 8) Y (⟨x.val + dx, by omega⟩ : Fin 18) k
    have hn : (⟨n.val / 8 * 8 + n.val % 8, by omega⟩ : Fin 48) = n := Fin.ext (by show n.val / 8 * 8 + n.val % 8 = n.val; omega)
    rw [hn] at h
    rw [← h]
    unfold xGroup
    refine congrArg A48 (funext fun a => Fin.ext ?_)
    match a with
    | ⟨0, _⟩ => rfl
    | ⟨1, _⟩ => show n.val % 8 * 252 + Y.val * 18 + (x.val + 2) + dx = n.val % 8 * 252 + Y.val * 18 + (x.val + dx) + 2; omega
    | ⟨2, _⟩ => rfl
  have e2 : tapW A52 dx hdx (ix2 k ch)
      = w (ix2 (⟨(k.val / 64 * 5 + dx) * 64 + k.val % 64, by omega⟩ : Fin 1600) (⟨ch.val, by omega⟩ : Fin 128)) := by
    have h := hw (⟨dx, by omega⟩ : Fin 5) k ch
    rw [← h]
    unfold tapW
    refine congrArg A52 (funext fun a => Fin.ext ?_)
    match a with
    | ⟨0, _⟩ => rfl
    | ⟨1, _⟩ => rfl
  rw [e1, e2]
  unfold prodAt
  rw [dif_pos ⟨by omega, by omega, by omega⟩]

/-- The other grouping: the sum over the 1600 filter rows, in terms of the products. -/
theorem rows_eq (n : Fin 48) (Y x : Fin 14) (ch : Fin 64) :
    ∑ j : Fin 1600, xp (ix4 n (⟨Y.val + j.val / 320, by omega⟩ : Fin 18) (⟨x.val + j.val / 64 % 5, by omega⟩ : Fin 18) (⟨j.val % 64, by omega⟩ : Fin 64))
        * w (ix2 j (⟨ch.val, by omega⟩ : Fin 128))
      = ∑ j : Fin 1600, prodAt xp w n Y x ch (j.val / 320) (j.val / 64 % 5) (j.val % 64) := by
  refine Finset.sum_congr rfl fun j _ => ?_
  unfold prodAt
  rw [dif_pos ⟨by omega, by omega, by omega⟩]
  have hj : (⟨(j.val / 320 * 5 + j.val / 64 % 5) * 64 + j.val % 64, by omega⟩ : Fin 1600) = j :=
    Fin.ext (by show (j.val / 320 * 5 + j.val / 64 % 5) * 64 + j.val % 64 = j.val; omega)
  rw [hj]

/-- The five taps' sums are the sum over the 1600 filter rows. -/
theorem taps_eq_rows (hx : ReadsX A48 xp) (hw : ReadsW A52 w) (n : Fin 48) (Y x : Fin 14) (ch : Fin 64) :
    tapSum (xGroup A48 (n.val / 8) (by omega)) (tapW A52 0 (by omega)) (⟨n.val % 8 * 252 + Y.val * 18 + (x.val + 2), by omega⟩ : Fin 2016) 0 (by omega) ch
      + tapSum (xGroup A48 (n.val / 8) (by omega)) (tapW A52 1 (by omega)) (⟨n.val % 8 * 252 + Y.val * 18 + (x.val + 2), by omega⟩ : Fin 2016) 1 (by omega) ch
      + tapSum (xGroup A48 (n.val / 8) (by omega)) (tapW A52 2 (by omega)) (⟨n.val % 8 * 252 + Y.val * 18 + (x.val + 2), by omega⟩ : Fin 2016) 2 (by omega) ch
      + tapSum (xGroup A48 (n.val / 8) (by omega)) (tapW A52 3 (by omega)) (⟨n.val % 8 * 252 + Y.val * 18 + (x.val + 2), by omega⟩ : Fin 2016) 3 (by omega) ch
      + tapSum (xGroup A48 (n.val / 8) (by omega)) (tapW A52 4 (by omega)) (⟨n.val % 8 * 252 + Y.val * 18 + (x.val + 2), by omega⟩ : Fin 2016) 4 (by omega) ch
      = ∑ j : Fin 1600, xp (ix4 n (⟨Y.val + j.val / 320, by omega⟩ : Fin 18) (⟨x.val + j.val / 64 % 5, by omega⟩ : Fin 18) (⟨j.val % 64, by omega⟩ : Fin 64))
          * w (ix2 j (⟨ch.val, by omega⟩ : Fin 128)) := by
  rw [tap_eq A48 A52 xp w hx hw n Y x ch 0, tap_eq A48 A52 xp w hx hw n Y x ch 1, tap_eq A48 A52 xp w hx hw n Y x ch 2,
    tap_eq A48 A52 xp w hx hw n Y x ch 3, tap_eq A48 A52 xp w hx hw n Y x ch 4, rows_eq]
  exact taps_regroup (prodAt xp w n Y x ch)

/-- The block formula at image n and pooled position (py, px) is the pooled activation. -/
theorem blockOut_eq_pooled (hx : ReadsX A48 xp) (hw : ReadsW A52 w)
    (hs : ∀ ch : Fin 64, A54 (ix2 (0 : Fin 1) ch) = s (ix1 (⟨ch.val, by omega⟩ : Fin 128)))
    (ht : ∀ ch : Fin 64, A56 (ix2 (0 : Fin 1) ch) = t (ix1 (⟨ch.val, by omega⟩ : Fin 128)))
    (n : Fin 48) (py px : Fin 7) (ch : Fin 64) :
    blockOut (xGroup A48 (n.val / 8) (by omega)) A52 A54 A56 (⟨n.val % 8, by omega⟩ : Fin 8) py px ch
      = pooled xp w s t n py px ch := by
  unfold blockOut pooled
  refine congrArg pool4 (funext fun a => funext fun b => ?_)
  unfold act
  rw [hs, ht]
  have h := taps_eq_rows A48 A52 xp w hx hw n (⟨2 * py.val + a.val, by omega⟩ : Fin 14) (⟨2 * px.val + b.val, by omega⟩ : Fin 14) ch
  exact congrArg (fun z => max (z * s (ix1 (⟨ch.val, by omega⟩ : Fin 128)) + t (ix1 (⟨ch.val, by omega⟩ : Fin 128))) 0) h

end Cert.StageB

end
-- ==== Proof.StageBHostA.lean ====
import proofs.«146356_g2000405529851509_pallasbulk_1335_10_alg».proof.Proof.Gen.KernelIdeal.Regions
import Idealize.ShloMosaic.Lib.StableHlo.Run
import Idealize.ShloMosaic.Lib.ValueIdx

/-!
# The host operations before the second convolution's region, one stretch at a time

Each lemma says what one buffer holds after one stretch of host operations, in terms of what the buffers held before
the stretch.
-/

set_option maxRecDepth 16384

noncomputable section

namespace Cert.StageB

open Cert.KernelIdeal Cert.KernelIdeal.Gen
open Idealize.ShloMosaic Idealize.ShloMosaic.TcCoe Idealize.ShloMosaic.ValueIdx Idealize.ShloMosaic.StableHlo Idealize.SL.Sem

variable (G : Valuation τ sig (Elt Ideal))

theorem after_v39 : StableHlo.after (hostOps1 (F := Ideal)) G (Proc.devRef .tc main_v39)
    = shapeCast S48x14x14x64 (G (Proc.devRef .tc main_v38)) shapeCasts_S9408x64_S48x14x14x64 := by
  unfold hostOps1
  after_results
  rfl

theorem after_c1 : StableHlo.after (hostOps1 (F := Ideal)) G (Proc.devRef .tc main_c_1) = constantI S_ 32 0#32 := by
  unfold hostOps1
  after_results

theorem after_v40 : StableHlo.after (hostOps1_1 (F := Ideal)) G (Proc.devRef .tc main_v40)
    = pad S48x18x18x64 ![0, 2, 2, 0] ![0, 2, 2, 0] ![0, 0, 0, 0] (G (Proc.devRef .tc main_v39))
        (sitofp (F := Ideal) .bf16 (G (Proc.devRef .tc main_c_1))) pads_S48x14x14x64_S48x18x18x64_000_220_220_000 h_S_ := by
  unfold hostOps1_1
  after_results
  rfl

theorem after_c2 : StableHlo.after (hostOps1_2 (F := Ideal)) G (Proc.devRef .tc main_c_2) = constantI S_ 32 0#32 := by
  unfold hostOps1_2
  after_results

theorem after_v48 : StableHlo.after (hostOps1_3 (F := Ideal)) G (Proc.devRef .tc main_v48)
    = pad S6x2020x320 ![0, 2, 0] ![0, 2, 0] ![0, 0, 0] (G (Proc.devRef .tc main_v47))
        (sitofp (F := Ideal) .bf16 (G (Proc.devRef .tc main_c_2))) pads_S6x2016x320_S6x2020x320_000_220_000 h_S_ := by
  unfold hostOps1_3
  after_results
  rfl

theorem after_v54 : StableHlo.after (hostOps1_4 (F := Ideal)) G (Proc.devRef .tc main_v54)
    = shapeCast S1x64 (extractStridedSlice S64 ![0] (G (Proc.devRef .tc main_arg5)) slices_S128_S64_0) shapeCasts_S64_S1x64 := by
  unfold hostOps1_4
  after_results
  rfl

theorem after_v56 : StableHlo.after (hostOps1_4 (F := Ideal)) G (Proc.devRef .tc main_v56)
    = shapeCast S1x64 (extractStridedSlice S64 ![0] (G (Proc.devRef .tc main_arg6)) slices_S128_S64_0) shapeCasts_S64_S1x64 := by
  unfold hostOps1_4
  after_results
  rfl

theorem after_v52 : StableHlo.after (hostOps1_4 (F := Ideal)) G (Proc.devRef .tc main_v52)
    = shapeCast S1600x64 (transpose S5x5x64x64 [1, 0, 2, 3]
        (shapeCast S5x5x64x64 (extractStridedSlice S1600x64 ![0, 0] (G (Proc.devRef .tc main_arg4)) slices_S1600x128_S1600x64_0_0) shapeCasts_S1600x64_S5x5x64x64)
        transposes_S5x5x64x64_S5x5x64x64_1_0_2_3) shapeCasts_S5x5x64x64_S1600x64 := by
  unfold hostOps1_4
  after_results
  rfl

end Cert.StageB

end
-- ==== Proof.StageBHostB.lean ====
import proofs.«146356_g2000405529851509_pallasbulk_1335_10_alg».proof.Proof.Gen.KernelIdeal.Regions
import Idealize.ShloMosaic.Lib.StableHlo.Run
import Idealize.ShloMosaic.Lib.KernelVsHost
import Idealize.ShloMosaic.Lib.Pipeline.Value
import Idealize.ShloMosaic.Lib.ValueIdx

/-!
# The five vertical taps side by side, read at an index

The padded 18 × 18 map is sliced five times along its rows (rows dy to dy + 13), the slices are put side by side in
320 lanes (lane dy · 64 + channel), and the 48 images are cut into six groups of eight: row nn · 252 + Y · 18 + X of
group tt, lane k, is the padded map at image tt · 8 + nn, row Y + k / 64, column X, channel k mod 64.
-/

set_option maxRecDepth 16384

noncomputable section

namespace Cert.StageB

open Cert.KernelIdeal Cert.KernelIdeal.Gen
open Idealize.ShloMosaic Idealize.ShloMosaic.TcCoe Idealize.ShloMosaic.ValueIdx Idealize.ShloMosaic.StableHlo Idealize.SL.Sem

/-- The five row slices' shape facts, as one family. -/
theorem slY : ∀ n : Fin 5, S48x18x18x64.Slices ![0, n.val, 0, 0] S48x14x18x64
  | ⟨0, _⟩ => slices_S48x18x18x64_S48x14x18x64_0_0_0_0
  | ⟨1, _⟩ => slices_S48x18x18x64_S48x14x18x64_0_1_0_0
  | ⟨2, _⟩ => slices_S48x18x18x64_S48x14x18x64_0_2_0_0
  | ⟨3, _⟩ => slices_S48x18x18x64_S48x14x18x64_0_3_0_0
  | ⟨4, _⟩ => slices_S48x18x18x64_S48x14x18x64_0_4_0_0

/-- The merged and grouped rows, as a function of the padded map. -/
def dyMerged (X : S48x18x18x64.Idx → EReal) : S6x2016x320.Idx → EReal :=
  shapeCast S6x2016x320 (concatenate S48x14x18x320 3
    [⟨S48x14x18x64, extractStridedSlice S48x14x18x64 ![0, 0, 0, 0] X slices_S48x18x18x64_S48x14x18x64_0_0_0_0⟩,
     ⟨S48x14x18x64, extractStridedSlice S48x14x18x64 ![0, 1, 0, 0] X slices_S48x18x18x64_S48x14x18x64_0_1_0_0⟩,
     ⟨S48x14x18x64, extractStridedSlice S48x14x18x64 ![0, 2, 0, 0] X slices_S48x18x18x64_S48x14x18x64_0_2_0_0⟩,
     ⟨S48x14x18x64, extractStridedSlice S48x14x18x64 ![0, 3, 0, 0] X slices_S48x18x18x64_S48x14x18x64_0_3_0_0⟩,
     ⟨S48x14x18x64, extractStridedSlice S48x14x18x64 ![0, 4, 0, 0] X slices_S48x18x18x64_S48x14x18x64_0_4_0_0⟩]
    concatenates_S48x14x18x64_S48x14x18x64_S48x14x18x64_S48x14x18x64_S48x14x18x64_S48x14x18x320_d3)
    shapeCasts_S48x14x18x320_S6x2016x320

theorem dyMerged_apply (X : S48x18x18x64.Idx → EReal) (tt : Fin 6) (nn : Fin 8) (Y : Fin 14) (Xc : Fin 18) (k : Fin 320) :
    dyMerged X (ix3 tt (⟨nn.val * 252 + Y.val * 18 + Xc.val, by omega⟩ : Fin 2016) k)
      = X (ix4 (⟨tt.val * 8 + nn.val, by omega⟩ : Fin 48) (⟨Y.val + k.val / 64, by omega⟩ : Fin 18) Xc (⟨k.val % 64, by omega⟩ : Fin 64)) := by
  unfold dyMerged
  refine (shapeCast_apply _ _ _ (ix4 (⟨tt.val * 8 + nn.val, by omega⟩ : Fin 48) Y Xc k) (by
    rw [Shape.rowMajor_val_four, Shape.rowMajor_val_three]
    show (((tt.val * 8 + nn.val) * 14 + Y.val) * 18 + Xc.val) * 320 + k.val = (tt.val * 2016 + (nn.val * 252 + Y.val * 18 + Xc.val)) * 320 + k.val
    omega)).trans ?_
  show concatenate S48x14x18x320 3 (List.ofFn fun n : Fin 5 =>
      (⟨S48x14x18x64, extractStridedSlice S48x14x18x64 ![0, n.val, 0, 0] X (slY n)⟩ : (s : Shape) × (s.Idx → EReal)))
      concatenates_S48x14x18x64_S48x14x18x64_S48x14x18x64_S48x14x18x64_S48x14x18x64_S48x14x18x320_d3
      (ix4 (⟨tt.val * 8 + nn.val, by omega⟩ : Fin 48) Y Xc k) = _
  refine (concatenate_ofFn_apply (t := S48x14x18x320) (s₁ := S48x14x18x64) (3 : Fin 4) (fun n : Fin 5 => extractStridedSlice S48x14x18x64 ![0, n.val, 0, 0] X (slY n)) _ rfl 64 rfl
    (ix4 (⟨tt.val * 8 + nn.val, by omega⟩ : Fin 48) Y Xc k) (⟨k.val / 64, by omega⟩ : Fin 5) rfl
    (ix4 (⟨tt.val * 8 + nn.val, by omega⟩ : Fin 48) Y Xc (⟨k.val % 64, by omega⟩ : Fin 64)) rfl (fun b hb => ?_)).trans ?_
  · match b with
    | ⟨0, _⟩ => rfl
    | ⟨1, _⟩ => rfl
    | ⟨2, _⟩ => rfl
    | ⟨3, _⟩ => exact absurd rfl hb
  · refine extractStridedSlice_apply _ _ _ _ _ (fun a => ?_)
    match a with
    | ⟨0, _⟩ => show tt.val * 8 + nn.val = 0 + (tt.val * 8 + nn.val); omega
    | ⟨1, _⟩ => show Y.val + k.val / 64 = k.val / 64 + Y.val; omega
    | ⟨2, _⟩ => show Xc.val = 0 + Xc.val; omega
    | ⟨3, _⟩ => show k.val % 64 = 0 + k.val % 64; omega

variable (G : Valuation τ sig (Elt Ideal))

theorem after_v47 : StableHlo.after (hostOps1_2 (F := Ideal)) G (Proc.devRef .tc main_v47) = dyMerged (G (Proc.devRef .tc main_v40)) := by
  unfold hostOps1_2 dyMerged
  after_results
  rfl

end Cert.StageB

end
-- ==== Proof.StageBHostC.lean ====
import proofs.«146356_g2000405529851509_pallasbulk_1335_10_alg».proof.Proof.Gen.KernelIdeal.Regions
import Idealize.ShloMosaic.Lib.Pipeline.Value
import Idealize.ShloMosaic.Lib.ValueIdx

/-!
# The exchanged filter matrix, the scale and the shift, read at an index

The filter matrix's first 64 columns are viewed as (vertical tap, horizontal tap, input channel, channel), the two tap
axes are exchanged, and the result is viewed as 1600 rows again: row dx · 320 + dy · 64 + cin is row
(dy · 5 + dx) · 64 + cin of the argument. The scale and the shift are the first 64 entries of their arguments, as one row.
-/

set_option maxRecDepth 16384

noncomputable section

namespace Cert.StageB

open Cert.KernelIdeal Cert.KernelIdeal.Gen
open Idealize.ShloMosaic Idealize.ShloMosaic.ValueIdx

theorem w5_apply (W : S1600x128.Idx → EReal) (dx : Fin 5) (k : Fin 320) (ch : Fin 64) :
    shapeCast S1600x64 (transpose S5x5x64x64 [1, 0, 2, 3]
        (shapeCast S5x5x64x64 (extractStridedSlice S1600x64 ![0, 0] W slices_S1600x128_S1600x64_0_0) shapeCasts_S1600x64_S5x5x64x64)
        transposes_S5x5x64x64_S5x5x64x64_1_0_2_3) shapeCasts_S5x5x64x64_S1600x64
        (ix2 (⟨dx.val * 320 + k.val, by omega⟩ : Fin 1600) ch)
      = W (ix2 (⟨(k.val / 64 * 5 + dx.val) * 64 + k.val % 64, by omega⟩ : Fin 1600) (⟨ch.val, by omega⟩ : Fin 128)) := by
  refine (shapeCast_apply _ _ _ (ix4 dx (⟨k.val / 64, by omega⟩ : Fin 5) (⟨k.val % 64, by omega⟩ : Fin 64) ch) (by
    rw [Shape.rowMajor_val_four, Shape.rowMajor_val_two]
    show ((dx.val * 5 + k.val / 64) * 64 + k.val % 64) * 64 + ch.val = (dx.val * 320 + k.val) * 64 + ch.val
    omega)).trans ?_
  refine (transpose_apply _ _ _ _ (ix4 (⟨k.val / 64, by omega⟩ : Fin 5) dx (⟨k.val % 64, by omega⟩ : Fin 64) ch) (fun b => ?_)).trans ?_
  · match b with
    | ⟨0, _⟩ => rfl
    | ⟨1, _⟩ => rfl
    | ⟨2, _⟩ => rfl
    | ⟨3, _⟩ => rfl
  refine (shapeCast_apply _ _ _ (ix2 (⟨(k.val / 64 * 5 + dx.val) * 64 + k.val % 64, by omega⟩ : Fin 1600) ch) (by
    rw [Shape.rowMajor_val_two, Shape.rowMajor_val_four]
    show ((k.val / 64 * 5 + dx.val) * 64 + k.val % 64) * 64 + ch.val = ((k.val / 64 * 5 + dx.val) * 64 + k.val % 64) * 64 + ch.val
    rfl)).trans ?_
  refine extractStridedSlice_apply _ _ _ _ _ (fun a => ?_)
  match a with
  | ⟨0, _⟩ => show (k.val / 64 * 5 + dx.val) * 64 + k.val % 64 = 0 + ((k.val / 64 * 5 + dx.val) * 64 + k.val % 64); omega
  | ⟨1, _⟩ => show ch.val = 0 + ch.val; omega

theorem row64_apply (Sv : S128.Idx → EReal) (ch : Fin 64) :
    shapeCast S1x64 (extractStridedSlice S64 ![0] Sv slices_S128_S64_0) shapeCasts_S64_S1x64 (ix2 (0 : Fin 1) ch)
      = Sv (ix1 (⟨ch.val, by omega⟩ : Fin 128)) := by
  refine (shapeCast_apply _ _ _ (ix1 ch) (by
    rw [Shape.rowMajor_val_one, Shape.rowMajor_val_two]
    show ch.val = 0 * 64 + ch.val
    omega)).trans ?_
  refine extractStridedSlice_apply _ _ _ _ _ (fun a => ?_)
  match a with
  | ⟨0, _⟩ => show ch.val = 0 + ch.val; omega

end Cert.StageB

end
-- ==== Proof.StageBKernel.lean ====
import proofs.«146356_g2000405529851509_pallasbulk_1335_10_alg».proof.Proof.Bridge
import proofs.«146356_g2000405529851509_pallasbulk_1335_10_alg».proof.Proof.StageBArr
import proofs.«146356_g2000405529851509_pallasbulk_1335_10_alg».proof.Proof.StageBAlg
import proofs.«146356_g2000405529851509_pallasbulk_1335_10_alg».proof.Proof.StageBHostA
import proofs.«146356_g2000405529851509_pallasbulk_1335_10_alg».proof.Proof.StageBHostB
import proofs.«146356_g2000405529851509_pallasbulk_1335_10_alg».proof.Proof.StageBHostC
import Idealize.ShloMosaic.Lib.KernelVsHost

/-!
# The kernel's pooled second convolution, as the pooled activation of its padded first convolution

The region's result array is the block formula of the region's four input arrays; those read, through the host
operations before the region, as the padded pooled first convolution, the filter matrix, the scale and the shift; so
the result at row (n, py, px) and channel ch is the pooled activation.
-/

set_option maxRecDepth 16384

noncomputable section

namespace Cert.StageB

open Cert.KernelIdeal Cert.KernelIdeal.Gen Cert.KernelIdeal.Whole Cert.Bridge
open Idealize.ShloMosaic Idealize.ShloMosaic.TcCoe Idealize.ShloMosaic.ValueIdx Idealize.ShloMosaic.StableHlo Idealize.SL.Sem

variable (m : KMem) (c : Dev Cert.KernelIdeal.nD)

/-- The kernel's pooled first convolution, viewed by image and position and padded to 18 × 18. -/
def kPadded : S48x18x18x64.Idx → EReal :=
  pad S48x18x18x64 ![0, 2, 2, 0] ![0, 2, 2, 0] ![0, 0, 0, 0]
    (shapeCast S48x14x14x64 (kP1 m c) shapeCasts_S9408x64_S48x14x14x64)
    (sitofp (F := Ideal) .bf16 (constantI S_ 32 0#32)) pads_S48x14x14x64_S48x18x18x64_000_220_220_000 h_S_

/-- No later item writes the pooled first convolution. -/
theorem kP1_eq : kP1 m c = V6 m (outs m) c main_v38 := by
  show V20 m (outs m) c main_v38 = _
  exact (V20_of m (outs m) c main_v38 (by decide)).trans <| (V19_of m (outs m) c main_v38 (by decide)).trans <|
    (V18_of m (outs m) c main_v38 (by decide)).trans <| (V17_of m (outs m) c main_v38 (by decide)).trans <|
    (V16_of m (outs m) c main_v38 (by decide)).trans <| (V15_of m (outs m) c main_v38 (by decide)).trans <|
    (V14_of m (outs m) c main_v38 (by decide)).trans <| (V13_of m (outs m) c main_v38 (by decide)).trans <|
    (V12_of m (outs m) c main_v38 (by decide)).trans <| (V11_of m (outs m) c main_v38 (by decide)).trans <|
    (V10_of m (outs m) c main_v38 (by decide)).trans <| (V9_of m (outs m) c main_v38 (by decide)).trans <|
    (V8_of m (outs m) c main_v38 (by decide)).trans <| (V7_of m (outs m) c main_v38 (by decide))

/-- The padded map the host builds is `kPadded`. -/
theorem v40_eq : V8 m (outs m) c main_v40 = kPadded m c := by
  have h40 : V8 m (outs m) c main_v40 = _ := after_v40 (V7 m (outs m) c)
  have h39 : V7 m (outs m) c main_v39 = _ := after_v39 (V6 m (outs m) c)
  have hc1 : V7 m (outs m) c main_c_1 = _ := after_c1 (V6 m (outs m) c)
  rw [h40, h39, hc1]
  unfold kPadded
  rw [kP1_eq]

theorem readsX : ReadsX (V11 m (O1 m) c main_v48) (kPadded m c) := by
  intro tt nn Y X k
  have e11 : V11 m (O1 m) c = V11 m (outs m) c := (V11_outs m c).symm
  rw [e11, V11_of m (outs m) c main_v48 (by decide)]
  have h48 : V10 m (outs m) c main_v48 = _ := after_v48 (V9 m (outs m) c)
  rw [h48]
  refine (pad_apply_of_inside _ _ _ _ _ _ _ _ (ix3 tt (⟨nn.val * 252 + Y.val * 18 + X.val, by omega⟩ : Fin 2016) k) (fun a => ?_)).trans ?_
  · match a with
    | ⟨0, _⟩ => show tt.val = 0 + tt.val * (0 + 1); omega
    | ⟨1, _⟩ => show nn.val * 252 + Y.val * 18 + X.val + 2 = 2 + (nn.val * 252 + Y.val * 18 + X.val) * (0 + 1); omega
    | ⟨2, _⟩ => show k.val = 0 + k.val * (0 + 1); omega
  have h47 : V9 m (outs m) c main_v47 = _ := after_v47 (V8 m (outs m) c)
  rw [h47, dyMerged_apply, v40_eq]

theorem arg4_eq : V10 m (outs m) c main_arg4 = m ((c : Thread nD τ).loc main_arg4) :=
  (V10_of m (outs m) c main_arg4 (by decide)).trans <| (V9_of m (outs m) c main_arg4 (by decide)).trans <|
    (V8_of m (outs m) c main_arg4 (by decide)).trans <| (V7_of m (outs m) c main_arg4 (by decide)).trans <|
    (V6_of m (outs m) c main_arg4 (by decide)).trans <| (V5_of m c main_arg4 (by decide)).trans <|
    (V4_of m c main_arg4 (by decide)).trans <| (V3_of m c main_arg4 (by decide)).trans <|
    (V2_of m c main_arg4 (by decide)).trans <| (V1_of m c main_arg4 (by decide)).trans rfl
theorem arg5_eq : V10 m (outs m) c main_arg5 = m ((c : Thread nD τ).loc main_arg5) :=
  (V10_of m (outs m) c main_arg5 (by decide)).trans <| (V9_of m (outs m) c main_arg5 (by decide)).trans <|
    (V8_of m (outs m) c main_arg5 (by decide)).trans <| (V7_of m (outs m) c main_arg5 (by decide)).trans <|
    (V6_of m (outs m) c main_arg5 (by decide)).trans <| (V5_of m c main_arg5 (by decide)).trans <|
    (V4_of m c main_arg5 (by decide)).trans <| (V3_of m c main_arg5 (by decide)).trans <|
    (V2_of m c main_arg5 (by decide)).trans <| (V1_of m c main_arg5 (by decide)).trans rfl
theorem arg6_eq : V10 m (outs m) c main_arg6 = m ((c : Thread nD τ).loc main_arg6) :=
  (V10_of m (outs m) c main_arg6 (by decide)).trans <| (V9_of m (outs m) c main_arg6 (by decide)).trans <|
    (V8_of m (outs m) c main_arg6 (by decide)).trans <| (V7_of m (outs m) c main_arg6 (by decide)).trans <|
    (V6_of m (outs m) c main_arg6 (by decide)).trans <| (V5_of m c main_arg6 (by decide)).trans <|
    (V4_of m c main_arg6 (by decide)).trans <| (V3_of m c main_arg6 (by decide)).trans <|
    (V2_of m c main_arg6 (by decide)).trans <| (V1_of m c main_arg6 (by decide)).trans rfl

theorem readsW : ReadsW (V11 m (O1 m) c main_v52) (m ((c : Thread nD τ).loc main_arg4)) := by
  intro dx k ch
  have e11 : V11 m (O1 m) c = V11 m (outs m) c := (V11_outs m c).symm
  have h52 : V11 m (outs m) c main_v52 = _ := after_v52 (V10 m (outs m) c)
  rw [e11, h52, w5_apply, arg4_eq]

theorem readsS (ch : Fin 64) : (V11 m (O1 m) c main_v54 : S1x64.Idx → EReal) (ix2 (0 : Fin 1) ch)
    = (m ((c : Thread nD τ).loc main_arg5) : S128.Idx → EReal) (ix1 (⟨ch.val, by omega⟩ : Fin 128)) := by
  have e11 : V11 m (O1 m) c = V11 m (outs m) c := (V11_outs m c).symm
  have h54 : V11 m (outs m) c main_v54 = _ := after_v54 (V10 m (outs m) c)
  rw [e11, h54, row64_apply, arg5_eq]

theorem readsT (ch : Fin 64) : (V11 m (O1 m) c main_v56 : S1x64.Idx → EReal) (ix2 (0 : Fin 1) ch)
    = (m ((c : Thread nD τ).loc main_arg6) : S128.Idx → EReal) (ix1 (⟨ch.val, by omega⟩ : Fin 128)) := by
  have e11 : V11 m (O1 m) c = V11 m (outs m) c := (V11_outs m c).symm
  have h56 : V11 m (outs m) c main_v56 = _ := after_v56 (V10 m (outs m) c)
  rw [e11, h56, row64_apply, arg6_eq]

/-- The region's result array is the block formula of its four input arrays. -/
theorem kP2_eq : kP2 m c = kArr (V11 m (O1 m) c main_v48) (V11 m (O1 m) c main_v52) (V11 m (O1 m) c main_v54) (V11 m (O1 m) c main_v56) := by
  show V20 m (outs m) c main_v57 = _
  rw [V20_of m (outs m) c main_v57 (by decide), V19_of m (outs m) c main_v57 (by decide), V18_of m (outs m) c main_v57 (by decide),
    V17_of m (outs m) c main_v57 (by decide), V16_of m (outs m) c main_v57 (by decide), V15_of m (outs m) c main_v57 (by decide),
    V14_of m (outs m) c main_v57 (by decide), V13_of m (outs m) c main_v57 (by decide)]
  exact (hF1 m c 4).symm.trans (arr_final (atTc (V11 m (O1 m))) c)

/-- The kernel's pooled second convolution at row (n, py, px) and channel ch is the pooled activation. -/
theorem kernel_pooled (n : Fin 48) (py px : Fin 7) (ch : Fin 64) :
    kP2 m c (ix2 (⟨n.val * 49 + py.val * 7 + px.val, by omega⟩ : Fin 2352) ch)
      = pooled (kPadded m c) (m ((c : Thread nD τ).loc main_arg4)) (m ((c : Thread nD τ).loc main_arg5))
          (m ((c : Thread nD τ).loc main_arg6)) n py px ch := by
  rw [kP2_eq, kArr_apply]
  exact blockOut_eq_pooled _ _ _ _ _ _ _ _ (readsX m c) (readsW m c) (readsS m c) (readsT m c) n py px ch

end Cert.StageB

end
-- ==== Proof.StageFPatch.lean ====
import proofs.«146356_g2000405529851509_pallasbulk_1335_10_alg».proof.Proof.Gen.ReferenceIdeal.Skeleton
import Idealize.ShloMosaic.Lib.Pipeline.Value
import Idealize.ShloMosaic.Lib.ValueIdx

/-!
# The reference's patch matrix for the second convolution, read at an index

From the padded map (48 images of 18 × 18 positions, 64 channels) the reference cuts the 25 shifted 14 × 14 windows,
one for each vertical tap dy and horizontal tap dx, lays them side by side along the channel axis in the order
(dy, dx) — first sixteen, then nine, then the two groups — and flattens (image, y, x) into 9408 rows. Row
n · 196 + y · 14 + x, column j of the result is the padded map at (n, y + j / 320, x + j / 64 mod 5, j mod 64).
-/

set_option maxRecDepth 16384

noncomputable section

namespace Cert.StageF.Patch

open Cert.ReferenceIdeal Cert.ReferenceIdeal.Facts₀ Cert.ReferenceIdeal.Facts
open Idealize.ShloMosaic Idealize.ShloMosaic.ValueIdx

variable (xp : S48x18x18x64.Idx → EReal)

/-- The 14 × 14 window of the padded map shifted down by dy and right by dx. -/
def tap (dy dx : Nat) (h : S48x18x18x64.Slices ![0, dy, dx, 0] S48x14x14x64) : S48x14x14x64.Idx → EReal :=
  extractStridedSlice S48x14x14x64 ![0, dy, dx, 0] xp h

theorem tap_apply (dy dx : Nat) (h : S48x18x18x64.Slices ![0, dy, dx, 0] S48x14x14x64)
    (n : Fin 48) (y x : Fin 14) (cin : Fin 64) (hy : y.val + dy < 18) (hx : x.val + dx < 18) :
    tap xp dy dx h (ix4 n y x cin) = xp (ix4 n (⟨y.val + dy, hy⟩ : Fin 18) (⟨x.val + dx, hx⟩ : Fin 18) cin) :=
  extractStridedSlice_apply _ xp h (ix4 n y x cin) (ix4 n (⟨y.val + dy, hy⟩ : Fin 18) (⟨x.val + dx, hx⟩ : Fin 18) cin)
    (fun a => match a with
      | ⟨0, _⟩ => (Nat.zero_add _).symm
      | ⟨1, _⟩ => Nat.add_comm _ _
      | ⟨2, _⟩ => Nat.add_comm _ _
      | ⟨3, _⟩ => (Nat.zero_add _).symm)

/-- The first sixteen windows, in the order (dy, dx). -/
def taps16 : Fin 16 → (S48x14x14x64.Idx → EReal) :=
  ![tap xp 0 0 slices_S48x18x18x64_S48x14x14x64_0_0_0_0, tap xp 0 1 slices_S48x18x18x64_S48x14x14x64_0_0_1_0,
    tap xp 0 2 slices_S48x18x18x64_S48x14x14x64_0_0_2_0, tap xp 0 3 slices_S48x18x18x64_S48x14x14x64_0_0_3_0,
    tap xp 0 4 slices_S48x18x18x64_S48x14x14x64_0_0_4_0, tap xp 1 0 slices_S48x18x18x64_S48x14x14x64_0_1_0_0,
    tap xp 1 1 slices_S48x18x18x64_S48x14x14x64_0_1_1_0, tap xp 1 2 slices_S48x18x18x64_S48x14x14x64_0_1_2_0,
    tap xp 1 3 slices_S48x18x18x64_S48x14x14x64_0_1_3_0, tap xp 1 4 slices_S48x18x18x64_S48x14x14x64_0_1_4_0,
    tap xp 2 0 slices_S48x18x18x64_S48x14x14x64_0_2_0_0, tap xp 2 1 slices_S48x18x18x64_S48x14x14x64_0_2_1_0,
    tap xp 2 2 slices_S48x18x18x64_S48x14x14x64_0_2_2_0, tap xp 2 3 slices_S48x18x18x64_S48x14x14x64_0_2_3_0,
    tap xp 2 4 slices_S48x18x18x64_S48x14x14x64_0_2_4_0, tap xp 3 0 slices_S48x18x18x64_S48x14x14x64_0_3_0_0]

/-- The last nine windows. -/
def taps9 : Fin 9 → (S48x14x14x64.Idx → EReal) :=
  ![tap xp 3 1 slices_S48x18x18x64_S48x14x14x64_0_3_1_0, tap xp 3 2 slices_S48x18x18x64_S48x14x14x64_0_3_2_0,
    tap xp 3 3 slices_S48x18x18x64_S48x14x14x64_0_3_3_0, tap xp 3 4 slices_S48x18x18x64_S48x14x14x64_0_3_4_0,
    tap xp 4 0 slices_S48x18x18x64_S48x14x14x64_0_4_0_0, tap xp 4 1 slices_S48x18x18x64_S48x14x14x64_0_4_1_0,
    tap xp 4 2 slices_S48x18x18x64_S48x14x14x64_0_4_2_0, tap xp 4 3 slices_S48x18x18x64_S48x14x14x64_0_4_3_0,
    tap xp 4 4 slices_S48x18x18x64_S48x14x14x64_0_4_4_0]

theorem taps16_apply (q : Fin 16) (n : Fin 48) (y x : Fin 14) (cin : Fin 64) :
    taps16 xp q (ix4 n y x cin)
      = xp (ix4 n (⟨y.val + q.val / 5, by omega⟩ : Fin 18) (⟨x.val + q.val % 5, by omega⟩ : Fin 18) cin) := by
  match q with
  | ⟨0, _⟩ => simp only [Fin.val_mk, Nat.reduceDiv, Nat.reduceMod, Nat.reduceAdd]; exact tap_apply xp 0 0 slices_S48x18x18x64_S48x14x14x64_0_0_0_0 n y x cin _ _
  | ⟨1, _⟩ => simp only [Fin.val_mk, Nat.reduceDiv, Nat.reduceMod, Nat.reduceAdd]; exact tap_apply xp 0 1 slices_S48x18x18x64_S48x14x14x64_0_0_1_0 n y x cin _ _
  | ⟨2, _⟩ => simp only [Fin.val_mk, Nat.reduceDiv, Nat.reduceMod, Nat.reduceAdd]; exact tap_apply xp 0 2 slices_S48x18x18x64_S48x14x14x64_0_0_2_0 n y x cin _ _
  | ⟨3, _⟩ => simp only [Fin.val_mk, Nat.reduceDiv, Nat.reduceMod, Nat.reduceAdd]; exact tap_apply xp 0 3 slices_S48x18x18x64_S48x14x14x64_0_0_3_0 n y x cin _ _
  | ⟨4, _⟩ => simp only [Fin.val_mk, Nat.reduceDiv, Nat.reduceMod, Nat.reduceAdd]; exact tap_apply xp 0 4 slices_S48x18x18x64_S48x14x14x64_0_0_4_0 n y x cin _ _
  | ⟨5, _⟩ => simp only [Fin.val_mk, Nat.reduceDiv, Nat.reduceMod, Nat.reduceAdd]; exact tap_apply xp 1 0 slices_S48x18x18x64_S48x14x14x64_0_1_0_0 n y x cin _ _
  | ⟨6, _⟩ => simp only [Fin.val_mk, Nat.reduceDiv, Nat.reduceMod, Nat.reduceAdd]; exact tap_apply xp 1 1 slices_S48x18x18x64_S48x14x14x64_0_1_1_0 n y x cin _ _
  | ⟨7, _⟩ => simp only [Fin.val_mk, Nat.reduceDiv, Nat.reduceMod, Nat.reduceAdd]; exact tap_apply xp 1 2 slices_S48x18x18x64_S48x14x14x64_0_1_2_0 n y x cin _ _
  | ⟨8, _⟩ => simp only [Fin.val_mk, Nat.reduceDiv, Nat.reduceMod, Nat.reduceAdd]; exact tap_apply xp 1 3 slices_S48x18x18x64_S48x14x14x64_0_1_3_0 n y x cin _ _
  | ⟨9, _⟩ => simp only [Fin.val_mk, Nat.reduceDiv, Nat.reduceMod, Nat.reduceAdd]; exact tap_apply xp 1 4 slices_S48x18x18x64_S48x14x14x64_0_1_4_0 n y x cin _ _
  | ⟨10, _⟩ => simp only [Fin.val_mk, Nat.reduceDiv, Nat.reduceMod, Nat.reduceAdd]; exact tap_apply xp 2 0 slices_S48x18x18x64_S48x14x14x64_0_2_0_0 n y x cin _ _
  | ⟨11, _⟩ => simp only [Fin.val_mk, Nat.reduceDiv, Nat.reduceMod, Nat.reduceAdd]; exact tap_apply xp 2 1 slices_S48x18x18x64_S48x14x14x64_0_2_1_0 n y x cin _ _
  | ⟨12, _⟩ => simp only [Fin.val_mk, Nat.reduceDiv, Nat.reduceMod, Nat.reduceAdd]; exact tap_apply xp 2 2 slices_S48x18x18x64_S48x14x14x64_0_2_2_0 n y x cin _ _
  | ⟨13, _⟩ => simp only [Fin.val_mk, Nat.reduceDiv, Nat.reduceMod, Nat.reduceAdd]; exact tap_apply xp 2 3 slices_S48x18x18x64_S48x14x14x64_0_2_3_0 n y x cin _ _
  | ⟨14, _⟩ => simp only [Fin.val_mk, Nat.reduceDiv, Nat.reduceMod, Nat.reduceAdd]; exact tap_apply xp 2 4 slices_S48x18x18x64_S48x14x14x64_0_2_4_0 n y x cin _ _
  | ⟨15, _⟩ => simp only [Fin.val_mk, Nat.reduceDiv, Nat.reduceMod, Nat.reduceAdd]; exact tap_apply xp 3 0 slices_S48x18x18x64_S48x14x14x64_0_3_0_0 n y x cin _ _
  | ⟨q + 16, h⟩ => exact False.elim (by omega)

theorem taps9_apply (q : Fin 9) (n : Fin 48) (y x : Fin 14) (cin : Fin 64) :
    taps9 xp q (ix4 n y x cin)
      = xp (ix4 n (⟨y.val + (q.val + 16) / 5, by omega⟩ : Fin 18) (⟨x.val + (q.val + 16) % 5, by omega⟩ : Fin 18) cin) := by
  match q with
  | ⟨0, _⟩ => simp only [Fin.val_mk, Nat.reduceDiv, Nat.reduceMod, Nat.reduceAdd]; exact tap_apply xp 3 1 slices_S48x18x18x64_S48x14x14x64_0_3_1_0 n y x cin _ _
  | ⟨1, _⟩ => simp only [Fin.val_mk, Nat.reduceDiv, Nat.reduceMod, Nat.reduceAdd]; exact tap_apply xp 3 2 slices_S48x18x18x64_S48x14x14x64_0_3_2_0 n y x cin _ _
  | ⟨2, _⟩ => simp only [Fin.val_mk, Nat.reduceDiv, Nat.reduceMod, Nat.reduceAdd]; exact tap_apply xp 3 3 slices_S48x18x18x64_S48x14x14x64_0_3_3_0 n y x cin _ _
  | ⟨3, _⟩ => simp only [Fin.val_mk, Nat.reduceDiv, Nat.reduceMod, Nat.reduceAdd]; exact tap_apply xp 3 4 slices_S48x18x18x64_S48x14x14x64_0_3_4_0 n y x cin _ _
  | ⟨4, _⟩ => simp only [Fin.val_mk, Nat.reduceDiv, Nat.reduceMod, Nat.reduceAdd]; exact tap_apply xp 4 0 slices_S48x18x18x64_S48x14x14x64_0_4_0_0 n y x cin _ _
  | ⟨5, _⟩ => simp only [Fin.val_mk, Nat.reduceDiv, Nat.reduceMod, Nat.reduceAdd]; exact tap_apply xp 4 1 slices_S48x18x18x64_S48x14x14x64_0_4_1_0 n y x cin _ _
  | ⟨6, _⟩ => simp only [Fin.val_mk, Nat.reduceDiv, Nat.reduceMod, Nat.reduceAdd]; exact tap_apply xp 4 2 slices_S48x18x18x64_S48x14x14x64_0_4_2_0 n y x cin _ _
  | ⟨7, _⟩ => simp only [Fin.val_mk, Nat.reduceDiv, Nat.reduceMod, Nat.reduceAdd]; exact tap_apply xp 4 3 slices_S48x18x18x64_S48x14x14x64_0_4_3_0 n y x cin _ _
  | ⟨8, _⟩ => simp only [Fin.val_mk, Nat.reduceDiv, Nat.reduceMod, Nat.reduceAdd]; exact tap_apply xp 4 4 slices_S48x18x18x64_S48x14x14x64_0_4_4_0 n y x cin _ _
  | ⟨q + 9, h⟩ => exact False.elim (by omega)

/-- The first sixteen windows side by side: 1024 lanes. -/
def group16 : S48x14x14x1024.Idx → EReal :=
  concatenate S48x14x14x1024 3
    [⟨S48x14x14x64, taps16 xp 0⟩, ⟨S48x14x14x64, taps16 xp 1⟩, ⟨S48x14x14x64, taps16 xp 2⟩, ⟨S48x14x14x64, taps16 xp 3⟩,
     ⟨S48x14x14x64, taps16 xp 4⟩, ⟨S48x14x14x64, taps16 xp 5⟩, ⟨S48x14x14x64, taps16 xp 6⟩, ⟨S48x14x14x64, taps16 xp 7⟩,
     ⟨S48x14x14x64, taps16 xp 8⟩, ⟨S48x14x14x64, taps16 xp 9⟩, ⟨S48x14x14x64, taps16 xp 10⟩, ⟨S48x14x14x64, taps16 xp 11⟩,
     ⟨S48x14x14x64, taps16 xp 12⟩, ⟨S48x14x14x64, taps16 xp 13⟩, ⟨S48x14x14x64, taps16 xp 14⟩, ⟨S48x14x14x64, taps16 xp 15⟩]
    concatenates_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x64_S48x14x14x1024_d3

/-- The last nine windows side by side: 576 lanes. -/
def group9 : S48x14x14x576.Idx → EReal :=
  concatenate S48x14x14x576 3
    [⟨S48x14x14x64, taps9 xp 0⟩, ⟨S48x14x14x64, taps9 xp 1⟩, ⟨S48x14x14x64, taps9 xp 2⟩, ⟨S48x14x14x64, taps9 xp 3⟩,
     ⟨S48x14x14x64, taps9 xp 4⟩, ⟨S48x14x14x64, taps9 xp 5⟩, ⟨S48x14x14x64, taps9 xp 6⟩, ⟨S48x14x14x64, taps9 xp 7⟩,
     ⟨S48x14x14x64, taps9 xp 8⟩]
    concatenates_S48x14x14x64_S48x14x14x64_S48x14x14x64_S48x14x14x64_S48x14x14x64_S48x14x14x64_S48x14x14x64_S48x14x14x64_S48x14x14x64_S48x14x14x576_d3

/-- All 25 windows side by side, flattened to 9408 rows of 1600 lanes. -/
def patches : S9408x1600.Idx → EReal :=
  shapeCast S9408x1600
    (concatenate S48x14x14x1600 3 [⟨S48x14x14x1024, group16 xp⟩, ⟨S48x14x14x576, group9 xp⟩]
      concatenates_S48x14x14x1024_S48x14x14x576_S48x14x14x1600_d3)
    shapeCasts_S48x14x14x1600_S9408x1600

/-- Off the lane axis the coordinates of a piece's index are those of the whole's. -/
theorem off_lane {K L : Nat} (n : Fin 48) (y x : Fin 14) (k : Fin K) (l : Fin L)
    (hr : (⟨4, ![48, 14, 14, K]⟩ : Shape).rank = (⟨4, ![48, 14, 14, L]⟩ : Shape).rank) :
    ∀ b : Fin (⟨4, ![48, 14, 14, K]⟩ : Shape).rank, b.cast hr ≠ (3 : Fin 4) →
      ((ix4 n y x k : (⟨4, ![48, 14, 14, K]⟩ : Shape).Idx) b).val = ((ix4 n y x l : (⟨4, ![48, 14, 14, L]⟩ : Shape).Idx) (b.cast hr)).val :=
  fun b hb => match b, hb with
    | ⟨0, _⟩, _ => rfl
    | ⟨1, _⟩, _ => rfl
    | ⟨2, _⟩, _ => rfl
    | ⟨3, _⟩, hb => absurd (Fin.ext rfl) hb

theorem group16_apply (n : Fin 48) (y x : Fin 14) (j : Fin 1024) :
    group16 xp (ix4 n y x j)
      = xp (ix4 n (⟨y.val + j.val / 320, by omega⟩ : Fin 18) (⟨x.val + j.val / 64 % 5, by omega⟩ : Fin 18)
          (⟨j.val % 64, by omega⟩ : Fin 64)) := by
  unfold group16
  refine (concatenate_ofFn_apply (t := S48x14x14x1024) (s₁ := S48x14x14x64) (3 : Fin 4) (taps16 xp) _ rfl 64 rfl (ix4 n y x j)
    (⟨j.val / 64, by omega⟩ : Fin 16) rfl (ix4 n y x (⟨j.val % 64, by omega⟩ : Fin 64)) rfl
    (off_lane (K := 64) (L := 1024) n y x _ j rfl)).trans ?_
  rw [taps16_apply]
  refine congrArg xp ?_
  have e : j.val / 64 / 5 = j.val / 320 := by omega
  funext d
  match d with
  | ⟨0, _⟩ => rfl
  | ⟨1, _⟩ => exact Fin.ext (by show y.val + j.val / 64 / 5 = y.val + j.val / 320; rw [e])
  | ⟨2, _⟩ => rfl
  | ⟨3, _⟩ => rfl

theorem group9_apply (n : Fin 48) (y x : Fin 14) (j : Fin 576) :
    group9 xp (ix4 n y x j)
      = xp (ix4 n (⟨y.val + (j.val + 1024) / 320, by omega⟩ : Fin 18) (⟨x.val + (j.val + 1024) / 64 % 5, by omega⟩ : Fin 18)
          (⟨j.val % 64, by omega⟩ : Fin 64)) := by
  unfold group9
  refine (concatenate_ofFn_apply (t := S48x14x14x576) (s₁ := S48x14x14x64) (3 : Fin 4) (taps9 xp) _ rfl 64 rfl (ix4 n y x j)
    (⟨j.val / 64, by omega⟩ : Fin 9) rfl (ix4 n y x (⟨j.val % 64, by omega⟩ : Fin 64)) rfl
    (off_lane (K := 64) (L := 576) n y x _ j rfl)).trans ?_
  rw [taps9_apply]
  refine congrArg xp ?_
  have e1 : (j.val / 64 + 16) / 5 = (j.val + 1024) / 320 := by omega
  have e2 : (j.val / 64 + 16) % 5 = (j.val + 1024) / 64 % 5 := by omega
  funext d
  match d with
  | ⟨0, _⟩ => rfl
  | ⟨1, _⟩ => exact Fin.ext (by show y.val + (j.val / 64 + 16) / 5 = y.val + (j.val + 1024) / 320; rw [e1])
  | ⟨2, _⟩ => exact Fin.ext (by show x.val + (j.val / 64 + 16) % 5 = x.val + (j.val + 1024) / 64 % 5; rw [e2])
  | ⟨3, _⟩ => rfl

/-- The patch matrix at row (n, y, x), column j. -/
theorem patches_apply (n : Fin 48) (y x : Fin 14) (j : Fin 1600) :
    patches xp (ix2 (⟨n.val * 196 + y.val * 14 + x.val, by omega⟩ : Fin 9408) j)
      = xp (ix4 n (⟨y.val + j.val / 320, by omega⟩ : Fin 18) (⟨x.val + j.val / 64 % 5, by omega⟩ : Fin 18)
          (⟨j.val % 64, by omega⟩ : Fin 64)) := by
  unfold patches
  refine (shapeCast_apply _ _ _ (ix4 n y x j) ?_).trans ?_
  · rw [Shape.rowMajor_val_four, Shape.rowMajor_val_two]
    show ((n.val * 14 + y.val) * 14 + x.val) * 1600 + j.val = (n.val * 196 + y.val * 14 + x.val) * 1600 + j.val
    omega
  by_cases hj : j.val < 1024
  · refine (concatenate_pair_apply_left (t := S48x14x14x1600) (s₁ := S48x14x14x1024) (s₂ := S48x14x14x576) (3 : Fin 4) (group16 xp) (group9 xp) _ (ix4 n y x j) rfl
      (ix4 n y x (⟨j.val, hj⟩ : Fin 1024))
      (fun b => match b with
        | ⟨0, _⟩ => rfl
        | ⟨1, _⟩ => rfl
        | ⟨2, _⟩ => rfl
        | ⟨3, _⟩ => rfl)).trans ?_
    exact group16_apply xp n y x ⟨j.val, hj⟩
  · have hj2 : j.val - 1024 < 576 := by omega
    refine (concatenate_pair_apply_right (t := S48x14x14x1600) (s₁ := S48x14x14x1024) (s₂ := S48x14x14x576) (3 : Fin 4) (group16 xp) (group9 xp) _ (ix4 n y x j) rfl rfl
      (ix4 n y x (⟨j.val - 1024, hj2⟩ : Fin 576))
      (off_lane (K := 576) (L := 1600) n y x ⟨j.val - 1024, hj2⟩ j rfl)
      (by show j.val - 1024 + 1024 = j.val; omega)).trans ?_
    rw [group9_apply]
    refine congrArg xp ?_
    have e0 : j.val - 1024 + 1024 = j.val := by omega
    have e3 : (j.val - 1024) % 64 = j.val % 64 := by omega
    funext d
    match d with
    | ⟨0, _⟩ => rfl
    | ⟨1, _⟩ => exact Fin.ext (by show y.val + (j.val - 1024 + 1024) / 320 = y.val + j.val / 320; rw [e0])
    | ⟨2, _⟩ => exact Fin.ext (by show x.val + (j.val - 1024 + 1024) / 64 % 5 = x.val + j.val / 64 % 5; rw [e0])
    | ⟨3, _⟩ => exact Fin.ext (by show (j.val - 1024) % 64 = j.val % 64; exact e3)

end Cert.StageF.Patch

end
-- ==== Proof.StageFTail.lean ====
import proofs.«146356_g2000405529851509_pallasbulk_1335_10_alg».proof.Proof.Gen.ReferenceIdeal.Skeleton
import proofs.«146356_g2000405529851509_pallasbulk_1335_10_alg».proof.Proof.StageBSpec
import Idealize.ShloMosaic.PureOps.Ideal.Laws
import Idealize.ShloMosaic.Lib.Pipeline.Value
import Idealize.ShloMosaic.Lib.ValueIdx
import Idealize.ShloMosaic.Lib.ValueIdxRank6

/-!
# The reference's pooling after the second convolution, read at an index

The 9408 × 128 result of the matrix product is viewed as 48 images of 14 × 14 positions and 128 channels, cut to the
first 64 channels, viewed as 48 × 7 × 2 × 7 × 2 × 64, and reduced by the maximum over the two axes of extent 2 from
the least element. At image n, pooled position (py, px) and channel ch this is the maximum of the four entries at
rows n · 196 + (2 py + a) · 14 + (2 px + b), a, b ∈ {0, 1}, in column ch.
-/

set_option maxRecDepth 16384

noncomputable section

namespace Cert.StageF.Tail

open Cert.ReferenceIdeal Cert.ReferenceIdeal.Facts₀ Cert.ReferenceIdeal.Facts
open Idealize.ShloMosaic Idealize.ShloMosaic.ValueIdx

/-- The 48 × 7 × 2 × 7 × 2 × 64 view of the first 64 channels of a 9408 × 128 array. -/
def windows (y : S9408x128.Idx → EReal) : S48x7x2x7x2x64.Idx → EReal :=
  shapeCast S48x7x2x7x2x64
    (extractStridedSlice S48x14x14x64 ![0, 0, 0, 0]
      (shapeCast S48x14x14x128 y shapeCasts_S9408x128_S48x14x14x128)
      slices_S48x14x14x128_S48x14x14x64_0_0_0_0)
    shapeCasts_S48x14x14x64_S48x7x2x7x2x64

/-- The pooled array as the host computes it from the matrix product's result. -/
def pooledOf (y : S9408x128.Idx → EReal) : S48x7x7x64.Idx → EReal :=
  truncf (F := Ideal) .bf16
    (Host.reduce (FloatOps.maximumf (F := Ideal) (φ := .f32)) (windows y) (constant (F := Ideal) S_ .f32 0xFF800000#32)
      reducesTo_S48x7x2x7x2x64_S48x7x7x64_d2_4 h_S_)
    bitsLt_bf16_f32

/-- The row of the matrix product's result that holds image n, position (2 py + a, 2 px + b). -/
abbrev rowOf (n : Fin 48) (py px : Fin 7) (a b : Fin 2) : Fin 9408 :=
  ⟨n.val * 196 + (2 * py.val + a.val) * 14 + (2 * px.val + b.val), by omega⟩

/-- One entry of the six-axis view. -/
theorem windows_apply (y : S9408x128.Idx → EReal) (n : Fin 48) (py : Fin 7) (a : Fin 2) (px : Fin 7) (b : Fin 2) (ch : Fin 64) :
    windows y (ix6 n py a px b ch) = y (ix2 (rowOf n py px a b) (⟨ch.val, by omega⟩ : Fin 128)) := by
  unfold windows
  refine (shapeCast_apply _ _ _
    (ix4 n (⟨2 * py.val + a.val, by omega⟩ : Fin 14) (⟨2 * px.val + b.val, by omega⟩ : Fin 14) ch) ?_).trans ?_
  · rw [Shape.rowMajor_val_four, Shape.rowMajor_val_six]
    show ((n.val * 14 + (2 * py.val + a.val)) * 14 + (2 * px.val + b.val)) * 64 + ch.val
      = ((((n.val * 7 + py.val) * 2 + a.val) * 7 + px.val) * 2 + b.val) * 64 + ch.val
    omega
  refine (extractStridedSlice_apply _ _ _ _
    (ix4 n (⟨2 * py.val + a.val, by omega⟩ : Fin 14) (⟨2 * px.val + b.val, by omega⟩ : Fin 14) (⟨ch.val, by omega⟩ : Fin 128))
    (fun d => match d with
      | ⟨0, _⟩ => (Nat.zero_add _).symm
      | ⟨1, _⟩ => (Nat.zero_add _).symm
      | ⟨2, _⟩ => (Nat.zero_add _).symm
      | ⟨3, _⟩ => (Nat.zero_add _).symm)).trans ?_
  refine shapeCast_apply _ _ _ (ix2 (rowOf n py px a b) (⟨ch.val, by omega⟩ : Fin 128)) ?_
  rw [Shape.rowMajor_val_two, Shape.rowMajor_val_four]
  show (n.val * 196 + (2 * py.val + a.val) * 14 + (2 * px.val + b.val)) * 128 + ch.val
    = ((n.val * 14 + (2 * py.val + a.val)) * 14 + (2 * px.val + b.val)) * 128 + ch.val
  omega

/-- The word of minus infinity is the least extended real. -/
theorem init_bot : (constant (F := Ideal) S_ .f32 0xFF800000#32) (Shape.Idx.first h_S_) = (⊥ : EReal) := by
  show Ideal.ofBits .f32 0xFF800000#32 = ⊥
  simp [Ideal.ofBits, Ideal.ieee]

/-- An index of the six-axis view that drops to (n, py, px, ch) has those four coordinates. -/
theorem coords_of_drop (i : S48x7x2x7x2x64.Idx) (n : Fin 48) (py px : Fin 7) (ch : Fin 64)
    (h : reducesTo_S48x7x2x7x2x64_S48x7x7x64_d2_4.drop i = ix4 n py px ch) :
    (i 0).val = n.val ∧ (i 1).val = py.val ∧ (i 3).val = px.val ∧ (i 5).val = ch.val := by
  refine ⟨?_, ?_, ?_, ?_⟩
  · rw [← Shape.ReducesTo.drop_apply_val_of_eq reducesTo_S48x7x2x7x2x64_S48x7x7x64_d2_4 i 0 0, h]
  · rw [← Shape.ReducesTo.drop_apply_val_of_eq reducesTo_S48x7x2x7x2x64_S48x7x7x64_d2_4 i 1 1, h]
  · rw [← Shape.ReducesTo.drop_apply_val_of_eq reducesTo_S48x7x2x7x2x64_S48x7x7x64_d2_4 i 2 3, h]
  · rw [← Shape.ReducesTo.drop_apply_val_of_eq reducesTo_S48x7x2x7x2x64_S48x7x7x64_d2_4 i 3 5, h]

/-- The index with window coordinates (a, b) drops to (n, py, px, ch). -/
theorem drop_ix6 (n : Fin 48) (py : Fin 7) (a : Fin 2) (px : Fin 7) (b : Fin 2) (ch : Fin 64) :
    reducesTo_S48x7x2x7x2x64_S48x7x7x64_d2_4.drop (ix6 n py a px b ch) = ix4 n py px ch := by
  funext d
  apply Fin.ext
  match d with
  | ⟨0, _⟩ => exact Shape.ReducesTo.drop_apply_val_of_eq reducesTo_S48x7x2x7x2x64_S48x7x7x64_d2_4 _ 0 0
  | ⟨1, _⟩ => exact Shape.ReducesTo.drop_apply_val_of_eq reducesTo_S48x7x2x7x2x64_S48x7x7x64_d2_4 _ 1 1
  | ⟨2, _⟩ => exact Shape.ReducesTo.drop_apply_val_of_eq reducesTo_S48x7x2x7x2x64_S48x7x7x64_d2_4 _ 2 3
  | ⟨3, _⟩ => exact Shape.ReducesTo.drop_apply_val_of_eq reducesTo_S48x7x2x7x2x64_S48x7x7x64_d2_4 _ 3 5

/-- The pooled array at (n, py, px, ch) is the maximum of the four window entries. -/
theorem pooledOf_apply (y : S9408x128.Idx → EReal) (n : Fin 48) (py px : Fin 7) (ch : Fin 64) :
    pooledOf y (ix4 n py px ch)
      = Cert.StageB.pool4 fun a b => y (ix2 (rowOf n py px a b) (⟨ch.val, by omega⟩ : Fin 128)) := by
  unfold pooledOf
  rw [truncf_apply, Host.reduce_eq_fold, init_bot]
  unfold Cert.StageB.pool4
  show Finset.fold max (⊥ : EReal) (windows y) _ = _
  apply le_antisymm
  · rw [Finset.fold_max_le]
    refine ⟨bot_le, fun i hi => ?_⟩
    have hd := (Finset.mem_filter.mp hi).2
    obtain ⟨h0, h1, h3, h5⟩ := coords_of_drop i n py px ch hd
    obtain ⟨a, b, rfl⟩ : ∃ a b : Fin 2, i = ix6 n py a px b ch :=
      ⟨⟨(i 2).val, (i 2).isLt⟩, ⟨(i 4).val, (i 4).isLt⟩, by
        rw [eq_ix6 i]
        funext d
        match d with
        | ⟨0, _⟩ => exact Fin.ext h0
        | ⟨1, _⟩ => exact Fin.ext h1
        | ⟨2, _⟩ => rfl
        | ⟨3, _⟩ => exact Fin.ext h3
        | ⟨4, _⟩ => rfl
        | ⟨5, _⟩ => exact Fin.ext h5⟩
    rw [windows_apply]
    match a, b with
    | ⟨0, _⟩, ⟨0, _⟩ => exact le_max_of_le_left (le_max_left _ _)
    | ⟨0, _⟩, ⟨1, _⟩ => exact le_max_of_le_left (le_max_right _ _)
    | ⟨1, _⟩, ⟨0, _⟩ => exact le_max_of_le_right (le_max_left _ _)
    | ⟨1, _⟩, ⟨1, _⟩ => exact le_max_of_le_right (le_max_right _ _)
  · have mem : ∀ a b : Fin 2, ix6 n py a px b ch ∈ Finset.univ.filter
        (fun i => reducesTo_S48x7x2x7x2x64_S48x7x7x64_d2_4.drop i = ix4 n py px ch) :=
      fun a b => Finset.mem_filter.mpr ⟨Finset.mem_univ _, drop_ix6 n py a px b ch⟩
    have one : ∀ a b : Fin 2, y (ix2 (rowOf n py px a b) (⟨ch.val, by omega⟩ : Fin 128))
        ≤ Finset.fold max (⊥ : EReal) (windows y) (Finset.univ.filter
          (fun i => reducesTo_S48x7x2x7x2x64_S48x7x7x64_d2_4.drop i = ix4 n py px ch)) :=
      fun a b => by
        rw [Finset.le_fold_max]
        exact Or.inr ⟨_, mem a b, (windows_apply y n py a px b ch).ge⟩
    exact max_le (max_le (one 0 0) (one 0 1)) (max_le (one 1 0) (one 1 1))

end Cert.StageF.Tail

end
-- ==== Proof.StageFHost.lean ====
import proofs.«146356_g2000405529851509_pallasbulk_1335_10_alg».proof.Proof.Gen.ReferenceIdeal.Regions
import proofs.«146356_g2000405529851509_pallasbulk_1335_10_alg».proof.Proof.StageFPatch
import proofs.«146356_g2000405529851509_pallasbulk_1335_10_alg».proof.Proof.StageFTail
import Idealize.ShloMosaic.Lib.StableHlo.Run
import Idealize.ShloMosaic.Lib.ValueIdx

/-!
# The reference's host operations around its second matrix product, as terms of the buffers they read

Each stretch of host operations is run on an arbitrary valuation of the buffers: the padded map is the pad of the pooled
first convolution; the patch matrix is the 25 windows of the padded map side by side; the scale and the shift are
the 128-vectors viewed as rows; and the pooled second convolution is the pooling of the matrix product's result.
-/

set_option maxRecDepth 16384

noncomputable section

namespace Cert.StageF.Host

open Cert.ReferenceIdeal Cert.ReferenceIdeal.Gen
open Idealize.ShloMosaic Idealize.ShloMosaic.ValueIdx Idealize.SL.Sem Idealize.ShloMosaic.TcCoe

variable (W : Valuation τ sig (Elt Ideal))

/-- The constant the pad fills with is written by the stretch before it. -/
theorem fill_step :
    (StableHlo.after hostOps1 W (Proc.devRef .tc main_c_1) : S_.Idx → BitVec 32) = constantI S_ 32 0#32 := by
  dsimp only [hostOps1]
  after_results

/-- The padded map. -/
theorem pad_step :
    (StableHlo.after hostOps1_1 W (Proc.devRef .tc main_v41) : S48x18x18x64.Idx → EReal)
      = pad S48x18x18x64 ![0, 2, 2, 0] ![0, 2, 2, 0] ![0, 0, 0, 0] (W (Proc.devRef .tc main_v40) : S48x14x14x64.Idx → EReal)
          (sitofp (F := Ideal) .bf16 (W (Proc.devRef .tc main_c_1) : S_.Idx → BitVec 32))
          pads_S48x14x14x64_S48x18x18x64_000_220_220_000 h_S_ := by
  dsimp only [hostOps1_1]
  after_results
  rfl

/-- The patch matrix. -/
theorem patch_step :
    (StableHlo.after hostOps1_2 W (Proc.devRef .tc main_v70) : S9408x1600.Idx → EReal)
      = Patch.patches (W (Proc.devRef .tc main_v41) : S48x18x18x64.Idx → EReal) := by
  dsimp only [hostOps1_2]
  after_results
  rfl

/-- The scale and the shift as rows. -/
theorem scale_step :
    (StableHlo.after hostOps1_2 W (Proc.devRef .tc main_v71) : S1x128.Idx → EReal)
      = shapeCast S1x128 (W (Proc.devRef .tc main_arg5) : S128.Idx → EReal) shapeCasts_S128_S1x128 := by
  dsimp only [hostOps1_2]
  after_results
  rfl

theorem shift_step :
    (StableHlo.after hostOps1_2 W (Proc.devRef .tc main_v72) : S1x128.Idx → EReal)
      = shapeCast S1x128 (W (Proc.devRef .tc main_arg6) : S128.Idx → EReal) shapeCasts_S128_S1x128 := by
  dsimp only [hostOps1_2]
  after_results
  rfl

/-- The pooled second convolution. -/
theorem pool_step :
    (StableHlo.after hostOps2 W (Proc.devRef .tc main_v78) : S48x7x7x64.Idx → EReal)
      = Tail.pooledOf (W (Proc.devRef .tc main_v73) : S9408x128.Idx → EReal) := by
  dsimp only [hostOps2]
  after_results
  rfl

end Cert.StageF.Host

end
-- ==== Proof.StageFPay.lean ====
import proofs.«146356_g2000405529851509_pallasbulk_1335_10_alg».proof.Proof.Gen.ReferenceIdeal.Skeleton
import proofs.«146356_g2000405529851509_pallasbulk_1335_10_alg».proof.Proof.LibPlainDot
import Idealize.ShloMosaic.Lib.Pipeline.Value
import Idealize.ShloMosaic.Lib.ValueLayout
import Idealize.ShloMosaic.Lib.ValueIdx

/-!
# The reference's second matrix product, read at an index

One row block of the reference's second convolution: 4704 patch rows of 1600 taps against the 1600 × 128 filter
matrix. At the ideal values the block's result at row r, channel ch is the sum over the 1600 taps of the patch entry
times the filter entry, times the channel's scale, plus the channel's shift, clamped below at zero.
-/

set_option maxRecDepth 16384

noncomputable section

namespace Cert.StageF.Pay

open Cert.ReferenceIdeal Cert.ReferenceIdeal.Gen
open Idealize.ShloMosaic Idealize.ShloMosaic.ValueIdx Cert.Lib.PlainDot

/-- A row of 128 lanes broadcast down 4704 rows reads its lane. -/
theorem rowBroadcast_apply (v : S1x128.Idx → EReal) (h2 : S1x128.Broadcasts S4704x128)
    (r : Fin 4704) (ch : Fin 128) :
    broadcastTo S4704x128 v h2 (ix2 r ch) = v (ix2 (0 : Fin 1) ch) := by
  exact broadcastTo_apply _ _ _ (ix2 (0 : Fin 1) ch)
    (fun a => match a with
      | ⟨0, _⟩ => rfl
      | ⟨1, _⟩ => rfl)

/-- The product into the zero accumulator is the plain sum of products. -/
theorem product_apply (x : FVec Ideal S4704x1600 .bf16) (w : FVec Ideal S1600x128 .bf16) (j : S4704x128.Idx) :
    matmul dot_S4704x1600_S1600x128_S4704x128_1_0_0_1_n_n none x w (constant S4704x128 .f32 0x00000000#32) j = mm x w j :=
  matmul_zero_apply dot_S4704x1600_S1600x128_S4704x128_1_0_0_1_n_n rfl none x w j

/-- Row r, channel ch of a block's result, from the block of patch rows, the filter matrix, the scale and the shift. -/
def blockVal (x : S4704x1600.Idx → EReal) (w : S1600x128.Idx → EReal) (s t : S1x128.Idx → EReal)
    (r : Fin 4704) (ch : Fin 128) : EReal :=
  max (mm x w (ix2 r ch) * s (ix2 (0 : Fin 1) ch) + t (ix2 (0 : Fin 1) ch))
    (Scalar.ofBits (F := Ideal) .f32 0x00000000#32)

theorem pay_apply (v0 : Vec Ideal S4704x1600 .bf16) (v2 : Vec Ideal S1600x128 .bf16)
    (v4 v8 : Vec Ideal S1x128 .f32) (r : Fin 4704) (ch : Fin 128) :
    k1_pay1 v0 v2 v4 v8 (ix2 r ch) = blockVal v0 v2 v4 v8 r ch := by
  unfold k1_pay1 blockVal
  simp only [maximumf_apply, addf_apply, mulf_apply, broadcast_apply]
  simp only [product_apply]
  simp only [shapeCast_self, rowBroadcast_apply]

end Cert.StageF.Pay

end
-- ==== Proof.StageFBlocks.lean ====
import proofs.«146356_g2000405529851509_pallasbulk_1335_10_alg».proof.Proof.RISecondMatmul
import proofs.«146356_g2000405529851509_pallasbulk_1335_10_alg».proof.Proof.StageFPay
import Idealize.ShloMosaic.Lib.Pipeline.Value

/-!
# The reference's second matrix product: from the two row blocks to the whole array

The region has two grid points; point t multiplies rows 4704 · t … 4704 · t + 4703 of the patch matrix by the whole
filter matrix and stores the 4704 × 128 block at those rows of the result. So the result array, entry (r, ch), is the
sum over the 1600 taps of the patch matrix's row r times the filter matrix's column ch, scaled, shifted and clamped
below at zero — one function of the four whole arrays.
-/

set_option maxRecDepth 16384

noncomputable section

namespace Cert.StageF.Blocks

open Cert.ReferenceIdeal Cert.ReferenceIdeal.Gen Cert.ReferenceIdeal.SecondMatmul
open Idealize.ShloMosaic Idealize.ShloMosaic.ValueIdx Idealize.SL.Sem Idealize.ShloMosaic.TcCoe
open Idealize.ShloMosaic.Pipeline (Dat Cfg Window)
open Cert.Lib.PlainDot

/-- Entry (r, ch) of the whole result, from the whole patch matrix, the filter matrix, the scale and the shift. -/
def wholeVal (A : S9408x1600.Idx → EReal) (w : S1600x128.Idx → EReal) (s t : S1x128.Idx → EReal)
    (r : Fin 9408) (ch : Fin 128) : EReal :=
  max (mm A w (ix2 r ch) * s (ix2 (0 : Fin 1) ch) + t (ix2 (0 : Fin 1) ch))
    (Scalar.ofBits (F := Ideal) .f32 0x00000000#32)

/-- The whole result as a function of its index. -/
def result (A : S9408x1600.Idx → EReal) (w : S1600x128.Idx → EReal) (s t : S1x128.Idx → EReal) :
    S9408x128.Idx → EReal :=
  fun i => wholeVal A w s t ⟨(i 0).val, (i 0).isLt⟩ ⟨(i 1).val, (i 1).isLt⟩

/-- A block of 4704 patch rows starting at row off gives the whole result's rows off … off + 4703. -/
theorem blockVal_eq (A : S9408x1600.Idx → EReal) (w : S1600x128.Idx → EReal) (s t : S1x128.Idx → EReal)
    (x0 : S4704x1600.Idx → EReal) (x1 : S1600x128.Idx → EReal) (x2 x3 : S1x128.Idx → EReal)
    (off : Nat) (hoff : off + 4704 ≤ 9408)
    (h0 : ∀ (r : Fin 4704) (k : Fin 1600), x0 (ix2 r k) = A (ix2 (⟨off + r.val, by omega⟩ : Fin 9408) k))
    (h1 : x1 = w) (h2 : x2 = s) (h3 : x3 = t) (r : Fin 4704) (ch : Fin 128) :
    Pay.blockVal x0 x1 x2 x3 r ch = wholeVal A w s t (⟨off + r.val, by omega⟩ : Fin 9408) ch := by
  subst h1 h2 h3
  have hs : mm x0 x1 (ix2 r ch) = mm A x1 (ix2 (⟨off + r.val, by omega⟩ : Fin 9408) ch) := by
    unfold mm
    refine Finset.sum_congr rfl fun k _ => ?_
    have e0 : x0 (rowIdx (ix2 r ch) k) = A (rowIdx (ix2 (⟨off + r.val, by omega⟩ : Fin 9408) ch) k) := by
      have e : rowIdx (ix2 r ch) k = ix2 r k := funext fun a => match a with
        | ⟨0, _⟩ => rfl
        | ⟨1, _⟩ => rfl
      rw [e, h0]
      exact congrArg A (funext fun a => match a with
        | ⟨0, _⟩ => rfl
        | ⟨1, _⟩ => rfl)
    have e1 : colIdx (ix2 r ch) k = colIdx (ix2 (⟨off + r.val, by omega⟩ : Fin 9408) ch) k :=
      funext fun a => match a with
        | ⟨0, _⟩ => rfl
        | ⟨1, _⟩ => rfl
    rw [e0, e1]
  unfold Pay.blockVal wholeVal
  rw [hs]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the two grid points: the patch rows move with the output's rows, every other
    block index is zero, and the output's row-block index is the point's number. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- What point t writes back is block t of the whole result. -/
theorem flushed_eq (c : Dev nD) (t : Fin cfg1.N) :
    (dat V c).flushed 4 t = ((cfg1.win 4).blk t).view.read (Elt Ideal)
      (result (V c main_v70) (V c main_arg4) (V c main_v71) (V c main_v72)) := by
  show (cfg1.win 4).cut (grid1.coords t) ((dat V c).after 4 t) = _
  rw [after4]
  unfold outBlock
  rw [View.canon_unit_zero hz]
  simp only [View.ld_unit_zero (S := S4704x1600) hz, View.ld_unit_zero (S := S1600x128) hz, View.ld_unit_zero (S := S1x128) hz]
  obtain ⟨e0, e1, e2, e3, e4, e5, e6, e7, e8, e9⟩ := idx_facts t
  have ht : t.val < 2 := Nat.lt_of_lt_of_eq t.isLt N_1
  funext j
  have hj0 : (j 0).val < 4704 := (j 0).isLt
  have hj1 : (j 1).val < 128 := (j 1).isLt
  have ej : j = ix2 (⟨(j 0).val, hj0⟩ : Fin 4704) (⟨(j 1).val, hj1⟩ : Fin 128) :=
    funext fun a => match a with
      | ⟨0, _⟩ => rfl
      | ⟨1, _⟩ => rfl
  show k1_pay1 (iblk V c 0 t) (iblk V c 1 t) (iblk V c 2 t) (iblk V c 3 t) j
    = result (V c main_v70) (V c main_arg4) (V c main_v71) (V c main_v72) (((cfg1.win 4).blk t).view.emb j)
  refine (congrArg (k1_pay1 (iblk V c 0 t) (iblk V c 1 t) (iblk V c 2 t) (iblk V c 3 t)) ej).trans ?_
  refine (Pay.pay_apply (iblk V c 0 t) (iblk V c 1 t) (iblk V c 2 t) (iblk V c 3 t) ⟨(j 0).val, hj0⟩ ⟨(j 1).val, hj1⟩).trans ?_
  refine (blockVal_eq (V c main_v70) (V c main_arg4) (V c main_v71) (V c main_v72)
    (iblk V c 0 t) (iblk V c 1 t) (iblk V c 2 t) (iblk V c 3 t) (t.val * 4704) (by omega) ?_ ?_ ?_ ?_
    ⟨(j 0).val, hj0⟩ ⟨(j 1).val, hj1⟩).trans ?_
  · intro r k
    show V c main_v70 (((cfg1.win 0).blk t).view.emb (ix2 r k)) = V c main_v70 (ix2 (⟨t.val * 4704 + r.val, by omega⟩ : Fin 9408) k)
    refine congrArg _ (funext fun a => Fin.ext ?_)
    match a with
    | ⟨0, _⟩ => show win1_0.index t (0 : Fin 2) * 4704 + 1 * r.val = t.val * 4704 + r.val; omega
    | ⟨1, _⟩ => show win1_0.index t (1 : Fin 2) * 1600 + 1 * k.val = k.val; omega
  · funext y
    show V c main_arg4 (((cfg1.win 1).blk t).view.emb y) = V c main_arg4 y
    refine congrArg _ (funext fun a => Fin.ext ?_)
    match a with
    | ⟨0, _⟩ => show win1_1.index t (0 : Fin 2) * 1600 + 1 * (y 0).val = (y 0).val; omega
    | ⟨1, _⟩ => show win1_1.index t (1 : Fin 2) * 128 + 1 * (y 1).val = (y 1).val; omega
  · funext y
    show V c main_v71 (((cfg1.win 2).blk t).view.emb y) = V c main_v71 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_v72 (((cfg1.win 3).blk t).view.emb y) = V c main_v72 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · unfold result
    have c0 : ((((cfg1.win 4).blk t).view.emb j) 0).val = t.val * 4704 + (j 0).val := by
      show win1_4.index t (0 : Fin 2) * 4704 + 1 * (j 0).val = _; omega
    have c1 : ((((cfg1.win 4).blk t).view.emb j) 1).val = (j 1).val := by
      show win1_4.index t (1 : Fin 2) * 128 + 1 * (j 1).val = _; omega
    exact congrArg₂ (wholeVal (V c main_v70) (V c main_arg4) (V c main_v71) (V c main_v72))
      (Fin.ext c0.symm) (Fin.ext c1.symm)

/-- An index of the result is in point t's block iff each coordinate is in the block's range on its axis. -/
theorem mem_blk (t : Fin cfg1.N) (i : S9408x128.Idx) :
    i ∈ ((cfg1.win 4).blk t).view.set ↔ ∀ a : Fin 2, win1_4.index t a * S4704x128.size a ≤ (i a).val
      ∧ (i a).val < win1_4.index t a * S4704x128.size a + S4704x128.size a := by
  show i ∈ ((View.whole main_v73).slice (win1_4.rect t)).set ↔ _
  rw [View.set_slice_whole, Rect.mem_set_unit]
  exact Iff.rfl

/-- Every row of the result is in the block of the point its row number over 4704 names. -/
theorem cover (i : S9408x128.Idx) :
    ∃ t : Fin cfg1.N, (cfg1.win 4).flush t = true ∧ i ∈ ((cfg1.win 4).blk t).view.set := by
  have hi0 : (i 0).val < 9408 := (i 0).isLt
  have hi1 : (i 1).val < 128 := (i 1).isLt
  have hN : cfg1.N = 2 := N_1
  let t : Fin cfg1.N := ⟨(i 0).val / 4704, by rw [hN]; omega⟩
  obtain ⟨e0, e1, e2, e3, e4, e5, e6, e7, e8, e9⟩ := idx_facts t
  have et : t.val = (i 0).val / 4704 := rfl
  refine ⟨t, flush1_4 t, ?_⟩
  rw [mem_blk]
  intro a
  match a with
  | ⟨0, _⟩ =>
    show win1_4.index t (0 : Fin 2) * 4704 ≤ (i 0).val ∧ (i 0).val < win1_4.index t (0 : Fin 2) * 4704 + 4704
    omega
  | ⟨1, _⟩ =>
    show win1_4.index t (1 : Fin 2) * 128 ≤ (i 1).val ∧ (i 1).val < win1_4.index t (1 : Fin 2) * 128 + 128
    omega

/-- The result array after the region: one function of the four whole arrays as the region finds them. -/
theorem final (c : Dev nD) :
    (dat V c).arrAt 4 cfg1.N = result (V c main_v70) (V c main_arg4) (V c main_v71) (V c main_v72) :=
  (dat V c).arrAt_eq_of_cover 4 _ (fun t _ => flushed_eq V c t) cover

end Cert.StageF.Blocks

end
-- ==== Proof.StageFChain.lean ====
import proofs.«146356_g2000405529851509_pallasbulk_1335_10_alg».proof.Proof.RIWhole
import Idealize.ShloMosaic.Lib.ValueIdx

/-!
# Buffers of the reference that later items leave alone

The pooled second convolution is not written after the stretch that computes it; the pooled first convolution is not
written after the stretch that computes it; the filter matrix, the scale and the shift of the second convolution are
arguments, written by nothing.
-/

set_option maxRecDepth 16384

noncomputable section

namespace Cert.StageF.Chain

open Cert.ReferenceIdeal Cert.ReferenceIdeal.Gen
open Idealize.ShloMosaic Idealize.ShloMosaic.ValueIdx Idealize.SL.Sem Idealize.ShloMosaic.TcCoe

variable (m : (ℓ : Loc nD τ sig) → Buf (Elt Ideal) ℓ) (outs : Outs (F := Ideal)) (c : Dev nD)

/-- The pooled second convolution at the end is what the stretch after the second region leaves. -/
theorem pooled2_kept : V21 m outs c main_v78 = V11 m outs c main_v78 :=
  (V21_of m outs c main_v78 (by decide)).trans <| (V20_of m outs c main_v78 (by decide)).trans <|
  (V19_of m outs c main_v78 (by decide)).trans <| (V18_of m outs c main_v78 (by decide)).trans <|
  (V17_of m outs c main_v78 (by decide)).trans <| (V16_of m outs c main_v78 (by decide)).trans <|
  (V15_of m outs c main_v78 (by decide)).trans <| (V14_of m outs c main_v78 (by decide)).trans <|
  (V13_of m outs c main_v78 (by decide)).trans <| (V12_of m outs c main_v78 (by decide))

/-- The pooled first convolution at the end is what the stretch after the first region leaves. -/
theorem pooled1_kept : V21 m outs c main_v40 = V7 m outs c main_v40 :=
  (V21_of m outs c main_v40 (by decide)).trans <| (V20_of m outs c main_v40 (by decide)).trans <|
  (V19_of m outs c main_v40 (by decide)).trans <| (V18_of m outs c main_v40 (by decide)).trans <|
  (V17_of m outs c main_v40 (by decide)).trans <| (V16_of m outs c main_v40 (by decide)).trans <|
  (V15_of m outs c main_v40 (by decide)).trans <| (V14_of m outs c main_v40 (by decide)).trans <|
  (V13_of m outs c main_v40 (by decide)).trans <| (V12_of m outs c main_v40 (by decide)).trans <|
  (V11_of m outs c main_v40 (by decide)).trans <| (V10_of m outs c main_v40 (by decide)).trans <|
  (V9_of m outs c main_v40 (by decide)).trans <| (V8_of m outs c main_v40 (by decide))

/-- The filter matrix when the second region starts is the argument. -/
theorem filter_kept : V9 m outs c main_arg4 = m ((c : Thread nD τ).loc main_arg4) :=
  (V9_of m outs c main_arg4 (by decide)).trans <| (V8_of m outs c main_arg4 (by decide)).trans <|
  (V7_of m outs c main_arg4 (by decide)).trans <| (V6_of m outs c main_arg4 (by decide)).trans <|
  (V5_of m c main_arg4 (by decide)).trans <| (V4_of m c main_arg4 (by decide)).trans <|
  (V3_of m c main_arg4 (by decide)).trans <| (V2_of m c main_arg4 (by decide)).trans <|
  (V1_of m c main_arg4 (by decide))

/-- The scale before the patch stretch is the argument. -/
theorem scale_kept : V8 m outs c main_arg5 = m ((c : Thread nD τ).loc main_arg5) :=
  (V8_of m outs c main_arg5 (by decide)).trans <|
  (V7_of m outs c main_arg5 (by decide)).trans <| (V6_of m outs c main_arg5 (by decide)).trans <|
  (V5_of m c main_arg5 (by decide)).trans <| (V4_of m c main_arg5 (by decide)).trans <|
  (V3_of m c main_arg5 (by decide)).trans <| (V2_of m c main_arg5 (by decide)).trans <|
  (V1_of m c main_arg5 (by decide))

/-- The shift before the patch stretch is the argument. -/
theorem shift_kept : V8 m outs c main_arg6 = m ((c : Thread nD τ).loc main_arg6) :=
  (V8_of m outs c main_arg6 (by decide)).trans <|
  (V7_of m outs c main_arg6 (by decide)).trans <| (V6_of m outs c main_arg6 (by decide)).trans <|
  (V5_of m c main_arg6 (by decide)).trans <| (V4_of m c main_arg6 (by decide)).trans <|
  (V3_of m c main_arg6 (by decide)).trans <| (V2_of m c main_arg6 (by decide)).trans <|
  (V1_of m c main_arg6 (by decide))

end Cert.StageF.Chain

end
-- ==== Proof.StageBRef.lean ====
import proofs.«146356_g2000405529851509_pallasbulk_1335_10_alg».proof.Proof.Bridge
import proofs.«146356_g2000405529851509_pallasbulk_1335_10_alg».proof.Proof.StageBSpec
import proofs.«146356_g2000405529851509_pallasbulk_1335_10_alg».proof.Proof.StageFHost
import proofs.«146356_g2000405529851509_pallasbulk_1335_10_alg».proof.Proof.StageFBlocks
import proofs.«146356_g2000405529851509_pallasbulk_1335_10_alg».proof.Proof.StageFChain

/-!
# The reference's pooled second convolution, from its pooled first convolution

Read off the reference's last valuation: the pooled second convolution at image n, pooled position (py, px), channel ch
is the maximum over the 2 × 2 window of the activation computed from the padded pooled first convolution, the filter
matrix, the scale and the shift — the sum over the 1600 taps, scaled, shifted and clamped below at zero.
-/

set_option maxRecDepth 16384

noncomputable section

namespace Cert.StageB

open Cert.ReferenceIdeal Cert.ReferenceIdeal.Gen
open Idealize.ShloMosaic Idealize.ShloMosaic.ValueIdx Idealize.SL.Sem Idealize.ShloMosaic.TcCoe
open Cert.Lib.PlainDot Cert.StageF

/-- The reference's padded map: the pooled first convolution with two rows and two columns of zeros on every side. -/
def refPadded (m' : Cert.Bridge.RMem) (c : Dev Cert.ReferenceIdeal.nD) : Cert.ReferenceIdeal.S48x18x18x64.Idx → EReal :=
  pad Cert.ReferenceIdeal.S48x18x18x64 ![0, 2, 2, 0] ![0, 2, 2, 0] ![0, 0, 0, 0] (Cert.Bridge.rP1 m' c)
    (sitofp (F := Ideal) .bf16 (constantI Cert.ReferenceIdeal.S_ 32 0#32))
    pads_S48x14x14x64_S48x18x18x64_000_220_220_000 h_S_

/-- A 128-vector viewed as one row reads its entry. -/
theorem ref_row_apply (v : S128.Idx → EReal) (ch : Fin 128) :
    shapeCast S1x128 v shapeCasts_S128_S1x128 (ix2 (0 : Fin 1) ch) = v (ix1 ch) :=
  shapeCast_apply v _ _ (ix1 ch) (by
    rw [Shape.rowMajor_val_one, Shape.rowMajor_val_two]
    show ch.val = 0 * 128 + ch.val
    omega)

/-- One entry of the matrix product's result is the activation of the specification. -/
theorem ref_entry_eq (xp : S48x18x18x64.Idx → EReal) (w : S1600x128.Idx → EReal) (s t : S128.Idx → EReal)
    (n : Fin 48) (y x : Fin 14) (ch : Fin 64) :
    Blocks.wholeVal (Patch.patches xp) w (shapeCast S1x128 s shapeCasts_S128_S1x128) (shapeCast S1x128 t shapeCasts_S128_S1x128)
        (⟨n.val * 196 + y.val * 14 + x.val, by omega⟩ : Fin 9408) (⟨ch.val, by omega⟩ : Fin 128)
      = act xp w s t n y x ch := by
  unfold Blocks.wholeVal act
  rw [ref_row_apply, ref_row_apply]
  have hs : mm (Patch.patches xp) w (ix2 (⟨n.val * 196 + y.val * 14 + x.val, by omega⟩ : Fin 9408) (⟨ch.val, by omega⟩ : Fin 128))
      = ∑ j : Fin 1600, xp (ix4 n (⟨y.val + j.val / 320, by omega⟩ : Fin 18) (⟨x.val + j.val / 64 % 5, by omega⟩ : Fin 18)
          (⟨j.val % 64, by omega⟩ : Fin 64)) * w (ix2 j (⟨ch.val, by omega⟩ : Fin 128)) := by
    unfold mm
    refine Finset.sum_congr rfl fun j _ => ?_
    have e0 : rowIdx (ix2 (⟨n.val * 196 + y.val * 14 + x.val, by omega⟩ : Fin 9408) (⟨ch.val, by omega⟩ : Fin 128)) j
        = ix2 (⟨n.val * 196 + y.val * 14 + x.val, by omega⟩ : Fin 9408) j := funext fun a => match a with
      | ⟨0, _⟩ => rfl
      | ⟨1, _⟩ => rfl
    have e1 : colIdx (ix2 (⟨n.val * 196 + y.val * 14 + x.val, by omega⟩ : Fin 9408) (⟨ch.val, by omega⟩ : Fin 128)) j
        = ix2 j (⟨ch.val, by omega⟩ : Fin 128) := funext fun a => match a with
      | ⟨0, _⟩ => rfl
      | ⟨1, _⟩ => rfl
    rw [e0, e1, Patch.patches_apply]
  rw [hs]
  show max _ (Ideal.ofBits .f32 0x00000000#32) = _
  rw [Ideal.ofBits_zero_f32]

variable (m' : Cert.Bridge.RMem) (c : Dev Cert.ReferenceIdeal.nD)

/-- What the four regions leave, at the ideal instance. -/
abbrev refOuts : Outs (F := Ideal) := Cert.ReferenceIdeal.Whole.outs (F := Ideal) m'

/-- The padded map the reference builds is the pad of its pooled first convolution. -/
theorem ref_padded_is :
    (V8 m' (refOuts m') c (Proc.devRef .tc main_v41) : S48x18x18x64.Idx → EReal) = refPadded m' c := by
  have h1 := Host.pad_step (V7 m' (refOuts m') c)
  have h2 : (V7 m' (refOuts m') c (Proc.devRef .tc main_c_1) : S_.Idx → BitVec 32) = constantI S_ 32 0#32 :=
    Host.fill_step (V6 m' (refOuts m') c)
  have h3 : (V7 m' (refOuts m') c (Proc.devRef .tc main_v40) : S48x14x14x64.Idx → EReal) = Cert.Bridge.rP1 m' c :=
    (Chain.pooled1_kept m' (refOuts m') c).symm
  rw [h2, h3] at h1
  exact h1

/-- The matrix product's result array, from the padded map and the three arguments. -/
theorem ref_product_eq :
    (V10 m' (refOuts m') c (Proc.devRef .tc main_v73) : S9408x128.Idx → EReal)
      = Blocks.result (Patch.patches (refPadded m' c))
          (m' ((c.tc : Thread Cert.ReferenceIdeal.nD Cert.ReferenceIdeal.τ).loc main_arg4))
          (shapeCast S1x128 (m' ((c.tc : Thread Cert.ReferenceIdeal.nD Cert.ReferenceIdeal.τ).loc main_arg5)) shapeCasts_S128_S1x128)
          (shapeCast S1x128 (m' ((c.tc : Thread Cert.ReferenceIdeal.nD Cert.ReferenceIdeal.τ).loc main_arg6)) shapeCasts_S128_S1x128) := by
  have hA : (V9 m' (refOuts m') c (Proc.devRef .tc main_v70) : S9408x1600.Idx → EReal) = Patch.patches (refPadded m' c) :=
    (Host.patch_step (V8 m' (refOuts m') c)).trans (congrArg Patch.patches (ref_padded_is m' c))
  have hW := Chain.filter_kept m' (refOuts m') c
  have hS : (V9 m' (refOuts m') c (Proc.devRef .tc main_v71) : S1x128.Idx → EReal)
      = shapeCast S1x128 (m' ((c.tc : Thread Cert.ReferenceIdeal.nD Cert.ReferenceIdeal.τ).loc main_arg5)) shapeCasts_S128_S1x128 :=
    (Host.scale_step (V8 m' (refOuts m') c)).trans
      (congrArg (fun v : S128.Idx → EReal => shapeCast S1x128 v shapeCasts_S128_S1x128) (Chain.scale_kept m' (refOuts m') c))
  have hT : (V9 m' (refOuts m') c (Proc.devRef .tc main_v72) : S1x128.Idx → EReal)
      = shapeCast S1x128 (m' ((c.tc : Thread Cert.ReferenceIdeal.nD Cert.ReferenceIdeal.τ).loc main_arg6)) shapeCasts_S128_S1x128 :=
    (Host.shift_step (V8 m' (refOuts m') c)).trans
      (congrArg (fun v : S128.Idx → EReal => shapeCast S1x128 v shapeCasts_S128_S1x128) (Chain.shift_kept m' (refOuts m') c))
  have hF := Blocks.final (Cert.ReferenceIdeal.Whole.atTc (V9 m' (Cert.ReferenceIdeal.Whole.O1 m'))) c
  have hR := Cert.ReferenceIdeal.Whole.hF1 (F := Ideal) m' c 4
  refine (hR.symm.trans hF).trans ?_
  show Blocks.result (V9 m' (refOuts m') c (Proc.devRef .tc main_v70)) (V9 m' (refOuts m') c (Proc.devRef .tc main_arg4))
    (V9 m' (refOuts m') c (Proc.devRef .tc main_v71)) (V9 m' (refOuts m') c (Proc.devRef .tc main_v72)) = _
  rw [hA, hW, hS, hT]

/-- The reference's pooled second convolution is the specification's pooled activation of its padded map. -/
theorem ref_pooled (n : Fin 48) (py px : Fin 7) (ch : Fin 64) :
    Cert.Bridge.rP2 m' c (ix4 n py px ch)
      = pooled (refPadded m' c)
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          n py px ch := by
  have h0 : (Cert.Bridge.rP2 m' c : S48x7x7x64.Idx → EReal)
      = Tail.pooledOf (V10 m' (refOuts m') c (Proc.devRef .tc main_v73)) :=
    (Chain.pooled2_kept m' (refOuts m') c).trans (Host.pool_step (V10 m' (refOuts m') c))
  rw [h0, ref_product_eq, Tail.pooledOf_apply]
  unfold pooled
  refine congrArg pool4 (funext fun a => funext fun b => ?_)
  exact ref_entry_eq (refPadded m' c) _ _ _ n (⟨2 * py.val + a.val, by omega⟩ : Fin 14) (⟨2 * px.val + b.val, by omega⟩ : Fin 14) ch

end Cert.StageB

end
-- ==== Proof.StageBStage.lean ====
import proofs.«146356_g2000405529851509_pallasbulk_1335_10_alg».proof.Proof.Bridge
import proofs.«146356_g2000405529851509_pallasbulk_1335_10_alg».proof.Proof.StageBKernel
import proofs.«146356_g2000405529851509_pallasbulk_1335_10_alg».proof.Proof.StageBRef
import Idealize.ShloMosaic.Lib.Pipeline.Value

/-!
# The second stage: the pooled second convolutions correspond, given that the pooled first convolutions do

Both programs' results are the pooled activation of a padded map, the filter matrix, the scale and the shift. The
arguments agree, and the two padded maps are paddings of corresponding arrays.
-/

set_option maxRecDepth 16384

noncomputable section

namespace Cert.StageB

open Cert.Bridge
open Idealize.ShloMosaic Idealize.ShloMosaic.TcCoe Idealize.ShloMosaic.ValueIdx Idealize.SL.Sem

variable (m : KMem) (m' : RMem) (c : Dev Cert.KernelIdeal.nD)

/-- The reference's pooled first convolution is the kernel's, viewed by image and position. -/
theorem rP1_eq (h1 : Rel1 m m' c) :
    rP1 m' c = shapeCast Cert.KernelIdeal.S48x14x14x64 (kP1 m c) Cert.KernelIdeal.Gen.shapeCasts_S9408x64_S48x14x14x64 := by
  funext j
  obtain ⟨n, y, x, ch, rfl⟩ : ∃ (n : Fin 48) (y x : Fin 14) (ch : Fin 64), j = ix4 n y x ch := ⟨j 0, j 1, j 2, j 3, eq_ix4 j⟩
  rw [h1 n y x ch]
  exact (shapeCast_apply _ _ _ _ (by
    rw [Shape.rowMajor_val_two, Shape.rowMajor_val_four]
    show (n.val * 196 + y.val * 14 + x.val) * 64 + ch.val = ((n.val * 14 + y.val) * 14 + x.val) * 64 + ch.val
    omega)).symm

/-- So the two padded maps are one. -/
theorem padded_eq (h1 : Rel1 m m' c) : refPadded m' c = kPadded m c := by
  unfold refPadded kPadded
  rw [rP1_eq m m' c h1]

end Cert.StageB

namespace Cert.Bridge

open Idealize.ShloMosaic Idealize.ShloMosaic.ValueIdx Idealize.SL.Sem

theorem stage2 (m : KMem) (m' : RMem) (hag : Agree m m') (c : Dev Cert.KernelIdeal.nD) (h1 : Rel1 m m' c) : Rel2 m m' c := by
  intro n py px ch
  obtain ⟨-, -, -, -, h4, h5, h6, -⟩ := hag c
  rw [Cert.StageB.ref_pooled m' c n py px ch, Cert.StageB.kernel_pooled m c n py px ch, Cert.StageB.padded_eq m m' c h1, h4, h5, h6]

end Cert.Bridge

end
-- ==== Proof.StageCKPay.lean ====
import proofs.«146356_g2000405529851509_pallasbulk_1335_10_alg».proof.Proof.Gen.KernelIdeal.Skeleton
import proofs.«146356_g2000405529851509_pallasbulk_1335_10_alg».proof.Proof.LibPlainDot
import Idealize.ShloMosaic.Lib.Pipeline.Value
import Idealize.ShloMosaic.Lib.ValueLayout
import Idealize.ShloMosaic.Lib.ValueIdx

/-!
# The third convolution's body, read at an index

At the ideal values the body's result at row (image i of the block's eight, y, x), channel ch, is the row
i · 77 + y · 11 + x + 2 of the 616 computed rows (the crop drops two padding columns on either side of each row of
eleven), and computed row r, channel ch, is the sum over the five horizontal taps d of the product of input row r + d
with the tap's 320 × 128 filter slice, scaled, shifted and clamped below at zero.
-/

set_option maxRecDepth 16384

noncomputable section

namespace Cert.StageC.KPay

open Cert.KernelIdeal Cert.KernelIdeal.Gen
open Idealize.ShloMosaic Idealize.ShloMosaic.ValueIdx Cert.Lib.PlainDot

/-- The block's 616 rows starting at row d of its 620. -/
def rowsFrom (d : Nat) (hd : d ≤ 4) (v0 : S1x620x320.Idx → EReal) : S616x320.Idx → EReal :=
  fun i => v0 (ix3 (0 : Fin 1) (⟨(i 0).val + d, by have := (i 0).isLt; show (i 0).val + d < 620; have : (i 0).val < 616 := this; omega⟩ : Fin 620) (⟨(i 1).val, (i 1).isLt⟩ : Fin 320))

/-- The crop: block row (i, y, x) is computed row i · 77 + y · 11 + x + 2. -/
theorem pay1_apply (v : FVec Ideal S616x128 .f32) (i : Fin 8) (y x : Fin 7) (ch : Fin 128) :
    k2_pay1 v (ix2 (⟨i.val * 49 + y.val * 7 + x.val, by omega⟩ : Fin 392) ch)
      = v (ix2 (⟨i.val * 77 + y.val * 11 + x.val + 2, by omega⟩ : Fin 616) ch) := by
  unfold k2_pay1
  refine (shapeCast_apply _ _ _ (ix4 i y x ch)
    (by rw [Shape.rowMajor_val_two, Shape.rowMajor_val_four]
        show ((i.val * 7 + y.val) * 7 + x.val) * 128 + ch.val = (i.val * 49 + y.val * 7 + x.val) * 128 + ch.val
        omega)).trans ?_
  refine (extractStridedSlice_apply _ _ _ _ (ix4 i y (⟨x.val + 2, by omega⟩ : Fin 11) ch)
    (fun a => match a with
      | ⟨0, _⟩ => by show i.val = 0 + i.val; omega
      | ⟨1, _⟩ => by show y.val = 0 + y.val; omega
      | ⟨2, _⟩ => by show x.val + 2 = 2 + x.val; omega
      | ⟨3, _⟩ => by show ch.val = 0 + ch.val; omega)).trans ?_
  exact shapeCast_apply _ _ _ _
    (by rw [Shape.rowMajor_val_two, Shape.rowMajor_val_four]
        show (i.val * 77 + y.val * 11 + x.val + 2) * 128 + ch.val = ((i.val * 7 + y.val) * 11 + (x.val + 2)) * 128 + ch.val
        omega)

/-- A slice of the block's rows, after the unit axis is dropped, is the block's rows from the slice's offset. -/
theorem slice_eq (d : Nat) (hd : d ≤ 4) (v0 : S1x620x320.Idx → EReal) (h1 : S1x620x320.ShapeCasts S620x320)
    (h2 : S620x320.Slices ![d, 0] S616x320) :
    extractStridedSlice S616x320 ![d, 0] (shapeCast S620x320 v0 h1) h2 = rowsFrom d hd v0 := by
  funext j
  have hj0 : (j 0).val < 616 := (j 0).isLt
  have hj1 : (j 1).val < 320 := (j 1).isLt
  refine (extractStridedSlice_apply _ _ _ j (ix2 (⟨(j 0).val + d, by omega⟩ : Fin 620) (⟨(j 1).val, hj1⟩ : Fin 320))
    (fun a => match a with
      | ⟨0, _⟩ => by show (j 0).val + d = d + (j 0).val; omega
      | ⟨1, _⟩ => by show (j 1).val = 0 + (j 1).val; omega)).trans ?_
  exact shapeCast_apply _ _ _ _
    (by rw [Shape.rowMajor_val_two, Shape.rowMajor_val_three]
        show (0 * 620 + ((j 0).val + d)) * 320 + (j 1).val = ((j 0).val + d) * 320 + (j 1).val
        omega)

/-- A row vector broadcast down the rows reads its lane. -/
theorem bcast_apply (v : S1x128.Idx → EReal) (h2 : S1x128.Broadcasts S616x128)
    (r : Fin 616) (ch : Fin 128) :
    broadcastTo S616x128 v h2 (ix2 r ch) = v (ix2 (0 : Fin 1) ch) := broadcastTo_apply _ _ _ (ix2 (0 : Fin 1) ch)
    (fun a => match a with
      | ⟨0, _⟩ => rfl
      | ⟨1, _⟩ => rfl)

/-- One tap's product into the zero accumulator, at an index. -/
theorem mm_at (x : FVec Ideal S616x320 .bf16) (w : FVec Ideal S320x128 .bf16) (j : S616x128.Idx) :
    matmul dot_S616x320_S320x128_S616x128_1_0_0_1_n_n none x w (constant S616x128 .f32 0x00000000#32) j = mm x w j :=
  matmul_zero_apply dot_S616x320_S320x128_S616x128_1_0_0_1_n_n rfl none x w j

/-- Computed row r, channel ch. -/
def rowVal (v0 : S1x620x320.Idx → EReal) (w0 w1 w2 w3 w4 : S320x128.Idx → EReal) (s t : S1x128.Idx → EReal)
    (r : Fin 616) (ch : Fin 128) : EReal :=
  max ((mm (rowsFrom 0 (by omega) v0) w0 (ix2 r ch) + mm (rowsFrom 1 (by omega) v0) w1 (ix2 r ch)
        + mm (rowsFrom 2 (by omega) v0) w2 (ix2 r ch) + mm (rowsFrom 3 (by omega) v0) w3 (ix2 r ch)
        + mm (rowsFrom 4 (by omega) v0) w4 (ix2 r ch)) * s (ix2 (0 : Fin 1) ch) + t (ix2 (0 : Fin 1) ch))
    (Scalar.ofBits (F := Ideal) .f32 0x00000000#32)

theorem pay2_apply (v0 : Vec Ideal S1x620x320 .bf16) (v3 v7 v12 v17 v22 : Vec Ideal S320x128 .bf16)
    (v26 v30 : Vec Ideal S1x128 .f32) (r : Fin 616) (ch : Fin 128) :
    k2_pay2 v0 v3 v7 v12 v17 v22 v26 v30 (ix2 r ch) = rowVal v0 v3 v7 v12 v17 v22 v26 v30 r ch := by
  unfold k2_pay2 rowVal
  simp only [maximumf_apply, addf_apply, mulf_apply, broadcast_apply]
  simp only [mm_at]
  rw [slice_eq 0 (by omega), slice_eq 1 (by omega), slice_eq 2 (by omega), slice_eq 3 (by omega), slice_eq 4 (by omega)]
  simp only [shapeCast_self, bcast_apply]

end Cert.StageC.KPay

end
-- ==== Proof.StageCKRegion.lean ====
import proofs.«146356_g2000405529851509_pallasbulk_1335_10_alg».proof.Proof.KIThirdConv
import proofs.«146356_g2000405529851509_pallasbulk_1335_10_alg».proof.Proof.StageCKPay
import Idealize.ShloMosaic.Lib.Pipeline.Value

/-!
# The third convolution's result array, index by index

The region's six grid points each write back one block of 392 rows (eight images). Row n · 49 + y · 7 + x of the
result array is row (n mod 8) · 49 + y · 7 + x of the block of point n / 8, and that row of the block is computed row
(n mod 8) · 77 + y · 11 + x + 2 of the point's 616: the five tap products over the point's 620 input rows.
-/

set_option maxRecDepth 16384

noncomputable section

namespace Cert.StageC.KRegion

open Cert.KernelIdeal Cert.KernelIdeal.Gen Cert.KernelIdeal.ThirdConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid. -/
theorem idx_facts : ∀ t : Fin cfg2.N, win2_4.index t (0 : Fin 2) = t.val ∧ win2_4.index t (1 : Fin 2) = 0
    ∧ win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What point t leaves at index y of its block. -/
def H (c : Dev nD) (t : Fin cfg2.N) (y : S392x128.Idx) : EReal :=
  outBlock (F := Ideal) (iblk V c 0 t) (iblk V c 1 t) (iblk V c 2 t) (iblk V c 3 t) y

/-- The point whose block holds row r of the array, and the row inside that block. -/
def tOf (i : S2352x128.Idx) : Fin cfg2.N := ⟨(i 0).val / 392, by rw [show cfg2.N = grid2.N from rfl, N_2]; have : (i 0).val < 2352 := (i 0).isLt; omega⟩
def yOf (i : S2352x128.Idx) : S392x128.Idx := ix2 (⟨(i 0).val % 392, Nat.mod_lt _ (by decide)⟩ : Fin 392) (⟨(i 1).val, (i 1).isLt⟩ : Fin 128)

/-- The whole array the blocks are blocks of. -/
def G (c : Dev nD) : S2352x128.Idx → EReal := fun i => H V c (tOf i) (yOf i)

theorem flushed_eq (c : Dev nD) (t : Fin cfg2.N) :
    (dat (F := Ideal) V c).flushed 4 t = ((cfg2.win 4).blk t).view.read (Elt Ideal) (G V c) := by
  show (cfg2.win 4).cut (grid2.coords t) ((dat (F := Ideal) V c).after 4 t) = _
  rw [after4]
  obtain ⟨e0, e1, -⟩ := idx_facts t
  funext j
  show H V c t j = H V c (tOf (((cfg2.win 4).blk t).view.emb j)) (yOf (((cfg2.win 4).blk t).view.emb j))
  have hj0 : (j 0).val < 392 := (j 0).isLt
  have hj1 : (j 1).val < 128 := (j 1).isLt
  have ht : tOf (((cfg2.win 4).blk t).view.emb j) = t := Fin.ext (by
    show (win2_4.index t (0 : Fin 2) * 392 + 1 * (j 0).val) / 392 = t.val
    omega)
  have hy : yOf (((cfg2.win 4).blk t).view.emb j) = j := by
    funext a
    match a with
    | ⟨0, _⟩ => exact Fin.ext (by show (win2_4.index t (0 : Fin 2) * 392 + 1 * (j 0).val) % 392 = (j 0).val; omega)
    | ⟨1, _⟩ => exact Fin.ext (by show win2_4.index t (1 : Fin 2) * 128 + 1 * (j 1).val = (j 1).val; omega)
  rw [ht, hy]

theorem mem_blk (t : Fin cfg2.N) (i : S2352x128.Idx) :
    i ∈ ((cfg2.win 4).blk t).view.set ↔ ∀ a : Fin 2, win2_4.index t a * S392x128.size a ≤ (i a).val ∧ (i a).val < win2_4.index t a * S392x128.size a + S392x128.size a := by
  show i ∈ ((View.whole main_v73).slice (win2_4.rect t)).set ↔ _
  rw [View.set_slice_whole, Rect.mem_set_unit]
  exact Iff.rfl

/-- The array after the region, at an index. -/
theorem arr_apply (c : Dev nD) (i : S2352x128.Idx) : (dat (F := Ideal) V c).arrAt 4 cfg2.N i = G V c i := by
  have hi0 : (i 0).val < 2352 := (i 0).isLt
  have hi1 : (i 1).val < 128 := (i 1).isLt
  obtain ⟨e0, e1, -⟩ := idx_facts (tOf i)
  refine (dat (F := Ideal) V c).arrAt_apply_of_mem 4 (G V c) (fun t _ => flushed_eq V c t) cfg2.N (tOf i) i (tOf i).isLt (flush2_4 _) ?_
  rw [mem_blk]
  intro a
  match a with
  | ⟨0, _⟩ => show win2_4.index (tOf i) (0 : Fin 2) * 392 ≤ (i 0).val ∧ (i 0).val < win2_4.index (tOf i) (0 : Fin 2) * 392 + 392; rw [e0]; show (i 0).val / 392 * 392 ≤ (i 0).val ∧ (i 0).val < (i 0).val / 392 * 392 + 392; omega
  | ⟨1, _⟩ => show win2_4.index (tOf i) (1 : Fin 2) * 128 ≤ (i 1).val ∧ (i 1).val < win2_4.index (tOf i) (1 : Fin 2) * 128 + 128; omega

end Cert.StageC.KRegion

end
-- ==== Proof.StageCKBlock.lean ====
import proofs.«146356_g2000405529851509_pallasbulk_1335_10_alg».proof.Proof.StageCKRegion

/-!
# A point's block of the third convolution, in terms of the arrays the region reads

Row (i, y, x), channel ch, of what point t writes back is, with r = i · 77 + y · 11 + x + 2: the sum over the five
horizontal taps d of the products of row r + d of block t of the input rows with rows d · 320 … d · 320 + 319 of the
filter matrix, times the scale, plus the shift, clamped below at zero.
-/

set_option maxRecDepth 16384

noncomputable section

namespace Cert.StageC.KBlock

open Cert.KernelIdeal Cert.KernelIdeal.Gen Cert.KernelIdeal.ThirdConv Cert.StageC.KRegion Cert.StageC.KPay
open Idealize.ShloMosaic Idealize.ShloMosaic.TcCoe Idealize.ShloMosaic.ValueIdx Idealize.SL.Sem Cert.Lib.PlainDot

variable (V : (c : Dev nD) → (b : Ref sig .tc) → Buf (Elt Ideal) ((c : Thread nD τ).loc b))

/-- One horizontal tap's sum. -/
def tapSum (A : S6x620x320.Idx → EReal) (Wt : S1600x128.Idx → EReal) (g : Fin 6) (r : Fin 616) (ch : Fin 128)
    (d : Nat) (hd : d ≤ 4) : EReal :=
  ∑ k : Fin 320, A (ix3 g (⟨r.val + d, by omega⟩ : Fin 620) k) * Wt (ix2 (⟨d * 320 + k.val, by omega⟩ : Fin 1600) ch)

/-- Computed row r of block g, channel ch. -/
def kVal (A : S6x620x320.Idx → EReal) (Wt : S1600x128.Idx → EReal) (S T : S1x128.Idx → EReal)
    (g : Fin 6) (r : Fin 616) (ch : Fin 128) : EReal :=
  max ((tapSum A Wt g r ch 0 (by omega) + tapSum A Wt g r ch 1 (by omega) + tapSum A Wt g r ch 2 (by omega)
        + tapSum A Wt g r ch 3 (by omega) + tapSum A Wt g r ch 4 (by omega)) * S (ix2 (0 : Fin 1) ch) + T (ix2 (0 : Fin 1) ch))
    (Scalar.ofBits (F := Ideal) .f32 0x00000000#32)

theorem gOf_lt (t : Fin cfg2.N) : t.val < 6 := lt_of_lt_of_eq t.isLt ((show cfg2.N = grid2.N from rfl).trans N_2)

/-- One tap: the block's rows from d against the filter rows from d · 320. -/
theorem tap_eq (c : Dev nD) (t : Fin cfg2.N) (d : Nat) (hd : d ≤ 4) (o : Nat) (ho : o = d * 320)
    (inb : ∀ a, (![o, 0] : Fin 2 → Nat) a + S320x128.size a ≤ S1600x128.size a) (r : Fin 616) (ch : Fin 128) :
    mm (rowsFrom d hd (View.ld (iblk (F := Ideal) V c 0 t) rIn0))
        (View.ld (iblk (F := Ideal) V c 1 t) (Rect.unit (s := S1600x128) ![o, 0] S320x128.size inb)) (ix2 r ch)
      = tapSum (V c main_v67) (V c main_v70) ⟨t.val, gOf_lt t⟩ r ch d hd := by
  subst ho
  obtain ⟨-, -, e0, e1, e2, f0, f1, -⟩ := idx_facts t
  unfold mm tapSum
  refine Finset.sum_congr rfl fun k _ => ?_
  have hx : rowsFrom d hd (View.ld (iblk (F := Ideal) V c 0 t) rIn0) (rowIdx (ix2 r ch) k)
      = (V c main_v67 : S6x620x320.Idx → EReal) (ix3 (⟨t.val, gOf_lt t⟩ : Fin 6) (⟨r.val + d, by omega⟩ : Fin 620) k) := by
    show (V c main_v67 : S6x620x320.Idx → EReal) (((cfg2.win 0).blk t).view.emb (rIn0.idx (ix3 (0 : Fin 1) (⟨r.val + d, by omega⟩ : Fin 620) (⟨k.val, k.isLt⟩ : Fin 320)))) = _
    refine congrArg _ (funext fun a => Fin.ext ?_)
    match a with
    | ⟨0, _⟩ => show win2_0.index t (0 : Fin 3) * 1 + 1 * (0 + 1 * 0) = t.val; omega
    | ⟨1, _⟩ => show win2_0.index t (1 : Fin 3) * 620 + 1 * (0 + 1 * (r.val + d)) = r.val + d; omega
    | ⟨2, _⟩ => show win2_0.index t (2 : Fin 3) * 320 + 1 * (0 + 1 * k.val) = k.val; omega
  have hw : View.ld (iblk (F := Ideal) V c 1 t) (Rect.unit (s := S1600x128) ![d * 320, 0] S320x128.size inb) (colIdx (ix2 r ch) k)
      = (V c main_v70 : S1600x128.Idx → EReal) (ix2 (⟨d * 320 + k.val, by omega⟩ : Fin 1600) ch) := by
    show (V c main_v70 : S1600x128.Idx → EReal) (((cfg2.win 1).blk t).view.emb ((Rect.unit (s := S1600x128) ![d * 320, 0] S320x128.size inb).idx (ix2 (⟨k.val, k.isLt⟩ : Fin 320) (⟨ch.val, ch.isLt⟩ : Fin 128)))) = _
    refine congrArg _ (funext fun a => Fin.ext ?_)
    match a with
    | ⟨0, _⟩ => show win2_1.index t (0 : Fin 2) * 1600 + 1 * (d * 320 + 1 * k.val) = d * 320 + k.val; omega
    | ⟨1, _⟩ => show win2_1.index t (1 : Fin 2) * 128 + 1 * (0 + 1 * ch.val) = ch.val; omega
  rw [hx, hw]

/-- A one-row input block is the whole one-row array. -/
theorem row_eq2 (c : Dev nD) (t : Fin cfg2.N) (ch : Fin 128) :
    View.ld (iblk (F := Ideal) V c 2 t) rIn2 (ix2 (0 : Fin 1) ch) = (V c main_v71 : S1x128.Idx → EReal) (ix2 (0 : Fin 1) ch) := by
  obtain ⟨-, -, -, -, -, -, -, g0, g1, -⟩ := idx_facts t
  show (V c main_v71 : S1x128.Idx → EReal) (((cfg2.win 2).blk t).view.emb (rIn2.idx (ix2 (0 : Fin 1) ch))) = _
  refine congrArg _ (funext fun a => Fin.ext ?_)
  match a with
  | ⟨0, _⟩ => show win2_2.index t (0 : Fin 2) * 1 + 1 * (0 + 1 * 0) = 0; omega
  | ⟨1, _⟩ => show win2_2.index t (1 : Fin 2) * 128 + 1 * (0 + 1 * ch.val) = ch.val; omega

theorem row_eq3 (c : Dev nD) (t : Fin cfg2.N) (ch : Fin 128) :
    View.ld (iblk (F := Ideal) V c 3 t) rIn3 (ix2 (0 : Fin 1) ch) = (V c main_v72 : S1x128.Idx → EReal) (ix2 (0 : Fin 1) ch) := by
  obtain ⟨-, -, -, -, -, -, -, -, -, g0, g1⟩ := idx_facts t
  show (V c main_v72 : S1x128.Idx → EReal) (((cfg2.win 3).blk t).view.emb (rIn3.idx (ix2 (0 : Fin 1) ch))) = _
  refine congrArg _ (funext fun a => Fin.ext ?_)
  match a with
  | ⟨0, _⟩ => show win2_3.index t (0 : Fin 2) * 1 + 1 * (0 + 1 * 0) = 0; omega
  | ⟨1, _⟩ => show win2_3.index t (1 : Fin 2) * 128 + 1 * (0 + 1 * ch.val) = ch.val; omega

/-- What point t writes back, at block row (i, y, x), channel ch. -/
theorem H_apply (c : Dev nD) (t : Fin cfg2.N) (i : Fin 8) (y x : Fin 7) (ch : Fin 128) :
    H V c t (ix2 (⟨i.val * 49 + y.val * 7 + x.val, by omega⟩ : Fin 392) ch)
      = kVal (V c main_v67) (V c main_v70) (V c main_v71) (V c main_v72) ⟨t.val, gOf_lt t⟩
          (⟨i.val * 77 + y.val * 11 + x.val + 2, by omega⟩ : Fin 616) ch := by
  unfold H outBlock
  rw [View.canon_unit_zero hz2]
  refine (pay1_apply _ i y x ch).trans ?_
  refine (pay2_apply _ _ _ _ _ _ _ _ _ ch).trans ?_
  unfold rowVal kVal
  refine congrArg₂ max ?_ rfl
  refine congrArg₂ (· + ·) (congrArg₂ (· * ·) ?_ (row_eq2 V c t ch)) (row_eq3 V c t ch)
  exact congrArg₂ (· + ·) (congrArg₂ (· + ·) (congrArg₂ (· + ·) (congrArg₂ (· + ·)
    (tap_eq V c t 0 (by omega) 0 rfl _ _ ch) (tap_eq V c t 1 (by omega) 320 rfl _ _ ch))
    (tap_eq V c t 2 (by omega) 640 rfl _ _ ch)) (tap_eq V c t 3 (by omega) 960 rfl _ _ ch))
    (tap_eq V c t 4 (by omega) 1280 rfl _ _ ch)

end Cert.StageC.KBlock

end
-- ==== Proof.StageCKHost.lean ====
import proofs.«146356_g2000405529851509_pallasbulk_1335_10_alg».proof.Proof.Gen.KernelIdeal.Launch
import Idealize.ShloMosaic.Lib.StableHlo.Run
import Idealize.ShloMosaic.Lib.Pipeline.Value
import Idealize.ShloMosaic.Lib.KernelVsHost
import Idealize.ShloMosaic.Lib.ValueIdx

/-!
# The host operations before the third convolution, read at an index (kernel program)

Each stretch of host operations is read over an arbitrary valuation of the buffers before it: the pooled map reshaped
to (image, y, x, channel) and zero-padded to 11 × 11; the five vertical taps laid side by side on the lanes, the rows
regrouped into six blocks of eight images, and two padding rows put before and after each block; the filter matrix
with the horizontal tap moved outermost; the scale and the shift as one-row matrices.
-/

set_option maxRecDepth 16384

noncomputable section

namespace Cert.StageC.KHost

open Cert.KernelIdeal Cert.KernelIdeal.Gen
open Idealize.ShloMosaic Idealize.ShloMosaic.ValueIdx Idealize.ShloMosaic.StableHlo

variable (W : Valuation τ sig (Elt Ideal))

theorem v58_eq : (after (hostOps2 (F := Ideal)) W (Proc.devRef .tc main_v58) : S48x7x7x64.Idx → EReal)
    = shapeCast S48x7x7x64 (W (Proc.devRef .tc main_v57) : S2352x64.Idx → EReal) shapeCasts_S2352x64_S48x7x7x64 := by
  after_results
  rfl

theorem c3_eq : after (hostOps2 (F := Ideal)) W (Proc.devRef .tc main_c_3) = constantI S_ 32 0#32 := by
  after_results

theorem v59_eq : (after (hostOps2_1 (F := Ideal)) W (Proc.devRef .tc main_v59) : S48x11x11x64.Idx → EReal)
    = pad S48x11x11x64 ![0, 2, 2, 0] ![0, 2, 2, 0] ![0, 0, 0, 0] (W (Proc.devRef .tc main_v58) : S48x7x7x64.Idx → EReal)
        (sitofp (F := Ideal) .bf16 (W (Proc.devRef .tc main_c_3) : S_.Idx → BitVec 32)) pads_S48x7x7x64_S48x11x11x64_000_220_220_000 h_S_ := by
  after_results
  rfl

theorem v67_eq : (after (hostOps2_3 (F := Ideal)) W (Proc.devRef .tc main_v67) : S6x620x320.Idx → EReal)
    = pad S6x620x320 ![0, 2, 0] ![0, 2, 0] ![0, 0, 0] (W (Proc.devRef .tc main_v66) : S6x616x320.Idx → EReal)
        (sitofp (F := Ideal) .bf16 (W (Proc.devRef .tc main_c_4) : S_.Idx → BitVec 32)) pads_S6x616x320_S6x620x320_000_220_000 h_S_ := by
  after_results
  rfl

/-- Inside the two padding rows the padded block rows are the block rows. -/
theorem v67_apply (g : Fin 6) (j : Fin 616) (k : Fin 320) :
    (after (hostOps2_3 (F := Ideal)) W (Proc.devRef .tc main_v67) : S6x620x320.Idx → EReal) (ix3 g (⟨j.val + 2, by omega⟩ : Fin 620) k)
      = (W (Proc.devRef .tc main_v66) : S6x616x320.Idx → EReal) (ix3 g j k) := by
  rw [v67_eq]
  exact pad_apply_of_inside _ _ _ _ _ _ _ _ (ix3 g j k)
    (fun a => match a with
      | ⟨0, _⟩ => by show g.val = 0 + g.val * (0 + 1); omega
      | ⟨1, _⟩ => by show j.val + 2 = 2 + j.val * (0 + 1); omega
      | ⟨2, _⟩ => by show k.val = 0 + k.val * (0 + 1); omega)

/-- The filter matrix with the horizontal tap outermost: row dx · 320 + dy · 64 + cin is row (dy · 5 + dx) · 64 + cin
    of the argument. -/
theorem v70_apply (dx dy : Fin 5) (cin : Fin 64) (ch : Fin 128) :
    (after (hostOps2_4 (F := Ideal)) W (Proc.devRef .tc main_v70) : S1600x128.Idx → EReal) (ix2 (⟨dx.val * 320 + dy.val * 64 + cin.val, by omega⟩ : Fin 1600) ch)
      = (W (Proc.devRef .tc main_arg7) : S1600x128.Idx → EReal) (ix2 (⟨(dy.val * 5 + dx.val) * 64 + cin.val, by omega⟩ : Fin 1600) ch) := by
  have e : (after (hostOps2_4 (F := Ideal)) W (Proc.devRef .tc main_v70) : S1600x128.Idx → EReal)
      = shapeCast S1600x128 (transpose S5x5x64x128 [1, 0, 2, 3] (shapeCast S5x5x64x128 (W (Proc.devRef .tc main_arg7) : S1600x128.Idx → EReal) shapeCasts_S1600x128_S5x5x64x128) transposes_S5x5x64x128_S5x5x64x128_1_0_2_3) shapeCasts_S5x5x64x128_S1600x128 := by
    after_results
    rfl
  rw [e]
  refine (shapeCast_apply _ _ _ (ix4 dx dy cin ch)
    (by rw [Shape.rowMajor_val_two, Shape.rowMajor_val_four]
        show ((dx.val * 5 + dy.val) * 64 + cin.val) * 128 + ch.val = (dx.val * 320 + dy.val * 64 + cin.val) * 128 + ch.val
        omega)).trans ?_
  refine (transpose_apply _ _ _ _ (ix4 dy dx cin ch)
    (fun b => match b with | ⟨0, _⟩ => rfl | ⟨1, _⟩ => rfl | ⟨2, _⟩ => rfl | ⟨3, _⟩ => rfl)).trans ?_
  exact shapeCast_apply _ _ _ _
    (by show (S1600x128.rowMajor _).val = (S5x5x64x128.rowMajor _).val
        rw [Shape.rowMajor_val_two, Shape.rowMajor_val_four]
        show ((dy.val * 5 + dx.val) * 64 + cin.val) * 128 + ch.val = ((dy.val * 5 + dx.val) * 64 + cin.val) * 128 + ch.val
        omega)

/-- The scale and the shift as one-row matrices. -/
theorem v71_apply (ch : Fin 128) :
    (after (hostOps2_4 (F := Ideal)) W (Proc.devRef .tc main_v71) : S1x128.Idx → EReal) (ix2 (0 : Fin 1) ch)
      = (W (Proc.devRef .tc main_arg8) : S128.Idx → EReal) (ix1 ch) := by
  have e : (after (hostOps2_4 (F := Ideal)) W (Proc.devRef .tc main_v71) : S1x128.Idx → EReal)
      = shapeCast S1x128 (W (Proc.devRef .tc main_arg8) : S128.Idx → EReal) shapeCasts_S128_S1x128 := by
    after_results
    rfl
  rw [e]
  exact shapeCast_apply _ _ _ _
    (by show (S128.rowMajor _).val = (S1x128.rowMajor _).val
        rw [Shape.rowMajor_val_one, Shape.rowMajor_val_two]
        show ch.val = 0 * 128 + ch.val
        omega)

theorem v72_apply (ch : Fin 128) :
    (after (hostOps2_4 (F := Ideal)) W (Proc.devRef .tc main_v72) : S1x128.Idx → EReal) (ix2 (0 : Fin 1) ch)
      = (W (Proc.devRef .tc main_arg9) : S128.Idx → EReal) (ix1 ch) := by
  have e : (after (hostOps2_4 (F := Ideal)) W (Proc.devRef .tc main_v72) : S1x128.Idx → EReal)
      = shapeCast S1x128 (W (Proc.devRef .tc main_arg9) : S128.Idx → EReal) shapeCasts_S128_S1x128 := by
    after_results
    rfl
  rw [e]
  exact shapeCast_apply _ _ _ _
    (by show (S128.rowMajor _).val = (S1x128.rowMajor _).val
        rw [Shape.rowMajor_val_one, Shape.rowMajor_val_two]
        show ch.val = 0 * 128 + ch.val
        omega)

/-- Five pieces of 64 lanes side by side: lane dy · 64 + cin is lane cin of piece dy. -/
theorem concat5_apply (p : Fin 5 → (S48x7x11x64.Idx → EReal))
    (h : Shape.Concatenates [S48x7x11x64, S48x7x11x64, S48x7x11x64, S48x7x11x64, S48x7x11x64] S48x7x11x320 3)
    (n : Fin 48) (y : Fin 7) (xx : Fin 11) (dy : Fin 5) (cin : Fin 64) :
    concatenate S48x7x11x320 3 [⟨S48x7x11x64, p 0⟩, ⟨S48x7x11x64, p 1⟩, ⟨S48x7x11x64, p 2⟩, ⟨S48x7x11x64, p 3⟩, ⟨S48x7x11x64, p 4⟩] h
        (ix4 n y xx (⟨dy.val * 64 + cin.val, by omega⟩ : Fin 320))
      = p dy (ix4 n y xx cin) :=
  concatenate_ofFn_apply (t := S48x7x11x320) (s₁ := S48x7x11x64) 3 p h rfl 64 rfl (ix4 n y xx (⟨dy.val * 64 + cin.val, by omega⟩ : Fin 320)) dy
    (by show (dy.val * 64 + cin.val) / 64 = dy.val; omega) (ix4 n y xx cin)
    (by show cin.val = (dy.val * 64 + cin.val) % 64; omega)
    (fun b hb => match b with
      | ⟨0, _⟩ => rfl
      | ⟨1, _⟩ => rfl
      | ⟨2, _⟩ => rfl
      | ⟨3, _⟩ => absurd rfl hb)

/-- The block rows with the five vertical taps side by side: row (i, y, x) of block g, lane dy · 64 + cin, is the
    padded map of image g · 8 + i at (y + dy, x), channel cin. -/
theorem v66_apply (g : Fin 6) (i : Fin 8) (y : Fin 7) (xx : Fin 11) (dy : Fin 5) (cin : Fin 64) :
    (after (hostOps2_2 (F := Ideal)) W (Proc.devRef .tc main_v66) : S6x616x320.Idx → EReal)
        (ix3 g (⟨i.val * 77 + y.val * 11 + xx.val, by omega⟩ : Fin 616) (⟨dy.val * 64 + cin.val, by omega⟩ : Fin 320))
      = (W (Proc.devRef .tc main_v59) : S48x11x11x64.Idx → EReal) (ix4 (⟨g.val * 8 + i.val, by omega⟩ : Fin 48) (⟨y.val + dy.val, by omega⟩ : Fin 11) xx cin) := by
  have e : (after (hostOps2_2 (F := Ideal)) W (Proc.devRef .tc main_v66) : S6x616x320.Idx → EReal)
      = shapeCast S6x616x320 (concatenate S48x7x11x320 3
          [⟨S48x7x11x64, extractStridedSlice S48x7x11x64 ![0, 0, 0, 0] (W (Proc.devRef .tc main_v59) : S48x11x11x64.Idx → EReal) slices_S48x11x11x64_S48x7x11x64_0_0_0_0⟩,
           ⟨S48x7x11x64, extractStridedSlice S48x7x11x64 ![0, 1, 0, 0] (W (Proc.devRef .tc main_v59) : S48x11x11x64.Idx → EReal) slices_S48x11x11x64_S48x7x11x64_0_1_0_0⟩,
           ⟨S48x7x11x64, extractStridedSlice S48x7x11x64 ![0, 2, 0, 0] (W (Proc.devRef .tc main_v59) : S48x11x11x64.Idx → EReal) slices_S48x11x11x64_S48x7x11x64_0_2_0_0⟩,
           ⟨S48x7x11x64, extractStridedSlice S48x7x11x64 ![0, 3, 0, 0] (W (Proc.devRef .tc main_v59) : S48x11x11x64.Idx → EReal) slices_S48x11x11x64_S48x7x11x64_0_3_0_0⟩,
           ⟨S48x7x11x64, extractStridedSlice S48x7x11x64 ![0, 4, 0, 0] (W (Proc.devRef .tc main_v59) : S48x11x11x64.Idx → EReal) slices_S48x11x11x64_S48x7x11x64_0_4_0_0⟩]
          concatenates_S48x7x11x64_S48x7x11x64_S48x7x11x64_S48x7x11x64_S48x7x11x64_S48x7x11x320_d3) shapeCasts_S48x7x11x320_S6x616x320 := by
    after_results
    rfl
  rw [e]
  refine (shapeCast_apply _ _ _ (ix4 (⟨g.val * 8 + i.val, by omega⟩ : Fin 48) y xx (⟨dy.val * 64 + cin.val, by omega⟩ : Fin 320))
    (by rw [Shape.rowMajor_val_three, Shape.rowMajor_val_four]
        show (((g.val * 8 + i.val) * 7 + y.val) * 11 + xx.val) * 320 + (dy.val * 64 + cin.val)
          = (g.val * 616 + (i.val * 77 + y.val * 11 + xx.val)) * 320 + (dy.val * 64 + cin.val)
        omega)).trans ?_
  refine (concat5_apply (fun d : Fin 5 => extractStridedSlice S48x7x11x64 ![0, d.val, 0, 0] (W (Proc.devRef .tc main_v59) : S48x11x11x64.Idx → EReal)
      ⟨rfl, fun a => match a with
        | ⟨0, _⟩ => by show 0 + 48 ≤ 48; omega
        | ⟨1, _⟩ => by have := d.isLt; show d.val + 7 ≤ 11; omega
        | ⟨2, _⟩ => by show 0 + 11 ≤ 11; omega
        | ⟨3, _⟩ => by show 0 + 64 ≤ 64; omega⟩) _ _ y xx dy cin).trans ?_
  exact extractStridedSlice_apply _ _ _ _ _
    (fun a => match a with
      | ⟨0, _⟩ => by show g.val * 8 + i.val = 0 + (g.val * 8 + i.val); omega
      | ⟨1, _⟩ => by show y.val + dy.val = dy.val + y.val; omega
      | ⟨2, _⟩ => by show xx.val = 0 + xx.val; omega
      | ⟨3, _⟩ => by show cin.val = 0 + cin.val; omega)

end Cert.StageC.KHost

end
-- ==== Proof.StageCKChain.lean ====
import proofs.«146356_g2000405529851509_pallasbulk_1335_10_alg».proof.Proof.KIWhole
import proofs.«146356_g2000405529851509_pallasbulk_1335_10_alg».proof.Proof.StageCKBlock
import proofs.«146356_g2000405529851509_pallasbulk_1335_10_alg».proof.Proof.StageCKHost

/-!
# The third convolution of the idealized kernel, from the pooled second convolution and the arguments

The region's result array, read at the last valuation, at row (n, y, x) and channel ch is the five-tap value of block
n / 8 at its row (n mod 8) · 77 + y · 11 + x + 2; the block rows it reads are the zero-padded pooled map, the filter
rows are the filter argument's with the horizontal tap outermost, and the scale and shift are the arguments'.
-/

set_option maxRecDepth 16384

noncomputable section

namespace Cert.StageC.KChain

open Cert.KernelIdeal Cert.KernelIdeal.Gen Cert.KernelIdeal.Whole Cert.StageC.KRegion Cert.StageC.KBlock Cert.StageC.KHost
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The result array at the last valuation is what the region's write-backs leave. -/
theorem y3_eq : (V20 m (outs m) c (Proc.devRef .tc main_v73) : S2352x128.Idx → EReal)
    = (ThirdConv.dat (F := Ideal) (atTc (V17 m (O2 m))) c).arrAt 4 cfg2.N :=
  (V20_of m (outs m) c main_v73 (by decide)).trans ((V19_of m (outs m) c main_v73 (by decide)).trans (hF2 m c 4).symm)

/-- The third convolution at row (n, y, x), channel ch. -/
theorem y3_apply (n : Fin 48) (y x : Fin 7) (ch : Fin 128) :
    (V20 m (outs m) c (Proc.devRef .tc main_v73) : S2352x128.Idx → EReal) (ix2 (⟨n.val * 49 + y.val * 7 + x.val, by omega⟩ : Fin 2352) ch)
      = kVal (V17 m (O2 m) c (Proc.devRef .tc main_v67)) (V17 m (O2 m) c (Proc.devRef .tc main_v70))
          (V17 m (O2 m) c (Proc.devRef .tc main_v71)) (V17 m (O2 m) c (Proc.devRef .tc main_v72))
          (⟨n.val / 8, by omega⟩ : Fin 6) (⟨n.val % 8 * 77 + y.val * 11 + x.val + 2, by omega⟩ : Fin 616) ch := by
  rw [y3_eq, arr_apply]
  unfold G
  have ht : tOf (ix2 (⟨n.val * 49 + y.val * 7 + x.val, by omega⟩ : Fin 2352) ch) = ⟨n.val / 8, by rw [show cfg2.N = grid2.N from rfl, N_2]; omega⟩ :=
    Fin.ext (by show (n.val * 49 + y.val * 7 + x.val) / 392 = n.val / 8; omega)
  have hy : yOf (ix2 (⟨n.val * 49 + y.val * 7 + x.val, by omega⟩ : Fin 2352) ch)
      = ix2 (⟨(⟨n.val % 8, by omega⟩ : Fin 8).val * 49 + y.val * 7 + x.val, by show n.val % 8 * 49 + y.val * 7 + x.val < 392; omega⟩ : Fin 392) ch := by
    funext a
    match a with
    | ⟨0, _⟩ => exact Fin.ext (by show (n.val * 49 + y.val * 7 + x.val) % 392 = n.val % 8 * 49 + y.val * 7 + x.val; omega)
    | ⟨1, _⟩ => rfl
  rw [ht, hy]
  exact H_apply (atTc (V17 m (O2 m))) c _ (⟨n.val % 8, by omega⟩ : Fin 8) y x ch

/-- The block rows the region reads are the zero-padded pooled map with the vertical taps on the lanes. -/
theorem rows_apply (g : Fin 6) (i : Fin 8) (y : Fin 7) (xx : Fin 11) (dy : Fin 5) (cin : Fin 64) :
    (V17 m (O2 m) c (Proc.devRef .tc main_v67) : S6x620x320.Idx → EReal)
        (ix3 g (⟨i.val * 77 + y.val * 11 + xx.val + 2, by omega⟩ : Fin 620) (⟨dy.val * 64 + cin.val, by omega⟩ : Fin 320))
      = (V14 m (O2 m) c (Proc.devRef .tc main_v59) : S48x11x11x64.Idx → EReal)
          (ix4 (⟨g.val * 8 + i.val, by omega⟩ : Fin 48) (⟨y.val + dy.val, by omega⟩ : Fin 11) xx cin) := by
  rw [V17_of m (O2 m) c main_v67 (by decide)]
  refine (v67_apply (V15 m (O2 m) c) g (⟨i.val * 77 + y.val * 11 + xx.val, by omega⟩ : Fin 616) (⟨dy.val * 64 + cin.val, by omega⟩ : Fin 320)).trans ?_
  exact v66_apply (V14 m (O2 m) c) g i y xx dy cin

/-- The same, with the row, the lane, the image and the padded row named by their values. -/
theorem rows_apply' (g : Fin 6) (r : Fin 620) (l : Fin 320) (n : Fin 48) (a b : Fin 11) (cin : Fin 64)
    (i : Fin 8) (y : Fin 7) (dy : Fin 5) (hr : r.val = i.val * 77 + y.val * 11 + b.val + 2) (hl : l.val = dy.val * 64 + cin.val)
    (hn : n.val = g.val * 8 + i.val) (ha : a.val = y.val + dy.val) :
    (V17 m (O2 m) c (Proc.devRef .tc main_v67) : S6x620x320.Idx → EReal) (ix3 g r l)
      = (V14 m (O2 m) c (Proc.devRef .tc main_v59) : S48x11x11x64.Idx → EReal) (ix4 n a b cin) := by
  obtain rfl : r = (⟨i.val * 77 + y.val * 11 + b.val + 2, by clear hr hl hn ha; omega⟩ : Fin _) := Fin.ext hr
  obtain rfl : l = (⟨dy.val * 64 + cin.val, by clear hr hl hn ha; omega⟩ : Fin _) := Fin.ext hl
  obtain rfl : n = (⟨g.val * 8 + i.val, by clear hr hl hn ha; omega⟩ : Fin _) := Fin.ext hn
  obtain rfl : a = (⟨y.val + dy.val, by clear hr hl hn ha; omega⟩ : Fin _) := Fin.ext ha
  exact rows_apply m c g i y b dy cin

theorem V16_main_arg7 : V16 m (O2 m) c main_arg7 = m ((c : Thread nD τ).loc main_arg7) :=
  (V16_of m (O2 m) c main_arg7 (by decide)).trans <| (V15_of m (O2 m) c main_arg7 (by decide)).trans <| (V14_of m (O2 m) c main_arg7 (by decide)).trans <| (V13_of m (O2 m) c main_arg7 (by decide)).trans <| (V12_of m (O2 m) c main_arg7 (by decide)).trans <| (V11_of m (O2 m) c main_arg7 (by decide)).trans <| (V10_of m (O2 m) c main_arg7 (by decide)).trans <| (V9_of m (O2 m) c main_arg7 (by decide)).trans <| (V8_of m (O2 m) c main_arg7 (by decide)).trans <| (V7_of m (O2 m) c main_arg7 (by decide)).trans <| (V6_of m (O2 m) c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem V16_main_arg8 : V16 m (O2 m) c main_arg8 = m ((c : Thread nD τ).loc main_arg8) :=
  (V16_of m (O2 m) c main_arg8 (by decide)).trans <| (V15_of m (O2 m) c main_arg8 (by decide)).trans <| (V14_of m (O2 m) c main_arg8 (by decide)).trans <| (V13_of m (O2 m) c main_arg8 (by decide)).trans <| (V12_of m (O2 m) c main_arg8 (by decide)).trans <| (V11_of m (O2 m) c main_arg8 (by decide)).trans <| (V10_of m (O2 m) c main_arg8 (by decide)).trans <| (V9_of m (O2 m) c main_arg8 (by decide)).trans <| (V8_of m (O2 m) c main_arg8 (by decide)).trans <| (V7_of m (O2 m) c main_arg8 (by decide)).trans <| (V6_of m (O2 m) c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem V16_main_arg9 : V16 m (O2 m) c main_arg9 = m ((c : Thread nD τ).loc main_arg9) :=
  (V16_of m (O2 m) c main_arg9 (by decide)).trans <| (V15_of m (O2 m) c main_arg9 (by decide)).trans <| (V14_of m (O2 m) c main_arg9 (by decide)).trans <| (V13_of m (O2 m) c main_arg9 (by decide)).trans <| (V12_of m (O2 m) c main_arg9 (by decide)).trans <| (V11_of m (O2 m) c main_arg9 (by decide)).trans <| (V10_of m (O2 m) c main_arg9 (by decide)).trans <| (V9_of m (O2 m) c main_arg9 (by decide)).trans <| (V8_of m (O2 m) c main_arg9 (by decide)).trans <| (V7_of m (O2 m) c main_arg9 (by decide)).trans <| (V6_of m (O2 m) c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl

/-- The filter rows the region reads, in terms of the filter argument. -/
theorem filt_apply (dx dy : Fin 5) (cin : Fin 64) (ch : Fin 128) :
    (V17 m (O2 m) c (Proc.devRef .tc main_v70) : S1600x128.Idx → EReal) (ix2 (⟨dx.val * 320 + dy.val * 64 + cin.val, by omega⟩ : Fin 1600) ch)
      = (m ((c : Thread nD τ).loc main_arg7) : S1600x128.Idx → EReal) (ix2 (⟨(dy.val * 5 + dx.val) * 64 + cin.val, by omega⟩ : Fin 1600) ch) :=
  (v70_apply (V16 m (O2 m) c) dx dy cin ch).trans (congrFun (V16_main_arg7 m c) _)

theorem filt_apply' (k k' : Fin 1600) (dx dy : Fin 5) (cin : Fin 64) (ch : Fin 128)
    (hk : k.val = dx.val * 320 + dy.val * 64 + cin.val) (hk' : k'.val = (dy.val * 5 + dx.val) * 64 + cin.val) :
    (V17 m (O2 m) c (Proc.devRef .tc main_v70) : S1600x128.Idx → EReal) (ix2 k ch)
      = (m ((c : Thread nD τ).loc main_arg7) : S1600x128.Idx → EReal) (ix2 k' ch) := by
  obtain rfl : k = (⟨dx.val * 320 + dy.val * 64 + cin.val, by clear hk hk'; omega⟩ : Fin _) := Fin.ext hk
  obtain rfl : k' = (⟨(dy.val * 5 + dx.val) * 64 + cin.val, by clear hk hk'; omega⟩ : Fin _) := Fin.ext hk'
  exact filt_apply m c dx dy cin ch

theorem scale_apply (ch : Fin 128) :
    (V17 m (O2 m) c (Proc.devRef .tc main_v71) : S1x128.Idx → EReal) (ix2 (0 : Fin 1) ch)
      = (m ((c : Thread nD τ).loc main_arg8) : S128.Idx → EReal) (ix1 ch) :=
  (v71_apply (V16 m (O2 m) c) ch).trans (congrFun (V16_main_arg8 m c) _)

theorem shift_apply (ch : Fin 128) :
    (V17 m (O2 m) c (Proc.devRef .tc main_v72) : S1x128.Idx → EReal) (ix2 (0 : Fin 1) ch)
      = (m ((c : Thread nD τ).loc main_arg9) : S128.Idx → EReal) (ix1 ch) :=
  (v72_apply (V16 m (O2 m) c) ch).trans (congrFun (V16_main_arg9 m c) _)

/-- The pooled second convolution at the last valuation is the second region's result. -/
theorem p2_eq : V20 m (outs m) c (Proc.devRef .tc main_v57) = V12 m (O2 m) c (Proc.devRef .tc main_v57) :=
  (V20_of m (outs m) c main_v57 (by decide)).trans <| (V19_of m (outs m) c main_v57 (by decide)).trans <| (V18_of m (outs m) c main_v57 (by decide)).trans <| (V17_of m (outs m) c main_v57 (by decide)).trans <| (V16_of m (outs m) c main_v57 (by decide)).trans <| (V15_of m (outs m) c main_v57 (by decide)).trans <| (V14_of m (outs m) c main_v57 (by decide)).trans <| (V13_of m (outs m) c main_v57 (by decide)).trans rfl

/-- The zero-padded pooled map, from the pooled second convolution. -/
theorem padded_eq : (V14 m (O2 m) c (Proc.devRef .tc main_v59) : S48x11x11x64.Idx → EReal)
    = pad S48x11x11x64 ![0, 2, 2, 0] ![0, 2, 2, 0] ![0, 0, 0, 0]
        (shapeCast S48x7x7x64 (V20 m (outs m) c (Proc.devRef .tc main_v57) : S2352x64.Idx → EReal) shapeCasts_S2352x64_S48x7x7x64)
        (sitofp (F := Ideal) .bf16 (constantI S_ 32 0#32)) pads_S48x7x7x64_S48x11x11x64_000_220_220_000 h_S_ := by
  rw [p2_eq]
  refine (v59_eq (V13 m (O2 m) c)).trans ?_
  have hc : V13 m (O2 m) c (Proc.devRef .tc main_c_3) = constantI S_ 32 0#32 := c3_eq (V12 m (O2 m) c)
  have hv : (V13 m (O2 m) c (Proc.devRef .tc main_v58) : S48x7x7x64.Idx → EReal)
      = shapeCast S48x7x7x64 (V12 m (O2 m) c (Proc.devRef .tc main_v57) : S2352x64.Idx → EReal) shapeCasts_S2352x64_S48x7x7x64 := v58_eq (V12 m (O2 m) c)
  rw [hc, hv]

end Cert.StageC.KChain

end
-- ==== Proof.StageCRPad.lean ====
import proofs.«146356_g2000405529851509_pallasbulk_1335_10_alg».proof.Proof.RIWhole
import Idealize.ShloMosaic.Lib.StableHlo.Run
import Idealize.ShloMosaic.Lib.ValueIdx

/-!
# The reference's zero-padded pooled map, from its pooled second convolution

At the last valuation the 11 × 11 padded map is the pad, by two rows and columns of the converted integer zero on
every side, of the pooled second convolution as the last valuation holds it.
-/

set_option maxRecDepth 16384

noncomputable section

namespace Cert.StageC.RPad

open Cert.ReferenceIdeal Cert.ReferenceIdeal.Gen Cert.ReferenceIdeal.Whole
open Idealize.ShloMosaic Idealize.ShloMosaic.TcCoe Idealize.ShloMosaic.ValueIdx Idealize.SL.Sem Idealize.ShloMosaic.StableHlo

theorem c3_eq (W : Valuation τ sig (Elt Ideal)) : after (hostOps2 (F := Ideal)) W (Proc.devRef .tc main_c_3) = constantI S_ 32 0#32 := by
  after_results

theorem v78_keep (W : Valuation τ sig (Elt Ideal)) : after (hostOps2_1 (F := Ideal)) W (Proc.devRef .tc main_v78) = W (Proc.devRef .tc main_v78) := by
  after_results

theorem v79_eq (W : Valuation τ sig (Elt Ideal)) : (after (hostOps2_1 (F := Ideal)) W (Proc.devRef .tc main_v79) : S48x11x11x64.Idx → EReal)
    = pad S48x11x11x64 ![0, 2, 2, 0] ![0, 2, 2, 0] ![0, 0, 0, 0] (W (Proc.devRef .tc main_v78) : S48x7x7x64.Idx → EReal)
        (sitofp (F := Ideal) .bf16 (W (Proc.devRef .tc main_c_3) : S_.Idx → BitVec 32)) pads_S48x7x7x64_S48x11x11x64_000_220_220_000 h_S_ := by
  after_results
  rfl

variable (m : (ℓ : Loc nD τ sig) → Buf (Elt Ideal) ℓ) (c : Dev nD)

/-- Neither buffer is written after the stretch that makes it. -/
theorem v79_last : V21 m (outs m) c (Proc.devRef .tc main_v79) = V12 m (outs m) c (Proc.devRef .tc main_v79) :=
  (V21_of m (outs m) c main_v79 (by decide)).trans <| (V20_of m (outs m) c main_v79 (by decide)).trans <| (V19_of m (outs m) c main_v79 (by decide)).trans <| (V18_of m (outs m) c main_v79 (by decide)).trans <| (V17_of m (outs m) c main_v79 (by decide)).trans <| (V16_of m (outs m) c main_v79 (by decide)).trans <| (V15_of m (outs m) c main_v79 (by decide)).trans <| (V14_of m (outs m) c main_v79 (by decide)).trans <| (V13_of m (outs m) c main_v79 (by decide)).trans rfl
theorem v78_last : V21 m (outs m) c (Proc.devRef .tc main_v78) = V11 m (outs m) c (Proc.devRef .tc main_v78) :=
  (V21_of m (outs m) c main_v78 (by decide)).trans <| (V20_of m (outs m) c main_v78 (by decide)).trans <| (V19_of m (outs m) c main_v78 (by decide)).trans <| (V18_of m (outs m) c main_v78 (by decide)).trans <| (V17_of m (outs m) c main_v78 (by decide)).trans <| (V16_of m (outs m) c main_v78 (by decide)).trans <| (V15_of m (outs m) c main_v78 (by decide)).trans <| (V14_of m (outs m) c main_v78 (by decide)).trans <| (V13_of m (outs m) c main_v78 (by decide)).trans <| (V12_of m (outs m) c main_v78 (by decide)).trans rfl

/-- The zero-padded pooled map, from the pooled second convolution. -/
theorem padded_eq : (V21 m (outs m) c (Proc.devRef .tc main_v79) : S48x11x11x64.Idx → EReal)
    = pad S48x11x11x64 ![0, 2, 2, 0] ![0, 2, 2, 0] ![0, 0, 0, 0]
        (V21 m (outs m) c (Proc.devRef .tc main_v78) : S48x7x7x64.Idx → EReal)
        (sitofp (F := Ideal) .bf16 (constantI S_ 32 0#32)) pads_S48x7x7x64_S48x11x11x64_000_220_220_000 h_S_ := by
  rw [v79_last, v78_last]
  refine (v79_eq (V11 m (outs m) c)).trans ?_
  have hc : V11 m (outs m) c (Proc.devRef .tc main_c_3) = constantI S_ 32 0#32 := c3_eq (V10 m (outs m) c)
  rw [hc]

end Cert.StageC.RPad

end
-- ==== Proof.StageCPadAgree.lean ====
import proofs.«146356_g2000405529851509_pallasbulk_1335_10_alg».proof.Proof.Bridge
import proofs.«146356_g2000405529851509_pallasbulk_1335_10_alg».proof.Proof.StageCKChain
import proofs.«146356_g2000405529851509_pallasbulk_1335_10_alg».proof.Proof.StageCRPad

/-!
# The two zero-padded pooled maps are equal

Both programs pad the pooled second convolution with two rows and columns of the converted integer zero on every side.
The kernel first regroups its rows (image, y, x) into the four-axis array; given that the two pooled maps correspond,
that array is the reference's, so the two padded maps are equal.
-/

set_option maxRecDepth 16384

noncomputable section

namespace Cert.Bridge

open Idealize.ShloMosaic Idealize.ShloMosaic.ValueIdx Idealize.SL.Sem Cert.StageC

/-- Padding equal arrays with one value gives equal arrays. -/
theorem pad_congr {α : Type} {s t u : Shape} (lo hi interior : Fin s.rank → Nat) (x x' : s.Idx → α) (v : u.Idx → α)
    (h h' : s.Pads lo hi interior t) (hu hu' : 0 < u.numel) (e : x = x') :
    pad t lo hi interior x v h hu = pad t lo hi interior x' v h' hu' := by
  subst e; rfl

/-- The kernel's pooled map, regrouped, is the reference's. -/
theorem pooled_agree (m : KMem) (m' : RMem) (c : Dev Cert.KernelIdeal.nD) (h2 : Rel2 m m' c)
    (hsc : Cert.KernelIdeal.S2352x64.ShapeCasts Cert.KernelIdeal.S48x7x7x64) :
    shapeCast Cert.KernelIdeal.S48x7x7x64 (Cert.KernelIdeal.Gen.V20 m (Cert.KernelIdeal.Whole.outs m) c (Proc.devRef .tc Cert.KernelIdeal.main_v57) : Cert.KernelIdeal.S2352x64.Idx → EReal) hsc
      = (Cert.ReferenceIdeal.Gen.V21 m' (Cert.ReferenceIdeal.Whole.outs m') c (Proc.devRef .tc Cert.ReferenceIdeal.main_v78) : Cert.ReferenceIdeal.S48x7x7x64.Idx → EReal) := by
  funext j
  obtain ⟨n, py, px, ch, rfl⟩ : ∃ (n : Fin 48) (py px : Fin 7) (ch : Fin 64), j = ix4 n py px ch := ⟨j 0, j 1, j 2, j 3, eq_ix4 j⟩
  refine (shapeCast_apply _ _ _ (ix2 (⟨n.val * 49 + py.val * 7 + px.val, by omega⟩ : Fin 2352) ch)
    (by show (Cert.KernelIdeal.S2352x64.rowMajor _).val = (Cert.KernelIdeal.S48x7x7x64.rowMajor _).val
        rw [Shape.rowMajor_val_two, Shape.rowMajor_val_four]
        show (n.val * 49 + py.val * 7 + px.val) * 64 + ch.val = ((n.val * 7 + py.val) * 7 + px.val) * 64 + ch.val
        omega)).trans ?_
  exact (h2 n py px ch).symm

end Cert.Bridge

end
-- ==== Proof.StageCLaw.lean ====
/-
  The 1600 products of a 5 × 5 × 64 filter window, regrouped by the horizontal tap.

  The window's products are listed with the vertical tap outermost: position (dy · 5 + dx) · 64 + cin. Summed instead
  as five sums of 320, one per horizontal tap dx, each over the positions dy · 64 + cin, the total is the same: only
  commutativity and associativity of addition are used, so the statement holds in any additive commutative monoid, the
  extended reals included.
-/
import proofs.«146356_g2000405529851509_pallasbulk_1335_10_alg».proof.Proof.LibBlockSum

namespace Cert.StageC.Law

open Finset Cert.Lib.BlockSum

/-- A sum over the 1600 window positions is the sum over the five horizontal taps of the sums over each tap's 320. -/
theorem regroup {M : Type*} [AddCommMonoid M] (f : Fin 1600 → M) (g : Fin 5 → Fin 320 → M)
    (h : ∀ (dy dx : Fin 5) (cin : Fin 64),
      f ⟨(dy.val * 5 + dx.val) * 64 + cin.val, by omega⟩ = g dx ⟨dy.val * 64 + cin.val, by omega⟩) :
    ∑ k, f k = (∑ k, g 0 k) + (∑ k, g 1 k) + (∑ k, g 2 k) + (∑ k, g 3 k) + (∑ k, g 4 k) := by
  have e1 : ∑ k, f k = ∑ dy : Fin 5, ∑ dx : Fin 5, ∑ cin : Fin 64, g dx ⟨dy.val * 64 + cin.val, by omega⟩ := by
    rw [sum_blocks 25 64 f, sum_blocks 5 5 (fun b : Fin (5 * 5) => ∑ j : Fin 64, f (pos 25 64 b j))]
    refine Finset.sum_congr rfl fun dy _ => Finset.sum_congr rfl fun dx _ => ?_
    show ∑ cin : Fin 64, f (pos 25 64 (pos 5 5 dy dx) cin) = _
    refine Finset.sum_congr rfl fun cin _ => ?_
    rw [← h dy dx cin]
    exact congrArg f (Fin.ext rfl)
  have e2 : ∀ dx : Fin 5, ∑ k, g dx k = ∑ dy : Fin 5, ∑ cin : Fin 64, g dx ⟨dy.val * 64 + cin.val, by omega⟩ := fun dx => by
    rw [sum_blocks 5 64 (g dx)]
    refine Finset.sum_congr rfl fun dy _ => Finset.sum_congr rfl fun cin _ => ?_
    exact congrArg (g dx) (Fin.ext rfl)
  rw [e1, Finset.sum_comm, Fin.sum_univ_five, e2 0, e2 1, e2 2, e2 3, e2 4]

end Cert.StageC.Law
-- ==== Proof.StageCCore.lean ====
import proofs.«146356_g2000405529851509_pallasbulk_1335_10_alg».proof.Proof.StageCKBlock
import proofs.«146356_g2000405529851509_pallasbulk_1335_10_alg».proof.Proof.StageCLaw

/-!
# The third stage over abstract arrays

With the arrays of both programs as variables: if the reference's feature is the clamped, scaled and shifted product
of a patch row with the filter, the patch row's entries are entries of a padded map, the kernel's value is the clamped,
scaled and shifted sum of five tap sums over block rows that are entries of the same padded map, and the kernel's
filter rows are the reference's regrouped by horizontal tap, then the two values are equal: the 1600 products are the
same, and the sums agree by commutativity and associativity of addition.
-/

set_option maxRecDepth 16384

noncomputable section

namespace Cert.StageC.Core

open Idealize.ShloMosaic Idealize.ShloMosaic.ValueIdx Cert.Lib.PlainDot Cert.StageC.KBlock

variable (A : (⟨2, ![2368, 1600]⟩ : Shape).Idx → EReal) (W7 : (⟨2, ![1600, 128]⟩ : Shape).Idx → EReal)
  (X : (⟨3, ![6, 620, 320]⟩ : Shape).Idx → EReal) (W70 : (⟨2, ![1600, 128]⟩ : Shape).Idx → EReal)
  (P : (⟨4, ![48, 11, 11, 64]⟩ : Shape).Idx → EReal)

/-- The product sums agree. -/
theorem sums_eq (n : Fin 48) (y x : Fin 7) (ch : Fin 128)
    (hA : ∀ (dy dx : Fin 5) (cin : Fin 64),
      A (ix2 (⟨n.val * 49 + y.val * 7 + x.val, by omega⟩ : Fin 2368) (⟨(dy.val * 5 + dx.val) * 64 + cin.val, by omega⟩ : Fin 1600))
        = P (ix4 n (⟨y.val + dy.val, by omega⟩ : Fin 11) (⟨x.val + dx.val, by omega⟩ : Fin 11) cin))
    (hX : ∀ (g : Fin 6) (r : Fin 620) (l : Fin 320) (n' : Fin 48) (a b : Fin 11) (cin : Fin 64) (i : Fin 8) (y' : Fin 7) (dy : Fin 5),
      r.val = i.val * 77 + y'.val * 11 + b.val + 2 → l.val = dy.val * 64 + cin.val → n'.val = g.val * 8 + i.val → a.val = y'.val + dy.val →
      X (ix3 g r l) = P (ix4 n' a b cin))
    (hW : ∀ (k k' : Fin 1600) (dx dy : Fin 5) (cin : Fin 64) (ch : Fin 128),
      k.val = dx.val * 320 + dy.val * 64 + cin.val → k'.val = (dy.val * 5 + dx.val) * 64 + cin.val →
      W70 (ix2 k ch) = W7 (ix2 k' ch)) :
    mm A W7 (ix2 (⟨n.val * 49 + y.val * 7 + x.val, by omega⟩ : Fin 2368) ch)
      = tapSum X W70 (⟨n.val / 8, by omega⟩ : Fin 6) (⟨n.val % 8 * 77 + y.val * 11 + x.val + 2, by omega⟩ : Fin 616) ch 0 (by omega)
        + tapSum X W70 (⟨n.val / 8, by omega⟩ : Fin 6) (⟨n.val % 8 * 77 + y.val * 11 + x.val + 2, by omega⟩ : Fin 616) ch 1 (by omega)
        + tapSum X W70 (⟨n.val / 8, by omega⟩ : Fin 6) (⟨n.val % 8 * 77 + y.val * 11 + x.val + 2, by omega⟩ : Fin 616) ch 2 (by omega)
        + tapSum X W70 (⟨n.val / 8, by omega⟩ : Fin 6) (⟨n.val % 8 * 77 + y.val * 11 + x.val + 2, by omega⟩ : Fin 616) ch 3 (by omega)
        + tapSum X W70 (⟨n.val / 8, by omega⟩ : Fin 6) (⟨n.val % 8 * 77 + y.val * 11 + x.val + 2, by omega⟩ : Fin 616) ch 4 (by omega) := by
  unfold mm tapSum
  refine Law.regroup
    (fun k : Fin 1600 => A (ix2 (⟨n.val * 49 + y.val * 7 + x.val, by omega⟩ : Fin 2368) k) * W7 (ix2 k ch))
    (fun (dx : Fin 5) (k : Fin 320) =>
      X (ix3 (⟨n.val / 8, by omega⟩ : Fin 6) (⟨n.val % 8 * 77 + y.val * 11 + x.val + 2 + dx.val, by omega⟩ : Fin 620) k)
        * W70 (ix2 (⟨dx.val * 320 + k.val, by omega⟩ : Fin 1600) ch))
    (fun dy dx cin => ?_)
  show A _ * W7 _ = X _ * W70 _
  rw [hA dy dx cin,
    hX (⟨n.val / 8, by omega⟩ : Fin 6) _ _ n (⟨y.val + dy.val, by omega⟩ : Fin 11) (⟨x.val + dx.val, by omega⟩ : Fin 11) cin
      (⟨n.val % 8, by omega⟩ : Fin 8) y dy
      (by show n.val % 8 * 77 + y.val * 11 + x.val + 2 + dx.val = n.val % 8 * 77 + y.val * 11 + (x.val + dx.val) + 2; omega)
      rfl (by show n.val = n.val / 8 * 8 + n.val % 8; omega) rfl,
    hW _ (⟨(dy.val * 5 + dx.val) * 64 + cin.val, by omega⟩ : Fin 1600) dx dy cin ch
      (by show dx.val * 320 + (dy.val * 64 + cin.val) = dx.val * 320 + dy.val * 64 + cin.val; omega) rfl]

/-- The two values agree. -/
theorem vals_eq (S T : (⟨1, ![128]⟩ : Shape).Idx → EReal) (S71 T72 : (⟨2, ![1, 128]⟩ : Shape).Idx → EReal)
    (n : Fin 48) (y x : Fin 7) (ch : Fin 128)
    (hA : ∀ (dy dx : Fin 5) (cin : Fin 64),
      A (ix2 (⟨n.val * 49 + y.val * 7 + x.val, by omega⟩ : Fin 2368) (⟨(dy.val * 5 + dx.val) * 64 + cin.val, by omega⟩ : Fin 1600))
        = P (ix4 n (⟨y.val + dy.val, by omega⟩ : Fin 11) (⟨x.val + dx.val, by omega⟩ : Fin 11) cin))
    (hX : ∀ (g : Fin 6) (r : Fin 620) (l : Fin 320) (n' : Fin 48) (a b : Fin 11) (cin : Fin 64) (i : Fin 8) (y' : Fin 7) (dy : Fin 5),
      r.val = i.val * 77 + y'.val * 11 + b.val + 2 → l.val = dy.val * 64 + cin.val → n'.val = g.val * 8 + i.val → a.val = y'.val + dy.val →
      X (ix3 g r l) = P (ix4 n' a b cin))
    (hW : ∀ (k k' : Fin 1600) (dx dy : Fin 5) (cin : Fin 64) (ch : Fin 128),
      k.val = dx.val * 320 + dy.val * 64 + cin.val → k'.val = (dy.val * 5 + dx.val) * 64 + cin.val →
      W70 (ix2 k ch) = W7 (ix2 k' ch))
    (hS : S71 (ix2 (0 : Fin 1) ch) = S (ix1 ch)) (hT : T72 (ix2 (0 : Fin 1) ch) = T (ix1 ch)) :
    max (mm A W7 (ix2 (⟨n.val * 49 + y.val * 7 + x.val, by omega⟩ : Fin 2368) ch) * S (ix1 ch) + T (ix1 ch))
        (Scalar.ofBits (F := Ideal) .f32 0x00000000#32)
      = kVal X W70 S71 T72 (⟨n.val / 8, by omega⟩ : Fin 6) (⟨n.val % 8 * 77 + y.val * 11 + x.val + 2, by omega⟩ : Fin 616) ch := by
  unfold kVal
  rw [hS, hT, sums_eq A W7 X W70 P n y x ch hA hX hW]

end Cert.StageC.Core

end
-- ==== Proof.StageCFinal.lean ====
import proofs.«146356_g2000405529851509_pallasbulk_1335_10_alg».proof.Proof.Bridge
import proofs.«146356_g2000405529851509_pallasbulk_1335_10_alg».proof.Proof.StageCKChain
import proofs.«146356_g2000405529851509_pallasbulk_1335_10_alg».proof.Proof.StageCRPad
import proofs.«146356_g2000405529851509_pallasbulk_1335_10_alg».proof.Proof.StageCPadAgree
import proofs.«146356_g2000405529851509_pallasbulk_1335_10_alg».proof.Proof.StageCCore

/-!
# The third stage: the flattened features of the reference are the kernel's third convolution, transposed

Both programs pad the pooled second convolution with two rows and columns of zeros; given that the two pooled maps
correspond, the two padded maps are equal. The reference multiplies each row of 1600 window entries, vertical tap
outermost, with the filter matrix; the kernel adds five products of 320, one per horizontal tap, of the rows shifted by
the tap with the filter rows regrouped by that tap. Entry by entry these are the same 1600 products, so the sums are
equal; scale, shift and clamp are the same on both sides; and the reference's transposition to (channel, y, x) columns
reads the kernel's row (image, y, x) at the channel.
-/

set_option maxRecDepth 16384

noncomputable section

namespace Cert.Bridge

open Idealize.ShloMosaic Idealize.ShloMosaic.ValueIdx Idealize.SL.Sem Cert.Lib.PlainDot Cert.StageC

/-- The two zero-padded pooled maps are equal when the pooled maps correspond. -/
theorem padded_agree (m : KMem) (m' : RMem) (c : Dev Cert.KernelIdeal.nD) (h2 : Rel2 m m' c) :
    (Cert.KernelIdeal.Gen.V14 m (Cert.KernelIdeal.Whole.O2 m) c (Proc.devRef .tc Cert.KernelIdeal.main_v59) : Cert.KernelIdeal.S48x11x11x64.Idx → EReal)
      = (Cert.ReferenceIdeal.Gen.V21 m' (Cert.ReferenceIdeal.Whole.outs m') c (Proc.devRef .tc Cert.ReferenceIdeal.main_v79) : Cert.ReferenceIdeal.S48x11x11x64.Idx → EReal) :=
  (KChain.padded_eq m c).trans ((pad_congr _ _ _ _ _ _ _ _ _ _ (pooled_agree m m' c h2 _)).trans (RPad.padded_eq m' c).symm)

/-- The third stage, from the reference's two reads. -/
theorem stage3_of (m : KMem) (m' : RMem) (hag : Agree m m') (c : Dev Cert.KernelIdeal.nD) (h2 : Rel2 m m' c)
    (G1 : ∀ (n : Fin 48) (ch : Fin 128) (y x : Fin 7),
      rFeat m' c (ix2 n (⟨ch.val * 49 + y.val * 7 + x.val, by omega⟩ : Fin 6272))
        = max (mm (Cert.ReferenceIdeal.Gen.V21 m' (Cert.ReferenceIdeal.Whole.outs m') c (Proc.devRef .tc Cert.ReferenceIdeal.main_v109) : Cert.ReferenceIdeal.S2368x1600.Idx → EReal)
                  (m' ((c.tc : Thread Cert.ReferenceIdeal.nD Cert.ReferenceIdeal.τ).loc Cert.ReferenceIdeal.main_arg7) : Cert.ReferenceIdeal.S1600x128.Idx → EReal)
                  (ix2 (⟨n.val * 49 + y.val * 7 + x.val, by omega⟩ : Fin 2368) ch)
                * (m' ((c.tc : Thread Cert.ReferenceIdeal.nD Cert.ReferenceIdeal.τ).loc Cert.ReferenceIdeal.main_arg8) : Cert.ReferenceIdeal.S128.Idx → EReal) (ix1 ch)
                + (m' ((c.tc : Thread Cert.ReferenceIdeal.nD Cert.ReferenceIdeal.τ).loc Cert.ReferenceIdeal.main_arg9) : Cert.ReferenceIdeal.S128.Idx → EReal) (ix1 ch))
            (Scalar.ofBits (F := Ideal) .f32 0x00000000#32))
    (G2 : ∀ (n : Fin 48) (y x : Fin 7) (dy dx : Fin 5) (cin : Fin 64),
      (Cert.ReferenceIdeal.Gen.V21 m' (Cert.ReferenceIdeal.Whole.outs m') c (Proc.devRef .tc Cert.ReferenceIdeal.main_v109) : Cert.ReferenceIdeal.S2368x1600.Idx → EReal)
          (ix2 (⟨n.val * 49 + y.val * 7 + x.val, by omega⟩ : Fin 2368) (⟨(dy.val * 5 + dx.val) * 64 + cin.val, by omega⟩ : Fin 1600))
        = (Cert.ReferenceIdeal.Gen.V21 m' (Cert.ReferenceIdeal.Whole.outs m') c (Proc.devRef .tc Cert.ReferenceIdeal.main_v79) : Cert.ReferenceIdeal.S48x11x11x64.Idx → EReal)
            (ix4 n (⟨y.val + dy.val, by omega⟩ : Fin 11) (⟨x.val + dx.val, by omega⟩ : Fin 11) cin)) :
    Rel3 m m' c := by
  intro n ch y x
  obtain ⟨-, -, -, -, -, -, -, a7, a8, a9, -⟩ := hag c
  have hP := padded_agree m m' c h2
  refine (G1 n ch y x).trans ?_
  refine Eq.trans ?_ (KChain.y3_apply m c n y x ch).symm
  rw [a7, a8, a9]
  refine Core.vals_eq _ _ _ _
    (Cert.ReferenceIdeal.Gen.V21 m' (Cert.ReferenceIdeal.Whole.outs m') c (Proc.devRef .tc Cert.ReferenceIdeal.main_v79) : Cert.ReferenceIdeal.S48x11x11x64.Idx → EReal)
    _ _ _ _ n y x ch (G2 n y x) ?_ (KChain.filt_apply' m c) (KChain.scale_apply m c ch) (KChain.shift_apply m c ch)
  intro g r l n' a b cin i y' dy hr hl hn ha
  rw [← hP]
  exact KChain.rows_apply' m c g r l n' a b cin i y' dy hr hl hn ha

end Cert.Bridge

end
-- ==== Proof.StageGTail.lean ====
import proofs.«146356_g2000405529851509_pallasbulk_1335_10_alg».proof.Proof.Bridge
import Idealize.ShloMosaic.Lib.StableHlo.Run
import Idealize.ShloMosaic.Lib.Pipeline.Value
import Idealize.ShloMosaic.Lib.KernelVsHost

/-!
# The reference's flattened features are the third product's array, transposed

After its third matrix product the reference drops the sixteen appended rows, views the 2352 rows as
(image, y, x), moves the channel axis in front of the two position axes and flattens each image to 6272 columns;
a pad by nothing and a change of format (the identity at the ideal values) follow. So feature column
channel · 49 + y · 7 + x of image n is the product's entry at row n · 49 + y · 7 + x, that channel.
-/

noncomputable section

namespace Cert.StageC.Ref

open Cert.ReferenceIdeal Cert.ReferenceIdeal.Gen Cert.Bridge
open Idealize.ShloMosaic Idealize.ShloMosaic.ValueIdx Idealize.SL.Sem Idealize.ShloMosaic.TcCoe

/-- The layout operations after the third product, read at one feature. -/
theorem tail_apply (A : S2368x128.Idx → EReal) (z : S_.Idx → EReal) (n : Fin 48) (ch : Fin 128) (y x : Fin 7) :
    pad S48x6272 ![0, 0] ![0, 0] ![0, 0]
        (shapeCast S48x6272
          (transpose S48x128x7x7 [0, 3, 1, 2]
            (shapeCast S48x7x7x128 (extractStridedSlice S2352x128 ![0, 0] A slices_S2368x128_S2352x128_0_0)
              shapeCasts_S2352x128_S48x7x7x128)
            transposes_S48x7x7x128_S48x128x7x7_0_3_1_2)
          shapeCasts_S48x128x7x7_S48x6272)
        z pads_S48x6272_S48x6272_000_000 h_S_
        (ix2 n (⟨ch.val * 49 + y.val * 7 + x.val, by omega⟩ : Fin 6272))
      = A (ix2 (⟨n.val * 49 + y.val * 7 + x.val, by omega⟩ : Fin 2368) ch) := by
  refine (pad_apply_of_inside _ _ _ _ z pads_S48x6272_S48x6272_000_000 h_S_
    (ix2 n (⟨ch.val * 49 + y.val * 7 + x.val, by omega⟩ : Fin 6272))
    (ix2 n (⟨ch.val * 49 + y.val * 7 + x.val, by omega⟩ : Fin 6272)) (fun a => ?_)).trans ?_
  · match a with
    | ⟨0, _⟩ => show n.val = 0 + n.val * (0 + 1); omega
    | ⟨1, _⟩ => show ch.val * 49 + y.val * 7 + x.val = 0 + (ch.val * 49 + y.val * 7 + x.val) * (0 + 1); omega
  refine (shapeCast_apply _ shapeCasts_S48x128x7x7_S48x6272
    (ix2 n (⟨ch.val * 49 + y.val * 7 + x.val, by omega⟩ : Fin 6272)) (ix4 n ch y x) ?_).trans ?_
  · rw [Shape.rowMajor_val_four, Shape.rowMajor_val_two]
    show ((n.val * 128 + ch.val) * 7 + y.val) * 7 + x.val = n.val * 6272 + (ch.val * 49 + y.val * 7 + x.val)
    omega
  refine (transpose_apply [0, 3, 1, 2] _ transposes_S48x7x7x128_S48x128x7x7_0_3_1_2 (ix4 n ch y x) (ix4 n y x ch)
    (fun b => ?_)).trans ?_
  · match b with
    | ⟨0, _⟩ => rfl
    | ⟨1, _⟩ => rfl
    | ⟨2, _⟩ => rfl
    | ⟨3, _⟩ => rfl
  refine (shapeCast_apply _ shapeCasts_S2352x128_S48x7x7x128 (ix4 n y x ch)
    (ix2 (⟨n.val * 49 + y.val * 7 + x.val, by omega⟩ : Fin 2352) ch) ?_).trans ?_
  · rw [Shape.rowMajor_val_four, Shape.rowMajor_val_two]
    show (n.val * 49 + y.val * 7 + x.val) * 128 + ch.val = ((n.val * 7 + y.val) * 7 + x.val) * 128 + ch.val
    omega
  refine extractStridedSlice_apply _ A slices_S2368x128_S2352x128_0_0
    (ix2 (⟨n.val * 49 + y.val * 7 + x.val, by omega⟩ : Fin 2352) ch)
    (ix2 (⟨n.val * 49 + y.val * 7 + x.val, by omega⟩ : Fin 2368) ch) (fun a => ?_)
  match a with
  | ⟨0, _⟩ => show n.val * 49 + y.val * 7 + x.val = 0 + (n.val * 49 + y.val * 7 + x.val); omega
  | ⟨1, _⟩ => show ch.val = 0 + ch.val; omega

variable (m' : RMem) (c : Dev Cert.ReferenceIdeal.nD)

/-- Feature column channel · 49 + y · 7 + x of image n is the third product's entry at row n · 49 + y · 7 + x. -/
theorem feat_tail (n : Fin 48) (ch : Fin 128) (y x : Fin 7) :
    rFeat m' c (ix2 n (⟨ch.val * 49 + y.val * 7 + x.val, by omega⟩ : Fin 6272))
      = (V16 m' (Whole.outs m') c (Proc.devRef .tc main_v112) : S2368x128.Idx → EReal)
          (ix2 (⟨n.val * 49 + y.val * 7 + x.val, by omega⟩ : Fin 2368) ch) := by
  have h1 := V21_of m' (Whole.outs m') c main_v118 (by decide)
  have h2 := V20_of m' (Whole.outs m') c main_v118 (by decide)
  show (V21 m' (Whole.outs m') c main_v118 : S48x6272.Idx → EReal) _ = _
  rw [h1, h2]
  dsimp only [V19, hostOps3_2]
  after_results
  dsimp only [V18, hostOps3_1]
  exact tail_apply _ _ n ch y x

end Cert.StageC.Ref

end
-- ==== Proof.StageCRPay.lean ====
import proofs.«146356_g2000405529851509_pallasbulk_1335_10_alg».proof.Proof.Gen.ReferenceIdeal.Skeleton
import proofs.«146356_g2000405529851509_pallasbulk_1335_10_alg».proof.Proof.LibPlainDot
import Idealize.ShloMosaic.Lib.Pipeline.Value
import Idealize.ShloMosaic.Lib.ValueLayout
import Idealize.ShloMosaic.Lib.ValueIdx

/-!
# The reference's third matrix product, read at an index

At the ideal values the fused kernel's result at row r, channel ch, is the sum over the 1600 window positions of the
patch row times the filter column, scaled, shifted and clamped below at zero.
-/

set_option maxRecDepth 16384

noncomputable section

namespace Cert.StageC.RPay

open Cert.ReferenceIdeal Cert.ReferenceIdeal.Gen
open Idealize.ShloMosaic Idealize.ShloMosaic.ValueIdx Cert.Lib.PlainDot

/-- A row vector broadcast down the rows reads its lane. -/
theorem bcast_apply (v : S1x128.Idx → EReal) (h2 : S1x128.Broadcasts S1184x128)
    (r : Fin 1184) (ch : Fin 128) :
    broadcastTo S1184x128 v h2 (ix2 r ch) = v (ix2 (0 : Fin 1) ch) := broadcastTo_apply _ _ _ (ix2 (0 : Fin 1) ch)
    (fun a => match a with
      | ⟨0, _⟩ => rfl
      | ⟨1, _⟩ => rfl)

/-- The product into the zero accumulator, at an index. -/
theorem mm_at (x : FVec Ideal S1184x1600 .bf16) (w : FVec Ideal S1600x128 .bf16) (j : S1184x128.Idx) :
    matmul dot_S1184x1600_S1600x128_S1184x128_1_0_0_1_n_n none x w (constant S1184x128 .f32 0x00000000#32) j = mm x w j :=
  matmul_zero_apply dot_S1184x1600_S1600x128_S1184x128_1_0_0_1_n_n rfl none x w j

/-- Row r, channel ch of the block's result. -/
def rowVal (v0 : S1184x1600.Idx → EReal) (w : S1600x128.Idx → EReal) (s t : S1x128.Idx → EReal)
    (r : Fin 1184) (ch : Fin 128) : EReal :=
  max (mm v0 w (ix2 r ch) * s (ix2 (0 : Fin 1) ch) + t (ix2 (0 : Fin 1) ch))
    (Scalar.ofBits (F := Ideal) .f32 0x00000000#32)

theorem pay_apply (v0 : Vec Ideal S1184x1600 .bf16) (v2 : Vec Ideal S1600x128 .bf16)
    (v4 v8 : Vec Ideal S1x128 .f32) (r : Fin 1184) (ch : Fin 128) :
    k2_pay1 v0 v2 v4 v8 (ix2 r ch) = rowVal v0 v2 v4 v8 r ch := by
  unfold k2_pay1 rowVal
  simp only [maximumf_apply, addf_apply, mulf_apply, broadcast_apply]
  simp only [mm_at]
  simp only [shapeCast_self, bcast_apply]

end Cert.StageC.RPay

end
-- ==== Proof.StageGRegion.lean ====
import proofs.«146356_g2000405529851509_pallasbulk_1335_10_alg».proof.Proof.RIThirdMatmul
import proofs.«146356_g2000405529851509_pallasbulk_1335_10_alg».proof.Proof.StageCRPay
import Idealize.ShloMosaic.Lib.Pipeline.Value

/-!
# The reference's third product, index by index

The region's two grid points each write back one block of 1184 rows. Row R of the result array is row R mod 1184 of
the block of point R / 1184, and that row of the block is the product of row R of the patch matrix with the filter
matrix, scaled and shifted per channel and clamped below at zero: the point's input block is rows
1184 · t … 1184 · t + 1183 of the patch matrix, and the filter, the scales and the shifts are whole at every point.
-/

set_option maxRecDepth 16384

noncomputable section

namespace Cert.StageC.RRegion

open Cert.ReferenceIdeal Cert.ReferenceIdeal.Gen Cert.ReferenceIdeal.ThirdMatmul
open Idealize.ShloMosaic Idealize.ShloMosaic.TcCoe Idealize.ShloMosaic.ValueIdx Idealize.SL.Sem
open Idealize.ShloMosaic.Pipeline (Dat)
open Cert.Lib.PlainDot Cert.StageC.RPay

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the patch rows and the result rows move with the point, the filter,
    the scales and the shifts stay. -/
theorem idx_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What point t leaves at index y of its block. -/
def H (c : Dev nD) (t : Fin cfg2.N) (y : S1184x128.Idx) : EReal :=
  outBlock (F := Ideal) (iblk V c 0 t) (iblk V c 1 t) (iblk V c 2 t) (iblk V c 3 t) y

/-- The point whose block holds row R of the array, and the row inside that block. -/
def tOf (i : S2368x128.Idx) : Fin cfg2.N := ⟨(i 0).val / 1184, by rw [show cfg2.N = grid2.N from rfl, N_2]; have : (i 0).val < 2368 := (i 0).isLt; omega⟩
def yOf (i : S2368x128.Idx) : S1184x128.Idx := ix2 (⟨(i 0).val % 1184, Nat.mod_lt _ (by decide)⟩ : Fin 1184) (⟨(i 1).val, (i 1).isLt⟩ : Fin 128)

/-- The whole array the blocks are blocks of. -/
def G (c : Dev nD) : S2368x128.Idx → EReal := fun i => H V c (tOf i) (yOf i)

theorem flushed_eq (c : Dev nD) (t : Fin cfg2.N) :
    (dat (F := Ideal) V c).flushed 4 t = ((cfg2.win 4).blk t).view.read (Elt Ideal) (G V c) := by
  show (cfg2.win 4).cut (grid2.coords t) ((dat (F := Ideal) V c).after 4 t) = _
  rw [after4]
  obtain ⟨e0, e1, -⟩ := idx_facts t
  funext j
  show outBlock (F := Ideal) (iblk V c 0 t) (iblk V c 1 t) (iblk V c 2 t) (iblk V c 3 t) ((cfg2.win 4).xinj (grid2.coords t) j) = _
  rw [View.read_apply, show (cfg2.win 4).xinj (grid2.coords t) j = j from rfl]
  refine Eq.trans ?_ (cast_eq _ _).symm
  have hj0 : (j 0).val < 1184 := (j 0).isLt
  have hj1 : (j 1).val < 128 := (j 1).isLt
  have ht : tOf (((cfg2.win 4).blk t).view.emb j) = t := Fin.ext (by
    show (win2_4.index t (0 : Fin 2) * 1184 + 1 * (j 0).val) / 1184 = t.val
    omega)
  have hy : yOf (((cfg2.win 4).blk t).view.emb j) = j := by
    funext a
    match a with
    | ⟨0, _⟩ => exact Fin.ext (by show (win2_4.index t (0 : Fin 2) * 1184 + 1 * (j 0).val) % 1184 = (j 0).val; omega)
    | ⟨1, _⟩ => exact Fin.ext (by show win2_4.index t (1 : Fin 2) * 128 + 1 * (j 1).val = (j 1).val; omega)
  unfold G
  rw [ht, hy]
  rfl

theorem mem_blk (t : Fin cfg2.N) (i : S2368x128.Idx) :
    i ∈ ((cfg2.win 4).blk t).view.set ↔ ∀ a : Fin 2, win2_4.index t a * S1184x128.size a ≤ (i a).val ∧ (i a).val < win2_4.index t a * S1184x128.size a + S1184x128.size a := by
  show i ∈ ((View.whole main_v112).slice (win2_4.rect t)).set ↔ _
  rw [View.set_slice_whole, Rect.mem_set_unit]
  exact Iff.rfl

/-- The array after the region, at an index. -/
theorem arr_apply (c : Dev nD) (i : S2368x128.Idx) : (dat (F := Ideal) V c).arrAt 4 cfg2.N i = G V c i := by
  have hi0 : (i 0).val < 2368 := (i 0).isLt
  have hi1 : (i 1).val < 128 := (i 1).isLt
  obtain ⟨e0, e1, -⟩ := idx_facts (tOf i)
  refine (dat (F := Ideal) V c).arrAt_apply_of_mem 4 (G V c) (fun t _ => flushed_eq V c t) cfg2.N (tOf i) i (tOf i).isLt (flush2_4 _) ?_
  rw [mem_blk]
  intro a
  match a with
  | ⟨0, _⟩ => show win2_4.index (tOf i) (0 : Fin 2) * 1184 ≤ (i 0).val ∧ (i 0).val < win2_4.index (tOf i) (0 : Fin 2) * 1184 + 1184; rw [e0]; show (i 0).val / 1184 * 1184 ≤ (i 0).val ∧ (i 0).val < (i 0).val / 1184 * 1184 + 1184; omega
  | ⟨1, _⟩ => show win2_4.index (tOf i) (1 : Fin 2) * 128 ≤ (i 1).val ∧ (i 1).val < win2_4.index (tOf i) (1 : Fin 2) * 128 + 128; omega

/-- The block the body stores, at a row and a channel, from any four input blocks. -/
theorem outBlock_apply (x0 : Vec Ideal S1184x1600 .bf16) (x1 : Vec Ideal S1600x128 .bf16) (x2 x3 : Vec Ideal S1x128 .f32)
    (r : Fin 1184) (ch : Fin 128) :
    outBlock (F := Ideal) x0 x1 x2 x3 (ix2 r ch) = rowVal x0 x1 x2 x3 r ch := by
  unfold outBlock
  rw [View.canon_unit_zero hz2]
  simp only [View.ld_unit_zero (S := S1184x1600) hz2, View.ld_unit_zero (S := S1600x128) hz2, View.ld_unit_zero (S := S1x128) hz2]
  exact pay_apply x0 x1 x2 x3 r ch

/-- Row r of point t's patch block is row 1184 · t + r of the patch matrix. -/
theorem patch_blk (c : Dev nD) (t : Fin cfg2.N) (r : Fin 1184) (k : Fin 1600) (hR : t.val * 1184 + r.val < 2368) :
    iblk V c 0 t (ix2 r k) = (V c main_v109 : S2368x1600.Idx → EReal) (ix2 (⟨t.val * 1184 + r.val, hR⟩ : Fin 2368) k) := by
  obtain ⟨-, -, e0, e1, -⟩ := idx_facts t
  show (V c main_v109 : S2368x1600.Idx → EReal) (((cfg2.win 0).blk t).view.emb (ix2 r k)) = _
  refine congrArg _ (funext fun a => Fin.ext ?_)
  match a with
  | ⟨0, _⟩ => show win2_0.index t (0 : Fin 2) * 1184 + 1 * r.val = t.val * 1184 + r.val; omega
  | ⟨1, _⟩ => show win2_0.index t (1 : Fin 2) * 1600 + 1 * k.val = k.val; omega

/-- The filter block is the whole filter matrix. -/
theorem filter_blk (c : Dev nD) (t : Fin cfg2.N) (k : Fin 1600) (ch : Fin 128) :
    iblk V c 1 t (ix2 k ch) = (V c main_arg7 : S1600x128.Idx → EReal) (ix2 k ch) := by
  obtain ⟨-, -, -, -, e0, e1, -⟩ := idx_facts t
  show (V c main_arg7 : S1600x128.Idx → EReal) (((cfg2.win 1).blk t).view.emb (ix2 k ch)) = _
  refine congrArg _ (funext fun a => Fin.ext ?_)
  match a with
  | ⟨0, _⟩ => show win2_1.index t (0 : Fin 2) * 1600 + 1 * k.val = k.val; omega
  | ⟨1, _⟩ => show win2_1.index t (1 : Fin 2) * 128 + 1 * ch.val = ch.val; omega

/-- The scale and shift blocks are the whole rows. -/
theorem scale_blk (c : Dev nD) (t : Fin cfg2.N) (ch : Fin 128) :
    iblk V c 2 t (ix2 (0 : Fin 1) ch) = (V c main_v110 : S1x128.Idx → EReal) (ix2 (0 : Fin 1) ch) := by
  obtain ⟨-, -, -, -, -, -, e0, e1, -⟩ := idx_facts t
  show (V c main_v110 : S1x128.Idx → EReal) (((cfg2.win 2).blk t).view.emb (ix2 (0 : Fin 1) ch)) = _
  refine congrArg _ (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 128 + 1 * ch.val = ch.val; omega

theorem shift_blk (c : Dev nD) (t : Fin cfg2.N) (ch : Fin 128) :
    iblk V c 3 t (ix2 (0 : Fin 1) ch) = (V c main_v111 : S1x128.Idx → EReal) (ix2 (0 : Fin 1) ch) := by
  obtain ⟨-, -, -, -, -, -, -, -, e0, e1⟩ := idx_facts t
  show (V c main_v111 : S1x128.Idx → EReal) (((cfg2.win 3).blk t).view.emb (ix2 (0 : Fin 1) ch)) = _
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * ch.val = ch.val; omega

/-- THE RESULT ARRAY at row R, channel ch: the product of the patch matrix's row R with the filter's column ch, scaled,
    shifted and clamped below at zero. -/
theorem result_apply (c : Dev nD) (R : Fin 2368) (ch : Fin 128) :
    (dat (F := Ideal) V c).arrAt 4 cfg2.N (ix2 R ch)
      = max (mm (V c main_v109 : S2368x1600.Idx → EReal) (V c main_arg7 : S1600x128.Idx → EReal) (ix2 R ch)
              * (V c main_v110 : S1x128.Idx → EReal) (ix2 (0 : Fin 1) ch)
            + (V c main_v111 : S1x128.Idx → EReal) (ix2 (0 : Fin 1) ch))
          (Scalar.ofBits (F := Ideal) .f32 0x00000000#32) := by
  rw [arr_apply]
  have hR : R.val < 2368 := R.isLt
  have hlt : (tOf (ix2 R ch)).val * 1184 + R.val % 1184 < 2368 := by
    show R.val / 1184 * 1184 + R.val % 1184 < 2368; omega
  show outBlock (F := Ideal) (iblk V c 0 (tOf (ix2 R ch))) (iblk V c 1 (tOf (ix2 R ch))) (iblk V c 2 (tOf (ix2 R ch)))
    (iblk V c 3 (tOf (ix2 R ch))) (ix2 (⟨R.val % 1184, Nat.mod_lt _ (by decide)⟩ : Fin 1184) ch) = _
  refine (outBlock_apply _ _ _ _ _ ch).trans ?_
  unfold rowVal
  rw [scale_blk V c (tOf (ix2 R ch)) ch, shift_blk V c (tOf (ix2 R ch)) ch]
  have hmm : mm (iblk V c 0 (tOf (ix2 R ch))) (iblk V c 1 (tOf (ix2 R ch))) (ix2 (⟨R.val % 1184, Nat.mod_lt _ (by decide)⟩ : Fin 1184) ch)
      = mm (V c main_v109 : S2368x1600.Idx → EReal) (V c main_arg7 : S1600x128.Idx → EReal) (ix2 R ch) := by
    unfold mm
    refine Finset.sum_congr rfl fun k _ => ?_
    have e1 := patch_blk V c (tOf (ix2 R ch)) (⟨R.val % 1184, Nat.mod_lt _ (by decide)⟩ : Fin 1184) k hlt
    have e2 := filter_blk V c (tOf (ix2 R ch)) k ch
    have eR : (ix2 (⟨(tOf (ix2 R ch)).val * 1184 + R.val % 1184, hlt⟩ : Fin 2368) k : S2368x1600.Idx) = rowIdx (ix2 R ch) k :=
      funext fun a => Fin.ext (by
        match a with
        | ⟨0, _⟩ => show R.val / 1184 * 1184 + R.val % 1184 = R.val; omega
        | ⟨1, _⟩ => rfl)
    rw [eR] at e1
    exact congrArg₂ (· * ·) e1 e2
  rw [hmm]

end Cert.StageC.RRegion

end
-- ==== Proof.StageGFeat.lean ====
import proofs.«146356_g2000405529851509_pallasbulk_1335_10_alg».proof.Proof.StageGTail
import proofs.«146356_g2000405529851509_pallasbulk_1335_10_alg».proof.Proof.StageGRegion

/-!
# The reference's flattened features from its pooled second convolution's patches

Feature column channel · 49 + y · 7 + x of image n is the third product's entry at row n · 49 + y · 7 + x and that
channel: the product of that row of the patch matrix (with its sixteen appended zero rows) with the filter matrix's
column, times the channel's scale, plus its shift, clamped below at zero. The region's result array is read in closed
form, the scale and shift rows are the reshaped arguments, and the buffers the later operations do not write are
what they were.
-/

noncomputable section

namespace Cert.StageC.Ref

open Cert.ReferenceIdeal Cert.ReferenceIdeal.Gen Cert.Bridge
open Idealize.ShloMosaic Idealize.ShloMosaic.ValueIdx Idealize.SL.Sem Idealize.ShloMosaic.TcCoe
open Cert.Lib.PlainDot

/-- The scale row is the scale argument, lane by lane (a reshape 128 → 1 × 128), over any earlier contents. -/
theorem scale_read (W : Valuation τ sig (Elt Ideal)) (ch : Fin 128) :
    (StableHlo.after (hostOps2_4 (F := Ideal)) W (Proc.devRef .tc main_v110) : S1x128.Idx → EReal) (ix2 (0 : Fin 1) ch)
      = (W (Proc.devRef .tc main_arg8) : S128.Idx → EReal) (ix1 ch) := by
  dsimp only [hostOps2_4]
  after_results
  refine shapeCast_apply _ shapeCasts_S128_S1x128 (ix2 (0 : Fin 1) ch) (ix1 ch) ?_
  rw [Shape.rowMajor_val_one, Shape.rowMajor_val_two]
  show ch.val = (0 : Fin 1).val * 128 + ch.val
  simp

/-- The shift row is the shift argument, lane by lane. -/
theorem shift_read (W : Valuation τ sig (Elt Ideal)) (ch : Fin 128) :
    (StableHlo.after (hostOps2_4 (F := Ideal)) W (Proc.devRef .tc main_v111) : S1x128.Idx → EReal) (ix2 (0 : Fin 1) ch)
      = (W (Proc.devRef .tc main_arg9) : S128.Idx → EReal) (ix1 ch) := by
  dsimp only [hostOps2_4]
  after_results
  refine shapeCast_apply _ shapeCasts_S128_S1x128 (ix2 (0 : Fin 1) ch) (ix1 ch) ?_
  rw [Shape.rowMajor_val_one, Shape.rowMajor_val_two]
  show ch.val = (0 : Fin 1).val * 128 + ch.val
  simp

variable (m' : RMem) (c : Dev Cert.ReferenceIdeal.nD)

/-- A buffer none of the operations after the third product's entry writes is, at the end, what it was there. -/
theorem last_of_entry (r : Ref sig .tc) (h21 : r ∉ hostOps4_W) (h20 : r ∉ ([main_v119_0, main_v119_1] : List (Ref sig .tc)))
    (h19 : r ∉ hostOps3_2_W) (h18 : r ∉ hostOps3_1_W) (h17 : r ∉ hostOps3_W) (h16 : r ∉ ([main_v112] : List (Ref sig .tc))) :
    VR m' c (Proc.devRef .tc r) = V15 m' (Whole.outs m') c (Proc.devRef .tc r) :=
  (V21_of m' (Whole.outs m') c r h21).trans <| (V20_of m' (Whole.outs m') c r h20).trans <|
    (V19_of m' (Whole.outs m') c r h19).trans <| (V18_of m' (Whole.outs m') c r h18).trans <|
    (V17_of m' (Whole.outs m') c r h17).trans (V16_of m' (Whole.outs m') c r h16)

theorem feat_eq (n : Fin 48) (ch : Fin 128) (y x : Fin 7) :
    rFeat m' c (ix2 n (⟨ch.val * 49 + y.val * 7 + x.val, by omega⟩ : Fin 6272))
      = max (mm (VR m' c (Proc.devRef .tc main_v109) : S2368x1600.Idx → EReal)
                (m' ((c.tc : Thread Cert.ReferenceIdeal.nD Cert.ReferenceIdeal.τ).loc main_arg7) : S1600x128.Idx → EReal)
                (ix2 (⟨n.val * 49 + y.val * 7 + x.val, by omega⟩ : Fin 2368) ch)
              * (m' ((c.tc : Thread Cert.ReferenceIdeal.nD Cert.ReferenceIdeal.τ).loc main_arg8) : S128.Idx → EReal) (ix1 ch)
            + (m' ((c.tc : Thread Cert.ReferenceIdeal.nD Cert.ReferenceIdeal.τ).loc main_arg9) : S128.Idx → EReal) (ix1 ch))
          (Scalar.ofBits (F := Ideal) .f32 0x00000000#32) := by
  rw [feat_tail]
  have h112 : (V16 m' (Whole.outs m') c (Proc.devRef .tc main_v112) : S2368x128.Idx → EReal)
      = (ThirdMatmul.dat (F := Ideal) (Whole.atTc (V15 m' (Whole.O2 m'))) c).arrAt 4 cfg2.N := (Whole.hF2 m' c 4).symm
  rw [h112, RRegion.result_apply]
  have a109 : (Whole.atTc (V15 m' (Whole.O2 m')) c main_v109 : S2368x1600.Idx → EReal) = VR m' c (Proc.devRef .tc main_v109) :=
    (last_of_entry m' c main_v109 (by decide) (by decide) (by decide) (by decide) (by decide) (by decide)).symm
  have a7 : (Whole.atTc (V15 m' (Whole.O2 m')) c main_arg7 : S1600x128.Idx → EReal)
      = m' ((c.tc : Thread Cert.ReferenceIdeal.nD Cert.ReferenceIdeal.τ).loc main_arg7) :=
    (last_of_entry m' c main_arg7 (by decide) (by decide) (by decide) (by decide) (by decide) (by decide)).symm.trans
      (V21_main_arg7 m' (Whole.outs m') c)
  have a8 : (V14 m' (Whole.outs m') c (Proc.devRef .tc main_arg8) : S128.Idx → EReal)
      = m' ((c.tc : Thread Cert.ReferenceIdeal.nD Cert.ReferenceIdeal.τ).loc main_arg8) :=
    (V15_of m' (Whole.outs m') c main_arg8 (by decide)).symm.trans <|
      (last_of_entry m' c main_arg8 (by decide) (by decide) (by decide) (by decide) (by decide) (by decide)).symm.trans
        (V21_main_arg8 m' (Whole.outs m') c)
  have a9 : (V14 m' (Whole.outs m') c (Proc.devRef .tc main_arg9) : S128.Idx → EReal)
      = m' ((c.tc : Thread Cert.ReferenceIdeal.nD Cert.ReferenceIdeal.τ).loc main_arg9) :=
    (V15_of m' (Whole.outs m') c main_arg9 (by decide)).symm.trans <|
      (last_of_entry m' c main_arg9 (by decide) (by decide) (by decide) (by decide) (by decide) (by decide)).symm.trans
        (V21_main_arg9 m' (Whole.outs m') c)
  have a110 : (Whole.atTc (V15 m' (Whole.O2 m')) c main_v110 : S1x128.Idx → EReal) (ix2 (0 : Fin 1) ch)
      = (m' ((c.tc : Thread Cert.ReferenceIdeal.nD Cert.ReferenceIdeal.τ).loc main_arg8) : S128.Idx → EReal) (ix1 ch) :=
    (scale_read (V14 m' (Whole.outs m') c) ch).trans (congrFun a8 (ix1 ch))
  have a111 : (Whole.atTc (V15 m' (Whole.O2 m')) c main_v111 : S1x128.Idx → EReal) (ix2 (0 : Fin 1) ch)
      = (m' ((c.tc : Thread Cert.ReferenceIdeal.nD Cert.ReferenceIdeal.τ).loc main_arg9) : S128.Idx → EReal) (ix1 ch) :=
    (shift_read (V14 m' (Whole.outs m') c) ch).trans (congrFun a9 (ix1 ch))
  rw [a109, a7, a110, a111]

end Cert.StageC.Ref

end
-- ==== Proof.StageCRPatchA.lean ====
import proofs.«146356_g2000405529851509_pallasbulk_1335_10_alg».proof.Proof.Gen.ReferenceIdeal.Launch
import Idealize.ShloMosaic.Lib.StableHlo.Run
import Idealize.ShloMosaic.Lib.Pipeline.Value
import Idealize.ShloMosaic.Lib.KernelVsHost
import Idealize.ShloMosaic.Lib.ValueIdx

/-!
# The reference's patch matrix, read at a window position

Row (n, y, x) of the patch matrix, at the position (dy · 5 + dx) · 64 + cin of its 1600, is the zero-padded pooled map
of image n at (y + dy, x + dx), channel cin: the 25 shifted 7 × 7 windows of the padded map laid side by side on the
lanes (sixteen, then nine), the rows regrouped, and sixteen padding rows put after the last.
-/

set_option maxRecDepth 16384

noncomputable section

namespace Cert.StageC.RPatch

open Cert.ReferenceIdeal Cert.ReferenceIdeal.Gen
open Idealize.ShloMosaic Idealize.ShloMosaic.ValueIdx Idealize.ShloMosaic.StableHlo

variable (W : Valuation τ sig (Elt Ideal))

/-- Before the sixteen padding rows the padded matrix is the matrix. -/
theorem v109_apply (row : Fin 2352) (k : Fin 1600) :
    (after (hostOps2_3 (F := Ideal)) W (Proc.devRef .tc main_v109) : S2368x1600.Idx → EReal) (ix2 (⟨row.val, by omega⟩ : Fin 2368) k)
      = (W (Proc.devRef .tc main_v108) : S2352x1600.Idx → EReal) (ix2 row k) := by
  have e : (after (hostOps2_3 (F := Ideal)) W (Proc.devRef .tc main_v109) : S2368x1600.Idx → EReal)
      = pad S2368x1600 ![0, 0] ![16, 0] ![0, 0] (W (Proc.devRef .tc main_v108) : S2352x1600.Idx → EReal)
          (sitofp (F := Ideal) .bf16 (W (Proc.devRef .tc main_c_4) : S_.Idx → BitVec 32)) pads_S2352x1600_S2368x1600_0160_000 h_S_ := by
    after_results
    rfl
  rw [e]
  exact pad_apply_of_inside _ _ _ _ _ _ _ _ (ix2 row k)
    (fun a => match a with
      | ⟨0, _⟩ => by show row.val = 0 + row.val * (0 + 1); omega
      | ⟨1, _⟩ => by show k.val = 0 + k.val * (0 + 1); omega)

/-- The shifted 7 × 7 windows of the padded map: position q of the first sixteen is the window at (q / 5, q mod 5),
    position q of the last nine the window at ((q + 16) / 5, (q + 16) mod 5). -/
theorem hs16 (q : Fin 16) : S48x11x11x64.Slices ![0, q.val / 5, q.val % 5, 0] S48x7x7x64 :=
  ⟨rfl, fun a => match a with
    | ⟨0, _⟩ => by show 0 + 48 ≤ 48; omega
    | ⟨1, _⟩ => by have := q.isLt; show q.val / 5 + 7 ≤ 11; omega
    | ⟨2, _⟩ => by show q.val % 5 + 7 ≤ 11; omega
    | ⟨3, _⟩ => by show 0 + 64 ≤ 64; omega⟩
theorem hs9 (q : Fin 9) : S48x11x11x64.Slices ![0, (q.val + 16) / 5, (q.val + 16) % 5, 0] S48x7x7x64 :=
  ⟨rfl, fun a => match a with
    | ⟨0, _⟩ => by show 0 + 48 ≤ 48; omega
    | ⟨1, _⟩ => by have := q.isLt; show (q.val + 16) / 5 + 7 ≤ 11; omega
    | ⟨2, _⟩ => by show (q.val + 16) % 5 + 7 ≤ 11; omega
    | ⟨3, _⟩ => by show 0 + 64 ≤ 64; omega⟩

def p16 (P : S48x11x11x64.Idx → EReal) (q : Fin 16) : S48x7x7x64.Idx → EReal :=
  extractStridedSlice S48x7x7x64 ![0, q.val / 5, q.val % 5, 0] P (hs16 q)
def p9 (P : S48x11x11x64.Idx → EReal) (q : Fin 9) : S48x7x7x64.Idx → EReal :=
  extractStridedSlice S48x7x7x64 ![0, (q.val + 16) / 5, (q.val + 16) % 5, 0] P (hs9 q)

/-- The patch matrix before its padding rows: the sixteen and the nine windows side by side, the two groups side by
    side, the rows regrouped. -/
theorem v108_eq :
    (after (hostOps2_2 (F := Ideal)) W (Proc.devRef .tc main_v108) : S2352x1600.Idx → EReal)
      = shapeCast S2352x1600 (concatenate S48x7x7x1600 3
          [⟨S48x7x7x1024, concatenate S48x7x7x1024 3
              [⟨S48x7x7x64, p16 (W (Proc.devRef .tc main_v79)) 0⟩, ⟨S48x7x7x64, p16 (W (Proc.devRef .tc main_v79)) 1⟩,
               ⟨S48x7x7x64, p16 (W (Proc.devRef .tc main_v79)) 2⟩, ⟨S48x7x7x64, p16 (W (Proc.devRef .tc main_v79)) 3⟩,
               ⟨S48x7x7x64, p16 (W (Proc.devRef .tc main_v79)) 4⟩, ⟨S48x7x7x64, p16 (W (Proc.devRef .tc main_v79)) 5⟩,
               ⟨S48x7x7x64, p16 (W (Proc.devRef .tc main_v79)) 6⟩, ⟨S48x7x7x64, p16 (W (Proc.devRef .tc main_v79)) 7⟩,
               ⟨S48x7x7x64, p16 (W (Proc.devRef .tc main_v79)) 8⟩, ⟨S48x7x7x64, p16 (W (Proc.devRef .tc main_v79)) 9⟩,
               ⟨S48x7x7x64, p16 (W (Proc.devRef .tc main_v79)) 10⟩, ⟨S48x7x7x64, p16 (W (Proc.devRef .tc main_v79)) 11⟩,
               ⟨S48x7x7x64, p16 (W (Proc.devRef .tc main_v79)) 12⟩, ⟨S48x7x7x64, p16 (W (Proc.devRef .tc main_v79)) 13⟩,
               ⟨S48x7x7x64, p16 (W (Proc.devRef .tc main_v79)) 14⟩, ⟨S48x7x7x64, p16 (W (Proc.devRef .tc main_v79)) 15⟩]
              concatenates_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x64_S48x7x7x1024_d3⟩,
           ⟨S48x7x7x576, concatenate S48x7x7x576 3
              [⟨S48x7x7x64, p9 (W (Proc.devRef .tc main_v79)) 0⟩, ⟨S48x7x7x64, p9 (W (Proc.devRef .tc main_v79)) 1⟩,
               ⟨S48x7x7x64, p9 (W (Proc.devRef .tc main_v79)) 2⟩, ⟨S48x7x7x64, p9 (W (Proc.devRef .tc main_v79)) 3⟩,
               ⟨S48x7x7x64, p9 (W (Proc.devRef .tc main_v79)) 4⟩, ⟨S48x7x7x64, p9 (W (Proc.devRef .tc main_v79)) 5⟩,
               ⟨S48x7x7x64, p9 (W (Proc.devRef .tc main_v79)) 6⟩, ⟨S48x7x7x64, p9 (W (Proc.devRef .tc main_v79)) 7⟩,
               ⟨S48x7x7x64, p9 (W (Proc.devRef .tc main_v79)) 8⟩]
              concatenates_S48x7x7x64_S48x7x7x64_S48x7x7x64_S48x7x7x64_S48x7x7x64_S48x7x7x64_S48x7x7x64_S48x7x7x64_S48x7x7x64_S48x7x7x576_d3⟩]
          concatenates_S48x7x7x1024_S48x7x7x576_S48x7x7x1600_d3) shapeCasts_S48x7x7x1600_S2352x1600 := by
  dsimp only [hostOps2_2]
  after_results
  rfl

end Cert.StageC.RPatch

end
-- ==== Proof.StageCRPatchB.lean ====
import proofs.«146356_g2000405529851509_pallasbulk_1335_10_alg».proof.Proof.StageCRPatchA

/-!
# The reference's patch matrix at a window position

Row (n, y, x), position (dy · 5 + dx) · 64 + cin: the position's group of 64 lanes is window dy · 5 + dx — one of the
first sixteen, or, sixteen later, one of the last nine — and the window (dy, dx) of the padded map read at (n, y, x)
is the padded map at (n, y + dy, x + dx).
-/

set_option maxRecDepth 16384

noncomputable section

namespace Cert.StageC.RPatch

open Cert.ReferenceIdeal Cert.ReferenceIdeal.Gen
open Idealize.ShloMosaic Idealize.ShloMosaic.ValueIdx Idealize.ShloMosaic.StableHlo

/-- Sixteen pieces of 64 lanes side by side: lane q · 64 + cin is lane cin of piece q. -/
theorem concat16_apply (p : Fin 16 → (S48x7x7x64.Idx → EReal))
    (h : Shape.Concatenates [S48x7x7x64, S48x7x7x64, S48x7x7x64, S48x7x7x64, S48x7x7x64, S48x7x7x64, S48x7x7x64, S48x7x7x64,
      S48x7x7x64, S48x7x7x64, S48x7x7x64, S48x7x7x64, S48x7x7x64, S48x7x7x64, S48x7x7x64, S48x7x7x64] S48x7x7x1024 3)
    (n : Fin 48) (y x : Fin 7) (q : Fin 16) (cin : Fin 64) :
    concatenate S48x7x7x1024 3 [⟨S48x7x7x64, p 0⟩, ⟨S48x7x7x64, p 1⟩, ⟨S48x7x7x64, p 2⟩, ⟨S48x7x7x64, p 3⟩, ⟨S48x7x7x64, p 4⟩,
        ⟨S48x7x7x64, p 5⟩, ⟨S48x7x7x64, p 6⟩, ⟨S48x7x7x64, p 7⟩, ⟨S48x7x7x64, p 8⟩, ⟨S48x7x7x64, p 9⟩, ⟨S48x7x7x64, p 10⟩,
        ⟨S48x7x7x64, p 11⟩, ⟨S48x7x7x64, p 12⟩, ⟨S48x7x7x64, p 13⟩, ⟨S48x7x7x64, p 14⟩, ⟨S48x7x7x64, p 15⟩] h
        (ix4 n y x (⟨q.val * 64 + cin.val, by omega⟩ : Fin 1024))
      = p q (ix4 n y x cin) :=
  concatenate_ofFn_apply (t := S48x7x7x1024) (s₁ := S48x7x7x64) 3 p h rfl 64 rfl (ix4 n y x (⟨q.val * 64 + cin.val, by omega⟩ : Fin 1024)) q
    (by show (q.val * 64 + cin.val) / 64 = q.val; omega) (ix4 n y x cin)
    (by show cin.val = (q.val * 64 + cin.val) % 64; omega)
    (fun b hb => match b with
      | ⟨0, _⟩ => rfl
      | ⟨1, _⟩ => rfl
      | ⟨2, _⟩ => rfl
      | ⟨3, _⟩ => absurd rfl hb)

/-- Nine pieces of 64 lanes side by side. -/
theorem concat9_apply (p : Fin 9 → (S48x7x7x64.Idx → EReal))
    (h : Shape.Concatenates [S48x7x7x64, S48x7x7x64, S48x7x7x64, S48x7x7x64, S48x7x7x64, S48x7x7x64, S48x7x7x64, S48x7x7x64,
      S48x7x7x64] S48x7x7x576 3)
    (n : Fin 48) (y x : Fin 7) (q : Fin 9) (cin : Fin 64) :
    concatenate S48x7x7x576 3 [⟨S48x7x7x64, p 0⟩, ⟨S48x7x7x64, p 1⟩, ⟨S48x7x7x64, p 2⟩, ⟨S48x7x7x64, p 3⟩, ⟨S48x7x7x64, p 4⟩,
        ⟨S48x7x7x64, p 5⟩, ⟨S48x7x7x64, p 6⟩, ⟨S48x7x7x64, p 7⟩, ⟨S48x7x7x64, p 8⟩] h
        (ix4 n y x (⟨q.val * 64 + cin.val, by omega⟩ : Fin 576))
      = p q (ix4 n y x cin) :=
  concatenate_ofFn_apply (t := S48x7x7x576) (s₁ := S48x7x7x64) 3 p h rfl 64 rfl (ix4 n y x (⟨q.val * 64 + cin.val, by omega⟩ : Fin 576)) q
    (by show (q.val * 64 + cin.val) / 64 = q.val; omega) (ix4 n y x cin)
    (by show cin.val = (q.val * 64 + cin.val) % 64; omega)
    (fun b hb => match b with
      | ⟨0, _⟩ => rfl
      | ⟨1, _⟩ => rfl
      | ⟨2, _⟩ => rfl
      | ⟨3, _⟩ => absurd rfl hb)

variable (W : Valuation τ sig (Elt Ideal))

set_option maxHeartbeats 1000000 in
/-- The patch matrix before its padding rows, at row (n, y, x) and position (dy · 5 + dx) · 64 + cin. -/
theorem v108_apply (n : Fin 48) (y x : Fin 7) (dy dx : Fin 5) (cin : Fin 64) :
    (after (hostOps2_2 (F := Ideal)) W (Proc.devRef .tc main_v108) : S2352x1600.Idx → EReal)
        (ix2 (⟨n.val * 49 + y.val * 7 + x.val, by omega⟩ : Fin 2352) (⟨(dy.val * 5 + dx.val) * 64 + cin.val, by omega⟩ : Fin 1600))
      = (W (Proc.devRef .tc main_v79) : S48x11x11x64.Idx → EReal) (ix4 n (⟨y.val + dy.val, by omega⟩ : Fin 11) (⟨x.val + dx.val, by omega⟩ : Fin 11) cin) := by
  rw [v108_eq]
  refine (shapeCast_apply _ _ _ (ix4 n y x (⟨(dy.val * 5 + dx.val) * 64 + cin.val, by omega⟩ : Fin 1600))
    (by rw [Shape.rowMajor_val_two, Shape.rowMajor_val_four]
        show ((n.val * 7 + y.val) * 7 + x.val) * 1600 + ((dy.val * 5 + dx.val) * 64 + cin.val)
          = (n.val * 49 + y.val * 7 + x.val) * 1600 + ((dy.val * 5 + dx.val) * 64 + cin.val)
        omega)).trans ?_
  by_cases hq : dy.val * 5 + dx.val < 16
  · refine (concatenate_pair_apply_left (t := S48x7x7x1600) (s₁ := S48x7x7x1024) (s₂ := S48x7x7x576) 3 _ _ _
      (ix4 n y x (⟨(dy.val * 5 + dx.val) * 64 + cin.val, by omega⟩ : Fin 1600)) rfl (ix4 n y x (⟨(dy.val * 5 + dx.val) * 64 + cin.val, by omega⟩ : Fin 1024))
      (fun b => match b with
        | ⟨0, _⟩ => rfl
        | ⟨1, _⟩ => rfl
        | ⟨2, _⟩ => rfl
        | ⟨3, _⟩ => rfl)).trans ?_
    refine (concat16_apply (p16 (W (Proc.devRef .tc main_v79))) _ n y x (⟨dy.val * 5 + dx.val, hq⟩ : Fin 16) cin).trans ?_
    unfold p16
    exact extractStridedSlice_apply _ _ _ _ _
      (fun a => match a with
        | ⟨0, _⟩ => by show n.val = 0 + n.val; omega
        | ⟨1, _⟩ => by show y.val + dy.val = (dy.val * 5 + dx.val) / 5 + y.val; omega
        | ⟨2, _⟩ => by show x.val + dx.val = (dy.val * 5 + dx.val) % 5 + x.val; omega
        | ⟨3, _⟩ => by show cin.val = 0 + cin.val; omega)
  · have hq' : 16 ≤ dy.val * 5 + dx.val := by omega
    have hdy : dy.val < 5 := dy.isLt
    have hdx : dx.val < 5 := dx.isLt
    have hcin : cin.val < 64 := cin.isLt
    have hb9 : dy.val * 5 + dx.val - 16 < 9 := by omega
    have hb576 : (dy.val * 5 + dx.val - 16) * 64 + cin.val < 576 := by omega
    have hb1600 : (dy.val * 5 + dx.val) * 64 + cin.val < 1600 := by omega
    have hsum : (dy.val * 5 + dx.val - 16) * 64 + cin.val + 1024 = (dy.val * 5 + dx.val) * 64 + cin.val := by omega
    refine (concatenate_pair_apply_right (t := S48x7x7x1600) (s₁ := S48x7x7x1024) (s₂ := S48x7x7x576) 3 _ _ _
      (ix4 n y x (⟨(dy.val * 5 + dx.val) * 64 + cin.val, hb1600⟩ : Fin 1600)) rfl rfl (ix4 n y x (⟨(dy.val * 5 + dx.val - 16) * 64 + cin.val, hb576⟩ : Fin 576))
      (fun b hb => match b with
        | ⟨0, _⟩ => rfl
        | ⟨1, _⟩ => rfl
        | ⟨2, _⟩ => rfl
        | ⟨3, _⟩ => absurd rfl hb)
      hsum).trans ?_
    refine (concat9_apply (p9 (W (Proc.devRef .tc main_v79))) _ n y x (⟨dy.val * 5 + dx.val - 16, hb9⟩ : Fin 9) cin).trans ?_
    unfold p9
    exact extractStridedSlice_apply _ _ _ _ _
      (fun a => match a with
        | ⟨0, _⟩ => by show n.val = 0 + n.val; omega
        | ⟨1, _⟩ => by show y.val + dy.val = (dy.val * 5 + dx.val - 16 + 16) / 5 + y.val; omega
        | ⟨2, _⟩ => by show x.val + dx.val = (dy.val * 5 + dx.val - 16 + 16) % 5 + x.val; omega
        | ⟨3, _⟩ => by show cin.val = 0 + cin.val; omega)

end Cert.StageC.RPatch

end
-- ==== Proof.StageCRPatch.lean ====
import proofs.«146356_g2000405529851509_pallasbulk_1335_10_alg».proof.Proof.RIWhole
import proofs.«146356_g2000405529851509_pallasbulk_1335_10_alg».proof.Proof.StageCRPatchB
import proofs.«146356_g2000405529851509_pallasbulk_1335_10_alg».proof.Proof.StageCRPad

/-!
# The reference's patch matrix at the last valuation

Neither the patch matrix nor the padded map is written after the stretch that makes it, so the reads of the two
stretches, over the valuations before them, give the patch matrix at the last valuation in terms of the padded map at
the last valuation.
-/

set_option maxRecDepth 16384

noncomputable section

namespace Cert.StageC.Ref

open Cert.ReferenceIdeal Cert.ReferenceIdeal.Gen Cert.ReferenceIdeal.Whole
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem v109_last : V21 m (outs m) c (Proc.devRef .tc main_v109) = V14 m (outs m) c (Proc.devRef .tc main_v109) :=
  (V21_of m (outs m) c main_v109 (by decide)).trans <| (V20_of m (outs m) c main_v109 (by decide)).trans <| (V19_of m (outs m) c main_v109 (by decide)).trans <| (V18_of m (outs m) c main_v109 (by decide)).trans <| (V17_of m (outs m) c main_v109 (by decide)).trans <| (V16_of m (outs m) c main_v109 (by decide)).trans <| (V15_of m (outs m) c main_v109 (by decide)).trans rfl

/-- Row (n, y, x) of the patch matrix at position (dy · 5 + dx) · 64 + cin is the padded map at (n, y + dy, x + dx, cin). -/
theorem patch_eq (n : Fin 48) (y x : Fin 7) (dy dx : Fin 5) (cin : Fin 64) :
    (V21 m (outs m) c (Proc.devRef .tc main_v109) : S2368x1600.Idx → EReal)
        (ix2 (⟨n.val * 49 + y.val * 7 + x.val, by omega⟩ : Fin 2368) (⟨(dy.val * 5 + dx.val) * 64 + cin.val, by omega⟩ : Fin 1600))
      = (V21 m (outs m) c (Proc.devRef .tc main_v79) : S48x11x11x64.Idx → EReal)
          (ix4 n (⟨y.val + dy.val, by omega⟩ : Fin 11) (⟨x.val + dx.val, by omega⟩ : Fin 11) cin) := by
  rw [v109_last, Cert.StageC.RPad.v79_last]
  refine (Cert.StageC.RPatch.v109_apply (V13 m (outs m) c) (⟨n.val * 49 + y.val * 7 + x.val, by omega⟩ : Fin 2352)
    (⟨(dy.val * 5 + dx.val) * 64 + cin.val, by omega⟩ : Fin 1600)).trans ?_
  exact Cert.StageC.RPatch.v108_apply (V12 m (outs m) c) n y x dy dx cin

end Cert.StageC.Ref

end
-- ==== Proof.StageCStage3.lean ====
import proofs.«146356_g2000405529851509_pallasbulk_1335_10_alg».proof.Proof.StageCFinal
import proofs.«146356_g2000405529851509_pallasbulk_1335_10_alg».proof.Proof.StageGFeat
import proofs.«146356_g2000405529851509_pallasbulk_1335_10_alg».proof.Proof.StageCRPatch

/-!
# The third stage

The reference's flattened features correspond to the kernel's third convolution whenever the two pooled second
convolutions correspond: the reference's feature is the clamped, scaled and shifted product of a patch row with the
filter; the patch row's entries are entries of the reference's padded map; the rest is the stage over the two reads.
-/

noncomputable section

namespace Cert.Bridge

open Idealize.ShloMosaic Idealize.SL.Sem

theorem stage3 (m : KMem) (m' : RMem) (hag : Agree m m') (c : Dev Cert.KernelIdeal.nD) (h2 : Rel2 m m' c) : Rel3 m m' c :=
  stage3_of m m' hag c h2 (fun n ch y x => Cert.StageC.Ref.feat_eq m' c n ch y x)
    (fun n y x dy dx cin => Cert.StageC.Ref.patch_eq m' c n y x dy dx cin)

end Cert.Bridge

end
-- ==== Proof.StageDKPieces.lean ====
import proofs.«146356_g2000405529851509_pallasbulk_1335_10_alg».proof.Proof.KIClassifier
import Idealize.ShloMosaic.Lib.Pipeline.Value

/-!
# The classifier's stored pieces as payloads of the point's blocks

Each of the three runs of the classifier body ends with one whole-buffer store per buffer it writes. Read back, a
buffer therefore holds that store's payload: the hidden block is the clamped, scaled and shifted product of the
features with the first layer's column block; the feature scratch is the transposed input; the accumulator is this
block's contribution to the second layer, alone at a head's first block and added to what was there at a later one;
the logits are the third layer applied to the finished accumulator.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The two scratches read back what they were handed at. -/
theorem readScFeat (h : scFeat.IsWhole) (x : Vec F S48x6272 .bf16) : View.read (Elt F) (View.whole cc3_scratch0) (h.unread x) = x := h.read_unread x
theorem readScAcc (h : scAcc.IsWhole) (x : Vec F S48x512 .f32) : View.read (Elt F) (View.whole cc3_scratch1) (h.unread x) = x := h.read_unread x

/-- One whole-buffer store's payload, with every load of a whole block read as the block. -/
local macro "piece_payload" : tactic =>
  `(tactic| (rw [View.canon_unit_zero hz2]
             simp only [View.readAt_eq_ld, Memref.IsWhole.read_unread, readScFeat, readScAcc,
               View.readCov_unit_zero (S := S48x6272) _ hz2, View.readCov_unit_zero (S := S48x512) _ hz2,
               View.ld_unit_zero (S := S2352x128) hz2, View.ld_unit_zero (S := S6272x256) hz2, View.ld_unit_zero (S := S1x256) hz2,
               View.ld_unit_zero (S := S256x512) hz2, View.ld_unit_zero (S := S48x6272) hz2, View.ld_unit_zero (S := S48x512) hz2,
               View.ld_unit_zero (S := S512x128) hz2, View.ld_unit_zero (S := S1x1x512) hz3, View.ld_unit_zero (S := S1x1x128) hz3]))

/-! ## A head's first block -/

theorem featFirst (c : Dev nD) (t : Fin cfg3.N) (h0 : t.val % 8 = 0) :
    rdFeat (firstAt V c t h0).2.1 = k3_pay1 (iblk V c 0 t) := by
  unfold rdFeat
  rw [View.read_writes_eq_canon _ _ _ (coverFeatFirst V c t h0)]
  unfold firstAt runFirst
  dsimp only
  sl_unfold_words
  piece_payload

theorem hidFirst (c : Dev nD) (t : Fin cfg3.N) (h0 : t.val % 8 = 0) :
    rdHid (firstAt V c t h0).1 = k3_pay2 (k3_pay1 (iblk V c 0 t)) (iblk V c 1 t) (iblk V c 2 t) (iblk V c 3 t) := by
  unfold rdHid
  rw [View.read_writes_eq_canon _ _ _ (coverHidFirst V c t h0)]
  unfold firstAt runFirst
  dsimp only
  sl_unfold_words
  piece_payload

theorem accFirst (c : Dev nD) (t : Fin cfg3.N) (h0 : t.val % 8 = 0) :
    rdAcc (firstAt V c t h0).2.2.1 = k3_pay4 (k3_pay1 (iblk V c 0 t)) (iblk V c 1 t) (iblk V c 2 t) (iblk V c 3 t) (iblk V c 4 t) := by
  unfold rdAcc
  rw [View.read_writes_eq_canon _ _ _ (coverAccFirst V c t h0)]
  unfold firstAt runFirst
  dsimp only
  sl_unfold_words
  piece_payload

/-! ## A later block that is not the last -/

theorem hidLater (c : Dev nD) (t : Fin cfg3.N) (h0 : ¬ t.val % 8 = 0) (h7 : ¬ t.val % 8 = 7) (xsF : Vec F S48x6272 .bf16) (xsA : Vec F S48x512 .f32) :
    rdHid (laterAt V c t h0 h7 xsF xsA).1 = k3_pay2 xsF (iblk V c 1 t) (iblk V c 2 t) (iblk V c 3 t) := by
  unfold rdHid
  rw [View.read_writes_eq_canon _ _ _ (coverHidLater V c t h0 h7 xsF xsA)]
  unfold laterAt runLater
  dsimp only
  sl_unfold_words
  piece_payload

theorem accLater (c : Dev nD) (t : Fin cfg3.N) (h0 : ¬ t.val % 8 = 0) (h7 : ¬ t.val % 8 = 7) (xsF : Vec F S48x6272 .bf16) (xsA : Vec F S48x512 .f32) :
    rdAcc (laterAt V c t h0 h7 xsF xsA).2.1 = k3_pay5 xsF (iblk V c 1 t) (iblk V c 2 t) (iblk V c 3 t) (iblk V c 4 t) xsA := by
  unfold rdAcc
  rw [View.read_writes_eq_canon _ _ _ (coverAccLater V c t h0 h7 xsF xsA)]
  unfold laterAt runLater
  dsimp only
  sl_unfold_words
  piece_payload

/-! ## A head's last block -/

theorem hidLast (c : Dev nD) (t : Fin cfg3.N) (h7 : t.val % 8 = 7) (xsF : Vec F S48x6272 .bf16) (xsA : Vec F S48x512 .f32) :
    rdHid (lastAt V c t h7 xsF xsA).1 = k3_pay2 xsF (iblk V c 1 t) (iblk V c 2 t) (iblk V c 3 t) := by
  unfold rdHid
  rw [View.read_writes_eq_canon _ _ _ (coverHidLast V c t h7 xsF xsA)]
  unfold lastAt runLast
  dsimp only
  sl_unfold_words
  piece_payload

theorem accLast (c : Dev nD) (t : Fin cfg3.N) (h7 : t.val % 8 = 7) (xsF : Vec F S48x6272 .bf16) (xsA : Vec F S48x512 .f32) :
    rdAcc (lastAt V c t h7 xsF xsA).2.2.1 = k3_pay5 xsF (iblk V c 1 t) (iblk V c 2 t) (iblk V c 3 t) (iblk V c 4 t) xsA := by
  unfold rdAcc
  rw [View.read_writes_eq_canon _ _ _ (coverAccLast V c t h7 xsF xsA)]
  unfold lastAt runLast
  dsimp only
  sl_unfold_words
  piece_payload

theorem logitLast (c : Dev nD) (t : Fin cfg3.N) (h7 : t.val % 8 = 7) (xsF : Vec F S48x6272 .bf16) (xsA : Vec F S48x512 .f32) :
    rdLogit (lastAt V c t h7 xsF xsA).2.1
      = k3_pay6 (k3_pay5 xsF (iblk V c 1 t) (iblk V c 2 t) (iblk V c 3 t) (iblk V c 4 t) xsA) (iblk V c 5 t) (iblk V c 6 t) (iblk V c 7 t) (iblk V c 8 t) := by
  unfold rdLogit
  rw [View.read_writes_eq_canon _ _ _ (coverLogitLast V c t h7 xsF xsA)]
  unfold lastAt runLast
  dsimp only
  sl_unfold_words
  piece_payload

end Cert.KernelIdeal.Classifier

end
-- ==== Proof.StageDKChain.lean ====
import proofs.«146356_g2000405529851509_pallasbulk_1335_10_alg».proof.Proof.StageDKPieces

/-!
# The classifier's buffers after each grid point, as payloads of the arrays

The feature scratch holds the transposed third-convolution array after every point (it is written at each head's first
block from the same whole-array block and kept afterwards). Hence the hidden block after a point is the first layer's
payload of those features and the point's three blocks, the accumulator is the block's contribution alone at a head's
first block and added to the previous accumulator afterwards, and the logits after a head's last block are the third
layer's payload of that accumulator.
-/

set_option maxRecDepth 16384

noncomputable section

namespace Cert.KernelIdeal.Classifier

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The printed index maps over the sixteen points: the feature array is one block; the first layer's columns, scale and
    shift and the second layer's rows move with the point number; the per-head operands and the logits with the head; the
    hidden window with (head, block). -/
theorem idxFacts : ∀ t : Fin cfg3.N,
    win3_0.index t (0 : Fin 2) = 0 ∧ win3_0.index t (1 : Fin 2) = 0
  ∧ win3_1.index t (0 : Fin 2) = 0 ∧ win3_1.index t (1 : Fin 2) = t.val
  ∧ win3_2.index t (0 : Fin 2) = 0 ∧ win3_2.index t (1 : Fin 2) = t.val
  ∧ win3_3.index t (0 : Fin 2) = 0 ∧ win3_3.index t (1 : Fin 2) = t.val
  ∧ win3_4.index t (0 : Fin 2) = t.val ∧ win3_4.index t (1 : Fin 2) = 0
  ∧ win3_5.index t (0 : Fin 3) = t.val / 8 ∧ win3_5.index t (1 : Fin 3) = 0 ∧ win3_5.index t (2 : Fin 3) = 0
  ∧ win3_6.index t (0 : Fin 3) = t.val / 8 ∧ win3_6.index t (1 : Fin 3) = 0 ∧ win3_6.index t (2 : Fin 3) = 0
  ∧ win3_7.index t (0 : Fin 2) = t.val / 8 ∧ win3_7.index t (1 : Fin 2) = 0
  ∧ win3_8.index t (0 : Fin 3) = t.val / 8 ∧ win3_8.index t (1 : Fin 3) = 0 ∧ win3_8.index t (2 : Fin 3) = 0
  ∧ win3_9.index t (0 : Fin 2) = t.val / 8 ∧ win3_9.index t (1 : Fin 2) = t.val % 8
  ∧ win3_10.index t (0 : Fin 2) = t.val / 8 ∧ win3_10.index t (1 : Fin 2) = 0 :=
  (by decide +kernel : ∀ t : Fin grid3.N, _)

/-- The hidden window is written back at every point, the logits window at a head's last block only. -/
theorem flush9 : ∀ t : Fin cfg3.N, (cfg3.win 9).flush t = true := by decide +kernel
theorem flush10 : ∀ t : Fin cfg3.N, (cfg3.win 10).flush t = true ↔ t.val % 8 = 7 := by decide +kernel

/-- The feature window's block is the whole third-convolution array at every point. -/
theorem iblk0_eq (c : Dev nD) (t : Fin cfg3.N) : iblk V c 0 t = (V c main_v73 : S2352x128.Idx → Elt F .f32) := by
  funext y
  obtain ⟨e0, e1, -⟩ := idxFacts t
  show V c main_v73 (((cfg3.win 0).blk t).view.emb y) = V c main_v73 y
  refine congrArg (V c main_v73) (funext fun a => Fin.ext ?_)
  match a with
  | ⟨0, _⟩ => show win3_0.index t (0 : Fin 2) * 2352 + 1 * (y 0).val = (y 0).val; omega
  | ⟨1, _⟩ => show win3_0.index t (1 : Fin 2) * 128 + 1 * (y 1).val = (y 1).val; omega

/-- The transposed features. -/
def featK (c : Dev nD) : Vec F S48x6272 .bf16 := k3_pay1 (V c main_v73 : S2352x128.Idx → Elt F .f32)

/-! ## The components of the three cases' values -/

theorem firstVals_hid (c : Dev nD) (t : Fin cfg3.N) (h0 : t.val % 8 = 0) : (firstVals V c t h0).1 = rdHid (firstAt V c t h0).1 := by simp only [firstVals]
theorem firstVals_feat (c : Dev nD) (t : Fin cfg3.N) (h0 : t.val % 8 = 0) : (firstVals V c t h0).2.2.1 = rdFeat (firstAt V c t h0).2.1 := by simp only [firstVals]
theorem firstVals_acc (c : Dev nD) (t : Fin cfg3.N) (h0 : t.val % 8 = 0) : (firstVals V c t h0).2.2.2 = rdAcc (firstAt V c t h0).2.2.1 := by simp only [firstVals]
theorem laterVals_hid (c : Dev nD) (t : Fin cfg3.N) (h0 : ¬ t.val % 8 = 0) (h7 : ¬ t.val % 8 = 7) (xsF : Vec F S48x6272 .bf16) (xsA : Vec F S48x512 .f32) :
    (laterVals V c t h0 h7 xsF xsA).1 = rdHid (laterAt V c t h0 h7 xsF xsA).1 := by simp only [laterVals]
theorem laterVals_feat (c : Dev nD) (t : Fin cfg3.N) (h0 : ¬ t.val % 8 = 0) (h7 : ¬ t.val % 8 = 7) (xsF : Vec F S48x6272 .bf16) (xsA : Vec F S48x512 .f32) :
    (laterVals V c t h0 h7 xsF xsA).2.2.1 = xsF := by simp only [laterVals]
theorem laterVals_acc (c : Dev nD) (t : Fin cfg3.N) (h0 : ¬ t.val % 8 = 0) (h7 : ¬ t.val % 8 = 7) (xsF : Vec F S48x6272 .bf16) (xsA : Vec F S48x512 .f32) :
    (laterVals V c t h0 h7 xsF xsA).2.2.2 = rdAcc (laterAt V c t h0 h7 xsF xsA).2.1 := by simp only [laterVals]
theorem lastVals_hid (c : Dev nD) (t : Fin cfg3.N) (h7 : t.val % 8 = 7) (xsF : Vec F S48x6272 .bf16) (xsA : Vec F S48x512 .f32) :
    (lastVals V c t h7 xsF xsA).1 = rdHid (lastAt V c t h7 xsF xsA).1 := by simp only [lastVals]
theorem lastVals_logit (c : Dev nD) (t : Fin cfg3.N) (h7 : t.val % 8 = 7) (xsF : Vec F S48x6272 .bf16) (xsA : Vec F S48x512 .f32) :
    (lastVals V c t h7 xsF xsA).2.1 = rdLogit (lastAt V c t h7 xsF xsA).2.1 := by simp only [lastVals]
theorem lastVals_feat (c : Dev nD) (t : Fin cfg3.N) (h7 : t.val % 8 = 7) (xsF : Vec F S48x6272 .bf16) (xsA : Vec F S48x512 .f32) :
    (lastVals V c t h7 xsF xsA).2.2.1 = xsF := by simp only [lastVals]
theorem lastVals_acc (c : Dev nD) (t : Fin cfg3.N) (h7 : t.val % 8 = 7) (xsF : Vec F S48x6272 .bf16) (xsA : Vec F S48x512 .f32) :
    (lastVals V c t h7 xsF xsA).2.2.2 = rdAcc (lastAt V c t h7 xsF xsA).2.2.1 := by simp only [lastVals]

/-- The feature scratch holds the transposed features after every point. -/
theorem feat_inv (c : Dev nD) : ∀ (n : ℕ) (hn : n < cfg3.N), (outsAt V c n hn).2.2.1 = featK V c := by
  intro n
  induction n with
  | zero =>
    intro hn
    refine (congrArg (fun p => p.2.2.1) (outsAt_first V c ⟨0, hn⟩ (Nat.zero_mod 8))).trans ?_
    rw [firstVals_feat, featFirst, iblk0_eq]; rfl
  | succ n ih =>
    intro hn
    by_cases h0 : (n + 1) % 8 = 0
    · refine (congrArg (fun p => p.2.2.1) (outsAt_first V c ⟨n + 1, hn⟩ h0)).trans ?_
      rw [firstVals_feat, featFirst, iblk0_eq]; rfl
    · by_cases h7 : (n + 1) % 8 = 7
      · refine (congrArg (fun p => p.2.2.1) (outsAt_last V c ⟨n + 1, hn⟩ h0 h7)).trans ?_
        rw [lastVals_feat]
        exact ih (Nat.lt_of_succ_lt hn)
      · refine (congrArg (fun p => p.2.2.1) (outsAt_later V c ⟨n + 1, hn⟩ h0 h7)).trans ?_
        rw [laterVals_feat]
        exact ih (Nat.lt_of_succ_lt hn)

/-- The hidden block after a point. -/
theorem hid_at (c : Dev nD) (t : Fin cfg3.N) :
    (outsAt V c t.val t.isLt).1 = k3_pay2 (featK V c) (iblk V c 1 t) (iblk V c 2 t) (iblk V c 3 t) := by
  by_cases h0 : t.val % 8 = 0
  · rw [outsAt_first V c t h0, firstVals_hid, hidFirst, iblk0_eq]; rfl
  · by_cases h7 : t.val % 8 = 7
    · rw [outsAt_last V c t h0 h7, lastVals_hid, hidLast, feat_inv]
    · rw [outsAt_later V c t h0 h7, laterVals_hid, hidLater, feat_inv]

/-- The accumulator after a head's first block. -/
theorem acc_at_first (c : Dev nD) (t : Fin cfg3.N) (h0 : t.val % 8 = 0) :
    (outsAt V c t.val t.isLt).2.2.2 = k3_pay4 (featK V c) (iblk V c 1 t) (iblk V c 2 t) (iblk V c 3 t) (iblk V c 4 t) := by
  rw [outsAt_first V c t h0, firstVals_acc, accFirst, iblk0_eq]; rfl

/-- The accumulator after a later block, from the accumulator the point before left. -/
theorem acc_at_later (c : Dev nD) (t : Fin cfg3.N) (h0 : ¬ t.val % 8 = 0) :
    (outsAt V c t.val t.isLt).2.2.2
      = k3_pay5 (featK V c) (iblk V c 1 t) (iblk V c 2 t) (iblk V c 3 t) (iblk V c 4 t)
          (outsAt V c (t.val - 1) (Nat.lt_of_le_of_lt (Nat.sub_le _ _) t.isLt)).2.2.2 := by
  by_cases h7 : t.val % 8 = 7
  · rw [outsAt_last V c t h0 h7, lastVals_acc, accLast, feat_inv]
  · rw [outsAt_later V c t h0 h7, laterVals_acc, accLater, feat_inv]

/-- The logits after a head's last block: the third layer of the accumulator that block leaves. -/
theorem logit_at_last (c : Dev nD) (t : Fin cfg3.N) (h7 : t.val % 8 = 7) :
    (outsAt V c t.val t.isLt).2.1
      = k3_pay6 (outsAt V c t.val t.isLt).2.2.2 (iblk V c 5 t) (iblk V c 6 t) (iblk V c 7 t) (iblk V c 8 t) := by
  have h0 : ¬ t.val % 8 = 0 := by omega
  rw [outsAt_last V c t h0 h7, lastVals_logit, lastVals_acc, logitLast, accLast]

end Cert.KernelIdeal.Classifier

end
-- ==== Proof.StageDKBlocks.lean ====
import proofs.«146356_g2000405529851509_pallasbulk_1335_10_alg».proof.Proof.StageDKChain
import Idealize.ShloMosaic.Lib.ValueIdx

/-!
# The classifier's input blocks as entries of the arrays

At grid point t (head t / 8, column block t % 8) the first layer's block is columns t · 256 … of the weight array, and
likewise its scale and shift; the second layer's block is rows t · 256 …; the per-head operands are the head's rows.
-/

set_option maxRecDepth 16384

noncomputable section

namespace Cert.KernelIdeal.Classifier

open Cert.KernelIdeal Cert.KernelIdeal.Gen
open Idealize.ShloMosaic Idealize.ShloMosaic.ValueIdx Idealize.ShloMosaic.TcCoe
open Idealize.SL Idealize.SL.Sem

variable {F : FTy → Type} [FloatOps F]
variable (V : (c : Dev nD) → (b : Ref sig .tc) → Buf (Elt F) ((c : Thread nD τ).loc b))

theorem blk1 (c : Dev nD) (t : Fin cfg3.N) (k : Fin 6272) (j : Fin 256) :
    iblk V c 1 t (ix2 k j) = (V c main_arg10 : S6272x4096.Idx → Elt F .bf16) (ix2 k (⟨t.val * 256 + j.val, by have := t.isLt; have h : cfg3.N = 16 := N_3; omega⟩ : Fin 4096)) := by
  obtain ⟨-, -, e0, e1, -⟩ := idxFacts t
  show V c main_arg10 (((cfg3.win 1).blk t).view.emb (ix2 k j)) = _
  refine congrArg (V c main_arg10) (funext fun a => Fin.ext ?_)
  match a with
  | ⟨0, _⟩ => show win3_1.index t (0 : Fin 2) * 6272 + 1 * k.val = k.val; omega
  | ⟨1, _⟩ => show win3_1.index t (1 : Fin 2) * 256 + 1 * j.val = t.val * 256 + j.val; omega

theorem blk2 (c : Dev nD) (t : Fin cfg3.N) (j : Fin 256) :
    iblk V c 2 t (ix2 (0 : Fin 1) j) = (V c main_arg11 : S1x4096.Idx → Elt F .f32) (ix2 (0 : Fin 1) (⟨t.val * 256 + j.val, by have := t.isLt; have h : cfg3.N = 16 := N_3; omega⟩ : Fin 4096)) := by
  obtain ⟨-, -, -, -, e0, e1, -⟩ := idxFacts t
  show V c main_arg11 (((cfg3.win 2).blk t).view.emb (ix2 (0 : Fin 1) j)) = _
  refine congrArg (V c main_arg11) (funext fun a => Fin.ext ?_)
  match a with
  | ⟨0, _⟩ => show win3_2.index t (0 : Fin 2) * 1 + 1 * 0 = 0; omega
  | ⟨1, _⟩ => show win3_2.index t (1 : Fin 2) * 256 + 1 * j.val = t.val * 256 + j.val; omega

theorem blk3 (c : Dev nD) (t : Fin cfg3.N) (j : Fin 256) :
    iblk V c 3 t (ix2 (0 : Fin 1) j) = (V c main_arg12 : S1x4096.Idx → Elt F .f32) (ix2 (0 : Fin 1) (⟨t.val * 256 + j.val, by have := t.isLt; have h : cfg3.N = 16 := N_3; omega⟩ : Fin 4096)) := by
  obtain ⟨-, -, -, -, -, -, e0, e1, -⟩ := idxFacts t
  show V c main_arg12 (((cfg3.win 3).blk t).view.emb (ix2 (0 : Fin 1) j)) = _
  refine congrArg (V c main_arg12) (funext fun a => Fin.ext ?_)
  match a with
  | ⟨0, _⟩ => show win3_3.index t (0 : Fin 2) * 1 + 1 * 0 = 0; omega
  | ⟨1, _⟩ => show win3_3.index t (1 : Fin 2) * 256 + 1 * j.val = t.val * 256 + j.val; omega

theorem blk4 (c : Dev nD) (t : Fin cfg3.N) (i : Fin 256) (o : Fin 512) :
    iblk V c 4 t (ix2 i o) = (V c main_arg13 : S4096x512.Idx → Elt F .bf16) (ix2 (⟨t.val * 256 + i.val, by have := t.isLt; have h : cfg3.N = 16 := N_3; omega⟩ : Fin 4096) o) := by
  obtain ⟨-, -, -, -, -, -, -, -, e0, e1, -⟩ := idxFacts t
  show V c main_arg13 (((cfg3.win 4).blk t).view.emb (ix2 i o)) = _
  refine congrArg (V c main_arg13) (funext fun a => Fin.ext ?_)
  match a with
  | ⟨0, _⟩ => show win3_4.index t (0 : Fin 2) * 256 + 1 * i.val = t.val * 256 + i.val; omega
  | ⟨1, _⟩ => show win3_4.index t (1 : Fin 2) * 512 + 1 * o.val = o.val; omega

theorem blk5 (c : Dev nD) (t : Fin cfg3.N) (y : S1x1x512.Idx) :
    iblk V c 5 t y = (V c main_arg14 : S2x1x512.Idx → Elt F .f32) (ix3 (⟨t.val / 8, by have := t.isLt; have h : cfg3.N = 16 := N_3; omega⟩ : Fin 2) (0 : Fin 1) (⟨(y 2).val, (y 2).isLt⟩ : Fin 512)) := by
  obtain ⟨-, -, -, -, -, -, -, -, -, -, e0, e1, e2, -⟩ := idxFacts t
  show V c main_arg14 (((cfg3.win 5).blk t).view.emb y) = _
  refine congrArg (V c main_arg14) (funext fun a => Fin.ext ?_)
  match a with
  | ⟨0, _⟩ => show win3_5.index t (0 : Fin 3) * 1 + 1 * (y 0).val = t.val / 8; have : (y 0).val < 1 := (y 0).isLt; omega
  | ⟨1, _⟩ => show win3_5.index t (1 : Fin 3) * 1 + 1 * (y 1).val = 0; have : (y 1).val < 1 := (y 1).isLt; omega
  | ⟨2, _⟩ => show win3_5.index t (2 : Fin 3) * 512 + 1 * (y 2).val = (y 2).val; omega

theorem blk6 (c : Dev nD) (t : Fin cfg3.N) (y : S1x1x512.Idx) :
    iblk V c 6 t y = (V c main_arg15 : S2x1x512.Idx → Elt F .f32) (ix3 (⟨t.val / 8, by have := t.isLt; have h : cfg3.N = 16 := N_3; omega⟩ : Fin 2) (0 : Fin 1) (⟨(y 2).val, (y 2).isLt⟩ : Fin 512)) := by
  obtain ⟨-, -, -, -, -, -, -, -, -, -, -, -, -, e0, e1, e2, -⟩ := idxFacts t
  show V c main_arg15 (((cfg3.win 6).blk t).view.emb y) = _
  refine congrArg (V c main_arg15) (funext fun a => Fin.ext ?_)
  match a with
  | ⟨0, _⟩ => show win3_6.index t (0 : Fin 3) * 1 + 1 * (y 0).val = t.val / 8; have : (y 0).val < 1 := (y 0).isLt; omega
  | ⟨1, _⟩ => show win3_6.index t (1 : Fin 3) * 1 + 1 * (y 1).val = 0; have : (y 1).val < 1 := (y 1).isLt; omega
  | ⟨2, _⟩ => show win3_6.index t (2 : Fin 3) * 512 + 1 * (y 2).val = (y 2).val; omega

theorem blk7 (c : Dev nD) (t : Fin cfg3.N) (y : S512x128.Idx) :
    iblk V c 7 t y = (V c main_arg16 : S1024x128.Idx → Elt F .bf16)
      (ix2 (⟨t.val / 8 * 512 + (y 0).val, by have := t.isLt; have h : cfg3.N = 16 := N_3; have := idx2_lt0 y; omega⟩ : Fin 1024) (⟨(y 1).val, idx2_lt1 y⟩ : Fin 128)) := by
  obtain ⟨-, -, -, -, -, -, -, -, -, -, -, -, -, -, -, -, e0, e1, -⟩ := idxFacts t
  show V c main_arg16 (((cfg3.win 7).blk t).view.emb y) = _
  refine congrArg (V c main_arg16) (funext fun a => Fin.ext ?_)
  match a with
  | ⟨0, _⟩ => show win3_7.index t (0 : Fin 2) * 512 + 1 * (y 0).val = t.val / 8 * 512 + (y 0).val; omega
  | ⟨1, _⟩ => show win3_7.index t (1 : Fin 2) * 128 + 1 * (y 1).val = (y 1).val; omega

theorem blk8 (c : Dev nD) (t : Fin cfg3.N) (y : S1x1x128.Idx) :
    iblk V c 8 t y = (V c main_arg17 : S2x1x128.Idx → Elt F .f32) (ix3 (⟨t.val / 8, by have := t.isLt; have h : cfg3.N = 16 := N_3; omega⟩ : Fin 2) (0 : Fin 1) (⟨(y 2).val, (y 2).isLt⟩ : Fin 128)) := by
  obtain ⟨-, -, -, -, -, -, -, -, -, -, -, -, -, -, -, -, -, -, e0, e1, e2, -⟩ := idxFacts t
  show V c main_arg17 (((cfg3.win 8).blk t).view.emb y) = _
  refine congrArg (V c main_arg17) (funext fun a => Fin.ext ?_)
  match a with
  | ⟨0, _⟩ => show win3_8.index t (0 : Fin 3) * 1 + 1 * (y 0).val = t.val / 8; have : (y 0).val < 1 := (y 0).isLt; omega
  | ⟨1, _⟩ => show win3_8.index t (1 : Fin 3) * 1 + 1 * (y 1).val = 0; have : (y 1).val < 1 := (y 1).isLt; omega
  | ⟨2, _⟩ => show win3_8.index t (2 : Fin 3) * 128 + 1 * (y 2).val = (y 2).val; omega

end Cert.KernelIdeal.Classifier

end
-- ==== Proof.StageDSpec.lean ====
import Idealize.ShloMosaic.PureOps.Ideal.Laws
import Idealize.ShloMosaic.Lib.ValueIdx
import proofs.«146356_g2000405529851509_pallasbulk_1335_10_alg».proof.Proof.LibPlainDot

/-!
# The classifier's arithmetic, entry by entry

One hidden unit is the clamped, scaled and shifted inner product of an image's 6272 features with a column of the first
layer; one entry of a block's contribution to the second layer is the inner product of a row of hidden units with a
column of the second layer's rows for that block. Both are stated for a column block of any width, so that the same
definitions read a block of 256 columns and a block of 512.
-/

noncomputable section

namespace Cert.Bridge.Spec

open Idealize.ShloMosaic Idealize.ShloMosaic.ValueIdx Cert.Lib.PlainDot
open scoped BigOperators

/-- The clamp's lower bound: the value of the all-zero 32-bit word. -/
abbrev zeroWord : EReal := (FloatOps.ofBits (F := Ideal) .f32 0x00000000#32 : Ideal .f32)

/-- One hidden unit of a column block of width `C`: image `n`, column `j` of the block. -/
def hidAt {C : Nat} (x : (⟨2, ![48, 6272]⟩ : Shape).Idx → EReal) (w : (⟨2, ![6272, C]⟩ : Shape).Idx → EReal)
    (s t : (⟨2, ![1, C]⟩ : Shape).Idx → EReal) (n : Fin 48) (j : Fin C) : EReal :=
  max ((∑ k : Fin 6272, x (ix2 n k) * w (ix2 k j)) * s (ix2 (0 : Fin 1) j) + t (ix2 (0 : Fin 1) j)) zeroWord

/-- One entry of a block's contribution to the second layer: `D` hidden units of image `n` against output `o`. -/
def partAt {D : Nat} (h : Fin 48 → Fin D → EReal) (w2 : (⟨2, ![D, 512]⟩ : Shape).Idx → EReal) (n : Fin 48) (o : Fin 512) : EReal :=
  ∑ i : Fin D, h n i * w2 (ix2 i o)

/-- A plain matrix product at explicit coordinates. -/
theorem mm_ix2 {R K C : Nat} (x : (⟨2, ![R, K]⟩ : Shape).Idx → EReal) (w : (⟨2, ![K, C]⟩ : Shape).Idx → EReal) (r : Fin R) (c : Fin C) :
    mm x w (ix2 r c) = ∑ k : Fin K, x (ix2 r k) * w (ix2 k c) := by
  unfold mm
  refine Finset.sum_congr rfl fun k _ => ?_
  have e1 : rowIdx (ix2 r c) k = ix2 r k := funext fun a => by match a with | ⟨0, _⟩ => rfl | ⟨1, _⟩ => rfl
  have e2 : colIdx (ix2 r c) k = ix2 k c := funext fun a => by match a with | ⟨0, _⟩ => rfl | ⟨1, _⟩ => rfl
  rw [e1, e2]

end Cert.Bridge.Spec

end
-- ==== Proof.StageDKPay.lean ====
import proofs.«146356_g2000405529851509_pallasbulk_1335_10_alg».proof.Proof.StageDSpec
import proofs.«146356_g2000405529851509_pallasbulk_1335_10_alg».proof.Proof.Gen.KernelIdeal.Skeleton
import Idealize.ShloMosaic.Lib.Pipeline.Value
import Idealize.ShloMosaic.Lib.ValueLayout

/-!
# The kernel's classifier payloads at an index

At the ideal values: the hidden block at (image, column) is the hidden unit of the specification for the block's
256 columns; the block's contribution to the second layer at (image, output) is the inner product of the image's 256
hidden units with the block's rows of the second layer; the accumulator after a later block is what was there plus that.
-/

set_option maxRecDepth 16384

noncomputable section

namespace Cert.Bridge.KPay

open Idealize.ShloMosaic Idealize.ShloMosaic.ValueIdx Cert.Lib.PlainDot Cert.Bridge.Spec
open Cert.KernelIdeal Cert.KernelIdeal.Gen
open scoped BigOperators

/-- The hidden block at (image, column). -/
theorem pay2_apply (x : FVec Ideal S48x6272 .bf16) (w : FVec Ideal S6272x256 .bf16) (s t : FVec Ideal S1x256 .f32) (n : Fin 48) (j : Fin 256) :
    k3_pay2 (F := Ideal) x w s t (ix2 n j) = hidAt x w s t n j := by
  unfold k3_pay2 hidAt
  rw [maximumf_apply, addf_apply, mulf_apply, broadcast_apply]
  have hm : matmul (F := Ideal) dot_S48x6272_S6272x256_S48x256_1_0_0_1_n_n none x w (constant (F := Ideal) S48x256 .f32 0x00000000#32) (ix2 n j)
      = ∑ k : Fin 6272, x (ix2 n k) * w (ix2 k j) :=
    (Cert.Lib.PlainDot.matmul_zero_apply dot_S48x6272_S6272x256_S48x256_1_0_0_1_n_n rfl none x w (ix2 n j)).trans (mm_ix2 x w n j)
  have hs : broadcastTo S48x256 s broadcasts_S1x256_S48x256 (ix2 n j) = s (ix2 (0 : Fin 1) j) :=
    broadcastTo_apply s broadcasts_S1x256_S48x256 (ix2 n j) (ix2 (0 : Fin 1) j) (fun a => by match a with | ⟨0, _⟩ => rfl | ⟨1, _⟩ => rfl)
  have ht : broadcastTo S48x256 t broadcasts_S1x256_S48x256 (ix2 n j) = t (ix2 (0 : Fin 1) j) :=
    broadcastTo_apply t broadcasts_S1x256_S48x256 (ix2 n j) (ix2 (0 : Fin 1) j) (fun a => by match a with | ⟨0, _⟩ => rfl | ⟨1, _⟩ => rfl)
  rw [hm, hs, ht]

/-- The block's contribution to the second layer at (image, output). -/
theorem pay3_apply (x : FVec Ideal S48x6272 .bf16) (w : FVec Ideal S6272x256 .bf16) (s t : FVec Ideal S1x256 .f32) (w2 : FVec Ideal S256x512 .bf16)
    (n : Fin 48) (o : Fin 512) :
    k3_pay3 (F := Ideal) x w s t w2 (ix2 n o) = partAt (hidAt x w s t) w2 n o := by
  unfold k3_pay3 partAt
  refine ((Cert.Lib.PlainDot.matmul_zero_apply dot_S48x256_S256x512_S48x512_1_0_0_1_n_n rfl none
    (truncf .bf16 (k3_pay2 (F := Ideal) x w s t) bitsLt_bf16_f32) w2 (ix2 n o)).trans (mm_ix2 _ w2 n o)).trans ?_
  refine Finset.sum_congr rfl fun i _ => ?_
  exact congrArg (· * w2 (ix2 i o)) ((truncf_apply (k3_pay2 (F := Ideal) x w s t) bitsLt_bf16_f32 (ix2 n i)).trans (pay2_apply x w s t n i))

/-- The accumulator a head's first block starts. -/
theorem pay4_apply (x : FVec Ideal S48x6272 .bf16) (w : FVec Ideal S6272x256 .bf16) (s t : FVec Ideal S1x256 .f32) (w2 : FVec Ideal S256x512 .bf16)
    (n : Fin 48) (o : Fin 512) :
    k3_pay4 (F := Ideal) x w s t w2 (ix2 n o) = partAt (hidAt x w s t) w2 n o := by
  unfold k3_pay4
  rw [shapeCast_self]
  exact pay3_apply x w s t w2 n o

/-- The accumulator after a later block. -/
theorem pay5_apply (x : FVec Ideal S48x6272 .bf16) (w : FVec Ideal S6272x256 .bf16) (s t : FVec Ideal S1x256 .f32) (w2 : FVec Ideal S256x512 .bf16)
    (acc : FVec Ideal S48x512 .f32) (n : Fin 48) (o : Fin 512) :
    k3_pay5 (F := Ideal) x w s t w2 acc (ix2 n o) = acc (ix2 n o) + partAt (hidAt x w s t) w2 n o := by
  unfold k3_pay5
  rw [shapeCast_self, addf_apply]
  exact congrArg (acc (ix2 n o) + ·) (pay3_apply x w s t w2 n o)

end Cert.Bridge.KPay

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibAccChunks.lean ====
/-
  An accumulator that adds one chunk's sum per step.

  Starting from a value z and adding, at step n, the sum of the d terms at positions n · d, …, n · d + d − 1, the
  accumulator after N steps holds z plus the sum of all N · d terms. Only commutativity and associativity of addition
  are used, so the statements hold on the extended reals with no finiteness assumption. Stated for terms indexed by the
  naturals, for terms indexed below N · d, and for sixteen chunks of 512 terms indexed below 8192.
-/
import Mathlib.Algebra.BigOperators.Fin
import Mathlib.Algebra.BigOperators.Intervals
import proofs.«146356_g2000405529851509_pallasbulk_1335_10_alg».proof.Proof.LibBlockSum
import proofs.«146356_g2000405529851509_pallasbulk_1335_10_alg».proof.Proof.LibRealSums

namespace Cert.Lib.AccChunks

open Finset Cert.Lib.BlockSum

/-- An accumulator that starts at `z` and adds the term `B n` at each step `n < N` holds, after `N` steps, `z` plus
    the sum of the terms. -/
theorem acc_steps {M : Type*} [AddCommMonoid M] (N : ℕ) (B : ℕ → M) (z : M) (acc : ℕ → M) (h0 : acc 0 = z)
    (hs : ∀ n, n < N → acc (n + 1) = acc n + B n) : acc N = z + ∑ n ∈ range N, B n := by
  have h : ∀ n, n ≤ N → acc n = z + ∑ j ∈ range n, B j := by
    intro n
    induction n with
    | zero => intro _; rw [h0, sum_range_zero, add_zero]
    | succ n ih =>
      intro hn
      rw [hs n (Nat.lt_of_succ_le hn), ih (Nat.le_of_succ_le hn), sum_range_succ, add_assoc]
  exact h N le_rfl

/-- Terms indexed by the naturals: after `N` steps, each adding the `d` terms at positions `n * d + q`, the
    accumulator holds `z` plus the sum of the first `N * d` terms. -/
theorem acc_chunks {M : Type*} [AddCommMonoid M] (N d : ℕ) (f : ℕ → M) (z : M) (acc : ℕ → M) (h0 : acc 0 = z)
    (hs : ∀ n, n < N → acc (n + 1) = acc n + ∑ q : Fin d, f (n * d + q.val)) :
    acc N = z + ∑ k : Fin (N * d), f k.val := by
  rw [acc_steps N (fun n => ∑ q : Fin d, f (n * d + q.val)) z acc h0 hs,
    Cert.Lib.RealSums.sum_fin_eq_range (N * d) f, Cert.Lib.RealSums.sum_range_mul N d f]
  exact congrArg (z + ·) (sum_congr rfl fun n _ => Cert.Lib.RealSums.sum_fin_eq_range d (fun i => f (n * d + i)))

/-- Terms indexed below `N * d`: term `q` of chunk `n` is the term at position `n * d + q`. -/
theorem acc_chunks_fin {M : Type*} [AddCommMonoid M] (N d : ℕ) (g : Fin (N * d) → M) (z : M) (acc : ℕ → M)
    (h0 : acc 0 = z)
    (hs : ∀ (n : ℕ) (hn : n < N), acc (n + 1) = acc n + ∑ q : Fin d, g (pos N d ⟨n, hn⟩ q)) :
    acc N = z + ∑ k : Fin (N * d), g k := by
  have hf : ∀ k : Fin (N * d), (fun k : ℕ => if h : k < N * d then g ⟨k, h⟩ else 0) k.val = g k :=
    fun k => dif_pos k.isLt
  rw [acc_chunks N d (fun k => if h : k < N * d then g ⟨k, h⟩ else 0) z acc h0 (fun n hn => by
    rw [hs n hn]
    exact congrArg (acc n + ·) (sum_congr rfl fun q _ => (hf (pos N d ⟨n, hn⟩ q)).symm))]
  exact congrArg (z + ·) (sum_congr rfl fun k _ => hf k)

/-- Sixteen chunks of 512 terms indexed below 8192. -/
theorem acc_sixteen_chunks {M : Type*} [AddCommMonoid M] (g : Fin 8192 → M) (z : M) (acc : ℕ → M) (h0 : acc 0 = z)
    (hs : ∀ (n : ℕ) (hn : n < 16), acc (n + 1)
      = acc n + ∑ q : Fin 512, g ⟨n * 512 + q.val, by have := q.isLt; omega⟩) :
    acc 16 = z + ∑ k : Fin 8192, g k :=
  acc_chunks_fin 16 512 g z acc h0 hs

/-- The same with the sixteen chunk sums written as one sum over the chunks. -/
theorem sum_sixteen_chunks {M : Type*} [AddCommMonoid M] (g : Fin 8192 → M) :
    ∑ b : Fin 16, ∑ q : Fin 512, g ⟨b.val * 512 + q.val, by have := b.isLt; have := q.isLt; omega⟩
      = ∑ k : Fin 8192, g k :=
  (sum_blocks 16 512 g).symm

end Cert.Lib.AccChunks
-- ==== Proof.StageDSpecArr.lean ====
import proofs.«146356_g2000405529851509_pallasbulk_1335_10_alg».proof.Proof.StageDSpec
import proofs.«146356_g2000405529851509_pallasbulk_1335_10_alg».proof.Proof.LibAccChunks

/-!
# The classifier's two arrays as functions of the features and the weights

The hidden layer has 2 × 2048 units per image: unit `q` of head `hh` uses column `hh · 2048 + q` of the first layer. The
second layer's accumulator of a head is the sum, over the head's 2048 hidden units, of the unit times its row of the second
layer, started from zero; it is reached by adding one column block's part at a time, in blocks of any width dividing 2048.
The logits of a head are a fixed function of that accumulator and of the head's rows of the remaining operands.
-/

noncomputable section

namespace Cert.Bridge.Spec

open Idealize.ShloMosaic Idealize.ShloMosaic.ValueIdx
open scoped BigOperators

abbrev Feat := (⟨2, ![48, 6272]⟩ : Shape).Idx → EReal
abbrev Lay1 := (⟨2, ![6272, 4096]⟩ : Shape).Idx → EReal
abbrev Row1 := (⟨2, ![1, 4096]⟩ : Shape).Idx → EReal
abbrev Lay2 := (⟨2, ![4096, 512]⟩ : Shape).Idx → EReal
abbrev Lay3 := (⟨2, ![1024, 128]⟩ : Shape).Idx → EReal

/-- The first layer's column of head `hh`'s hidden unit `q`. -/
def col (hh : Fin 2) (q : Fin 2048) : Fin 4096 := ⟨hh.val * 2048 + q.val, by omega⟩

/-- One term of the second layer's sum. -/
def term (x : Feat) (w1 : Lay1) (s1 t1 : Row1) (w2 : Lay2) (hh : Fin 2) (n : Fin 48) (o : Fin 512) (q : Fin 2048) : EReal :=
  hidAt x w1 s1 t1 n (col hh q) * w2 (ix2 (col hh q) o)

/-- The finished accumulator of head `hh` at (image, output). -/
def accAt (x : Feat) (w1 : Lay1) (s1 t1 : Row1) (w2 : Lay2) (hh : Fin 2) (n : Fin 48) (o : Fin 512) : EReal :=
  0 + ∑ q : Fin 2048, term x w1 s1 t1 w2 hh n o q

/-- The same as a 48 × 512 array. -/
def accFun (x : Feat) (w1 : Lay1) (s1 t1 : Row1) (w2 : Lay2) (hh : Fin 2) : (⟨2, ![48, 512]⟩ : Shape).Idx → EReal :=
  fun y => accAt x w1 s1 t1 w2 hh ⟨(y 0).val, idx2_lt0 y⟩ ⟨(y 1).val, idx2_lt1 y⟩

/-- An accumulator that starts at zero and adds, at step `j` of `N`, the `d` terms of column block `j` ends at the
    finished accumulator (`N · d = 2048`: eight blocks of 256 or four of 512). -/
theorem acc_by_blocks (N d : ℕ) (hNd : N * d = 2048) (x : Feat) (w1 : Lay1) (s1 t1 : Row1) (w2 : Lay2) (hh : Fin 2) (n : Fin 48) (o : Fin 512)
    (acc : ℕ → EReal) (h0 : acc 0 = 0)
    (hs : ∀ (j : ℕ) (hj : j < N), acc (j + 1)
      = acc j + ∑ i : Fin d, term x w1 s1 t1 w2 hh n o ⟨j * d + i.val, by
          have := i.isLt
          have h : (j + 1) * d ≤ N * d := Nat.mul_le_mul_right d hj
          rw [Nat.succ_mul] at h
          omega⟩) :
    acc N = accAt x w1 s1 t1 w2 hh n o := by
  subst_vars
  unfold accAt
  have key := Cert.Lib.AccChunks.acc_chunks_fin N d (fun k : Fin (N * d) => term x w1 s1 t1 w2 hh n o ⟨k.val, by have := k.isLt; omega⟩) 0 acc h0
    (fun j hj => by rw [hs j hj]; rfl)
  rw [key]
  refine congrArg (0 + ·) ?_
  exact Fintype.sum_equiv (finCongr hNd) _ _ (fun k => rfl)

/-- Head `hh`'s row of a per-head row operand. -/
def headRow {C : Nat} (a : (⟨3, ![2, 1, C]⟩ : Shape).Idx → EReal) (hh : Fin 2) : (⟨3, ![1, 1, C]⟩ : Shape).Idx → EReal :=
  fun y => a (ix3 hh (0 : Fin 1) (⟨(y 2).val, (y 2).isLt⟩ : Fin C))

/-- Head `hh`'s 512 rows of the third layer. -/
def headRows (a : Lay3) (hh : Fin 2) : (⟨2, ![512, 128]⟩ : Shape).Idx → EReal :=
  fun y => a (ix2 (⟨hh.val * 512 + (y 0).val, by have := idx2_lt0 y; omega⟩ : Fin 1024) (⟨(y 1).val, idx2_lt1 y⟩ : Fin 128))

/-- The hidden layer laid out with rows (head, image) and 2048 columns. -/
def hidRows (x : Feat) (w1 : Lay1) (s1 t1 : Row1) : (⟨2, ![96, 2048]⟩ : Shape).Idx → EReal :=
  fun i => hidAt x w1 s1 t1 (⟨(i 0).val % 48, Nat.mod_lt _ (by decide)⟩ : Fin 48)
    (⟨(i 0).val / 48 * 2048 + (i 1).val, by have := idx2_lt0 i; have := idx2_lt1 i; omega⟩ : Fin 4096)

/-- The hidden layer laid out with rows image and (head, 2048) columns. -/
def hidCols (x : Feat) (w1 : Lay1) (s1 t1 : Row1) : (⟨2, ![48, 4096]⟩ : Shape).Idx → EReal :=
  fun i => hidAt x w1 s1 t1 (⟨(i 0).val, idx2_lt0 i⟩ : Fin 48) (⟨(i 1).val, idx2_lt1 i⟩ : Fin 4096)

/-- The shape of the last layer's computation: from an accumulator and a head's operands to a head's padded logits. -/
abbrev LastLayer := ((⟨2, ![48, 512]⟩ : Shape).Idx → EReal) → ((⟨3, ![1, 1, 512]⟩ : Shape).Idx → EReal) → ((⟨3, ![1, 1, 512]⟩ : Shape).Idx → EReal)
  → ((⟨2, ![512, 128]⟩ : Shape).Idx → EReal) → ((⟨3, ![1, 1, 128]⟩ : Shape).Idx → EReal) → (⟨2, ![48, 128]⟩ : Shape).Idx → EReal

/-- The padded logits, rows (head, image). -/
def logRows (P : LastLayer) (x : Feat) (w1 : Lay1) (s1 t1 : Row1) (w2 : Lay2) (s2 t2 : (⟨3, ![2, 1, 512]⟩ : Shape).Idx → EReal) (w3 : Lay3)
    (b3 : (⟨3, ![2, 1, 128]⟩ : Shape).Idx → EReal) : (⟨2, ![96, 128]⟩ : Shape).Idx → EReal :=
  fun i =>
    let hh : Fin 2 := ⟨(i 0).val / 48, by have := idx2_lt0 i; omega⟩
    P (accFun x w1 s1 t1 w2 hh) (headRow s2 hh) (headRow t2 hh) (headRows w3 hh) (headRow b3 hh)
      (ix2 (⟨(i 0).val % 48, Nat.mod_lt _ (by decide)⟩ : Fin 48) (⟨(i 1).val, idx2_lt1 i⟩ : Fin 128))

end Cert.Bridge.Spec

end
-- ==== Proof.StageDKValue.lean ====
import proofs.«146356_g2000405529851509_pallasbulk_1335_10_alg».proof.Proof.StageDKBlocks
import proofs.«146356_g2000405529851509_pallasbulk_1335_10_alg».proof.Proof.StageDKPay
import proofs.«146356_g2000405529851509_pallasbulk_1335_10_alg».proof.Proof.StageDSpecArr

/-!
# The kernel classifier's buffers after each point, entry by entry

At the ideal values the hidden block after point t (head t / 8, block t % 8) holds the specification's hidden units of
columns t · 256 …; the accumulator after a head's last block is the finished accumulator of the specification, reached by
eight steps of 256 terms (the first step assigns, which is adding to zero); the logits are the third layer's payload of it
and of the head's rows of the remaining operands.
-/

set_option maxRecDepth 16384

noncomputable section

namespace Cert.KernelIdeal.Classifier

open Cert.KernelIdeal Cert.KernelIdeal.Gen
open Idealize.ShloMosaic Idealize.ShloMosaic.ValueIdx Idealize.ShloMosaic.TcCoe
open Idealize.SL Idealize.SL.Sem
open Cert.Bridge.Spec Cert.Bridge.KPay
open scoped BigOperators

variable (V : (c : Dev nD) → (b : Ref sig .tc) → Buf (Elt Ideal) ((c : Thread nD τ).loc b))

/-- The weight arrays as the region finds them. -/
abbrev aW1 (c : Dev nD) : Lay1 := (V c main_arg10 : S6272x4096.Idx → EReal)
abbrev aS1 (c : Dev nD) : Row1 := (V c main_arg11 : S1x4096.Idx → EReal)
abbrev aT1 (c : Dev nD) : Row1 := (V c main_arg12 : S1x4096.Idx → EReal)
abbrev aW2 (c : Dev nD) : Lay2 := (V c main_arg13 : S4096x512.Idx → EReal)
abbrev aS2 (c : Dev nD) : S2x1x512.Idx → EReal := (V c main_arg14 : S2x1x512.Idx → EReal)
abbrev aT2 (c : Dev nD) : S2x1x512.Idx → EReal := (V c main_arg15 : S2x1x512.Idx → EReal)
abbrev aW3 (c : Dev nD) : Lay3 := (V c main_arg16 : S1024x128.Idx → EReal)
abbrev aB3 (c : Dev nD) : S2x1x128.Idx → EReal := (V c main_arg17 : S2x1x128.Idx → EReal)
/-- The transposed features at the ideal values. -/
abbrev aFeat (c : Dev nD) : Feat := (featK V c : S48x6272.Idx → EReal)

/-- The first layer's column of column j of point t's block. -/
def gcol (t : Fin cfg3.N) (j : Fin 256) : Fin 4096 := ⟨t.val * 256 + j.val, by have := t.isLt; have h : cfg3.N = 16 := N_3; omega⟩

/-- A hidden unit computed from point t's blocks is the specification's at the block's place. -/
theorem hid_block (c : Dev nD) (t : Fin cfg3.N) (n : Fin 48) (j : Fin 256) :
    hidAt (C := 256) (aFeat V c) (iblk V c 1 t) (iblk V c 2 t) (iblk V c 3 t) n j
      = hidAt (C := 4096) (aFeat V c) (aW1 V c) (aS1 V c) (aT1 V c) n (gcol t j) := by
  unfold hidAt
  have hs : ∑ k : Fin 6272, aFeat V c (ix2 n k) * iblk V c 1 t (ix2 k j) = ∑ k : Fin 6272, aFeat V c (ix2 n k) * aW1 V c (ix2 k (gcol t j)) :=
    Finset.sum_congr rfl fun k _ => congrArg (aFeat V c (ix2 n k) * ·) (blk1 V c t k j)
  have h2 : iblk V c 2 t (ix2 (0 : Fin 1) j) = aS1 V c (ix2 (0 : Fin 1) (gcol t j)) := blk2 V c t j
  have h3 : iblk V c 3 t (ix2 (0 : Fin 1) j) = aT1 V c (ix2 (0 : Fin 1) (gcol t j)) := blk3 V c t j
  rw [hs, h2, h3]

/-- The hidden block after point t, at (image, column). -/
theorem hid_val (c : Dev nD) (t : Fin cfg3.N) (n : Fin 48) (j : Fin 256) :
    (outsAt V c t.val t.isLt).1 (ix2 n j) = hidAt (C := 4096) (aFeat V c) (aW1 V c) (aS1 V c) (aT1 V c) n (gcol t j) := by
  rw [hid_at]
  exact (pay2_apply _ _ _ _ n j).trans (hid_block V c t n j)

/-- Block j of head hh is point hh · 8 + j. -/
def pt (hh : Fin 2) (j : ℕ) (hj : j < 8) : Fin cfg3.N := ⟨hh.val * 8 + j, by have h : cfg3.N = 16 := N_3; omega⟩

/-- A head's last point. -/
abbrev lastPt (hh : Fin 2) : Fin cfg3.N := pt hh 7 (by decide)

/-- The block's contribution to the second layer is the block's 256 terms of the head's sum. -/
theorem part_val (c : Dev nD) (hh : Fin 2) (j : ℕ) (hj : j < 8) (n : Fin 48) (o : Fin 512) :
    partAt (hidAt (C := 256) (aFeat V c) (iblk V c 1 (pt hh j hj)) (iblk V c 2 (pt hh j hj)) (iblk V c 3 (pt hh j hj))) (iblk V c 4 (pt hh j hj)) n o
      = ∑ i : Fin 256, term (aFeat V c) (aW1 V c) (aS1 V c) (aT1 V c) (aW2 V c) hh n o ⟨j * 256 + i.val, by have := i.isLt; omega⟩ := by
  unfold partAt term
  refine Finset.sum_congr rfl fun i _ => ?_
  have e : gcol (pt hh j hj) i = col hh ⟨j * 256 + i.val, by have := i.isLt; omega⟩ :=
    Fin.ext (by show (hh.val * 8 + j) * 256 + i.val = hh.val * 2048 + (j * 256 + i.val); omega)
  have h4 : iblk V c 4 (pt hh j hj) (ix2 i o) = aW2 V c (ix2 (gcol (pt hh j hj) i) o) := blk4 V c (pt hh j hj) i o
  rw [hid_block V c (pt hh j hj) n i, h4, e]

/-- The accumulator of head hh after its blocks 0 … j − 1, at (image, output); zero before the first. -/
def accSeq (c : Dev nD) (hh : Fin 2) (n : Fin 48) (o : Fin 512) : ℕ → EReal
  | 0 => 0
  | j + 1 => if h : j < 8 then (outsAt V c (pt hh j h).val (pt hh j h).isLt).2.2.2 (ix2 n o) else 0

theorem accSeq_succ (c : Dev nD) (hh : Fin 2) (n : Fin 48) (o : Fin 512) (j : ℕ) (hj : j < 8) :
    accSeq V c hh n o (j + 1) = (outsAt V c (pt hh j hj).val (pt hh j hj).isLt).2.2.2 (ix2 n o) := dif_pos hj

theorem accSeq_step (c : Dev nD) (hh : Fin 2) (n : Fin 48) (o : Fin 512) (j : ℕ) (hj : j < 8) :
    accSeq V c hh n o (j + 1) = accSeq V c hh n o j
      + ∑ i : Fin 256, term (aFeat V c) (aW1 V c) (aS1 V c) (aT1 V c) (aW2 V c) hh n o ⟨j * 256 + i.val, by have := i.isLt; omega⟩ := by
  have e1 : accSeq V c hh n o (j + 1) = (outsAt V c (pt hh j hj).val (pt hh j hj).isLt).2.2.2 (ix2 n o) := dif_pos hj
  rw [e1]
  cases j with
  | zero =>
    have h0 : (pt hh 0 hj).val % 8 = 0 := by show (hh.val * 8 + 0) % 8 = 0; omega
    rw [acc_at_first V c (pt hh 0 hj) h0]
    refine ((pay4_apply _ _ _ _ _ n o).trans (part_val V c hh 0 hj n o)).trans ?_
    exact (zero_add _).symm
  | succ j =>
    have h0 : ¬ (pt hh (j + 1) hj).val % 8 = 0 := by show ¬ (hh.val * 8 + (j + 1)) % 8 = 0; omega
    have e2 : accSeq V c hh n o (j + 1) = (outsAt V c (pt hh j (by omega)).val (pt hh j (by omega)).isLt).2.2.2 (ix2 n o) := dif_pos (by omega)
    rw [acc_at_later V c (pt hh (j + 1) hj) h0, e2]
    exact (pay5_apply _ _ _ _ _ _ n o).trans (congrArg (_ + ·) (part_val V c hh (j + 1) hj n o))

/-- The accumulator after a head's last block is the specification's finished accumulator. -/
theorem acc_val (c : Dev nD) (hh : Fin 2) (n : Fin 48) (o : Fin 512) :
    (outsAt V c (lastPt hh).val (lastPt hh).isLt).2.2.2 (ix2 n o)
      = accAt (aFeat V c) (aW1 V c) (aS1 V c) (aT1 V c) (aW2 V c) hh n o := by
  have key := acc_by_blocks 8 256 rfl (aFeat V c) (aW1 V c) (aS1 V c) (aT1 V c) (aW2 V c) hh n o (accSeq V c hh n o) rfl
    (fun j hj => accSeq_step V c hh n o j hj)
  rw [← key]
  exact (accSeq_succ V c hh n o 7 (by decide)).symm

/-- The logits after a head's last block. -/
theorem logit_val (c : Dev nD) (hh : Fin 2) :
    (outsAt V c (lastPt hh).val (lastPt hh).isLt).2.1
      = k3_pay6 (F := Ideal) (accFun (aFeat V c) (aW1 V c) (aS1 V c) (aT1 V c) (aW2 V c) hh) (headRow (aS2 V c) hh) (headRow (aT2 V c) hh)
          (headRows (aW3 V c) hh) (headRow (aB3 V c) hh) := by
  have h7 : (lastPt hh).val % 8 = 7 := by show (hh.val * 8 + 7) % 8 = 7; omega
  have hd : (⟨(lastPt hh).val / 8, by have := (lastPt hh).isLt; have h : cfg3.N = 16 := N_3; omega⟩ : Fin 2) = hh :=
    Fin.ext (by show (hh.val * 8 + 7) / 8 = hh.val; omega)
  have eA : (outsAt V c (lastPt hh).val (lastPt hh).isLt).2.2.2
      = accFun (aFeat V c) (aW1 V c) (aS1 V c) (aT1 V c) (aW2 V c) hh := by
    funext y
    obtain ⟨n, o, rfl⟩ : ∃ (n : Fin 48) (o : Fin 512), y = ix2 n o := ⟨y 0, y 1, eq_ix2 y⟩
    exact acc_val V c hh n o
  have e5 : iblk V c 5 (lastPt hh) = headRow (aS2 V c) hh := by
    funext y; rw [blk5, hd]; rfl
  have e6 : iblk V c 6 (lastPt hh) = headRow (aT2 V c) hh := by
    funext y; rw [blk6, hd]; rfl
  have e7 : iblk V c 7 (lastPt hh) = headRows (aW3 V c) hh := by
    funext y; rw [blk7]; unfold headRows
    refine congrArg (aW3 V c) (funext fun a => Fin.ext ?_)
    match a with
    | ⟨0, _⟩ => show (hh.val * 8 + 7) / 8 * 512 + (y 0).val = hh.val * 512 + (y 0).val; omega
    | ⟨1, _⟩ => rfl
  have e8 : iblk V c 8 (lastPt hh) = headRow (aB3 V c) hh := by
    funext y; rw [blk8, hd]; rfl
  rw [logit_at_last V c (lastPt hh) h7, eA, e5, e6, e7, e8]

end Cert.KernelIdeal.Classifier

end
-- ==== Proof.StageDKArray.lean ====
import proofs.«146356_g2000405529851509_pallasbulk_1335_10_alg».proof.Proof.StageDKValue

/-!
# The kernel classifier's two result arrays

The hidden window's sixteen blocks (head, column block) tile the 96 × 2048 array and each is written back holding the
specification's hidden units at its place; the logits window's two blocks (one per head, written back after the head's
last column block) tile the 96 × 128 array. Hence both arrays are the specification's, entry by entry.
-/

set_option maxRecDepth 16384

noncomputable section

namespace Cert.KernelIdeal.Classifier

open Cert.KernelIdeal Cert.KernelIdeal.Gen
open Idealize.ShloMosaic Idealize.ShloMosaic.ValueIdx Idealize.ShloMosaic.TcCoe
open Idealize.SL Idealize.SL.Sem
open Cert.Bridge.Spec Cert.Bridge.KPay
open scoped BigOperators

variable (V : (c : Dev nD) → (b : Ref sig .tc) → Buf (Elt Ideal) ((c : Thread nD τ).loc b))

/-! ## The hidden array -/

theorem mem_blk9 (t : Fin cfg3.N) (i : S96x2048.Idx) :
    i ∈ ((cfg3.win 9).blk t).view.set ↔ ∀ a : Fin 2, win3_9.index t a * S48x256.size a ≤ (i a).val ∧ (i a).val < win3_9.index t a * S48x256.size a + S48x256.size a := by
  show i ∈ ((View.whole main_v74_0).slice (win3_9.rect t)).set ↔ _
  rw [View.set_slice_whole, Rect.mem_set_unit]
  exact Iff.rfl

/-- What point t writes back into the hidden array is block t of the specification's hidden layer. -/
theorem flushed9 (c : Dev nD) (t : Fin cfg3.N) :
    (dat V c).flushed 9 t = ((cfg3.win 9).blk t).view.read (Elt Ideal) (hidRows (aFeat V c) (aW1 V c) (aS1 V c) (aT1 V c)) := by
  show (cfg3.win 9).cut (grid3.coords t) ((dat V c).after 9 t) = _
  rw [after9]
  funext y
  obtain ⟨n, j, rfl⟩ : ∃ (n : Fin 48) (j : Fin 256), y = ix2 n j := ⟨y 0, y 1, eq_ix2 y⟩
  show (outsAt V c t.val t.isLt).1 (ix2 n j) = hidRows (aFeat V c) (aW1 V c) (aS1 V c) (aT1 V c) (((cfg3.win 9).blk t).view.emb (ix2 n j))
  rw [hid_val]
  unfold hidRows
  have e := idxFacts t
  have e0 : win3_9.index t (0 : Fin 2) = t.val / 8 := e.2.2.2.2.2.2.2.2.2.2.2.2.2.2.2.2.2.2.2.2.2.1
  have e1 : win3_9.index t (1 : Fin 2) = t.val % 8 := e.2.2.2.2.2.2.2.2.2.2.2.2.2.2.2.2.2.2.2.2.2.2.1
  have h0 : (((cfg3.win 9).blk t).view.emb (ix2 n j) 0).val = win3_9.index t (0 : Fin 2) * 48 + 1 * n.val := rfl
  have h1 : (((cfg3.win 9).blk t).view.emb (ix2 n j) 1).val = win3_9.index t (1 : Fin 2) * 256 + 1 * j.val := rfl
  have hn : n.val < 48 := n.isLt
  have hj : j.val < 256 := j.isLt
  have ht : t.val < 16 := by have := t.isLt; have h : cfg3.N = 16 := N_3; omega
  refine congrArg₂ (hidAt (C := 4096) (aFeat V c) (aW1 V c) (aS1 V c) (aT1 V c)) (Fin.ext ?_) (Fin.ext ?_)
  · show n.val = (((cfg3.win 9).blk t).view.emb (ix2 n j) 0).val % 48
    rw [h0, e0]; omega
  · show t.val * 256 + j.val = (((cfg3.win 9).blk t).view.emb (ix2 n j) 0).val / 48 * 2048 + (((cfg3.win 9).blk t).view.emb (ix2 n j) 1).val
    rw [h0, h1, e0, e1]; omega

/-- Every entry of the hidden array lies in some point's block. -/
theorem cover9 (i : S96x2048.Idx) : ∃ t : Fin cfg3.N, (cfg3.win 9).flush t = true ∧ i ∈ ((cfg3.win 9).blk t).view.set := by
  have hi0 : (i 0).val < 96 := idx2_lt0 i
  have hi1 : (i 1).val < 2048 := idx2_lt1 i
  have hN : cfg3.N = 16 := N_3
  refine ⟨⟨(i 0).val / 48 * 8 + (i 1).val / 256, by omega⟩, flush9 _, ?_⟩
  rw [mem_blk9]
  have e := idxFacts ⟨(i 0).val / 48 * 8 + (i 1).val / 256, by omega⟩
  have e0 := e.2.2.2.2.2.2.2.2.2.2.2.2.2.2.2.2.2.2.2.2.2.1
  have e1 := e.2.2.2.2.2.2.2.2.2.2.2.2.2.2.2.2.2.2.2.2.2.2.1
  intro a
  match a with
  | ⟨0, _⟩ =>
    show win3_9.index _ (0 : Fin 2) * 48 ≤ (i 0).val ∧ (i 0).val < win3_9.index _ (0 : Fin 2) * 48 + 48
    rw [e0]; show ((i 0).val / 48 * 8 + (i 1).val / 256) / 8 * 48 ≤ (i 0).val ∧ (i 0).val < ((i 0).val / 48 * 8 + (i 1).val / 256) / 8 * 48 + 48
    omega
  | ⟨1, _⟩ =>
    show win3_9.index _ (1 : Fin 2) * 256 ≤ (i 1).val ∧ (i 1).val < win3_9.index _ (1 : Fin 2) * 256 + 256
    rw [e1]; show ((i 0).val / 48 * 8 + (i 1).val / 256) % 8 * 256 ≤ (i 1).val ∧ (i 1).val < ((i 0).val / 48 * 8 + (i 1).val / 256) % 8 * 256 + 256
    omega

/-- The hidden array after the region. -/
theorem arr9 (c : Dev nD) : (dat V c).arrAt 9 cfg3.N = hidRows (aFeat V c) (aW1 V c) (aS1 V c) (aT1 V c) :=
  (dat V c).arrAt_eq_of_cover 9 _ (fun t _ => flushed9 V c t) cover9

/-! ## The logits array -/

theorem mem_blk10 (t : Fin cfg3.N) (i : S96x128.Idx) :
    i ∈ ((cfg3.win 10).blk t).view.set ↔ ∀ a : Fin 2, win3_10.index t a * S48x128.size a ≤ (i a).val ∧ (i a).val < win3_10.index t a * S48x128.size a + S48x128.size a := by
  show i ∈ ((View.whole main_v74_1).slice (win3_10.rect t)).set ↔ _
  rw [View.set_slice_whole, Rect.mem_set_unit]
  exact Iff.rfl

/-- What a head's last point writes back into the logits array is the head's block of the specification's logits. -/
theorem flushed10 (c : Dev nD) (t : Fin cfg3.N) (hf : (cfg3.win 10).flush t = true) :
    (dat V c).flushed 10 t = ((cfg3.win 10).blk t).view.read (Elt Ideal)
      (logRows (k3_pay6 (F := Ideal)) (aFeat V c) (aW1 V c) (aS1 V c) (aT1 V c) (aW2 V c) (aS2 V c) (aT2 V c) (aW3 V c) (aB3 V c)) := by
  have h7 : t.val % 8 = 7 := (flush10 t).mp hf
  have ht : t.val < 16 := by have := t.isLt; have h : cfg3.N = 16 := N_3; omega
  obtain ⟨hh, rfl⟩ : ∃ hh : Fin 2, t = lastPt hh :=
    ⟨⟨t.val / 8, by omega⟩, Fin.ext (by show t.val = t.val / 8 * 8 + 7; omega)⟩
  show (cfg3.win 10).cut (grid3.coords (lastPt hh)) ((dat V c).after 10 (lastPt hh)) = _
  rw [after10]
  funext y
  obtain ⟨n, l, rfl⟩ : ∃ (n : Fin 48) (l : Fin 128), y = ix2 n l := ⟨y 0, y 1, eq_ix2 y⟩
  show (outsAt V c (lastPt hh).val (lastPt hh).isLt).2.1 (ix2 n l)
    = logRows (k3_pay6 (F := Ideal)) (aFeat V c) (aW1 V c) (aS1 V c) (aT1 V c) (aW2 V c) (aS2 V c) (aT2 V c) (aW3 V c) (aB3 V c)
        (((cfg3.win 10).blk (lastPt hh)).view.emb (ix2 n l))
  rw [logit_val V c hh]
  unfold logRows
  have e := idxFacts (lastPt hh)
  have e0 : win3_10.index (lastPt hh) (0 : Fin 2) = (lastPt hh).val / 8 := e.2.2.2.2.2.2.2.2.2.2.2.2.2.2.2.2.2.2.2.2.2.2.2.1
  have e1 : win3_10.index (lastPt hh) (1 : Fin 2) = 0 := e.2.2.2.2.2.2.2.2.2.2.2.2.2.2.2.2.2.2.2.2.2.2.2.2
  have h0 : (((cfg3.win 10).blk (lastPt hh)).view.emb (ix2 n l) 0).val = win3_10.index (lastPt hh) (0 : Fin 2) * 48 + 1 * n.val := rfl
  have h1 : (((cfg3.win 10).blk (lastPt hh)).view.emb (ix2 n l) 1).val = win3_10.index (lastPt hh) (1 : Fin 2) * 128 + 1 * l.val := rfl
  have hv : (lastPt hh).val = hh.val * 8 + 7 := rfl
  have hn : n.val < 48 := n.isLt
  have hhh : hh.val < 2 := hh.isLt
  have ehh : (⟨(((cfg3.win 10).blk (lastPt hh)).view.emb (ix2 n l) 0).val / 48, by rw [h0, e0, hv]; omega⟩ : Fin 2) = hh :=
    Fin.ext (by show (((cfg3.win 10).blk (lastPt hh)).view.emb (ix2 n l) 0).val / 48 = hh.val; rw [h0, e0, hv]; omega)
  have en : (⟨(((cfg3.win 10).blk (lastPt hh)).view.emb (ix2 n l) 0).val % 48, Nat.mod_lt _ (by decide)⟩ : Fin 48) = n :=
    Fin.ext (by show (((cfg3.win 10).blk (lastPt hh)).view.emb (ix2 n l) 0).val % 48 = n.val; rw [h0, e0, hv]; omega)
  have el : (⟨(((cfg3.win 10).blk (lastPt hh)).view.emb (ix2 n l) 1).val, idx2_lt1 _⟩ : Fin 128) = l :=
    Fin.ext (by show (((cfg3.win 10).blk (lastPt hh)).view.emb (ix2 n l) 1).val = l.val; rw [h1, e1]; omega)
  dsimp only
  rw [ehh, en, el]

/-- Every entry of the logits array lies in the block some head's last point writes back. -/
theorem cover10 (i : S96x128.Idx) : ∃ t : Fin cfg3.N, (cfg3.win 10).flush t = true ∧ i ∈ ((cfg3.win 10).blk t).view.set := by
  have hi0 : (i 0).val < 96 := idx2_lt0 i
  have hi1 : (i 1).val < 128 := idx2_lt1 i
  have hN : cfg3.N = 16 := N_3
  refine ⟨⟨(i 0).val / 48 * 8 + 7, by omega⟩, (flush10 _).mpr (by show ((i 0).val / 48 * 8 + 7) % 8 = 7; omega), ?_⟩
  rw [mem_blk10]
  have e := idxFacts ⟨(i 0).val / 48 * 8 + 7, by omega⟩
  have e0 := e.2.2.2.2.2.2.2.2.2.2.2.2.2.2.2.2.2.2.2.2.2.2.2.1
  have e1 := e.2.2.2.2.2.2.2.2.2.2.2.2.2.2.2.2.2.2.2.2.2.2.2.2
  intro a
  match a with
  | ⟨0, _⟩ =>
    show win3_10.index _ (0 : Fin 2) * 48 ≤ (i 0).val ∧ (i 0).val < win3_10.index _ (0 : Fin 2) * 48 + 48
    rw [e0]; show ((i 0).val / 48 * 8 + 7) / 8 * 48 ≤ (i 0).val ∧ (i 0).val < ((i 0).val / 48 * 8 + 7) / 8 * 48 + 48
    omega
  | ⟨1, _⟩ =>
    show win3_10.index _ (1 : Fin 2) * 128 ≤ (i 1).val ∧ (i 1).val < win3_10.index _ (1 : Fin 2) * 128 + 128
    rw [e1]; omega

/-- The logits array after the region. -/
theorem arr10 (c : Dev nD) : (dat V c).arrAt 10 cfg3.N
    = logRows (k3_pay6 (F := Ideal)) (aFeat V c) (aW1 V c) (aS1 V c) (aT1 V c) (aW2 V c) (aS2 V c) (aT2 V c) (aW3 V c) (aB3 V c) :=
  (dat V c).arrAt_eq_of_cover 10 _ (fun t hf => flushed10 V c t hf) cover10

end Cert.KernelIdeal.Classifier

end
-- ==== Proof.StageDRPieces.lean ====
import proofs.«146356_g2000405529851509_pallasbulk_1335_10_alg».proof.Proof.RIClassifier
import Idealize.ShloMosaic.Lib.Pipeline.Value

/-!
# The reference classifier's stored pieces as payloads of the point's blocks

Each run of the reference's classifier body ends with one whole-buffer store per buffer it writes (at a head's first
block the accumulator is first filled with zeros and then overwritten). Read back, the hidden block is the clamped,
scaled and shifted product of the features with the first layer's column block; the accumulator is what it held before
(zeros at a head's first block) plus this block's contribution to the second layer; the logits are the third layer
applied to the finished accumulator.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator scratch reads back what it was handed at. -/
theorem readScAcc (h : scAcc.IsWhole) (x : Vec F S48x512 .f32) : View.read (Elt F) (View.whole cc3_scratch0) (h.unread x) = x := h.read_unread x

/-- With every load of a whole block read as the block. -/
local macro "whole_loads" : tactic =>
  `(tactic| (simp only [View.readAt_eq_ld, Memref.IsWhole.read_unread, readScAcc,
               View.readCov_unit_zero (S := S48x512) _ hz2,
               View.ld_unit_zero (S := S48x6272) hz2, View.ld_unit_zero (S := S6272x512) hz2, View.ld_unit_zero (S := S1x512) hz2,
               View.ld_unit_zero (S := S512x512) hz2, View.ld_unit_zero (S := S48x512) hz2,
               View.ld_unit_zero (S := S512x128) hz2, View.ld_unit_zero (S := S1x1x512) hz3, View.ld_unit_zero (S := S1x1x128) hz3]))

/-! ## A head's first block -/

theorem hidFirst (c : Dev nD) (t : Fin cfg3.N) (h0 : t.val % 4 = 0) :
    rdHid (firstAt V c t h0).1 = k3_pay2 (iblk V c 0 t) (iblk V c 1 t) (iblk V c 2 t) (iblk V c 3 t) := by
  unfold rdHid
  rw [View.read_writes_eq_canon _ _ _ (coverHidFirst V c t h0)]
  unfold firstAt runFirst
  dsimp only
  sl_unfold_words
  rw [View.canon_cons_unit_zero (S := S48x512) hz2]
  whole_loads

theorem accFirst (c : Dev nD) (t : Fin cfg3.N) (h0 : t.val % 4 = 0) :
    rdAcc (firstAt V c t h0).2.1 = k3_pay3 (iblk V c 0 t) (iblk V c 1 t) (iblk V c 2 t) (iblk V c 3 t) k3_pay1 (iblk V c 4 t) := by
  unfold rdAcc
  rw [View.read_writes_eq_canon _ _ _ (coverAccFirst V c t h0)]
  unfold firstAt runFirst
  dsimp only
  sl_unfold_words
  rw [View.canon_cons_unit_zero (S := S48x512) hz2]
  whole_loads

/-! ## A block that is neither first nor last -/

theorem hidMiddle (c : Dev nD) (t : Fin cfg3.N) (h0 : ¬ t.val % 4 = 0) (h3 : ¬ t.val % 4 = 3) (xsA : Vec F S48x512 .f32) :
    rdHid (middleAt V c t h0 h3 xsA).1 = k3_pay2 (iblk V c 0 t) (iblk V c 1 t) (iblk V c 2 t) (iblk V c 3 t) := by
  unfold rdHid
  rw [View.read_writes_eq_canon _ _ _ (coverHidMiddle V c t h0 h3 xsA)]
  unfold middleAt runMiddle
  dsimp only
  sl_unfold_words
  rw [View.canon_cons_unit_zero (S := S48x512) hz2]
  whole_loads

theorem accMiddle (c : Dev nD) (t : Fin cfg3.N) (h0 : ¬ t.val % 4 = 0) (h3 : ¬ t.val % 4 = 3) (xsA : Vec F S48x512 .f32) :
    rdAcc (middleAt V c t h0 h3 xsA).2.1 = k3_pay3 (iblk V c 0 t) (iblk V c 1 t) (iblk V c 2 t) (iblk V c 3 t) xsA (iblk V c 4 t) := by
  unfold rdAcc
  rw [View.read_writes_eq_canon _ _ _ (coverAccMiddle V c t h0 h3 xsA)]
  unfold middleAt runMiddle
  dsimp only
  sl_unfold_words
  rw [View.canon_cons_unit_zero (S := S48x512) hz2]
  whole_loads

/-! ## A head's last block -/

theorem hidLast (c : Dev nD) (t : Fin cfg3.N) (h3 : t.val % 4 = 3) (xsA : Vec F S48x512 .f32) :
    rdHid (lastAt V c t h3 xsA).1 = k3_pay2 (iblk V c 0 t) (iblk V c 1 t) (iblk V c 2 t) (iblk V c 3 t) := by
  unfold rdHid
  rw [View.read_writes_eq_canon _ _ _ (coverHidLast V c t h3 xsA)]
  unfold lastAt runLast
  dsimp only
  sl_unfold_words
  rw [View.canon_cons_unit_zero (S := S48x512) hz2]
  whole_loads

theorem accLast (c : Dev nD) (t : Fin cfg3.N) (h3 : t.val % 4 = 3) (xsA : Vec F S48x512 .f32) :
    rdAcc (lastAt V c t h3 xsA).2.2.1 = k3_pay3 (iblk V c 0 t) (iblk V c 1 t) (iblk V c 2 t) (iblk V c 3 t) xsA (iblk V c 4 t) := by
  unfold rdAcc
  rw [View.read_writes_eq_canon _ _ _ (coverAccLast V c t h3 xsA)]
  unfold lastAt runLast
  dsimp only
  sl_unfold_words
  rw [View.canon_cons_unit_zero (S := S48x512) hz2]
  whole_loads

theorem logitLast (c : Dev nD) (t : Fin cfg3.N) (h3 : t.val % 4 = 3) (xsA : Vec F S48x512 .f32) :
    rdLogit (lastAt V c t h3 xsA).2.1
      = k3_pay4 (k3_pay3 (iblk V c 0 t) (iblk V c 1 t) (iblk V c 2 t) (iblk V c 3 t) xsA (iblk V c 4 t)) (iblk V c 5 t) (iblk V c 6 t) (iblk V c 7 t) (iblk V c 8 t) := by
  unfold rdLogit
  rw [View.read_writes_eq_canon _ _ _ (coverLogitLast V c t h3 xsA)]
  unfold lastAt runLast
  dsimp only
  sl_unfold_words
  rw [View.canon_cons_unit_zero (S := S48x128) hz2]
  whole_loads

end Cert.ReferenceIdeal.Classifier

end
-- ==== Proof.StageDRChain.lean ====
import proofs.«146356_g2000405529851509_pallasbulk_1335_10_alg».proof.Proof.StageDRPieces

/-!
# The reference classifier's buffers after each grid point, as payloads of the blocks

The hidden block after a point is the first layer's payload of the feature block and the point's three blocks; the
accumulator is the block's contribution added to zeros at a head's first block and to the previous accumulator
afterwards; the logits after a head's last block are the third layer's payload of that accumulator.
-/

set_option maxRecDepth 16384

noncomputable section

namespace Cert.ReferenceIdeal.Classifier

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The printed index maps over the eight points: the features are one block; the first layer's columns, scale and shift,
    the second layer's rows and the hidden window move with the point number; the per-head operands and the logits with
    the head. -/
theorem idxFacts : ∀ t : Fin cfg3.N,
    win3_0.index t (0 : Fin 2) = 0 ∧ win3_0.index t (1 : Fin 2) = 0
  ∧ win3_1.index t (0 : Fin 2) = 0 ∧ win3_1.index t (1 : Fin 2) = t.val
  ∧ win3_2.index t (0 : Fin 2) = 0 ∧ win3_2.index t (1 : Fin 2) = t.val
  ∧ win3_3.index t (0 : Fin 2) = 0 ∧ win3_3.index t (1 : Fin 2) = t.val
  ∧ win3_4.index t (0 : Fin 2) = t.val ∧ win3_4.index t (1 : Fin 2) = 0
  ∧ win3_5.index t (0 : Fin 3) = t.val / 4 ∧ win3_5.index t (1 : Fin 3) = 0 ∧ win3_5.index t (2 : Fin 3) = 0
  ∧ win3_6.index t (0 : Fin 3) = t.val / 4 ∧ win3_6.index t (1 : Fin 3) = 0 ∧ win3_6.index t (2 : Fin 3) = 0
  ∧ win3_7.index t (0 : Fin 2) = t.val / 4 ∧ win3_7.index t (1 : Fin 2) = 0
  ∧ win3_8.index t (0 : Fin 3) = t.val / 4 ∧ win3_8.index t (1 : Fin 3) = 0 ∧ win3_8.index t (2 : Fin 3) = 0
  ∧ win3_9.index t (0 : Fin 2) = 0 ∧ win3_9.index t (1 : Fin 2) = t.val
  ∧ win3_10.index t (0 : Fin 2) = t.val / 4 ∧ win3_10.index t (1 : Fin 2) = 0 :=
  (by decide +kernel : ∀ t : Fin grid3.N, _)

/-- The hidden window is written back at every point, the logits window at a head's last block only. -/
theorem flush9 : ∀ t : Fin cfg3.N, (cfg3.win 9).flush t = true := by decide +kernel
theorem flush10 : ∀ t : Fin cfg3.N, (cfg3.win 10).flush t = true ↔ t.val % 4 = 3 := by decide +kernel

/-- The feature window's block is the whole feature array at every point. -/
theorem iblk0_eq (c : Dev nD) (t : Fin cfg3.N) : iblk V c 0 t = (V c main_v118 : S48x6272.Idx → Elt F .bf16) := by
  funext y
  obtain ⟨e0, e1, -⟩ := idxFacts t
  show V c main_v118 (((cfg3.win 0).blk t).view.emb y) = V c main_v118 y
  refine congrArg (V c main_v118) (funext fun a => Fin.ext ?_)
  match a with
  | ⟨0, _⟩ => show win3_0.index t (0 : Fin 2) * 48 + 1 * (y 0).val = (y 0).val; omega
  | ⟨1, _⟩ => show win3_0.index t (1 : Fin 2) * 6272 + 1 * (y 1).val = (y 1).val; omega

/-- The features. -/
def featR (c : Dev nD) : Vec F S48x6272 .bf16 := (V c main_v118 : S48x6272.Idx → Elt F .bf16)

/-! ## The components of the three cases' values -/

theorem firstVals_hid (c : Dev nD) (t : Fin cfg3.N) (h0 : t.val % 4 = 0) : (firstVals V c t h0).1 = rdHid (firstAt V c t h0).1 := by simp only [firstVals]
theorem firstVals_acc (c : Dev nD) (t : Fin cfg3.N) (h0 : t.val % 4 = 0) : (firstVals V c t h0).2.2 = rdAcc (firstAt V c t h0).2.1 := by simp only [firstVals]
theorem middleVals_hid (c : Dev nD) (t : Fin cfg3.N) (h0 : ¬ t.val % 4 = 0) (h3 : ¬ t.val % 4 = 3) (xsA : Vec F S48x512 .f32) :
    (middleVals V c t h0 h3 xsA).1 = rdHid (middleAt V c t h0 h3 xsA).1 := by simp only [middleVals]
theorem middleVals_acc (c : Dev nD) (t : Fin cfg3.N) (h0 : ¬ t.val % 4 = 0) (h3 : ¬ t.val % 4 = 3) (xsA : Vec F S48x512 .f32) :
    (middleVals V c t h0 h3 xsA).2.2 = rdAcc (middleAt V c t h0 h3 xsA).2.1 := by simp only [middleVals]
theorem lastVals_hid (c : Dev nD) (t : Fin cfg3.N) (h3 : t.val % 4 = 3) (xsA : Vec F S48x512 .f32) :
    (lastVals V c t h3 xsA).1 = rdHid (lastAt V c t h3 xsA).1 := by simp only [lastVals]
theorem lastVals_logit (c : Dev nD) (t : Fin cfg3.N) (h3 : t.val % 4 = 3) (xsA : Vec F S48x512 .f32) :
    (lastVals V c t h3 xsA).2.1 = rdLogit (lastAt V c t h3 xsA).2.1 := by simp only [lastVals]
theorem lastVals_acc (c : Dev nD) (t : Fin cfg3.N) (h3 : t.val % 4 = 3) (xsA : Vec F S48x512 .f32) :
    (lastVals V c t h3 xsA).2.2 = rdAcc (lastAt V c t h3 xsA).2.2.1 := by simp only [lastVals]

/-- The hidden block after a point. -/
theorem hid_at (c : Dev nD) (t : Fin cfg3.N) :
    (outsAt V c t.val t.isLt).1 = k3_pay2 (featR V c) (iblk V c 1 t) (iblk V c 2 t) (iblk V c 3 t) := by
  by_cases h0 : t.val % 4 = 0
  · rw [outsAt_first V c t h0, firstVals_hid, hidFirst, iblk0_eq]; rfl
  · by_cases h3 : t.val % 4 = 3
    · rw [outsAt_last V c t h0 h3, lastVals_hid, hidLast, iblk0_eq]; rfl
    · rw [outsAt_middle V c t h0 h3, middleVals_hid, hidMiddle, iblk0_eq]; rfl

/-- The accumulator after a head's first block: the block's part added to the zero fill. -/
theorem acc_at_first (c : Dev nD) (t : Fin cfg3.N) (h0 : t.val % 4 = 0) :
    (outsAt V c t.val t.isLt).2.2 = k3_pay3 (featR V c) (iblk V c 1 t) (iblk V c 2 t) (iblk V c 3 t) k3_pay1 (iblk V c 4 t) := by
  rw [outsAt_first V c t h0, firstVals_acc, accFirst, iblk0_eq]; rfl

/-- The accumulator after a later block, from the accumulator the point before left. -/
theorem acc_at_later (c : Dev nD) (t : Fin cfg3.N) (h0 : ¬ t.val % 4 = 0) :
    (outsAt V c t.val t.isLt).2.2
      = k3_pay3 (featR V c) (iblk V c 1 t) (iblk V c 2 t) (iblk V c 3 t)
          (outsAt V c (t.val - 1) (Nat.lt_of_le_of_lt (Nat.sub_le _ _) t.isLt)).2.2 (iblk V c 4 t) := by
  by_cases h3 : t.val % 4 = 3
  · rw [outsAt_last V c t h0 h3, lastVals_acc, accLast, iblk0_eq]; rfl
  · rw [outsAt_middle V c t h0 h3, middleVals_acc, accMiddle, iblk0_eq]; rfl

/-- The logits after a head's last block: the third layer of the accumulator that block leaves. -/
theorem logit_at_last (c : Dev nD) (t : Fin cfg3.N) (h3 : t.val % 4 = 3) :
    (outsAt V c t.val t.isLt).2.1
      = k3_pay4 (outsAt V c t.val t.isLt).2.2 (iblk V c 5 t) (iblk V c 6 t) (iblk V c 7 t) (iblk V c 8 t) := by
  have h0 : ¬ t.val % 4 = 0 := by omega
  rw [outsAt_last V c t h0 h3, lastVals_logit, lastVals_acc, logitLast, accLast]

end Cert.ReferenceIdeal.Classifier

end
-- ==== Proof.StageDRBlocks.lean ====
import proofs.«146356_g2000405529851509_pallasbulk_1335_10_alg».proof.Proof.StageDRChain
import Idealize.ShloMosaic.Lib.ValueIdx

/-!
# The reference classifier's input blocks as entries of the arrays

At grid point t (head t / 4, column block t % 4) the first layer's block is columns t · 512 … of the weight array, and
likewise its scale and shift; the second layer's block is rows t · 512 …; the per-head operands are the head's rows.
-/

set_option maxRecDepth 16384

noncomputable section

namespace Cert.ReferenceIdeal.Classifier

open Cert.ReferenceIdeal Cert.ReferenceIdeal.Gen
open Idealize.ShloMosaic Idealize.ShloMosaic.ValueIdx Idealize.ShloMosaic.TcCoe
open Idealize.SL Idealize.SL.Sem

variable {F : FTy → Type} [FloatOps F]
variable (V : (c : Dev nD) → (b : Ref sig .tc) → Buf (Elt F) ((c : Thread nD τ).loc b))

theorem blk1 (c : Dev nD) (t : Fin cfg3.N) (k : Fin 6272) (j : Fin 512) :
    iblk V c 1 t (ix2 k j) = (V c main_arg10 : S6272x4096.Idx → Elt F .bf16) (ix2 k (⟨t.val * 512 + j.val, by have := t.isLt; have h : cfg3.N = 8 := N_3; omega⟩ : Fin 4096)) := by
  obtain ⟨-, -, e0, e1, -⟩ := idxFacts t
  show V c main_arg10 (((cfg3.win 1).blk t).view.emb (ix2 k j)) = _
  refine congrArg (V c main_arg10) (funext fun a => Fin.ext ?_)
  match a with
  | ⟨0, _⟩ => show win3_1.index t (0 : Fin 2) * 6272 + 1 * k.val = k.val; omega
  | ⟨1, _⟩ => show win3_1.index t (1 : Fin 2) * 512 + 1 * j.val = t.val * 512 + j.val; omega

theorem blk2 (c : Dev nD) (t : Fin cfg3.N) (j : Fin 512) :
    iblk V c 2 t (ix2 (0 : Fin 1) j) = (V c main_arg11 : S1x4096.Idx → Elt F .f32) (ix2 (0 : Fin 1) (⟨t.val * 512 + j.val, by have := t.isLt; have h : cfg3.N = 8 := N_3; omega⟩ : Fin 4096)) := by
  obtain ⟨-, -, -, -, e0, e1, -⟩ := idxFacts t
  show V c main_arg11 (((cfg3.win 2).blk t).view.emb (ix2 (0 : Fin 1) j)) = _
  refine congrArg (V c main_arg11) (funext fun a => Fin.ext ?_)
  match a with
  | ⟨0, _⟩ => show win3_2.index t (0 : Fin 2) * 1 + 1 * 0 = 0; omega
  | ⟨1, _⟩ => show win3_2.index t (1 : Fin 2) * 512 + 1 * j.val = t.val * 512 + j.val; omega

theorem blk3 (c : Dev nD) (t : Fin cfg3.N) (j : Fin 512) :
    iblk V c 3 t (ix2 (0 : Fin 1) j) = (V c main_arg12 : S1x4096.Idx → Elt F .f32) (ix2 (0 : Fin 1) (⟨t.val * 512 + j.val, by have := t.isLt; have h : cfg3.N = 8 := N_3; omega⟩ : Fin 4096)) := by
  obtain ⟨-, -, -, -, -, -, e0, e1, -⟩ := idxFacts t
  show V c main_arg12 (((cfg3.win 3).blk t).view.emb (ix2 (0 : Fin 1) j)) = _
  refine congrArg (V c main_arg12) (funext fun a => Fin.ext ?_)
  match a with
  | ⟨0, _⟩ => show win3_3.index t (0 : Fin 2) * 1 + 1 * 0 = 0; omega
  | ⟨1, _⟩ => show win3_3.index t (1 : Fin 2) * 512 + 1 * j.val = t.val * 512 + j.val; omega

theorem blk4 (c : Dev nD) (t : Fin cfg3.N) (i : Fin 512) (o : Fin 512) :
    iblk V c 4 t (ix2 i o) = (V c main_arg13 : S4096x512.Idx → Elt F .bf16) (ix2 (⟨t.val * 512 + i.val, by have := t.isLt; have h : cfg3.N = 8 := N_3; omega⟩ : Fin 4096) o) := by
  obtain ⟨-, -, -, -, -, -, -, -, e0, e1, -⟩ := idxFacts t
  show V c main_arg13 (((cfg3.win 4).blk t).view.emb (ix2 i o)) = _
  refine congrArg (V c main_arg13) (funext fun a => Fin.ext ?_)
  match a with
  | ⟨0, _⟩ => show win3_4.index t (0 : Fin 2) * 512 + 1 * i.val = t.val * 512 + i.val; omega
  | ⟨1, _⟩ => show win3_4.index t (1 : Fin 2) * 512 + 1 * o.val = o.val; omega

theorem blk5 (c : Dev nD) (t : Fin cfg3.N) (y : S1x1x512.Idx) :
    iblk V c 5 t y = (V c main_arg14 : S2x1x512.Idx → Elt F .f32) (ix3 (⟨t.val / 4, by have := t.isLt; have h : cfg3.N = 8 := N_3; omega⟩ : Fin 2) (0 : Fin 1) (⟨(y 2).val, (y 2).isLt⟩ : Fin 512)) := by
  obtain ⟨-, -, -, -, -, -, -, -, -, -, e0, e1, e2, -⟩ := idxFacts t
  show V c main_arg14 (((cfg3.win 5).blk t).view.emb y) = _
  refine congrArg (V c main_arg14) (funext fun a => Fin.ext ?_)
  match a with
  | ⟨0, _⟩ => show win3_5.index t (0 : Fin 3) * 1 + 1 * (y 0).val = t.val / 4; have : (y 0).val < 1 := (y 0).isLt; omega
  | ⟨1, _⟩ => show win3_5.index t (1 : Fin 3) * 1 + 1 * (y 1).val = 0; have : (y 1).val < 1 := (y 1).isLt; omega
  | ⟨2, _⟩ => show win3_5.index t (2 : Fin 3) * 512 + 1 * (y 2).val = (y 2).val; omega

theorem blk6 (c : Dev nD) (t : Fin cfg3.N) (y : S1x1x512.Idx) :
    iblk V c 6 t y = (V c main_arg15 : S2x1x512.Idx → Elt F .f32) (ix3 (⟨t.val / 4, by have := t.isLt; have h : cfg3.N = 8 := N_3; omega⟩ : Fin 2) (0 : Fin 1) (⟨(y 2).val, (y 2).isLt⟩ : Fin 512)) := by
  obtain ⟨-, -, -, -, -, -, -, -, -, -, -, -, -, e0, e1, e2, -⟩ := idxFacts t
  show V c main_arg15 (((cfg3.win 6).blk t).view.emb y) = _
  refine congrArg (V c main_arg15) (funext fun a => Fin.ext ?_)
  match a with
  | ⟨0, _⟩ => show win3_6.index t (0 : Fin 3) * 1 + 1 * (y 0).val = t.val / 4; have : (y 0).val < 1 := (y 0).isLt; omega
  | ⟨1, _⟩ => show win3_6.index t (1 : Fin 3) * 1 + 1 * (y 1).val = 0; have : (y 1).val < 1 := (y 1).isLt; omega
  | ⟨2, _⟩ => show win3_6.index t (2 : Fin 3) * 512 + 1 * (y 2).val = (y 2).val; omega

theorem blk7 (c : Dev nD) (t : Fin cfg3.N) (y : S512x128.Idx) :
    iblk V c 7 t y = (V c main_arg16 : S1024x128.Idx → Elt F .bf16)
      (ix2 (⟨t.val / 4 * 512 + (y 0).val, by have := t.isLt; have h : cfg3.N = 8 := N_3; have := idx2_lt0 y; omega⟩ : Fin 1024) (⟨(y 1).val, idx2_lt1 y⟩ : Fin 128)) := by
  obtain ⟨-, -, -, -, -, -, -, -, -, -, -, -, -, -, -, -, e0, e1, -⟩ := idxFacts t
  show V c main_arg16 (((cfg3.win 7).blk t).view.emb y) = _
  refine congrArg (V c main_arg16) (funext fun a => Fin.ext ?_)
  match a with
  | ⟨0, _⟩ => show win3_7.index t (0 : Fin 2) * 512 + 1 * (y 0).val = t.val / 4 * 512 + (y 0).val; omega
  | ⟨1, _⟩ => show win3_7.index t (1 : Fin 2) * 128 + 1 * (y 1).val = (y 1).val; omega

theorem blk8 (c : Dev nD) (t : Fin cfg3.N) (y : S1x1x128.Idx) :
    iblk V c 8 t y = (V c main_arg17 : S2x1x128.Idx → Elt F .f32) (ix3 (⟨t.val / 4, by have := t.isLt; have h : cfg3.N = 8 := N_3; omega⟩ : Fin 2) (0 : Fin 1) (⟨(y 2).val, (y 2).isLt⟩ : Fin 128)) := by
  obtain ⟨-, -, -, -, -, -, -, -, -, -, -, -, -, -, -, -, -, -, e0, e1, e2, -⟩ := idxFacts t
  show V c main_arg17 (((cfg3.win 8).blk t).view.emb y) = _
  refine congrArg (V c main_arg17) (funext fun a => Fin.ext ?_)
  match a with
  | ⟨0, _⟩ => show win3_8.index t (0 : Fin 3) * 1 + 1 * (y 0).val = t.val / 4; have : (y 0).val < 1 := (y 0).isLt; omega
  | ⟨1, _⟩ => show win3_8.index t (1 : Fin 3) * 1 + 1 * (y 1).val = 0; have : (y 1).val < 1 := (y 1).isLt; omega
  | ⟨2, _⟩ => show win3_8.index t (2 : Fin 3) * 128 + 1 * (y 2).val = (y 2).val; omega

end Cert.ReferenceIdeal.Classifier

end
-- ==== Proof.StageDRPay.lean ====
import proofs.«146356_g2000405529851509_pallasbulk_1335_10_alg».proof.Proof.StageDSpec
import proofs.«146356_g2000405529851509_pallasbulk_1335_10_alg».proof.Proof.Gen.ReferenceIdeal.Skeleton
import Idealize.ShloMosaic.Lib.Pipeline.Value
import Idealize.ShloMosaic.Lib.ValueLayout

/-!
# The reference's classifier payloads at an index

At the ideal values: the zero fill is the zero word everywhere; the hidden block at (image, column) is the hidden unit of
the specification for the block's 512 columns; the accumulator after a block is what was there plus the inner product
of the image's 512 hidden units with the block's rows of the second layer.
-/

set_option maxRecDepth 16384

noncomputable section

namespace Cert.Bridge.RPay

open Idealize.ShloMosaic Idealize.ShloMosaic.ValueIdx Cert.Lib.PlainDot Cert.Bridge.Spec
open Cert.ReferenceIdeal Cert.ReferenceIdeal.Gen
open scoped BigOperators

/-- The zero fill. -/
theorem pay1_apply (n : Fin 48) (o : Fin 512) : k3_pay1 (F := Ideal) (ix2 n o) = zeroWord := by
  unfold k3_pay1
  rw [shapeCast_self, broadcast_apply]

/-- The hidden block at (image, column). -/
theorem pay2_apply (x : FVec Ideal S48x6272 .bf16) (w : FVec Ideal S6272x512 .bf16) (s t : FVec Ideal S1x512 .f32) (n : Fin 48) (j : Fin 512) :
    k3_pay2 (F := Ideal) x w s t (ix2 n j) = hidAt x w s t n j := by
  unfold k3_pay2 hidAt
  rw [shapeCast_self, maximumf_apply, addf_apply, mulf_apply, broadcast_apply]
  have hm : matmul (F := Ideal) dot_S48x6272_S6272x512_S48x512_1_0_0_1_n_n none x w (constant (F := Ideal) S48x512 .f32 0x00000000#32) (ix2 n j)
      = ∑ k : Fin 6272, x (ix2 n k) * w (ix2 k j) :=
    (Cert.Lib.PlainDot.matmul_zero_apply dot_S48x6272_S6272x512_S48x512_1_0_0_1_n_n rfl none x w (ix2 n j)).trans (mm_ix2 x w n j)
  have hs : broadcastTo S48x512 s broadcasts_S1x512_S48x512 (ix2 n j) = s (ix2 (0 : Fin 1) j) :=
    broadcastTo_apply s broadcasts_S1x512_S48x512 (ix2 n j) (ix2 (0 : Fin 1) j) (fun a => by match a with | ⟨0, _⟩ => rfl | ⟨1, _⟩ => rfl)
  have ht : broadcastTo S48x512 t broadcasts_S1x512_S48x512 (ix2 n j) = t (ix2 (0 : Fin 1) j) :=
    broadcastTo_apply t broadcasts_S1x512_S48x512 (ix2 n j) (ix2 (0 : Fin 1) j) (fun a => by match a with | ⟨0, _⟩ => rfl | ⟨1, _⟩ => rfl)
  rw [hm, hs, ht]

/-- The accumulator after a block. -/
theorem pay3_apply (x : FVec Ideal S48x6272 .bf16) (w : FVec Ideal S6272x512 .bf16) (s t : FVec Ideal S1x512 .f32) (acc : FVec Ideal S48x512 .f32)
    (w2 : FVec Ideal S512x512 .bf16) (n : Fin 48) (o : Fin 512) :
    k3_pay3 (F := Ideal) x w s t acc w2 (ix2 n o) = acc (ix2 n o) + partAt (hidAt x w s t) w2 n o := by
  unfold k3_pay3 partAt
  rw [shapeCast_self, addf_apply]
  refine congrArg (acc (ix2 n o) + ·) ?_
  refine ((Cert.Lib.PlainDot.matmul_zero_apply dot_S48x512_S512x512_S48x512_1_0_0_1_n_n rfl none
    (truncf .bf16 (k3_pay2 (F := Ideal) x w s t) bitsLt_bf16_f32) w2 (ix2 n o)).trans (mm_ix2 _ w2 n o)).trans ?_
  refine Finset.sum_congr rfl fun i _ => ?_
  exact congrArg (· * w2 (ix2 i o)) ((truncf_apply (k3_pay2 (F := Ideal) x w s t) bitsLt_bf16_f32 (ix2 n i)).trans (pay2_apply x w s t n i))

end Cert.Bridge.RPay

end
-- ==== Proof.StageDRValue.lean ====
import proofs.«146356_g2000405529851509_pallasbulk_1335_10_alg».proof.Proof.StageDRBlocks
import proofs.«146356_g2000405529851509_pallasbulk_1335_10_alg».proof.Proof.StageDRPay
import proofs.«146356_g2000405529851509_pallasbulk_1335_10_alg».proof.Proof.StageDSpecArr

/-!
# The reference classifier's buffers after each point, entry by entry

At the ideal values the hidden block after point t (head t / 4, block t % 4) holds the specification's hidden units of
columns t · 512 …; the accumulator after a head's last block is the finished accumulator of the specification, reached by
four steps of 512 terms from the zero fill; the logits are the third layer's payload of it and of the head's rows of the
remaining operands.
-/

set_option maxRecDepth 16384

noncomputable section

namespace Cert.ReferenceIdeal.Classifier

open Cert.ReferenceIdeal Cert.ReferenceIdeal.Gen
open Idealize.ShloMosaic Idealize.ShloMosaic.ValueIdx Idealize.ShloMosaic.TcCoe
open Idealize.SL Idealize.SL.Sem
open Cert.Bridge.Spec Cert.Bridge.RPay
open scoped BigOperators

variable (V : (c : Dev nD) → (b : Ref sig .tc) → Buf (Elt Ideal) ((c : Thread nD τ).loc b))

/-- The weight arrays as the region finds them. -/
abbrev aW1 (c : Dev nD) : Lay1 := (V c main_arg10 : S6272x4096.Idx → EReal)
abbrev aS1 (c : Dev nD) : Row1 := (V c main_arg11 : S1x4096.Idx → EReal)
abbrev aT1 (c : Dev nD) : Row1 := (V c main_arg12 : S1x4096.Idx → EReal)
abbrev aW2 (c : Dev nD) : Lay2 := (V c main_arg13 : S4096x512.Idx → EReal)
abbrev aS2 (c : Dev nD) : S2x1x512.Idx → EReal := (V c main_arg14 : S2x1x512.Idx → EReal)
abbrev aT2 (c : Dev nD) : S2x1x512.Idx → EReal := (V c main_arg15 : S2x1x512.Idx → EReal)
abbrev aW3 (c : Dev nD) : Lay3 := (V c main_arg16 : S1024x128.Idx → EReal)
abbrev aB3 (c : Dev nD) : S2x1x128.Idx → EReal := (V c main_arg17 : S2x1x128.Idx → EReal)
/-- The features at the ideal values. -/
abbrev aFeat (c : Dev nD) : Feat := (featR V c : S48x6272.Idx → EReal)

/-- The zero word is zero. -/
theorem zeroWord_eq : zeroWord = 0 := Ideal.ofBits_zero_f32

/-- The first layer's column of column j of point t's block. -/
def gcol (t : Fin cfg3.N) (j : Fin 512) : Fin 4096 := ⟨t.val * 512 + j.val, by have := t.isLt; have h : cfg3.N = 8 := N_3; omega⟩

/-- A hidden unit computed from point t's blocks is the specification's at the block's place. -/
theorem hid_block (c : Dev nD) (t : Fin cfg3.N) (n : Fin 48) (j : Fin 512) :
    hidAt (C := 512) (aFeat V c) (iblk V c 1 t) (iblk V c 2 t) (iblk V c 3 t) n j
      = hidAt (C := 4096) (aFeat V c) (aW1 V c) (aS1 V c) (aT1 V c) n (gcol t j) := by
  unfold hidAt
  have hs : ∑ k : Fin 6272, aFeat V c (ix2 n k) * iblk V c 1 t (ix2 k j) = ∑ k : Fin 6272, aFeat V c (ix2 n k) * aW1 V c (ix2 k (gcol t j)) :=
    Finset.sum_congr rfl fun k _ => congrArg (aFeat V c (ix2 n k) * ·) (blk1 V c t k j)
  have h2 : iblk V c 2 t (ix2 (0 : Fin 1) j) = aS1 V c (ix2 (0 : Fin 1) (gcol t j)) := blk2 V c t j
  have h3 : iblk V c 3 t (ix2 (0 : Fin 1) j) = aT1 V c (ix2 (0 : Fin 1) (gcol t j)) := blk3 V c t j
  rw [hs, h2, h3]

/-- The hidden block after point t, at (image, column). -/
theorem hid_val (c : Dev nD) (t : Fin cfg3.N) (n : Fin 48) (j : Fin 512) :
    (outsAt V c t.val t.isLt).1 (ix2 n j) = hidAt (C := 4096) (aFeat V c) (aW1 V c) (aS1 V c) (aT1 V c) n (gcol t j) := by
  rw [hid_at]
  exact (pay2_apply _ _ _ _ n j).trans (hid_block V c t n j)

/-- Block j of head hh is point hh · 4 + j. -/
def pt (hh : Fin 2) (j : ℕ) (hj : j < 4) : Fin cfg3.N := ⟨hh.val * 4 + j, by have h : cfg3.N = 8 := N_3; omega⟩

/-- The last block of head hh. -/
abbrev lastPt (hh : Fin 2) : Fin cfg3.N := pt hh 3 (by decide)

/-- The block's contribution to the second layer is the block's 512 terms of the head's sum. -/
theorem part_val (c : Dev nD) (hh : Fin 2) (j : ℕ) (hj : j < 4) (n : Fin 48) (o : Fin 512) :
    partAt (hidAt (C := 512) (aFeat V c) (iblk V c 1 (pt hh j hj)) (iblk V c 2 (pt hh j hj)) (iblk V c 3 (pt hh j hj))) (iblk V c 4 (pt hh j hj)) n o
      = ∑ i : Fin 512, term (aFeat V c) (aW1 V c) (aS1 V c) (aT1 V c) (aW2 V c) hh n o ⟨j * 512 + i.val, by have := i.isLt; omega⟩ := by
  unfold partAt term
  refine Finset.sum_congr rfl fun i _ => ?_
  have e : gcol (pt hh j hj) i = col hh ⟨j * 512 + i.val, by have := i.isLt; omega⟩ :=
    Fin.ext (by show (hh.val * 4 + j) * 512 + i.val = hh.val * 2048 + (j * 512 + i.val); omega)
  have h4 : iblk V c 4 (pt hh j hj) (ix2 i o) = aW2 V c (ix2 (gcol (pt hh j hj) i) o) := blk4 V c (pt hh j hj) i o
  rw [hid_block V c (pt hh j hj) n i, h4, e]

/-- The accumulator of head hh after its blocks 0 … j − 1, at (image, output); zero before the first. -/
def accSeq (c : Dev nD) (hh : Fin 2) (n : Fin 48) (o : Fin 512) : ℕ → EReal
  | 0 => 0
  | j + 1 => if h : j < 4 then (outsAt V c (pt hh j h).val (pt hh j h).isLt).2.2 (ix2 n o) else 0

theorem accSeq_succ (c : Dev nD) (hh : Fin 2) (n : Fin 48) (o : Fin 512) (j : ℕ) (hj : j < 4) :
    accSeq V c hh n o (j + 1) = (outsAt V c (pt hh j hj).val (pt hh j hj).isLt).2.2 (ix2 n o) := dif_pos hj

theorem accSeq_step (c : Dev nD) (hh : Fin 2) (n : Fin 48) (o : Fin 512) (j : ℕ) (hj : j < 4) :
    accSeq V c hh n o (j + 1) = accSeq V c hh n o j
      + ∑ i : Fin 512, term (aFeat V c) (aW1 V c) (aS1 V c) (aT1 V c) (aW2 V c) hh n o ⟨j * 512 + i.val, by have := i.isLt; omega⟩ := by
  rw [accSeq_succ V c hh n o j hj]
  cases j with
  | zero =>
    have h0 : (pt hh 0 hj).val % 4 = 0 := by show (hh.val * 4 + 0) % 4 = 0; omega
    rw [acc_at_first V c (pt hh 0 hj) h0]
    refine (pay3_apply _ _ _ _ _ _ n o).trans ?_
    rw [pay1_apply, zeroWord_eq, part_val V c hh 0 hj n o]
    rfl
  | succ j =>
    have h0 : ¬ (pt hh (j + 1) hj).val % 4 = 0 := by show ¬ (hh.val * 4 + (j + 1)) % 4 = 0; omega
    rw [acc_at_later V c (pt hh (j + 1) hj) h0, accSeq_succ V c hh n o j (by omega)]
    exact (pay3_apply _ _ _ _ _ _ n o).trans (congrArg (_ + ·) (part_val V c hh (j + 1) hj n o))

/-- The accumulator after a head's last block is the specification's finished accumulator. -/
theorem acc_val (c : Dev nD) (hh : Fin 2) (n : Fin 48) (o : Fin 512) :
    (outsAt V c (lastPt hh).val (lastPt hh).isLt).2.2 (ix2 n o)
      = accAt (aFeat V c) (aW1 V c) (aS1 V c) (aT1 V c) (aW2 V c) hh n o := by
  have key := acc_by_blocks 4 512 rfl (aFeat V c) (aW1 V c) (aS1 V c) (aT1 V c) (aW2 V c) hh n o (accSeq V c hh n o) rfl
    (fun j hj => accSeq_step V c hh n o j hj)
  rw [← key]
  exact (accSeq_succ V c hh n o 3 (by decide)).symm

/-- The logits after a head's last block. -/
theorem logit_val (c : Dev nD) (hh : Fin 2) :
    (outsAt V c (lastPt hh).val (lastPt hh).isLt).2.1
      = k3_pay4 (F := Ideal) (accFun (aFeat V c) (aW1 V c) (aS1 V c) (aT1 V c) (aW2 V c) hh) (headRow (aS2 V c) hh) (headRow (aT2 V c) hh)
          (headRows (aW3 V c) hh) (headRow (aB3 V c) hh) := by
  have h3 : (lastPt hh).val % 4 = 3 := by show (hh.val * 4 + 3) % 4 = 3; omega
  have hd : (⟨(lastPt hh).val / 4, by have := (lastPt hh).isLt; have h : cfg3.N = 8 := N_3; omega⟩ : Fin 2) = hh :=
    Fin.ext (by show (hh.val * 4 + 3) / 4 = hh.val; omega)
  have eA : (outsAt V c (lastPt hh).val (lastPt hh).isLt).2.2
      = accFun (aFeat V c) (aW1 V c) (aS1 V c) (aT1 V c) (aW2 V c) hh := by
    funext y
    obtain ⟨n, o, rfl⟩ : ∃ (n : Fin 48) (o : Fin 512), y = ix2 n o := ⟨y 0, y 1, eq_ix2 y⟩
    exact acc_val V c hh n o
  have e5 : iblk V c 5 (lastPt hh) = headRow (aS2 V c) hh := by
    funext y; rw [blk5, hd]; rfl
  have e6 : iblk V c 6 (lastPt hh) = headRow (aT2 V c) hh := by
    funext y; rw [blk6, hd]; rfl
  have e7 : iblk V c 7 (lastPt hh) = headRows (aW3 V c) hh := by
    funext y; rw [blk7]; unfold headRows
    refine congrArg (aW3 V c) (funext fun a => Fin.ext ?_)
    match a with
    | ⟨0, _⟩ => show (hh.val * 4 + 3) / 4 * 512 + (y 0).val = hh.val * 512 + (y 0).val; omega
    | ⟨1, _⟩ => rfl
  have e8 : iblk V c 8 (lastPt hh) = headRow (aB3 V c) hh := by
    funext y; rw [blk8, hd]; rfl
  rw [logit_at_last V c (lastPt hh) h3, eA, e5, e6, e7, e8]

end Cert.ReferenceIdeal.Classifier

end
-- ==== Proof.StageDRArray.lean ====
import proofs.«146356_g2000405529851509_pallasbulk_1335_10_alg».proof.Proof.StageDRValue

/-!
# The reference classifier's two result arrays

The hidden window's eight blocks (one per point: head and column block together number the 512-column block) tile the
48 × 4096 array and each is written back holding the specification's hidden units at its place; the logits window's two
blocks (one per head, written back after the head's last column block) tile the 96 × 128 array.
-/

set_option maxRecDepth 16384

noncomputable section

namespace Cert.ReferenceIdeal.Classifier

open Cert.ReferenceIdeal Cert.ReferenceIdeal.Gen
open Idealize.ShloMosaic Idealize.ShloMosaic.ValueIdx Idealize.ShloMosaic.TcCoe
open Idealize.SL Idealize.SL.Sem
open Cert.Bridge.Spec Cert.Bridge.RPay
open scoped BigOperators

variable (V : (c : Dev nD) → (b : Ref sig .tc) → Buf (Elt Ideal) ((c : Thread nD τ).loc b))

/-! ## The hidden array -/

theorem mem_blk9 (t : Fin cfg3.N) (i : S48x4096.Idx) :
    i ∈ ((cfg3.win 9).blk t).view.set ↔ ∀ a : Fin 2, win3_9.index t a * S48x512.size a ≤ (i a).val ∧ (i a).val < win3_9.index t a * S48x512.size a + S48x512.size a := by
  show i ∈ ((View.whole main_v119_0).slice (win3_9.rect t)).set ↔ _
  rw [View.set_slice_whole, Rect.mem_set_unit]
  exact Iff.rfl

/-- What point t writes back into the hidden array is block t of the specification's hidden layer. -/
theorem flushed9 (c : Dev nD) (t : Fin cfg3.N) :
    (dat V c).flushed 9 t = ((cfg3.win 9).blk t).view.read (Elt Ideal) (hidCols (aFeat V c) (aW1 V c) (aS1 V c) (aT1 V c)) := by
  show (cfg3.win 9).cut (grid3.coords t) ((dat V c).after 9 t) = _
  rw [after9]
  funext y
  obtain ⟨n, j, rfl⟩ : ∃ (n : Fin 48) (j : Fin 512), y = ix2 n j := ⟨y 0, y 1, eq_ix2 y⟩
  show (outsAt V c t.val t.isLt).1 (ix2 n j) = hidCols (aFeat V c) (aW1 V c) (aS1 V c) (aT1 V c) (((cfg3.win 9).blk t).view.emb (ix2 n j))
  rw [hid_val]
  unfold hidCols
  have e := idxFacts t
  have e0 : win3_9.index t (0 : Fin 2) = 0 := e.2.2.2.2.2.2.2.2.2.2.2.2.2.2.2.2.2.2.2.2.2.1
  have e1 : win3_9.index t (1 : Fin 2) = t.val := e.2.2.2.2.2.2.2.2.2.2.2.2.2.2.2.2.2.2.2.2.2.2.1
  have h0 : (((cfg3.win 9).blk t).view.emb (ix2 n j) 0).val = win3_9.index t (0 : Fin 2) * 48 + 1 * n.val := rfl
  have h1 : (((cfg3.win 9).blk t).view.emb (ix2 n j) 1).val = win3_9.index t (1 : Fin 2) * 512 + 1 * j.val := rfl
  refine congrArg₂ (hidAt (C := 4096) (aFeat V c) (aW1 V c) (aS1 V c) (aT1 V c)) (Fin.ext ?_) (Fin.ext ?_)
  · show n.val = (((cfg3.win 9).blk t).view.emb (ix2 n j) 0).val
    rw [h0, e0]; omega
  · show t.val * 512 + j.val = (((cfg3.win 9).blk t).view.emb (ix2 n j) 1).val
    rw [h1, e1]; omega

/-- Every entry of the hidden array lies in some point's block. -/
theorem cover9 (i : S48x4096.Idx) : ∃ t : Fin cfg3.N, (cfg3.win 9).flush t = true ∧ i ∈ ((cfg3.win 9).blk t).view.set := by
  have hi0 : (i 0).val < 48 := idx2_lt0 i
  have hi1 : (i 1).val < 4096 := idx2_lt1 i
  have hN : cfg3.N = 8 := N_3
  refine ⟨⟨(i 1).val / 512, by omega⟩, flush9 _, ?_⟩
  rw [mem_blk9]
  have e := idxFacts ⟨(i 1).val / 512, by omega⟩
  have e0 := e.2.2.2.2.2.2.2.2.2.2.2.2.2.2.2.2.2.2.2.2.2.1
  have e1 := e.2.2.2.2.2.2.2.2.2.2.2.2.2.2.2.2.2.2.2.2.2.2.1
  intro a
  match a with
  | ⟨0, _⟩ =>
    show win3_9.index _ (0 : Fin 2) * 48 ≤ (i 0).val ∧ (i 0).val < win3_9.index _ (0 : Fin 2) * 48 + 48
    rw [e0]; omega
  | ⟨1, _⟩ =>
    show win3_9.index _ (1 : Fin 2) * 512 ≤ (i 1).val ∧ (i 1).val < win3_9.index _ (1 : Fin 2) * 512 + 512
    rw [e1]; show (i 1).val / 512 * 512 ≤ (i 1).val ∧ (i 1).val < (i 1).val / 512 * 512 + 512
    omega

/-- The hidden array after the region. -/
theorem arr9 (c : Dev nD) : (dat V c).arrAt 9 cfg3.N = hidCols (aFeat V c) (aW1 V c) (aS1 V c) (aT1 V c) :=
  (dat V c).arrAt_eq_of_cover 9 _ (fun t _ => flushed9 V c t) cover9

/-! ## The logits array -/

theorem mem_blk10 (t : Fin cfg3.N) (i : S96x128.Idx) :
    i ∈ ((cfg3.win 10).blk t).view.set ↔ ∀ a : Fin 2, win3_10.index t a * S48x128.size a ≤ (i a).val ∧ (i a).val < win3_10.index t a * S48x128.size a + S48x128.size a := by
  show i ∈ ((View.whole main_v119_1).slice (win3_10.rect t)).set ↔ _
  rw [View.set_slice_whole, Rect.mem_set_unit]
  exact Iff.rfl

/-- What a head's last point writes back into the logits array is the head's block of the specification's logits. -/
theorem flushed10 (c : Dev nD) (t : Fin cfg3.N) (hf : (cfg3.win 10).flush t = true) :
    (dat V c).flushed 10 t = ((cfg3.win 10).blk t).view.read (Elt Ideal)
      (logRows (k3_pay4 (F := Ideal)) (aFeat V c) (aW1 V c) (aS1 V c) (aT1 V c) (aW2 V c) (aS2 V c) (aT2 V c) (aW3 V c) (aB3 V c)) := by
  have h3 : t.val % 4 = 3 := (flush10 t).mp hf
  have ht : t.val < 8 := by have := t.isLt; have h : cfg3.N = 8 := N_3; omega
  obtain ⟨hh, rfl⟩ : ∃ hh : Fin 2, t = lastPt hh :=
    ⟨⟨t.val / 4, by omega⟩, Fin.ext (by show t.val = t.val / 4 * 4 + 3; omega)⟩
  show (cfg3.win 10).cut (grid3.coords (lastPt hh)) ((dat V c).after 10 (lastPt hh)) = _
  rw [after10]
  funext y
  obtain ⟨n, l, rfl⟩ : ∃ (n : Fin 48) (l : Fin 128), y = ix2 n l := ⟨y 0, y 1, eq_ix2 y⟩
  show (outsAt V c (lastPt hh).val (lastPt hh).isLt).2.1 (ix2 n l)
    = logRows (k3_pay4 (F := Ideal)) (aFeat V c) (aW1 V c) (aS1 V c) (aT1 V c) (aW2 V c) (aS2 V c) (aT2 V c) (aW3 V c) (aB3 V c)
        (((cfg3.win 10).blk (lastPt hh)).view.emb (ix2 n l))
  rw [logit_val V c hh]
  unfold logRows
  have e := idxFacts (lastPt hh)
  have e0 : win3_10.index (lastPt hh) (0 : Fin 2) = (lastPt hh).val / 4 := e.2.2.2.2.2.2.2.2.2.2.2.2.2.2.2.2.2.2.2.2.2.2.2.1
  have e1 : win3_10.index (lastPt hh) (1 : Fin 2) = 0 := e.2.2.2.2.2.2.2.2.2.2.2.2.2.2.2.2.2.2.2.2.2.2.2.2
  have h0 : (((cfg3.win 10).blk (lastPt hh)).view.emb (ix2 n l) 0).val = win3_10.index (lastPt hh) (0 : Fin 2) * 48 + 1 * n.val := rfl
  have h1 : (((cfg3.win 10).blk (lastPt hh)).view.emb (ix2 n l) 1).val = win3_10.index (lastPt hh) (1 : Fin 2) * 128 + 1 * l.val := rfl
  have hv : (lastPt hh).val = hh.val * 4 + 3 := rfl
  have hn : n.val < 48 := n.isLt
  have hhh : hh.val < 2 := hh.isLt
  have ehh : (⟨(((cfg3.win 10).blk (lastPt hh)).view.emb (ix2 n l) 0).val / 48, by rw [h0, e0, hv]; omega⟩ : Fin 2) = hh :=
    Fin.ext (by show (((cfg3.win 10).blk (lastPt hh)).view.emb (ix2 n l) 0).val / 48 = hh.val; rw [h0, e0, hv]; omega)
  have en : (⟨(((cfg3.win 10).blk (lastPt hh)).view.emb (ix2 n l) 0).val % 48, Nat.mod_lt _ (by decide)⟩ : Fin 48) = n :=
    Fin.ext (by show (((cfg3.win 10).blk (lastPt hh)).view.emb (ix2 n l) 0).val % 48 = n.val; rw [h0, e0, hv]; omega)
  have el : (⟨(((cfg3.win 10).blk (lastPt hh)).view.emb (ix2 n l) 1).val, idx2_lt1 _⟩ : Fin 128) = l :=
    Fin.ext (by show (((cfg3.win 10).blk (lastPt hh)).view.emb (ix2 n l) 1).val = l.val; rw [h1, e1]; omega)
  dsimp only
  rw [ehh, en, el]

/-- Every entry of the logits array lies in the block some head's last point writes back. -/
theorem cover10 (i : S96x128.Idx) : ∃ t : Fin cfg3.N, (cfg3.win 10).flush t = true ∧ i ∈ ((cfg3.win 10).blk t).view.set := by
  have hi0 : (i 0).val < 96 := idx2_lt0 i
  have hi1 : (i 1).val < 128 := idx2_lt1 i
  have hN : cfg3.N = 8 := N_3
  refine ⟨⟨(i 0).val / 48 * 4 + 3, by omega⟩, (flush10 _).mpr (by show ((i 0).val / 48 * 4 + 3) % 4 = 3; omega), ?_⟩
  rw [mem_blk10]
  have e := idxFacts ⟨(i 0).val / 48 * 4 + 3, by omega⟩
  have e0 := e.2.2.2.2.2.2.2.2.2.2.2.2.2.2.2.2.2.2.2.2.2.2.2.1
  have e1 := e.2.2.2.2.2.2.2.2.2.2.2.2.2.2.2.2.2.2.2.2.2.2.2.2
  intro a
  match a with
  | ⟨0, _⟩ =>
    show win3_10.index _ (0 : Fin 2) * 48 ≤ (i 0).val ∧ (i 0).val < win3_10.index _ (0 : Fin 2) * 48 + 48
    rw [e0]; show ((i 0).val / 48 * 4 + 3) / 4 * 48 ≤ (i 0).val ∧ (i 0).val < ((i 0).val / 48 * 4 + 3) / 4 * 48 + 48
    omega
  | ⟨1, _⟩ =>
    show win3_10.index _ (1 : Fin 2) * 128 ≤ (i 1).val ∧ (i 1).val < win3_10.index _ (1 : Fin 2) * 128 + 128
    rw [e1]; omega

/-- The logits array after the region. -/
theorem arr10 (c : Dev nD) : (dat V c).arrAt 10 cfg3.N
    = logRows (k3_pay4 (F := Ideal)) (aFeat V c) (aW1 V c) (aS1 V c) (aT1 V c) (aW2 V c) (aS2 V c) (aT2 V c) (aW3 V c) (aB3 V c) :=
  (dat V c).arrAt_eq_of_cover 10 _ (fun t hf => flushed10 V c t hf) cover10

end Cert.ReferenceIdeal.Classifier

end
-- ==== Proof.StageDKFeat.lean ====
import proofs.«146356_g2000405529851509_pallasbulk_1335_10_alg».proof.Proof.Gen.KernelIdeal.Skeleton
import Idealize.ShloMosaic.Lib.Pipeline.Value
import Idealize.ShloMosaic.Lib.ValueIdx

/-!
# The kernel's feature transpose at an index

The kernel turns the third convolution's rows (image, position) × channel into one row per image with the channels
outermost: column channel · 49 + position of image n is row n · 49 + position, column channel.
-/

set_option maxRecDepth 16384

noncomputable section

namespace Cert.Bridge.KPay

open Idealize.ShloMosaic Idealize.ShloMosaic.ValueIdx
open Cert.KernelIdeal Cert.KernelIdeal.Gen

theorem feat_apply (y3 : FVec Ideal S2352x128 .f32) (n : Fin 48) (ch : Fin 128) (p : Fin 49) :
    k3_pay1 (F := Ideal) y3 (ix2 n (⟨ch.val * 49 + p.val, by omega⟩ : Fin 6272)) = y3 (ix2 (⟨n.val * 49 + p.val, by omega⟩ : Fin 2352) ch) := by
  unfold k3_pay1
  refine (congrFun (shapeCast_self _ _) _).trans ?_
  refine (truncf_apply (ψ := .bf16) _ bitsLt_bf16_f32 _).trans ?_
  refine (shapeCast_apply _ _ (ix2 n (⟨ch.val * 49 + p.val, by omega⟩ : Fin 6272)) (ix3 n ch p) (by
    rw [Shape.rowMajor_val_three, Shape.rowMajor_val_two]
    show (n.val * 128 + ch.val) * 49 + p.val = n.val * 6272 + (ch.val * 49 + p.val)
    omega)).trans ?_
  refine (transpose_apply _ _ _ (ix3 n ch p) (ix3 n p ch) (fun b => by
    match b with
    | ⟨0, _⟩ => rfl
    | ⟨1, _⟩ => rfl
    | ⟨2, _⟩ => rfl)).trans ?_
  refine (shapeCast_apply _ _ (ix3 n p ch) (ix2 (⟨n.val * 49 + p.val, by omega⟩ : Fin 2352) ch) (by
    rw [Shape.rowMajor_val_two, Shape.rowMajor_val_three]
    show (n.val * 49 + p.val) * 128 + ch.val = (n.val * 49 + p.val) * 128 + ch.val
    rfl)).trans ?_
  exact congrFun (shapeCast_self _ _) _

end Cert.Bridge.KPay

end
-- ==== Proof.StageDStage4.lean ====
import proofs.«146356_g2000405529851509_pallasbulk_1335_10_alg».proof.Proof.Bridge
import proofs.«146356_g2000405529851509_pallasbulk_1335_10_alg».proof.Proof.StageDKArray
import proofs.«146356_g2000405529851509_pallasbulk_1335_10_alg».proof.Proof.StageDRArray
import proofs.«146356_g2000405529851509_pallasbulk_1335_10_alg».proof.Proof.StageDKFeat

/-!
# The classifier stage: the hidden layers and the logits correspond

Both classifiers' arrays are the specification's functions of their features and of the nine weight operands. The
weights are the same arguments; the features correspond by the previous stage (the kernel's in-kernel transpose of its
third-convolution array against the reference's flattened array); the last layer is the same function of the finished
accumulator on both sides. The two hidden arrays are the same numbers laid out as (head, image) rows against image rows
of (head, column) columns.
-/

set_option maxRecDepth 16384

noncomputable section

namespace Cert.Bridge

open Idealize.ShloMosaic Idealize.ShloMosaic.ValueIdx Idealize.SL.Sem Cert.Bridge.Spec

variable (m : KMem) (m' : RMem) (c : Dev Cert.KernelIdeal.nD)

/-- The buffers as each classifier region finds them. -/
abbrev VKc :=
  Cert.KernelIdeal.Whole.atTc (Cert.KernelIdeal.Gen.V18 m (Cert.KernelIdeal.Whole.O3 m))
abbrev VRc :=
  Cert.ReferenceIdeal.Whole.atTc (Cert.ReferenceIdeal.Gen.V19 m' (Cert.ReferenceIdeal.Whole.O3 m'))

/-! ## The four arrays as the specification's -/

theorem kH_eq : kH m c = hidRows (Cert.KernelIdeal.Classifier.aFeat (VKc m) c) (Cert.KernelIdeal.Classifier.aW1 (VKc m) c)
    (Cert.KernelIdeal.Classifier.aS1 (VKc m) c) (Cert.KernelIdeal.Classifier.aT1 (VKc m) c) := by
  unfold kH
  have h1 : VK m c (Proc.devRef .tc Cert.KernelIdeal.main_v74_0)
      = Cert.KernelIdeal.Gen.V19 m (Cert.KernelIdeal.Whole.outs m) c (Proc.devRef .tc Cert.KernelIdeal.main_v74_0) :=
    Cert.KernelIdeal.Gen.V20_of m (Cert.KernelIdeal.Whole.outs m) c Cert.KernelIdeal.main_v74_0 (by decide)
  rw [h1]
  exact (Cert.KernelIdeal.Whole.hF3 m c 9).symm.trans (Cert.KernelIdeal.Classifier.arr9 (VKc m) c)

theorem kLog_eq : kLog m c = logRows (Cert.KernelIdeal.Gen.k3_pay6 (F := Ideal)) (Cert.KernelIdeal.Classifier.aFeat (VKc m) c)
    (Cert.KernelIdeal.Classifier.aW1 (VKc m) c) (Cert.KernelIdeal.Classifier.aS1 (VKc m) c) (Cert.KernelIdeal.Classifier.aT1 (VKc m) c)
    (Cert.KernelIdeal.Classifier.aW2 (VKc m) c) (Cert.KernelIdeal.Classifier.aS2 (VKc m) c) (Cert.KernelIdeal.Classifier.aT2 (VKc m) c)
    (Cert.KernelIdeal.Classifier.aW3 (VKc m) c) (Cert.KernelIdeal.Classifier.aB3 (VKc m) c) := by
  unfold kLog
  have h1 : VK m c (Proc.devRef .tc Cert.KernelIdeal.main_v74_1)
      = Cert.KernelIdeal.Gen.V19 m (Cert.KernelIdeal.Whole.outs m) c (Proc.devRef .tc Cert.KernelIdeal.main_v74_1) :=
    Cert.KernelIdeal.Gen.V20_of m (Cert.KernelIdeal.Whole.outs m) c Cert.KernelIdeal.main_v74_1 (by decide)
  rw [h1]
  exact (Cert.KernelIdeal.Whole.hF3 m c 10).symm.trans (Cert.KernelIdeal.Classifier.arr10 (VKc m) c)

theorem rH_eq : rH m' c = hidCols (Cert.ReferenceIdeal.Classifier.aFeat (VRc m') c) (Cert.ReferenceIdeal.Classifier.aW1 (VRc m') c)
    (Cert.ReferenceIdeal.Classifier.aS1 (VRc m') c) (Cert.ReferenceIdeal.Classifier.aT1 (VRc m') c) := by
  unfold rH
  have h1 : VR m' c (Proc.devRef .tc Cert.ReferenceIdeal.main_v119_0)
      = Cert.ReferenceIdeal.Gen.V20 m' (Cert.ReferenceIdeal.Whole.outs m') c (Proc.devRef .tc Cert.ReferenceIdeal.main_v119_0) :=
    Cert.ReferenceIdeal.Gen.V21_of m' (Cert.ReferenceIdeal.Whole.outs m') c Cert.ReferenceIdeal.main_v119_0 (by decide)
  rw [h1]
  exact (Cert.ReferenceIdeal.Whole.hF3 m' c 9).symm.trans (Cert.ReferenceIdeal.Classifier.arr9 (VRc m') c)

theorem rLog_eq : rLog m' c = logRows (Cert.ReferenceIdeal.Gen.k3_pay4 (F := Ideal)) (Cert.ReferenceIdeal.Classifier.aFeat (VRc m') c)
    (Cert.ReferenceIdeal.Classifier.aW1 (VRc m') c) (Cert.ReferenceIdeal.Classifier.aS1 (VRc m') c) (Cert.ReferenceIdeal.Classifier.aT1 (VRc m') c)
    (Cert.ReferenceIdeal.Classifier.aW2 (VRc m') c) (Cert.ReferenceIdeal.Classifier.aS2 (VRc m') c) (Cert.ReferenceIdeal.Classifier.aT2 (VRc m') c)
    (Cert.ReferenceIdeal.Classifier.aW3 (VRc m') c) (Cert.ReferenceIdeal.Classifier.aB3 (VRc m') c) := by
  unfold rLog
  have h1 : VR m' c (Proc.devRef .tc Cert.ReferenceIdeal.main_v119_1)
      = Cert.ReferenceIdeal.Gen.V20 m' (Cert.ReferenceIdeal.Whole.outs m') c (Proc.devRef .tc Cert.ReferenceIdeal.main_v119_1) :=
    Cert.ReferenceIdeal.Gen.V21_of m' (Cert.ReferenceIdeal.Whole.outs m') c Cert.ReferenceIdeal.main_v119_1 (by decide)
  rw [h1]
  exact (Cert.ReferenceIdeal.Whole.hF3 m' c 10).symm.trans (Cert.ReferenceIdeal.Classifier.arr10 (VRc m') c)

/-! ## The operands are the arguments -/

/-- A buffer no region and no later host operation writes is the memory's, at the kernel's classifier. -/
theorem kArg (r : Ref Cert.KernelIdeal.sig .tc) (h19 : r ∉ ([Cert.KernelIdeal.main_v74_0, Cert.KernelIdeal.main_v74_1] : List (Ref Cert.KernelIdeal.sig .tc)))
    (h20 : r ∉ Cert.KernelIdeal.Gen.hostOps4_W) :
    VKc m c r = VK m c (Proc.devRef .tc r) :=
  ((Cert.KernelIdeal.Gen.V20_of m (Cert.KernelIdeal.Whole.outs m) c r h20).trans
    (Cert.KernelIdeal.Gen.V19_of m (Cert.KernelIdeal.Whole.outs m) c r h19)).symm

theorem rArg (r : Ref Cert.ReferenceIdeal.sig .tc) (h20 : r ∉ ([Cert.ReferenceIdeal.main_v119_0, Cert.ReferenceIdeal.main_v119_1] : List (Ref Cert.ReferenceIdeal.sig .tc)))
    (h21 : r ∉ Cert.ReferenceIdeal.Gen.hostOps4_W) :
    VRc m' c r = VR m' c (Proc.devRef .tc r) :=
  ((Cert.ReferenceIdeal.Gen.V21_of m' (Cert.ReferenceIdeal.Whole.outs m') c r h21).trans
    (Cert.ReferenceIdeal.Gen.V20_of m' (Cert.ReferenceIdeal.Whole.outs m') c r h20)).symm

variable (hag : Agree m m')
include hag

theorem w1_eq : Cert.ReferenceIdeal.Classifier.aW1 (VRc m') c = Cert.KernelIdeal.Classifier.aW1 (VKc m) c := by
  show (VRc m' c Cert.ReferenceIdeal.main_arg10 : Lay1) = (VKc m c Cert.KernelIdeal.main_arg10 : Lay1)
  rw [rArg m' c _ (by decide) (by decide), kArg m c _ (by decide) (by decide)]
  exact (Cert.ReferenceIdeal.Gen.V21_main_arg10 m' (Cert.ReferenceIdeal.Whole.outs m') c).trans
    ((hag c).2.2.2.2.2.2.2.2.2.2.1.trans (Cert.KernelIdeal.Gen.V20_main_arg10 m (Cert.KernelIdeal.Whole.outs m) c).symm)

theorem s1_eq : Cert.ReferenceIdeal.Classifier.aS1 (VRc m') c = Cert.KernelIdeal.Classifier.aS1 (VKc m) c := by
  show (VRc m' c Cert.ReferenceIdeal.main_arg11 : Row1) = (VKc m c Cert.KernelIdeal.main_arg11 : Row1)
  rw [rArg m' c _ (by decide) (by decide), kArg m c _ (by decide) (by decide)]
  exact (Cert.ReferenceIdeal.Gen.V21_main_arg11 m' (Cert.ReferenceIdeal.Whole.outs m') c).trans
    ((hag c).2.2.2.2.2.2.2.2.2.2.2.1.trans (Cert.KernelIdeal.Gen.V20_main_arg11 m (Cert.KernelIdeal.Whole.outs m) c).symm)

theorem t1_eq : Cert.ReferenceIdeal.Classifier.aT1 (VRc m') c = Cert.KernelIdeal.Classifier.aT1 (VKc m) c := by
  show (VRc m' c Cert.ReferenceIdeal.main_arg12 : Row1) = (VKc m c Cert.KernelIdeal.main_arg12 : Row1)
  rw [rArg m' c _ (by decide) (by decide), kArg m c _ (by decide) (by decide)]
  exact (Cert.ReferenceIdeal.Gen.V21_main_arg12 m' (Cert.ReferenceIdeal.Whole.outs m') c).trans
    ((hag c).2.2.2.2.2.2.2.2.2.2.2.2.1.trans (Cert.KernelIdeal.Gen.V20_main_arg12 m (Cert.KernelIdeal.Whole.outs m) c).symm)

theorem w2_eq : Cert.ReferenceIdeal.Classifier.aW2 (VRc m') c = Cert.KernelIdeal.Classifier.aW2 (VKc m) c := by
  show (VRc m' c Cert.ReferenceIdeal.main_arg13 : Lay2) = (VKc m c Cert.KernelIdeal.main_arg13 : Lay2)
  rw [rArg m' c _ (by decide) (by decide), kArg m c _ (by decide) (by decide)]
  exact (Cert.ReferenceIdeal.Gen.V21_main_arg13 m' (Cert.ReferenceIdeal.Whole.outs m') c).trans
    ((hag c).2.2.2.2.2.2.2.2.2.2.2.2.2.1.trans (Cert.KernelIdeal.Gen.V20_main_arg13 m (Cert.KernelIdeal.Whole.outs m) c).symm)

theorem s2_eq : Cert.ReferenceIdeal.Classifier.aS2 (VRc m') c = Cert.KernelIdeal.Classifier.aS2 (VKc m) c := by
  show (VRc m' c Cert.ReferenceIdeal.main_arg14 : (⟨3, ![2, 1, 512]⟩ : Shape).Idx → EReal) = (VKc m c Cert.KernelIdeal.main_arg14 : (⟨3, ![2, 1, 512]⟩ : Shape).Idx → EReal)
  rw [rArg m' c _ (by decide) (by decide), kArg m c _ (by decide) (by decide)]
  exact (Cert.ReferenceIdeal.Gen.V21_main_arg14 m' (Cert.ReferenceIdeal.Whole.outs m') c).trans
    ((hag c).2.2.2.2.2.2.2.2.2.2.2.2.2.2.1.trans (Cert.KernelIdeal.Gen.V20_main_arg14 m (Cert.KernelIdeal.Whole.outs m) c).symm)

theorem t2_eq : Cert.ReferenceIdeal.Classifier.aT2 (VRc m') c = Cert.KernelIdeal.Classifier.aT2 (VKc m) c := by
  show (VRc m' c Cert.ReferenceIdeal.main_arg15 : (⟨3, ![2, 1, 512]⟩ : Shape).Idx → EReal) = (VKc m c Cert.KernelIdeal.main_arg15 : (⟨3, ![2, 1, 512]⟩ : Shape).Idx → EReal)
  rw [rArg m' c _ (by decide) (by decide), kArg m c _ (by decide) (by decide)]
  exact (Cert.ReferenceIdeal.Gen.V21_main_arg15 m' (Cert.ReferenceIdeal.Whole.outs m') c).trans
    ((hag c).2.2.2.2.2.2.2.2.2.2.2.2.2.2.2.1.trans (Cert.KernelIdeal.Gen.V20_main_arg15 m (Cert.KernelIdeal.Whole.outs m) c).symm)

theorem w3_eq : Cert.ReferenceIdeal.Classifier.aW3 (VRc m') c = Cert.KernelIdeal.Classifier.aW3 (VKc m) c := by
  show (VRc m' c Cert.ReferenceIdeal.main_arg16 : Lay3) = (VKc m c Cert.KernelIdeal.main_arg16 : Lay3)
  rw [rArg m' c _ (by decide) (by decide), kArg m c _ (by decide) (by decide)]
  exact (Cert.ReferenceIdeal.Gen.V21_main_arg16 m' (Cert.ReferenceIdeal.Whole.outs m') c).trans
    ((hag c).2.2.2.2.2.2.2.2.2.2.2.2.2.2.2.2.1.trans (Cert.KernelIdeal.Gen.V20_main_arg16 m (Cert.KernelIdeal.Whole.outs m) c).symm)

theorem b3_eq : Cert.ReferenceIdeal.Classifier.aB3 (VRc m') c = Cert.KernelIdeal.Classifier.aB3 (VKc m) c := by
  show (VRc m' c Cert.ReferenceIdeal.main_arg17 : (⟨3, ![2, 1, 128]⟩ : Shape).Idx → EReal) = (VKc m c Cert.KernelIdeal.main_arg17 : (⟨3, ![2, 1, 128]⟩ : Shape).Idx → EReal)
  rw [rArg m' c _ (by decide) (by decide), kArg m c _ (by decide) (by decide)]
  exact (Cert.ReferenceIdeal.Gen.V21_main_arg17 m' (Cert.ReferenceIdeal.Whole.outs m') c).trans
    ((hag c).2.2.2.2.2.2.2.2.2.2.2.2.2.2.2.2.2.trans (Cert.KernelIdeal.Gen.V20_main_arg17 m (Cert.KernelIdeal.Whole.outs m) c).symm)

omit hag

/-! ## The features correspond -/

/-- The reference's flattened features are the kernel's transposed third-convolution array, by the previous stage. -/
theorem feat_eq (h3 : Rel3 m m' c) :
    Cert.ReferenceIdeal.Classifier.aFeat (VRc m') c = Cert.KernelIdeal.Classifier.aFeat (VKc m) c := by
  have hR : (VRc m' c Cert.ReferenceIdeal.main_v118 : Feat) = rFeat m' c := by
    unfold rFeat
    rw [rArg m' c _ (by decide) (by decide)]
  have hK : (VKc m c Cert.KernelIdeal.main_v73 : (⟨2, ![2352, 128]⟩ : Shape).Idx → EReal) = kY3 m c := by
    unfold kY3
    rw [kArg m c _ (by decide) (by decide)]
  funext i
  obtain ⟨n, k, rfl⟩ : ∃ (n : Fin 48) (k : Fin 6272), i = ix2 n k := ⟨i 0, i 1, eq_ix2 i⟩
  obtain ⟨ch, p, rfl⟩ : ∃ (ch : Fin 128) (p : Fin 49), k = (⟨ch.val * 49 + p.val, by omega⟩ : Fin 6272) :=
    ⟨⟨k.val / 49, by have := k.isLt; omega⟩, ⟨k.val % 49, by omega⟩, Fin.ext (by show k.val = k.val / 49 * 49 + k.val % 49; omega)⟩
  obtain ⟨y, x, rfl⟩ : ∃ (y x : Fin 7), p = (⟨y.val * 7 + x.val, by omega⟩ : Fin 49) :=
    ⟨⟨p.val / 7, by have := p.isLt; omega⟩, ⟨p.val % 7, by omega⟩, Fin.ext (by show p.val = p.val / 7 * 7 + p.val % 7; omega)⟩
  show (VRc m' c Cert.ReferenceIdeal.main_v118 : Feat) (ix2 n _)
    = Cert.KernelIdeal.Gen.k3_pay1 (F := Ideal) (VKc m c Cert.KernelIdeal.main_v73 : (⟨2, ![2352, 128]⟩ : Shape).Idx → EReal) (ix2 n _)
  rw [hR, hK]
  refine Eq.trans ?_ (Cert.Bridge.KPay.feat_apply (kY3 m c) n ch ⟨y.val * 7 + x.val, by omega⟩).symm
  refine Eq.trans (congrArg (rFeat m' c) (congrArg (ix2 n) (Fin.ext ?_)))
    ((h3 n ch y x).trans (congrArg (kY3 m c) (congrArg (fun r => ix2 r ch) (Fin.ext ?_))))
  · show ch.val * 49 + (y.val * 7 + x.val) = ch.val * 49 + y.val * 7 + x.val; omega
  · show n.val * 49 + y.val * 7 + x.val = n.val * 49 + (y.val * 7 + x.val); omega

/-- The last layer is the same function on both sides. -/
theorem lastLayer_same : (Cert.ReferenceIdeal.Gen.k3_pay4 (F := Ideal) : LastLayer) = Cert.KernelIdeal.Gen.k3_pay6 (F := Ideal) := rfl

/-! ## The stage -/

theorem stage4 (m : KMem) (m' : RMem) (hag : Agree m m') (c : Dev Cert.KernelIdeal.nD) (h3 : Rel3 m m' c) : Rel4 m m' c := by
  have eF := feat_eq m m' c h3
  have e1 := w1_eq m m' c hag
  have e2 := s1_eq m m' c hag
  have e3 := t1_eq m m' c hag
  refine ⟨fun hh n col => ?_, fun r l => ?_⟩
  · rw [rH_eq, kH_eq, eF, e1, e2, e3]
    unfold hidCols hidRows
    have hn : n.val < 48 := n.isLt
    have hhh : hh.val < 2 := hh.isLt
    refine congrArg₂ (hidAt (C := 4096) _ _ _ _) (Fin.ext ?_) (Fin.ext ?_)
    · show n.val = (hh.val * 48 + n.val) % 48; omega
    · show hh.val * 2048 + col.val = (hh.val * 48 + n.val) / 48 * 2048 + col.val; omega
  · rw [rLog_eq, kLog_eq, eF, e1, e2, e3, w2_eq m m' c hag, s2_eq m m' c hag, t2_eq m m' c hag, w3_eq m m' c hag, b3_eq m m' c hag, lastLayer_same]

end Cert.Bridge

end
-- ==== Proof.StageDSlices.lean ====
import proofs.«146356_g2000405529851509_pallasbulk_1335_10_alg».proof.Proof.Bridge
import Idealize.ShloMosaic.Lib.StableHlo.Run
import Idealize.ShloMosaic.Lib.Pipeline.Value

/-!
# The four results from the classifier's two arrays

Each program ends by slicing its hidden array and its padded logits. The reference keeps the hidden layer as
48 rows of (head, 2048) columns, the kernel as (head, image) rows of 2048 columns; the logits are laid out alike.
Every result is therefore an entry of the classifier's arrays at corresponding places, and the correspondence of
those arrays gives the equality.
-/

noncomputable section

namespace Cert.Bridge

open Idealize.ShloMosaic Idealize.ShloMosaic.ValueIdx Idealize.SL.Sem

variable (m : KMem) (m' : RMem) (c : Dev Cert.KernelIdeal.nD)

/-! ## Each result as a slice of a classifier array -/

theorem ref_logits_head0 :
    (VR m' c (Proc.devRef .tc Cert.ReferenceIdeal.main_v122) : Cert.ReferenceIdeal.S48x10.Idx → EReal)
      = extractStridedSlice Cert.ReferenceIdeal.S48x10 ![0, 0] (rLog m' c) Cert.ReferenceIdeal.Facts₀.slices_S96x128_S48x10_0_0 := by
  unfold rLog
  dsimp only [VR, Cert.ReferenceIdeal.Gen.V21, Cert.ReferenceIdeal.Gen.hostOps4]
  after_results

theorem ref_logits_head1 :
    (VR m' c (Proc.devRef .tc Cert.ReferenceIdeal.main_v123) : Cert.ReferenceIdeal.S48x10.Idx → EReal)
      = extractStridedSlice Cert.ReferenceIdeal.S48x10 ![48, 0] (rLog m' c) Cert.ReferenceIdeal.Facts₀.slices_S96x128_S48x10_48_0 := by
  unfold rLog
  dsimp only [VR, Cert.ReferenceIdeal.Gen.V21, Cert.ReferenceIdeal.Gen.hostOps4]
  after_results

theorem ref_hidden_head0 :
    (VR m' c (Proc.devRef .tc Cert.ReferenceIdeal.main_v120) : Cert.ReferenceIdeal.S48x2048.Idx → EReal)
      = extractStridedSlice Cert.ReferenceIdeal.S48x2048 ![0, 0] (rH m' c) Cert.ReferenceIdeal.Facts₀.slices_S48x4096_S48x2048_0_0 := by
  unfold rH
  dsimp only [VR, Cert.ReferenceIdeal.Gen.V21, Cert.ReferenceIdeal.Gen.hostOps4]
  after_results

theorem ref_hidden_head1 :
    (VR m' c (Proc.devRef .tc Cert.ReferenceIdeal.main_v121) : Cert.ReferenceIdeal.S48x2048.Idx → EReal)
      = extractStridedSlice Cert.ReferenceIdeal.S48x2048 ![0, 2048] (rH m' c) Cert.ReferenceIdeal.Facts₀.slices_S48x4096_S48x2048_0_2048 := by
  unfold rH
  dsimp only [VR, Cert.ReferenceIdeal.Gen.V21, Cert.ReferenceIdeal.Gen.hostOps4]
  after_results

theorem ker_logits_head0 :
    (VK m c (Proc.devRef .tc Cert.KernelIdeal.main_v75) : Cert.KernelIdeal.S48x10.Idx → EReal)
      = extractStridedSlice Cert.KernelIdeal.S48x10 ![0, 0] (kLog m c) Cert.KernelIdeal.Facts₀.slices_S96x128_S48x10_0_0 := by
  unfold kLog
  dsimp only [VK, Cert.KernelIdeal.Gen.V20, Cert.KernelIdeal.Gen.hostOps4]
  after_results

theorem ker_logits_head1 :
    (VK m c (Proc.devRef .tc Cert.KernelIdeal.main_v76) : Cert.KernelIdeal.S48x10.Idx → EReal)
      = extractStridedSlice Cert.KernelIdeal.S48x10 ![48, 0] (kLog m c) Cert.KernelIdeal.Facts₀.slices_S96x128_S48x10_48_0 := by
  unfold kLog
  dsimp only [VK, Cert.KernelIdeal.Gen.V20, Cert.KernelIdeal.Gen.hostOps4]
  after_results

theorem ker_hidden_head0 :
    (VK m c (Proc.devRef .tc Cert.KernelIdeal.main_v77) : Cert.KernelIdeal.S48x2048.Idx → EReal)
      = extractStridedSlice Cert.KernelIdeal.S48x2048 ![0, 0] (kH m c) Cert.KernelIdeal.Facts₀.slices_S96x2048_S48x2048_0_0 := by
  unfold kH
  dsimp only [VK, Cert.KernelIdeal.Gen.V20, Cert.KernelIdeal.Gen.hostOps4]
  after_results

theorem ker_hidden_head1 :
    (VK m c (Proc.devRef .tc Cert.KernelIdeal.main_v78) : Cert.KernelIdeal.S48x2048.Idx → EReal)
      = extractStridedSlice Cert.KernelIdeal.S48x2048 ![48, 0] (kH m c) Cert.KernelIdeal.Facts₀.slices_S96x2048_S48x2048_48_0 := by
  unfold kH
  dsimp only [VK, Cert.KernelIdeal.Gen.V20, Cert.KernelIdeal.Gen.hostOps4]
  after_results

end Cert.Bridge

end
-- ==== Proof.StageDResults.lean ====
import proofs.«146356_g2000405529851509_pallasbulk_1335_10_alg».proof.Proof.StageDSlices
import proofs.«146356_g2000405529851509_pallasbulk_1335_10_alg».proof.Proof.Algebraic
import Idealize.ShloMosaic.Lib.Pipeline.Value

/-!
# The four results are equal

Each result is a slice of one of the classifier's two arrays; read at an index it is an entry of that array, and
the correspondence of the arrays (the hidden layer's rows and columns regrouped by head; the logits alike) gives the
same entry on both sides.
-/

noncomputable section

namespace Cert.Bridge

open Idealize.ShloMosaic Idealize.ShloMosaic.ValueIdx Idealize.SL.Sem

theorem results_entries (m : KMem) (m' : RMem) (c : Dev Cert.KernelIdeal.nD) (h4 : Rel4 m m' c) :
    (VR m' c (Proc.devRef .tc Cert.ReferenceIdeal.main_v122) : Cert.ReferenceIdeal.S48x10.Idx → EReal)
        = VK m c (Proc.devRef .tc Cert.KernelIdeal.main_v75)
    ∧ (VR m' c (Proc.devRef .tc Cert.ReferenceIdeal.main_v123) : Cert.ReferenceIdeal.S48x10.Idx → EReal)
        = VK m c (Proc.devRef .tc Cert.KernelIdeal.main_v76)
    ∧ (VR m' c (Proc.devRef .tc Cert.ReferenceIdeal.main_v120) : Cert.ReferenceIdeal.S48x2048.Idx → EReal)
        = VK m c (Proc.devRef .tc Cert.KernelIdeal.main_v77)
    ∧ (VR m' c (Proc.devRef .tc Cert.ReferenceIdeal.main_v121) : Cert.ReferenceIdeal.S48x2048.Idx → EReal)
        = VK m c (Proc.devRef .tc Cert.KernelIdeal.main_v78) := by
  obtain ⟨hH, hL⟩ := h4
  refine ⟨?_, ?_, ?_, ?_⟩
  · -- logits of head 0: rows 0 … 47, lanes 0 … 9
    rw [ref_logits_head0, ker_logits_head0]
    funext j
    obtain ⟨n, l, rfl⟩ : ∃ (n : Fin 48) (l : Fin 10), j = ix2 n l := ⟨j 0, j 1, eq_ix2 j⟩
    refine (extractStridedSlice_apply _ _ _ (ix2 n l) (ix2 (⟨n.val, by omega⟩ : Fin 96) (⟨l.val, by omega⟩ : Fin 128))
      (fun a => by match a with
        | ⟨0, _⟩ => exact (Nat.zero_add _).symm
        | ⟨1, _⟩ => exact (Nat.zero_add _).symm)).trans ?_
    refine ((hL _ _).trans ?_)
    exact (extractStridedSlice_apply _ _ _ (ix2 n l) (ix2 (⟨n.val, by omega⟩ : Fin 96) (⟨l.val, by omega⟩ : Fin 128))
      (fun a => by match a with
        | ⟨0, _⟩ => exact (Nat.zero_add _).symm
        | ⟨1, _⟩ => exact (Nat.zero_add _).symm)).symm
  · -- logits of head 1: rows 48 … 95
    rw [ref_logits_head1, ker_logits_head1]
    funext j
    obtain ⟨n, l, rfl⟩ : ∃ (n : Fin 48) (l : Fin 10), j = ix2 n l := ⟨j 0, j 1, eq_ix2 j⟩
    refine (extractStridedSlice_apply _ _ _ (ix2 n l) (ix2 (⟨48 + n.val, by omega⟩ : Fin 96) (⟨l.val, by omega⟩ : Fin 128))
      (fun a => by match a with
        | ⟨0, _⟩ => rfl
        | ⟨1, _⟩ => exact (Nat.zero_add _).symm)).trans ?_
    refine ((hL _ _).trans ?_)
    exact (extractStridedSlice_apply _ _ _ (ix2 n l) (ix2 (⟨48 + n.val, by omega⟩ : Fin 96) (⟨l.val, by omega⟩ : Fin 128))
      (fun a => by match a with
        | ⟨0, _⟩ => rfl
        | ⟨1, _⟩ => exact (Nat.zero_add _).symm)).symm
  · -- hidden layer of head 0: the reference's columns 0 … 2047, the kernel's rows 0 … 47
    rw [ref_hidden_head0, ker_hidden_head0]
    funext j
    obtain ⟨n, q, rfl⟩ : ∃ (n : Fin 48) (q : Fin 2048), j = ix2 n q := ⟨j 0, j 1, eq_ix2 j⟩
    refine (extractStridedSlice_apply _ _ _ (ix2 n q) (ix2 n (⟨(0 : Fin 2).val * 2048 + q.val, by omega⟩ : Fin 4096))
      (fun a => by match a with
        | ⟨0, _⟩ => exact (Nat.zero_add _).symm
        | ⟨1, _⟩ => show 0 * 2048 + q.val = 0 + q.val; omega)).trans ?_
    refine ((hH 0 n q).trans ?_)
    exact (extractStridedSlice_apply _ _ _ (ix2 n q) (ix2 (⟨(0 : Fin 2).val * 48 + n.val, by omega⟩ : Fin 96) q)
      (fun a => by match a with
        | ⟨0, _⟩ => show 0 * 48 + n.val = 0 + n.val; omega
        | ⟨1, _⟩ => exact (Nat.zero_add _).symm)).symm
  · -- hidden layer of head 1: the reference's columns 2048 … 4095, the kernel's rows 48 … 95
    rw [ref_hidden_head1, ker_hidden_head1]
    funext j
    obtain ⟨n, q, rfl⟩ : ∃ (n : Fin 48) (q : Fin 2048), j = ix2 n q := ⟨j 0, j 1, eq_ix2 j⟩
    refine (extractStridedSlice_apply _ _ _ (ix2 n q) (ix2 n (⟨(1 : Fin 2).val * 2048 + q.val, by omega⟩ : Fin 4096))
      (fun a => by match a with
        | ⟨0, _⟩ => exact (Nat.zero_add _).symm
        | ⟨1, _⟩ => show 1 * 2048 + q.val = 2048 + q.val; omega)).trans ?_
    refine ((hH 1 n q).trans ?_)
    exact (extractStridedSlice_apply _ _ _ (ix2 n q) (ix2 (⟨(1 : Fin 2).val * 48 + n.val, by omega⟩ : Fin 96) q)
      (fun a => by match a with
        | ⟨0, _⟩ => show 1 * 48 + n.val = 48 + n.val; omega
        | ⟨1, _⟩ => exact (Nat.zero_add _).symm)).symm

/-- The four results agree, given the correspondence of the classifier's arrays. -/
theorem results (m : KMem) (m' : RMem) (c : Dev Cert.KernelIdeal.nD) (h4 : Rel4 m m' c) : ResultsAgree m m' c :=
  results_entries m m' c h4

end Cert.Bridge

end
-- ==== Proof.lean ====
/-
  The claim of this certificate: a digit classifier (three 5 × 5 convolutions with folded batch norm and ReLU, the first
  two followed by 2 × 2 max pooling, then two three-layer heads on the flattened features) computed by four kernel
  regions, against a reference that computes the same network by im2col matrix products, pooling on the host, and one
  classifier region.

  Each of the three programs (the kernel as printed, its idealization, the idealized reference) runs to its end without
  fault and leaves its eighteen argument arrays as launched (Proof/KWhole.lean, Proof/KIWhole.lean, Proof/RIWhole.lean:
  every region entered and left at a valuation of the core's unscoped buffers, the body of each region run once per
  case of its control); the idealization rewrote nothing, so it preserves the kernel trivially.

  The two idealized programs end with every unscoped buffer at its last valuation (Proof/KIRun.lean, Proof/RIRun.lean),
  so they end with equal results once four buffers agree there (Proof/Algebraic.lean). Over the extended reals the two
  sides differ only by regrouping — each convolution's 1600 products summed as five groups of 320 or all at once, the
  maximum over a 2 × 2 window taken in two steps or one, the second layer accumulated over eight blocks of 256 or four
  of 512 — and neither side has a literal besides zero and minus infinity. The agreement is carried through the four
  stage boundaries of Proof/Bridge.lean: the pooled first convolution (Proof/StageAFinal.lean), the pooled second
  (Proof/StageBStage.lean), the flattened third (Proof/StageCStage3.lean), the hidden layer and the logits
  (Proof/StageDStage4.lean), and the four slices that are the results (Proof/StageDResults.lean).
-/
import proofs.«146356_g2000405529851509_pallasbulk_1335_10_alg».proof.Defs
import proofs.«146356_g2000405529851509_pallasbulk_1335_10_alg».proof.Proof.Gen.Kernel
import proofs.«146356_g2000405529851509_pallasbulk_1335_10_alg».proof.Proof.Gen.KernelIdeal
import proofs.«146356_g2000405529851509_pallasbulk_1335_10_alg».proof.Proof.Gen.ReferenceIdeal
import proofs.«146356_g2000405529851509_pallasbulk_1335_10_alg».proof.Proof.Gen.Pre_finite_inputs
import proofs.«146356_g2000405529851509_pallasbulk_1335_10_alg».proof.Proof.KWhole
import proofs.«146356_g2000405529851509_pallasbulk_1335_10_alg».proof.Proof.KIWhole
import proofs.«146356_g2000405529851509_pallasbulk_1335_10_alg».proof.Proof.RIWhole
import proofs.«146356_g2000405529851509_pallasbulk_1335_10_alg».proof.Proof.Algebraic
import proofs.«146356_g2000405529851509_pallasbulk_1335_10_alg».proof.Proof.StageAFinal
import proofs.«146356_g2000405529851509_pallasbulk_1335_10_alg».proof.Proof.StageBStage
import proofs.«146356_g2000405529851509_pallasbulk_1335_10_alg».proof.Proof.StageCStage3
import proofs.«146356_g2000405529851509_pallasbulk_1335_10_alg».proof.Proof.StageDStage4
import proofs.«146356_g2000405529851509_pallasbulk_1335_10_alg».proof.Proof.StageDResults

noncomputable section

namespace Cert.Proof

open Idealize.ShloMosaic Idealize.SL.Sem

theorem frame_kernel : Cert.frame_Kernel :=
  fun m ρ _ => Cert.Kernel.Whole.frame (F := Bits) m ρ

theorem frame_kernel_ideal : Cert.frame_KernelIdeal :=
  fun m ρ _ => Cert.KernelIdeal.Whole.frame (F := Ideal) m ρ

theorem frame_reference_ideal : Cert.frame_ReferenceIdeal :=
  fun m ρ _ => Cert.ReferenceIdeal.Whole.frame (F := Ideal) m ρ

/-- The four results agree at the two programs' last valuations: the four stage correspondences in turn, then the slices. -/
theorem results_agree (m : Cert.Bridge.KMem) (m' : Cert.Bridge.RMem) (hag : Cert.Bridge.Agree m m') (c : Dev Cert.KernelIdeal.nD) :
    Cert.Bridge.ResultsAgree m m' c :=
  Cert.Bridge.results m m' c
    (Cert.Bridge.stage4 m m' hag c
      (Cert.Bridge.stage3 m m' hag c
        (Cert.Bridge.stage2 m m' hag c
          (Cert.Bridge.stage1 m m' hag c))))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial,
    Cert.Bridge.algebraic_of_results results_agree⟩

end Cert.Proof

end
